-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v828) = v0 c
          ∧ r.2.mem ((c.tc : Thread Cert.ReferenceIdeal.nD Cert.ReferenceIdeal.τ).loc Cert.ReferenceIdeal.main_v830) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S8x512 : Shape := ⟨2, ![8, 512]⟩
abbrev S8x512x512 : Shape := ⟨3, ![8, 512, 512]⟩
abbrev S8x512x1024 : Shape := ⟨3, ![8, 512, 1024]⟩
abbrev S8x1024 : Shape := ⟨2, ![8, 1024]⟩
abbrev S8x1024x512 : Shape := ⟨3, ![8, 1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S8x512x512 : S_.BroadcastsInDim S8x512x512 (![] : Fin 0 → Fin S8x512x512.rank)
  reducesTo_S8x512x512_S_d0_1_2 : S8x512x512.ReducesTo [0, 1, 2] S_
  bcast_S_S8x512x1024 : S_.BroadcastsInDim S8x512x1024 (![] : Fin 0 → Fin S8x512x1024.rank)
  reducesTo_S8x512x1024_S_d0_1_2 : S8x512x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x1024x512 : S_.BroadcastsInDim S8x1024x512 (![] : Fin 0 → Fin S8x1024x512.rank)
  reducesTo_S8x1024x512_S_d0_1_2 : S8x1024x512.ReducesTo [0, 1, 2] S_

variable [Facts]

def fn_part4 {F : FTy → Type} [FloatOps F] (main_arg14 : FVec F S8x1024x512 .f32) (main_arg15 : FVec F S8x512 .f32) (main_v63 : IVec S_ 1) (main_v67 : IVec S_ 1) : IVec S_ 1 :=
  let main_v68 : IVec S_ 1 := andi main_v63 main_v67
  let main_v69 : FVec F S8x1024x512 .f32 := Host.absf main_arg14
  let main_cst_26 : FVec F S_ .f32 := constant S_ .f32 0x7F800000#32
  let main_v70 : FVec F S8x1024x512 .f32 := broadcastInDim S8x1024x512 ![] bcast_S_S8x1024x512 main_cst_26
  let main_v71 : IVec S8x1024x512 1 := cmpf .olt main_v69 main_v70
  let main_c_27 : IVec S_ 1 := constantI S_ 1 1#1
  let main_v72 : IVec S_ 1 := (fun x v => Host.reduce IntOp.andi x v reducesTo_S8x1024x512_S_d0_1_2 h_S_) main_v71 main_c_27
  let main_v73 : IVec S_ 1 := andi main_v68 main_v72
  let main_v74 : FVec F S8x512 .f32 := Host.absf main_arg15
  let main_cst_28 : FVec F S_ .f32 := constant S_ .f32 0x7F800000#32
  let main_v75 : FVec F S8x512 .f32 := broadcastInDim S8x512 ![] bcast_S_S8x512 main_cst_28
  let main_v76 : IVec S8x512 1 := cmpf .olt main_v74 main_v75
  let main_c_29 : IVec S_ 1 := constantI S_ 1 1#1
  let main_v77 : IVec S_ 1 := (fun x v => Host.reduce IntOp.andi x v reducesTo_S8x512_S_d0_1 h_S_) main_v76 main_c_29
  let main_v78 : IVec S_ 1 := andi main_v73 main_v77
  main_v78

def fn_part3 {F : FTy → Type} [FloatOps F] (main_arg11 : FVec F S8x512 .f32) (main_arg12 : FVec F S8x512x1024 .f32) (main_arg13 : FVec F S8x1024 .f32) (main_arg14 : FVec F S8x1024x512 .f32) (main_arg15 : FVec F S8x512 .f32) (main_v48 : IVec S_ 1) (main_v49 : FVec F S8x1024x512 .f32) (main_v50 : FVec F S8x1024x512 .f32) : IVec S_ 1 :=
  let main_v51 : IVec S8x1024x512 1 := cmpf .olt main_v49 main_v50
  let main_c_19 : IVec S_ 1 := constantI S_ 1 1#1
  let main_v52 : IVec S_ 1 := (fun x v => Host.reduce IntOp.andi x v reducesTo_S8x1024x512_S_d0_1_2 h_S_) main_v51 main_c_19
  let main_v53 : IVec S_ 1 := andi main_v48 main_v52
  let main_v54 : FVec F S8x512 .f32 := Host.absf main_arg11
  let main_cst_20 : FVec F S_ .f32 := constant S_ .f32 0x7F800000#32
  let main_v55 : FVec F S8x512 .f32 := broadcastInDim S8x512 ![] bcast_S_S8x512 main_cst_20
  let main_v56 : IVec S8x512 1 := cmpf .olt main_v54 main_v55
  let main_c_21 : IVec S_ 1 := constantI S_ 1 1#1
  let main_v57 : IVec S_ 1 := (fun x v => Host.reduce IntOp.andi x v reducesTo_S8x512_S_d0_1 h_S_) main_v56 main_c_21
  let main_v58 : IVec S_ 1 := andi main_v53 main_v57
  let main_v59 : FVec F S8x512x1024 .f32 := Host.absf main_arg12
  let main_cst_22 : FVec F S_ .f32 := constant S_ .f32 0x7F800000#32
  let main_v60 : FVec F S8x512x1024 .f32 := broadcastInDim S8x512x1024 ![] bcast_S_S8x512x1024 main_cst_22
  let main_v61 : IVec S8x512x1024 1 := cmpf .olt main_v59 main_v60
  let main_c_23 : IVec S_ 1 := constantI S_ 1 1#1
  let main_v62 : IVec S_ 1 := (fun x v => Host.reduce IntOp.andi x v reducesTo_S8x512x1024_S_d0_1_2 h_S_) main_v61 main_c_23
  let main_v63 : IVec S_ 1 := andi main_v58 main_v62
  let main_v64 : FVec F S8x1024 .f32 := Host.absf main_arg13
  let main_cst_24 : FVec F S_ .f32 := constant S_ .f32 0x7F800000#32
  let main_v65 : FVec F S8x1024 .f32 := broadcastInDim S8x1024 ![] bcast_S_S8x1024 main_cst_24
  let main_v66 : IVec S8x1024 1 := cmpf .olt main_v64 main_v65
  let main_c_25 : IVec S_ 1 := constantI S_ 1 1#1
  let main_v67 : IVec S_ 1 := (fun x v => Host.reduce IntOp.andi x v reducesTo_S8x1024_S_d0_1 h_S_) main_v66 main_c_25
  fn_part4 (F := F) main_arg14 main_arg15 main_v63 main_v67

def fn_part2 {F : FTy → Type} [FloatOps F] (main_arg7 : FVec F S8x512 .f32) (main_arg8 : FVec F S8x512x1024 .f32) (main_arg9 : FVec F S8x1024 .f32) (main_arg10 : FVec F S8x1024x512 .f32) (main_arg11 : FVec F S8x512 .f32) (main_arg12 : FVec F S8x512x1024 .f32) (main_arg13 : FVec F S8x1024 .f32) (main_arg14 : FVec F S8x1024x512 .f32) (main_arg15 : FVec F S8x512 .f32) (main_v33 : IVec S_ 1) : IVec S_ 1 :=
  let main_v34 : FVec F S8x512 .f32 := Host.absf main_arg7
  let main_cst_12 : FVec F S_ .f32 := constant S_ .f32 0x7F800000#32
  let main_v35 : FVec F S8x512 .f32 := broadcastInDim S8x512 ![] bcast_S_S8x512 main_cst_12
  let main_v36 : IVec S8x512 1 := cmpf .olt main_v34 main_v35
  let main_c_13 : IVec S_ 1 := constantI S_ 1 1#1
  let main_v37 : IVec S_ 1 := (fun x v => Host.reduce IntOp.andi x v reducesTo_S8x512_S_d0_1 h_S_) main_v36 main_c_13
  let main_v38 : IVec S_ 1 := andi main_v33 main_v37
  let main_v39 : FVec F S8x512x1024 .f32 := Host.absf main_arg8
  let main_cst_14 : FVec F S_ .f32 := constant S_ .f32 0x7F800000#32
  let main_v40 : FVec F S8x512x1024 .f32 := broadcastInDim S8x512x1024 ![] bcast_S_S8x512x1024 main_cst_14
  let main_v41 : IVec S8x512x1024 1 := cmpf .olt main_v39 main_v40
  let main_c_15 : IVec S_ 1 := constantI S_ 1 1#1
  let main_v42 : IVec S_ 1 := (fun x v => Host.reduce IntOp.andi x v reducesTo_S8x512x1024_S_d0_1_2 h_S_) main_v41 main_c_15
  let main_v43 : IVec S_ 1 := andi main_v38 main_v42
  let main_v44 : FVec F S8x1024 .f32 := Host.absf main_arg9
  let main_cst_16 : FVec F S_ .f32 := constant S_ .f32 0x7F800000#32
  let main_v45 : FVec F S8x1024 .f32 := broadcastInDim S8x1024 ![] bcast_S_S8x1024 main_cst_16
  let main_v46 : IVec S8x1024 1 := cmpf .olt main_v44 main_v45
  let main_c_17 : IVec S_ 1 := constantI S_ 1 1#1
  let main_v47 : IVec S_ 1 := (fun x v => Host.reduce IntOp.andi x v reducesTo_S8x1024_S_d0_1 h_S_) main_v46 main_c_17
  let main_v48 : IVec S_ 1 := andi main_v43 main_v47
  let main_v49 : FVec F S8x1024x512 .f32 := Host.absf main_arg10
  let main_cst_18 : FVec F S_ .f32 := constant S_ .f32 0x7F800000#32
  let main_v50 : FVec F S8x1024x512 .f32 := broadcastInDim S8x1024x512 ![] bcast_S_S8x1024x512 main_cst_18
  fn_part3 (F := F) main_arg11 main_arg12 main_arg13 main_arg14 main_arg15 main_v48 main_v49 main_v50

def fn_part1 {F : FTy → Type} [FloatOps F] (main_arg4 : FVec F S8x512x512 .f32) (main_arg5 : FVec F S8x512x512 .f32) (main_arg6 : FVec F S8x512 .f32) (main_arg7 : FVec F S8x512 .f32) (main_arg8 : FVec F S8x512x1024 .f32) (main_arg9 : FVec F S8x1024 .f32) (main_arg10 : FVec F S8x1024x512 .f32) (main_arg11 : FVec F S8x512 .f32) (main_arg12 : FVec F S8x512x1024 .f32) (main_arg13 : FVec F S8x1024 .f32) (main_arg14 : FVec F S8x1024x512 .f32) (main_arg15 : FVec F S8x512 .f32) (main_v13 : IVec S_ 1) (main_v16 : IVec S8x512x512 1) : IVec S_ 1 :=
  let main_c_5 : IVec S_ 1 := constantI S_ 1 1#1
  let main_v17 : IVec S_ 1 := (fun x v => Host.reduce IntOp.andi x v reducesTo_S8x512x512_S_d0_1_2 h_S_) main_v16 main_c_5
  let main_v18 : IVec S_ 1 := andi main_v13 main_v17
  let main_v19 : FVec F S8x512x512 .f32 := Host.absf main_arg4
  let main_cst_6 : FVec F S_ .f32 := constant S_ .f32 0x7F800000#32
  let main_v20 : FVec F S8x512x512 .f32 := broadcastInDim S8x512x512 ![] bcast_S_S8x512x512 main_cst_6
  let main_v21 : IVec S8x512x512 1 := cmpf .olt main_v19 main_v20
  let main_c_7 : IVec S_ 1 := constantI S_ 1 1#1
  let main_v22 : IVec S_ 1 := (fun x v => Host.reduce IntOp.andi x v reducesTo_S8x512x512_S_d0_1_2 h_S_) main_v21 main_c_7
  let main_v23 : IVec S_ 1 := andi main_v18 main_v22
  let main_v24 : FVec F S8x512x512 .f32 := Host.absf main_arg5
  let main_cst_8 : FVec F S_ .f32 := constant S_ .f32 0x7F800000#32
  let main_v25 : FVec F S8x512x512 .f32 := broadcastInDim S8x512x512 ![] bcast_S_S8x512x512 main_cst_8
  let main_v26 : IVec S8x512x512 1 := cmpf .olt main_v24 main_v25
  let main_c_9 : IVec S_ 1 := constantI S_ 1 1#1
  let main_v27 : IVec S_ 1 := (fun x v => Host.reduce IntOp.andi x v reducesTo_S8x512x512_S_d0_1_2 h_S_) main_v26 main_c_9
  let main_v28 : IVec S_ 1 := andi main_v23 main_v27
  let main_v29 : FVec F S8x512 .f32 := Host.absf main_arg6
  let main_cst_10 : FVec F S_ .f32 := constant S_ .f32 0x7F800000#32
  let main_v30 : FVec F S8x512 .f32 := broadcastInDim S8x512 ![] bcast_S_S8x512 main_cst_10
  let main_v31 : IVec S8x512 1 := cmpf .olt main_v29 main_v30
  let main_c_11 : IVec S_ 1 := constantI S_ 1 1#1
  let main_v32 : IVec S_ 1 := (fun x v => Host.reduce IntOp.andi x v reducesTo_S8x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x512 .f32) (main_arg1 : FVec F S8x512 .f32) (main_arg2 : FVec F S8x512 .f32) (main_arg3 : FVec F S8x512x512 .f32) (main_arg4 : FVec F S8x512x512 .f32) (main_arg5 : FVec F S8x512x512 .f32) (main_arg6 : FVec F S8x512 .f32) (main_arg7 : FVec F S8x512 .f32) (main_arg8 : FVec F S8x512x1024 .f32) (main_arg9 : FVec F S8x1024 .f32) (main_arg10 : FVec F S8x1024x512 .f32) (main_arg11 : FVec F S8x512 .f32) (main_arg12 : FVec F S8x512x1024 .f32) (main_arg13 : FVec F S8x1024 .f32) (main_arg14 : FVec F S8x1024x512 .f32) (main_arg15 : FVec F S8x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S8x512x512 .f32 := Host.absf main_arg3
  let main_cst_4 : FVec F S_ .f32 := constant S_ .f32 0x7F800000#32
  let main_v15 : FVec F S8x512x512 .f32 := broadcastInDim S8x512x512 ![] bcast_S_S8x512x512 main_cst_4
  let main_v16 : IVec S8x512x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x512 : Shape := ⟨2, ![16384, 512]⟩
abbrev S8x512 : Shape := ⟨2, ![8, 512]⟩
abbrev S8x512x512 : Shape := ⟨3, ![8, 512, 512]⟩
abbrev S8x512x1024 : Shape := ⟨3, ![8, 512, 1024]⟩
abbrev S8x1024 : Shape := ⟨2, ![8, 1024]⟩
abbrev S8x1024x512 : Shape := ⟨3, ![8, 1024, 512]⟩
abbrev S512x512 : Shape := ⟨2, ![512, 512]⟩
abbrev S_ : Shape := ⟨0, ![]⟩
abbrev S512 : Shape := ⟨1, ![512]⟩
abbrev S1x512x512 : Shape := ⟨3, ![1, 512, 512]⟩
abbrev S8x512x1 : Shape := ⟨3, ![8, 512, 1]⟩
abbrev S1x512 : Shape := ⟨2, ![1, 512]⟩
abbrev S8x1x512 : Shape := ⟨3, ![8, 1, 512]⟩
abbrev S8x1x1024 : Shape := ⟨3, ![8, 1, 1024]⟩
abbrev S16384x1 : Shape := ⟨2, ![16384, 1]⟩
abbrev S1x1x512 : Shape := ⟨3, ![1, 1, 512]⟩
abbrev S1x512x1024 : Shape := ⟨3, ![1, 512, 1024]⟩
abbrev S1x1x1024 : Shape := ⟨3, ![1, 1, 1024]⟩
abbrev S1x1024x512 : Shape := ⟨3, ![1, 1024, 512]⟩
abbrev S512x1 : Shape := ⟨2, ![512, 1]⟩
abbrev S512x1024 : Shape := ⟨2, ![512, 1024]⟩
abbrev S1x1024 : Shape := ⟨2, ![1, 1024]⟩
abbrev S1024x512 : Shape := ⟨2, ![1024, 512]⟩
abbrev S16384 : Shape := ⟨1, ![16384]⟩

abbrev nBuf : Space → Nat
  | .hbm => 135
  | .vmem => 30
  | .smem => 0
  | _ => 0

abbrev hbmTy0_0 (i : Nat) : BufTy := match i % 128 with
  | 0 => ⟨S16384x512, .f32⟩
  | 1 => ⟨S8x512, .f32⟩
  | 2 => ⟨S8x512, .f32⟩
  | 3 => ⟨S8x512x512, .f32⟩
  | 4 => ⟨S8x512x512, .f32⟩
  | 5 => ⟨S8x512x512, .f32⟩
  | 6 => ⟨S8x512, .f32⟩
  | 7 => ⟨S8x512, .f32⟩
  | 8 => ⟨S8x512x1024, .f32⟩
  | 9 => ⟨S8x1024, .f32⟩
  | 10 => ⟨S8x1024x512, .f32⟩
  | 11 => ⟨S8x512, .f32⟩
  | 12 => ⟨S8x512x1024, .f32⟩
  | 13 => ⟨S8x1024, .f32⟩
  | 14 => ⟨S8x1024x512, .f32⟩
  | 15 => ⟨S8x512, .f32⟩
  | 16 => ⟨S512x512, .i32⟩
  | 17 => ⟨S512x512, .i32⟩
  | 18 => ⟨S_, .i32⟩
  | 19 => ⟨S512x512, .i32⟩
  | 20 => ⟨S512x512, .i32⟩
  | 21 => ⟨S512x512, .i1⟩
  | 22 => ⟨S512x512, .f32⟩
  | 23 => ⟨S_, .f32⟩
  | 24 => ⟨S512x512, .f32⟩
  | 25 => ⟨S512x512, .i32⟩
  | 26 => ⟨S_, .i32⟩
  | 27 => ⟨S512x512, .i32⟩
  | 28 => ⟨S512x512, .i32⟩
  | 29 => ⟨S512x512, .i32⟩
  | 30 => ⟨S512x512, .i1⟩
  | 31 => ⟨S_, .f32⟩
  | 32 => ⟨S512x512, .f32⟩
  | 33 => ⟨S512x512, .f32⟩
  | 34 => ⟨S512x512, .f32⟩
  | 35 => ⟨S512, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S512, .i32⟩
  | 43 => ⟨S512, .i32⟩
  | 44 => ⟨S_, .i32⟩
  | 45 => ⟨S512, .i32⟩
  | 46 => ⟨S512, .i1⟩
  | 47 => ⟨S_, .i32⟩
  | 48 => ⟨S512, .i32⟩
  | 49 => ⟨S512, .i1⟩
  | 50 => ⟨S_, .i32⟩
  | 51 => ⟨S_, .i1⟩
  | 52 => ⟨S512, .i1⟩
  | 53 => ⟨S512, .i1⟩
  | 54 => ⟨S512, .i1⟩
  | 55 => ⟨S512, .i32⟩
  | 56 => ⟨S512, .i32⟩
  | 57 => ⟨S512, .i32⟩
  | 58 => ⟨S_, .i32⟩
  | 59 => ⟨S512, .i32⟩
  | 60 => ⟨S512, .i1⟩
  | 61 => ⟨S512, .f32⟩
  | 62 => ⟨S1x512x512, .f32⟩
  | 63 => ⟨S8x512x512, .f32⟩
  | 64 => ⟨S8x512x512, .f32⟩
  | 65 => ⟨S1x512x512, .f32⟩
  | 66 => ⟨S8x512x512, .f32⟩
  | 67 => ⟨S8x512x512, .f32⟩
  | 68 => ⟨S8x512, .f32⟩
  | 69 => ⟨S8x512, .f32⟩
  | 70 => ⟨S1x512x512, .f32⟩
  | 71 => ⟨S8x512x512, .f32⟩
  | 72 => ⟨S8x512x512, .f32⟩
  | 73 => ⟨S_, .f32⟩
  | 74 => ⟨S8x512, .f32⟩
  | 75 => ⟨S512x512, .i32⟩
  | 76 => ⟨S512x512, .i32⟩
  | 77 => ⟨S_, .i32⟩
  | 78 => ⟨S512x512, .i32⟩
  | 79 => ⟨S512x512, .i32⟩
  | 80 => ⟨S512x512, .i1⟩
  | 81 => ⟨S8x512x1, .f32⟩
  | 82 => ⟨S_, .f32⟩
  | 83 => ⟨S8x512x512, .f32⟩
  | 84 => ⟨S512x512, .f32⟩
  | 85 => ⟨S8x512x512, .i1⟩
  | 86 => ⟨S8x512x512, .f32⟩
  | 87 => ⟨S8x512x512, .f32⟩
  | 88 => ⟨S8x512x512, .f32⟩
  | 89 => ⟨S8x512x512, .f32⟩
  | 90 => ⟨S8x512x512, .f32⟩
  | 91 => ⟨S8x512x512, .f32⟩
  | 92 => ⟨S8x512x512, .bf16⟩
  | 93 => ⟨S_, .f32⟩
  | 94 => ⟨S512, .f32⟩
  | 95 => ⟨S512, .f32⟩
  | 96 => ⟨S_, .f32⟩
  | 97 => ⟨S512, .f32⟩
  | 98 => ⟨S512, .f32⟩
  | 99 => ⟨S_, .f32⟩
  | 100 => ⟨S512, .f32⟩
  | 101 => ⟨S512, .f32⟩
  | 102 => ⟨S_, .f32⟩
  | 103 => ⟨S512, .f32⟩
  | 104 => ⟨S512, .f32⟩
  | 105 => ⟨S1x512, .f32⟩
  | 106 => ⟨S1x512, .f32⟩
  | 107 => ⟨S1x512, .f32⟩
  | 108 => ⟨S1x512, .f32⟩
  | 109 => ⟨S1x512, .f32⟩
  | 110 => ⟨S1x512, .f32⟩
  | 111 => ⟨S1x512, .f32⟩
  | 112 => ⟨S1x512, .f32⟩
  | 113 => ⟨S8x512, .f32⟩
  | 114 => ⟨S8x512x1024, .bf16⟩
  | 115 => ⟨S8x1024x512, .bf16⟩
  | 116 => ⟨S8x512x1024, .bf16⟩
  | 117 => ⟨S8x1024x512, .bf16⟩
  | 118 => ⟨S_, .f32⟩
  | 119 => ⟨S_, .f32⟩
  | 120 => ⟨S_, .f32⟩
  | 121 => ⟨S_, .f32⟩
  | 122 => ⟨S_, .f32⟩
  | 123 => ⟨S8x1x512, .f32⟩
  | 124 => ⟨S8x1x512, .f32⟩
  | 125 => ⟨S8x1x512, .f32⟩
  | 126 => ⟨S8x1x1024, .f32⟩
  | 127 => ⟨S8x1x512, .f32⟩
  | _ => ⟨S16384x512, .f32⟩

abbrev hbmTy0_1 (i : Nat) : BufTy := match i % 128 with
  | 0 => ⟨S8x1x1024, .f32⟩
  | 1 => ⟨S8x1x512, .f32⟩
  | 2 => ⟨S16384x512, .f32⟩
  | 3 => ⟨S16384x1, .f32⟩
  | 4 => ⟨S16384, .f32⟩
  | 5 => ⟨S16384, .f32⟩
  | 6 => ⟨S16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x512x512, .bf16⟩
  | .local _ .vmem, ⟨7, _⟩ => ⟨S1x512x512, .bf16⟩
  | .local _ .vmem, ⟨8, _⟩ => ⟨S1x1x512, .f32⟩
  | .local _ .vmem, ⟨9, _⟩ => ⟨S1x1x512, .f32⟩
  | .local _ .vmem, ⟨10, _⟩ => ⟨S1x512x1024, .bf16⟩
  | .local _ .vmem, ⟨11, _⟩ => ⟨S1x512x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024x512, .bf16⟩
  | .local _ .vmem, ⟨15, _⟩ => ⟨S1x1024x512, .bf16⟩
  | .local _ .vmem, ⟨16, _⟩ => ⟨S1x1x512, .f32⟩
  | .local _ .vmem, ⟨17, _⟩ => ⟨S1x1x512, .f32⟩
  | .local _ .vmem, ⟨18, _⟩ => ⟨S1x512x1024, .bf16⟩
  | .local _ .vmem, ⟨19, _⟩ => ⟨S1x512x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1x1024x512, .bf16⟩
  | .local _ .vmem, ⟨23, _⟩ => ⟨S1x1024x512, .bf16⟩
  | .local _ .vmem, ⟨24, _⟩ => ⟨S1x1x512, .f32⟩
  | .local _ .vmem, ⟨25, _⟩ => ⟨S1x1x512, .f32⟩
  | .local _ .vmem, ⟨26, _⟩ => ⟨S512x512, .f32⟩
  | .local _ .vmem, ⟨27, _⟩ => ⟨S512x512, .f32⟩
  | .local _ .vmem, ⟨28, _⟩ => ⟨S512x1, .f32⟩
  | .local _ .vmem, ⟨29, _⟩ => ⟨S512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v10 : Ref sig .tc := ⟨.hbm, 57, rfl⟩
abbrev main_c_1 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_c : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_cst_0 : Ref sig .tc := ⟨.hbm, 82, rfl⟩
abbrev main_call2_call0_v0 : Ref sig .tc := ⟨.hbm, 83, rfl⟩
abbrev main_call2_call0_v1 : Ref sig .tc := ⟨.hbm, 84, rfl⟩
abbrev main_call2_call0_v2 : Ref sig .tc := ⟨.hbm, 85, rfl⟩
abbrev main_call2_call0_v3 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_2 : Ref sig .tc := ⟨.hbm, 93, rfl⟩
abbrev main_v31 : Ref sig .tc := ⟨.hbm, 94, rfl⟩
abbrev main_v32 : Ref sig .tc := ⟨.hbm, 95, rfl⟩
abbrev main_cst_3 : Ref sig .tc := ⟨.hbm, 96, rfl⟩
abbrev main_v33 : Ref sig .tc := ⟨.hbm, 97, rfl⟩
abbrev main_v34 : Ref sig .tc := ⟨.hbm, 98, rfl⟩
abbrev main_cst_4 : Ref sig .tc := ⟨.hbm, 99, rfl⟩
abbrev main_v35 : Ref sig .tc := ⟨.hbm, 100, rfl⟩
abbrev main_v36 : Ref sig .tc := ⟨.hbm, 101, rfl⟩
abbrev main_cst_5 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_cst_6 : Ref sig .tc := ⟨.hbm, 118, rfl⟩
abbrev main_v52 : Ref sig .tc := ⟨.hbm, 119, rfl⟩
abbrev main_cst_7 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62_0 : Ref sig .tc := ⟨.hbm, 130, rfl⟩
abbrev main_v62_1 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  bcast_S_S512x512 : S_.BroadcastsInDim S512x512 (![] : Fin 0 → Fin S512x512.rank)
  transposes_S512x512_S512x512_1_0 : S512x512.Transposes [1, 0] S512x512
  bcast_S_S512 : S_.BroadcastsInDim S512 (![] : Fin 0 → Fin S512.rank)
  bcast_S512x512_S1x512x512_1_2 : S512x512.BroadcastsInDim S1x512x512 (![1, 2] : Fin 2 → Fin S1x512x512.rank)
  bcast_S1x512x512_S8x512x512_0_1_2 : S1x512x512.BroadcastsInDim S8x512x512 (![0, 1, 2] : Fin 3 → Fin S8x512x512.rank)
  pads_S8x512_S8x512_000_000 : S8x512.Pads (![0, 0] : Fin 2 → Nat) ![0, 0] ![0, 0] S8x512
  h_S_ : 0 < S_.numel
  bcast_S8x512_S8x512x1_0_1 : S8x512.BroadcastsInDim S8x512x1 (![0, 1] : Fin 2 → Fin S8x512x1.rank)
  bcast_S8x512x1_S8x512x512_0_1_2 : S8x512x1.BroadcastsInDim S8x512x512 (![0, 1, 2] : Fin 3 → Fin S8x512x512.rank)
  bcast_S512x512_S8x512x512_1_2 : S512x512.BroadcastsInDim S8x512x512 (![1, 2] : Fin 2 → Fin S8x512x512.rank)
  transposes_S8x512x512_S8x512x512_0_2_1 : S8x512x512.Transposes [0, 2, 1] S8x512x512
  bitsLt_bf16_f32 : FTy.bits .bf16 < FTy.bits .f32
  bcast_S512_S1x512_1 : S512.BroadcastsInDim S1x512 (![1] : Fin 1 → Fin S1x512.rank)
  concatenates_S1x512_S1x512_S1x512_S1x512_S1x512_S1x512_S1x512_S1x512_S8x512_d0 : Shape.Concatenates [S1x512, S1x512, S1x512, S1x512, S1x512, S1x512, S1x512, S1x512] S8x512 0
  reducesTo_S8x512_S_d0_1 : S8x512.ReducesTo [0, 1] S_
  shapeCasts_S8x512_S8x1x512 : S8x512.ShapeCasts S8x1x512
  shapeCasts_S8x1024_S8x1x1024 : S8x1024.ShapeCasts S8x1x1024
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x512_S512x512 : S512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S512x1_S512x1 : S512x1.ShapeCasts S512x1
  reduces_S512x512_S512 : S512x512.Reduces [1] S512
  shapeCasts_S512_S512x1 : S512.ShapeCasts S512x1
  shapeCasts_S16384x1_S16384 : S16384x1.ShapeCasts S16384
  bcast_S_S16384 : S_.BroadcastsInDim S16384 (![] : Fin 0 → Fin S16384.rank)
  dot_S8x512x512_S8x512x512_S8x512x512_2_1_1_2_0_0_wf : DotDims.WF S8x512x512 S8x512x512 S8x512x512 [2] [1] [1] [2] [0] [0]
  dot_S512x512_S512x512_S512x512_1_0_0_1_n_n_wf : DotDims.WF S512x512 S512x512 S512x512 [1] [0] [0] [1] [] []
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x512.size a
  hwx0_1 : ∀ i : grid0.Coords, EltTy.bits .f32 = 32 ∨ (Rect.block (s := S8x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x512x512.size a
  hwx0_3 : ∀ i : grid0.Coords, EltTy.bits .bf16 = 32 ∨ (Rect.block (s := S8x512x512) S1x512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S8x1x512.size a
  hwx0_4 : ∀ i : grid0.Coords, EltTy.bits .f32 = 32 ∨ (Rect.block (s := S8x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x512x1024.size a
  hwx0_5 : ∀ i : grid0.Coords, EltTy.bits .bf16 = 32 ∨ (Rect.block (s := S8x512x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x1024.size a
  hwx0_6 : ∀ i : grid0.Coords, EltTy.bits .f32 = 32 ∨ (Rect.block (s := S8x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S8x1024x512.size a
  hwx0_7 : ∀ i : grid0.Coords, EltTy.bits .bf16 = 32 ∨ (Rect.block (s := S8x1024x512) S1x1024x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S8x1x512.size a
  hwx0_8 : ∀ i : grid0.Coords, EltTy.bits .f32 = 32 ∨ (Rect.block (s := S8x1x512) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S8x512x1024.size a
  hwx0_9 : ∀ i : grid0.Coords, EltTy.bits .bf16 = 32 ∨ (Rect.block (s := S8x512x1024) S1x512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1024.size a ≤ S8x1x1024.size a
  hwx0_10 : ∀ i : grid0.Coords, EltTy.bits .f32 = 32 ∨ (Rect.block (s := S8x1x1024) S1x1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x512.size a ≤ S8x1024x512.size a
  hwx0_11 : ∀ i : grid0.Coords, EltTy.bits .bf16 = 32 ∨ (Rect.block (s := S8x1024x512) S1x1024x512.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x512.size a ≤ S8x1x512.size a
  hwx0_12 : ∀ i : grid0.Coords, EltTy.bits .f32 = 32 ∨ (Rect.block (s := S8x1x512) S1x1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S16384x512.size a
  hwx0_13 : ∀ i : grid0.Coords, EltTy.bits .f32 = 32 ∨ (Rect.block (s := S16384x512) S512x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S16384x1.size a
  hwx0_14 : ∀ i : grid0.Coords, EltTy.bits .f32 = 32 ∨ (Rect.block (s := S16384x1) S512x1.size (cc0_transform_14 i) (hinb0_14 i)).WholeWords (EltTy.packing .f32)

variable [Facts₀]

def dot_S8x512x512_S8x512x512_S8x512x512_2_1_1_2_0_0 : DotDims S8x512x512 S8x512x512 S8x512x512 where
  lhsContracting := [2]
  rhsContracting := [1]
  lhsNonContracting := [1]
  rhsNonContracting := [2]
  lhsBatch := [0]
  rhsBatch := [0]
  wf := dot_S8x512x512_S8x512x512_S8x512x512_2_1_1_2_0_0_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v49) S1x1024x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v59) S1x1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v50) S1x512x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v60) S1x1x1024.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v51) S1x1024x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v61) S1x1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v62_0) S512x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v62_1) S512x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x512 : Shape := ⟨2, ![16384, 512]⟩
abbrev S8x512 : Shape := ⟨2, ![8, 512]⟩
abbrev S8x512x512 : Shape := ⟨3, ![8, 512, 512]⟩
abbrev S8x512x1024 : Shape := ⟨3, ![8, 512, 1024]⟩
abbrev S8x1024 : Shape := ⟨2, ![8, 1024]⟩
abbrev S8x1024x512 : Shape := ⟨3, ![8, 1024, 512]⟩
abbrev S512x512 : Shape := ⟨2, ![512, 512]⟩
abbrev S_ : Shape := ⟨0, ![]⟩
abbrev S512 : Shape := ⟨1, ![512]⟩
abbrev S16384 : Shape := ⟨1, ![16384]⟩
abbrev S1x512 : Shape := ⟨2, ![1, 512]⟩
abbrev S1x512x512 : Shape := ⟨3, ![1, 512, 512]⟩
abbrev S512x1 : Shape := ⟨2, ![512, 1]⟩
abbrev S1x512x1024 : Shape := ⟨3, ![1, 512, 1024]⟩
abbrev S512x1024 : Shape := ⟨2, ![512, 1024]⟩
abbrev S16384x1024 : Shape := ⟨2, ![16384, 1024]⟩
abbrev S1x1024 : Shape := ⟨2, ![1, 1024]⟩
abbrev S1024 : Shape := ⟨1, ![1024]⟩
abbrev S1x1024x512 : Shape := ⟨3, ![1, 1024, 512]⟩
abbrev S1024x512 : Shape := ⟨2, ![1024, 512]⟩

abbrev nBuf : Space → Nat
  | .hbm => 1060
  | .vmem => 0
  | .smem => 0
  | _ => 0

abbrev hbmTy0_0 (i : Nat) : BufTy := match i % 128 with
  | 0 => ⟨S16384x512, .f32⟩
  | 1 => ⟨S8x512, .f32⟩
  | 2 => ⟨S8x512, .f32⟩
  | 3 => ⟨S8x512x512, .f32⟩
  | 4 => ⟨S8x512x512, .f32⟩
  | 5 => ⟨S8x512x512, .f32⟩
  | 6 => ⟨S8x512, .f32⟩
  | 7 => ⟨S8x512, .f32⟩
  | 8 => ⟨S8x512x1024, .f32⟩
  | 9 => ⟨S8x1024, .f32⟩
  | 10 => ⟨S8x1024x512, .f32⟩
  | 11 => ⟨S8x512, .f32⟩
  | 12 => ⟨S8x512x1024, .f32⟩
  | 13 => ⟨S8x1024, .f32⟩
  | 14 => ⟨S8x1024x512, .f32⟩
  | 15 => ⟨S8x512, .f32⟩
  | 16 => ⟨S512x512, .i32⟩
  | 17 => ⟨S512x512, .i32⟩
  | 18 => ⟨S_, .i32⟩
  | 19 => ⟨S512x512, .i32⟩
  | 20 => ⟨S512x512, .i32⟩
  | 21 => ⟨S512x512, .i1⟩
  | 22 => ⟨S512x512, .f32⟩
  | 23 => ⟨S_, .f32⟩
  | 24 => ⟨S512x512, .f32⟩
  | 25 => ⟨S512x512, .i32⟩
  | 26 => ⟨S_, .i32⟩
  | 27 => ⟨S512x512, .i32⟩
  | 28 => ⟨S512x512, .i32⟩
  | 29 => ⟨S512x512, .i32⟩
  | 30 => ⟨S512x512, .i1⟩
  | 31 => ⟨S_, .f32⟩
  | 32 => ⟨S512x512, .f32⟩
  | 33 => ⟨S512x512, .f32⟩
  | 34 => ⟨S512x512, .f32⟩
  | 35 => ⟨S512, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S512, .i32⟩
  | 43 => ⟨S512, .i32⟩
  | 44 => ⟨S_, .i32⟩
  | 45 => ⟨S512, .i32⟩
  | 46 => ⟨S512, .i1⟩
  | 47 => ⟨S_, .i32⟩
  | 48 => ⟨S512, .i32⟩
  | 49 => ⟨S512, .i1⟩
  | 50 => ⟨S_, .i32⟩
  | 51 => ⟨S_, .i1⟩
  | 52 => ⟨S512, .i1⟩
  | 53 => ⟨S512, .i1⟩
  | 54 => ⟨S512, .i1⟩
  | 55 => ⟨S512, .i32⟩
  | 56 => ⟨S512, .i32⟩
  | 57 => ⟨S512, .i32⟩
  | 58 => ⟨S_, .i32⟩
  | 59 => ⟨S512, .i32⟩
  | 60 => ⟨S512, .i1⟩
  | 61 => ⟨S512, .f32⟩
  | 62 => ⟨S_, .f32⟩
  | 63 => ⟨S16384, .f32⟩
  | 64 => ⟨S1x512, .f32⟩
  | 65 => ⟨S512, .f32⟩
  | 66 => ⟨S512, .f32⟩
  | 67 => ⟨S1x512, .f32⟩
  | 68 => ⟨S16384x512, .f32⟩
  | 69 => ⟨S16384x512, .f32⟩
  | 70 => ⟨S1x512, .f32⟩
  | 71 => ⟨S512, .f32⟩
  | 72 => ⟨S1x512, .f32⟩
  | 73 => ⟨S16384x512, .f32⟩
  | 74 => ⟨S16384x512, .f32⟩
  | 75 => ⟨S1x512, .f32⟩
  | 76 => ⟨S512, .f32⟩
  | 77 => ⟨S_, .f32⟩
  | 78 => ⟨S_, .f32⟩
  | 79 => ⟨S16384, .f32⟩
  | 80 => ⟨S16384, .f32⟩
  | 81 => ⟨S1x512x512, .f32⟩
  | 82 => ⟨S512x512, .f32⟩
  | 83 => ⟨S512x512, .f32⟩
  | 84 => ⟨S512x512, .f32⟩
  | 85 => ⟨S1x512x512, .f32⟩
  | 86 => ⟨S512x512, .f32⟩
  | 87 => ⟨S512x512, .f32⟩
  | 88 => ⟨S1x512, .f32⟩
  | 89 => ⟨S512, .f32⟩
  | 90 => ⟨S1x512, .f32⟩
  | 91 => ⟨S512, .f32⟩
  | 92 => ⟨S512, .f32⟩
  | 93 => ⟨S512, .f32⟩
  | 94 => ⟨S_, .f32⟩
  | 95 => ⟨S512, .f32⟩
  | 96 => ⟨S512x512, .i32⟩
  | 97 => ⟨S512x512, .i32⟩
  | 98 => ⟨S_, .i32⟩
  | 99 => ⟨S512x512, .i32⟩
  | 100 => ⟨S512x512, .i32⟩
  | 101 => ⟨S512x512, .i1⟩
  | 102 => ⟨S512x1, .f32⟩
  | 103 => ⟨S_, .f32⟩
  | 104 => ⟨S512x512, .f32⟩
  | 105 => ⟨S512x512, .f32⟩
  | 106 => ⟨S512x512, .f32⟩
  | 107 => ⟨S512x512, .f32⟩
  | 108 => ⟨S1x512x512, .f32⟩
  | 109 => ⟨S512x512, .f32⟩
  | 110 => ⟨S512x512, .f32⟩
  | 111 => ⟨S512x512, .f32⟩
  | 112 => ⟨S512x512, .f32⟩
  | 113 => ⟨S16384x512, .f32⟩
  | 114 => ⟨S1x512, .f32⟩
  | 115 => ⟨S512, .f32⟩
  | 116 => ⟨S_, .f32⟩
  | 117 => ⟨S_, .f32⟩
  | 118 => ⟨S16384, .f32⟩
  | 119 => ⟨S16384, .f32⟩
  | 120 => ⟨S1x512, .f32⟩
  | 121 => ⟨S16384x512, .f32⟩
  | 122 => ⟨S16384x512, .f32⟩
  | 123 => ⟨S1x512x1024, .f32⟩
  | 124 => ⟨S512x1024, .f32⟩
  | 125 => ⟨S16384x1024, .f32⟩
  | 126 => ⟨S1x1024, .f32⟩
  | 127 => ⟨S1024, .f32⟩
  | _ => ⟨S16384x512, .f32⟩

abbrev hbmTy0_1 (i : Nat) : BufTy := match i % 128 with
  | 0 => ⟨S1x1024, .f32⟩
  | 1 => ⟨S16384x1024, .f32⟩
  | 2 => ⟨S16384x1024, .f32⟩
  | 3 => ⟨S_, .f32⟩
  | 4 => ⟨S16384x1024, .f32⟩
  | 5 => ⟨S16384x1024, .f32⟩
  | 6 => ⟨S1x1024x512, .f32⟩
  | 7 => ⟨S1024x512, .f32⟩
  | 8 => ⟨S16384x512, .f32⟩
  | 9 => ⟨S1x512, .f32⟩
  | 10 => ⟨S512, .f32⟩
  | 11 => ⟨S1x512, .f32⟩
  | 12 => ⟨S16384x512, .f32⟩
  | 13 => ⟨S16384x512, .f32⟩
  | 14 => ⟨S16384x512, .f32⟩
  | 15 => ⟨S_, .f32⟩
  | 16 => ⟨S512, .f32⟩
  | 17 => ⟨S512, .f32⟩
  | 18 => ⟨S1x512, .f32⟩
  | 19 => ⟨S16384x512, .f32⟩
  | 20 => ⟨S16384x512, .f32⟩
  | 21 => ⟨S1x512x1024, .f32⟩
  | 22 => ⟨S512x1024, .f32⟩
  | 23 => ⟨S16384x1024, .f32⟩
  | 24 => ⟨S1x1024, .f32⟩
  | 25 => ⟨S1024, .f32⟩
  | 26 => ⟨S1x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S1x1024x512, .f32⟩
  | 33 => ⟨S1024x512, .f32⟩
  | 34 => ⟨S16384x512, .f32⟩
  | 35 => ⟨S1x512, .f32⟩
  | 36 => ⟨S512, .f32⟩
  | 37 => ⟨S1x512, .f32⟩
  | 38 => ⟨S16384x512, .f32⟩
  | 39 => ⟨S16384x512, .f32⟩
  | 40 => ⟨S_, .f32⟩
  | 41 => ⟨S512, .f32⟩
  | 42 => ⟨S512, .f32⟩
  | 43 => ⟨S1x512, .f32⟩
  | 44 => ⟨S16384x512, .f32⟩
  | 45 => ⟨S16384x512, .f32⟩
  | 46 => ⟨S_, .f32⟩
  | 47 => ⟨S512, .f32⟩
  | 48 => ⟨S512, .f32⟩
  | 49 => ⟨S16384x512, .f32⟩
  | 50 => ⟨S16384x512, .f32⟩
  | 51 => ⟨S16384x512, .f32⟩
  | 52 => ⟨S1x512, .f32⟩
  | 53 => ⟨S16384x512, .f32⟩
  | 54 => ⟨S16384x512, .f32⟩
  | 55 => ⟨S16384x512, .f32⟩
  | 56 => ⟨S_, .f32⟩
  | 57 => ⟨S16384, .f32⟩
  | 58 => ⟨S16384, .f32⟩
  | 59 => ⟨S_, .f32⟩
  | 60 => ⟨S512, .f32⟩
  | 61 => ⟨S512, .f32⟩
  | 62 => ⟨S1x512, .f32⟩
  | 63 => ⟨S512, .f32⟩
  | 64 => ⟨S512, .f32⟩
  | 65 => ⟨S1x512, .f32⟩
  | 66 => ⟨S16384x512, .f32⟩
  | 67 => ⟨S16384x512, .f32⟩
  | 68 => ⟨S1x512, .f32⟩
  | 69 => ⟨S512, .f32⟩
  | 70 => ⟨S1x512, .f32⟩
  | 71 => ⟨S16384x512, .f32⟩
  | 72 => ⟨S16384x512, .f32⟩
  | 73 => ⟨S1x512, .f32⟩
  | 74 => ⟨S512, .f32⟩
  | 75 => ⟨S_, .f32⟩
  | 76 => ⟨S_, .f32⟩
  | 77 => ⟨S16384, .f32⟩
  | 78 => ⟨S16384, .f32⟩
  | 79 => ⟨S1x512x512, .f32⟩
  | 80 => ⟨S512x512, .f32⟩
  | 81 => ⟨S512x512, .f32⟩
  | 82 => ⟨S512x512, .f32⟩
  | 83 => ⟨S1x512x512, .f32⟩
  | 84 => ⟨S512x512, .f32⟩
  | 85 => ⟨S512x512, .f32⟩
  | 86 => ⟨S1x512, .f32⟩
  | 87 => ⟨S512, .f32⟩
  | 88 => ⟨S1x512, .f32⟩
  | 89 => ⟨S512, .f32⟩
  | 90 => ⟨S512, .f32⟩
  | 91 => ⟨S512, .f32⟩
  | 92 => ⟨S_, .f32⟩
  | 93 => ⟨S512, .f32⟩
  | 94 => ⟨S512x512, .i32⟩
  | 95 => ⟨S512x512, .i32⟩
  | 96 => ⟨S_, .i32⟩
  | 97 => ⟨S512x512, .i32⟩
  | 98 => ⟨S512x512, .i32⟩
  | 99 => ⟨S512x512, .i1⟩
  | 100 => ⟨S512x1, .f32⟩
  | 101 => ⟨S_, .f32⟩
  | 102 => ⟨S512x512, .f32⟩
  | 103 => ⟨S512x512, .f32⟩
  | 104 => ⟨S512x512, .f32⟩
  | 105 => ⟨S512x512, .f32⟩
  | 106 => ⟨S1x512x512, .f32⟩
  | 107 => ⟨S512x512, .f32⟩
  | 108 => ⟨S512x512, .f32⟩
  | 109 => ⟨S512x512, .f32⟩
  | 110 => ⟨S512x512, .f32⟩
  | 111 => ⟨S16384x512, .f32⟩
  | 112 => ⟨S1x512, .f32⟩
  | 113 => ⟨S512, .f32⟩
  | 114 => ⟨S_, .f32⟩
  | 115 => ⟨S_, .f32⟩
  | 116 => ⟨S16384, .f32⟩
  | 117 => ⟨S16384, .f32⟩
  | 118 => ⟨S1x512, .f32⟩
  | 119 => ⟨S16384x512, .f32⟩
  | 120 => ⟨S16384x512, .f32⟩
  | 121 => ⟨S1x512x1024, .f32⟩
  | 122 => ⟨S512x1024, .f32⟩
  | 123 => ⟨S16384x1024, .f32⟩
  | 124 => ⟨S1x1024, .f32⟩
  | 125 => ⟨S1024, .f32⟩
  | 126 => ⟨S1x1024, .f32⟩
  | 127 => ⟨S16384x1024, .f32⟩
  | _ => ⟨S16384x512, .f32⟩

abbrev hbmTy0_2 (i : Nat) : BufTy := match i % 128 with
  | 0 => ⟨S16384x1024, .f32⟩
  | 1 => ⟨S_, .f32⟩
  | 2 => ⟨S16384x1024, .f32⟩
  | 3 => ⟨S16384x1024, .f32⟩
  | 4 => ⟨S1x1024x512, .f32⟩
  | 5 => ⟨S1024x512, .f32⟩
  | 6 => ⟨S16384x512, .f32⟩
  | 7 => ⟨S1x512, .f32⟩
  | 8 => ⟨S512, .f32⟩
  | 9 => ⟨S1x512, .f32⟩
  | 10 => ⟨S16384x512, .f32⟩
  | 11 => ⟨S16384x512, .f32⟩
  | 12 => ⟨S16384x512, .f32⟩
  | 13 => ⟨S_, .f32⟩
  | 14 => ⟨S512, .f32⟩
  | 15 => ⟨S512, .f32⟩
  | 16 => ⟨S1x512, .f32⟩
  | 17 => ⟨S16384x512, .f32⟩
  | 18 => ⟨S16384x512, .f32⟩
  | 19 => ⟨S1x512x1024, .f32⟩
  | 20 => ⟨S512x1024, .f32⟩
  | 21 => ⟨S16384x1024, .f32⟩
  | 22 => ⟨S1x1024, .f32⟩
  | 23 => ⟨S1024, .f32⟩
  | 24 => ⟨S1x1024, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S1x1024x512, .f32⟩
  | 31 => ⟨S1024x512, .f32⟩
  | 32 => ⟨S16384x512, .f32⟩
  | 33 => ⟨S1x512, .f32⟩
  | 34 => ⟨S512, .f32⟩
  | 35 => ⟨S1x512, .f32⟩
  | 36 => ⟨S16384x512, .f32⟩
  | 37 => ⟨S16384x512, .f32⟩
  | 38 => ⟨S_, .f32⟩
  | 39 => ⟨S512, .f32⟩
  | 40 => ⟨S512, .f32⟩
  | 41 => ⟨S1x512, .f32⟩
  | 42 => ⟨S16384x512, .f32⟩
  | 43 => ⟨S16384x512, .f32⟩
  | 44 => ⟨S_, .f32⟩
  | 45 => ⟨S512, .f32⟩
  | 46 => ⟨S512, .f32⟩
  | 47 => ⟨S16384x512, .f32⟩
  | 48 => ⟨S16384x512, .f32⟩
  | 49 => ⟨S16384x512, .f32⟩
  | 50 => ⟨S1x512, .f32⟩
  | 51 => ⟨S16384x512, .f32⟩
  | 52 => ⟨S16384x512, .f32⟩
  | 53 => ⟨S16384x512, .f32⟩
  | 54 => ⟨S_, .f32⟩
  | 55 => ⟨S16384, .f32⟩
  | 56 => ⟨S16384, .f32⟩
  | 57 => ⟨S1x512, .f32⟩
  | 58 => ⟨S512, .f32⟩
  | 59 => ⟨S512, .f32⟩
  | 60 => ⟨S1x512, .f32⟩
  | 61 => ⟨S16384x512, .f32⟩
  | 62 => ⟨S16384x512, .f32⟩
  | 63 => ⟨S1x512, .f32⟩
  | 64 => ⟨S512, .f32⟩
  | 65 => ⟨S1x512, .f32⟩
  | 66 => ⟨S16384x512, .f32⟩
  | 67 => ⟨S16384x512, .f32⟩
  | 68 => ⟨S1x512, .f32⟩
  | 69 => ⟨S512, .f32⟩
  | 70 => ⟨S_, .f32⟩
  | 71 => ⟨S_, .f32⟩
  | 72 => ⟨S16384, .f32⟩
  | 73 => ⟨S16384, .f32⟩
  | 74 => ⟨S1x512x512, .f32⟩
  | 75 => ⟨S512x512, .f32⟩
  | 76 => ⟨S512x512, .f32⟩
  | 77 => ⟨S512x512, .f32⟩
  | 78 => ⟨S1x512x512, .f32⟩
  | 79 => ⟨S512x512, .f32⟩
  | 80 => ⟨S512x512, .f32⟩
  | 81 => ⟨S1x512, .f32⟩
  | 82 => ⟨S512, .f32⟩
  | 83 => ⟨S1x512, .f32⟩
  | 84 => ⟨S512, .f32⟩
  | 85 => ⟨S512, .f32⟩
  | 86 => ⟨S512, .f32⟩
  | 87 => ⟨S_, .f32⟩
  | 88 => ⟨S512, .f32⟩
  | 89 => ⟨S512x512, .i32⟩
  | 90 => ⟨S512x512, .i32⟩
  | 91 => ⟨S_, .i32⟩
  | 92 => ⟨S512x512, .i32⟩
  | 93 => ⟨S512x512, .i32⟩
  | 94 => ⟨S512x512, .i1⟩
  | 95 => ⟨S512x1, .f32⟩
  | 96 => ⟨S_, .f32⟩
  | 97 => ⟨S512x512, .f32⟩
  | 98 => ⟨S512x512, .f32⟩
  | 99 => ⟨S512x512, .f32⟩
  | 100 => ⟨S512x512, .f32⟩
  | 101 => ⟨S1x512x512, .f32⟩
  | 102 => ⟨S512x512, .f32⟩
  | 103 => ⟨S512x512, .f32⟩
  | 104 => ⟨S512x512, .f32⟩
  | 105 => ⟨S512x512, .f32⟩
  | 106 => ⟨S16384x512, .f32⟩
  | 107 => ⟨S1x512, .f32⟩
  | 108 => ⟨S512, .f32⟩
  | 109 => ⟨S_, .f32⟩
  | 110 => ⟨S_, .f32⟩
  | 111 => ⟨S16384, .f32⟩
  | 112 => ⟨S16384, .f32⟩
  | 113 => ⟨S1x512, .f32⟩
  | 114 => ⟨S16384x512, .f32⟩
  | 115 => ⟨S16384x512, .f32⟩
  | 116 => ⟨S1x512x1024, .f32⟩
  | 117 => ⟨S512x1024, .f32⟩
  | 118 => ⟨S16384x1024, .f32⟩
  | 119 => ⟨S1x1024, .f32⟩
  | 120 => ⟨S1024, .f32⟩
  | 121 => ⟨S1x1024, .f32⟩
  | 122 => ⟨S16384x1024, .f32⟩
  | 123 => ⟨S16384x1024, .f32⟩
  | 124 => ⟨S_, .f32⟩
  | 125 => ⟨S16384x1024, .f32⟩
  | 126 => ⟨S16384x1024, .f32⟩
  | 127 => ⟨S1x1024x512, .f32⟩
  | _ => ⟨S16384x512, .f32⟩

abbrev hbmTy0_3 (i : Nat) : BufTy := match i % 128 with
  | 0 => ⟨S1024x512, .f32⟩
  | 1 => ⟨S16384x512, .f32⟩
  | 2 => ⟨S1x512, .f32⟩
  | 3 => ⟨S512, .f32⟩
  | 4 => ⟨S1x512, .f32⟩
  | 5 => ⟨S16384x512, .f32⟩
  | 6 => ⟨S16384x512, .f32⟩
  | 7 => ⟨S16384x512, .f32⟩
  | 8 => ⟨S_, .f32⟩
  | 9 => ⟨S512, .f32⟩
  | 10 => ⟨S512, .f32⟩
  | 11 => ⟨S1x512, .f32⟩
  | 12 => ⟨S16384x512, .f32⟩
  | 13 => ⟨S16384x512, .f32⟩
  | 14 => ⟨S1x512x1024, .f32⟩
  | 15 => ⟨S512x1024, .f32⟩
  | 16 => ⟨S16384x1024, .f32⟩
  | 17 => ⟨S1x1024, .f32⟩
  | 18 => ⟨S1024, .f32⟩
  | 19 => ⟨S1x1024, .f32⟩
  | 20 => ⟨S16384x1024, .f32⟩
  | 21 => ⟨S16384x1024, .f32⟩
  | 22 => ⟨S_, .f32⟩
  | 23 => ⟨S16384x1024, .f32⟩
  | 24 => ⟨S16384x1024, .f32⟩
  | 25 => ⟨S1x1024x512, .f32⟩
  | 26 => ⟨S1024x512, .f32⟩
  | 27 => ⟨S16384x512, .f32⟩
  | 28 => ⟨S1x512, .f32⟩
  | 29 => ⟨S512, .f32⟩
  | 30 => ⟨S1x512, .f32⟩
  | 31 => ⟨S16384x512, .f32⟩
  | 32 => ⟨S16384x512, .f32⟩
  | 33 => ⟨S_, .f32⟩
  | 34 => ⟨S512, .f32⟩
  | 35 => ⟨S512, .f32⟩
  | 36 => ⟨S1x512, .f32⟩
  | 37 => ⟨S16384x512, .f32⟩
  | 38 => ⟨S16384x512, .f32⟩
  | 39 => ⟨S_, .f32⟩
  | 40 => ⟨S512, .f32⟩
  | 41 => ⟨S512, .f32⟩
  | 42 => ⟨S16384x512, .f32⟩
  | 43 => ⟨S16384x512, .f32⟩
  | 44 => ⟨S16384x512, .f32⟩
  | 45 => ⟨S1x512, .f32⟩
  | 46 => ⟨S16384x512, .f32⟩
  | 47 => ⟨S16384x512, .f32⟩
  | 48 => ⟨S16384x512, .f32⟩
  | 49 => ⟨S_, .f32⟩
  | 50 => ⟨S16384, .f32⟩
  | 51 => ⟨S16384, .f32⟩
  | 52 => ⟨S_, .f32⟩
  | 53 => ⟨S512, .f32⟩
  | 54 => ⟨S512, .f32⟩
  | 55 => ⟨S1x512, .f32⟩
  | 56 => ⟨S512, .f32⟩
  | 57 => ⟨S512, .f32⟩
  | 58 => ⟨S1x512, .f32⟩
  | 59 => ⟨S16384x512, .f32⟩
  | 60 => ⟨S16384x512, .f32⟩
  | 61 => ⟨S1x512, .f32⟩
  | 62 => ⟨S512, .f32⟩
  | 63 => ⟨S1x512, .f32⟩
  | 64 => ⟨S16384x512, .f32⟩
  | 65 => ⟨S16384x512, .f32⟩
  | 66 => ⟨S1x512, .f32⟩
  | 67 => ⟨S512, .f32⟩
  | 68 => ⟨S_, .f32⟩
  | 69 => ⟨S_, .f32⟩
  | 70 => ⟨S16384, .f32⟩
  | 71 => ⟨S16384, .f32⟩
  | 72 => ⟨S1x512x512, .f32⟩
  | 73 => ⟨S512x512, .f32⟩
  | 74 => ⟨S512x512, .f32⟩
  | 75 => ⟨S512x512, .f32⟩
  | 76 => ⟨S1x512x512, .f32⟩
  | 77 => ⟨S512x512, .f32⟩
  | 78 => ⟨S512x512, .f32⟩
  | 79 => ⟨S1x512, .f32⟩
  | 80 => ⟨S512, .f32⟩
  | 81 => ⟨S1x512, .f32⟩
  | 82 => ⟨S512, .f32⟩
  | 83 => ⟨S512, .f32⟩
  | 84 => ⟨S512, .f32⟩
  | 85 => ⟨S_, .f32⟩
  | 86 => ⟨S512, .f32⟩
  | 87 => ⟨S512x512, .i32⟩
  | 88 => ⟨S512x512, .i32⟩
  | 89 => ⟨S_, .i32⟩
  | 90 => ⟨S512x512, .i32⟩
  | 91 => ⟨S512x512, .i32⟩
  | 92 => ⟨S512x512, .i1⟩
  | 93 => ⟨S512x1, .f32⟩
  | 94 => ⟨S_, .f32⟩
  | 95 => ⟨S512x512, .f32⟩
  | 96 => ⟨S512x512, .f32⟩
  | 97 => ⟨S512x512, .f32⟩
  | 98 => ⟨S512x512, .f32⟩
  | 99 => ⟨S1x512x512, .f32⟩
  | 100 => ⟨S512x512, .f32⟩
  | 101 => ⟨S512x512, .f32⟩
  | 102 => ⟨S512x512, .f32⟩
  | 103 => ⟨S512x512, .f32⟩
  | 104 => ⟨S16384x512, .f32⟩
  | 105 => ⟨S1x512, .f32⟩
  | 106 => ⟨S512, .f32⟩
  | 107 => ⟨S_, .f32⟩
  | 108 => ⟨S_, .f32⟩
  | 109 => ⟨S16384, .f32⟩
  | 110 => ⟨S16384, .f32⟩
  | 111 => ⟨S1x512, .f32⟩
  | 112 => ⟨S16384x512, .f32⟩
  | 113 => ⟨S16384x512, .f32⟩
  | 114 => ⟨S1x512x1024, .f32⟩
  | 115 => ⟨S512x1024, .f32⟩
  | 116 => ⟨S16384x1024, .f32⟩
  | 117 => ⟨S1x1024, .f32⟩
  | 118 => ⟨S1024, .f32⟩
  | 119 => ⟨S1x1024, .f32⟩
  | 120 => ⟨S16384x1024, .f32⟩
  | 121 => ⟨S16384x1024, .f32⟩
  | 122 => ⟨S_, .f32⟩
  | 123 => ⟨S16384x1024, .f32⟩
  | 124 => ⟨S16384x1024, .f32⟩
  | 125 => ⟨S1x1024x512, .f32⟩
  | 126 => ⟨S1024x512, .f32⟩
  | 127 => ⟨S16384x512, .f32⟩
  | _ => ⟨S16384x512, .f32⟩

abbrev hbmTy0_4 (i : Nat) : BufTy := match i % 128 with
  | 0 => ⟨S1x512, .f32⟩
  | 1 => ⟨S512, .f32⟩
  | 2 => ⟨S1x512, .f32⟩
  | 3 => ⟨S16384x512, .f32⟩
  | 4 => ⟨S16384x512, .f32⟩
  | 5 => ⟨S16384x512, .f32⟩
  | 6 => ⟨S_, .f32⟩
  | 7 => ⟨S512, .f32⟩
  | 8 => ⟨S512, .f32⟩
  | 9 => ⟨S1x512, .f32⟩
  | 10 => ⟨S16384x512, .f32⟩
  | 11 => ⟨S16384x512, .f32⟩
  | 12 => ⟨S1x512x1024, .f32⟩
  | 13 => ⟨S512x1024, .f32⟩
  | 14 => ⟨S16384x1024, .f32⟩
  | 15 => ⟨S1x1024, .f32⟩
  | 16 => ⟨S1024, .f32⟩
  | 17 => ⟨S1x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S1x1024x512, .f32⟩
  | 24 => ⟨S1024x512, .f32⟩
  | 25 => ⟨S16384x512, .f32⟩
  | 26 => ⟨S1x512, .f32⟩
  | 27 => ⟨S512, .f32⟩
  | 28 => ⟨S1x512, .f32⟩
  | 29 => ⟨S16384x512, .f32⟩
  | 30 => ⟨S16384x512, .f32⟩
  | 31 => ⟨S_, .f32⟩
  | 32 => ⟨S512, .f32⟩
  | 33 => ⟨S512, .f32⟩
  | 34 => ⟨S1x512, .f32⟩
  | 35 => ⟨S16384x512, .f32⟩
  | 36 => ⟨S16384x512, .f32⟩
  | 37 => ⟨S_, .f32⟩
  | 38 => ⟨S512, .f32⟩
  | 39 => ⟨S512, .f32⟩
  | 40 => ⟨S16384x512, .f32⟩
  | 41 => ⟨S16384x512, .f32⟩
  | 42 => ⟨S16384x512, .f32⟩
  | 43 => ⟨S1x512, .f32⟩
  | 44 => ⟨S16384x512, .f32⟩
  | 45 => ⟨S16384x512, .f32⟩
  | 46 => ⟨S16384x512, .f32⟩
  | 47 => ⟨S_, .f32⟩
  | 48 => ⟨S16384, .f32⟩
  | 49 => ⟨S16384, .f32⟩
  | 50 => ⟨S1x512, .f32⟩
  | 51 => ⟨S512, .f32⟩
  | 52 => ⟨S512, .f32⟩
  | 53 => ⟨S1x512, .f32⟩
  | 54 => ⟨S16384x512, .f32⟩
  | 55 => ⟨S16384x512, .f32⟩
  | 56 => ⟨S1x512, .f32⟩
  | 57 => ⟨S512, .f32⟩
  | 58 => ⟨S1x512, .f32⟩
  | 59 => ⟨S16384x512, .f32⟩
  | 60 => ⟨S16384x512, .f32⟩
  | 61 => ⟨S1x512, .f32⟩
  | 62 => ⟨S512, .f32⟩
  | 63 => ⟨S_, .f32⟩
  | 64 => ⟨S_, .f32⟩
  | 65 => ⟨S16384, .f32⟩
  | 66 => ⟨S16384, .f32⟩
  | 67 => ⟨S1x512x512, .f32⟩
  | 68 => ⟨S512x512, .f32⟩
  | 69 => ⟨S512x512, .f32⟩
  | 70 => ⟨S512x512, .f32⟩
  | 71 => ⟨S1x512x512, .f32⟩
  | 72 => ⟨S512x512, .f32⟩
  | 73 => ⟨S512x512, .f32⟩
  | 74 => ⟨S1x512, .f32⟩
  | 75 => ⟨S512, .f32⟩
  | 76 => ⟨S1x512, .f32⟩
  | 77 => ⟨S512, .f32⟩
  | 78 => ⟨S512, .f32⟩
  | 79 => ⟨S512, .f32⟩
  | 80 => ⟨S_, .f32⟩
  | 81 => ⟨S512, .f32⟩
  | 82 => ⟨S512x512, .i32⟩
  | 83 => ⟨S512x512, .i32⟩
  | 84 => ⟨S_, .i32⟩
  | 85 => ⟨S512x512, .i32⟩
  | 86 => ⟨S512x512, .i32⟩
  | 87 => ⟨S512x512, .i1⟩
  | 88 => ⟨S512x1, .f32⟩
  | 89 => ⟨S_, .f32⟩
  | 90 => ⟨S512x512, .f32⟩
  | 91 => ⟨S512x512, .f32⟩
  | 92 => ⟨S512x512, .f32⟩
  | 93 => ⟨S512x512, .f32⟩
  | 94 => ⟨S1x512x512, .f32⟩
  | 95 => ⟨S512x512, .f32⟩
  | 96 => ⟨S512x512, .f32⟩
  | 97 => ⟨S512x512, .f32⟩
  | 98 => ⟨S512x512, .f32⟩
  | 99 => ⟨S16384x512, .f32⟩
  | 100 => ⟨S1x512, .f32⟩
  | 101 => ⟨S512, .f32⟩
  | 102 => ⟨S_, .f32⟩
  | 103 => ⟨S_, .f32⟩
  | 104 => ⟨S16384, .f32⟩
  | 105 => ⟨S16384, .f32⟩
  | 106 => ⟨S1x512, .f32⟩
  | 107 => ⟨S16384x512, .f32⟩
  | 108 => ⟨S16384x512, .f32⟩
  | 109 => ⟨S1x512x1024, .f32⟩
  | 110 => ⟨S512x1024, .f32⟩
  | 111 => ⟨S16384x1024, .f32⟩
  | 112 => ⟨S1x1024, .f32⟩
  | 113 => ⟨S1024, .f32⟩
  | 114 => ⟨S1x1024, .f32⟩
  | 115 => ⟨S16384x1024, .f32⟩
  | 116 => ⟨S16384x1024, .f32⟩
  | 117 => ⟨S_, .f32⟩
  | 118 => ⟨S16384x1024, .f32⟩
  | 119 => ⟨S16384x1024, .f32⟩
  | 120 => ⟨S1x1024x512, .f32⟩
  | 121 => ⟨S1024x512, .f32⟩
  | 122 => ⟨S16384x512, .f32⟩
  | 123 => ⟨S1x512, .f32⟩
  | 124 => ⟨S512, .f32⟩
  | 125 => ⟨S1x512, .f32⟩
  | 126 => ⟨S16384x512, .f32⟩
  | 127 => ⟨S16384x512, .f32⟩
  | _ => ⟨S16384x512, .f32⟩

abbrev hbmTy0_5 (i : Nat) : BufTy := match i % 128 with
  | 0 => ⟨S16384x512, .f32⟩
  | 1 => ⟨S_, .f32⟩
  | 2 => ⟨S512, .f32⟩
  | 3 => ⟨S512, .f32⟩
  | 4 => ⟨S1x512, .f32⟩
  | 5 => ⟨S16384x512, .f32⟩
  | 6 => ⟨S16384x512, .f32⟩
  | 7 => ⟨S1x512x1024, .f32⟩
  | 8 => ⟨S512x1024, .f32⟩
  | 9 => ⟨S16384x1024, .f32⟩
  | 10 => ⟨S1x1024, .f32⟩
  | 11 => ⟨S1024, .f32⟩
  | 12 => ⟨S1x1024, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S1x1024x512, .f32⟩
  | 19 => ⟨S1024x512, .f32⟩
  | 20 => ⟨S16384x512, .f32⟩
  | 21 => ⟨S1x512, .f32⟩
  | 22 => ⟨S512, .f32⟩
  | 23 => ⟨S1x512, .f32⟩
  | 24 => ⟨S16384x512, .f32⟩
  | 25 => ⟨S16384x512, .f32⟩
  | 26 => ⟨S_, .f32⟩
  | 27 => ⟨S512, .f32⟩
  | 28 => ⟨S512, .f32⟩
  | 29 => ⟨S1x512, .f32⟩
  | 30 => ⟨S16384x512, .f32⟩
  | 31 => ⟨S16384x512, .f32⟩
  | 32 => ⟨S_, .f32⟩
  | 33 => ⟨S512, .f32⟩
  | 34 => ⟨S512, .f32⟩
  | 35 => ⟨S16384x512, .f32⟩
  | 36 => ⟨S16384x512, .f32⟩
  | 37 => ⟨S16384x512, .f32⟩
  | 38 => ⟨S1x512, .f32⟩
  | 39 => ⟨S16384x512, .f32⟩
  | 40 => ⟨S16384x512, .f32⟩
  | 41 => ⟨S16384x512, .f32⟩
  | 42 => ⟨S_, .f32⟩
  | 43 => ⟨S16384, .f32⟩
  | 44 => ⟨S16384, .f32⟩
  | 45 => ⟨S_, .f32⟩
  | 46 => ⟨S512, .f32⟩
  | 47 => ⟨S512, .f32⟩
  | 48 => ⟨S1x512, .f32⟩
  | 49 => ⟨S512, .f32⟩
  | 50 => ⟨S512, .f32⟩
  | 51 => ⟨S1x512, .f32⟩
  | 52 => ⟨S16384x512, .f32⟩
  | 53 => ⟨S16384x512, .f32⟩
  | 54 => ⟨S1x512, .f32⟩
  | 55 => ⟨S512, .f32⟩
  | 56 => ⟨S1x512, .f32⟩
  | 57 => ⟨S16384x512, .f32⟩
  | 58 => ⟨S16384x512, .f32⟩
  | 59 => ⟨S1x512, .f32⟩
  | 60 => ⟨S512, .f32⟩
  | 61 => ⟨S_, .f32⟩
  | 62 => ⟨S_, .f32⟩
  | 63 => ⟨S16384, .f32⟩
  | 64 => ⟨S16384, .f32⟩
  | 65 => ⟨S1x512x512, .f32⟩
  | 66 => ⟨S512x512, .f32⟩
  | 67 => ⟨S512x512, .f32⟩
  | 68 => ⟨S512x512, .f32⟩
  | 69 => ⟨S1x512x512, .f32⟩
  | 70 => ⟨S512x512, .f32⟩
  | 71 => ⟨S512x512, .f32⟩
  | 72 => ⟨S1x512, .f32⟩
  | 73 => ⟨S512, .f32⟩
  | 74 => ⟨S1x512, .f32⟩
  | 75 => ⟨S512, .f32⟩
  | 76 => ⟨S512, .f32⟩
  | 77 => ⟨S512, .f32⟩
  | 78 => ⟨S_, .f32⟩
  | 79 => ⟨S512, .f32⟩
  | 80 => ⟨S512x512, .i32⟩
  | 81 => ⟨S512x512, .i32⟩
  | 82 => ⟨S_, .i32⟩
  | 83 => ⟨S512x512, .i32⟩
  | 84 => ⟨S512x512, .i32⟩
  | 85 => ⟨S512x512, .i1⟩
  | 86 => ⟨S512x1, .f32⟩
  | 87 => ⟨S_, .f32⟩
  | 88 => ⟨S512x512, .f32⟩
  | 89 => ⟨S512x512, .f32⟩
  | 90 => ⟨S512x512, .f32⟩
  | 91 => ⟨S512x512, .f32⟩
  | 92 => ⟨S1x512x512, .f32⟩
  | 93 => ⟨S512x512, .f32⟩
  | 94 => ⟨S512x512, .f32⟩
  | 95 => ⟨S512x512, .f32⟩
  | 96 => ⟨S512x512, .f32⟩
  | 97 => ⟨S16384x512, .f32⟩
  | 98 => ⟨S1x512, .f32⟩
  | 99 => ⟨S512, .f32⟩
  | 100 => ⟨S_, .f32⟩
  | 101 => ⟨S_, .f32⟩
  | 102 => ⟨S16384, .f32⟩
  | 103 => ⟨S16384, .f32⟩
  | 104 => ⟨S1x512, .f32⟩
  | 105 => ⟨S16384x512, .f32⟩
  | 106 => ⟨S16384x512, .f32⟩
  | 107 => ⟨S1x512x1024, .f32⟩
  | 108 => ⟨S512x1024, .f32⟩
  | 109 => ⟨S16384x1024, .f32⟩
  | 110 => ⟨S1x1024, .f32⟩
  | 111 => ⟨S1024, .f32⟩
  | 112 => ⟨S1x1024, .f32⟩
  | 113 => ⟨S16384x1024, .f32⟩
  | 114 => ⟨S16384x1024, .f32⟩
  | 115 => ⟨S_, .f32⟩
  | 116 => ⟨S16384x1024, .f32⟩
  | 117 => ⟨S16384x1024, .f32⟩
  | 118 => ⟨S1x1024x512, .f32⟩
  | 119 => ⟨S1024x512, .f32⟩
  | 120 => ⟨S16384x512, .f32⟩
  | 121 => ⟨S1x512, .f32⟩
  | 122 => ⟨S512, .f32⟩
  | 123 => ⟨S1x512, .f32⟩
  | 124 => ⟨S16384x512, .f32⟩
  | 125 => ⟨S16384x512, .f32⟩
  | 126 => ⟨S16384x512, .f32⟩
  | 127 => ⟨S_, .f32⟩
  | _ => ⟨S16384x512, .f32⟩

abbrev hbmTy0_6 (i : Nat) : BufTy := match i % 128 with
  | 0 => ⟨S512, .f32⟩
  | 1 => ⟨S512, .f32⟩
  | 2 => ⟨S1x512, .f32⟩
  | 3 => ⟨S16384x512, .f32⟩
  | 4 => ⟨S16384x512, .f32⟩
  | 5 => ⟨S1x512x1024, .f32⟩
  | 6 => ⟨S512x1024, .f32⟩
  | 7 => ⟨S16384x1024, .f32⟩
  | 8 => ⟨S1x1024, .f32⟩
  | 9 => ⟨S1024, .f32⟩
  | 10 => ⟨S1x1024, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S1x1024x512, .f32⟩
  | 17 => ⟨S1024x512, .f32⟩
  | 18 => ⟨S16384x512, .f32⟩
  | 19 => ⟨S1x512, .f32⟩
  | 20 => ⟨S512, .f32⟩
  | 21 => ⟨S1x512, .f32⟩
  | 22 => ⟨S16384x512, .f32⟩
  | 23 => ⟨S16384x512, .f32⟩
  | 24 => ⟨S_, .f32⟩
  | 25 => ⟨S512, .f32⟩
  | 26 => ⟨S512, .f32⟩
  | 27 => ⟨S1x512, .f32⟩
  | 28 => ⟨S16384x512, .f32⟩
  | 29 => ⟨S16384x512, .f32⟩
  | 30 => ⟨S_, .f32⟩
  | 31 => ⟨S512, .f32⟩
  | 32 => ⟨S512, .f32⟩
  | 33 => ⟨S16384x512, .f32⟩
  | 34 => ⟨S16384x512, .f32⟩
  | 35 => ⟨S16384x512, .f32⟩
  | 36 => ⟨S1x512, .f32⟩
  | 37 => ⟨S16384x512, .f32⟩
  | 38 => ⟨S16384x512, .f32⟩
  | 39 => ⟨S16384x512, .f32⟩
  | 40 => ⟨S_, .f32⟩
  | 41 => ⟨S16384, .f32⟩
  | 42 => ⟨S16384, .f32⟩
  | 43 => ⟨S1x512, .f32⟩
  | 44 => ⟨S512, .f32⟩
  | 45 => ⟨S512, .f32⟩
  | 46 => ⟨S1x512, .f32⟩
  | 47 => ⟨S16384x512, .f32⟩
  | 48 => ⟨S16384x512, .f32⟩
  | 49 => ⟨S1x512, .f32⟩
  | 50 => ⟨S512, .f32⟩
  | 51 => ⟨S1x512, .f32⟩
  | 52 => ⟨S16384x512, .f32⟩
  | 53 => ⟨S16384x512, .f32⟩
  | 54 => ⟨S1x512, .f32⟩
  | 55 => ⟨S512, .f32⟩
  | 56 => ⟨S_, .f32⟩
  | 57 => ⟨S_, .f32⟩
  | 58 => ⟨S16384, .f32⟩
  | 59 => ⟨S16384, .f32⟩
  | 60 => ⟨S1x512x512, .f32⟩
  | 61 => ⟨S512x512, .f32⟩
  | 62 => ⟨S512x512, .f32⟩
  | 63 => ⟨S512x512, .f32⟩
  | 64 => ⟨S1x512x512, .f32⟩
  | 65 => ⟨S512x512, .f32⟩
  | 66 => ⟨S512x512, .f32⟩
  | 67 => ⟨S1x512, .f32⟩
  | 68 => ⟨S512, .f32⟩
  | 69 => ⟨S1x512, .f32⟩
  | 70 => ⟨S512, .f32⟩
  | 71 => ⟨S512, .f32⟩
  | 72 => ⟨S512, .f32⟩
  | 73 => ⟨S_, .f32⟩
  | 74 => ⟨S512, .f32⟩
  | 75 => ⟨S512x512, .i32⟩
  | 76 => ⟨S512x512, .i32⟩
  | 77 => ⟨S_, .i32⟩
  | 78 => ⟨S512x512, .i32⟩
  | 79 => ⟨S512x512, .i32⟩
  | 80 => ⟨S512x512, .i1⟩
  | 81 => ⟨S512x1, .f32⟩
  | 82 => ⟨S_, .f32⟩
  | 83 => ⟨S512x512, .f32⟩
  | 84 => ⟨S512x512, .f32⟩
  | 85 => ⟨S512x512, .f32⟩
  | 86 => ⟨S512x512, .f32⟩
  | 87 => ⟨S1x512x512, .f32⟩
  | 88 => ⟨S512x512, .f32⟩
  | 89 => ⟨S512x512, .f32⟩
  | 90 => ⟨S512x512, .f32⟩
  | 91 => ⟨S512x512, .f32⟩
  | 92 => ⟨S16384x512, .f32⟩
  | 93 => ⟨S1x512, .f32⟩
  | 94 => ⟨S512, .f32⟩
  | 95 => ⟨S_, .f32⟩
  | 96 => ⟨S_, .f32⟩
  | 97 => ⟨S16384, .f32⟩
  | 98 => ⟨S16384, .f32⟩
  | 99 => ⟨S1x512, .f32⟩
  | 100 => ⟨S16384x512, .f32⟩
  | 101 => ⟨S16384x512, .f32⟩
  | 102 => ⟨S1x512x1024, .f32⟩
  | 103 => ⟨S512x1024, .f32⟩
  | 104 => ⟨S16384x1024, .f32⟩
  | 105 => ⟨S1x1024, .f32⟩
  | 106 => ⟨S1024, .f32⟩
  | 107 => ⟨S1x1024, .f32⟩
  | 108 => ⟨S16384x1024, .f32⟩
  | 109 => ⟨S16384x1024, .f32⟩
  | 110 => ⟨S_, .f32⟩
  | 111 => ⟨S16384x1024, .f32⟩
  | 112 => ⟨S16384x1024, .f32⟩
  | 113 => ⟨S1x1024x512, .f32⟩
  | 114 => ⟨S1024x512, .f32⟩
  | 115 => ⟨S16384x512, .f32⟩
  | 116 => ⟨S1x512, .f32⟩
  | 117 => ⟨S512, .f32⟩
  | 118 => ⟨S1x512, .f32⟩
  | 119 => ⟨S16384x512, .f32⟩
  | 120 => ⟨S16384x512, .f32⟩
  | 121 => ⟨S16384x512, .f32⟩
  | 122 => ⟨S_, .f32⟩
  | 123 => ⟨S512, .f32⟩
  | 124 => ⟨S512, .f32⟩
  | 125 => ⟨S1x512, .f32⟩
  | 126 => ⟨S16384x512, .f32⟩
  | 127 => ⟨S16384x512, .f32⟩
  | _ => ⟨S16384x512, .f32⟩

abbrev hbmTy0_7 (i : Nat) : BufTy := match i % 128 with
  | 0 => ⟨S1x512x1024, .f32⟩
  | 1 => ⟨S512x1024, .f32⟩
  | 2 => ⟨S16384x1024, .f32⟩
  | 3 => ⟨S1x1024, .f32⟩
  | 4 => ⟨S1024, .f32⟩
  | 5 => ⟨S1x1024, .f32⟩
  | 6 => ⟨S16384x1024, .f32⟩
  | 7 => ⟨S16384x1024, .f32⟩
  | 8 => ⟨S_, .f32⟩
  | 9 => ⟨S16384x1024, .f32⟩
  | 10 => ⟨S16384x1024, .f32⟩
  | 11 => ⟨S1x1024x512, .f32⟩
  | 12 => ⟨S1024x512, .f32⟩
  | 13 => ⟨S16384x512, .f32⟩
  | 14 => ⟨S1x512, .f32⟩
  | 15 => ⟨S512, .f32⟩
  | 16 => ⟨S1x512, .f32⟩
  | 17 => ⟨S16384x512, .f32⟩
  | 18 => ⟨S16384x512, .f32⟩
  | 19 => ⟨S_, .f32⟩
  | 20 => ⟨S512, .f32⟩
  | 21 => ⟨S512, .f32⟩
  | 22 => ⟨S1x512, .f32⟩
  | 23 => ⟨S16384x512, .f32⟩
  | 24 => ⟨S16384x512, .f32⟩
  | 25 => ⟨S_, .f32⟩
  | 26 => ⟨S512, .f32⟩
  | 27 => ⟨S512, .f32⟩
  | 28 => ⟨S16384x512, .f32⟩
  | 29 => ⟨S16384x512, .f32⟩
  | 30 => ⟨S16384x512, .f32⟩
  | 31 => ⟨S1x512, .f32⟩
  | 32 => ⟨S16384x512, .f32⟩
  | 33 => ⟨S16384x512, .f32⟩
  | 34 => ⟨S16384x512, .f32⟩
  | 35 => ⟨S_, .f32⟩
  | 36 => ⟨S16384, .f32⟩
  | 37 => ⟨S16384, .f32⟩
  | 38 => ⟨S_, .f32⟩
  | 39 => ⟨S512, .f32⟩
  | 40 => ⟨S512, .f32⟩
  | 41 => ⟨S1x512, .f32⟩
  | 42 => ⟨S512, .f32⟩
  | 43 => ⟨S512, .f32⟩
  | 44 => ⟨S1x512, .f32⟩
  | 45 => ⟨S16384x512, .f32⟩
  | 46 => ⟨S16384x512, .f32⟩
  | 47 => ⟨S1x512, .f32⟩
  | 48 => ⟨S512, .f32⟩
  | 49 => ⟨S1x512, .f32⟩
  | 50 => ⟨S16384x512, .f32⟩
  | 51 => ⟨S16384x512, .f32⟩
  | 52 => ⟨S1x512, .f32⟩
  | 53 => ⟨S512, .f32⟩
  | 54 => ⟨S_, .f32⟩
  | 55 => ⟨S_, .f32⟩
  | 56 => ⟨S16384, .f32⟩
  | 57 => ⟨S16384, .f32⟩
  | 58 => ⟨S1x512x512, .f32⟩
  | 59 => ⟨S512x512, .f32⟩
  | 60 => ⟨S512x512, .f32⟩
  | 61 => ⟨S512x512, .f32⟩
  | 62 => ⟨S1x512x512, .f32⟩
  | 63 => ⟨S512x512, .f32⟩
  | 64 => ⟨S512x512, .f32⟩
  | 65 => ⟨S1x512, .f32⟩
  | 66 => ⟨S512, .f32⟩
  | 67 => ⟨S1x512, .f32⟩
  | 68 => ⟨S512, .f32⟩
  | 69 => ⟨S512, .f32⟩
  | 70 => ⟨S512, .f32⟩
  | 71 => ⟨S_, .f32⟩
  | 72 => ⟨S512, .f32⟩
  | 73 => ⟨S512x512, .i32⟩
  | 74 => ⟨S512x512, .i32⟩
  | 75 => ⟨S_, .i32⟩
  | 76 => ⟨S512x512, .i32⟩
  | 77 => ⟨S512x512, .i32⟩
  | 78 => ⟨S512x512, .i1⟩
  | 79 => ⟨S512x1, .f32⟩
  | 80 => ⟨S_, .f32⟩
  | 81 => ⟨S512x512, .f32⟩
  | 82 => ⟨S512x512, .f32⟩
  | 83 => ⟨S512x512, .f32⟩
  | 84 => ⟨S512x512, .f32⟩
  | 85 => ⟨S1x512x512, .f32⟩
  | 86 => ⟨S512x512, .f32⟩
  | 87 => ⟨S512x512, .f32⟩
  | 88 => ⟨S512x512, .f32⟩
  | 89 => ⟨S512x512, .f32⟩
  | 90 => ⟨S16384x512, .f32⟩
  | 91 => ⟨S1x512, .f32⟩
  | 92 => ⟨S512, .f32⟩
  | 93 => ⟨S_, .f32⟩
  | 94 => ⟨S_, .f32⟩
  | 95 => ⟨S16384, .f32⟩
  | 96 => ⟨S16384, .f32⟩
  | 97 => ⟨S1x512, .f32⟩
  | 98 => ⟨S16384x512, .f32⟩
  | 99 => ⟨S16384x512, .f32⟩
  | 100 => ⟨S1x512x1024, .f32⟩
  | 101 => ⟨S512x1024, .f32⟩
  | 102 => ⟨S16384x1024, .f32⟩
  | 103 => ⟨S1x1024, .f32⟩
  | 104 => ⟨S1024, .f32⟩
  | 105 => ⟨S1x1024, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S1x1024x512, .f32⟩
  | 112 => ⟨S1024x512, .f32⟩
  | 113 => ⟨S16384x512, .f32⟩
  | 114 => ⟨S1x512, .f32⟩
  | 115 => ⟨S512, .f32⟩
  | 116 => ⟨S1x512, .f32⟩
  | 117 => ⟨S16384x512, .f32⟩
  | 118 => ⟨S16384x512, .f32⟩
  | 119 => ⟨S16384x512, .f32⟩
  | 120 => ⟨S_, .f32⟩
  | 121 => ⟨S512, .f32⟩
  | 122 => ⟨S512, .f32⟩
  | 123 => ⟨S1x512, .f32⟩
  | 124 => ⟨S16384x512, .f32⟩
  | 125 => ⟨S16384x512, .f32⟩
  | 126 => ⟨S1x512x1024, .f32⟩
  | 127 => ⟨S512x1024, .f32⟩
  | _ => ⟨S16384x512, .f32⟩

abbrev hbmTy0_8 (i : Nat) : BufTy := match i % 128 with
  | 0 => ⟨S16384x1024, .f32⟩
  | 1 => ⟨S1x1024, .f32⟩
  | 2 => ⟨S1024, .f32⟩
  | 3 => ⟨S1x1024, .f32⟩
  | 4 => ⟨S16384x1024, .f32⟩
  | 5 => ⟨S16384x1024, .f32⟩
  | 6 => ⟨S_, .f32⟩
  | 7 => ⟨S16384x1024, .f32⟩
  | 8 => ⟨S16384x1024, .f32⟩
  | 9 => ⟨S1x1024x512, .f32⟩
  | 10 => ⟨S1024x512, .f32⟩
  | 11 => ⟨S16384x512, .f32⟩
  | 12 => ⟨S1x512, .f32⟩
  | 13 => ⟨S512, .f32⟩
  | 14 => ⟨S1x512, .f32⟩
  | 15 => ⟨S16384x512, .f32⟩
  | 16 => ⟨S16384x512, .f32⟩
  | 17 => ⟨S_, .f32⟩
  | 18 => ⟨S512, .f32⟩
  | 19 => ⟨S512, .f32⟩
  | 20 => ⟨S1x512, .f32⟩
  | 21 => ⟨S16384x512, .f32⟩
  | 22 => ⟨S16384x512, .f32⟩
  | 23 => ⟨S_, .f32⟩
  | 24 => ⟨S512, .f32⟩
  | 25 => ⟨S512, .f32⟩
  | 26 => ⟨S16384x512, .f32⟩
  | 27 => ⟨S16384x512, .f32⟩
  | 28 => ⟨S16384x512, .f32⟩
  | 29 => ⟨S1x512, .f32⟩
  | 30 => ⟨S16384x512, .f32⟩
  | 31 => ⟨S16384x512, .f32⟩
  | 32 => ⟨S16384x512, .f32⟩
  | 33 => ⟨S_, .f32⟩
  | 34 => ⟨S16384, .f32⟩
  | 35 => ⟨S16384, .f32⟩
  | _ => ⟨S16384x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v10 : Ref sig .tc := ⟨.hbm, 57, rfl⟩
abbrev main_c_1 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_cst_2 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_3 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_c : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_cst_0 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_4 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_call3_cst : Ref sig .tc := ⟨.hbm, 131, rfl⟩
abbrev main_call3_v0 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_cst_5 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_call4_cst : Ref sig .tc := ⟨.hbm, 157, rfl⟩
abbrev main_call4_v0 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_6 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_7 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_cst_8 : Ref sig .tc := ⟨.hbm, 184, rfl⟩
abbrev main_v114 : Ref sig .tc := ⟨.hbm, 185, rfl⟩
abbrev main_v115 : Ref sig .tc := ⟨.hbm, 186, rfl⟩
abbrev main_cst_9 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_10 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_call5_cst : Ref sig .tc := ⟨.hbm, 220, rfl⟩
abbrev main_call5_v0 : Ref sig .tc := ⟨.hbm, 221, rfl⟩
abbrev main_call5_v1 : Ref sig .tc := ⟨.hbm, 222, rfl⟩
abbrev main_call5_v2 : Ref sig .tc := ⟨.hbm, 223, rfl⟩
abbrev main_call5_c : Ref sig .tc := ⟨.hbm, 224, rfl⟩
abbrev main_call5_v3 : Ref sig .tc := ⟨.hbm, 225, rfl⟩
abbrev main_call5_v4 : Ref sig .tc := ⟨.hbm, 226, rfl⟩
abbrev main_call5_v5 : Ref sig .tc := ⟨.hbm, 227, rfl⟩
abbrev main_call5_v6 : Ref sig .tc := ⟨.hbm, 228, rfl⟩
abbrev main_call5_cst_0 : Ref sig .tc := ⟨.hbm, 229, rfl⟩
abbrev main_call5_call0_v0 : Ref sig .tc := ⟨.hbm, 230, rfl⟩
abbrev main_call5_call0_v1 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_cst_11 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_call6_cst : Ref sig .tc := ⟨.hbm, 257, rfl⟩
abbrev main_call6_v0 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_cst_12 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_call7_cst : Ref sig .tc := ⟨.hbm, 283, rfl⟩
abbrev main_call7_v0 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_cst_13 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_cst_14 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_cst_15 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_cst_16 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_call8_cst : Ref sig .tc := ⟨.hbm, 343, rfl⟩
abbrev main_call8_v0 : Ref sig .tc := ⟨.hbm, 344, rfl⟩
abbrev main_call8_v1 : Ref sig .tc := ⟨.hbm, 345, rfl⟩
abbrev main_call8_v2 : Ref sig .tc := ⟨.hbm, 346, rfl⟩
abbrev main_call8_c : Ref sig .tc := ⟨.hbm, 347, rfl⟩
abbrev main_call8_v3 : Ref sig .tc := ⟨.hbm, 348, rfl⟩
abbrev main_call8_v4 : Ref sig .tc := ⟨.hbm, 349, rfl⟩
abbrev main_call8_v5 : Ref sig .tc := ⟨.hbm, 350, rfl⟩
abbrev main_call8_v6 : Ref sig .tc := ⟨.hbm, 351, rfl⟩
abbrev main_call8_cst_0 : Ref sig .tc := ⟨.hbm, 352, rfl⟩
abbrev main_call8_call0_v0 : Ref sig .tc := ⟨.hbm, 353, rfl⟩
abbrev main_call8_call0_v1 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_cst_17 : Ref sig .tc := ⟨.hbm, 365, rfl⟩
abbrev main_v258 : Ref sig .tc := ⟨.hbm, 366, rfl⟩
abbrev main_v259 : Ref sig .tc := ⟨.hbm, 367, rfl⟩
abbrev main_v260 : Ref sig .tc := ⟨.hbm, 368, rfl⟩
abbrev main_v261 : Ref sig .tc := ⟨.hbm, 369, rfl⟩
abbrev main_v262 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_call9_cst : Ref sig .tc := ⟨.hbm, 380, rfl⟩
abbrev main_call9_v0 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_v276 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_cst_18 : Ref sig .tc := ⟨.hbm, 392, rfl⟩
abbrev main_v282 : Ref sig .tc := ⟨.hbm, 393, rfl⟩
abbrev main_v283 : Ref sig .tc := ⟨.hbm, 394, rfl⟩
abbrev main_v284 : Ref sig .tc := ⟨.hbm, 395, rfl⟩
abbrev main_v285 : Ref sig .tc := ⟨.hbm, 396, rfl⟩
abbrev main_v286 : Ref sig .tc := ⟨.hbm, 397, rfl⟩
abbrev main_v287 : Ref sig .tc := ⟨.hbm, 398, rfl⟩
abbrev main_v288 : Ref sig .tc := ⟨.hbm, 399, rfl⟩
abbrev main_v289 : Ref sig .tc := ⟨.hbm, 400, rfl⟩
abbrev main_v290 : Ref sig .tc := ⟨.hbm, 401, rfl⟩
abbrev main_v291 : Ref sig .tc := ⟨.hbm, 402, rfl⟩
abbrev main_v292 : Ref sig .tc := ⟨.hbm, 403, rfl⟩
abbrev main_v293 : Ref sig .tc := ⟨.hbm, 404, rfl⟩
abbrev main_v294 : Ref sig .tc := ⟨.hbm, 405, rfl⟩
abbrev main_call10_cst : Ref sig .tc := ⟨.hbm, 406, rfl⟩
abbrev main_call10_v0 : Ref sig .tc := ⟨.hbm, 407, rfl⟩
abbrev main_v295 : Ref sig .tc := ⟨.hbm, 408, rfl⟩
abbrev main_v296 : Ref sig .tc := ⟨.hbm, 409, rfl⟩
abbrev main_v297 : Ref sig .tc := ⟨.hbm, 410, rfl⟩
abbrev main_v298 : Ref sig .tc := ⟨.hbm, 411, rfl⟩
abbrev main_v299 : Ref sig .tc := ⟨.hbm, 412, rfl⟩
abbrev main_v300 : Ref sig .tc := ⟨.hbm, 413, rfl⟩
abbrev main_v301 : Ref sig .tc := ⟨.hbm, 414, rfl⟩
abbrev main_v302 : Ref sig .tc := ⟨.hbm, 415, rfl⟩
abbrev main_v303 : Ref sig .tc := ⟨.hbm, 416, rfl⟩
abbrev main_cst_19 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_v307 : Ref sig .tc := ⟨.hbm, 421, rfl⟩
abbrev main_v308 : Ref sig .tc := ⟨.hbm, 422, rfl⟩
abbrev main_cst_20 : Ref sig .tc := ⟨.hbm, 423, rfl⟩
abbrev main_v309 : Ref sig .tc := ⟨.hbm, 424, rfl⟩
abbrev main_v310 : Ref sig .tc := ⟨.hbm, 425, rfl⟩
abbrev main_v311 : Ref sig .tc := ⟨.hbm, 426, rfl⟩
abbrev main_v312 : Ref sig .tc := ⟨.hbm, 427, rfl⟩
abbrev main_v313 : Ref sig .tc := ⟨.hbm, 428, rfl⟩
abbrev main_v314 : Ref sig .tc := ⟨.hbm, 429, rfl⟩
abbrev main_v315 : Ref sig .tc := ⟨.hbm, 430, rfl⟩
abbrev main_v316 : Ref sig .tc := ⟨.hbm, 431, rfl⟩
abbrev main_v317 : Ref sig .tc := ⟨.hbm, 432, rfl⟩
abbrev main_cst_21 : Ref sig .tc := ⟨.hbm, 433, rfl⟩
abbrev main_v318 : Ref sig .tc := ⟨.hbm, 434, rfl⟩
abbrev main_v319 : Ref sig .tc := ⟨.hbm, 435, rfl⟩
abbrev main_cst_22 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_v323 : Ref sig .tc := ⟨.hbm, 440, rfl⟩
abbrev main_v324 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_v328 : Ref sig .tc := ⟨.hbm, 445, rfl⟩
abbrev main_v329 : Ref sig .tc := ⟨.hbm, 446, rfl⟩
abbrev main_v330 : Ref sig .tc := ⟨.hbm, 447, rfl⟩
abbrev main_v331 : Ref sig .tc := ⟨.hbm, 448, rfl⟩
abbrev main_v332 : Ref sig .tc := ⟨.hbm, 449, rfl⟩
abbrev main_v333 : Ref sig .tc := ⟨.hbm, 450, rfl⟩
abbrev main_v334 : Ref sig .tc := ⟨.hbm, 451, rfl⟩
abbrev main_cst_23 : Ref sig .tc := ⟨.hbm, 452, rfl⟩
abbrev main_v335 : Ref sig .tc := ⟨.hbm, 453, rfl⟩
abbrev main_v336 : Ref sig .tc := ⟨.hbm, 454, rfl⟩
abbrev main_v337 : Ref sig .tc := ⟨.hbm, 455, rfl⟩
abbrev main_v338 : Ref sig .tc := ⟨.hbm, 456, rfl⟩
abbrev main_v339 : Ref sig .tc := ⟨.hbm, 457, rfl⟩
abbrev main_v340 : Ref sig .tc := ⟨.hbm, 458, rfl⟩
abbrev main_v341 : Ref sig .tc := ⟨.hbm, 459, rfl⟩
abbrev main_v342 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_v347 : Ref sig .tc := ⟨.hbm, 465, rfl⟩
abbrev main_v348 : Ref sig .tc := ⟨.hbm, 466, rfl⟩
abbrev main_v349 : Ref sig .tc := ⟨.hbm, 467, rfl⟩
abbrev main_v350 : Ref sig .tc := ⟨.hbm, 468, rfl⟩
abbrev main_call11_cst : Ref sig .tc := ⟨.hbm, 469, rfl⟩
abbrev main_call11_v0 : Ref sig .tc := ⟨.hbm, 470, rfl⟩
abbrev main_call11_v1 : Ref sig .tc := ⟨.hbm, 471, rfl⟩
abbrev main_call11_v2 : Ref sig .tc := ⟨.hbm, 472, rfl⟩
abbrev main_call11_c : Ref sig .tc := ⟨.hbm, 473, rfl⟩
abbrev main_call11_v3 : Ref sig .tc := ⟨.hbm, 474, rfl⟩
abbrev main_call11_v4 : Ref sig .tc := ⟨.hbm, 475, rfl⟩
abbrev main_call11_v5 : Ref sig .tc := ⟨.hbm, 476, rfl⟩
abbrev main_call11_v6 : Ref sig .tc := ⟨.hbm, 477, rfl⟩
abbrev main_call11_cst_0 : Ref sig .tc := ⟨.hbm, 478, rfl⟩
abbrev main_call11_call0_v0 : Ref sig .tc := ⟨.hbm, 479, rfl⟩
abbrev main_call11_call0_v1 : Ref sig .tc := ⟨.hbm, 480, rfl⟩
abbrev main_v351 : Ref sig .tc := ⟨.hbm, 481, rfl⟩
abbrev main_v352 : Ref sig .tc := ⟨.hbm, 482, rfl⟩
abbrev main_v353 : Ref sig .tc := ⟨.hbm, 483, rfl⟩
abbrev main_v354 : Ref sig .tc := ⟨.hbm, 484, rfl⟩
abbrev main_v355 : Ref sig .tc := ⟨.hbm, 485, rfl⟩
abbrev main_v356 : Ref sig .tc := ⟨.hbm, 486, rfl⟩
abbrev main_v357 : Ref sig .tc := ⟨.hbm, 487, rfl⟩
abbrev main_v358 : Ref sig .tc := ⟨.hbm, 488, rfl⟩
abbrev main_v359 : Ref sig .tc := ⟨.hbm, 489, rfl⟩
abbrev main_v360 : Ref sig .tc := ⟨.hbm, 490, rfl⟩
abbrev main_cst_24 : Ref sig .tc := ⟨.hbm, 491, rfl⟩
abbrev main_v361 : Ref sig .tc := ⟨.hbm, 492, rfl⟩
abbrev main_v362 : Ref sig .tc := ⟨.hbm, 493, rfl⟩
abbrev main_v363 : Ref sig .tc := ⟨.hbm, 494, rfl⟩
abbrev main_v364 : Ref sig .tc := ⟨.hbm, 495, rfl⟩
abbrev main_v365 : Ref sig .tc := ⟨.hbm, 496, rfl⟩
abbrev main_v366 : Ref sig .tc := ⟨.hbm, 497, rfl⟩
abbrev main_v367 : Ref sig .tc := ⟨.hbm, 498, rfl⟩
abbrev main_v368 : Ref sig .tc := ⟨.hbm, 499, rfl⟩
abbrev main_v369 : Ref sig .tc := ⟨.hbm, 500, rfl⟩
abbrev main_v370 : Ref sig .tc := ⟨.hbm, 501, rfl⟩
abbrev main_v371 : Ref sig .tc := ⟨.hbm, 502, rfl⟩
abbrev main_v372 : Ref sig .tc := ⟨.hbm, 503, rfl⟩
abbrev main_v373 : Ref sig .tc := ⟨.hbm, 504, rfl⟩
abbrev main_v374 : Ref sig .tc := ⟨.hbm, 505, rfl⟩
abbrev main_call12_cst : Ref sig .tc := ⟨.hbm, 506, rfl⟩
abbrev main_call12_v0 : Ref sig .tc := ⟨.hbm, 507, rfl⟩
abbrev main_v375 : Ref sig .tc := ⟨.hbm, 508, rfl⟩
abbrev main_v376 : Ref sig .tc := ⟨.hbm, 509, rfl⟩
abbrev main_v377 : Ref sig .tc := ⟨.hbm, 510, rfl⟩
abbrev main_v378 : Ref sig .tc := ⟨.hbm, 511, rfl⟩
abbrev main_v379 : Ref sig .tc := ⟨.hbm, 512, rfl⟩
abbrev main_v380 : Ref sig .tc := ⟨.hbm, 513, rfl⟩
abbrev main_v381 : Ref sig .tc := ⟨.hbm, 514, rfl⟩
abbrev main_v382 : Ref sig .tc := ⟨.hbm, 515, rfl⟩
abbrev main_v383 : Ref sig .tc := ⟨.hbm, 516, rfl⟩
abbrev main_v384 : Ref sig .tc := ⟨.hbm, 517, rfl⟩
abbrev main_cst_25 : Ref sig .tc := ⟨.hbm, 518, rfl⟩
abbrev main_v385 : Ref sig .tc := ⟨.hbm, 519, rfl⟩
abbrev main_v386 : Ref sig .tc := ⟨.hbm, 520, rfl⟩
abbrev main_v387 : Ref sig .tc := ⟨.hbm, 521, rfl⟩
abbrev main_v388 : Ref sig .tc := ⟨.hbm, 522, rfl⟩
abbrev main_v389 : Ref sig .tc := ⟨.hbm, 523, rfl⟩
abbrev main_v390 : Ref sig .tc := ⟨.hbm, 524, rfl⟩
abbrev main_v391 : Ref sig .tc := ⟨.hbm, 525, rfl⟩
abbrev main_v392 : Ref sig .tc := ⟨.hbm, 526, rfl⟩
abbrev main_v393 : Ref sig .tc := ⟨.hbm, 527, rfl⟩
abbrev main_v394 : Ref sig .tc := ⟨.hbm, 528, rfl⟩
abbrev main_v395 : Ref sig .tc := ⟨.hbm, 529, rfl⟩
abbrev main_v396 : Ref sig .tc := ⟨.hbm, 530, rfl⟩
abbrev main_v397 : Ref sig .tc := ⟨.hbm, 531, rfl⟩
abbrev main_call13_cst : Ref sig .tc := ⟨.hbm, 532, rfl⟩
abbrev main_call13_v0 : Ref sig .tc := ⟨.hbm, 533, rfl⟩
abbrev main_v398 : Ref sig .tc := ⟨.hbm, 534, rfl⟩
abbrev main_v399 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_v403 : Ref sig .tc := ⟨.hbm, 539, rfl⟩
abbrev main_v404 : Ref sig .tc := ⟨.hbm, 540, rfl⟩
abbrev main_v405 : Ref sig .tc := ⟨.hbm, 541, rfl⟩
abbrev main_v406 : Ref sig .tc := ⟨.hbm, 542, rfl⟩
abbrev main_cst_26 : Ref sig .tc := ⟨.hbm, 543, rfl⟩
abbrev main_v407 : Ref sig .tc := ⟨.hbm, 544, rfl⟩
abbrev main_v408 : Ref sig .tc := ⟨.hbm, 545, rfl⟩
abbrev main_v409 : Ref sig .tc := ⟨.hbm, 546, rfl⟩
abbrev main_v410 : Ref sig .tc := ⟨.hbm, 547, rfl⟩
abbrev main_v411 : Ref sig .tc := ⟨.hbm, 548, rfl⟩
abbrev main_cst_27 : Ref sig .tc := ⟨.hbm, 549, rfl⟩
abbrev main_v412 : Ref sig .tc := ⟨.hbm, 550, rfl⟩
abbrev main_v413 : Ref sig .tc := ⟨.hbm, 551, rfl⟩
abbrev main_v414 : Ref sig .tc := ⟨.hbm, 552, rfl⟩
abbrev main_v415 : Ref sig .tc := ⟨.hbm, 553, rfl⟩
abbrev main_v416 : Ref sig .tc := ⟨.hbm, 554, rfl⟩
abbrev main_v417 : Ref sig .tc := ⟨.hbm, 555, rfl⟩
abbrev main_v418 : Ref sig .tc := ⟨.hbm, 556, rfl⟩
abbrev main_v419 : Ref sig .tc := ⟨.hbm, 557, rfl⟩
abbrev main_v420 : Ref sig .tc := ⟨.hbm, 558, rfl⟩
abbrev main_cst_28 : Ref sig .tc := ⟨.hbm, 559, rfl⟩
abbrev main_v421 : Ref sig .tc := ⟨.hbm, 560, rfl⟩
abbrev main_v422 : Ref sig .tc := ⟨.hbm, 561, rfl⟩
abbrev main_v423 : Ref sig .tc := ⟨.hbm, 562, rfl⟩
abbrev main_v424 : Ref sig .tc := ⟨.hbm, 563, rfl⟩
abbrev main_v425 : Ref sig .tc := ⟨.hbm, 564, rfl⟩
abbrev main_v426 : Ref sig .tc := ⟨.hbm, 565, rfl⟩
abbrev main_v427 : Ref sig .tc := ⟨.hbm, 566, rfl⟩
abbrev main_v428 : Ref sig .tc := ⟨.hbm, 567, rfl⟩
abbrev main_v429 : Ref sig .tc := ⟨.hbm, 568, rfl⟩
abbrev main_v430 : Ref sig .tc := ⟨.hbm, 569, rfl⟩
abbrev main_v431 : Ref sig .tc := ⟨.hbm, 570, rfl⟩
abbrev main_v432 : Ref sig .tc := ⟨.hbm, 571, rfl⟩
abbrev main_v433 : Ref sig .tc := ⟨.hbm, 572, rfl⟩
abbrev main_v434 : Ref sig .tc := ⟨.hbm, 573, rfl⟩
abbrev main_v435 : Ref sig .tc := ⟨.hbm, 574, rfl⟩
abbrev main_cst_29 : Ref sig .tc := ⟨.hbm, 575, rfl⟩
abbrev main_v436 : Ref sig .tc := ⟨.hbm, 576, rfl⟩
abbrev main_v437 : Ref sig .tc := ⟨.hbm, 577, rfl⟩
abbrev main_v438 : Ref sig .tc := ⟨.hbm, 578, rfl⟩
abbrev main_v439 : Ref sig .tc := ⟨.hbm, 579, rfl⟩
abbrev main_v440 : Ref sig .tc := ⟨.hbm, 580, rfl⟩
abbrev main_v441 : Ref sig .tc := ⟨.hbm, 581, rfl⟩
abbrev main_v442 : Ref sig .tc := ⟨.hbm, 582, rfl⟩
abbrev main_v443 : Ref sig .tc := ⟨.hbm, 583, rfl⟩
abbrev main_v444 : Ref sig .tc := ⟨.hbm, 584, rfl⟩
abbrev main_v445 : Ref sig .tc := ⟨.hbm, 585, rfl⟩
abbrev main_v446 : Ref sig .tc := ⟨.hbm, 586, rfl⟩
abbrev main_v447 : Ref sig .tc := ⟨.hbm, 587, rfl⟩
abbrev main_v448 : Ref sig .tc := ⟨.hbm, 588, rfl⟩
abbrev main_v449 : Ref sig .tc := ⟨.hbm, 589, rfl⟩
abbrev main_v450 : Ref sig .tc := ⟨.hbm, 590, rfl⟩
abbrev main_v451 : Ref sig .tc := ⟨.hbm, 591, rfl⟩
abbrev main_call14_cst : Ref sig .tc := ⟨.hbm, 592, rfl⟩
abbrev main_call14_v0 : Ref sig .tc := ⟨.hbm, 593, rfl⟩
abbrev main_call14_v1 : Ref sig .tc := ⟨.hbm, 594, rfl⟩
abbrev main_call14_v2 : Ref sig .tc := ⟨.hbm, 595, rfl⟩
abbrev main_call14_c : Ref sig .tc := ⟨.hbm, 596, rfl⟩
abbrev main_call14_v3 : Ref sig .tc := ⟨.hbm, 597, rfl⟩
abbrev main_call14_v4 : Ref sig .tc := ⟨.hbm, 598, rfl⟩
abbrev main_call14_v5 : Ref sig .tc := ⟨.hbm, 599, rfl⟩
abbrev main_call14_v6 : Ref sig .tc := ⟨.hbm, 600, rfl⟩
abbrev main_call14_cst_0 : Ref sig .tc := ⟨.hbm, 601, rfl⟩
abbrev main_call14_call0_v0 : Ref sig .tc := ⟨.hbm, 602, rfl⟩
abbrev main_call14_call0_v1 : Ref sig .tc := ⟨.hbm, 603, rfl⟩
abbrev main_v452 : Ref sig .tc := ⟨.hbm, 604, rfl⟩
abbrev main_v453 : Ref sig .tc := ⟨.hbm, 605, rfl⟩
abbrev main_v454 : Ref sig .tc := ⟨.hbm, 606, rfl⟩
abbrev main_v455 : Ref sig .tc := ⟨.hbm, 607, rfl⟩
abbrev main_v456 : Ref sig .tc := ⟨.hbm, 608, rfl⟩
abbrev main_v457 : Ref sig .tc := ⟨.hbm, 609, rfl⟩
abbrev main_v458 : Ref sig .tc := ⟨.hbm, 610, rfl⟩
abbrev main_v459 : Ref sig .tc := ⟨.hbm, 611, rfl⟩
abbrev main_v460 : Ref sig .tc := ⟨.hbm, 612, rfl⟩
abbrev main_v461 : Ref sig .tc := ⟨.hbm, 613, rfl⟩
abbrev main_cst_30 : Ref sig .tc := ⟨.hbm, 614, rfl⟩
abbrev main_v462 : Ref sig .tc := ⟨.hbm, 615, rfl⟩
abbrev main_v463 : Ref sig .tc := ⟨.hbm, 616, rfl⟩
abbrev main_v464 : Ref sig .tc := ⟨.hbm, 617, rfl⟩
abbrev main_v465 : Ref sig .tc := ⟨.hbm, 618, rfl⟩
abbrev main_v466 : Ref sig .tc := ⟨.hbm, 619, rfl⟩
abbrev main_v467 : Ref sig .tc := ⟨.hbm, 620, rfl⟩
abbrev main_v468 : Ref sig .tc := ⟨.hbm, 621, rfl⟩
abbrev main_v469 : Ref sig .tc := ⟨.hbm, 622, rfl⟩
abbrev main_v470 : Ref sig .tc := ⟨.hbm, 623, rfl⟩
abbrev main_v471 : Ref sig .tc := ⟨.hbm, 624, rfl⟩
abbrev main_v472 : Ref sig .tc := ⟨.hbm, 625, rfl⟩
abbrev main_v473 : Ref sig .tc := ⟨.hbm, 626, rfl⟩
abbrev main_v474 : Ref sig .tc := ⟨.hbm, 627, rfl⟩
abbrev main_v475 : Ref sig .tc := ⟨.hbm, 628, rfl⟩
abbrev main_call15_cst : Ref sig .tc := ⟨.hbm, 629, rfl⟩
abbrev main_call15_v0 : Ref sig .tc := ⟨.hbm, 630, rfl⟩
abbrev main_v476 : Ref sig .tc := ⟨.hbm, 631, rfl⟩
abbrev main_v477 : Ref sig .tc := ⟨.hbm, 632, rfl⟩
abbrev main_v478 : Ref sig .tc := ⟨.hbm, 633, rfl⟩
abbrev main_v479 : Ref sig .tc := ⟨.hbm, 634, rfl⟩
abbrev main_v480 : Ref sig .tc := ⟨.hbm, 635, rfl⟩
abbrev main_v481 : Ref sig .tc := ⟨.hbm, 636, rfl⟩
abbrev main_v482 : Ref sig .tc := ⟨.hbm, 637, rfl⟩
abbrev main_v483 : Ref sig .tc := ⟨.hbm, 638, rfl⟩
abbrev main_v484 : Ref sig .tc := ⟨.hbm, 639, rfl⟩
abbrev main_v485 : Ref sig .tc := ⟨.hbm, 640, rfl⟩
abbrev main_cst_31 : Ref sig .tc := ⟨.hbm, 641, rfl⟩
abbrev main_v486 : Ref sig .tc := ⟨.hbm, 642, rfl⟩
abbrev main_v487 : Ref sig .tc := ⟨.hbm, 643, rfl⟩
abbrev main_v488 : Ref sig .tc := ⟨.hbm, 644, rfl⟩
abbrev main_v489 : Ref sig .tc := ⟨.hbm, 645, rfl⟩
abbrev main_v490 : Ref sig .tc := ⟨.hbm, 646, rfl⟩
abbrev main_v491 : Ref sig .tc := ⟨.hbm, 647, rfl⟩
abbrev main_v492 : Ref sig .tc := ⟨.hbm, 648, rfl⟩
abbrev main_v493 : Ref sig .tc := ⟨.hbm, 649, rfl⟩
abbrev main_v494 : Ref sig .tc := ⟨.hbm, 650, rfl⟩
abbrev main_v495 : Ref sig .tc := ⟨.hbm, 651, rfl⟩
abbrev main_v496 : Ref sig .tc := ⟨.hbm, 652, rfl⟩
abbrev main_v497 : Ref sig .tc := ⟨.hbm, 653, rfl⟩
abbrev main_v498 : Ref sig .tc := ⟨.hbm, 654, rfl⟩
abbrev main_call16_cst : Ref sig .tc := ⟨.hbm, 655, rfl⟩
abbrev main_call16_v0 : Ref sig .tc := ⟨.hbm, 656, rfl⟩
abbrev main_v499 : Ref sig .tc := ⟨.hbm, 657, rfl⟩
abbrev main_v500 : Ref sig .tc := ⟨.hbm, 658, rfl⟩
abbrev main_v501 : Ref sig .tc := ⟨.hbm, 659, rfl⟩
abbrev main_v502 : Ref sig .tc := ⟨.hbm, 660, rfl⟩
abbrev main_v503 : Ref sig .tc := ⟨.hbm, 661, rfl⟩
abbrev main_v504 : Ref sig .tc := ⟨.hbm, 662, rfl⟩
abbrev main_v505 : Ref sig .tc := ⟨.hbm, 663, rfl⟩
abbrev main_v506 : Ref sig .tc := ⟨.hbm, 664, rfl⟩
abbrev main_v507 : Ref sig .tc := ⟨.hbm, 665, rfl⟩
abbrev main_cst_32 : Ref sig .tc := ⟨.hbm, 666, rfl⟩
abbrev main_v508 : Ref sig .tc := ⟨.hbm, 667, rfl⟩
abbrev main_v509 : Ref sig .tc := ⟨.hbm, 668, rfl⟩
abbrev main_v510 : Ref sig .tc := ⟨.hbm, 669, rfl⟩
abbrev main_v511 : Ref sig .tc := ⟨.hbm, 670, rfl⟩
abbrev main_v512 : Ref sig .tc := ⟨.hbm, 671, rfl⟩
abbrev main_cst_33 : Ref sig .tc := ⟨.hbm, 672, rfl⟩
abbrev main_v513 : Ref sig .tc := ⟨.hbm, 673, rfl⟩
abbrev main_v514 : Ref sig .tc := ⟨.hbm, 674, rfl⟩
abbrev main_v515 : Ref sig .tc := ⟨.hbm, 675, rfl⟩
abbrev main_v516 : Ref sig .tc := ⟨.hbm, 676, rfl⟩
abbrev main_v517 : Ref sig .tc := ⟨.hbm, 677, rfl⟩
abbrev main_v518 : Ref sig .tc := ⟨.hbm, 678, rfl⟩
abbrev main_v519 : Ref sig .tc := ⟨.hbm, 679, rfl⟩
abbrev main_v520 : Ref sig .tc := ⟨.hbm, 680, rfl⟩
abbrev main_v521 : Ref sig .tc := ⟨.hbm, 681, rfl⟩
abbrev main_cst_34 : Ref sig .tc := ⟨.hbm, 682, rfl⟩
abbrev main_v522 : Ref sig .tc := ⟨.hbm, 683, rfl⟩
abbrev main_v523 : Ref sig .tc := ⟨.hbm, 684, rfl⟩
abbrev main_cst_35 : Ref sig .tc := ⟨.hbm, 685, rfl⟩
abbrev main_v524 : Ref sig .tc := ⟨.hbm, 686, rfl⟩
abbrev main_v525 : Ref sig .tc := ⟨.hbm, 687, rfl⟩
abbrev main_v526 : Ref sig .tc := ⟨.hbm, 688, rfl⟩
abbrev main_v527 : Ref sig .tc := ⟨.hbm, 689, rfl⟩
abbrev main_v528 : Ref sig .tc := ⟨.hbm, 690, rfl⟩
abbrev main_v529 : Ref sig .tc := ⟨.hbm, 691, rfl⟩
abbrev main_v530 : Ref sig .tc := ⟨.hbm, 692, rfl⟩
abbrev main_v531 : Ref sig .tc := ⟨.hbm, 693, rfl⟩
abbrev main_v532 : Ref sig .tc := ⟨.hbm, 694, rfl⟩
abbrev main_v533 : Ref sig .tc := ⟨.hbm, 695, rfl⟩
abbrev main_v534 : Ref sig .tc := ⟨.hbm, 696, rfl⟩
abbrev main_v535 : Ref sig .tc := ⟨.hbm, 697, rfl⟩
abbrev main_v536 : Ref sig .tc := ⟨.hbm, 698, rfl⟩
abbrev main_v537 : Ref sig .tc := ⟨.hbm, 699, rfl⟩
abbrev main_v538 : Ref sig .tc := ⟨.hbm, 700, rfl⟩
abbrev main_cst_36 : Ref sig .tc := ⟨.hbm, 701, rfl⟩
abbrev main_v539 : Ref sig .tc := ⟨.hbm, 702, rfl⟩
abbrev main_v540 : Ref sig .tc := ⟨.hbm, 703, rfl⟩
abbrev main_v541 : Ref sig .tc := ⟨.hbm, 704, rfl⟩
abbrev main_v542 : Ref sig .tc := ⟨.hbm, 705, rfl⟩
abbrev main_v543 : Ref sig .tc := ⟨.hbm, 706, rfl⟩
abbrev main_v544 : Ref sig .tc := ⟨.hbm, 707, rfl⟩
abbrev main_v545 : Ref sig .tc := ⟨.hbm, 708, rfl⟩
abbrev main_v546 : Ref sig .tc := ⟨.hbm, 709, rfl⟩
abbrev main_v547 : Ref sig .tc := ⟨.hbm, 710, rfl⟩
abbrev main_v548 : Ref sig .tc := ⟨.hbm, 711, rfl⟩
abbrev main_v549 : Ref sig .tc := ⟨.hbm, 712, rfl⟩
abbrev main_v550 : Ref sig .tc := ⟨.hbm, 713, rfl⟩
abbrev main_v551 : Ref sig .tc := ⟨.hbm, 714, rfl⟩
abbrev main_v552 : Ref sig .tc := ⟨.hbm, 715, rfl⟩
abbrev main_v553 : Ref sig .tc := ⟨.hbm, 716, rfl⟩
abbrev main_v554 : Ref sig .tc := ⟨.hbm, 717, rfl⟩
abbrev main_call17_cst : Ref sig .tc := ⟨.hbm, 718, rfl⟩
abbrev main_call17_v0 : Ref sig .tc := ⟨.hbm, 719, rfl⟩
abbrev main_call17_v1 : Ref sig .tc := ⟨.hbm, 720, rfl⟩
abbrev main_call17_v2 : Ref sig .tc := ⟨.hbm, 721, rfl⟩
abbrev main_call17_c : Ref sig .tc := ⟨.hbm, 722, rfl⟩
abbrev main_call17_v3 : Ref sig .tc := ⟨.hbm, 723, rfl⟩
abbrev main_call17_v4 : Ref sig .tc := ⟨.hbm, 724, rfl⟩
abbrev main_call17_v5 : Ref sig .tc := ⟨.hbm, 725, rfl⟩
abbrev main_call17_v6 : Ref sig .tc := ⟨.hbm, 726, rfl⟩
abbrev main_call17_cst_0 : Ref sig .tc := ⟨.hbm, 727, rfl⟩
abbrev main_call17_call0_v0 : Ref sig .tc := ⟨.hbm, 728, rfl⟩
abbrev main_call17_call0_v1 : Ref sig .tc := ⟨.hbm, 729, rfl⟩
abbrev main_v555 : Ref sig .tc := ⟨.hbm, 730, rfl⟩
abbrev main_v556 : Ref sig .tc := ⟨.hbm, 731, rfl⟩
abbrev main_v557 : Ref sig .tc := ⟨.hbm, 732, rfl⟩
abbrev main_v558 : Ref sig .tc := ⟨.hbm, 733, rfl⟩
abbrev main_v559 : Ref sig .tc := ⟨.hbm, 734, rfl⟩
abbrev main_v560 : Ref sig .tc := ⟨.hbm, 735, rfl⟩
abbrev main_v561 : Ref sig .tc := ⟨.hbm, 736, rfl⟩
abbrev main_v562 : Ref sig .tc := ⟨.hbm, 737, rfl⟩
abbrev main_v563 : Ref sig .tc := ⟨.hbm, 738, rfl⟩
abbrev main_v564 : Ref sig .tc := ⟨.hbm, 739, rfl⟩
abbrev main_cst_37 : Ref sig .tc := ⟨.hbm, 740, rfl⟩
abbrev main_v565 : Ref sig .tc := ⟨.hbm, 741, rfl⟩
abbrev main_v566 : Ref sig .tc := ⟨.hbm, 742, rfl⟩
abbrev main_v567 : Ref sig .tc := ⟨.hbm, 743, rfl⟩
abbrev main_v568 : Ref sig .tc := ⟨.hbm, 744, rfl⟩
abbrev main_v569 : Ref sig .tc := ⟨.hbm, 745, rfl⟩
abbrev main_v570 : Ref sig .tc := ⟨.hbm, 746, rfl⟩
abbrev main_v571 : Ref sig .tc := ⟨.hbm, 747, rfl⟩
abbrev main_v572 : Ref sig .tc := ⟨.hbm, 748, rfl⟩
abbrev main_v573 : Ref sig .tc := ⟨.hbm, 749, rfl⟩
abbrev main_v574 : Ref sig .tc := ⟨.hbm, 750, rfl⟩
abbrev main_v575 : Ref sig .tc := ⟨.hbm, 751, rfl⟩
abbrev main_v576 : Ref sig .tc := ⟨.hbm, 752, rfl⟩
abbrev main_v577 : Ref sig .tc := ⟨.hbm, 753, rfl⟩
abbrev main_v578 : Ref sig .tc := ⟨.hbm, 754, rfl⟩
abbrev main_call18_cst : Ref sig .tc := ⟨.hbm, 755, rfl⟩
abbrev main_call18_v0 : Ref sig .tc := ⟨.hbm, 756, rfl⟩
abbrev main_v579 : Ref sig .tc := ⟨.hbm, 757, rfl⟩
abbrev main_v580 : Ref sig .tc := ⟨.hbm, 758, rfl⟩
abbrev main_v581 : Ref sig .tc := ⟨.hbm, 759, rfl⟩
abbrev main_v582 : Ref sig .tc := ⟨.hbm, 760, rfl⟩
abbrev main_v583 : Ref sig .tc := ⟨.hbm, 761, rfl⟩
abbrev main_v584 : Ref sig .tc := ⟨.hbm, 762, rfl⟩
abbrev main_v585 : Ref sig .tc := ⟨.hbm, 763, rfl⟩
abbrev main_v586 : Ref sig .tc := ⟨.hbm, 764, rfl⟩
abbrev main_v587 : Ref sig .tc := ⟨.hbm, 765, rfl⟩
abbrev main_v588 : Ref sig .tc := ⟨.hbm, 766, rfl⟩
abbrev main_cst_38 : Ref sig .tc := ⟨.hbm, 767, rfl⟩
abbrev main_v589 : Ref sig .tc := ⟨.hbm, 768, rfl⟩
abbrev main_v590 : Ref sig .tc := ⟨.hbm, 769, rfl⟩
abbrev main_v591 : Ref sig .tc := ⟨.hbm, 770, rfl⟩
abbrev main_v592 : Ref sig .tc := ⟨.hbm, 771, rfl⟩
abbrev main_v593 : Ref sig .tc := ⟨.hbm, 772, rfl⟩
abbrev main_v594 : Ref sig .tc := ⟨.hbm, 773, rfl⟩
abbrev main_v595 : Ref sig .tc := ⟨.hbm, 774, rfl⟩
abbrev main_v596 : Ref sig .tc := ⟨.hbm, 775, rfl⟩
abbrev main_v597 : Ref sig .tc := ⟨.hbm, 776, rfl⟩
abbrev main_v598 : Ref sig .tc := ⟨.hbm, 777, rfl⟩
abbrev main_v599 : Ref sig .tc := ⟨.hbm, 778, rfl⟩
abbrev main_v600 : Ref sig .tc := ⟨.hbm, 779, rfl⟩
abbrev main_v601 : Ref sig .tc := ⟨.hbm, 780, rfl⟩
abbrev main_call19_cst : Ref sig .tc := ⟨.hbm, 781, rfl⟩
abbrev main_call19_v0 : Ref sig .tc := ⟨.hbm, 782, rfl⟩
abbrev main_v602 : Ref sig .tc := ⟨.hbm, 783, rfl⟩
abbrev main_v603 : Ref sig .tc := ⟨.hbm, 784, rfl⟩
abbrev main_v604 : Ref sig .tc := ⟨.hbm, 785, rfl⟩
abbrev main_v605 : Ref sig .tc := ⟨.hbm, 786, rfl⟩
abbrev main_v606 : Ref sig .tc := ⟨.hbm, 787, rfl⟩
abbrev main_v607 : Ref sig .tc := ⟨.hbm, 788, rfl⟩
abbrev main_v608 : Ref sig .tc := ⟨.hbm, 789, rfl⟩
abbrev main_v609 : Ref sig .tc := ⟨.hbm, 790, rfl⟩
abbrev main_v610 : Ref sig .tc := ⟨.hbm, 791, rfl⟩
abbrev main_cst_39 : Ref sig .tc := ⟨.hbm, 792, rfl⟩
abbrev main_v611 : Ref sig .tc := ⟨.hbm, 793, rfl⟩
abbrev main_v612 : Ref sig .tc := ⟨.hbm, 794, rfl⟩
abbrev main_v613 : Ref sig .tc := ⟨.hbm, 795, rfl⟩
abbrev main_v614 : Ref sig .tc := ⟨.hbm, 796, rfl⟩
abbrev main_v615 : Ref sig .tc := ⟨.hbm, 797, rfl⟩
abbrev main_cst_40 : Ref sig .tc := ⟨.hbm, 798, rfl⟩
abbrev main_v616 : Ref sig .tc := ⟨.hbm, 799, rfl⟩
abbrev main_v617 : Ref sig .tc := ⟨.hbm, 800, rfl⟩
abbrev main_v618 : Ref sig .tc := ⟨.hbm, 801, rfl⟩
abbrev main_v619 : Ref sig .tc := ⟨.hbm, 802, rfl⟩
abbrev main_v620 : Ref sig .tc := ⟨.hbm, 803, rfl⟩
abbrev main_v621 : Ref sig .tc := ⟨.hbm, 804, rfl⟩
abbrev main_v622 : Ref sig .tc := ⟨.hbm, 805, rfl⟩
abbrev main_v623 : Ref sig .tc := ⟨.hbm, 806, rfl⟩
abbrev main_v624 : Ref sig .tc := ⟨.hbm, 807, rfl⟩
abbrev main_cst_41 : Ref sig .tc := ⟨.hbm, 808, rfl⟩
abbrev main_v625 : Ref sig .tc := ⟨.hbm, 809, rfl⟩
abbrev main_v626 : Ref sig .tc := ⟨.hbm, 810, rfl⟩
abbrev main_v627 : Ref sig .tc := ⟨.hbm, 811, rfl⟩
abbrev main_v628 : Ref sig .tc := ⟨.hbm, 812, rfl⟩
abbrev main_v629 : Ref sig .tc := ⟨.hbm, 813, rfl⟩
abbrev main_v630 : Ref sig .tc := ⟨.hbm, 814, rfl⟩
abbrev main_v631 : Ref sig .tc := ⟨.hbm, 815, rfl⟩
abbrev main_v632 : Ref sig .tc := ⟨.hbm, 816, rfl⟩
abbrev main_v633 : Ref sig .tc := ⟨.hbm, 817, rfl⟩
abbrev main_v634 : Ref sig .tc := ⟨.hbm, 818, rfl⟩
abbrev main_v635 : Ref sig .tc := ⟨.hbm, 819, rfl⟩
abbrev main_v636 : Ref sig .tc := ⟨.hbm, 820, rfl⟩
abbrev main_v637 : Ref sig .tc := ⟨.hbm, 821, rfl⟩
abbrev main_v638 : Ref sig .tc := ⟨.hbm, 822, rfl⟩
abbrev main_v639 : Ref sig .tc := ⟨.hbm, 823, rfl⟩
abbrev main_cst_42 : Ref sig .tc := ⟨.hbm, 824, rfl⟩
abbrev main_v640 : Ref sig .tc := ⟨.hbm, 825, rfl⟩
abbrev main_v641 : Ref sig .tc := ⟨.hbm, 826, rfl⟩
abbrev main_v642 : Ref sig .tc := ⟨.hbm, 827, rfl⟩
abbrev main_v643 : Ref sig .tc := ⟨.hbm, 828, rfl⟩
abbrev main_v644 : Ref sig .tc := ⟨.hbm, 829, rfl⟩
abbrev main_v645 : Ref sig .tc := ⟨.hbm, 830, rfl⟩
abbrev main_v646 : Ref sig .tc := ⟨.hbm, 831, rfl⟩
abbrev main_v647 : Ref sig .tc := ⟨.hbm, 832, rfl⟩
abbrev main_v648 : Ref sig .tc := ⟨.hbm, 833, rfl⟩
abbrev main_v649 : Ref sig .tc := ⟨.hbm, 834, rfl⟩
abbrev main_v650 : Ref sig .tc := ⟨.hbm, 835, rfl⟩
abbrev main_v651 : Ref sig .tc := ⟨.hbm, 836, rfl⟩
abbrev main_v652 : Ref sig .tc := ⟨.hbm, 837, rfl⟩
abbrev main_v653 : Ref sig .tc := ⟨.hbm, 838, rfl⟩
abbrev main_v654 : Ref sig .tc := ⟨.hbm, 839, rfl⟩
abbrev main_v655 : Ref sig .tc := ⟨.hbm, 840, rfl⟩
abbrev main_call20_cst : Ref sig .tc := ⟨.hbm, 841, rfl⟩
abbrev main_call20_v0 : Ref sig .tc := ⟨.hbm, 842, rfl⟩
abbrev main_call20_v1 : Ref sig .tc := ⟨.hbm, 843, rfl⟩
abbrev main_call20_v2 : Ref sig .tc := ⟨.hbm, 844, rfl⟩
abbrev main_call20_c : Ref sig .tc := ⟨.hbm, 845, rfl⟩
abbrev main_call20_v3 : Ref sig .tc := ⟨.hbm, 846, rfl⟩
abbrev main_call20_v4 : Ref sig .tc := ⟨.hbm, 847, rfl⟩
abbrev main_call20_v5 : Ref sig .tc := ⟨.hbm, 848, rfl⟩
abbrev main_call20_v6 : Ref sig .tc := ⟨.hbm, 849, rfl⟩
abbrev main_call20_cst_0 : Ref sig .tc := ⟨.hbm, 850, rfl⟩
abbrev main_call20_call0_v0 : Ref sig .tc := ⟨.hbm, 851, rfl⟩
abbrev main_call20_call0_v1 : Ref sig .tc := ⟨.hbm, 852, rfl⟩
abbrev main_v656 : Ref sig .tc := ⟨.hbm, 853, rfl⟩
abbrev main_v657 : Ref sig .tc := ⟨.hbm, 854, rfl⟩
abbrev main_v658 : Ref sig .tc := ⟨.hbm, 855, rfl⟩
abbrev main_v659 : Ref sig .tc := ⟨.hbm, 856, rfl⟩
abbrev main_v660 : Ref sig .tc := ⟨.hbm, 857, rfl⟩
abbrev main_v661 : Ref sig .tc := ⟨.hbm, 858, rfl⟩
abbrev main_v662 : Ref sig .tc := ⟨.hbm, 859, rfl⟩
abbrev main_v663 : Ref sig .tc := ⟨.hbm, 860, rfl⟩
abbrev main_v664 : Ref sig .tc := ⟨.hbm, 861, rfl⟩
abbrev main_v665 : Ref sig .tc := ⟨.hbm, 862, rfl⟩
abbrev main_cst_43 : Ref sig .tc := ⟨.hbm, 863, rfl⟩
abbrev main_v666 : Ref sig .tc := ⟨.hbm, 864, rfl⟩
abbrev main_v667 : Ref sig .tc := ⟨.hbm, 865, rfl⟩
abbrev main_v668 : Ref sig .tc := ⟨.hbm, 866, rfl⟩
abbrev main_v669 : Ref sig .tc := ⟨.hbm, 867, rfl⟩
abbrev main_v670 : Ref sig .tc := ⟨.hbm, 868, rfl⟩
abbrev main_v671 : Ref sig .tc := ⟨.hbm, 869, rfl⟩
abbrev main_v672 : Ref sig .tc := ⟨.hbm, 870, rfl⟩
abbrev main_v673 : Ref sig .tc := ⟨.hbm, 871, rfl⟩
abbrev main_v674 : Ref sig .tc := ⟨.hbm, 872, rfl⟩
abbrev main_v675 : Ref sig .tc := ⟨.hbm, 873, rfl⟩
abbrev main_v676 : Ref sig .tc := ⟨.hbm, 874, rfl⟩
abbrev main_v677 : Ref sig .tc := ⟨.hbm, 875, rfl⟩
abbrev main_v678 : Ref sig .tc := ⟨.hbm, 876, rfl⟩
abbrev main_v679 : Ref sig .tc := ⟨.hbm, 877, rfl⟩
abbrev main_call21_cst : Ref sig .tc := ⟨.hbm, 878, rfl⟩
abbrev main_call21_v0 : Ref sig .tc := ⟨.hbm, 879, rfl⟩
abbrev main_v680 : Ref sig .tc := ⟨.hbm, 880, rfl⟩
abbrev main_v681 : Ref sig .tc := ⟨.hbm, 881, rfl⟩
abbrev main_v682 : Ref sig .tc := ⟨.hbm, 882, rfl⟩
abbrev main_v683 : Ref sig .tc := ⟨.hbm, 883, rfl⟩
abbrev main_v684 : Ref sig .tc := ⟨.hbm, 884, rfl⟩
abbrev main_v685 : Ref sig .tc := ⟨.hbm, 885, rfl⟩
abbrev main_v686 : Ref sig .tc := ⟨.hbm, 886, rfl⟩
abbrev main_v687 : Ref sig .tc := ⟨.hbm, 887, rfl⟩
abbrev main_v688 : Ref sig .tc := ⟨.hbm, 888, rfl⟩
abbrev main_v689 : Ref sig .tc := ⟨.hbm, 889, rfl⟩
abbrev main_cst_44 : Ref sig .tc := ⟨.hbm, 890, rfl⟩
abbrev main_v690 : Ref sig .tc := ⟨.hbm, 891, rfl⟩
abbrev main_v691 : Ref sig .tc := ⟨.hbm, 892, rfl⟩
abbrev main_v692 : Ref sig .tc := ⟨.hbm, 893, rfl⟩
abbrev main_v693 : Ref sig .tc := ⟨.hbm, 894, rfl⟩
abbrev main_v694 : Ref sig .tc := ⟨.hbm, 895, rfl⟩
abbrev main_v695 : Ref sig .tc := ⟨.hbm, 896, rfl⟩
abbrev main_v696 : Ref sig .tc := ⟨.hbm, 897, rfl⟩
abbrev main_v697 : Ref sig .tc := ⟨.hbm, 898, rfl⟩
abbrev main_v698 : Ref sig .tc := ⟨.hbm, 899, rfl⟩
abbrev main_v699 : Ref sig .tc := ⟨.hbm, 900, rfl⟩
abbrev main_v700 : Ref sig .tc := ⟨.hbm, 901, rfl⟩
abbrev main_v701 : Ref sig .tc := ⟨.hbm, 902, rfl⟩
abbrev main_v702 : Ref sig .tc := ⟨.hbm, 903, rfl⟩
abbrev main_call22_cst : Ref sig .tc := ⟨.hbm, 904, rfl⟩
abbrev main_call22_v0 : Ref sig .tc := ⟨.hbm, 905, rfl⟩
abbrev main_v703 : Ref sig .tc := ⟨.hbm, 906, rfl⟩
abbrev main_v704 : Ref sig .tc := ⟨.hbm, 907, rfl⟩
abbrev main_v705 : Ref sig .tc := ⟨.hbm, 908, rfl⟩
abbrev main_v706 : Ref sig .tc := ⟨.hbm, 909, rfl⟩
abbrev main_v707 : Ref sig .tc := ⟨.hbm, 910, rfl⟩
abbrev main_v708 : Ref sig .tc := ⟨.hbm, 911, rfl⟩
abbrev main_v709 : Ref sig .tc := ⟨.hbm, 912, rfl⟩
abbrev main_v710 : Ref sig .tc := ⟨.hbm, 913, rfl⟩
abbrev main_v711 : Ref sig .tc := ⟨.hbm, 914, rfl⟩
abbrev main_cst_45 : Ref sig .tc := ⟨.hbm, 915, rfl⟩
abbrev main_v712 : Ref sig .tc := ⟨.hbm, 916, rfl⟩
abbrev main_v713 : Ref sig .tc := ⟨.hbm, 917, rfl⟩
abbrev main_v714 : Ref sig .tc := ⟨.hbm, 918, rfl⟩
abbrev main_v715 : Ref sig .tc := ⟨.hbm, 919, rfl⟩
abbrev main_v716 : Ref sig .tc := ⟨.hbm, 920, rfl⟩
abbrev main_cst_46 : Ref sig .tc := ⟨.hbm, 921, rfl⟩
abbrev main_v717 : Ref sig .tc := ⟨.hbm, 922, rfl⟩
abbrev main_v718 : Ref sig .tc := ⟨.hbm, 923, rfl⟩
abbrev main_v719 : Ref sig .tc := ⟨.hbm, 924, rfl⟩
abbrev main_v720 : Ref sig .tc := ⟨.hbm, 925, rfl⟩
abbrev main_v721 : Ref sig .tc := ⟨.hbm, 926, rfl⟩
abbrev main_v722 : Ref sig .tc := ⟨.hbm, 927, rfl⟩
abbrev main_v723 : Ref sig .tc := ⟨.hbm, 928, rfl⟩
abbrev main_v724 : Ref sig .tc := ⟨.hbm, 929, rfl⟩
abbrev main_v725 : Ref sig .tc := ⟨.hbm, 930, rfl⟩
abbrev main_cst_47 : Ref sig .tc := ⟨.hbm, 931, rfl⟩
abbrev main_v726 : Ref sig .tc := ⟨.hbm, 932, rfl⟩
abbrev main_v727 : Ref sig .tc := ⟨.hbm, 933, rfl⟩
abbrev main_cst_48 : Ref sig .tc := ⟨.hbm, 934, rfl⟩
abbrev main_v728 : Ref sig .tc := ⟨.hbm, 935, rfl⟩
abbrev main_v729 : Ref sig .tc := ⟨.hbm, 936, rfl⟩
abbrev main_v730 : Ref sig .tc := ⟨.hbm, 937, rfl⟩
abbrev main_v731 : Ref sig .tc := ⟨.hbm, 938, rfl⟩
abbrev main_v732 : Ref sig .tc := ⟨.hbm, 939, rfl⟩
abbrev main_v733 : Ref sig .tc := ⟨.hbm, 940, rfl⟩
abbrev main_v734 : Ref sig .tc := ⟨.hbm, 941, rfl⟩
abbrev main_v735 : Ref sig .tc := ⟨.hbm, 942, rfl⟩
abbrev main_v736 : Ref sig .tc := ⟨.hbm, 943, rfl⟩
abbrev main_v737 : Ref sig .tc := ⟨.hbm, 944, rfl⟩
abbrev main_v738 : Ref sig .tc := ⟨.hbm, 945, rfl⟩
abbrev main_v739 : Ref sig .tc := ⟨.hbm, 946, rfl⟩
abbrev main_v740 : Ref sig .tc := ⟨.hbm, 947, rfl⟩
abbrev main_v741 : Ref sig .tc := ⟨.hbm, 948, rfl⟩
abbrev main_v742 : Ref sig .tc := ⟨.hbm, 949, rfl⟩
abbrev main_cst_49 : Ref sig .tc := ⟨.hbm, 950, rfl⟩
abbrev main_v743 : Ref sig .tc := ⟨.hbm, 951, rfl⟩
abbrev main_v744 : Ref sig .tc := ⟨.hbm, 952, rfl⟩
abbrev main_v745 : Ref sig .tc := ⟨.hbm, 953, rfl⟩
abbrev main_v746 : Ref sig .tc := ⟨.hbm, 954, rfl⟩
abbrev main_v747 : Ref sig .tc := ⟨.hbm, 955, rfl⟩
abbrev main_v748 : Ref sig .tc := ⟨.hbm, 956, rfl⟩
abbrev main_v749 : Ref sig .tc := ⟨.hbm, 957, rfl⟩
abbrev main_v750 : Ref sig .tc := ⟨.hbm, 958, rfl⟩
abbrev main_v751 : Ref sig .tc := ⟨.hbm, 959, rfl⟩
abbrev main_v752 : Ref sig .tc := ⟨.hbm, 960, rfl⟩
abbrev main_v753 : Ref sig .tc := ⟨.hbm, 961, rfl⟩
abbrev main_v754 : Ref sig .tc := ⟨.hbm, 962, rfl⟩
abbrev main_v755 : Ref sig .tc := ⟨.hbm, 963, rfl⟩
abbrev main_v756 : Ref sig .tc := ⟨.hbm, 964, rfl⟩
abbrev main_v757 : Ref sig .tc := ⟨.hbm, 965, rfl⟩
abbrev main_v758 : Ref sig .tc := ⟨.hbm, 966, rfl⟩
abbrev main_call23_cst : Ref sig .tc := ⟨.hbm, 967, rfl⟩
abbrev main_call23_v0 : Ref sig .tc := ⟨.hbm, 968, rfl⟩
abbrev main_call23_v1 : Ref sig .tc := ⟨.hbm, 969, rfl⟩
abbrev main_call23_v2 : Ref sig .tc := ⟨.hbm, 970, rfl⟩
abbrev main_call23_c : Ref sig .tc := ⟨.hbm, 971, rfl⟩
abbrev main_call23_v3 : Ref sig .tc := ⟨.hbm, 972, rfl⟩
abbrev main_call23_v4 : Ref sig .tc := ⟨.hbm, 973, rfl⟩
abbrev main_call23_v5 : Ref sig .tc := ⟨.hbm, 974, rfl⟩
abbrev main_call23_v6 : Ref sig .tc := ⟨.hbm, 975, rfl⟩
abbrev main_call23_cst_0 : Ref sig .tc := ⟨.hbm, 976, rfl⟩
abbrev main_call23_call0_v0 : Ref sig .tc := ⟨.hbm, 977, rfl⟩
abbrev main_call23_call0_v1 : Ref sig .tc := ⟨.hbm, 978, rfl⟩
abbrev main_v759 : Ref sig .tc := ⟨.hbm, 979, rfl⟩
abbrev main_v760 : Ref sig .tc := ⟨.hbm, 980, rfl⟩
abbrev main_v761 : Ref sig .tc := ⟨.hbm, 981, rfl⟩
abbrev main_v762 : Ref sig .tc := ⟨.hbm, 982, rfl⟩
abbrev main_v763 : Ref sig .tc := ⟨.hbm, 983, rfl⟩
abbrev main_v764 : Ref sig .tc := ⟨.hbm, 984, rfl⟩
abbrev main_v765 : Ref sig .tc := ⟨.hbm, 985, rfl⟩
abbrev main_v766 : Ref sig .tc := ⟨.hbm, 986, rfl⟩
abbrev main_v767 : Ref sig .tc := ⟨.hbm, 987, rfl⟩
abbrev main_v768 : Ref sig .tc := ⟨.hbm, 988, rfl⟩
abbrev main_cst_50 : Ref sig .tc := ⟨.hbm, 989, rfl⟩
abbrev main_v769 : Ref sig .tc := ⟨.hbm, 990, rfl⟩
abbrev main_v770 : Ref sig .tc := ⟨.hbm, 991, rfl⟩
abbrev main_v771 : Ref sig .tc := ⟨.hbm, 992, rfl⟩
abbrev main_v772 : Ref sig .tc := ⟨.hbm, 993, rfl⟩
abbrev main_v773 : Ref sig .tc := ⟨.hbm, 994, rfl⟩
abbrev main_v774 : Ref sig .tc := ⟨.hbm, 995, rfl⟩
abbrev main_v775 : Ref sig .tc := ⟨.hbm, 996, rfl⟩
abbrev main_v776 : Ref sig .tc := ⟨.hbm, 997, rfl⟩
abbrev main_v777 : Ref sig .tc := ⟨.hbm, 998, rfl⟩
abbrev main_v778 : Ref sig .tc := ⟨.hbm, 999, rfl⟩
abbrev main_v779 : Ref sig .tc := ⟨.hbm, 1000, rfl⟩
abbrev main_v780 : Ref sig .tc := ⟨.hbm, 1001, rfl⟩
abbrev main_v781 : Ref sig .tc := ⟨.hbm, 1002, rfl⟩
abbrev main_v782 : Ref sig .tc := ⟨.hbm, 1003, rfl⟩
abbrev main_call24_cst : Ref sig .tc := ⟨.hbm, 1004, rfl⟩
abbrev main_call24_v0 : Ref sig .tc := ⟨.hbm, 1005, rfl⟩
abbrev main_v783 : Ref sig .tc := ⟨.hbm, 1006, rfl⟩
abbrev main_v784 : Ref sig .tc := ⟨.hbm, 1007, rfl⟩
abbrev main_v785 : Ref sig .tc := ⟨.hbm, 1008, rfl⟩
abbrev main_v786 : Ref sig .tc := ⟨.hbm, 1009, rfl⟩
abbrev main_v787 : Ref sig .tc := ⟨.hbm, 1010, rfl⟩
abbrev main_v788 : Ref sig .tc := ⟨.hbm, 1011, rfl⟩
abbrev main_v789 : Ref sig .tc := ⟨.hbm, 1012, rfl⟩
abbrev main_v790 : Ref sig .tc := ⟨.hbm, 1013, rfl⟩
abbrev main_v791 : Ref sig .tc := ⟨.hbm, 1014, rfl⟩
abbrev main_v792 : Ref sig .tc := ⟨.hbm, 1015, rfl⟩
abbrev main_cst_51 : Ref sig .tc := ⟨.hbm, 1016, rfl⟩
abbrev main_v793 : Ref sig .tc := ⟨.hbm, 1017, rfl⟩
abbrev main_v794 : Ref sig .tc := ⟨.hbm, 1018, rfl⟩
abbrev main_v795 : Ref sig .tc := ⟨.hbm, 1019, rfl⟩
abbrev main_v796 : Ref sig .tc := ⟨.hbm, 1020, rfl⟩
abbrev main_v797 : Ref sig .tc := ⟨.hbm, 1021, rfl⟩
abbrev main_v798 : Ref sig .tc := ⟨.hbm, 1022, rfl⟩
abbrev main_v799 : Ref sig .tc := ⟨.hbm, 1023, rfl⟩
abbrev main_v800 : Ref sig .tc := ⟨.hbm, 1024, rfl⟩
abbrev main_v801 : Ref sig .tc := ⟨.hbm, 1025, rfl⟩
abbrev main_v802 : Ref sig .tc := ⟨.hbm, 1026, rfl⟩
abbrev main_v803 : Ref sig .tc := ⟨.hbm, 1027, rfl⟩
abbrev main_v804 : Ref sig .tc := ⟨.hbm, 1028, rfl⟩
abbrev main_v805 : Ref sig .tc := ⟨.hbm, 1029, rfl⟩
abbrev main_call25_cst : Ref sig .tc := ⟨.hbm, 1030, rfl⟩
abbrev main_call25_v0 : Ref sig .tc := ⟨.hbm, 1031, rfl⟩
abbrev main_v806 : Ref sig .tc := ⟨.hbm, 1032, rfl⟩
abbrev main_v807 : Ref sig .tc := ⟨.hbm, 1033, rfl⟩
abbrev main_v808 : Ref sig .tc := ⟨.hbm, 1034, rfl⟩
abbrev main_v809 : Ref sig .tc := ⟨.hbm, 1035, rfl⟩
abbrev main_v810 : Ref sig .tc := ⟨.hbm, 1036, rfl⟩
abbrev main_v811 : Ref sig .tc := ⟨.hbm, 1037, rfl⟩
abbrev main_v812 : Ref sig .tc := ⟨.hbm, 1038, rfl⟩
abbrev main_v813 : Ref sig .tc := ⟨.hbm, 1039, rfl⟩
abbrev main_v814 : Ref sig .tc := ⟨.hbm, 1040, rfl⟩
abbrev main_cst_52 : Ref sig .tc := ⟨.hbm, 1041, rfl⟩
abbrev main_v815 : Ref sig .tc := ⟨.hbm, 1042, rfl⟩
abbrev main_v816 : Ref sig .tc := ⟨.hbm, 1043, rfl⟩
abbrev main_v817 : Ref sig .tc := ⟨.hbm, 1044, rfl⟩
abbrev main_v818 : Ref sig .tc := ⟨.hbm, 1045, rfl⟩
abbrev main_v819 : Ref sig .tc := ⟨.hbm, 1046, rfl⟩
abbrev main_cst_53 : Ref sig .tc := ⟨.hbm, 1047, rfl⟩
abbrev main_v820 : Ref sig .tc := ⟨.hbm, 1048, rfl⟩
abbrev main_v821 : Ref sig .tc := ⟨.hbm, 1049, rfl⟩
abbrev main_v822 : Ref sig .tc := ⟨.hbm, 1050, rfl⟩
abbrev main_v823 : Ref sig .tc := ⟨.hbm, 1051, rfl⟩
abbrev main_v824 : Ref sig .tc := ⟨.hbm, 1052, rfl⟩
abbrev main_v825 : Ref sig .tc := ⟨.hbm, 1053, rfl⟩
abbrev main_v826 : Ref sig .tc := ⟨.hbm, 1054, rfl⟩
abbrev main_v827 : Ref sig .tc := ⟨.hbm, 1055, rfl⟩
abbrev main_v828 : Ref sig .tc := ⟨.hbm, 1056, rfl⟩
abbrev main_cst_54 : Ref sig .tc := ⟨.hbm, 1057, rfl⟩
abbrev main_v829 : Ref sig .tc := ⟨.hbm, 1058, rfl⟩
abbrev main_v830 : Ref sig .tc := ⟨.hbm, 1059, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  transposes_S512x512_S512x512_1_0 : S512x512.Transposes [1, 0] S512x512
  bcast_S_S512 : S_.BroadcastsInDim S512 (![] : Fin 0 → Fin S512.rank)
  bcast_S_S16384 : S_.BroadcastsInDim S16384 (![] : Fin 0 → Fin S16384.rank)
  slices_S8x512_S1x512_0_0 : S8x512.Slices ![0, 0] S1x512
  shapeCasts_S1x512_S512 : S1x512.ShapeCasts S512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S512_S_d0 : S512.ReducesTo [0] S_
  h_S_ : 0 < S_.numel
  slices_S8x512x512_S1x512x512_0_0_0 : S8x512x512.Slices ![0, 0, 0] S1x512x512
  shapeCasts_S1x512x512_S512x512 : S1x512x512.ShapeCasts S512x512
  pads_S512_S512_000 : S512.Pads (![0] : Fin 1 → Nat) ![0] ![0] S512
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  slices_S8x512x1024_S1x512x1024_0_0_0 : S8x512x1024.Slices ![0, 0, 0] S1x512x1024
  shapeCasts_S1x512x1024_S512x1024 : S1x512x1024.ShapeCasts S512x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  slices_S8x1024x512_S1x1024x512_0_0_0 : S8x1024x512.Slices ![0, 0, 0] S1x1024x512
  shapeCasts_S1x1024x512_S1024x512 : S1x1024x512.ShapeCasts S1024x512
  reducesTo_S16384x512_S16384_d1 : S16384x512.ReducesTo [1] S16384
  slices_S8x512_S1x512_1_0 : S8x512.Slices ![1, 0] S1x512
  slices_S8x512x512_S1x512x512_1_0_0 : S8x512x512.Slices ![1, 0, 0] S1x512x512
  slices_S8x512x1024_S1x512x1024_1_0_0 : S8x512x1024.Slices ![1, 0, 0] S1x512x1024
  slices_S8x1024_S1x1024_1_0 : S8x1024.Slices ![1, 0] S1x1024
  slices_S8x1024x512_S1x1024x512_1_0_0 : S8x1024x512.Slices ![1, 0, 0] S1x1024x512
  slices_S8x512_S1x512_2_0 : S8x512.Slices ![2, 0] S1x512
  slices_S8x512x512_S1x512x512_2_0_0 : S8x512x512.Slices ![2, 0, 0] S1x512x512
  slices_S8x512x1024_S1x512x1024_2_0_0 : S8x512x1024.Slices ![2, 0, 0] S1x512x1024
  slices_S8x1024_S1x1024_2_0 : S8x1024.Slices ![2, 0] S1x1024
  slices_S8x1024x512_S1x1024x512_2_0_0 : S8x1024x512.Slices ![2, 0, 0] S1x1024x512
  slices_S8x512_S1x512_3_0 : S8x512.Slices ![3, 0] S1x512
  slices_S8x512x512_S1x512x512_3_0_0 : S8x512x512.Slices ![3, 0, 0] S1x512x512
  slices_S8x512x1024_S1x512x1024_3_0_0 : S8x512x1024.Slices ![3, 0, 0] S1x512x1024
  slices_S8x1024_S1x1024_3_0 : S8x1024.Slices ![3, 0] S1x1024
  slices_S8x1024x512_S1x1024x512_3_0_0 : S8x1024x512.Slices ![3, 0, 0] S1x1024x512
  slices_S8x512_S1x512_4_0 : S8x512.Slices ![4, 0] S1x512
  slices_S8x512x512_S1x512x512_4_0_0 : S8x512x512.Slices ![4, 0, 0] S1x512x512
  slices_S8x512x1024_S1x512x1024_4_0_0 : S8x512x1024.Slices ![4, 0, 0] S1x512x1024
  slices_S8x1024_S1x1024_4_0 : S8x1024.Slices ![4, 0] S1x1024
  slices_S8x1024x512_S1x1024x512_4_0_0 : S8x1024x512.Slices ![4, 0, 0] S1x1024x512
  slices_S8x512_S1x512_5_0 : S8x512.Slices ![5, 0] S1x512
  slices_S8x512x512_S1x512x512_5_0_0 : S8x512x512.Slices ![5, 0, 0] S1x512x512
  slices_S8x512x1024_S1x512x1024_5_0_0 : S8x512x1024.Slices ![5, 0, 0] S1x512x1024
  slices_S8x1024_S1x1024_5_0 : S8x1024.Slices ![5, 0] S1x1024
  slices_S8x1024x512_S1x1024x512_5_0_0 : S8x1024x512.Slices ![5, 0, 0] S1x1024x512
  slices_S8x512_S1x512_6_0 : S8x512.Slices ![6, 0] S1x512
  slices_S8x512x512_S1x512x512_6_0_0 : S8x512x512.Slices ![6, 0, 0] S1x512x512
  slices_S8x512x1024_S1x512x1024_6_0_0 : S8x512x1024.Slices ![6, 0, 0] S1x512x1024
  slices_S8x1024_S1x1024_6_0 : S8x1024.Slices ![6, 0] S1x1024
  slices_S8x1024x512_S1x1024x512_6_0_0 : S8x1024x512.Slices ![6, 0, 0] S1x1024x512
  slices_S8x512_S1x512_7_0 : S8x512.Slices ![7, 0] S1x512
  slices_S8x512x512_S1x512x512_7_0_0 : S8x512x512.Slices ![7, 0, 0] S1x512x512
  slices_S8x512x1024_S1x512x1024_7_0_0 : S8x512x1024.Slices ![7, 0, 0] S1x512x1024
  slices_S8x1024_S1x1024_7_0 : S8x1024.Slices ![7, 0] S1x1024
  slices_S8x1024x512_S1x1024x512_7_0_0 : S8x1024x512.Slices ![7, 0, 0] S1x1024x512
  dot_S512x512_S512x512_S512x512_1_0_0_1_n_n_wf : DotDims.WF S512x512 S512x512 S512x512 [1] [0] [0] [1] [] []
  dot_S16384x512_S512x512_S16384x512_1_0_0_1_n_n_wf : DotDims.WF S16384x512 S512x512 S16384x512 [1] [0] [0] [1] [] []
  dot_S16384x512_S512x1024_S16384x1024_1_0_0_1_n_n_wf : DotDims.WF S16384x512 S512x1024 S16384x1024 [1] [0] [0] [1] [] []
  dot_S16384x1024_S1024x512_S16384x512_1_0_0_1_n_n_wf : DotDims.WF S16384x1024 S1024x512 S16384x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.KFrameShared.lean ====
/- The kernel program's run as a frame: what the runs of the two control cases share.
   The host lines before the one grid region leave every argument array as launched; the region
   finds each window's array at the contents those lines computed; the three host lines after it
   read one output array and write three buffers of their own. Stated here: the buffer contents at
   the region's entry, the main function around the region, each argument array unchanged by the
   host lines on either side, each input window's block at a grid point, the one branch condition
   of the body in closed form over the grid, and the names of the staging memrefs at a point. -/
import proofs.«112469_j76776835383759_2_alg».proof.Proof.Gen.KernelIdeal.Launch
import proofs.«112469_j76776835383759_2_alg».proof.Proof.Gen.KernelIdeal.Skeleton
import proofs.«112469_j76776835383759_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The main function around the region -/

/-- Core `c`'s buffer contents when the region is entered, as a valuation: the launch memory after the seven
    stretches of host operations that precede the region, in order. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The main function is the host lines before the region, the region, and the host lines after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region: each writes its own result buffer, which is none of the fifteen arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays on either side of the region -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes `main_arg7`, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes `main_arg8`, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation after the region writes `main_arg9`, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation after the region writes `main_arg10`, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation after the region writes `main_arg11`, and it is no array of the region: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation after the region writes `main_arg12`, and it is no array of the region: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation after the region writes `main_arg13`, and it is no array of the region: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host operation after the region writes `main_arg14`, and it is no array of the region: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host operation after the region writes `main_arg15`, and it is no array of the region: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is
    not fetched its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is
    not fetched its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is
    not fetched its block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is
    not fetched its block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is
    not fetched its block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is
    not fetched its block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is
    not fetched its block index has not moved since the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: where it is
    not fetched its block index has not moved since the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not: where it is
    not fetched its block index has not moved since the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not: where it is
    not fetched its block index has not moved since the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not: where it is
    not fetched its block index has not moved since the point before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not: where it is
    not fetched its block index has not moved since the point before. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the region's post — every array of the region at
    what the data compute, every bypassing buffer at what the later host lines leave — ends with every argument array as
    launched: `main_arg0` is an input window's array, which the region only reads; the other fifteen bypass the region and
    no host line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c)⟩) h

/-! ## The body's branch condition -/

/-- The condition of the body's one conditional, from the grid coordinates: grid coordinate 1 is zero. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8): the first of each run of eight points that share an output block. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs at a point -/

/-- One staging buffer of each output window, through which its contents are stated (the choice does not matter). -/
abbrev VO0_13 : View sig .tc .vmem S512x512 .f32 := (Memref.whole cc0_stg13_0 : Memref sig .tc .vmem S512x512 .f32).view
abbrev VO0_14 : View sig .tc .vmem S512x1 .f32 := (Memref.whole cc0_stg14_0 : Memref sig .tc .vmem S512x1 .f32).view
/-- Each window's current staging memref at point `t`, spelled as the region passes it to the body, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1 .f32 := win0_14.stage (cfg0.slots t 14)
abbrev hs0_14 (t : Fin cfg0.N) : (ms0_14 t).IsWhole := hstage0_14 ((cfg0.slots t 14).cast nbuf0_14)

end Cert.KernelIdeal.Hand

end
-- ==== Proof.KFrameRunA.lean ====
/- The kernel body run whole in the case where its one conditional is taken (grid coordinate 1 is zero): the body first
   copies input window 0's block into the first output's buffer and stores zeros into the second's, then loads both,
   computes, and stores both whole. The pieces each output's buffer ends with are found by running the body. -/
import proofs.«112469_j76776835383759_2_alg».proof.Proof.KFrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case where the conditional
    is taken, with the proof that on whole staging memrefs — the inputs' at their contents, the outputs' at anything —
    the body runs to the continuation holding the inputs' as they were and each output's buffer with its pieces written. -/
noncomputable def kernelRun0_A (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) :
    Σ' (L13 : List (View.Piece (Elt F) S512x512 .f32)), { L14 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc0__glow_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__glow_kernel_eq_skeleton]; unfold cc0__glow_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    iexists _; iexact H14

end Cert.KernelIdeal.Hand

end
-- ==== Proof.KFrameRunB.lean ====
/- The kernel body run whole in the case where its one conditional is not taken (grid coordinate 1 is not zero): the body
   loads both outputs' buffers, which hold what the point before left, computes, and stores both whole. The pieces each
   output's buffer ends with are found by running the body. -/
import proofs.«112469_j76776835383759_2_alg».proof.Proof.KFrameRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case where the conditional
    is not taken, with the proof that on whole staging memrefs — the inputs' at their contents, the outputs' at their running contents —
    the body runs to the continuation holding the inputs' as they were and each output's buffer with its pieces written. -/
noncomputable def kernelRun0_B (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) :
    Σ' (L13 : List (View.Piece (Elt F) S512x512 .f32)), { L14 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc0__glow_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__glow_kernel_eq_skeleton]; unfold cc0__glow_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    iexists _; iexact H14

end Cert.KernelIdeal.Hand

end
-- ==== Proof.KFrame.lean ====
/- The frame run of the kernel program. The two outputs' staging buffers are written back only at the last of each
   eight consecutive grid points, so between write-backs each carries what the point before left: what they hold after
   each point is a recursion on the point — at the first of the eight the body resets them (copies the input block,
   stores zeros) and accumulates once; at the other seven it accumulates over what the point before left. From that: the
   proof data of the region, the body's obligation at a generic point (a case split on the point's residue mod 8), the
   run of the main function to the region's post, and the argument arrays unchanged. -/
import proofs.«112469_j76776835383759_2_alg».proof.Proof.KFrameRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body leaves in output 13's buffer when the conditional is taken tile its block, so they cover it. -/
theorem cover0_A_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1 S512x512.size (by sl_kernel_rfl) y

/-- What that case leaves in output 13's staging buffer: its pieces read back over junk. -/
def out0_A_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) : Vec F S512x512 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1)

/-- The pieces the body leaves in output 14's buffer when the conditional is taken tile its block, so they cover it. -/
theorem cover0_A_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1 S512x1.size (by sl_kernel_rfl) y

/-- What that case leaves in output 14's staging buffer: its pieces read back over junk. -/
def out0_A_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) : Vec F S512x1 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1)

/-- The pieces the body leaves in output 13's buffer when the conditional is not taken tile its block, so they cover it. -/
theorem cover0_B_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).1 S512x512.size (by sl_kernel_rfl) y

/-- What that case leaves in output 13's staging buffer: its pieces read back over junk. -/
def out0_B_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) : Vec F S512x512 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).1)

/-- The pieces the body leaves in output 14's buffer when the conditional is not taken tile its block, so they cover it. -/
theorem cover0_B_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).2.1 S512x1.size (by sl_kernel_rfl) y

/-- What that case leaves in output 14's staging buffer: its pieces read back over junk. -/
def out0_B_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) : Vec F S512x1 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).2.1)

/-! ## What the outputs hold after each point -/

/-- THE ACCUMULATION. What the two outputs' staging buffers hold after the body at position `n` (a pair: output 13, output 14):
    at a point ≡ 0 (mod 8) what the resetting case leaves from the input blocks alone; at any other point what the
    accumulating case leaves over what this gives at `n - 1` (the buffers are not written back in between). -/
def outsAt0 (c : Dev nD) : (n : ℕ) → n < cfg0.N → Vec F S512x512 .f32 × Vec F S512x1 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 8 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).1 (outsAt0 c n (Nat.lt_of_succ_lt hn)).2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).1 (outsAt0 c n (Nat.lt_of_succ_lt hn)).2)

/-- `outsAt0` at a point ≡ 0 (mod 8): the resetting case's contents. -/
theorem outsAt0_A (c : Dev nD) (t : Fin cfg0.N) (h0 : t.val % 8 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans rfl

/-- `outsAt0` at any other point: the accumulating case's contents, over what the point before left. -/
theorem outsAt0_B (c : Dev nD) (t : Fin cfg0.N) (h0 : ¬t.val % 8 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's proof data -/

/-- The proof data of the region on core `c`: the arrays as the region finds them; after the body at point `t` each input's
    buffer at its block and the two outputs' at `outsAt0`'s components; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2
  Φ _ := Pipeline.ΦA spec0 c
  q _ := fullShare
  owed _ := 0

/-- The proof data's arrays are the region-entry contents (the definition projected; the fold over the host lines is never
    unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- At a point not ≡ 0 (mod 8) output 13's current staging buffer holds what the body left at the point before: the point is
    not the first, and the buffer was not written back in between (write-backs happen after the points ≡ 7 only). -/
theorem before0_13_B (c : Dev nD) (t : Fin cfg0.N) (h0 : ¬t.val % 8 = 0) (d) :
    (dats m 0 c).before 13 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point not ≡ 0 (mod 8) output 14's current staging buffer holds what the body left at the point before: the point is
    not the first, and the buffer was not written back in between (write-backs happen after the points ≡ 7 only). -/
theorem before0_14_B (c : Dev nD) (t : Fin cfg0.N) (h0 : ¬t.val % 8 = 0) (d) :
    (dats m 0 c).before 14 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 4000000 in
/-- The body at any point: the inputs' memrefs hold their blocks; the point's residue mod 8 says which case it is in; in
    the accumulating case each output's memref holds what the point before left; so that case's run applies; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  have hN : t.val < 256 := lt_of_lt_of_eq t.isLt (show cfg0.N = 256 from N_0)
  by_cases h0 : t.val % 8 = 0
  · rw [outsAt0_A m c t h0]
    (try dsimp only)
    unfold out0_A_13 out0_A_14
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    iintro ⟨H0, H1, H2, H3, H4, H5, H6, H7, H8, H9, H10, H11, H12, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
    unfold owns; iexists _; isplitr
    swap; · iexact H14
    ipureintro; exact View.read_writes_of_cover _ _ _ _ _ (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
  · rw [outsAt0_B m c t h0]
    simp only [before0_13_B m c t h0, before0_14_B m c t h0]
    (try dsimp only)
    unfold out0_B_13 out0_B_14
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2)
    unfold owns; iexists _; isplitr
    swap; · iexact H14
    ipureintro; exact View.read_writes_of_cover _ _ _ _ _ (cover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the main function
    on the TensorCores terminates, and every final state has every array of the region at what the library computes from
    the proof data and every other unscoped buffer as the three host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its sixteen argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.KernelIdeal.Hand

end
-- ==== Proof.KFrameShared_B.lean ====
/- The kernel program's run as a frame: what the runs of the two control cases share.
   The host lines before the one grid region leave every argument array as launched; the region
   finds each window's array at the contents those lines computed; the three host lines after it
   read one output array and write three buffers of their own. Stated here: the buffer contents at
   the region's entry, the main function around the region, each argument array unchanged by the
   host lines on either side, each input window's block at a grid point, the one branch condition
   of the body in closed form over the grid, and the names of the staging memrefs at a point. -/
import proofs.«112469_j76776835383759_2_alg».proof.Proof.Gen.Kernel.Launch
import proofs.«112469_j76776835383759_2_alg».proof.Proof.Gen.Kernel.Skeleton
import proofs.«112469_j76776835383759_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The main function around the region -/

/-- Core `c`'s buffer contents when the region is entered, as a valuation: the launch memory after the seven
    stretches of host operations that precede the region, in order. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The main function is the host lines before the region, the region, and the host lines after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region: each writes its own result buffer, which is none of the fifteen arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays on either side of the region -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes `main_arg7`, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes `main_arg8`, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation after the region writes `main_arg9`, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation after the region writes `main_arg10`, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host operation after the region writes `main_arg11`, and it is no array of the region: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host operation after the region writes `main_arg12`, and it is no array of the region: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host operation after the region writes `main_arg13`, and it is no array of the region: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-- No host operation after the region writes `main_arg14`, and it is no array of the region: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-- No host operation after the region writes `main_arg15`, and it is no array of the region: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is
    not fetched its block index has not moved since the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is
    not fetched its block index has not moved since the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is
    not fetched its block index has not moved since the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is
    not fetched its block index has not moved since the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is
    not fetched its block index has not moved since the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is
    not fetched its block index has not moved since the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is
    not fetched its block index has not moved since the point before. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: where it is
    not fetched its block index has not moved since the point before. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not: where it is
    not fetched its block index has not moved since the point before. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not: where it is
    not fetched its block index has not moved since the point before. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not: where it is
    not fetched its block index has not moved since the point before. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not: where it is
    not fetched its block index has not moved since the point before. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the region's post — every array of the region at
    what the data compute, every bypassing buffer at what the later host lines leave — ends with every argument array as
    launched: `main_arg0` is an input window's array, which the region only reads; the other fifteen bypass the region and
    no host line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c),
    ((h c).2 main_arg14 (Pipeline.mem_restRefs_of main_arg14 (by decide) (by decide))).trans (W_main_arg14 m dats c),
    ((h c).2 main_arg15 (Pipeline.mem_restRefs_of main_arg15 (by decide) (by decide))).trans (W_main_arg15 m dats c)⟩) h

/-! ## The body's branch condition -/

/-- The condition of the body's one conditional, from the grid coordinates: grid coordinate 1 is zero. -/
abbrev cond0_0 (i : grid0.Coords) : Prop := (Scalar.cmpi .ne (Scalar.extui (Scalar.cmpi .eq (BitVec.ofNat 32 (i 1).val) 0#32)) 0#32) = 1#1
/-- It holds exactly at the points ≡ 0 (mod 8): the first of each run of eight points that share an output block. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs at a point -/

/-- One staging buffer of each output window, through which its contents are stated (the choice does not matter). -/
abbrev VO0_13 : View sig .tc .vmem S512x512 .f32 := (Memref.whole cc0_stg13_0 : Memref sig .tc .vmem S512x512 .f32).view
abbrev VO0_14 : View sig .tc .vmem S512x1 .f32 := (Memref.whole cc0_stg14_0 : Memref sig .tc .vmem S512x1 .f32).view
/-- Each window's current staging memref at point `t`, spelled as the region passes it to the body, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1 .f32 := win0_14.stage (cfg0.slots t 14)
abbrev hs0_14 (t : Fin cfg0.N) : (ms0_14 t).IsWhole := hstage0_14 ((cfg0.slots t 14).cast nbuf0_14)

end Cert.Kernel.Hand

end
-- ==== Proof.KFrameRunA_B.lean ====
/- The kernel body run whole in the case where its one conditional is taken (grid coordinate 1 is zero): the body first
   copies input window 0's block into the first output's buffer and stores zeros into the second's, then loads both,
   computes, and stores both whole. The pieces each output's buffer ends with are found by running the body. -/
import proofs.«112469_j76776835383759_2_alg».proof.Proof.KFrameShared_B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case where the conditional
    is taken, with the proof that on whole staging memrefs — the inputs' at their contents, the outputs' at anything —
    the body runs to the continuation holding the inputs' as they were and each output's buffer with its pieces written. -/
noncomputable def kernelRun0_A (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) :
    Σ' (L13 : List (View.Piece (Elt F) S512x512 .f32)), { L14 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc0__glow_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__glow_kernel_eq_skeleton]; unfold cc0__glow_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    iexists _; iexact H14

end Cert.Kernel.Hand

end
-- ==== Proof.KFrameRunB_B.lean ====
/- The kernel body run whole in the case where its one conditional is not taken (grid coordinate 1 is not zero): the body
   loads both outputs' buffers, which hold what the point before left, computes, and stores both whole. The pieces each
   output's buffer ends with are found by running the body. -/
import proofs.«112469_j76776835383759_2_alg».proof.Proof.KFrameRunA_B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case where the conditional
    is not taken, with the proof that on whole staging memrefs — the inputs' at their contents, the outputs' at their running contents —
    the body runs to the continuation holding the inputs' as they were and each output's buffer with its pieces written. -/
noncomputable def kernelRun0_B (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) :
    Σ' (L13 : List (View.Piece (Elt F) S512x512 .f32)), { L14 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc0__glow_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__glow_kernel_eq_skeleton]; unfold cc0__glow_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    iexists _; iexact H14

end Cert.Kernel.Hand

end
-- ==== Proof.KFrame_B.lean ====
/- The frame run of the kernel program. The two outputs' staging buffers are written back only at the last of each
   eight consecutive grid points, so between write-backs each carries what the point before left: what they hold after
   each point is a recursion on the point — at the first of the eight the body resets them (copies the input block,
   stores zeros) and accumulates once; at the other seven it accumulates over what the point before left. From that: the
   proof data of the region, the body's obligation at a generic point (a case split on the point's residue mod 8), the
   run of the main function to the region's post, and the argument arrays unchanged. -/
import proofs.«112469_j76776835383759_2_alg».proof.Proof.KFrameRunB_B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body leaves in output 13's buffer when the conditional is taken tile its block, so they cover it. -/
theorem cover0_A_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1 S512x512.size (by sl_kernel_rfl) y

/-- What that case leaves in output 13's staging buffer: its pieces read back over junk. -/
def out0_A_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) : Vec F S512x512 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).1)

/-- The pieces the body leaves in output 14's buffer when the conditional is taken tile its block, so they cover it. -/
theorem cover0_A_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1 S512x1.size (by sl_kernel_rfl) y

/-- What that case leaves in output 14's staging buffer: its pieces read back over junk. -/
def out0_A_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) : Vec F S512x1 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12).2.1)

/-- The pieces the body leaves in output 13's buffer when the conditional is not taken tile its block, so they cover it. -/
theorem cover0_B_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).1 S512x512.size (by sl_kernel_rfl) y

/-- What that case leaves in output 13's staging buffer: its pieces read back over junk. -/
def out0_B_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) : Vec F S512x512 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).1)

/-- The pieces the body leaves in output 14's buffer when the conditional is not taken tile its block, so they cover it. -/
theorem cover0_B_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).2.1 S512x1.size (by sl_kernel_rfl) y

/-- What that case leaves in output 14's staging buffer: its pieces read back over junk. -/
def out0_B_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) : Vec F S512x1 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14).2.1)

/-! ## What the outputs hold after each point -/

/-- THE ACCUMULATION. What the two outputs' staging buffers hold after the body at position `n` (a pair: output 13, output 14):
    at a point ≡ 0 (mod 8) what the resetting case leaves from the input blocks alone; at any other point what the
    accumulating case leaves over what this gives at `n - 1` (the buffers are not written back in between). -/
def outsAt0 (c : Dev nD) : (n : ℕ) → n < cfg0.N → Vec F S512x512 .f32 × Vec F S512x1 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 8 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).1 (outsAt0 c n (Nat.lt_of_succ_lt hn)).2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).1 (outsAt0 c n (Nat.lt_of_succ_lt hn)).2)

/-- `outsAt0` at a point ≡ 0 (mod 8): the resetting case's contents. -/
theorem outsAt0_A (c : Dev nD) (t : Fin cfg0.N) (h0 : t.val % 8 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans rfl

/-- `outsAt0` at any other point: the accumulating case's contents, over what the point before left. -/
theorem outsAt0_B (c : Dev nD) (t : Fin cfg0.N) (h0 : ¬t.val % 8 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's proof data -/

/-- The proof data of the region on core `c`: the arrays as the region finds them; after the body at point `t` each input's
    buffer at its block and the two outputs' at `outsAt0`'s components; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2
  Φ _ := Pipeline.ΦA spec0 c
  q _ := fullShare
  owed _ := 0

/-- The proof data's arrays are the region-entry contents (the definition projected; the fold over the host lines is never
    unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- At a point not ≡ 0 (mod 8) output 13's current staging buffer holds what the body left at the point before: the point is
    not the first, and the buffer was not written back in between (write-backs happen after the points ≡ 7 only). -/
theorem before0_13_B (c : Dev nD) (t : Fin cfg0.N) (h0 : ¬t.val % 8 = 0) (d) :
    (dats m 0 c).before 13 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 13 rfl t (by omega) (Bool.eq_false_iff.mpr fun h => by have := (flush0_13 _).mp h; dsimp only at this; omega)
    (fun _ => rfl) (fun _ _ => rfl)]
  dsimp only [dats]
/-- At a point not ≡ 0 (mod 8) output 14's current staging buffer holds what the body left at the point before: the point is
    not the first, and the buffer was not written back in between (write-backs happen after the points ≡ 7 only). -/
theorem before0_14_B (c : Dev nD) (t : Fin cfg0.N) (h0 : ¬t.val % 8 = 0) (d) :
    (dats m 0 c).before 14 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 4000000 in
/-- The body at any point: the inputs' memrefs hold their blocks; the point's residue mod 8 says which case it is in; in
    the accumulating case each output's memref holds what the point before left; so that case's run applies; the invariant
    passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  have hN : t.val < 256 := lt_of_lt_of_eq t.isLt (show cfg0.N = 256 from N_0)
  by_cases h0 : t.val % 8 = 0
  · rw [outsAt0_A m c t h0]
    (try dsimp only)
    unfold out0_A_13 out0_A_14
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    iintro ⟨H0, H1, H2, H3, H4, H5, H6, H7, H8, H9, H10, H11, H12, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
    unfold owns; iexists _; isplitr
    swap; · iexact H14
    ipureintro; exact View.read_writes_of_cover _ _ _ _ _ (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
  · rw [outsAt0_B m c t h0]
    simp only [before0_13_B m c t h0, before0_14_B m c t h0]
    (try dsimp only)
    unfold out0_B_13 out0_B_14
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, H9, H10, H11, H12, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2)
    unfold owns; iexists _; isplitr
    swap; · iexact H14
    ipureintro; exact View.read_writes_of_cover _ _ _ _ _ (cover0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the main function
    on the TensorCores terminates, and every final state has every array of the region at what the library computes from
    the proof data and every other unscoped buffer as the three host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its sixteen argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.Kernel.Hand

end
-- ==== Proof.RefRunLib.lean ====
/- Small facts about lists of host operations, for reading a long straight-line program piece by piece:
   a singleton of a listed buffer lies in the listed buffers' set; a property of every operation of two lists
   holds of their concatenation; the buffers two lists write are those of their concatenation. -/
import proofs.«112469_j76776835383759_2_alg».proof.Proof.Gen.ReferenceIdeal
import Idealize.ShloMosaic.Lib.StableHlo.Run
import Idealize.ShloMosaic.Lib.Pipeline.Frame

noncomputable section

namespace Cert.ReferenceIdeal.RunHand

open Idealize.ShloMosaic Idealize.ShloMosaic.TcCoe Idealize.SL.Sem Idealize.ShloMosaic.StableHlo

variable {τ : Topo} {sig : RefSig} {Val : EltTy → Type}

/-- The one buffer an operation writes, when it is among the listed references, lies in the listed buffers' set. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A property of every operation of each of two lists holds of every operation of their concatenation. -/
theorem forall_append {p : HloOp τ sig Val → Prop} {l₁ l₂ : List (HloOp τ sig Val)}
    (h₁ : l₁.Forall p) (h₂ : l₂.Forall p) : (l₁ ++ l₂).Forall p :=
  List.forall_iff_forall_mem.mpr fun op h => by
    rcases List.mem_append.mp h with h | h
    · exact List.forall_iff_forall_mem.mp h₁ op h
    · exact List.forall_iff_forall_mem.mp h₂ op h

/-- Two lists that write only the buffers listed for each: their concatenation writes only the two listings'. -/
theorem writes_append {l₁ l₂ : List (HloOp τ sig Val)} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.mpr fun op h => by
    rw [List.map_append, List.toFinset_append]
    rcases List.mem_append.mp h with h | h
    · exact (List.forall_iff_forall_mem.mp h₁ op h).trans Finset.subset_union_left
    · exact (List.forall_iff_forall_mem.mp h₂ op h).trans Finset.subset_union_right

end Cert.ReferenceIdeal.RunHand

end
-- ==== Proof.RefRun00.lean ====
/- The reference program's window main_part0 (statements 1 … 60 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 20 (from '%0 = stablehlo.iota dim = 0' to '%14 = stablehlo.broadcast_in_dim %cst_2, dims = []'): 48 operations, a called function's standing in its call's place. -/
abbrev pc00 : List (HloOp τ sig (Elt F)) :=
  [ StableHlo.nullary main_v0 (iotaInDim S512x512 32 0),
    StableHlo.nullary main_v1 (iotaInDim S512x512 32 1),
    StableHlo.nullary main_c (constantI S_ 32 0#32),
    StableHlo.unary main_c main_v2 (broadcastInDim S512x512 ![] bcast_S_S512x512 : (⟨S_, .i32⟩ : BufTy).Contents (Elt F) → (⟨S512x512, .i32⟩ : BufTy).Contents (Elt F)),
    StableHlo.binary main_v0 main_v2 main_v3 (addi : (⟨S512x512, .i32⟩ : BufTy).Contents (Elt F) → (⟨S512x512, .i32⟩ : BufTy).Contents (Elt F) → (⟨S512x512, .i32⟩ : BufTy).Contents (Elt F)),
    StableHlo.binary main_v3 main_v1 main_v4 (cmpi .eq : (⟨S512x512, .i32⟩ : BufTy).Contents (Elt F) → (⟨S512x512, .i32⟩ : BufTy).Contents (Elt F) → (⟨S512x512, .i1⟩ : BufTy).Contents (Elt F)),
    StableHlo.unary main_v4 main_v5 (uitofp .f32 : (⟨S512x512, .i1⟩ : BufTy).Contents (Elt F) → (⟨S512x512, .f32⟩ : BufTy).Contents (Elt F)),
    StableHlo.nullary main_cst (constant S_ .f32 0x3F800000#32),
    StableHlo.unary main_cst main_v6 (broadcastInDim S512x512 ![] bcast_S_S512x512 : (⟨S_, .f32⟩ : BufTy).Contents (Elt F) → (⟨S512x512, .f32⟩ : BufTy).Contents (Elt F)),
    StableHlo.TRef.nullary (StableHlo.TRef.of (T := ⟨S512x512, .i32⟩) main_call0_v0) (iotaInDim S512x512 32 0),
    StableHlo.TRef.nullary (StableHlo.TRef.of (T := ⟨S_, .i32⟩) main_call0_c) (constantI S_ 32 4294967295#32),
    StableHlo.TRef.unary (StableHlo.TRef.of (T := ⟨S_, .i32⟩) main_call0_c) (StableHlo.TRef.of (T := ⟨S512x512, .i32⟩) main_call0_v1) (broadcastInDim S512x512 ![] bcast_S_S512x512),
    StableHlo.TRef.binary (StableHlo.TRef.of (T := ⟨S512x512, .i32⟩) main_call0_v0) (StableHlo.TRef.of (T := ⟨S512x512, .i32⟩) main_call0_v1) (StableHlo.TRef.of (T := ⟨S512x512, .i32⟩) main_call0_v2) addi,
    StableHlo.TRef.nullary (StableHlo.TRef.of (T := ⟨S512x512, .i32⟩) main_call0_v3) (iotaInDim S512x512 32 1),
    StableHlo.TRef.binary (StableHlo.TRef.of (T := ⟨S512x512, .i32⟩) main_call0_v2) (StableHlo.TRef.of (T := ⟨S512x512, .i32⟩) main_call0_v3) (StableHlo.TRef.of (T := ⟨S512x512, .i1⟩) main_call0_v4) (cmpi .sge),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S512x512, .f32⟩) main_call0_v5) (broadcastInDim S512x512 ![] bcast_S_S512x512),
    StableHlo.TRef.ternary (StableHlo.TRef.of (T := ⟨S512x512, .i1⟩) main_call0_v4) (StableHlo.TRef.of (T := ⟨S512x512, .f32⟩) main_v6) (StableHlo.TRef.of (T := ⟨S512x512, .f32⟩) main_call0_v5) (StableHlo.TRef.of (T := ⟨S512x512, .f32⟩) main_v7) select,
    StableHlo.unary main_v7 main_v8 ((transpose S512x512 [1, 0] · transposes_S512x512_S512x512_1_0) : (⟨S512x512, .f32⟩ : BufTy).Contents (Elt F) → (⟨S512x512, .f32⟩ : BufTy).Contents (Elt F)),
    StableHlo.nullary main_v9 (iotaInDim S512 32 0),
    StableHlo.nullary main_c_0 (constantI S_ 32 2#32),
    StableHlo.TRef.unary (StableHlo.TRef.of (T := ⟨S_, .i32⟩) main_c_0) (StableHlo.TRef.of (T := ⟨S_, .i32⟩) main_call1_v0) id,
    StableHlo.TRef.nullary (StableHlo.TRef.of (T := ⟨S_, .i32⟩) main_call1_c) (constantI S_ 32 0#32),
    StableHlo.TRef.binary (StableHlo.TRef.of (T := ⟨S_, .i32⟩) main_call1_v0) (StableHlo.TRef.of (T := ⟨S_, .i32⟩) main_call1_c) (StableHlo.TRef.of (T := ⟨S_, .i1⟩) main_call1_v1) (cmpi .eq),
    StableHlo.TRef.nullary (StableHlo.TRef.of (T := ⟨S_, .i32⟩) main_call1_c_0) (constantI S_ 32 1#32),
    StableHlo.TRef.ternary (StableHlo.TRef.of (T := ⟨S_, .i1⟩) main_call1_v1) (StableHlo.TRef.of (T := ⟨S_, .i32⟩) main_call1_c_0) (StableHlo.TRef.of (T := ⟨S_, .i32⟩) main_call1_v0) (StableHlo.TRef.of (T := ⟨S_, .i32⟩) main_call1_v2) select,
    StableHlo.TRef.unary (StableHlo.TRef.of (T := ⟨S_, .i32⟩) main_call1_v2) (StableHlo.TRef.of (T := ⟨S512, .i32⟩) main_call1_v3) (broadcastInDim S512 ![] bcast_S_S512),
    StableHlo.TRef.binary (StableHlo.TRef.of (T := ⟨S512, .i32⟩) main_v9) (StableHlo.TRef.of (T := ⟨S512, .i32⟩) main_call1_v3) (StableHlo.TRef.of (T := ⟨S512, .i32⟩) main_call1_v4) Host.remsi,
    StableHlo.TRef.nullary (StableHlo.TRef.of (T := ⟨S_, .i32⟩) main_call1_c_1) (constantI S_ 32 0#32),
    StableHlo.TRef.unary (StableHlo.TRef.of (T := ⟨S_, .i32⟩) main_call1_c_1) (StableHlo.TRef.of (T := ⟨S512, .i32⟩) main_call1_v5) (broadcastInDim S512 ![] bcast_S_S512),
    StableHlo.TRef.binary (StableHlo.TRef.of (T := ⟨S512, .i32⟩) main_call1_v4) (StableHlo.TRef.of (T := ⟨S512, .i32⟩) main_call1_v5) (StableHlo.TRef.of (T := ⟨S512, .i1⟩) main_call1_v6) (cmpi .ne),
    StableHlo.TRef.nullary (StableHlo.TRef.of (T := ⟨S_, .i32⟩) main_call1_c_2) (constantI S_ 32 0#32),
    StableHlo.TRef.unary (StableHlo.TRef.of (T := ⟨S_, .i32⟩) main_call1_c_2) (StableHlo.TRef.of (T := ⟨S512, .i32⟩) main_call1_v7) (broadcastInDim S512 ![] bcast_S_S512),
    StableHlo.TRef.binary (StableHlo.TRef.of (T := ⟨S512, .i32⟩) main_call1_v4) (StableHlo.TRef.of (T := ⟨S512, .i32⟩) main_call1_v7) (StableHlo.TRef.of (T := ⟨S512, .i1⟩) main_call1_v8) (cmpi .slt),
    StableHlo.TRef.nullary (StableHlo.TRef.of (T := ⟨S_, .i32⟩) main_call1_c_3) (constantI S_ 32 0#32),
    StableHlo.TRef.binary (StableHlo.TRef.of (T := ⟨S_, .i32⟩) main_call1_v2) (StableHlo.TRef.of (T := ⟨S_, .i32⟩) main_call1_c_3) (StableHlo.TRef.of (T := ⟨S_, .i1⟩) main_call1_v9) (cmpi .slt),
    StableHlo.TRef.unary (StableHlo.TRef.of (T := ⟨S_, .i1⟩) main_call1_v9) (StableHlo.TRef.of (T := ⟨S512, .i1⟩) main_call1_v10) (broadcastInDim S512 ![] bcast_S_S512),
    StableHlo.TRef.binary (StableHlo.TRef.of (T := ⟨S512, .i1⟩) main_call1_v8) (StableHlo.TRef.of (T := ⟨S512, .i1⟩) main_call1_v10) (StableHlo.TRef.of (T := ⟨S512, .i1⟩) main_call1_v11) (cmpi .ne),
    StableHlo.TRef.binary (StableHlo.TRef.of (T := ⟨S512, .i1⟩) main_call1_v11) (StableHlo.TRef.of (T := ⟨S512, .i1⟩) main_call1_v6) (StableHlo.TRef.of (T := ⟨S512, .i1⟩) main_call1_v12) andi,
    StableHlo.TRef.unary (StableHlo.TRef.of (T := ⟨S_, .i32⟩) main_call1_v2) (StableHlo.TRef.of (T := ⟨S512, .i32⟩) main_call1_v13) (broadcastInDim S512 ![] bcast_S_S512),
    StableHlo.TRef.binary (StableHlo.TRef.of (T := ⟨S512, .i32⟩) main_call1_v4) (StableHlo.TRef.of (T := ⟨S512, .i32⟩) main_call1_v13) (StableHlo.TRef.of (T := ⟨S512, .i32⟩) main_call1_v14) addi,
    StableHlo.TRef.ternary (StableHlo.TRef.of (T := ⟨S512, .i1⟩) main_call1_v12) (StableHlo.TRef.of (T := ⟨S512, .i32⟩) main_call1_v14) (StableHlo.TRef.of (T := ⟨S512, .i32⟩) main_call1_v4) (StableHlo.TRef.of (T := ⟨S512, .i32⟩) main_v10) select,
    StableHlo.nullary main_c_1 (constantI S_ 32 0#32),
    StableHlo.unary main_c_1 main_v11 (broadcastInDim S512 ![] bcast_S_S512 : (⟨S_, .i32⟩ : BufTy).Contents (Elt F) → (⟨S512, .i32⟩ : BufTy).Contents (Elt F)),
    StableHlo.binary main_v10 main_v11 main_v12 (cmpi .eq : (⟨S512, .i32⟩ : BufTy).Contents (Elt F) → (⟨S512, .i32⟩ : BufTy).Contents (Elt F) → (⟨S512, .i1⟩ : BufTy).Contents (Elt F)),
    StableHlo.unary main_v12 main_v13 (uitofp .f32 : (⟨S512, .i1⟩ : BufTy).Contents (Elt F) → (⟨S512, .f32⟩ : BufTy).Contents (Elt F)),
    StableHlo.nullary main_cst_2 (constant S_ .f32 0x00000000#32),
    StableHlo.unary main_cst_2 main_v14 (broadcastInDim S16384 ![] bcast_S_S16384 : (⟨S_, .f32⟩ : BufTy).Contents (Elt F) → (⟨S16384, .f32⟩ : BufTy).Contents (Elt F)) ]

/-- The buffers pc00's operations write, in order. -/
abbrev pc00_W : List (Ref sig .tc) :=
  [main_v0, main_v1, main_c, main_v2, main_v3, main_v4, main_v5, main_cst, main_v6, main_call0_v0, main_call0_c, main_call0_v1, main_call0_v2, main_call0_v3, main_call0_v4, main_call0_cst, main_call0_v5, main_v7, main_v8, main_v9, main_c_0, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v10, main_c_1, main_v11, main_v12, main_v13, main_cst_2, main_v14]

set_option maxRecDepth 8192 in
theorem pc00_sub : (pc00 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., nullary_bufs_sub .., unary_bufs_sub ..⟩
set_option maxRecDepth 8192 in
theorem pc00_fresh : (pc00 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc00_writes : (pc00 : List (HloOp τ sig (Elt F))).Forall fun op => op.writes ⊆ (pc00_W.map (Proc.devRef (τ := τ) .tc)).toFinset :=
  ⟨writes_sub_of_mem (y := main_v0) (by decide), writes_sub_of_mem (y := main_v1) (by decide), writes_sub_of_mem (y := main_c) (by decide), writes_sub_of_mem (y := main_v2) (by decide), writes_sub_of_mem (y := main_v3) (by decide), writes_sub_of_mem (y := main_v4) (by decide), writes_sub_of_mem (y := main_v5) (by decide), writes_sub_of_mem (y := main_cst) (by decide), writes_sub_of_mem (y := main_v6) (by decide), writes_sub_of_mem (y := main_call0_v0) (by decide), writes_sub_of_mem (y := main_call0_c) (by decide), writes_sub_of_mem (y := main_call0_v1) (by decide), writes_sub_of_mem (y := main_call0_v2) (by decide), writes_sub_of_mem (y := main_call0_v3) (by decide), writes_sub_of_mem (y := main_call0_v4) (by decide), writes_sub_of_mem (y := main_call0_cst) (by decide), writes_sub_of_mem (y := main_call0_v5) (by decide), writes_sub_of_mem (y := main_v7) (by decide), writes_sub_of_mem (y := main_v8) (by decide), writes_sub_of_mem (y := main_v9) (by decide), writes_sub_of_mem (y := main_c_0) (by decide), writes_sub_of_mem (y := main_call1_v0) (by decide), writes_sub_of_mem (y := main_call1_c) (by decide), writes_sub_of_mem (y := main_call1_v1) (by decide), writes_sub_of_mem (y := main_call1_c_0) (by decide), writes_sub_of_mem (y := main_call1_v2) (by decide), writes_sub_of_mem (y := main_call1_v3) (by decide), writes_sub_of_mem (y := main_call1_v4) (by decide), writes_sub_of_mem (y := main_call1_c_1) (by decide), writes_sub_of_mem (y := main_call1_v5) (by decide), writes_sub_of_mem (y := main_call1_v6) (by decide), writes_sub_of_mem (y := main_call1_c_2) (by decide), writes_sub_of_mem (y := main_call1_v7) (by decide), writes_sub_of_mem (y := main_call1_v8) (by decide), writes_sub_of_mem (y := main_call1_c_3) (by decide), writes_sub_of_mem (y := main_call1_v9) (by decide), writes_sub_of_mem (y := main_call1_v10) (by decide), writes_sub_of_mem (y := main_call1_v11) (by decide), writes_sub_of_mem (y := main_call1_v12) (by decide), writes_sub_of_mem (y := main_call1_v13) (by decide), writes_sub_of_mem (y := main_call1_v14) (by decide), writes_sub_of_mem (y := main_v10) (by decide), writes_sub_of_mem (y := main_c_1) (by decide), writes_sub_of_mem (y := main_v11) (by decide), writes_sub_of_mem (y := main_v12) (by decide), writes_sub_of_mem (y := main_v13) (by decide), writes_sub_of_mem (y := main_cst_2) (by decide), writes_sub_of_mem (y := main_v14) (by decide)⟩

/-- @main's statements 21 … 60 (from '%15 = stablehlo.slice %arg1 [0:1, 0:512]' to '%53 = stablehlo.reshape %52'): 52 operations, a called function's standing in its call's place. -/
abbrev pc01 : List (HloOp τ sig (Elt F)) :=
  [ StableHlo.unary main_arg1 main_v15 ((extractStridedSlice S1x512 ![0, 0] · slices_S8x512_S1x512_0_0) : (⟨S8x512, .f32⟩ : BufTy).Contents (Elt F) → (⟨S1x512, .f32⟩ : BufTy).Contents (Elt F)),
    StableHlo.reshape main_v15 main_v16 rfl shapeCasts_S1x512_S512,
    StableHlo.unary main_v16 main_v17 (Host.exp : (⟨S512, .f32⟩ : BufTy).Contents (Elt F) → (⟨S512, .f32⟩ : BufTy).Contents (Elt F)),
    StableHlo.unary main_v17 main_v18 (broadcastInDim S1x512 ![1] bcast_S512_S1x512_1 : (⟨S512, .f32⟩ : BufTy).Contents (Elt F) → (⟨S1x512, .f32⟩ : BufTy).Contents (Elt F)),
    StableHlo.unary main_v18 main_v19 (broadcastInDim S16384x512 ![0, 1] bcast_S1x512_S16384x512_0_1 : (⟨S1x512, .f32⟩ : BufTy).Contents (Elt F) → (⟨S16384x512, .f32⟩ : BufTy).Contents (Elt F)),
    StableHlo.binary main_v19 main_arg0 main_v20 (mulf : (⟨S16384x512, .f32⟩ : BufTy).Contents (Elt F) → (⟨S16384x512, .f32⟩ : BufTy).Contents (Elt F) → (⟨S16384x512, .f32⟩ : BufTy).Contents (Elt F)),
    StableHlo.unary main_arg2 main_v21 ((extractStridedSlice S1x512 ![0, 0] · slices_S8x512_S1x512_0_0) : (⟨S8x512, .f32⟩ : BufTy).Contents (Elt F) → (⟨S1x512, .f32⟩ : BufTy).Contents (Elt F)),
    StableHlo.reshape main_v21 main_v22 rfl shapeCasts_S1x512_S512,
    StableHlo.unary main_v22 main_v23 (broadcastInDim S1x512 ![1] bcast_S512_S1x512_1 : (⟨S512, .f32⟩ : BufTy).Contents (Elt F) → (⟨S1x512, .f32⟩ : BufTy).Contents (Elt F)),
    StableHlo.unary main_v23 main_v24 (broadcastInDim S16384x512 ![0, 1] bcast_S1x512_S16384x512_0_1 : (⟨S1x512, .f32⟩ : BufTy).Contents (Elt F) → (⟨S16384x512, .f32⟩ : BufTy).Contents (Elt F)),
    StableHlo.binary main_v20 main_v24 main_v25 (addf : (⟨S16384x512, .f32⟩ : BufTy).Contents (Elt F) → (⟨S16384x512, .f32⟩ : BufTy).Contents (Elt F) → (⟨S16384x512, .f32⟩ : BufTy).Contents (Elt F)),
    StableHlo.unary main_arg1 main_v26 ((extractStridedSlice S1x512 ![0, 0] · slices_S8x512_S1x512_0_0) : (⟨S8x512, .f32⟩ : BufTy).Contents (Elt F) → (⟨S1x512, .f32⟩ : BufTy).Contents (Elt F)),
    StableHlo.reshape main_v26 main_v27 rfl shapeCasts_S1x512_S512,
    StableHlo.nullary main_cst_3 (constant S_ .f32 0x00000000#32),
    StableHlo.binary main_v27 main_cst_3 main_v28 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v28 main_v29 (broadcastInDim S16384 ![] bcast_S_S16384 : (⟨S_, .f32⟩ : BufTy).Contents (Elt F) → (⟨S16384, .f32⟩ : BufTy).Contents (Elt F)),
    StableHlo.binary main_v14 main_v29 main_v30 (addf : (⟨S16384, .f32⟩ : BufTy).Contents (Elt F) → (⟨S16384, .f32⟩ : BufTy).Contents (Elt F) → (⟨S16384, .f32⟩ : BufTy).Contents (Elt F)),
    StableHlo.unary main_arg4 main_v31 ((extractStridedSlice S1x512x512 ![0, 0, 0] · slices_S8x512x512_S1x512x512_0_0_0) : (⟨S8x512x512, .f32⟩ : BufTy).Contents (Elt F) → (⟨S1x512x512, .f32⟩ : BufTy).Contents (Elt F)),
    StableHlo.reshape main_v31 main_v32 rfl shapeCasts_S1x512x512_S512x512,
    StableHlo.binary main_v32 main_v7 main_v33 (mulf : (⟨S512x512, .f32⟩ : BufTy).Contents (Elt F) → (⟨S512x512, .f32⟩ : BufTy).Contents (Elt F) → (⟨S512x512, .f32⟩ : BufTy).Contents (Elt F)),
    StableHlo.binary main_v33 main_v5 main_v34 (addf : (⟨S512x512, .f32⟩ : BufTy).Contents (Elt F) → (⟨S512x512, .f32⟩ : BufTy).Contents (Elt F) → (⟨S512x512, .f32⟩ : BufTy).Contents (Elt F)),
    StableHlo.unary main_arg5 main_v35 ((extractStridedSlice S1x512x512 ![0, 0, 0] · slices_S8x512x512_S1x512x512_0_0_0) : (⟨S8x512x512, .f32⟩ : BufTy).Contents (Elt F) → (⟨S1x512x512, .f32⟩ : BufTy).Contents (Elt F)),
    StableHlo.reshape main_v35 main_v36 rfl shapeCasts_S1x512x512_S512x512,
    StableHlo.binary main_v36 main_v8 main_v37 (mulf : (⟨S512x512, .f32⟩ : BufTy).Contents (Elt F) → (⟨S512x512, .f32⟩ : BufTy).Contents (Elt F) → (⟨S512x512, .f32⟩ : BufTy).Contents (Elt F)),
    StableHlo.unary main_arg6 main_v38 ((extractStridedSlice S1x512 ![0, 0] · slices_S8x512_S1x512_0_0) : (⟨S8x512, .f32⟩ : BufTy).Contents (Elt F) → (⟨S1x512, .f32⟩ : BufTy).Contents (Elt F)),
    StableHlo.reshape main_v38 main_v39 rfl shapeCasts_S1x512_S512,
    StableHlo.unary main_arg7 main_v40 ((extractStridedSlice S1x512 ![0, 0] · slices_S8x512_S1x512_0_0) : (⟨S8x512, .f32⟩ : BufTy).Contents (Elt F) → (⟨S1x512, .f32⟩ : BufTy).Contents (Elt F)),
    StableHlo.reshape main_v40 main_v41 rfl shapeCasts_S1x512_S512,
    StableHlo.unary main_v41 main_v42 (Host.exp : (⟨S512, .f32⟩ : BufTy).Contents (Elt F) → (⟨S512, .f32⟩ : BufTy).Contents (Elt F)),
    StableHlo.binary main_v39 main_v42 main_v43 (mulf : (⟨S512, .f32⟩ : BufTy).Contents (Elt F) → (⟨S512, .f32⟩ : BufTy).Contents (Elt F) → (⟨S512, .f32⟩ : BufTy).Contents (Elt F)),
    StableHlo.TRef.nullary (StableHlo.TRef.of (T := ⟨S_, .f32⟩) main_call2_cst) (constant S_ .f32 0x00000000#32),
    StableHlo.TRef.binary (StableHlo.TRef.of (T := ⟨S512, .f32⟩) main_v43) (StableHlo.TRef.of (T := ⟨S_, .f32⟩) main_call2_cst) (StableHlo.TRef.of (T := ⟨S512, .f32⟩) main_call2_v0) (fun x v => pad S512 ![0] ![0] ![0] x v pads_S512_S512_000 h_S_),
    StableHlo.TRef.nullary (StableHlo.TRef.of (T := ⟨S512x512, .i32⟩) main_call2_v1) (iotaInDim S512x512 32 0),
    StableHlo.TRef.nullary (StableHlo.TRef.of (T := ⟨S512x512, .i32⟩) main_call2_v2) (iotaInDim S512x512 32 1),
    StableHlo.TRef.nullary (StableHlo.TRef.of (T := ⟨S_, .i32⟩) main_call2_c) (constantI S_ 32 0#32),
    StableHlo.TRef.unary (StableHlo.TRef.of (T := ⟨S_, .i32⟩) main_call2_c) (StableHlo.TRef.of (T := ⟨S512x512, .i32⟩) main_call2_v3) (broadcastInDim S512x512 ![] bcast_S_S512x512),
    StableHlo.TRef.binary (StableHlo.TRef.of (T := ⟨S512x512, .i32⟩) main_call2_v1) (StableHlo.TRef.of (T := ⟨S512x512, .i32⟩) main_call2_v3) (StableHlo.TRef.of (T := ⟨S512x512, .i32⟩) main_call2_v4) addi,
    StableHlo.TRef.binary (StableHlo.TRef.of (T := ⟨S512x512, .i32⟩) main_call2_v4) (StableHlo.TRef.of (T := ⟨S512x512, .i32⟩) main_call2_v2) (StableHlo.TRef.of (T := ⟨S512x512, .i1⟩) main_call2_v5) (cmpi .eq),
    StableHlo.TRef.unary (StableHlo.TRef.of (T := ⟨S512, .f32⟩) main_call2_v0) (StableHlo.TRef.of (T := ⟨S512x1, .f32⟩) main_call2_v6) (broadcastInDim S512x1 ![0] bcast_S512_S512x1_0),
    StableHlo.TRef.nullary (StableHlo.TRef.of (T := ⟨S_, .f32⟩) main_call2_cst_0) (constant S_ .f32 0x00000000#32),
    StableHlo.TRef.unary (StableHlo.TRef.of (T := ⟨S512x1, .f32⟩) main_call2_v6) (StableHlo.TRef.of (T := ⟨S512x512, .f32⟩) main_call2_call0_v0) (broadcastInDim S512x512 ![0, 1] bcast_S512x1_S512x512_0_1),
    StableHlo.TRef.unary (StableHlo.TRef.of (T := ⟨S_, .f32⟩) main_call2_cst_0) (StableHlo.TRef.of (T := ⟨S512x512, .f32⟩) main_call2_call0_v1) (broadcastInDim S512x512 ![] bcast_S_S512x512),
    StableHlo.TRef.ternary (StableHlo.TRef.of (T := ⟨S512x512, .i1⟩) main_call2_v5) (StableHlo.TRef.of (T := ⟨S512x512, .f32⟩) main_call2_call0_v0) (StableHlo.TRef.of (T := ⟨S512x512, .f32⟩) main_call2_call0_v1) (StableHlo.TRef.of (T := ⟨S512x512, .f32⟩) main_v44) select,
    StableHlo.binary main_v37 main_v44 main_v45 (addf : (⟨S512x512, .f32⟩ : BufTy).Contents (Elt F) → (⟨S512x512, .f32⟩ : BufTy).Contents (Elt F) → (⟨S512x512, .f32⟩ : BufTy).Contents (Elt F)),
    StableHlo.unary main_arg3 main_v46 ((extractStridedSlice S1x512x512 ![0, 0, 0] · slices_S8x512x512_S1x512x512_0_0_0) : (⟨S8x512x512, .f32⟩ : BufTy).Contents (Elt F) → (⟨S1x512x512, .f32⟩ : BufTy).Contents (Elt F)),
    StableHlo.reshape main_v46 main_v47 rfl shapeCasts_S1x512x512_S512x512,
    StableHlo.binary main_v47 main_v34 main_v48 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.binary main_v48 main_v45 main_v49 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_v49 main_v50 ((transpose S512x512 [1, 0] · transposes_S512x512_S512x512_1_0) : (⟨S512x512, .f32⟩ : BufTy).Contents (Elt F) → (⟨S512x512, .f32⟩ : BufTy).Contents (Elt F)),
    StableHlo.binary main_v25 main_v50 main_v51 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg7 main_v52 ((extractStridedSlice S1x512 ![0, 0] · slices_S8x512_S1x512_0_0) : (⟨S8x512, .f32⟩ : BufTy).Contents (Elt F) → (⟨S1x512, .f32⟩ : BufTy).Contents (Elt F)),
    StableHlo.reshape main_v52 main_v53 rfl shapeCasts_S1x512_S512 ]

/-- The buffers pc01's operations write, in order. -/
abbrev pc01_W : List (Ref sig .tc) :=
  [main_v15, main_v16, main_v17, main_v18, main_v19, main_v20, main_v21, main_v22, main_v23, main_v24, main_v25, main_v26, main_v27, main_cst_3, main_v28, main_v29, main_v30, main_v31, main_v32, main_v33, main_v34, main_v35, main_v36, main_v37, main_v38, main_v39, main_v40, main_v41, main_v42, main_v43, main_call2_cst, main_call2_v0, main_call2_v1, main_call2_v2, main_call2_c, main_call2_v3, main_call2_v4, main_call2_v5, main_call2_v6, main_call2_cst_0, main_call2_call0_v0, main_call2_call0_v1, main_v44, main_v45, main_v46, main_v47, main_v48, main_v49, main_v50, main_v51, main_v52, main_v53]

set_option maxRecDepth 8192 in
theorem pc01_sub : (pc01 : List (HloOp τ sig (Elt F))).Forall fun op => op.bufs ⊆ tcRefs τ sig :=
  ⟨unary_bufs_sub .., reshape_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., binary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., reshape_bufs_sub .., binary_bufs_sub .., binary_bufs_sub .., unary_bufs_sub .., binary_bufs_sub .., unary_bufs_sub .., reshape_bufs_sub ..⟩
set_option maxRecDepth 8192 in
theorem pc01_fresh : (pc01 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc01_writes : (pc01 : List (HloOp τ sig (Elt F))).Forall fun op => op.writes ⊆ (pc01_W.map (Proc.devRef (τ := τ) .tc)).toFinset :=
  ⟨writes_sub_of_mem (y := main_v15) (by decide), writes_sub_of_mem (y := main_v16) (by decide), writes_sub_of_mem (y := main_v17) (by decide), writes_sub_of_mem (y := main_v18) (by decide), writes_sub_of_mem (y := main_v19) (by decide), writes_sub_of_mem (y := main_v20) (by decide), writes_sub_of_mem (y := main_v21) (by decide), writes_sub_of_mem (y := main_v22) (by decide), writes_sub_of_mem (y := main_v23) (by decide), writes_sub_of_mem (y := main_v24) (by decide), writes_sub_of_mem (y := main_v25) (by decide), writes_sub_of_mem (y := main_v26) (by decide), writes_sub_of_mem (y := main_v27) (by decide), writes_sub_of_mem (y := main_cst_3) (by decide), writes_sub_of_mem (y := main_v28) (by decide), writes_sub_of_mem (y := main_v29) (by decide), writes_sub_of_mem (y := main_v30) (by decide), writes_sub_of_mem (y := main_v31) (by decide), writes_sub_of_mem (y := main_v32) (by decide), writes_sub_of_mem (y := main_v33) (by decide), writes_sub_of_mem (y := main_v34) (by decide), writes_sub_of_mem (y := main_v35) (by decide), writes_sub_of_mem (y := main_v36) (by decide), writes_sub_of_mem (y := main_v37) (by decide), writes_sub_of_mem (y := main_v38) (by decide), writes_sub_of_mem (y := main_v39) (by decide), writes_sub_of_mem (y := main_v40) (by decide), writes_sub_of_mem (y := main_v41) (by decide), writes_sub_of_mem (y := main_v42) (by decide), writes_sub_of_mem (y := main_v43) (by decide), writes_sub_of_mem (y := main_call2_cst) (by decide), writes_sub_of_mem (y := main_call2_v0) (by decide), writes_sub_of_mem (y := main_call2_v1) (by decide), writes_sub_of_mem (y := main_call2_v2) (by decide), writes_sub_of_mem (y := main_call2_c) (by decide), writes_sub_of_mem (y := main_call2_v3) (by decide), writes_sub_of_mem (y := main_call2_v4) (by decide), writes_sub_of_mem (y := main_call2_v5) (by decide), writes_sub_of_mem (y := main_call2_v6) (by decide), writes_sub_of_mem (y := main_call2_cst_0) (by decide), writes_sub_of_mem (y := main_call2_call0_v0) (by decide), writes_sub_of_mem (y := main_call2_call0_v1) (by decide), writes_sub_of_mem (y := main_v44) (by decide), writes_sub_of_mem (y := main_v45) (by decide), writes_sub_of_mem (y := main_v46) (by decide), writes_sub_of_mem (y := main_v47) (by decide), writes_sub_of_mem (y := main_v48) (by decide), writes_sub_of_mem (y := main_v49) (by decide), writes_sub_of_mem (y := main_v50) (by decide), writes_sub_of_mem (y := main_v51) (by decide), writes_sub_of_mem (y := main_v52) (by decide), writes_sub_of_mem (y := main_v53) (by decide)⟩

set_option maxRecDepth 16384 in
set_option maxHeartbeats 4000000 in
/-- The window is the straight line of its operations: the called functions unfold at their calls, and sequencing reassociates. -/
theorem main_part0_eq (c : Dev nD) : main_part0 (F := F) c = seq (pc00 ++ (pc01)) := by
  rfl

end Cert.ReferenceIdeal.RunHand

end
-- ==== Proof.RefRun01.lean ====
/- The reference program's window main_part1 (statements 61 … 120 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 61 … 120 (from '%cst_4 = stablehlo.constant dense<0.000000e+00>' to '%109 = stablehlo.add %108, %104'): 64 operations, a called function's standing in its call's place. -/
abbrev pc02 : List (HloOp τ sig (Elt F)) :=
  [ StableHlo.nullary main_cst_4 (constant S_ .f32 0x00000000#32),
    StableHlo.binary main_v53 main_cst_4 main_v54 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v54 main_v55 (broadcastInDim S16384 ![] bcast_S_S16384 : (⟨S_, .f32⟩ : BufTy).Contents (Elt F) → (⟨S16384, .f32⟩ : BufTy).Contents (Elt F)),
    StableHlo.binary main_v30 main_v55 main_v56 (addf : (⟨S16384, .f32⟩ : BufTy).Contents (Elt F) → (⟨S16384, .f32⟩ : BufTy).Contents (Elt F) → (⟨S16384, .f32⟩ : BufTy).Contents (Elt F)),
    StableHlo.unary main_v13 main_v57 (broadcastInDim S1x512 ![1] bcast_S512_S1x512_1 : (⟨S512, .f32⟩ : BufTy).Contents (Elt F) → (⟨S1x512, .f32⟩ : BufTy).Contents (Elt F)),
    StableHlo.unary main_v57 main_v58 (broadcastInDim S16384x512 ![0, 1] bcast_S1x512_S16384x512_0_1 : (⟨S1x512, .f32⟩ : BufTy).Contents (Elt F) → (⟨S16384x512, .f32⟩ : BufTy).Contents (Elt F)),
    StableHlo.binary main_v58 main_v51 main_v59 (mulf : (⟨S16384x512, .f32⟩ : BufTy).Contents (Elt F) → (⟨S16384x512, .f32⟩ : BufTy).Contents (Elt F) → (⟨S16384x512, .f32⟩ : BufTy).Contents (Elt F)),
    StableHlo.unary main_arg8 main_v60 ((extractStridedSlice S1x512x1024 ![0, 0, 0] · slices_S8x512x1024_S1x512x1024_0_0_0) : (⟨S8x512x1024, .f32⟩ : BufTy).Contents (Elt F) → (⟨S1x512x1024, .f32⟩ : BufTy).Contents (Elt F)),
    StableHlo.reshape main_v60 main_v61 rfl shapeCasts_S1x512x1024_S512x1024,
    StableHlo.binary main_v59 main_v61 main_v62 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg9 main_v63 ((extractStridedSlice S1x1024 ![0, 0] · slices_S8x1024_S1x1024_0_0) : (⟨S8x1024, .f32⟩ : BufTy).Contents (Elt F) → (⟨S1x1024, .f32⟩ : BufTy).Contents (Elt F)),
    StableHlo.reshape main_v63 main_v64 rfl shapeCasts_S1x1024_S1024,
    StableHlo.unary main_v64 main_v65 (broadcastInDim S1x1024 ![1] bcast_S1024_S1x1024_1 : (⟨S1024, .f32⟩ : BufTy).Contents (Elt F) → (⟨S1x1024, .f32⟩ : BufTy).Contents (Elt F)),
    StableHlo.unary main_v65 main_v66 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v62 main_v66 main_v67 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S16384x1024, .f32⟩) main_call3_v0) (broadcastInDim S16384x1024 ![] bcast_S_S16384x1024),
    StableHlo.TRef.binary (StableHlo.TRef.of (T := ⟨S16384x1024, .f32⟩) main_v67) (StableHlo.TRef.of (T := ⟨S16384x1024, .f32⟩) main_call3_v0) (StableHlo.TRef.of (T := ⟨S16384x1024, .f32⟩) main_v68) maximumf,
    StableHlo.unary main_arg10 main_v69 ((extractStridedSlice S1x1024x512 ![0, 0, 0] · slices_S8x1024x512_S1x1024x512_0_0_0) : (⟨S8x1024x512, .f32⟩ : BufTy).Contents (Elt F) → (⟨S1x1024x512, .f32⟩ : BufTy).Contents (Elt F)),
    StableHlo.reshape main_v69 main_v70 rfl shapeCasts_S1x1024x512_S1024x512,
    StableHlo.binary main_v68 main_v70 main_v71 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg11 main_v72 ((extractStridedSlice S1x512 ![0, 0] · slices_S8x512_S1x512_0_0) : (⟨S8x512, .f32⟩ : BufTy).Contents (Elt F) → (⟨S1x512, .f32⟩ : BufTy).Contents (Elt F)),
    StableHlo.reshape main_v72 main_v73 rfl shapeCasts_S1x512_S512,
    StableHlo.unary main_v73 main_v74 (broadcastInDim S1x512 ![1] bcast_S512_S1x512_1 : (⟨S512, .f32⟩ : BufTy).Contents (Elt F) → (⟨S1x512, .f32⟩ : BufTy).Contents (Elt F)),
    StableHlo.unary main_v74 main_v75 (broadcastInDim S16384x512 ![0, 1] bcast_S1x512_S16384x512_0_1 : (⟨S1x512, .f32⟩ : BufTy).Contents (Elt F) → (⟨S16384x512, .f32⟩ : BufTy).Contents (Elt F)),
    StableHlo.binary main_v71 main_v75 main_v76 (addf : (⟨S16384x512, .f32⟩ : BufTy).Contents (Elt F) → (⟨S16384x512, .f32⟩ : BufTy).Contents (Elt F) → (⟨S16384x512, .f32⟩ : BufTy).Contents (Elt F)),
    StableHlo.unary main_v76 main_v77 (Host.tanh : (⟨S16384x512, .f32⟩ : BufTy).Contents (Elt F) → (⟨S16384x512, .f32⟩ : BufTy).Contents (Elt F)),
    StableHlo.nullary main_cst_5 (constant S_ .f32 0x3F800000#32),
    StableHlo.unary main_cst_5 main_v78 (broadcastInDim S512 ![] bcast_S_S512 : (⟨S_, .f32⟩ : BufTy).Contents (Elt F) → (⟨S512, .f32⟩ : BufTy).Contents (Elt F)),
    StableHlo.binary main_v78 main_v13 main_v79 (subf : (⟨S512, .f32⟩ : BufTy).Contents (Elt F) → (⟨S512, .f32⟩ : BufTy).Contents (Elt F) → (⟨S512, .f32⟩ : BufTy).Contents (Elt F)),
    StableHlo.unary main_v79 main_v80 (broadcastInDim S1x512 ![1] bcast_S512_S1x512_1 : (⟨S512, .f32⟩ : BufTy).Contents (Elt F) → (⟨S1x512, .f32⟩ : BufTy).Contents (Elt F)),
    StableHlo.unary main_v80 main_v81 (broadcastInDim S16384x512 ![0, 1] bcast_S1x512_S16384x512_0_1 : (⟨S1x512, .f32⟩ : BufTy).Contents (Elt F) → (⟨S16384x512, .f32⟩ : BufTy).Contents (Elt F)),
    StableHlo.binary main_v77 main_v81 main_v82 (mulf : (⟨S16384x512, .f32⟩ : BufTy).Contents (Elt F) → (⟨S16384x512, .f32⟩ : BufTy).Contents (Elt F) → (⟨S16384x512, .f32⟩ : BufTy).Contents (Elt F)),
    StableHlo.unary main_arg12 main_v83 ((extractStridedSlice S1x512x1024 ![0, 0, 0] · slices_S8x512x1024_S1x512x1024_0_0_0) : (⟨S8x512x1024, .f32⟩ : BufTy).Contents (Elt F) → (⟨S1x512x1024, .f32⟩ : BufTy).Contents (Elt F)),
    StableHlo.reshape main_v83 main_v84 rfl shapeCasts_S1x512x1024_S512x1024,
    StableHlo.binary main_v59 main_v84 main_v85 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg13 main_v86 ((extractStridedSlice S1x1024 ![0, 0] · slices_S8x1024_S1x1024_0_0) : (⟨S8x1024, .f32⟩ : BufTy).Contents (Elt F) → (⟨S1x1024, .f32⟩ : BufTy).Contents (Elt F)),
    StableHlo.reshape main_v86 main_v87 rfl shapeCasts_S1x1024_S1024,
    StableHlo.unary main_v87 main_v88 (broadcastInDim S1x1024 ![1] bcast_S1024_S1x1024_1 : (⟨S1024, .f32⟩ : BufTy).Contents (Elt F) → (⟨S1x1024, .f32⟩ : BufTy).Contents (Elt F)),
    StableHlo.unary main_v88 main_v89 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v85 main_v89 main_v90 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call4_cst) (constant S_ .f32 0x00000000#32),
    StableHlo.TRef.unary (StableHlo.TRef.of (T := ⟨S_, .f32⟩) main_call4_cst) (StableHlo.TRef.of (T := ⟨S16384x1024, .f32⟩) main_call4_v0) (broadcastInDim S16384x1024 ![] bcast_S_S16384x1024),
    StableHlo.TRef.binary (StableHlo.TRef.of (T := ⟨S16384x1024, .f32⟩) main_v90) (StableHlo.TRef.of (T := ⟨S16384x1024, .f32⟩) main_call4_v0) (StableHlo.TRef.of (T := ⟨S16384x1024, .f32⟩) main_v91) maximumf,
    StableHlo.unary main_arg14 main_v92 ((extractStridedSlice S1x1024x512 ![0, 0, 0] · slices_S8x1024x512_S1x1024x512_0_0_0) : (⟨S8x1024x512, .f32⟩ : BufTy).Contents (Elt F) → (⟨S1x1024x512, .f32⟩ : BufTy).Contents (Elt F)),
    StableHlo.reshape main_v92 main_v93 rfl shapeCasts_S1x1024x512_S1024x512,
    StableHlo.binary main_v91 main_v93 main_v94 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg15 main_v95 ((extractStridedSlice S1x512 ![0, 0] · slices_S8x512_S1x512_0_0) : (⟨S8x512, .f32⟩ : BufTy).Contents (Elt F) → (⟨S1x512, .f32⟩ : BufTy).Contents (Elt F)),
    StableHlo.reshape main_v95 main_v96 rfl shapeCasts_S1x512_S512,
    StableHlo.unary main_v96 main_v97 (broadcastInDim S1x512 ![1] bcast_S512_S1x512_1 : (⟨S512, .f32⟩ : BufTy).Contents (Elt F) → (⟨S1x512, .f32⟩ : BufTy).Contents (Elt F)),
    StableHlo.unary main_v97 main_v98 (broadcastInDim S16384x512 ![0, 1] bcast_S1x512_S16384x512_0_1 : (⟨S1x512, .f32⟩ : BufTy).Contents (Elt F) → (⟨S16384x512, .f32⟩ : BufTy).Contents (Elt F)),
    StableHlo.binary main_v94 main_v98 main_v99 (addf : (⟨S16384x512, .f32⟩ : BufTy).Contents (Elt F) → (⟨S16384x512, .f32⟩ : BufTy).Contents (Elt F) → (⟨S16384x512, .f32⟩ : BufTy).Contents (Elt F)),
    StableHlo.nullary main_cst_6 (constant S_ .f32 0x3F800000#32),
    StableHlo.unary main_cst_6 main_v100 (broadcastInDim S512 ![] bcast_S_S512 : (⟨S_, .f32⟩ : BufTy).Contents (Elt F) → (⟨S512, .f32⟩ : BufTy).Contents (Elt F)),
    StableHlo.binary main_v100 main_v13 main_v101 (subf : (⟨S512, .f32⟩ : BufTy).Contents (Elt F) → (⟨S512, .f32⟩ : BufTy).Contents (Elt F) → (⟨S512, .f32⟩ : BufTy).Contents (Elt F)),
    StableHlo.unary main_v101 main_v102 (broadcastInDim S1x512 ![1] bcast_S512_S1x512_1 : (⟨S512, .f32⟩ : BufTy).Contents (Elt F) → (⟨S1x512, .f32⟩ : BufTy).Contents (Elt F)),
    StableHlo.unary main_v102 main_v103 (broadcastInDim S16384x512 ![0, 1] bcast_S1x512_S16384x512_0_1 : (⟨S1x512, .f32⟩ : BufTy).Contents (Elt F) → (⟨S16384x512, .f32⟩ : BufTy).Contents (Elt F)),
    StableHlo.binary main_v99 main_v103 main_v104 (mulf : (⟨S16384x512, .f32⟩ : BufTy).Contents (Elt F) → (⟨S16384x512, .f32⟩ : BufTy).Contents (Elt F) → (⟨S16384x512, .f32⟩ : BufTy).Contents (Elt F)),
    StableHlo.nullary main_cst_7 (constant S_ .f32 0x3F800000#32),
    StableHlo.unary main_cst_7 main_v105 (broadcastInDim S512 ![] bcast_S_S512 : (⟨S_, .f32⟩ : BufTy).Contents (Elt F) → (⟨S512, .f32⟩ : BufTy).Contents (Elt F)),
    StableHlo.binary main_v105 main_v13 main_v106 (subf : (⟨S512, .f32⟩ : BufTy).Contents (Elt F) → (⟨S512, .f32⟩ : BufTy).Contents (Elt F) → (⟨S512, .f32⟩ : BufTy).Contents (Elt F)),
    StableHlo.unary main_v82 main_v107 (Host.exp : (⟨S16384x512, .f32⟩ : BufTy).Contents (Elt F) → (⟨S16384x512, .f32⟩ : BufTy).Contents (Elt F)),
    StableHlo.binary main_v51 main_v107 main_v108 (mulf : (⟨S16384x512, .f32⟩ : BufTy).Contents (Elt F) → (⟨S16384x512, .f32⟩ : BufTy).Contents (Elt F) → (⟨S16384x512, .f32⟩ : BufTy).Contents (Elt F)),
    StableHlo.binary main_v108 main_v104 main_v109 (addf : (⟨S16384x512, .f32⟩ : BufTy).Contents (Elt F) → (⟨S16384x512, .f32⟩ : BufTy).Contents (Elt F) → (⟨S16384x512, .f32⟩ : BufTy).Contents (Elt F)) ]

/-- The buffers pc02's operations write, in order. -/
abbrev pc02_W : List (Ref sig .tc) :=
  [main_cst_4, main_v54, main_v55, main_v56, main_v57, main_v58, main_v59, main_v60, main_v61, main_v62, main_v63, main_v64, main_v65, main_v66, main_v67, main_call3_cst, main_call3_v0, main_v68, main_v69, main_v70, main_v71, main_v72, main_v73, main_v74, main_v75, main_v76, main_v77, main_cst_5, main_v78, main_v79, main_v80, main_v81, main_v82, main_v83, main_v84, main_v85, main_v86, main_v87, main_v88, main_v89, main_v90, main_call4_cst, main_call4_v0, main_v91, main_v92, main_v93, main_v94, main_v95, main_v96, main_v97, main_v98, main_v99, main_cst_6, main_v100, main_v101, main_v102, main_v103, main_v104, main_cst_7, main_v105, main_v106, main_v107, main_v108, main_v109]

set_option maxRecDepth 8192 in
theorem pc02_sub : (pc02 : List (HloOp τ sig (Elt F))).Forall fun op => op.bufs ⊆ tcRefs τ sig :=
  ⟨nullary_bufs_sub .., binary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub ..⟩
set_option maxRecDepth 8192 in
theorem pc02_fresh : (pc02 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc02_writes : (pc02 : List (HloOp τ sig (Elt F))).Forall fun op => op.writes ⊆ (pc02_W.map (Proc.devRef (τ := τ) .tc)).toFinset :=
  ⟨writes_sub_of_mem (y := main_cst_4) (by decide), writes_sub_of_mem (y := main_v54) (by decide), writes_sub_of_mem (y := main_v55) (by decide), writes_sub_of_mem (y := main_v56) (by decide), writes_sub_of_mem (y := main_v57) (by decide), writes_sub_of_mem (y := main_v58) (by decide), writes_sub_of_mem (y := main_v59) (by decide), writes_sub_of_mem (y := main_v60) (by decide), writes_sub_of_mem (y := main_v61) (by decide), writes_sub_of_mem (y := main_v62) (by decide), writes_sub_of_mem (y := main_v63) (by decide), writes_sub_of_mem (y := main_v64) (by decide), writes_sub_of_mem (y := main_v65) (by decide), writes_sub_of_mem (y := main_v66) (by decide), writes_sub_of_mem (y := main_v67) (by decide), writes_sub_of_mem (y := main_call3_cst) (by decide), writes_sub_of_mem (y := main_call3_v0) (by decide), writes_sub_of_mem (y := main_v68) (by decide), writes_sub_of_mem (y := main_v69) (by decide), writes_sub_of_mem (y := main_v70) (by decide), writes_sub_of_mem (y := main_v71) (by decide), writes_sub_of_mem (y := main_v72) (by decide), writes_sub_of_mem (y := main_v73) (by decide), writes_sub_of_mem (y := main_v74) (by decide), writes_sub_of_mem (y := main_v75) (by decide), writes_sub_of_mem (y := main_v76) (by decide), writes_sub_of_mem (y := main_v77) (by decide), writes_sub_of_mem (y := main_cst_5) (by decide), writes_sub_of_mem (y := main_v78) (by decide), writes_sub_of_mem (y := main_v79) (by decide), writes_sub_of_mem (y := main_v80) (by decide), writes_sub_of_mem (y := main_v81) (by decide), writes_sub_of_mem (y := main_v82) (by decide), writes_sub_of_mem (y := main_v83) (by decide), writes_sub_of_mem (y := main_v84) (by decide), writes_sub_of_mem (y := main_v85) (by decide), writes_sub_of_mem (y := main_v86) (by decide), writes_sub_of_mem (y := main_v87) (by decide), writes_sub_of_mem (y := main_v88) (by decide), writes_sub_of_mem (y := main_v89) (by decide), writes_sub_of_mem (y := main_v90) (by decide), writes_sub_of_mem (y := main_call4_cst) (by decide), writes_sub_of_mem (y := main_call4_v0) (by decide), writes_sub_of_mem (y := main_v91) (by decide), writes_sub_of_mem (y := main_v92) (by decide), writes_sub_of_mem (y := main_v93) (by decide), writes_sub_of_mem (y := main_v94) (by decide), writes_sub_of_mem (y := main_v95) (by decide), writes_sub_of_mem (y := main_v96) (by decide), writes_sub_of_mem (y := main_v97) (by decide), writes_sub_of_mem (y := main_v98) (by decide), writes_sub_of_mem (y := main_v99) (by decide), writes_sub_of_mem (y := main_cst_6) (by decide), writes_sub_of_mem (y := main_v100) (by decide), writes_sub_of_mem (y := main_v101) (by decide), writes_sub_of_mem (y := main_v102) (by decide), writes_sub_of_mem (y := main_v103) (by decide), writes_sub_of_mem (y := main_v104) (by decide), writes_sub_of_mem (y := main_cst_7) (by decide), writes_sub_of_mem (y := main_v105) (by decide), writes_sub_of_mem (y := main_v106) (by decide), writes_sub_of_mem (y := main_v107) (by decide), writes_sub_of_mem (y := main_v108) (by decide), writes_sub_of_mem (y := main_v109) (by decide)⟩

set_option maxRecDepth 16384 in
set_option maxHeartbeats 4000000 in
/-- The window is the straight line of its operations: the called functions unfold at their calls, and sequencing reassociates. -/
theorem main_part1_eq (c : Dev nD) : main_part1 (F := F) c = seq (pc02) := by
  rfl

end Cert.ReferenceIdeal.RunHand

end
-- ==== Proof.RefRun02.lean ====
/- The reference program's window main_part2 (statements 121 … 180 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 121 … 127 (from '%110 = stablehlo.broadcast_in_dim %106, dims = [1]' to '%115 = stablehlo.add %56, %114'): 7 operations, a called function's standing in its call's place. -/
abbrev pc03 : List (HloOp τ sig (Elt F)) :=
  [ StableHlo.unary main_v106 main_v110 (broadcastInDim S1x512 ![1] bcast_S512_S1x512_1 : (⟨S512, .f32⟩ : BufTy).Contents (Elt F) → (⟨S1x512, .f32⟩ : BufTy).Contents (Elt F)),
    StableHlo.unary main_v110 main_v111 (broadcastInDim S16384x512 ![0, 1] bcast_S1x512_S16384x512_0_1 : (⟨S1x512, .f32⟩ : BufTy).Contents (Elt F) → (⟨S16384x512, .f32⟩ : BufTy).Contents (Elt F)),
    StableHlo.binary main_v111 main_v109 main_v112 (mulf : (⟨S16384x512, .f32⟩ : BufTy).Contents (Elt F) → (⟨S16384x512, .f32⟩ : BufTy).Contents (Elt F) → (⟨S16384x512, .f32⟩ : BufTy).Contents (Elt F)),
    StableHlo.binary main_v59 main_v112 main_v113 (addf : (⟨S16384x512, .f32⟩ : BufTy).Contents (Elt F) → (⟨S16384x512, .f32⟩ : BufTy).Contents (Elt F) → (⟨S16384x512, .f32⟩ : BufTy).Contents (Elt F)),
    StableHlo.nullary main_cst_8 (constant S_ .f32 0x00000000#32),
    StableHlo.binary main_v82 main_cst_8 main_v114 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v56 main_v114 main_v115 (addf : (⟨S16384, .f32⟩ : BufTy).Contents (Elt F) → (⟨S16384, .f32⟩ : BufTy).Contents (Elt F) → (⟨S16384, .f32⟩ : BufTy).Contents (Elt F)) ]

/-- The buffers pc03's operations write, in order. -/
abbrev pc03_W : List (Ref sig .tc) :=
  [main_v110, main_v111, main_v112, main_v113, main_cst_8, main_v114, main_v115]

set_option maxRecDepth 8192 in
theorem pc03_sub : (pc03 : List (HloOp τ sig (Elt F))).Forall fun op => op.bufs ⊆ tcRefs τ sig :=
  ⟨unary_bufs_sub .., unary_bufs_sub .., binary_bufs_sub .., binary_bufs_sub .., nullary_bufs_sub .., binary_bufs_sub .., binary_bufs_sub ..⟩
set_option maxRecDepth 8192 in
theorem pc03_fresh : (pc03 : List (HloOp τ sig (Elt F))).Forall fun op => op.fresh = ∅ :=
  ⟨rfl, rfl, rfl, rfl, rfl, rfl, rfl⟩
set_option maxRecDepth 8192 in
theorem pc03_writes : (pc03 : List (HloOp τ sig (Elt F))).Forall fun op => op.writes ⊆ (pc03_W.map (Proc.devRef (τ := τ) .tc)).toFinset :=
  ⟨writes_sub_of_mem (y := main_v110) (by decide), writes_sub_of_mem (y := main_v111) (by decide), writes_sub_of_mem (y := main_v112) (by decide), writes_sub_of_mem (y := main_v113) (by decide), writes_sub_of_mem (y := main_cst_8) (by decide), writes_sub_of_mem (y := main_v114) (by decide), writes_sub_of_mem (y := main_v115) (by decide)⟩

/-- @main's statements 128 … 180 (from '%cst_9 = stablehlo.constant dense<1.000000e+00>' to '%165 = stablehlo.dot_general %162, %164, contracting_dims = [1] x [0], precision = [DEFAULT, DEFAULT]'): 65 operations, a called function's standing in its call's place. -/
abbrev pc04 : List (HloOp τ sig (Elt F)) :=
  [ StableHlo.nullary main_cst_9 (constant S_ .f32 0x3F800000#32),
    StableHlo.unary main_cst_9 main_v116 (broadcastInDim S512 ![] bcast_S_S512 : (⟨S_, .f32⟩ : BufTy).Contents (Elt F) → (⟨S512, .f32⟩ : BufTy).Contents (Elt F)),
    StableHlo.binary main_v116 main_v13 main_v117 (subf : (⟨S512, .f32⟩ : BufTy).Contents (Elt F) → (⟨S512, .f32⟩ : BufTy).Contents (Elt F) → (⟨S512, .f32⟩ : BufTy).Contents (Elt F)),
    StableHlo.unary main_arg1 main_v118 ((extractStridedSlice S1x512 ![1, 0] · slices_S8x512_S1x512_1_0) : (⟨S8x512, .f32⟩ : BufTy).Contents (Elt F) → (⟨S1x512, .f32⟩ : BufTy).Contents (Elt F)),
    StableHlo.reshape main_v118 main_v119 rfl shapeCasts_S1x512_S512,
    StableHlo.unary main_v119 main_v120 (Host.exp : (⟨S512, .f32⟩ : BufTy).Contents (Elt F) → (⟨S512, .f32⟩ : BufTy).Contents (Elt F)),
    StableHlo.unary main_v120 main_v121 (broadcastInDim S1x512 ![1] bcast_S512_S1x512_1 : (⟨S512, .f32⟩ : BufTy).Contents (Elt F) → (⟨S1x512, .f32⟩ : BufTy).Contents (Elt F)),
    StableHlo.unary main_v121 main_v122 (broadcastInDim S16384x512 ![0, 1] bcast_S1x512_S16384x512_0_1 : (⟨S1x512, .f32⟩ : BufTy).Contents (Elt F) → (⟨S16384x512, .f32⟩ : BufTy).Contents (Elt F)),
    StableHlo.binary main_v122 main_v113 main_v123 (mulf : (⟨S16384x512, .f32⟩ : BufTy).Contents (Elt F) → (⟨S16384x512, .f32⟩ : BufTy).Contents (Elt F) → (⟨S16384x512, .f32⟩ : BufTy).Contents (Elt F)),
    StableHlo.unary main_arg2 main_v124 ((extractStridedSlice S1x512 ![1, 0] · slices_S8x512_S1x512_1_0) : (⟨S8x512, .f32⟩ : BufTy).Contents (Elt F) → (⟨S1x512, .f32⟩ : BufTy).Contents (Elt F)),
    StableHlo.reshape main_v124 main_v125 rfl shapeCasts_S1x512_S512,
    StableHlo.unary main_v125 main_v126 (broadcastInDim S1x512 ![1] bcast_S512_S1x512_1 : (⟨S512, .f32⟩ : BufTy).Contents (Elt F) → (⟨S1x512, .f32⟩ : BufTy).Contents (Elt F)),
    StableHlo.unary main_v126 main_v127 (broadcastInDim S16384x512 ![0, 1] bcast_S1x512_S16384x512_0_1 : (⟨S1x512, .f32⟩ : BufTy).Contents (Elt F) → (⟨S16384x512, .f32⟩ : BufTy).Contents (Elt F)),
    StableHlo.binary main_v123 main_v127 main_v128 (addf : (⟨S16384x512, .f32⟩ : BufTy).Contents (Elt F) → (⟨S16384x512, .f32⟩ : BufTy).Contents (Elt F) → (⟨S16384x512, .f32⟩ : BufTy).Contents (Elt F)),
    StableHlo.unary main_arg1 main_v129 ((extractStridedSlice S1x512 ![1, 0] · slices_S8x512_S1x512_1_0) : (⟨S8x512, .f32⟩ : BufTy).Contents (Elt F) → (⟨S1x512, .f32⟩ : BufTy).Contents (Elt F)),
    StableHlo.reshape main_v129 main_v130 rfl shapeCasts_S1x512_S512,
    StableHlo.nullary main_cst_10 (constant S_ .f32 0x00000000#32),
    StableHlo.binary main_v130 main_cst_10 main_v131 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v131 main_v132 (broadcastInDim S16384 ![] bcast_S_S16384 : (⟨S_, .f32⟩ : BufTy).Contents (Elt F) → (⟨S16384, .f32⟩ : BufTy).Contents (Elt F)),
    StableHlo.binary main_v115 main_v132 main_v133 (addf : (⟨S16384, .f32⟩ : BufTy).Contents (Elt F) → (⟨S16384, .f32⟩ : BufTy).Contents (Elt F) → (⟨S16384, .f32⟩ : BufTy).Contents (Elt F)),
    StableHlo.unary main_arg4 main_v134 ((extractStridedSlice S1x512x512 ![1, 0, 0] · slices_S8x512x512_S1x512x512_1_0_0) : (⟨S8x512x512, .f32⟩ : BufTy).Contents (Elt F) → (⟨S1x512x512, .f32⟩ : BufTy).Contents (Elt F)),
    StableHlo.reshape main_v134 main_v135 rfl shapeCasts_S1x512x512_S512x512,
    StableHlo.binary main_v135 main_v7 main_v136 (mulf : (⟨S512x512, .f32⟩ : BufTy).Contents (Elt F) → (⟨S512x512, .f32⟩ : BufTy).Contents (Elt F) → (⟨S512x512, .f32⟩ : BufTy).Contents (Elt F)),
    StableHlo.binary main_v136 main_v5 main_v137 (addf : (⟨S512x512, .f32⟩ : BufTy).Contents (Elt F) → (⟨S512x512, .f32⟩ : BufTy).Contents (Elt F) → (⟨S512x512, .f32⟩ : BufTy).Contents (Elt F)),
    StableHlo.unary main_arg5 main_v138 ((extractStridedSlice S1x512x512 ![1, 0, 0] · slices_S8x512x512_S1x512x512_1_0_0) : (⟨S8x512x512, .f32⟩ : BufTy).Contents (Elt F) → (⟨S1x512x512, .f32⟩ : BufTy).Contents (Elt F)),
    StableHlo.reshape main_v138 main_v139 rfl shapeCasts_S1x512x512_S512x512,
    StableHlo.binary main_v139 main_v8 main_v140 (mulf : (⟨S512x512, .f32⟩ : BufTy).Contents (Elt F) → (⟨S512x512, .f32⟩ : BufTy).Contents (Elt F) → (⟨S512x512, .f32⟩ : BufTy).Contents (Elt F)),
    StableHlo.unary main_arg6 main_v141 ((extractStridedSlice S1x512 ![1, 0] · slices_S8x512_S1x512_1_0) : (⟨S8x512, .f32⟩ : BufTy).Contents (Elt F) → (⟨S1x512, .f32⟩ : BufTy).Contents (Elt F)),
    StableHlo.reshape main_v141 main_v142 rfl shapeCasts_S1x512_S512,
    StableHlo.unary main_arg7 main_v143 ((extractStridedSlice S1x512 ![1, 0] · slices_S8x512_S1x512_1_0) : (⟨S8x512, .f32⟩ : BufTy).Contents (Elt F) → (⟨S1x512, .f32⟩ : BufTy).Contents (Elt F)),
    StableHlo.reshape main_v143 main_v144 rfl shapeCasts_S1x512_S512,
    StableHlo.unary main_v144 main_v145 (Host.exp : (⟨S512, .f32⟩ : BufTy).Contents (Elt F) → (⟨S512, .f32⟩ : BufTy).Contents (Elt F)),
    StableHlo.binary main_v142 main_v145 main_v146 (mulf : (⟨S512, .f32⟩ : BufTy).Contents (Elt F) → (⟨S512, .f32⟩ : BufTy).Contents (Elt F) → (⟨S512, .f32⟩ : BufTy).Contents (Elt F)),
    StableHlo.TRef.nullary (StableHlo.TRef.of (T := ⟨S_, .f32⟩) main_call5_cst) (constant S_ .f32 0x00000000#32),
    StableHlo.TRef.binary (StableHlo.TRef.of (T := ⟨S512, .f32⟩) main_v146) (StableHlo.TRef.of (T := ⟨S_, .f32⟩) main_call5_cst) (StableHlo.TRef.of (T := ⟨S512, .f32⟩) main_call5_v0) (fun x v => pad S512 ![0] ![0] ![0] x v pads_S512_S512_000 h_S_),
    StableHlo.TRef.nullary (StableHlo.TRef.of (T := ⟨S512x512, .i32⟩) main_call5_v1) (iotaInDim S512x512 32 0),
    StableHlo.TRef.nullary (StableHlo.TRef.of (T := ⟨S512x512, .i32⟩) main_call5_v2) (iotaInDim S512x512 32 1),
    StableHlo.TRef.nullary (StableHlo.TRef.of (T := ⟨S_, .i32⟩) main_call5_c) (constantI S_ 32 0#32),
    StableHlo.TRef.unary (StableHlo.TRef.of (T := ⟨S_, .i32⟩) main_call5_c) (StableHlo.TRef.of (T := ⟨S512x512, .i32⟩) main_call5_v3) (broadcastInDim S512x512 ![] bcast_S_S512x512),
    StableHlo.TRef.binary (StableHlo.TRef.of (T := ⟨S512x512, .i32⟩) main_call5_v1) (StableHlo.TRef.of (T := ⟨S512x512, .i32⟩) main_call5_v3) (StableHlo.TRef.of (T := ⟨S512x512, .i32⟩) main_call5_v4) addi,
    StableHlo.TRef.binary (StableHlo.TRef.of (T := ⟨S512x512, .i32⟩) main_call5_v4) (StableHlo.TRef.of (T := ⟨S512x512, .i32⟩) main_call5_v2) (StableHlo.TRef.of (T := ⟨S512x512, .i1⟩) main_call5_v5) (cmpi .eq),
    StableHlo.TRef.unary (StableHlo.TRef.of (T := ⟨S512, .f32⟩) main_call5_v0) (StableHlo.TRef.of (T := ⟨S512x1, .f32⟩) main_call5_v6) (broadcastInDim S512x1 ![0] bcast_S512_S512x1_0),
    StableHlo.TRef.nullary (StableHlo.TRef.of (T := ⟨S_, .f32⟩) main_call5_cst_0) (constant S_ .f32 0x00000000#32),
    StableHlo.TRef.unary (StableHlo.TRef.of (T := ⟨S512x1, .f32⟩) main_call5_v6) (StableHlo.TRef.of (T := ⟨S512x512, .f32⟩) main_call5_call0_v0) (broadcastInDim S512x512 ![0, 1] bcast_S512x1_S512x512_0_1),
    StableHlo.TRef.unary (StableHlo.TRef.of (T := ⟨S_, .f32⟩) main_call5_cst_0) (StableHlo.TRef.of (T := ⟨S512x512, .f32⟩) main_call5_call0_v1) (broadcastInDim S512x512 ![] bcast_S_S512x512),
    StableHlo.TRef.ternary (StableHlo.TRef.of (T := ⟨S512x512, .i1⟩) main_call5_v5) (StableHlo.TRef.of (T := ⟨S512x512, .f32⟩) main_call5_call0_v0) (StableHlo.TRef.of (T := ⟨S512x512, .f32⟩) main_call5_call0_v1) (StableHlo.TRef.of (T := ⟨S512x512, .f32⟩) main_v147) select,
    StableHlo.binary main_v140 main_v147 main_v148 (addf : (⟨S512x512, .f32⟩ : BufTy).Contents (Elt F) → (⟨S512x512, .f32⟩ : BufTy).Contents (Elt F) → (⟨S512x512, .f32⟩ : BufTy).Contents (Elt F)),
    StableHlo.unary main_arg3 main_v149 ((extractStridedSlice S1x512x512 ![1, 0, 0] · slices_S8x512x512_S1x512x512_1_0_0) : (⟨S8x512x512, .f32⟩ : BufTy).Contents (Elt F) → (⟨S1x512x512, .f32⟩ : BufTy).Contents (Elt F)),
    StableHlo.reshape main_v149 main_v150 rfl shapeCasts_S1x512x512_S512x512,
    StableHlo.binary main_v150 main_v137 main_v151 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.binary main_v151 main_v148 main_v152 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_v152 main_v153 ((transpose S512x512 [1, 0] · transposes_S512x512_S512x512_1_0) : (⟨S512x512, .f32⟩ : BufTy).Contents (Elt F) → (⟨S512x512, .f32⟩ : BufTy).Contents (Elt F)),
    StableHlo.binary main_v128 main_v153 main_v154 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg7 main_v155 ((extractStridedSlice S1x512 ![1, 0] · slices_S8x512_S1x512_1_0) : (⟨S8x512, .f32⟩ : BufTy).Contents (Elt F) → (⟨S1x512, .f32⟩ : BufTy).Contents (Elt F)),
    StableHlo.reshape main_v155 main_v156 rfl shapeCasts_S1x512_S512,
    StableHlo.nullary main_cst_11 (constant S_ .f32 0x00000000#32),
    StableHlo.binary main_v156 main_cst_11 main_v157 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v157 main_v158 (broadcastInDim S16384 ![] bcast_S_S16384 : (⟨S_, .f32⟩ : BufTy).Contents (Elt F) → (⟨S16384, .f32⟩ : BufTy).Contents (Elt F)),
    StableHlo.binary main_v133 main_v158 main_v159 (addf : (⟨S16384, .f32⟩ : BufTy).Contents (Elt F) → (⟨S16384, .f32⟩ : BufTy).Contents (Elt F) → (⟨S16384, .f32⟩ : BufTy).Contents (Elt F)),
    StableHlo.unary main_v117 main_v160 (broadcastInDim S1x512 ![1] bcast_S512_S1x512_1 : (⟨S512, .f32⟩ : BufTy).Contents (Elt F) → (⟨S1x512, .f32⟩ : BufTy).Contents (Elt F)),
    StableHlo.unary main_v160 main_v161 (broadcastInDim S16384x512 ![0, 1] bcast_S1x512_S16384x512_0_1 : (⟨S1x512, .f32⟩ : BufTy).Contents (Elt F) → (⟨S16384x512, .f32⟩ : BufTy).Contents (Elt F)),
    StableHlo.binary main_v161 main_v154 main_v162 (mulf : (⟨S16384x512, .f32⟩ : BufTy).Contents (Elt F) → (⟨S16384x512, .f32⟩ : BufTy).Contents (Elt F) → (⟨S16384x512, .f32⟩ : BufTy).Contents (Elt F)),
    StableHlo.unary main_arg8 main_v163 ((extractStridedSlice S1x512x1024 ![1, 0, 0] · slices_S8x512x1024_S1x512x1024_1_0_0) : (⟨S8x512x1024, .f32⟩ : BufTy).Contents (Elt F) → (⟨S1x512x1024, .f32⟩ : BufTy).Contents (Elt F)),
    StableHlo.reshape main_v163 main_v164 rfl shapeCasts_S1x512x1024_S512x1024,
    StableHlo.binary main_v162 main_v164 main_v165 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)) ]

/-- The buffers pc04's operations write, in order. -/
abbrev pc04_W : List (Ref sig .tc) :=
  [main_cst_9, main_v116, main_v117, main_v118, main_v119, main_v120, main_v121, main_v122, main_v123, main_v124, main_v125, main_v126, main_v127, main_v128, main_v129, main_v130, main_cst_10, main_v131, main_v132, main_v133, main_v134, main_v135, main_v136, main_v137, main_v138, main_v139, main_v140, main_v141, main_v142, main_v143, main_v144, main_v145, main_v146, main_call5_cst, main_call5_v0, main_call5_v1, main_call5_v2, main_call5_c, main_call5_v3, main_call5_v4, main_call5_v5, main_call5_v6, main_call5_cst_0, main_call5_call0_v0, main_call5_call0_v1, main_v147, main_v148, main_v149, main_v150, main_v151, main_v152, main_v153, main_v154, main_v155, main_v156, main_cst_11, main_v157, main_v158, main_v159, main_v160, main_v161, main_v162, main_v163, main_v164, main_v165]

set_option maxRecDepth 8192 in
theorem pc04_sub : (pc04 : List (HloOp τ sig (Elt F))).Forall fun op => op.bufs ⊆ tcRefs τ sig :=
  ⟨nullary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., binary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., reshape_bufs_sub .., binary_bufs_sub .., binary_bufs_sub .., unary_bufs_sub .., binary_bufs_sub .., unary_bufs_sub .., reshape_bufs_sub .., nullary_bufs_sub .., binary_bufs_sub .., unary_bufs_sub .., binary_bufs_sub .., unary_bufs_sub .., unary_bufs_sub .., binary_bufs_sub .., unary_bufs_sub .., reshape_bufs_sub .., binary_bufs_sub ..⟩
set_option maxRecDepth 8192 in
theorem pc04_fresh : (pc04 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc04_writes : (pc04 : List (HloOp τ sig (Elt F))).Forall fun op => op.writes ⊆ (pc04_W.map (Proc.devRef (τ := τ) .tc)).toFinset :=
  ⟨writes_sub_of_mem (y := main_cst_9) (by decide), writes_sub_of_mem (y := main_v116) (by decide), writes_sub_of_mem (y := main_v117) (by decide), writes_sub_of_mem (y := main_v118) (by decide), writes_sub_of_mem (y := main_v119) (by decide), writes_sub_of_mem (y := main_v120) (by decide), writes_sub_of_mem (y := main_v121) (by decide), writes_sub_of_mem (y := main_v122) (by decide), writes_sub_of_mem (y := main_v123) (by decide), writes_sub_of_mem (y := main_v124) (by decide), writes_sub_of_mem (y := main_v125) (by decide), writes_sub_of_mem (y := main_v126) (by decide), writes_sub_of_mem (y := main_v127) (by decide), writes_sub_of_mem (y := main_v128) (by decide), writes_sub_of_mem (y := main_v129) (by decide), writes_sub_of_mem (y := main_v130) (by decide), writes_sub_of_mem (y := main_cst_10) (by decide), writes_sub_of_mem (y := main_v131) (by decide), writes_sub_of_mem (y := main_v132) (by decide), writes_sub_of_mem (y := main_v133) (by decide), writes_sub_of_mem (y := main_v134) (by decide), writes_sub_of_mem (y := main_v135) (by decide), writes_sub_of_mem (y := main_v136) (by decide), writes_sub_of_mem (y := main_v137) (by decide), writes_sub_of_mem (y := main_v138) (by decide), writes_sub_of_mem (y := main_v139) (by decide), writes_sub_of_mem (y := main_v140) (by decide), writes_sub_of_mem (y := main_v141) (by decide), writes_sub_of_mem (y := main_v142) (by decide), writes_sub_of_mem (y := main_v143) (by decide), writes_sub_of_mem (y := main_v144) (by decide), writes_sub_of_mem (y := main_v145) (by decide), writes_sub_of_mem (y := main_v146) (by decide), writes_sub_of_mem (y := main_call5_cst) (by decide), writes_sub_of_mem (y := main_call5_v0) (by decide), writes_sub_of_mem (y := main_call5_v1) (by decide), writes_sub_of_mem (y := main_call5_v2) (by decide), writes_sub_of_mem (y := main_call5_c) (by decide), writes_sub_of_mem (y := main_call5_v3) (by decide), writes_sub_of_mem (y := main_call5_v4) (by decide), writes_sub_of_mem (y := main_call5_v5) (by decide), writes_sub_of_mem (y := main_call5_v6) (by decide), writes_sub_of_mem (y := main_call5_cst_0) (by decide), writes_sub_of_mem (y := main_call5_call0_v0) (by decide), writes_sub_of_mem (y := main_call5_call0_v1) (by decide), writes_sub_of_mem (y := main_v147) (by decide), writes_sub_of_mem (y := main_v148) (by decide), writes_sub_of_mem (y := main_v149) (by decide), writes_sub_of_mem (y := main_v150) (by decide), writes_sub_of_mem (y := main_v151) (by decide), writes_sub_of_mem (y := main_v152) (by decide), writes_sub_of_mem (y := main_v153) (by decide), writes_sub_of_mem (y := main_v154) (by decide), writes_sub_of_mem (y := main_v155) (by decide), writes_sub_of_mem (y := main_v156) (by decide), writes_sub_of_mem (y := main_cst_11) (by decide), writes_sub_of_mem (y := main_v157) (by decide), writes_sub_of_mem (y := main_v158) (by decide), writes_sub_of_mem (y := main_v159) (by decide), writes_sub_of_mem (y := main_v160) (by decide), writes_sub_of_mem (y := main_v161) (by decide), writes_sub_of_mem (y := main_v162) (by decide), writes_sub_of_mem (y := main_v163) (by decide), writes_sub_of_mem (y := main_v164) (by decide), writes_sub_of_mem (y := main_v165) (by decide)⟩

set_option maxRecDepth 16384 in
set_option maxHeartbeats 4000000 in
/-- The window is the straight line of its operations: the called functions unfold at their calls, and sequencing reassociates. -/
theorem main_part2_eq (c : Dev nD) : main_part2 (F := F) c = seq (pc03 ++ (pc04)) := by
  rfl

end Cert.ReferenceIdeal.RunHand

end
-- ==== Proof.RefRun03.lean ====
/- The reference program's window main_part3 (statements 181 … 240 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 181 … 237 (from '%166 = stablehlo.slice %arg9 [1:2, 0:1024]' to '%218 = stablehlo.add %159, %217'): 61 operations, a called function's standing in its call's place. -/
abbrev pc05 : List (HloOp τ sig (Elt F)) :=
  [ StableHlo.unary main_arg9 main_v166 ((extractStridedSlice S1x1024 ![1, 0] · slices_S8x1024_S1x1024_1_0) : (⟨S8x1024, .f32⟩ : BufTy).Contents (Elt F) → (⟨S1x1024, .f32⟩ : BufTy).Contents (Elt F)),
    StableHlo.reshape main_v166 main_v167 rfl shapeCasts_S1x1024_S1024,
    StableHlo.unary main_v167 main_v168 (broadcastInDim S1x1024 ![1] bcast_S1024_S1x1024_1 : (⟨S1024, .f32⟩ : BufTy).Contents (Elt F) → (⟨S1x1024, .f32⟩ : BufTy).Contents (Elt F)),
    StableHlo.unary main_v168 main_v169 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v165 main_v169 main_v170 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call6_cst) (constant S_ .f32 0x00000000#32),
    StableHlo.TRef.unary (StableHlo.TRef.of (T := ⟨S_, .f32⟩) main_call6_cst) (StableHlo.TRef.of (T := ⟨S16384x1024, .f32⟩) main_call6_v0) (broadcastInDim S16384x1024 ![] bcast_S_S16384x1024),
    StableHlo.TRef.binary (StableHlo.TRef.of (T := ⟨S16384x1024, .f32⟩) main_v170) (StableHlo.TRef.of (T := ⟨S16384x1024, .f32⟩) main_call6_v0) (StableHlo.TRef.of (T := ⟨S16384x1024, .f32⟩) main_v171) maximumf,
    StableHlo.unary main_arg10 main_v172 ((extractStridedSlice S1x1024x512 ![1, 0, 0] · slices_S8x1024x512_S1x1024x512_1_0_0) : (⟨S8x1024x512, .f32⟩ : BufTy).Contents (Elt F) → (⟨S1x1024x512, .f32⟩ : BufTy).Contents (Elt F)),
    StableHlo.reshape main_v172 main_v173 rfl shapeCasts_S1x1024x512_S1024x512,
    StableHlo.binary main_v171 main_v173 main_v174 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg11 main_v175 ((extractStridedSlice S1x512 ![1, 0] · slices_S8x512_S1x512_1_0) : (⟨S8x512, .f32⟩ : BufTy).Contents (Elt F) → (⟨S1x512, .f32⟩ : BufTy).Contents (Elt F)),
    StableHlo.reshape main_v175 main_v176 rfl shapeCasts_S1x512_S512,
    StableHlo.unary main_v176 main_v177 (broadcastInDim S1x512 ![1] bcast_S512_S1x512_1 : (⟨S512, .f32⟩ : BufTy).Contents (Elt F) → (⟨S1x512, .f32⟩ : BufTy).Contents (Elt F)),
    StableHlo.unary main_v177 main_v178 (broadcastInDim S16384x512 ![0, 1] bcast_S1x512_S16384x512_0_1 : (⟨S1x512, .f32⟩ : BufTy).Contents (Elt F) → (⟨S16384x512, .f32⟩ : BufTy).Contents (Elt F)),
    StableHlo.binary main_v174 main_v178 main_v179 (addf : (⟨S16384x512, .f32⟩ : BufTy).Contents (Elt F) → (⟨S16384x512, .f32⟩ : BufTy).Contents (Elt F) → (⟨S16384x512, .f32⟩ : BufTy).Contents (Elt F)),
    StableHlo.unary main_v179 main_v180 (Host.tanh : (⟨S16384x512, .f32⟩ : BufTy).Contents (Elt F) → (⟨S16384x512, .f32⟩ : BufTy).Contents (Elt F)),
    StableHlo.nullary main_cst_12 (constant S_ .f32 0x3F800000#32),
    StableHlo.unary main_cst_12 main_v181 (broadcastInDim S512 ![] bcast_S_S512 : (⟨S_, .f32⟩ : BufTy).Contents (Elt F) → (⟨S512, .f32⟩ : BufTy).Contents (Elt F)),
    StableHlo.binary main_v181 main_v117 main_v182 (subf : (⟨S512, .f32⟩ : BufTy).Contents (Elt F) → (⟨S512, .f32⟩ : BufTy).Contents (Elt F) → (⟨S512, .f32⟩ : BufTy).Contents (Elt F)),
    StableHlo.unary main_v182 main_v183 (broadcastInDim S1x512 ![1] bcast_S512_S1x512_1 : (⟨S512, .f32⟩ : BufTy).Contents (Elt F) → (⟨S1x512, .f32⟩ : BufTy).Contents (Elt F)),
    StableHlo.unary main_v183 main_v184 (broadcastInDim S16384x512 ![0, 1] bcast_S1x512_S16384x512_0_1 : (⟨S1x512, .f32⟩ : BufTy).Contents (Elt F) → (⟨S16384x512, .f32⟩ : BufTy).Contents (Elt F)),
    StableHlo.binary main_v180 main_v184 main_v185 (mulf : (⟨S16384x512, .f32⟩ : BufTy).Contents (Elt F) → (⟨S16384x512, .f32⟩ : BufTy).Contents (Elt F) → (⟨S16384x512, .f32⟩ : BufTy).Contents (Elt F)),
    StableHlo.unary main_arg12 main_v186 ((extractStridedSlice S1x512x1024 ![1, 0, 0] · slices_S8x512x1024_S1x512x1024_1_0_0) : (⟨S8x512x1024, .f32⟩ : BufTy).Contents (Elt F) → (⟨S1x512x1024, .f32⟩ : BufTy).Contents (Elt F)),
    StableHlo.reshape main_v186 main_v187 rfl shapeCasts_S1x512x1024_S512x1024,
    StableHlo.binary main_v162 main_v187 main_v188 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg13 main_v189 ((extractStridedSlice S1x1024 ![1, 0] · slices_S8x1024_S1x1024_1_0) : (⟨S8x1024, .f32⟩ : BufTy).Contents (Elt F) → (⟨S1x1024, .f32⟩ : BufTy).Contents (Elt F)),
    StableHlo.reshape main_v189 main_v190 rfl shapeCasts_S1x1024_S1024,
    StableHlo.unary main_v190 main_v191 (broadcastInDim S1x1024 ![1] bcast_S1024_S1x1024_1 : (⟨S1024, .f32⟩ : BufTy).Contents (Elt F) → (⟨S1x1024, .f32⟩ : BufTy).Contents (Elt F)),
    StableHlo.unary main_v191 main_v192 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v188 main_v192 main_v193 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call7_cst) (constant S_ .f32 0x00000000#32),
    StableHlo.TRef.unary (StableHlo.TRef.of (T := ⟨S_, .f32⟩) main_call7_cst) (StableHlo.TRef.of (T := ⟨S16384x1024, .f32⟩) main_call7_v0) (broadcastInDim S16384x1024 ![] bcast_S_S16384x1024),
    StableHlo.TRef.binary (StableHlo.TRef.of (T := ⟨S16384x1024, .f32⟩) main_v193) (StableHlo.TRef.of (T := ⟨S16384x1024, .f32⟩) main_call7_v0) (StableHlo.TRef.of (T := ⟨S16384x1024, .f32⟩) main_v194) maximumf,
    StableHlo.unary main_arg14 main_v195 ((extractStridedSlice S1x1024x512 ![1, 0, 0] · slices_S8x1024x512_S1x1024x512_1_0_0) : (⟨S8x1024x512, .f32⟩ : BufTy).Contents (Elt F) → (⟨S1x1024x512, .f32⟩ : BufTy).Contents (Elt F)),
    StableHlo.reshape main_v195 main_v196 rfl shapeCasts_S1x1024x512_S1024x512,
    StableHlo.binary main_v194 main_v196 main_v197 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg15 main_v198 ((extractStridedSlice S1x512 ![1, 0] · slices_S8x512_S1x512_1_0) : (⟨S8x512, .f32⟩ : BufTy).Contents (Elt F) → (⟨S1x512, .f32⟩ : BufTy).Contents (Elt F)),
    StableHlo.reshape main_v198 main_v199 rfl shapeCasts_S1x512_S512,
    StableHlo.unary main_v199 main_v200 (broadcastInDim S1x512 ![1] bcast_S512_S1x512_1 : (⟨S512, .f32⟩ : BufTy).Contents (Elt F) → (⟨S1x512, .f32⟩ : BufTy).Contents (Elt F)),
    StableHlo.unary main_v200 main_v201 (broadcastInDim S16384x512 ![0, 1] bcast_S1x512_S16384x512_0_1 : (⟨S1x512, .f32⟩ : BufTy).Contents (Elt F) → (⟨S16384x512, .f32⟩ : BufTy).Contents (Elt F)),
    StableHlo.binary main_v197 main_v201 main_v202 (addf : (⟨S16384x512, .f32⟩ : BufTy).Contents (Elt F) → (⟨S16384x512, .f32⟩ : BufTy).Contents (Elt F) → (⟨S16384x512, .f32⟩ : BufTy).Contents (Elt F)),
    StableHlo.nullary main_cst_13 (constant S_ .f32 0x3F800000#32),
    StableHlo.unary main_cst_13 main_v203 (broadcastInDim S512 ![] bcast_S_S512 : (⟨S_, .f32⟩ : BufTy).Contents (Elt F) → (⟨S512, .f32⟩ : BufTy).Contents (Elt F)),
    StableHlo.binary main_v203 main_v117 main_v204 (subf : (⟨S512, .f32⟩ : BufTy).Contents (Elt F) → (⟨S512, .f32⟩ : BufTy).Contents (Elt F) → (⟨S512, .f32⟩ : BufTy).Contents (Elt F)),
    StableHlo.unary main_v204 main_v205 (broadcastInDim S1x512 ![1] bcast_S512_S1x512_1 : (⟨S512, .f32⟩ : BufTy).Contents (Elt F) → (⟨S1x512, .f32⟩ : BufTy).Contents (Elt F)),
    StableHlo.unary main_v205 main_v206 (broadcastInDim S16384x512 ![0, 1] bcast_S1x512_S16384x512_0_1 : (⟨S1x512, .f32⟩ : BufTy).Contents (Elt F) → (⟨S16384x512, .f32⟩ : BufTy).Contents (Elt F)),
    StableHlo.binary main_v202 main_v206 main_v207 (mulf : (⟨S16384x512, .f32⟩ : BufTy).Contents (Elt F) → (⟨S16384x512, .f32⟩ : BufTy).Contents (Elt F) → (⟨S16384x512, .f32⟩ : BufTy).Contents (Elt F)),
    StableHlo.nullary main_cst_14 (constant S_ .f32 0x3F800000#32),
    StableHlo.unary main_cst_14 main_v208 (broadcastInDim S512 ![] bcast_S_S512 : (⟨S_, .f32⟩ : BufTy).Contents (Elt F) → (⟨S512, .f32⟩ : BufTy).Contents (Elt F)),
    StableHlo.binary main_v208 main_v117 main_v209 (subf : (⟨S512, .f32⟩ : BufTy).Contents (Elt F) → (⟨S512, .f32⟩ : BufTy).Contents (Elt F) → (⟨S512, .f32⟩ : BufTy).Contents (Elt F)),
    StableHlo.unary main_v185 main_v210 (Host.exp : (⟨S16384x512, .f32⟩ : BufTy).Contents (Elt F) → (⟨S16384x512, .f32⟩ : BufTy).Contents (Elt F)),
    StableHlo.binary main_v154 main_v210 main_v211 (mulf : (⟨S16384x512, .f32⟩ : BufTy).Contents (Elt F) → (⟨S16384x512, .f32⟩ : BufTy).Contents (Elt F) → (⟨S16384x512, .f32⟩ : BufTy).Contents (Elt F)),
    StableHlo.binary main_v211 main_v207 main_v212 (addf : (⟨S16384x512, .f32⟩ : BufTy).Contents (Elt F) → (⟨S16384x512, .f32⟩ : BufTy).Contents (Elt F) → (⟨S16384x512, .f32⟩ : BufTy).Contents (Elt F)),
    StableHlo.unary main_v209 main_v213 (broadcastInDim S1x512 ![1] bcast_S512_S1x512_1 : (⟨S512, .f32⟩ : BufTy).Contents (Elt F) → (⟨S1x512, .f32⟩ : BufTy).Contents (Elt F)),
    StableHlo.unary main_v213 main_v214 (broadcastInDim S16384x512 ![0, 1] bcast_S1x512_S16384x512_0_1 : (⟨S1x512, .f32⟩ : BufTy).Contents (Elt F) → (⟨S16384x512, .f32⟩ : BufTy).Contents (Elt F)),
    StableHlo.binary main_v214 main_v212 main_v215 (mulf : (⟨S16384x512, .f32⟩ : BufTy).Contents (Elt F) → (⟨S16384x512, .f32⟩ : BufTy).Contents (Elt F) → (⟨S16384x512, .f32⟩ : BufTy).Contents (Elt F)),
    StableHlo.binary main_v162 main_v215 main_v216 (addf : (⟨S16384x512, .f32⟩ : BufTy).Contents (Elt F) → (⟨S16384x512, .f32⟩ : BufTy).Contents (Elt F) → (⟨S16384x512, .f32⟩ : BufTy).Contents (Elt F)),
    StableHlo.nullary main_cst_15 (constant S_ .f32 0x00000000#32),
    StableHlo.binary main_v185 main_cst_15 main_v217 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v159 main_v217 main_v218 (addf : (⟨S16384, .f32⟩ : BufTy).Contents (Elt F) → (⟨S16384, .f32⟩ : BufTy).Contents (Elt F) → (⟨S16384, .f32⟩ : BufTy).Contents (Elt F)) ]

/-- The buffers pc05's operations write, in order. -/
abbrev pc05_W : List (Ref sig .tc) :=
  [main_v166, main_v167, main_v168, main_v169, main_v170, main_call6_cst, main_call6_v0, main_v171, main_v172, main_v173, main_v174, main_v175, main_v176, main_v177, main_v178, main_v179, main_v180, main_cst_12, main_v181, main_v182, main_v183, main_v184, main_v185, main_v186, main_v187, main_v188, main_v189, main_v190, main_v191, main_v192, main_v193, main_call7_cst, main_call7_v0, main_v194, main_v195, main_v196, main_v197, main_v198, main_v199, main_v200, main_v201, main_v202, main_cst_13, main_v203, main_v204, main_v205, main_v206, main_v207, main_cst_14, main_v208, main_v209, main_v210, main_v211, main_v212, main_v213, main_v214, main_v215, main_v216, main_cst_15, main_v217, main_v218]

set_option maxRecDepth 8192 in
theorem pc05_sub : (pc05 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., binary_bufs_sub ..⟩
set_option maxRecDepth 8192 in
theorem pc05_fresh : (pc05 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc05_writes : (pc05 : List (HloOp τ sig (Elt F))).Forall fun op => op.writes ⊆ (pc05_W.map (Proc.devRef (τ := τ) .tc)).toFinset :=
  ⟨writes_sub_of_mem (y := main_v166) (by decide), writes_sub_of_mem (y := main_v167) (by decide), writes_sub_of_mem (y := main_v168) (by decide), writes_sub_of_mem (y := main_v169) (by decide), writes_sub_of_mem (y := main_v170) (by decide), writes_sub_of_mem (y := main_call6_cst) (by decide), writes_sub_of_mem (y := main_call6_v0) (by decide), writes_sub_of_mem (y := main_v171) (by decide), writes_sub_of_mem (y := main_v172) (by decide), writes_sub_of_mem (y := main_v173) (by decide), writes_sub_of_mem (y := main_v174) (by decide), writes_sub_of_mem (y := main_v175) (by decide), writes_sub_of_mem (y := main_v176) (by decide), writes_sub_of_mem (y := main_v177) (by decide), writes_sub_of_mem (y := main_v178) (by decide), writes_sub_of_mem (y := main_v179) (by decide), writes_sub_of_mem (y := main_v180) (by decide), writes_sub_of_mem (y := main_cst_12) (by decide), writes_sub_of_mem (y := main_v181) (by decide), writes_sub_of_mem (y := main_v182) (by decide), writes_sub_of_mem (y := main_v183) (by decide), writes_sub_of_mem (y := main_v184) (by decide), writes_sub_of_mem (y := main_v185) (by decide), writes_sub_of_mem (y := main_v186) (by decide), writes_sub_of_mem (y := main_v187) (by decide), writes_sub_of_mem (y := main_v188) (by decide), writes_sub_of_mem (y := main_v189) (by decide), writes_sub_of_mem (y := main_v190) (by decide), writes_sub_of_mem (y := main_v191) (by decide), writes_sub_of_mem (y := main_v192) (by decide), writes_sub_of_mem (y := main_v193) (by decide), writes_sub_of_mem (y := main_call7_cst) (by decide), writes_sub_of_mem (y := main_call7_v0) (by decide), writes_sub_of_mem (y := main_v194) (by decide), writes_sub_of_mem (y := main_v195) (by decide), writes_sub_of_mem (y := main_v196) (by decide), writes_sub_of_mem (y := main_v197) (by decide), writes_sub_of_mem (y := main_v198) (by decide), writes_sub_of_mem (y := main_v199) (by decide), writes_sub_of_mem (y := main_v200) (by decide), writes_sub_of_mem (y := main_v201) (by decide), writes_sub_of_mem (y := main_v202) (by decide), writes_sub_of_mem (y := main_cst_13) (by decide), writes_sub_of_mem (y := main_v203) (by decide), writes_sub_of_mem (y := main_v204) (by decide), writes_sub_of_mem (y := main_v205) (by decide), writes_sub_of_mem (y := main_v206) (by decide), writes_sub_of_mem (y := main_v207) (by decide), writes_sub_of_mem (y := main_cst_14) (by decide), writes_sub_of_mem (y := main_v208) (by decide), writes_sub_of_mem (y := main_v209) (by decide), writes_sub_of_mem (y := main_v210) (by decide), writes_sub_of_mem (y := main_v211) (by decide), writes_sub_of_mem (y := main_v212) (by decide), writes_sub_of_mem (y := main_v213) (by decide), writes_sub_of_mem (y := main_v214) (by decide), writes_sub_of_mem (y := main_v215) (by decide), writes_sub_of_mem (y := main_v216) (by decide), writes_sub_of_mem (y := main_cst_15) (by decide), writes_sub_of_mem (y := main_v217) (by decide), writes_sub_of_mem (y := main_v218) (by decide)⟩

/-- @main's statements 238 … 240 (from '%219 = stablehlo.slice %arg1 [2:3, 0:512]' to '%221 = stablehlo.exponential %220'): 3 operations, a called function's standing in its call's place. -/
abbrev pc06 : List (HloOp τ sig (Elt F)) :=
  [ StableHlo.unary main_arg1 main_v219 ((extractStridedSlice S1x512 ![2, 0] · slices_S8x512_S1x512_2_0) : (⟨S8x512, .f32⟩ : BufTy).Contents (Elt F) → (⟨S1x512, .f32⟩ : BufTy).Contents (Elt F)),
    StableHlo.reshape main_v219 main_v220 rfl shapeCasts_S1x512_S512,
    StableHlo.unary main_v220 main_v221 (Host.exp : (⟨S512, .f32⟩ : BufTy).Contents (Elt F) → (⟨S512, .f32⟩ : BufTy).Contents (Elt F)) ]

/-- The buffers pc06's operations write, in order. -/
abbrev pc06_W : List (Ref sig .tc) :=
  [main_v219, main_v220, main_v221]

set_option maxRecDepth 8192 in
theorem pc06_sub : (pc06 : List (HloOp τ sig (Elt F))).Forall fun op => op.bufs ⊆ tcRefs τ sig :=
  ⟨unary_bufs_sub .., reshape_bufs_sub .., unary_bufs_sub ..⟩
set_option maxRecDepth 8192 in
theorem pc06_fresh : (pc06 : List (HloOp τ sig (Elt F))).Forall fun op => op.fresh = ∅ :=
  ⟨rfl, rfl, rfl⟩
set_option maxRecDepth 8192 in
theorem pc06_writes : (pc06 : List (HloOp τ sig (Elt F))).Forall fun op => op.writes ⊆ (pc06_W.map (Proc.devRef (τ := τ) .tc)).toFinset :=
  ⟨writes_sub_of_mem (y := main_v219) (by decide), writes_sub_of_mem (y := main_v220) (by decide), writes_sub_of_mem (y := main_v221) (by decide)⟩

set_option maxRecDepth 16384 in
set_option maxHeartbeats 4000000 in
/-- The window is the straight line of its operations: the called functions unfold at their calls, and sequencing reassociates. -/
theorem main_part3_eq (c : Dev nD) : main_part3 (F := F) c = seq (pc05 ++ (pc06)) := by
  rfl

end Cert.ReferenceIdeal.RunHand

end
-- ==== Proof.RefRun04.lean ====
/- The reference program's window main_part4 (statements 241 … 300 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 241 … 300 (from '%222 = stablehlo.broadcast_in_dim %221, dims = [1]' to '%279 = stablehlo.broadcast_in_dim %278, dims = [0, 1]'): 74 operations, a called function's standing in its call's place. -/
abbrev pc07 : List (HloOp τ sig (Elt F)) :=
  [ StableHlo.unary main_v221 main_v222 (broadcastInDim S1x512 ![1] bcast_S512_S1x512_1 : (⟨S512, .f32⟩ : BufTy).Contents (Elt F) → (⟨S1x512, .f32⟩ : BufTy).Contents (Elt F)),
    StableHlo.unary main_v222 main_v223 (broadcastInDim S16384x512 ![0, 1] bcast_S1x512_S16384x512_0_1 : (⟨S1x512, .f32⟩ : BufTy).Contents (Elt F) → (⟨S16384x512, .f32⟩ : BufTy).Contents (Elt F)),
    StableHlo.binary main_v223 main_v216 main_v224 (mulf : (⟨S16384x512, .f32⟩ : BufTy).Contents (Elt F) → (⟨S16384x512, .f32⟩ : BufTy).Contents (Elt F) → (⟨S16384x512, .f32⟩ : BufTy).Contents (Elt F)),
    StableHlo.unary main_arg2 main_v225 ((extractStridedSlice S1x512 ![2, 0] · slices_S8x512_S1x512_2_0) : (⟨S8x512, .f32⟩ : BufTy).Contents (Elt F) → (⟨S1x512, .f32⟩ : BufTy).Contents (Elt F)),
    StableHlo.reshape main_v225 main_v226 rfl shapeCasts_S1x512_S512,
    StableHlo.unary main_v226 main_v227 (broadcastInDim S1x512 ![1] bcast_S512_S1x512_1 : (⟨S512, .f32⟩ : BufTy).Contents (Elt F) → (⟨S1x512, .f32⟩ : BufTy).Contents (Elt F)),
    StableHlo.unary main_v227 main_v228 (broadcastInDim S16384x512 ![0, 1] bcast_S1x512_S16384x512_0_1 : (⟨S1x512, .f32⟩ : BufTy).Contents (Elt F) → (⟨S16384x512, .f32⟩ : BufTy).Contents (Elt F)),
    StableHlo.binary main_v224 main_v228 main_v229 (addf : (⟨S16384x512, .f32⟩ : BufTy).Contents (Elt F) → (⟨S16384x512, .f32⟩ : BufTy).Contents (Elt F) → (⟨S16384x512, .f32⟩ : BufTy).Contents (Elt F)),
    StableHlo.unary main_arg1 main_v230 ((extractStridedSlice S1x512 ![2, 0] · slices_S8x512_S1x512_2_0) : (⟨S8x512, .f32⟩ : BufTy).Contents (Elt F) → (⟨S1x512, .f32⟩ : BufTy).Contents (Elt F)),
    StableHlo.reshape main_v230 main_v231 rfl shapeCasts_S1x512_S512,
    StableHlo.nullary main_cst_16 (constant S_ .f32 0x00000000#32),
    StableHlo.binary main_v231 main_cst_16 main_v232 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v232 main_v233 (broadcastInDim S16384 ![] bcast_S_S16384 : (⟨S_, .f32⟩ : BufTy).Contents (Elt F) → (⟨S16384, .f32⟩ : BufTy).Contents (Elt F)),
    StableHlo.binary main_v218 main_v233 main_v234 (addf : (⟨S16384, .f32⟩ : BufTy).Contents (Elt F) → (⟨S16384, .f32⟩ : BufTy).Contents (Elt F) → (⟨S16384, .f32⟩ : BufTy).Contents (Elt F)),
    StableHlo.unary main_arg4 main_v235 ((extractStridedSlice S1x512x512 ![2, 0, 0] · slices_S8x512x512_S1x512x512_2_0_0) : (⟨S8x512x512, .f32⟩ : BufTy).Contents (Elt F) → (⟨S1x512x512, .f32⟩ : BufTy).Contents (Elt F)),
    StableHlo.reshape main_v235 main_v236 rfl shapeCasts_S1x512x512_S512x512,
    StableHlo.binary main_v236 main_v7 main_v237 (mulf : (⟨S512x512, .f32⟩ : BufTy).Contents (Elt F) → (⟨S512x512, .f32⟩ : BufTy).Contents (Elt F) → (⟨S512x512, .f32⟩ : BufTy).Contents (Elt F)),
    StableHlo.binary main_v237 main_v5 main_v238 (addf : (⟨S512x512, .f32⟩ : BufTy).Contents (Elt F) → (⟨S512x512, .f32⟩ : BufTy).Contents (Elt F) → (⟨S512x512, .f32⟩ : BufTy).Contents (Elt F)),
    StableHlo.unary main_arg5 main_v239 ((extractStridedSlice S1x512x512 ![2, 0, 0] · slices_S8x512x512_S1x512x512_2_0_0) : (⟨S8x512x512, .f32⟩ : BufTy).Contents (Elt F) → (⟨S1x512x512, .f32⟩ : BufTy).Contents (Elt F)),
    StableHlo.reshape main_v239 main_v240 rfl shapeCasts_S1x512x512_S512x512,
    StableHlo.binary main_v240 main_v8 main_v241 (mulf : (⟨S512x512, .f32⟩ : BufTy).Contents (Elt F) → (⟨S512x512, .f32⟩ : BufTy).Contents (Elt F) → (⟨S512x512, .f32⟩ : BufTy).Contents (Elt F)),
    StableHlo.unary main_arg6 main_v242 ((extractStridedSlice S1x512 ![2, 0] · slices_S8x512_S1x512_2_0) : (⟨S8x512, .f32⟩ : BufTy).Contents (Elt F) → (⟨S1x512, .f32⟩ : BufTy).Contents (Elt F)),
    StableHlo.reshape main_v242 main_v243 rfl shapeCasts_S1x512_S512,
    StableHlo.unary main_arg7 main_v244 ((extractStridedSlice S1x512 ![2, 0] · slices_S8x512_S1x512_2_0) : (⟨S8x512, .f32⟩ : BufTy).Contents (Elt F) → (⟨S1x512, .f32⟩ : BufTy).Contents (Elt F)),
    StableHlo.reshape main_v244 main_v245 rfl shapeCasts_S1x512_S512,
    StableHlo.unary main_v245 main_v246 (Host.exp : (⟨S512, .f32⟩ : BufTy).Contents (Elt F) → (⟨S512, .f32⟩ : BufTy).Contents (Elt F)),
    StableHlo.binary main_v243 main_v246 main_v247 (mulf : (⟨S512, .f32⟩ : BufTy).Contents (Elt F) → (⟨S512, .f32⟩ : BufTy).Contents (Elt F) → (⟨S512, .f32⟩ : BufTy).Contents (Elt F)),
    StableHlo.TRef.nullary (StableHlo.TRef.of (T := ⟨S_, .f32⟩) main_call8_cst) (constant S_ .f32 0x00000000#32),
    StableHlo.TRef.binary (StableHlo.TRef.of (T := ⟨S512, .f32⟩) main_v247) (StableHlo.TRef.of (T := ⟨S_, .f32⟩) main_call8_cst) (StableHlo.TRef.of (T := ⟨S512, .f32⟩) main_call8_v0) (fun x v => pad S512 ![0] ![0] ![0] x v pads_S512_S512_000 h_S_),
    StableHlo.TRef.nullary (StableHlo.TRef.of (T := ⟨S512x512, .i32⟩) main_call8_v1) (iotaInDim S512x512 32 0),
    StableHlo.TRef.nullary (StableHlo.TRef.of (T := ⟨S512x512, .i32⟩) main_call8_v2) (iotaInDim S512x512 32 1),
    StableHlo.TRef.nullary (StableHlo.TRef.of (T := ⟨S_, .i32⟩) main_call8_c) (constantI S_ 32 0#32),
    StableHlo.TRef.unary (StableHlo.TRef.of (T := ⟨S_, .i32⟩) main_call8_c) (StableHlo.TRef.of (T := ⟨S512x512, .i32⟩) main_call8_v3) (broadcastInDim S512x512 ![] bcast_S_S512x512),
    StableHlo.TRef.binary (StableHlo.TRef.of (T := ⟨S512x512, .i32⟩) main_call8_v1) (StableHlo.TRef.of (T := ⟨S512x512, .i32⟩) main_call8_v3) (StableHlo.TRef.of (T := ⟨S512x512, .i32⟩) main_call8_v4) addi,
    StableHlo.TRef.binary (StableHlo.TRef.of (T := ⟨S512x512, .i32⟩) main_call8_v4) (StableHlo.TRef.of (T := ⟨S512x512, .i32⟩) main_call8_v2) (StableHlo.TRef.of (T := ⟨S512x512, .i1⟩) main_call8_v5) (cmpi .eq),
    StableHlo.TRef.unary (StableHlo.TRef.of (T := ⟨S512, .f32⟩) main_call8_v0) (StableHlo.TRef.of (T := ⟨S512x1, .f32⟩) main_call8_v6) (broadcastInDim S512x1 ![0] bcast_S512_S512x1_0),
    StableHlo.TRef.nullary (StableHlo.TRef.of (T := ⟨S_, .f32⟩) main_call8_cst_0) (constant S_ .f32 0x00000000#32),
    StableHlo.TRef.unary (StableHlo.TRef.of (T := ⟨S512x1, .f32⟩) main_call8_v6) (StableHlo.TRef.of (T := ⟨S512x512, .f32⟩) main_call8_call0_v0) (broadcastInDim S512x512 ![0, 1] bcast_S512x1_S512x512_0_1),
    StableHlo.TRef.unary (StableHlo.TRef.of (T := ⟨S_, .f32⟩) main_call8_cst_0) (StableHlo.TRef.of (T := ⟨S512x512, .f32⟩) main_call8_call0_v1) (broadcastInDim S512x512 ![] bcast_S_S512x512),
    StableHlo.TRef.ternary (StableHlo.TRef.of (T := ⟨S512x512, .i1⟩) main_call8_v5) (StableHlo.TRef.of (T := ⟨S512x512, .f32⟩) main_call8_call0_v0) (StableHlo.TRef.of (T := ⟨S512x512, .f32⟩) main_call8_call0_v1) (StableHlo.TRef.of (T := ⟨S512x512, .f32⟩) main_v248) select,
    StableHlo.binary main_v241 main_v248 main_v249 (addf : (⟨S512x512, .f32⟩ : BufTy).Contents (Elt F) → (⟨S512x512, .f32⟩ : BufTy).Contents (Elt F) → (⟨S512x512, .f32⟩ : BufTy).Contents (Elt F)),
    StableHlo.unary main_arg3 main_v250 ((extractStridedSlice S1x512x512 ![2, 0, 0] · slices_S8x512x512_S1x512x512_2_0_0) : (⟨S8x512x512, .f32⟩ : BufTy).Contents (Elt F) → (⟨S1x512x512, .f32⟩ : BufTy).Contents (Elt F)),
    StableHlo.reshape main_v250 main_v251 rfl shapeCasts_S1x512x512_S512x512,
    StableHlo.binary main_v251 main_v238 main_v252 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.binary main_v252 main_v249 main_v253 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_v253 main_v254 ((transpose S512x512 [1, 0] · transposes_S512x512_S512x512_1_0) : (⟨S512x512, .f32⟩ : BufTy).Contents (Elt F) → (⟨S512x512, .f32⟩ : BufTy).Contents (Elt F)),
    StableHlo.binary main_v229 main_v254 main_v255 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg7 main_v256 ((extractStridedSlice S1x512 ![2, 0] · slices_S8x512_S1x512_2_0) : (⟨S8x512, .f32⟩ : BufTy).Contents (Elt F) → (⟨S1x512, .f32⟩ : BufTy).Contents (Elt F)),
    StableHlo.reshape main_v256 main_v257 rfl shapeCasts_S1x512_S512,
    StableHlo.nullary main_cst_17 (constant S_ .f32 0x00000000#32),
    StableHlo.binary main_v257 main_cst_17 main_v258 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v258 main_v259 (broadcastInDim S16384 ![] bcast_S_S16384 : (⟨S_, .f32⟩ : BufTy).Contents (Elt F) → (⟨S16384, .f32⟩ : BufTy).Contents (Elt F)),
    StableHlo.binary main_v234 main_v259 main_v260 (addf : (⟨S16384, .f32⟩ : BufTy).Contents (Elt F) → (⟨S16384, .f32⟩ : BufTy).Contents (Elt F) → (⟨S16384, .f32⟩ : BufTy).Contents (Elt F)),
    StableHlo.unary main_v13 main_v261 (broadcastInDim S1x512 ![1] bcast_S512_S1x512_1 : (⟨S512, .f32⟩ : BufTy).Contents (Elt F) → (⟨S1x512, .f32⟩ : BufTy).Contents (Elt F)),
    StableHlo.unary main_v261 main_v262 (broadcastInDim S16384x512 ![0, 1] bcast_S1x512_S16384x512_0_1 : (⟨S1x512, .f32⟩ : BufTy).Contents (Elt F) → (⟨S16384x512, .f32⟩ : BufTy).Contents (Elt F)),
    StableHlo.binary main_v262 main_v255 main_v263 (mulf : (⟨S16384x512, .f32⟩ : BufTy).Contents (Elt F) → (⟨S16384x512, .f32⟩ : BufTy).Contents (Elt F) → (⟨S16384x512, .f32⟩ : BufTy).Contents (Elt F)),
    StableHlo.unary main_arg8 main_v264 ((extractStridedSlice S1x512x1024 ![2, 0, 0] · slices_S8x512x1024_S1x512x1024_2_0_0) : (⟨S8x512x1024, .f32⟩ : BufTy).Contents (Elt F) → (⟨S1x512x1024, .f32⟩ : BufTy).Contents (Elt F)),
    StableHlo.reshape main_v264 main_v265 rfl shapeCasts_S1x512x1024_S512x1024,
    StableHlo.binary main_v263 main_v265 main_v266 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg9 main_v267 ((extractStridedSlice S1x1024 ![2, 0] · slices_S8x1024_S1x1024_2_0) : (⟨S8x1024, .f32⟩ : BufTy).Contents (Elt F) → (⟨S1x1024, .f32⟩ : BufTy).Contents (Elt F)),
    StableHlo.reshape main_v267 main_v268 rfl shapeCasts_S1x1024_S1024,
    StableHlo.unary main_v268 main_v269 (broadcastInDim S1x1024 ![1] bcast_S1024_S1x1024_1 : (⟨S1024, .f32⟩ : BufTy).Contents (Elt F) → (⟨S1x1024, .f32⟩ : BufTy).Contents (Elt F)),
    StableHlo.unary main_v269 main_v270 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v266 main_v270 main_v271 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call9_cst) (constant S_ .f32 0x00000000#32),
    StableHlo.TRef.unary (StableHlo.TRef.of (T := ⟨S_, .f32⟩) main_call9_cst) (StableHlo.TRef.of (T := ⟨S16384x1024, .f32⟩) main_call9_v0) (broadcastInDim S16384x1024 ![] bcast_S_S16384x1024),
    StableHlo.TRef.binary (StableHlo.TRef.of (T := ⟨S16384x1024, .f32⟩) main_v271) (StableHlo.TRef.of (T := ⟨S16384x1024, .f32⟩) main_call9_v0) (StableHlo.TRef.of (T := ⟨S16384x1024, .f32⟩) main_v272) maximumf,
    StableHlo.unary main_arg10 main_v273 ((extractStridedSlice S1x1024x512 ![2, 0, 0] · slices_S8x1024x512_S1x1024x512_2_0_0) : (⟨S8x1024x512, .f32⟩ : BufTy).Contents (Elt F) → (⟨S1x1024x512, .f32⟩ : BufTy).Contents (Elt F)),
    StableHlo.reshape main_v273 main_v274 rfl shapeCasts_S1x1024x512_S1024x512,
    StableHlo.binary main_v272 main_v274 main_v275 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg11 main_v276 ((extractStridedSlice S1x512 ![2, 0] · slices_S8x512_S1x512_2_0) : (⟨S8x512, .f32⟩ : BufTy).Contents (Elt F) → (⟨S1x512, .f32⟩ : BufTy).Contents (Elt F)),
    StableHlo.reshape main_v276 main_v277 rfl shapeCasts_S1x512_S512,
    StableHlo.unary main_v277 main_v278 (broadcastInDim S1x512 ![1] bcast_S512_S1x512_1 : (⟨S512, .f32⟩ : BufTy).Contents (Elt F) → (⟨S1x512, .f32⟩ : BufTy).Contents (Elt F)),
    StableHlo.unary main_v278 main_v279 (broadcastInDim S16384x512 ![0, 1] bcast_S1x512_S16384x512_0_1 : (⟨S1x512, .f32⟩ : BufTy).Contents (Elt F) → (⟨S16384x512, .f32⟩ : BufTy).Contents (Elt F)) ]

/-- The buffers pc07's operations write, in order. -/
abbrev pc07_W : List (Ref sig .tc) :=
  [main_v222, main_v223, main_v224, main_v225, main_v226, main_v227, main_v228, main_v229, main_v230, main_v231, main_cst_16, main_v232, main_v233, main_v234, main_v235, main_v236, main_v237, main_v238, main_v239, main_v240, main_v241, main_v242, main_v243, main_v244, main_v245, main_v246, main_v247, main_call8_cst, main_call8_v0, main_call8_v1, main_call8_v2, main_call8_c, main_call8_v3, main_call8_v4, main_call8_v5, main_call8_v6, main_call8_cst_0, main_call8_call0_v0, main_call8_call0_v1, main_v248, main_v249, main_v250, main_v251, main_v252, main_v253, main_v254, main_v255, main_v256, main_v257, main_cst_17, main_v258, main_v259, main_v260, main_v261, main_v262, main_v263, main_v264, main_v265, main_v266, main_v267, main_v268, main_v269, main_v270, main_v271, main_call9_cst, main_call9_v0, main_v272, main_v273, main_v274, main_v275, main_v276, main_v277, main_v278, main_v279]

set_option maxRecDepth 8192 in
theorem pc07_sub : (pc07 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., unary_bufs_sub .., reshape_bufs_sub .., nullary_bufs_sub .., binary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., reshape_bufs_sub .., binary_bufs_sub .., binary_bufs_sub .., unary_bufs_sub .., binary_bufs_sub .., unary_bufs_sub .., reshape_bufs_sub .., nullary_bufs_sub .., binary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩
set_option maxRecDepth 8192 in
theorem pc07_fresh : (pc07 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc07_writes : (pc07 : List (HloOp τ sig (Elt F))).Forall fun op => op.writes ⊆ (pc07_W.map (Proc.devRef (τ := τ) .tc)).toFinset :=
  ⟨writes_sub_of_mem (y := main_v222) (by decide), writes_sub_of_mem (y := main_v223) (by decide), writes_sub_of_mem (y := main_v224) (by decide), writes_sub_of_mem (y := main_v225) (by decide), writes_sub_of_mem (y := main_v226) (by decide), writes_sub_of_mem (y := main_v227) (by decide), writes_sub_of_mem (y := main_v228) (by decide), writes_sub_of_mem (y := main_v229) (by decide), writes_sub_of_mem (y := main_v230) (by decide), writes_sub_of_mem (y := main_v231) (by decide), writes_sub_of_mem (y := main_cst_16) (by decide), writes_sub_of_mem (y := main_v232) (by decide), writes_sub_of_mem (y := main_v233) (by decide), writes_sub_of_mem (y := main_v234) (by decide), writes_sub_of_mem (y := main_v235) (by decide), writes_sub_of_mem (y := main_v236) (by decide), writes_sub_of_mem (y := main_v237) (by decide), writes_sub_of_mem (y := main_v238) (by decide), writes_sub_of_mem (y := main_v239) (by decide), writes_sub_of_mem (y := main_v240) (by decide), writes_sub_of_mem (y := main_v241) (by decide), writes_sub_of_mem (y := main_v242) (by decide), writes_sub_of_mem (y := main_v243) (by decide), writes_sub_of_mem (y := main_v244) (by decide), writes_sub_of_mem (y := main_v245) (by decide), writes_sub_of_mem (y := main_v246) (by decide), writes_sub_of_mem (y := main_v247) (by decide), writes_sub_of_mem (y := main_call8_cst) (by decide), writes_sub_of_mem (y := main_call8_v0) (by decide), writes_sub_of_mem (y := main_call8_v1) (by decide), writes_sub_of_mem (y := main_call8_v2) (by decide), writes_sub_of_mem (y := main_call8_c) (by decide), writes_sub_of_mem (y := main_call8_v3) (by decide), writes_sub_of_mem (y := main_call8_v4) (by decide), writes_sub_of_mem (y := main_call8_v5) (by decide), writes_sub_of_mem (y := main_call8_v6) (by decide), writes_sub_of_mem (y := main_call8_cst_0) (by decide), writes_sub_of_mem (y := main_call8_call0_v0) (by decide), writes_sub_of_mem (y := main_call8_call0_v1) (by decide), writes_sub_of_mem (y := main_v248) (by decide), writes_sub_of_mem (y := main_v249) (by decide), writes_sub_of_mem (y := main_v250) (by decide), writes_sub_of_mem (y := main_v251) (by decide), writes_sub_of_mem (y := main_v252) (by decide), writes_sub_of_mem (y := main_v253) (by decide), writes_sub_of_mem (y := main_v254) (by decide), writes_sub_of_mem (y := main_v255) (by decide), writes_sub_of_mem (y := main_v256) (by decide), writes_sub_of_mem (y := main_v257) (by decide), writes_sub_of_mem (y := main_cst_17) (by decide), writes_sub_of_mem (y := main_v258) (by decide), writes_sub_of_mem (y := main_v259) (by decide), writes_sub_of_mem (y := main_v260) (by decide), writes_sub_of_mem (y := main_v261) (by decide), writes_sub_of_mem (y := main_v262) (by decide), writes_sub_of_mem (y := main_v263) (by decide), writes_sub_of_mem (y := main_v264) (by decide), writes_sub_of_mem (y := main_v265) (by decide), writes_sub_of_mem (y := main_v266) (by decide), writes_sub_of_mem (y := main_v267) (by decide), writes_sub_of_mem (y := main_v268) (by decide), writes_sub_of_mem (y := main_v269) (by decide), writes_sub_of_mem (y := main_v270) (by decide), writes_sub_of_mem (y := main_v271) (by decide), writes_sub_of_mem (y := main_call9_cst) (by decide), writes_sub_of_mem (y := main_call9_v0) (by decide), writes_sub_of_mem (y := main_v272) (by decide), writes_sub_of_mem (y := main_v273) (by decide), writes_sub_of_mem (y := main_v274) (by decide), writes_sub_of_mem (y := main_v275) (by decide), writes_sub_of_mem (y := main_v276) (by decide), writes_sub_of_mem (y := main_v277) (by decide), writes_sub_of_mem (y := main_v278) (by decide), writes_sub_of_mem (y := main_v279) (by decide)⟩

set_option maxRecDepth 16384 in
set_option maxHeartbeats 4000000 in
/-- The window is the straight line of its operations: the called functions unfold at their calls, and sequencing reassociates. -/
theorem main_part4_eq (c : Dev nD) : main_part4 (F := F) c = seq (pc07) := by
  rfl

end Cert.ReferenceIdeal.RunHand

end
-- ==== Proof.RefRun05.lean ====
/- The reference program's window main_part5 (statements 301 … 360 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 301 … 344 (from '%280 = stablehlo.add %275, %279' to '%319 = stablehlo.add %260, %318'): 46 operations, a called function's standing in its call's place. -/
abbrev pc08 : List (HloOp τ sig (Elt F)) :=
  [ StableHlo.binary main_v275 main_v279 main_v280 (addf : (⟨S16384x512, .f32⟩ : BufTy).Contents (Elt F) → (⟨S16384x512, .f32⟩ : BufTy).Contents (Elt F) → (⟨S16384x512, .f32⟩ : BufTy).Contents (Elt F)),
    StableHlo.unary main_v280 main_v281 (Host.tanh : (⟨S16384x512, .f32⟩ : BufTy).Contents (Elt F) → (⟨S16384x512, .f32⟩ : BufTy).Contents (Elt F)),
    StableHlo.nullary main_cst_18 (constant S_ .f32 0x3F800000#32),
    StableHlo.unary main_cst_18 main_v282 (broadcastInDim S512 ![] bcast_S_S512 : (⟨S_, .f32⟩ : BufTy).Contents (Elt F) → (⟨S512, .f32⟩ : BufTy).Contents (Elt F)),
    StableHlo.binary main_v282 main_v13 main_v283 (subf : (⟨S512, .f32⟩ : BufTy).Contents (Elt F) → (⟨S512, .f32⟩ : BufTy).Contents (Elt F) → (⟨S512, .f32⟩ : BufTy).Contents (Elt F)),
    StableHlo.unary main_v283 main_v284 (broadcastInDim S1x512 ![1] bcast_S512_S1x512_1 : (⟨S512, .f32⟩ : BufTy).Contents (Elt F) → (⟨S1x512, .f32⟩ : BufTy).Contents (Elt F)),
    StableHlo.unary main_v284 main_v285 (broadcastInDim S16384x512 ![0, 1] bcast_S1x512_S16384x512_0_1 : (⟨S1x512, .f32⟩ : BufTy).Contents (Elt F) → (⟨S16384x512, .f32⟩ : BufTy).Contents (Elt F)),
    StableHlo.binary main_v281 main_v285 main_v286 (mulf : (⟨S16384x512, .f32⟩ : BufTy).Contents (Elt F) → (⟨S16384x512, .f32⟩ : BufTy).Contents (Elt F) → (⟨S16384x512, .f32⟩ : BufTy).Contents (Elt F)),
    StableHlo.unary main_arg12 main_v287 ((extractStridedSlice S1x512x1024 ![2, 0, 0] · slices_S8x512x1024_S1x512x1024_2_0_0) : (⟨S8x512x1024, .f32⟩ : BufTy).Contents (Elt F) → (⟨S1x512x1024, .f32⟩ : BufTy).Contents (Elt F)),
    StableHlo.reshape main_v287 main_v288 rfl shapeCasts_S1x512x1024_S512x1024,
    StableHlo.binary main_v263 main_v288 main_v289 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg13 main_v290 ((extractStridedSlice S1x1024 ![2, 0] · slices_S8x1024_S1x1024_2_0) : (⟨S8x1024, .f32⟩ : BufTy).Contents (Elt F) → (⟨S1x1024, .f32⟩ : BufTy).Contents (Elt F)),
    StableHlo.reshape main_v290 main_v291 rfl shapeCasts_S1x1024_S1024,
    StableHlo.unary main_v291 main_v292 (broadcastInDim S1x1024 ![1] bcast_S1024_S1x1024_1 : (⟨S1024, .f32⟩ : BufTy).Contents (Elt F) → (⟨S1x1024, .f32⟩ : BufTy).Contents (Elt F)),
    StableHlo.unary main_v292 main_v293 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v289 main_v293 main_v294 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call10_cst) (constant S_ .f32 0x00000000#32),
    StableHlo.TRef.unary (StableHlo.TRef.of (T := ⟨S_, .f32⟩) main_call10_cst) (StableHlo.TRef.of (T := ⟨S16384x1024, .f32⟩) main_call10_v0) (broadcastInDim S16384x1024 ![] bcast_S_S16384x1024),
    StableHlo.TRef.binary (StableHlo.TRef.of (T := ⟨S16384x1024, .f32⟩) main_v294) (StableHlo.TRef.of (T := ⟨S16384x1024, .f32⟩) main_call10_v0) (StableHlo.TRef.of (T := ⟨S16384x1024, .f32⟩) main_v295) maximumf,
    StableHlo.unary main_arg14 main_v296 ((extractStridedSlice S1x1024x512 ![2, 0, 0] · slices_S8x1024x512_S1x1024x512_2_0_0) : (⟨S8x1024x512, .f32⟩ : BufTy).Contents (Elt F) → (⟨S1x1024x512, .f32⟩ : BufTy).Contents (Elt F)),
    StableHlo.reshape main_v296 main_v297 rfl shapeCasts_S1x1024x512_S1024x512,
    StableHlo.binary main_v295 main_v297 main_v298 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg15 main_v299 ((extractStridedSlice S1x512 ![2, 0] · slices_S8x512_S1x512_2_0) : (⟨S8x512, .f32⟩ : BufTy).Contents (Elt F) → (⟨S1x512, .f32⟩ : BufTy).Contents (Elt F)),
    StableHlo.reshape main_v299 main_v300 rfl shapeCasts_S1x512_S512,
    StableHlo.unary main_v300 main_v301 (broadcastInDim S1x512 ![1] bcast_S512_S1x512_1 : (⟨S512, .f32⟩ : BufTy).Contents (Elt F) → (⟨S1x512, .f32⟩ : BufTy).Contents (Elt F)),
    StableHlo.unary main_v301 main_v302 (broadcastInDim S16384x512 ![0, 1] bcast_S1x512_S16384x512_0_1 : (⟨S1x512, .f32⟩ : BufTy).Contents (Elt F) → (⟨S16384x512, .f32⟩ : BufTy).Contents (Elt F)),
    StableHlo.binary main_v298 main_v302 main_v303 (addf : (⟨S16384x512, .f32⟩ : BufTy).Contents (Elt F) → (⟨S16384x512, .f32⟩ : BufTy).Contents (Elt F) → (⟨S16384x512, .f32⟩ : BufTy).Contents (Elt F)),
    StableHlo.nullary main_cst_19 (constant S_ .f32 0x3F800000#32),
    StableHlo.unary main_cst_19 main_v304 (broadcastInDim S512 ![] bcast_S_S512 : (⟨S_, .f32⟩ : BufTy).Contents (Elt F) → (⟨S512, .f32⟩ : BufTy).Contents (Elt F)),
    StableHlo.binary main_v304 main_v13 main_v305 (subf : (⟨S512, .f32⟩ : BufTy).Contents (Elt F) → (⟨S512, .f32⟩ : BufTy).Contents (Elt F) → (⟨S512, .f32⟩ : BufTy).Contents (Elt F)),
    StableHlo.unary main_v305 main_v306 (broadcastInDim S1x512 ![1] bcast_S512_S1x512_1 : (⟨S512, .f32⟩ : BufTy).Contents (Elt F) → (⟨S1x512, .f32⟩ : BufTy).Contents (Elt F)),
    StableHlo.unary main_v306 main_v307 (broadcastInDim S16384x512 ![0, 1] bcast_S1x512_S16384x512_0_1 : (⟨S1x512, .f32⟩ : BufTy).Contents (Elt F) → (⟨S16384x512, .f32⟩ : BufTy).Contents (Elt F)),
    StableHlo.binary main_v303 main_v307 main_v308 (mulf : (⟨S16384x512, .f32⟩ : BufTy).Contents (Elt F) → (⟨S16384x512, .f32⟩ : BufTy).Contents (Elt F) → (⟨S16384x512, .f32⟩ : BufTy).Contents (Elt F)),
    StableHlo.nullary main_cst_20 (constant S_ .f32 0x3F800000#32),
    StableHlo.unary main_cst_20 main_v309 (broadcastInDim S512 ![] bcast_S_S512 : (⟨S_, .f32⟩ : BufTy).Contents (Elt F) → (⟨S512, .f32⟩ : BufTy).Contents (Elt F)),
    StableHlo.binary main_v309 main_v13 main_v310 (subf : (⟨S512, .f32⟩ : BufTy).Contents (Elt F) → (⟨S512, .f32⟩ : BufTy).Contents (Elt F) → (⟨S512, .f32⟩ : BufTy).Contents (Elt F)),
    StableHlo.unary main_v286 main_v311 (Host.exp : (⟨S16384x512, .f32⟩ : BufTy).Contents (Elt F) → (⟨S16384x512, .f32⟩ : BufTy).Contents (Elt F)),
    StableHlo.binary main_v255 main_v311 main_v312 (mulf : (⟨S16384x512, .f32⟩ : BufTy).Contents (Elt F) → (⟨S16384x512, .f32⟩ : BufTy).Contents (Elt F) → (⟨S16384x512, .f32⟩ : BufTy).Contents (Elt F)),
    StableHlo.binary main_v312 main_v308 main_v313 (addf : (⟨S16384x512, .f32⟩ : BufTy).Contents (Elt F) → (⟨S16384x512, .f32⟩ : BufTy).Contents (Elt F) → (⟨S16384x512, .f32⟩ : BufTy).Contents (Elt F)),
    StableHlo.unary main_v310 main_v314 (broadcastInDim S1x512 ![1] bcast_S512_S1x512_1 : (⟨S512, .f32⟩ : BufTy).Contents (Elt F) → (⟨S1x512, .f32⟩ : BufTy).Contents (Elt F)),
    StableHlo.unary main_v314 main_v315 (broadcastInDim S16384x512 ![0, 1] bcast_S1x512_S16384x512_0_1 : (⟨S1x512, .f32⟩ : BufTy).Contents (Elt F) → (⟨S16384x512, .f32⟩ : BufTy).Contents (Elt F)),
    StableHlo.binary main_v315 main_v313 main_v316 (mulf : (⟨S16384x512, .f32⟩ : BufTy).Contents (Elt F) → (⟨S16384x512, .f32⟩ : BufTy).Contents (Elt F) → (⟨S16384x512, .f32⟩ : BufTy).Contents (Elt F)),
    StableHlo.binary main_v263 main_v316 main_v317 (addf : (⟨S16384x512, .f32⟩ : BufTy).Contents (Elt F) → (⟨S16384x512, .f32⟩ : BufTy).Contents (Elt F) → (⟨S16384x512, .f32⟩ : BufTy).Contents (Elt F)),
    StableHlo.nullary main_cst_21 (constant S_ .f32 0x00000000#32),
    StableHlo.binary main_v286 main_cst_21 main_v318 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v260 main_v318 main_v319 (addf : (⟨S16384, .f32⟩ : BufTy).Contents (Elt F) → (⟨S16384, .f32⟩ : BufTy).Contents (Elt F) → (⟨S16384, .f32⟩ : BufTy).Contents (Elt F)) ]

/-- The buffers pc08's operations write, in order. -/
abbrev pc08_W : List (Ref sig .tc) :=
  [main_v280, main_v281, main_cst_18, main_v282, main_v283, main_v284, main_v285, main_v286, main_v287, main_v288, main_v289, main_v290, main_v291, main_v292, main_v293, main_v294, main_call10_cst, main_call10_v0, main_v295, main_v296, main_v297, main_v298, main_v299, main_v300, main_v301, main_v302, main_v303, main_cst_19, main_v304, main_v305, main_v306, main_v307, main_v308, main_cst_20, main_v309, main_v310, main_v311, main_v312, main_v313, main_v314, main_v315, main_v316, main_v317, main_cst_21, main_v318, main_v319]

set_option maxRecDepth 8192 in
theorem pc08_sub : (pc08 : List (HloOp τ sig (Elt F))).Forall fun op => op.bufs ⊆ tcRefs τ sig :=
  ⟨binary_bufs_sub .., unary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., binary_bufs_sub ..⟩
set_option maxRecDepth 8192 in
theorem pc08_fresh : (pc08 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc08_writes : (pc08 : List (HloOp τ sig (Elt F))).Forall fun op => op.writes ⊆ (pc08_W.map (Proc.devRef (τ := τ) .tc)).toFinset :=
  ⟨writes_sub_of_mem (y := main_v280) (by decide), writes_sub_of_mem (y := main_v281) (by decide), writes_sub_of_mem (y := main_cst_18) (by decide), writes_sub_of_mem (y := main_v282) (by decide), writes_sub_of_mem (y := main_v283) (by decide), writes_sub_of_mem (y := main_v284) (by decide), writes_sub_of_mem (y := main_v285) (by decide), writes_sub_of_mem (y := main_v286) (by decide), writes_sub_of_mem (y := main_v287) (by decide), writes_sub_of_mem (y := main_v288) (by decide), writes_sub_of_mem (y := main_v289) (by decide), writes_sub_of_mem (y := main_v290) (by decide), writes_sub_of_mem (y := main_v291) (by decide), writes_sub_of_mem (y := main_v292) (by decide), writes_sub_of_mem (y := main_v293) (by decide), writes_sub_of_mem (y := main_v294) (by decide), writes_sub_of_mem (y := main_call10_cst) (by decide), writes_sub_of_mem (y := main_call10_v0) (by decide), writes_sub_of_mem (y := main_v295) (by decide), writes_sub_of_mem (y := main_v296) (by decide), writes_sub_of_mem (y := main_v297) (by decide), writes_sub_of_mem (y := main_v298) (by decide), writes_sub_of_mem (y := main_v299) (by decide), writes_sub_of_mem (y := main_v300) (by decide), writes_sub_of_mem (y := main_v301) (by decide), writes_sub_of_mem (y := main_v302) (by decide), writes_sub_of_mem (y := main_v303) (by decide), writes_sub_of_mem (y := main_cst_19) (by decide), writes_sub_of_mem (y := main_v304) (by decide), writes_sub_of_mem (y := main_v305) (by decide), writes_sub_of_mem (y := main_v306) (by decide), writes_sub_of_mem (y := main_v307) (by decide), writes_sub_of_mem (y := main_v308) (by decide), writes_sub_of_mem (y := main_cst_20) (by decide), writes_sub_of_mem (y := main_v309) (by decide), writes_sub_of_mem (y := main_v310) (by decide), writes_sub_of_mem (y := main_v311) (by decide), writes_sub_of_mem (y := main_v312) (by decide), writes_sub_of_mem (y := main_v313) (by decide), writes_sub_of_mem (y := main_v314) (by decide), writes_sub_of_mem (y := main_v315) (by decide), writes_sub_of_mem (y := main_v316) (by decide), writes_sub_of_mem (y := main_v317) (by decide), writes_sub_of_mem (y := main_cst_21) (by decide), writes_sub_of_mem (y := main_v318) (by decide), writes_sub_of_mem (y := main_v319) (by decide)⟩

/-- @main's statements 345 … 360 (from '%cst_22 = stablehlo.constant dense<1.000000e+00>' to '%334 = stablehlo.reshape %333'): 16 operations, a called function's standing in its call's place. -/
abbrev pc09 : List (HloOp τ sig (Elt F)) :=
  [ StableHlo.nullary main_cst_22 (constant S_ .f32 0x3F800000#32),
    StableHlo.unary main_cst_22 main_v320 (broadcastInDim S512 ![] bcast_S_S512 : (⟨S_, .f32⟩ : BufTy).Contents (Elt F) → (⟨S512, .f32⟩ : BufTy).Contents (Elt F)),
    StableHlo.binary main_v320 main_v13 main_v321 (subf : (⟨S512, .f32⟩ : BufTy).Contents (Elt F) → (⟨S512, .f32⟩ : BufTy).Contents (Elt F) → (⟨S512, .f32⟩ : BufTy).Contents (Elt F)),
    StableHlo.unary main_arg1 main_v322 ((extractStridedSlice S1x512 ![3, 0] · slices_S8x512_S1x512_3_0) : (⟨S8x512, .f32⟩ : BufTy).Contents (Elt F) → (⟨S1x512, .f32⟩ : BufTy).Contents (Elt F)),
    StableHlo.reshape main_v322 main_v323 rfl shapeCasts_S1x512_S512,
    StableHlo.unary main_v323 main_v324 (Host.exp : (⟨S512, .f32⟩ : BufTy).Contents (Elt F) → (⟨S512, .f32⟩ : BufTy).Contents (Elt F)),
    StableHlo.unary main_v324 main_v325 (broadcastInDim S1x512 ![1] bcast_S512_S1x512_1 : (⟨S512, .f32⟩ : BufTy).Contents (Elt F) → (⟨S1x512, .f32⟩ : BufTy).Contents (Elt F)),
    StableHlo.unary main_v325 main_v326 (broadcastInDim S16384x512 ![0, 1] bcast_S1x512_S16384x512_0_1 : (⟨S1x512, .f32⟩ : BufTy).Contents (Elt F) → (⟨S16384x512, .f32⟩ : BufTy).Contents (Elt F)),
    StableHlo.binary main_v326 main_v317 main_v327 (mulf : (⟨S16384x512, .f32⟩ : BufTy).Contents (Elt F) → (⟨S16384x512, .f32⟩ : BufTy).Contents (Elt F) → (⟨S16384x512, .f32⟩ : BufTy).Contents (Elt F)),
    StableHlo.unary main_arg2 main_v328 ((extractStridedSlice S1x512 ![3, 0] · slices_S8x512_S1x512_3_0) : (⟨S8x512, .f32⟩ : BufTy).Contents (Elt F) → (⟨S1x512, .f32⟩ : BufTy).Contents (Elt F)),
    StableHlo.reshape main_v328 main_v329 rfl shapeCasts_S1x512_S512,
    StableHlo.unary main_v329 main_v330 (broadcastInDim S1x512 ![1] bcast_S512_S1x512_1 : (⟨S512, .f32⟩ : BufTy).Contents (Elt F) → (⟨S1x512, .f32⟩ : BufTy).Contents (Elt F)),
    StableHlo.unary main_v330 main_v331 (broadcastInDim S16384x512 ![0, 1] bcast_S1x512_S16384x512_0_1 : (⟨S1x512, .f32⟩ : BufTy).Contents (Elt F) → (⟨S16384x512, .f32⟩ : BufTy).Contents (Elt F)),
    StableHlo.binary main_v327 main_v331 main_v332 (addf : (⟨S16384x512, .f32⟩ : BufTy).Contents (Elt F) → (⟨S16384x512, .f32⟩ : BufTy).Contents (Elt F) → (⟨S16384x512, .f32⟩ : BufTy).Contents (Elt F)),
    StableHlo.unary main_arg1 main_v333 ((extractStridedSlice S1x512 ![3, 0] · slices_S8x512_S1x512_3_0) : (⟨S8x512, .f32⟩ : BufTy).Contents (Elt F) → (⟨S1x512, .f32⟩ : BufTy).Contents (Elt F)),
    StableHlo.reshape main_v333 main_v334 rfl shapeCasts_S1x512_S512 ]

/-- The buffers pc09's operations write, in order. -/
abbrev pc09_W : List (Ref sig .tc) :=
  [main_cst_22, main_v320, main_v321, main_v322, main_v323, main_v324, main_v325, main_v326, main_v327, main_v328, main_v329, main_v330, main_v331, main_v332, main_v333, main_v334]

set_option maxRecDepth 8192 in
theorem pc09_sub : (pc09 : List (HloOp τ sig (Elt F))).Forall fun op => op.bufs ⊆ tcRefs τ sig :=
  ⟨nullary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub ..⟩
set_option maxRecDepth 8192 in
theorem pc09_fresh : (pc09 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem pc09_writes : (pc09 : List (HloOp τ sig (Elt F))).Forall fun op => op.writes ⊆ (pc09_W.map (Proc.devRef (τ := τ) .tc)).toFinset :=
  ⟨writes_sub_of_mem (y := main_cst_22) (by decide), writes_sub_of_mem (y := main_v320) (by decide), writes_sub_of_mem (y := main_v321) (by decide), writes_sub_of_mem (y := main_v322) (by decide), writes_sub_of_mem (y := main_v323) (by decide), writes_sub_of_mem (y := main_v324) (by decide), writes_sub_of_mem (y := main_v325) (by decide), writes_sub_of_mem (y := main_v326) (by decide), writes_sub_of_mem (y := main_v327) (by decide), writes_sub_of_mem (y := main_v328) (by decide), writes_sub_of_mem (y := main_v329) (by decide), writes_sub_of_mem (y := main_v330) (by decide), writes_sub_of_mem (y := main_v331) (by decide), writes_sub_of_mem (y := main_v332) (by decide), writes_sub_of_mem (y := main_v333) (by decide), writes_sub_of_mem (y := main_v334) (by decide)⟩

set_option maxRecDepth 16384 in
set_option maxHeartbeats 4000000 in
/-- The window is the straight line of its operations: the called functions unfold at their calls, and sequencing reassociates. -/
theorem main_part5_eq (c : Dev nD) : main_part5 (F := F) c = seq (pc08 ++ (pc09)) := by
  rfl

end Cert.ReferenceIdeal.RunHand

end
-- ==== Proof.RefRun06.lean ====
/- The reference program's window main_part6 (statements 361 … 420 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 361 … 420 (from '%cst_23 = stablehlo.constant dense<0.000000e+00>' to '%391 = stablehlo.reshape %390'): 74 operations, a called function's standing in its call's place. -/
abbrev pc10 : List (HloOp τ sig (Elt F)) :=
  [ StableHlo.nullary main_cst_23 (constant S_ .f32 0x00000000#32),
    StableHlo.binary main_v334 main_cst_23 main_v335 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v335 main_v336 (broadcastInDim S16384 ![] bcast_S_S16384 : (⟨S_, .f32⟩ : BufTy).Contents (Elt F) → (⟨S16384, .f32⟩ : BufTy).Contents (Elt F)),
    StableHlo.binary main_v319 main_v336 main_v337 (addf : (⟨S16384, .f32⟩ : BufTy).Contents (Elt F) → (⟨S16384, .f32⟩ : BufTy).Contents (Elt F) → (⟨S16384, .f32⟩ : BufTy).Contents (Elt F)),
    StableHlo.unary main_arg4 main_v338 ((extractStridedSlice S1x512x512 ![3, 0, 0] · slices_S8x512x512_S1x512x512_3_0_0) : (⟨S8x512x512, .f32⟩ : BufTy).Contents (Elt F) → (⟨S1x512x512, .f32⟩ : BufTy).Contents (Elt F)),
    StableHlo.reshape main_v338 main_v339 rfl shapeCasts_S1x512x512_S512x512,
    StableHlo.binary main_v339 main_v7 main_v340 (mulf : (⟨S512x512, .f32⟩ : BufTy).Contents (Elt F) → (⟨S512x512, .f32⟩ : BufTy).Contents (Elt F) → (⟨S512x512, .f32⟩ : BufTy).Contents (Elt F)),
    StableHlo.binary main_v340 main_v5 main_v341 (addf : (⟨S512x512, .f32⟩ : BufTy).Contents (Elt F) → (⟨S512x512, .f32⟩ : BufTy).Contents (Elt F) → (⟨S512x512, .f32⟩ : BufTy).Contents (Elt F)),
    StableHlo.unary main_arg5 main_v342 ((extractStridedSlice S1x512x512 ![3, 0, 0] · slices_S8x512x512_S1x512x512_3_0_0) : (⟨S8x512x512, .f32⟩ : BufTy).Contents (Elt F) → (⟨S1x512x512, .f32⟩ : BufTy).Contents (Elt F)),
    StableHlo.reshape main_v342 main_v343 rfl shapeCasts_S1x512x512_S512x512,
    StableHlo.binary main_v343 main_v8 main_v344 (mulf : (⟨S512x512, .f32⟩ : BufTy).Contents (Elt F) → (⟨S512x512, .f32⟩ : BufTy).Contents (Elt F) → (⟨S512x512, .f32⟩ : BufTy).Contents (Elt F)),
    StableHlo.unary main_arg6 main_v345 ((extractStridedSlice S1x512 ![3, 0] · slices_S8x512_S1x512_3_0) : (⟨S8x512, .f32⟩ : BufTy).Contents (Elt F) → (⟨S1x512, .f32⟩ : BufTy).Contents (Elt F)),
    StableHlo.reshape main_v345 main_v346 rfl shapeCasts_S1x512_S512,
    StableHlo.unary main_arg7 main_v347 ((extractStridedSlice S1x512 ![3, 0] · slices_S8x512_S1x512_3_0) : (⟨S8x512, .f32⟩ : BufTy).Contents (Elt F) → (⟨S1x512, .f32⟩ : BufTy).Contents (Elt F)),
    StableHlo.reshape main_v347 main_v348 rfl shapeCasts_S1x512_S512,
    StableHlo.unary main_v348 main_v349 (Host.exp : (⟨S512, .f32⟩ : BufTy).Contents (Elt F) → (⟨S512, .f32⟩ : BufTy).Contents (Elt F)),
    StableHlo.binary main_v346 main_v349 main_v350 (mulf : (⟨S512, .f32⟩ : BufTy).Contents (Elt F) → (⟨S512, .f32⟩ : BufTy).Contents (Elt F) → (⟨S512, .f32⟩ : BufTy).Contents (Elt F)),
    StableHlo.TRef.nullary (StableHlo.TRef.of (T := ⟨S_, .f32⟩) main_call11_cst) (constant S_ .f32 0x00000000#32),
    StableHlo.TRef.binary (StableHlo.TRef.of (T := ⟨S512, .f32⟩) main_v350) (StableHlo.TRef.of (T := ⟨S_, .f32⟩) main_call11_cst) (StableHlo.TRef.of (T := ⟨S512, .f32⟩) main_call11_v0) (fun x v => pad S512 ![0] ![0] ![0] x v pads_S512_S512_000 h_S_),
    StableHlo.TRef.nullary (StableHlo.TRef.of (T := ⟨S512x512, .i32⟩) main_call11_v1) (iotaInDim S512x512 32 0),
    StableHlo.TRef.nullary (StableHlo.TRef.of (T := ⟨S512x512, .i32⟩) main_call11_v2) (iotaInDim S512x512 32 1),
    StableHlo.TRef.nullary (StableHlo.TRef.of (T := ⟨S_, .i32⟩) main_call11_c) (constantI S_ 32 0#32),
    StableHlo.TRef.unary (StableHlo.TRef.of (T := ⟨S_, .i32⟩) main_call11_c) (StableHlo.TRef.of (T := ⟨S512x512, .i32⟩) main_call11_v3) (broadcastInDim S512x512 ![] bcast_S_S512x512),
    StableHlo.TRef.binary (StableHlo.TRef.of (T := ⟨S512x512, .i32⟩) main_call11_v1) (StableHlo.TRef.of (T := ⟨S512x512, .i32⟩) main_call11_v3) (StableHlo.TRef.of (T := ⟨S512x512, .i32⟩) main_call11_v4) addi,
    StableHlo.TRef.binary (StableHlo.TRef.of (T := ⟨S512x512, .i32⟩) main_call11_v4) (StableHlo.TRef.of (T := ⟨S512x512, .i32⟩) main_call11_v2) (StableHlo.TRef.of (T := ⟨S512x512, .i1⟩) main_call11_v5) (cmpi .eq),
    StableHlo.TRef.unary (StableHlo.TRef.of (T := ⟨S512, .f32⟩) main_call11_v0) (StableHlo.TRef.of (T := ⟨S512x1, .f32⟩) main_call11_v6) (broadcastInDim S512x1 ![0] bcast_S512_S512x1_0),
    StableHlo.TRef.nullary (StableHlo.TRef.of (T := ⟨S_, .f32⟩) main_call11_cst_0) (constant S_ .f32 0x00000000#32),
    StableHlo.TRef.unary (StableHlo.TRef.of (T := ⟨S512x1, .f32⟩) main_call11_v6) (StableHlo.TRef.of (T := ⟨S512x512, .f32⟩) main_call11_call0_v0) (broadcastInDim S512x512 ![0, 1] bcast_S512x1_S512x512_0_1),
    StableHlo.TRef.unary (StableHlo.TRef.of (T := ⟨S_, .f32⟩) main_call11_cst_0) (StableHlo.TRef.of (T := ⟨S512x512, .f32⟩) main_call11_call0_v1) (broadcastInDim S512x512 ![] bcast_S_S512x512),
    StableHlo.TRef.ternary (StableHlo.TRef.of (T := ⟨S512x512, .i1⟩) main_call11_v5) (StableHlo.TRef.of (T := ⟨S512x512, .f32⟩) main_call11_call0_v0) (StableHlo.TRef.of (T := ⟨S512x512, .f32⟩) main_call11_call0_v1) (StableHlo.TRef.of (T := ⟨S512x512, .f32⟩) main_v351) select,
    StableHlo.binary main_v344 main_v351 main_v352 (addf : (⟨S512x512, .f32⟩ : BufTy).Contents (Elt F) → (⟨S512x512, .f32⟩ : BufTy).Contents (Elt F) → (⟨S512x512, .f32⟩ : BufTy).Contents (Elt F)),
    StableHlo.unary main_arg3 main_v353 ((extractStridedSlice S1x512x512 ![3, 0, 0] · slices_S8x512x512_S1x512x512_3_0_0) : (⟨S8x512x512, .f32⟩ : BufTy).Contents (Elt F) → (⟨S1x512x512, .f32⟩ : BufTy).Contents (Elt F)),
    StableHlo.reshape main_v353 main_v354 rfl shapeCasts_S1x512x512_S512x512,
    StableHlo.binary main_v354 main_v341 main_v355 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.binary main_v355 main_v352 main_v356 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_v356 main_v357 ((transpose S512x512 [1, 0] · transposes_S512x512_S512x512_1_0) : (⟨S512x512, .f32⟩ : BufTy).Contents (Elt F) → (⟨S512x512, .f32⟩ : BufTy).Contents (Elt F)),
    StableHlo.binary main_v332 main_v357 main_v358 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg7 main_v359 ((extractStridedSlice S1x512 ![3, 0] · slices_S8x512_S1x512_3_0) : (⟨S8x512, .f32⟩ : BufTy).Contents (Elt F) → (⟨S1x512, .f32⟩ : BufTy).Contents (Elt F)),
    StableHlo.reshape main_v359 main_v360 rfl shapeCasts_S1x512_S512,
    StableHlo.nullary main_cst_24 (constant S_ .f32 0x00000000#32),
    StableHlo.binary main_v360 main_cst_24 main_v361 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v361 main_v362 (broadcastInDim S16384 ![] bcast_S_S16384 : (⟨S_, .f32⟩ : BufTy).Contents (Elt F) → (⟨S16384, .f32⟩ : BufTy).Contents (Elt F)),
    StableHlo.binary main_v337 main_v362 main_v363 (addf : (⟨S16384, .f32⟩ : BufTy).Contents (Elt F) → (⟨S16384, .f32⟩ : BufTy).Contents (Elt F) → (⟨S16384, .f32⟩ : BufTy).Contents (Elt F)),
    StableHlo.unary main_v321 main_v364 (broadcastInDim S1x512 ![1] bcast_S512_S1x512_1 : (⟨S512, .f32⟩ : BufTy).Contents (Elt F) → (⟨S1x512, .f32⟩ : BufTy).Contents (Elt F)),
    StableHlo.unary main_v364 main_v365 (broadcastInDim S16384x512 ![0, 1] bcast_S1x512_S16384x512_0_1 : (⟨S1x512, .f32⟩ : BufTy).Contents (Elt F) → (⟨S16384x512, .f32⟩ : BufTy).Contents (Elt F)),
    StableHlo.binary main_v365 main_v358 main_v366 (mulf : (⟨S16384x512, .f32⟩ : BufTy).Contents (Elt F) → (⟨S16384x512, .f32⟩ : BufTy).Contents (Elt F) → (⟨S16384x512, .f32⟩ : BufTy).Contents (Elt F)),
    StableHlo.unary main_arg8 main_v367 ((extractStridedSlice S1x512x1024 ![3, 0, 0] · slices_S8x512x1024_S1x512x1024_3_0_0) : (⟨S8x512x1024, .f32⟩ : BufTy).Contents (Elt F) → (⟨S1x512x1024, .f32⟩ : BufTy).Contents (Elt F)),
    StableHlo.reshape main_v367 main_v368 rfl shapeCasts_S1x512x1024_S512x1024,
    StableHlo.binary main_v366 main_v368 main_v369 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg9 main_v370 ((extractStridedSlice S1x1024 ![3, 0] · slices_S8x1024_S1x1024_3_0) : (⟨S8x1024, .f32⟩ : BufTy).Contents (Elt F) → (⟨S1x1024, .f32⟩ : BufTy).Contents (Elt F)),
    StableHlo.reshape main_v370 main_v371 rfl shapeCasts_S1x1024_S1024,
    StableHlo.unary main_v371 main_v372 (broadcastInDim S1x1024 ![1] bcast_S1024_S1x1024_1 : (⟨S1024, .f32⟩ : BufTy).Contents (Elt F) → (⟨S1x1024, .f32⟩ : BufTy).Contents (Elt F)),
    StableHlo.unary main_v372 main_v373 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v369 main_v373 main_v374 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call12_cst) (constant S_ .f32 0x00000000#32),
    StableHlo.TRef.unary (StableHlo.TRef.of (T := ⟨S_, .f32⟩) main_call12_cst) (StableHlo.TRef.of (T := ⟨S16384x1024, .f32⟩) main_call12_v0) (broadcastInDim S16384x1024 ![] bcast_S_S16384x1024),
    StableHlo.TRef.binary (StableHlo.TRef.of (T := ⟨S16384x1024, .f32⟩) main_v374) (StableHlo.TRef.of (T := ⟨S16384x1024, .f32⟩) main_call12_v0) (StableHlo.TRef.of (T := ⟨S16384x1024, .f32⟩) main_v375) maximumf,
    StableHlo.unary main_arg10 main_v376 ((extractStridedSlice S1x1024x512 ![3, 0, 0] · slices_S8x1024x512_S1x1024x512_3_0_0) : (⟨S8x1024x512, .f32⟩ : BufTy).Contents (Elt F) → (⟨S1x1024x512, .f32⟩ : BufTy).Contents (Elt F)),
    StableHlo.reshape main_v376 main_v377 rfl shapeCasts_S1x1024x512_S1024x512,
    StableHlo.binary main_v375 main_v377 main_v378 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg11 main_v379 ((extractStridedSlice S1x512 ![3, 0] · slices_S8x512_S1x512_3_0) : (⟨S8x512, .f32⟩ : BufTy).Contents (Elt F) → (⟨S1x512, .f32⟩ : BufTy).Contents (Elt F)),
    StableHlo.reshape main_v379 main_v380 rfl shapeCasts_S1x512_S512,
    StableHlo.unary main_v380 main_v381 (broadcastInDim S1x512 ![1] bcast_S512_S1x512_1 : (⟨S512, .f32⟩ : BufTy).Contents (Elt F) → (⟨S1x512, .f32⟩ : BufTy).Contents (Elt F)),
    StableHlo.unary main_v381 main_v382 (broadcastInDim S16384x512 ![0, 1] bcast_S1x512_S16384x512_0_1 : (⟨S1x512, .f32⟩ : BufTy).Contents (Elt F) → (⟨S16384x512, .f32⟩ : BufTy).Contents (Elt F)),
    StableHlo.binary main_v378 main_v382 main_v383 (addf : (⟨S16384x512, .f32⟩ : BufTy).Contents (Elt F) → (⟨S16384x512, .f32⟩ : BufTy).Contents (Elt F) → (⟨S16384x512, .f32⟩ : BufTy).Contents (Elt F)),
    StableHlo.unary main_v383 main_v384 (Host.tanh : (⟨S16384x512, .f32⟩ : BufTy).Contents (Elt F) → (⟨S16384x512, .f32⟩ : BufTy).Contents (Elt F)),
    StableHlo.nullary main_cst_25 (constant S_ .f32 0x3F800000#32),
    StableHlo.unary main_cst_25 main_v385 (broadcastInDim S512 ![] bcast_S_S512 : (⟨S_, .f32⟩ : BufTy).Contents (Elt F) → (⟨S512, .f32⟩ : BufTy).Contents (Elt F)),
    StableHlo.binary main_v385 main_v321 main_v386 (subf : (⟨S512, .f32⟩ : BufTy).Contents (Elt F) → (⟨S512, .f32⟩ : BufTy).Contents (Elt F) → (⟨S512, .f32⟩ : BufTy).Contents (Elt F)),
    StableHlo.unary main_v386 main_v387 (broadcastInDim S1x512 ![1] bcast_S512_S1x512_1 : (⟨S512, .f32⟩ : BufTy).Contents (Elt F) → (⟨S1x512, .f32⟩ : BufTy).Contents (Elt F)),
    StableHlo.unary main_v387 main_v388 (broadcastInDim S16384x512 ![0, 1] bcast_S1x512_S16384x512_0_1 : (⟨S1x512, .f32⟩ : BufTy).Contents (Elt F) → (⟨S16384x512, .f32⟩ : BufTy).Contents (Elt F)),
    StableHlo.binary main_v384 main_v388 main_v389 (mulf : (⟨S16384x512, .f32⟩ : BufTy).Contents (Elt F) → (⟨S16384x512, .f32⟩ : BufTy).Contents (Elt F) → (⟨S16384x512, .f32⟩ : BufTy).Contents (Elt F)),
    StableHlo.unary main_arg12 main_v390 ((extractStridedSlice S1x512x1024 ![3, 0, 0] · slices_S8x512x1024_S1x512x1024_3_0_0) : (⟨S8x512x1024, .f32⟩ : BufTy).Contents (Elt F) → (⟨S1x512x1024, .f32⟩ : BufTy).Contents (Elt F)),
    StableHlo.reshape main_v390 main_v391 rfl shapeCasts_S1x512x1024_S512x1024 ]

/-- The buffers pc10's operations write, in order. -/
abbrev pc10_W : List (Ref sig .tc) :=
  [main_cst_23, main_v335, main_v336, main_v337, main_v338, main_v339, main_v340, main_v341, main_v342, main_v343, main_v344, main_v345, main_v346, main_v347, main_v348, main_v349, main_v350, main_call11_cst, main_call11_v0, main_call11_v1, main_call11_v2, main_call11_c, main_call11_v3, main_call11_v4, main_call11_v5, main_call11_v6, main_call11_cst_0, main_call11_call0_v0, main_call11_call0_v1, main_v351, main_v352, main_v353, main_v354, main_v355, main_v356, main_v357, main_v358, main_v359, main_v360, main_cst_24, main_v361, main_v362, main_v363, main_v364, main_v365, main_v366, main_v367, main_v368, main_v369, main_v370, main_v371, main_v372, main_v373, main_v374, main_call12_cst, main_call12_v0, main_v375, main_v376, main_v377, main_v378, main_v379, main_v380, main_v381, main_v382, main_v383, main_v384, main_cst_25, main_v385, main_v386, main_v387, main_v388, main_v389, main_v390, main_v391]

set_option maxRecDepth 8192 in
theorem pc10_sub : (pc10 : List (HloOp τ sig (Elt F))).Forall fun op => op.bufs ⊆ tcRefs τ sig :=
  ⟨nullary_bufs_sub .., binary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., reshape_bufs_sub .., binary_bufs_sub .., binary_bufs_sub .., unary_bufs_sub .., binary_bufs_sub .., unary_bufs_sub .., reshape_bufs_sub .., nullary_bufs_sub .., binary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., reshape_bufs_sub ..⟩
set_option maxRecDepth 8192 in
theorem pc10_fresh : (pc10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc10_writes : (pc10 : List (HloOp τ sig (Elt F))).Forall fun op => op.writes ⊆ (pc10_W.map (Proc.devRef (τ := τ) .tc)).toFinset :=
  ⟨writes_sub_of_mem (y := main_cst_23) (by decide), writes_sub_of_mem (y := main_v335) (by decide), writes_sub_of_mem (y := main_v336) (by decide), writes_sub_of_mem (y := main_v337) (by decide), writes_sub_of_mem (y := main_v338) (by decide), writes_sub_of_mem (y := main_v339) (by decide), writes_sub_of_mem (y := main_v340) (by decide), writes_sub_of_mem (y := main_v341) (by decide), writes_sub_of_mem (y := main_v342) (by decide), writes_sub_of_mem (y := main_v343) (by decide), writes_sub_of_mem (y := main_v344) (by decide), writes_sub_of_mem (y := main_v345) (by decide), writes_sub_of_mem (y := main_v346) (by decide), writes_sub_of_mem (y := main_v347) (by decide), writes_sub_of_mem (y := main_v348) (by decide), writes_sub_of_mem (y := main_v349) (by decide), writes_sub_of_mem (y := main_v350) (by decide), writes_sub_of_mem (y := main_call11_cst) (by decide), writes_sub_of_mem (y := main_call11_v0) (by decide), writes_sub_of_mem (y := main_call11_v1) (by decide), writes_sub_of_mem (y := main_call11_v2) (by decide), writes_sub_of_mem (y := main_call11_c) (by decide), writes_sub_of_mem (y := main_call11_v3) (by decide), writes_sub_of_mem (y := main_call11_v4) (by decide), writes_sub_of_mem (y := main_call11_v5) (by decide), writes_sub_of_mem (y := main_call11_v6) (by decide), writes_sub_of_mem (y := main_call11_cst_0) (by decide), writes_sub_of_mem (y := main_call11_call0_v0) (by decide), writes_sub_of_mem (y := main_call11_call0_v1) (by decide), writes_sub_of_mem (y := main_v351) (by decide), writes_sub_of_mem (y := main_v352) (by decide), writes_sub_of_mem (y := main_v353) (by decide), writes_sub_of_mem (y := main_v354) (by decide), writes_sub_of_mem (y := main_v355) (by decide), writes_sub_of_mem (y := main_v356) (by decide), writes_sub_of_mem (y := main_v357) (by decide), writes_sub_of_mem (y := main_v358) (by decide), writes_sub_of_mem (y := main_v359) (by decide), writes_sub_of_mem (y := main_v360) (by decide), writes_sub_of_mem (y := main_cst_24) (by decide), writes_sub_of_mem (y := main_v361) (by decide), writes_sub_of_mem (y := main_v362) (by decide), writes_sub_of_mem (y := main_v363) (by decide), writes_sub_of_mem (y := main_v364) (by decide), writes_sub_of_mem (y := main_v365) (by decide), writes_sub_of_mem (y := main_v366) (by decide), writes_sub_of_mem (y := main_v367) (by decide), writes_sub_of_mem (y := main_v368) (by decide), writes_sub_of_mem (y := main_v369) (by decide), writes_sub_of_mem (y := main_v370) (by decide), writes_sub_of_mem (y := main_v371) (by decide), writes_sub_of_mem (y := main_v372) (by decide), writes_sub_of_mem (y := main_v373) (by decide), writes_sub_of_mem (y := main_v374) (by decide), writes_sub_of_mem (y := main_call12_cst) (by decide), writes_sub_of_mem (y := main_call12_v0) (by decide), writes_sub_of_mem (y := main_v375) (by decide), writes_sub_of_mem (y := main_v376) (by decide), writes_sub_of_mem (y := main_v377) (by decide), writes_sub_of_mem (y := main_v378) (by decide), writes_sub_of_mem (y := main_v379) (by decide), writes_sub_of_mem (y := main_v380) (by decide), writes_sub_of_mem (y := main_v381) (by decide), writes_sub_of_mem (y := main_v382) (by decide), writes_sub_of_mem (y := main_v383) (by decide), writes_sub_of_mem (y := main_v384) (by decide), writes_sub_of_mem (y := main_cst_25) (by decide), writes_sub_of_mem (y := main_v385) (by decide), writes_sub_of_mem (y := main_v386) (by decide), writes_sub_of_mem (y := main_v387) (by decide), writes_sub_of_mem (y := main_v388) (by decide), writes_sub_of_mem (y := main_v389) (by decide), writes_sub_of_mem (y := main_v390) (by decide), writes_sub_of_mem (y := main_v391) (by decide)⟩

set_option maxRecDepth 16384 in
set_option maxHeartbeats 4000000 in
/-- The window is the straight line of its operations: the called functions unfold at their calls, and sequencing reassociates. -/
theorem main_part6_eq (c : Dev nD) : main_part6 (F := F) c = seq (pc10) := by
  rfl

end Cert.ReferenceIdeal.RunHand

end
-- ==== Proof.RefRun07.lean ====
/- The reference program's window main_part7 (statements 421 … 480 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 421 … 454 (from '%392 = stablehlo.dot_general %366, %391, contracting_dims = [1] x [0], precision = [DEFAULT, DEFAULT]' to '%422 = stablehlo.add %363, %421'): 36 operations, a called function's standing in its call's place. -/
abbrev pc11 : List (HloOp τ sig (Elt F)) :=
  [ StableHlo.binary main_v366 main_v391 main_v392 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg13 main_v393 ((extractStridedSlice S1x1024 ![3, 0] · slices_S8x1024_S1x1024_3_0) : (⟨S8x1024, .f32⟩ : BufTy).Contents (Elt F) → (⟨S1x1024, .f32⟩ : BufTy).Contents (Elt F)),
    StableHlo.reshape main_v393 main_v394 rfl shapeCasts_S1x1024_S1024,
    StableHlo.unary main_v394 main_v395 (broadcastInDim S1x1024 ![1] bcast_S1024_S1x1024_1 : (⟨S1024, .f32⟩ : BufTy).Contents (Elt F) → (⟨S1x1024, .f32⟩ : BufTy).Contents (Elt F)),
    StableHlo.unary main_v395 main_v396 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v392 main_v396 main_v397 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call13_cst) (constant S_ .f32 0x00000000#32),
    StableHlo.TRef.unary (StableHlo.TRef.of (T := ⟨S_, .f32⟩) main_call13_cst) (StableHlo.TRef.of (T := ⟨S16384x1024, .f32⟩) main_call13_v0) (broadcastInDim S16384x1024 ![] bcast_S_S16384x1024),
    StableHlo.TRef.binary (StableHlo.TRef.of (T := ⟨S16384x1024, .f32⟩) main_v397) (StableHlo.TRef.of (T := ⟨S16384x1024, .f32⟩) main_call13_v0) (StableHlo.TRef.of (T := ⟨S16384x1024, .f32⟩) main_v398) maximumf,
    StableHlo.unary main_arg14 main_v399 ((extractStridedSlice S1x1024x512 ![3, 0, 0] · slices_S8x1024x512_S1x1024x512_3_0_0) : (⟨S8x1024x512, .f32⟩ : BufTy).Contents (Elt F) → (⟨S1x1024x512, .f32⟩ : BufTy).Contents (Elt F)),
    StableHlo.reshape main_v399 main_v400 rfl shapeCasts_S1x1024x512_S1024x512,
    StableHlo.binary main_v398 main_v400 main_v401 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg15 main_v402 ((extractStridedSlice S1x512 ![3, 0] · slices_S8x512_S1x512_3_0) : (⟨S8x512, .f32⟩ : BufTy).Contents (Elt F) → (⟨S1x512, .f32⟩ : BufTy).Contents (Elt F)),
    StableHlo.reshape main_v402 main_v403 rfl shapeCasts_S1x512_S512,
    StableHlo.unary main_v403 main_v404 (broadcastInDim S1x512 ![1] bcast_S512_S1x512_1 : (⟨S512, .f32⟩ : BufTy).Contents (Elt F) → (⟨S1x512, .f32⟩ : BufTy).Contents (Elt F)),
    StableHlo.unary main_v404 main_v405 (broadcastInDim S16384x512 ![0, 1] bcast_S1x512_S16384x512_0_1 : (⟨S1x512, .f32⟩ : BufTy).Contents (Elt F) → (⟨S16384x512, .f32⟩ : BufTy).Contents (Elt F)),
    StableHlo.binary main_v401 main_v405 main_v406 (addf : (⟨S16384x512, .f32⟩ : BufTy).Contents (Elt F) → (⟨S16384x512, .f32⟩ : BufTy).Contents (Elt F) → (⟨S16384x512, .f32⟩ : BufTy).Contents (Elt F)),
    StableHlo.nullary main_cst_26 (constant S_ .f32 0x3F800000#32),
    StableHlo.unary main_cst_26 main_v407 (broadcastInDim S512 ![] bcast_S_S512 : (⟨S_, .f32⟩ : BufTy).Contents (Elt F) → (⟨S512, .f32⟩ : BufTy).Contents (Elt F)),
    StableHlo.binary main_v407 main_v321 main_v408 (subf : (⟨S512, .f32⟩ : BufTy).Contents (Elt F) → (⟨S512, .f32⟩ : BufTy).Contents (Elt F) → (⟨S512, .f32⟩ : BufTy).Contents (Elt F)),
    StableHlo.unary main_v408 main_v409 (broadcastInDim S1x512 ![1] bcast_S512_S1x512_1 : (⟨S512, .f32⟩ : BufTy).Contents (Elt F) → (⟨S1x512, .f32⟩ : BufTy).Contents (Elt F)),
    StableHlo.unary main_v409 main_v410 (broadcastInDim S16384x512 ![0, 1] bcast_S1x512_S16384x512_0_1 : (⟨S1x512, .f32⟩ : BufTy).Contents (Elt F) → (⟨S16384x512, .f32⟩ : BufTy).Contents (Elt F)),
    StableHlo.binary main_v406 main_v410 main_v411 (mulf : (⟨S16384x512, .f32⟩ : BufTy).Contents (Elt F) → (⟨S16384x512, .f32⟩ : BufTy).Contents (Elt F) → (⟨S16384x512, .f32⟩ : BufTy).Contents (Elt F)),
    StableHlo.nullary main_cst_27 (constant S_ .f32 0x3F800000#32),
    StableHlo.unary main_cst_27 main_v412 (broadcastInDim S512 ![] bcast_S_S512 : (⟨S_, .f32⟩ : BufTy).Contents (Elt F) → (⟨S512, .f32⟩ : BufTy).Contents (Elt F)),
    StableHlo.binary main_v412 main_v321 main_v413 (subf : (⟨S512, .f32⟩ : BufTy).Contents (Elt F) → (⟨S512, .f32⟩ : BufTy).Contents (Elt F) → (⟨S512, .f32⟩ : BufTy).Contents (Elt F)),
    StableHlo.unary main_v389 main_v414 (Host.exp : (⟨S16384x512, .f32⟩ : BufTy).Contents (Elt F) → (⟨S16384x512, .f32⟩ : BufTy).Contents (Elt F)),
    StableHlo.binary main_v358 main_v414 main_v415 (mulf : (⟨S16384x512, .f32⟩ : BufTy).Contents (Elt F) → (⟨S16384x512, .f32⟩ : BufTy).Contents (Elt F) → (⟨S16384x512, .f32⟩ : BufTy).Contents (Elt F)),
    StableHlo.binary main_v415 main_v411 main_v416 (addf : (⟨S16384x512, .f32⟩ : BufTy).Contents (Elt F) → (⟨S16384x512, .f32⟩ : BufTy).Contents (Elt F) → (⟨S16384x512, .f32⟩ : BufTy).Contents (Elt F)),
    StableHlo.unary main_v413 main_v417 (broadcastInDim S1x512 ![1] bcast_S512_S1x512_1 : (⟨S512, .f32⟩ : BufTy).Contents (Elt F) → (⟨S1x512, .f32⟩ : BufTy).Contents (Elt F)),
    StableHlo.unary main_v417 main_v418 (broadcastInDim S16384x512 ![0, 1] bcast_S1x512_S16384x512_0_1 : (⟨S1x512, .f32⟩ : BufTy).Contents (Elt F) → (⟨S16384x512, .f32⟩ : BufTy).Contents (Elt F)),
    StableHlo.binary main_v418 main_v416 main_v419 (mulf : (⟨S16384x512, .f32⟩ : BufTy).Contents (Elt F) → (⟨S16384x512, .f32⟩ : BufTy).Contents (Elt F) → (⟨S16384x512, .f32⟩ : BufTy).Contents (Elt F)),
    StableHlo.binary main_v366 main_v419 main_v420 (addf : (⟨S16384x512, .f32⟩ : BufTy).Contents (Elt F) → (⟨S16384x512, .f32⟩ : BufTy).Contents (Elt F) → (⟨S16384x512, .f32⟩ : BufTy).Contents (Elt F)),
    StableHlo.nullary main_cst_28 (constant S_ .f32 0x00000000#32),
    StableHlo.binary main_v389 main_cst_28 main_v421 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v363 main_v421 main_v422 (addf : (⟨S16384, .f32⟩ : BufTy).Contents (Elt F) → (⟨S16384, .f32⟩ : BufTy).Contents (Elt F) → (⟨S16384, .f32⟩ : BufTy).Contents (Elt F)) ]

/-- The buffers pc11's operations write, in order. -/
abbrev pc11_W : List (Ref sig .tc) :=
  [main_v392, main_v393, main_v394, main_v395, main_v396, main_v397, main_call13_cst, main_call13_v0, main_v398, main_v399, main_v400, main_v401, main_v402, main_v403, main_v404, main_v405, main_v406, main_cst_26, main_v407, main_v408, main_v409, main_v410, main_v411, main_cst_27, main_v412, main_v413, main_v414, main_v415, main_v416, main_v417, main_v418, main_v419, main_v420, main_cst_28, main_v421, main_v422]

set_option maxRecDepth 8192 in
theorem pc11_sub : (pc11 : List (HloOp τ sig (Elt F))).Forall fun op => op.bufs ⊆ tcRefs τ sig :=
  ⟨binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., binary_bufs_sub ..⟩
set_option maxRecDepth 8192 in
theorem pc11_fresh : (pc11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc11_writes : (pc11 : List (HloOp τ sig (Elt F))).Forall fun op => op.writes ⊆ (pc11_W.map (Proc.devRef (τ := τ) .tc)).toFinset :=
  ⟨writes_sub_of_mem (y := main_v392) (by decide), writes_sub_of_mem (y := main_v393) (by decide), writes_sub_of_mem (y := main_v394) (by decide), writes_sub_of_mem (y := main_v395) (by decide), writes_sub_of_mem (y := main_v396) (by decide), writes_sub_of_mem (y := main_v397) (by decide), writes_sub_of_mem (y := main_call13_cst) (by decide), writes_sub_of_mem (y := main_call13_v0) (by decide), writes_sub_of_mem (y := main_v398) (by decide), writes_sub_of_mem (y := main_v399) (by decide), writes_sub_of_mem (y := main_v400) (by decide), writes_sub_of_mem (y := main_v401) (by decide), writes_sub_of_mem (y := main_v402) (by decide), writes_sub_of_mem (y := main_v403) (by decide), writes_sub_of_mem (y := main_v404) (by decide), writes_sub_of_mem (y := main_v405) (by decide), writes_sub_of_mem (y := main_v406) (by decide), writes_sub_of_mem (y := main_cst_26) (by decide), writes_sub_of_mem (y := main_v407) (by decide), writes_sub_of_mem (y := main_v408) (by decide), writes_sub_of_mem (y := main_v409) (by decide), writes_sub_of_mem (y := main_v410) (by decide), writes_sub_of_mem (y := main_v411) (by decide), writes_sub_of_mem (y := main_cst_27) (by decide), writes_sub_of_mem (y := main_v412) (by decide), writes_sub_of_mem (y := main_v413) (by decide), writes_sub_of_mem (y := main_v414) (by decide), writes_sub_of_mem (y := main_v415) (by decide), writes_sub_of_mem (y := main_v416) (by decide), writes_sub_of_mem (y := main_v417) (by decide), writes_sub_of_mem (y := main_v418) (by decide), writes_sub_of_mem (y := main_v419) (by decide), writes_sub_of_mem (y := main_v420) (by decide), writes_sub_of_mem (y := main_cst_28) (by decide), writes_sub_of_mem (y := main_v421) (by decide), writes_sub_of_mem (y := main_v422) (by decide)⟩

/-- @main's statements 455 … 480 (from '%423 = stablehlo.slice %arg1 [4:5, 0:512]' to '%447 = stablehlo.reshape %446'): 26 operations, a called function's standing in its call's place. -/
abbrev pc12 : List (HloOp τ sig (Elt F)) :=
  [ StableHlo.unary main_arg1 main_v423 ((extractStridedSlice S1x512 ![4, 0] · slices_S8x512_S1x512_4_0) : (⟨S8x512, .f32⟩ : BufTy).Contents (Elt F) → (⟨S1x512, .f32⟩ : BufTy).Contents (Elt F)),
    StableHlo.reshape main_v423 main_v424 rfl shapeCasts_S1x512_S512,
    StableHlo.unary main_v424 main_v425 (Host.exp : (⟨S512, .f32⟩ : BufTy).Contents (Elt F) → (⟨S512, .f32⟩ : BufTy).Contents (Elt F)),
    StableHlo.unary main_v425 main_v426 (broadcastInDim S1x512 ![1] bcast_S512_S1x512_1 : (⟨S512, .f32⟩ : BufTy).Contents (Elt F) → (⟨S1x512, .f32⟩ : BufTy).Contents (Elt F)),
    StableHlo.unary main_v426 main_v427 (broadcastInDim S16384x512 ![0, 1] bcast_S1x512_S16384x512_0_1 : (⟨S1x512, .f32⟩ : BufTy).Contents (Elt F) → (⟨S16384x512, .f32⟩ : BufTy).Contents (Elt F)),
    StableHlo.binary main_v427 main_v420 main_v428 (mulf : (⟨S16384x512, .f32⟩ : BufTy).Contents (Elt F) → (⟨S16384x512, .f32⟩ : BufTy).Contents (Elt F) → (⟨S16384x512, .f32⟩ : BufTy).Contents (Elt F)),
    StableHlo.unary main_arg2 main_v429 ((extractStridedSlice S1x512 ![4, 0] · slices_S8x512_S1x512_4_0) : (⟨S8x512, .f32⟩ : BufTy).Contents (Elt F) → (⟨S1x512, .f32⟩ : BufTy).Contents (Elt F)),
    StableHlo.reshape main_v429 main_v430 rfl shapeCasts_S1x512_S512,
    StableHlo.unary main_v430 main_v431 (broadcastInDim S1x512 ![1] bcast_S512_S1x512_1 : (⟨S512, .f32⟩ : BufTy).Contents (Elt F) → (⟨S1x512, .f32⟩ : BufTy).Contents (Elt F)),
    StableHlo.unary main_v431 main_v432 (broadcastInDim S16384x512 ![0, 1] bcast_S1x512_S16384x512_0_1 : (⟨S1x512, .f32⟩ : BufTy).Contents (Elt F) → (⟨S16384x512, .f32⟩ : BufTy).Contents (Elt F)),
    StableHlo.binary main_v428 main_v432 main_v433 (addf : (⟨S16384x512, .f32⟩ : BufTy).Contents (Elt F) → (⟨S16384x512, .f32⟩ : BufTy).Contents (Elt F) → (⟨S16384x512, .f32⟩ : BufTy).Contents (Elt F)),
    StableHlo.unary main_arg1 main_v434 ((extractStridedSlice S1x512 ![4, 0] · slices_S8x512_S1x512_4_0) : (⟨S8x512, .f32⟩ : BufTy).Contents (Elt F) → (⟨S1x512, .f32⟩ : BufTy).Contents (Elt F)),
    StableHlo.reshape main_v434 main_v435 rfl shapeCasts_S1x512_S512,
    StableHlo.nullary main_cst_29 (constant S_ .f32 0x00000000#32),
    StableHlo.binary main_v435 main_cst_29 main_v436 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v436 main_v437 (broadcastInDim S16384 ![] bcast_S_S16384 : (⟨S_, .f32⟩ : BufTy).Contents (Elt F) → (⟨S16384, .f32⟩ : BufTy).Contents (Elt F)),
    StableHlo.binary main_v422 main_v437 main_v438 (addf : (⟨S16384, .f32⟩ : BufTy).Contents (Elt F) → (⟨S16384, .f32⟩ : BufTy).Contents (Elt F) → (⟨S16384, .f32⟩ : BufTy).Contents (Elt F)),
    StableHlo.unary main_arg4 main_v439 ((extractStridedSlice S1x512x512 ![4, 0, 0] · slices_S8x512x512_S1x512x512_4_0_0) : (⟨S8x512x512, .f32⟩ : BufTy).Contents (Elt F) → (⟨S1x512x512, .f32⟩ : BufTy).Contents (Elt F)),
    StableHlo.reshape main_v439 main_v440 rfl shapeCasts_S1x512x512_S512x512,
    StableHlo.binary main_v440 main_v7 main_v441 (mulf : (⟨S512x512, .f32⟩ : BufTy).Contents (Elt F) → (⟨S512x512, .f32⟩ : BufTy).Contents (Elt F) → (⟨S512x512, .f32⟩ : BufTy).Contents (Elt F)),
    StableHlo.binary main_v441 main_v5 main_v442 (addf : (⟨S512x512, .f32⟩ : BufTy).Contents (Elt F) → (⟨S512x512, .f32⟩ : BufTy).Contents (Elt F) → (⟨S512x512, .f32⟩ : BufTy).Contents (Elt F)),
    StableHlo.unary main_arg5 main_v443 ((extractStridedSlice S1x512x512 ![4, 0, 0] · slices_S8x512x512_S1x512x512_4_0_0) : (⟨S8x512x512, .f32⟩ : BufTy).Contents (Elt F) → (⟨S1x512x512, .f32⟩ : BufTy).Contents (Elt F)),
    StableHlo.reshape main_v443 main_v444 rfl shapeCasts_S1x512x512_S512x512,
    StableHlo.binary main_v444 main_v8 main_v445 (mulf : (⟨S512x512, .f32⟩ : BufTy).Contents (Elt F) → (⟨S512x512, .f32⟩ : BufTy).Contents (Elt F) → (⟨S512x512, .f32⟩ : BufTy).Contents (Elt F)),
    StableHlo.unary main_arg6 main_v446 ((extractStridedSlice S1x512 ![4, 0] · slices_S8x512_S1x512_4_0) : (⟨S8x512, .f32⟩ : BufTy).Contents (Elt F) → (⟨S1x512, .f32⟩ : BufTy).Contents (Elt F)),
    StableHlo.reshape main_v446 main_v447 rfl shapeCasts_S1x512_S512 ]

/-- The buffers pc12's operations write, in order. -/
abbrev pc12_W : List (Ref sig .tc) :=
  [main_v423, main_v424, main_v425, main_v426, main_v427, main_v428, main_v429, main_v430, main_v431, main_v432, main_v433, main_v434, main_v435, main_cst_29, main_v436, main_v437, main_v438, main_v439, main_v440, main_v441, main_v442, main_v443, main_v444, main_v445, main_v446, main_v447]

set_option maxRecDepth 8192 in
theorem pc12_sub : (pc12 : List (HloOp τ sig (Elt F))).Forall fun op => op.bufs ⊆ tcRefs τ sig :=
  ⟨unary_bufs_sub .., reshape_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., binary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub ..⟩
set_option maxRecDepth 8192 in
theorem pc12_fresh : (pc12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc12_writes : (pc12 : List (HloOp τ sig (Elt F))).Forall fun op => op.writes ⊆ (pc12_W.map (Proc.devRef (τ := τ) .tc)).toFinset :=
  ⟨writes_sub_of_mem (y := main_v423) (by decide), writes_sub_of_mem (y := main_v424) (by decide), writes_sub_of_mem (y := main_v425) (by decide), writes_sub_of_mem (y := main_v426) (by decide), writes_sub_of_mem (y := main_v427) (by decide), writes_sub_of_mem (y := main_v428) (by decide), writes_sub_of_mem (y := main_v429) (by decide), writes_sub_of_mem (y := main_v430) (by decide), writes_sub_of_mem (y := main_v431) (by decide), writes_sub_of_mem (y := main_v432) (by decide), writes_sub_of_mem (y := main_v433) (by decide), writes_sub_of_mem (y := main_v434) (by decide), writes_sub_of_mem (y := main_v435) (by decide), writes_sub_of_mem (y := main_cst_29) (by decide), writes_sub_of_mem (y := main_v436) (by decide), writes_sub_of_mem (y := main_v437) (by decide), writes_sub_of_mem (y := main_v438) (by decide), writes_sub_of_mem (y := main_v439) (by decide), writes_sub_of_mem (y := main_v440) (by decide), writes_sub_of_mem (y := main_v441) (by decide), writes_sub_of_mem (y := main_v442) (by decide), writes_sub_of_mem (y := main_v443) (by decide), writes_sub_of_mem (y := main_v444) (by decide), writes_sub_of_mem (y := main_v445) (by decide), writes_sub_of_mem (y := main_v446) (by decide), writes_sub_of_mem (y := main_v447) (by decide)⟩

set_option maxRecDepth 16384 in
set_option maxHeartbeats 4000000 in
/-- The window is the straight line of its operations: the called functions unfold at their calls, and sequencing reassociates. -/
theorem main_part7_eq (c : Dev nD) : main_part7 (F := F) c = seq (pc11 ++ (pc12)) := by
  rfl

end Cert.ReferenceIdeal.RunHand

end
-- ==== Proof.RefRun08.lean ====
/- The reference program's window main_part8 (statements 481 … 540 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 481 … 540 (from '%448 = stablehlo.slice %arg7 [4:5, 0:512]' to '%505 = stablehlo.broadcast_in_dim %504, dims = [1]'): 76 operations, a called function's standing in its call's place. -/
abbrev pc13 : List (HloOp τ sig (Elt F)) :=
  [ StableHlo.unary main_arg7 main_v448 ((extractStridedSlice S1x512 ![4, 0] · slices_S8x512_S1x512_4_0) : (⟨S8x512, .f32⟩ : BufTy).Contents (Elt F) → (⟨S1x512, .f32⟩ : BufTy).Contents (Elt F)),
    StableHlo.reshape main_v448 main_v449 rfl shapeCasts_S1x512_S512,
    StableHlo.unary main_v449 main_v450 (Host.exp : (⟨S512, .f32⟩ : BufTy).Contents (Elt F) → (⟨S512, .f32⟩ : BufTy).Contents (Elt F)),
    StableHlo.binary main_v447 main_v450 main_v451 (mulf : (⟨S512, .f32⟩ : BufTy).Contents (Elt F) → (⟨S512, .f32⟩ : BufTy).Contents (Elt F) → (⟨S512, .f32⟩ : BufTy).Contents (Elt F)),
    StableHlo.TRef.nullary (StableHlo.TRef.of (T := ⟨S_, .f32⟩) main_call14_cst) (constant S_ .f32 0x00000000#32),
    StableHlo.TRef.binary (StableHlo.TRef.of (T := ⟨S512, .f32⟩) main_v451) (StableHlo.TRef.of (T := ⟨S_, .f32⟩) main_call14_cst) (StableHlo.TRef.of (T := ⟨S512, .f32⟩) main_call14_v0) (fun x v => pad S512 ![0] ![0] ![0] x v pads_S512_S512_000 h_S_),
    StableHlo.TRef.nullary (StableHlo.TRef.of (T := ⟨S512x512, .i32⟩) main_call14_v1) (iotaInDim S512x512 32 0),
    StableHlo.TRef.nullary (StableHlo.TRef.of (T := ⟨S512x512, .i32⟩) main_call14_v2) (iotaInDim S512x512 32 1),
    StableHlo.TRef.nullary (StableHlo.TRef.of (T := ⟨S_, .i32⟩) main_call14_c) (constantI S_ 32 0#32),
    StableHlo.TRef.unary (StableHlo.TRef.of (T := ⟨S_, .i32⟩) main_call14_c) (StableHlo.TRef.of (T := ⟨S512x512, .i32⟩) main_call14_v3) (broadcastInDim S512x512 ![] bcast_S_S512x512),
    StableHlo.TRef.binary (StableHlo.TRef.of (T := ⟨S512x512, .i32⟩) main_call14_v1) (StableHlo.TRef.of (T := ⟨S512x512, .i32⟩) main_call14_v3) (StableHlo.TRef.of (T := ⟨S512x512, .i32⟩) main_call14_v4) addi,
    StableHlo.TRef.binary (StableHlo.TRef.of (T := ⟨S512x512, .i32⟩) main_call14_v4) (StableHlo.TRef.of (T := ⟨S512x512, .i32⟩) main_call14_v2) (StableHlo.TRef.of (T := ⟨S512x512, .i1⟩) main_call14_v5) (cmpi .eq),
    StableHlo.TRef.unary (StableHlo.TRef.of (T := ⟨S512, .f32⟩) main_call14_v0) (StableHlo.TRef.of (T := ⟨S512x1, .f32⟩) main_call14_v6) (broadcastInDim S512x1 ![0] bcast_S512_S512x1_0),
    StableHlo.TRef.nullary (StableHlo.TRef.of (T := ⟨S_, .f32⟩) main_call14_cst_0) (constant S_ .f32 0x00000000#32),
    StableHlo.TRef.unary (StableHlo.TRef.of (T := ⟨S512x1, .f32⟩) main_call14_v6) (StableHlo.TRef.of (T := ⟨S512x512, .f32⟩) main_call14_call0_v0) (broadcastInDim S512x512 ![0, 1] bcast_S512x1_S512x512_0_1),
    StableHlo.TRef.unary (StableHlo.TRef.of (T := ⟨S_, .f32⟩) main_call14_cst_0) (StableHlo.TRef.of (T := ⟨S512x512, .f32⟩) main_call14_call0_v1) (broadcastInDim S512x512 ![] bcast_S_S512x512),
    StableHlo.TRef.ternary (StableHlo.TRef.of (T := ⟨S512x512, .i1⟩) main_call14_v5) (StableHlo.TRef.of (T := ⟨S512x512, .f32⟩) main_call14_call0_v0) (StableHlo.TRef.of (T := ⟨S512x512, .f32⟩) main_call14_call0_v1) (StableHlo.TRef.of (T := ⟨S512x512, .f32⟩) main_v452) select,
    StableHlo.binary main_v445 main_v452 main_v453 (addf : (⟨S512x512, .f32⟩ : BufTy).Contents (Elt F) → (⟨S512x512, .f32⟩ : BufTy).Contents (Elt F) → (⟨S512x512, .f32⟩ : BufTy).Contents (Elt F)),
    StableHlo.unary main_arg3 main_v454 ((extractStridedSlice S1x512x512 ![4, 0, 0] · slices_S8x512x512_S1x512x512_4_0_0) : (⟨S8x512x512, .f32⟩ : BufTy).Contents (Elt F) → (⟨S1x512x512, .f32⟩ : BufTy).Contents (Elt F)),
    StableHlo.reshape main_v454 main_v455 rfl shapeCasts_S1x512x512_S512x512,
    StableHlo.binary main_v455 main_v442 main_v456 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.binary main_v456 main_v453 main_v457 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_v457 main_v458 ((transpose S512x512 [1, 0] · transposes_S512x512_S512x512_1_0) : (⟨S512x512, .f32⟩ : BufTy).Contents (Elt F) → (⟨S512x512, .f32⟩ : BufTy).Contents (Elt F)),
    StableHlo.binary main_v433 main_v458 main_v459 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg7 main_v460 ((extractStridedSlice S1x512 ![4, 0] · slices_S8x512_S1x512_4_0) : (⟨S8x512, .f32⟩ : BufTy).Contents (Elt F) → (⟨S1x512, .f32⟩ : BufTy).Contents (Elt F)),
    StableHlo.reshape main_v460 main_v461 rfl shapeCasts_S1x512_S512,
    StableHlo.nullary main_cst_30 (constant S_ .f32 0x00000000#32),
    StableHlo.binary main_v461 main_cst_30 main_v462 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v462 main_v463 (broadcastInDim S16384 ![] bcast_S_S16384 : (⟨S_, .f32⟩ : BufTy).Contents (Elt F) → (⟨S16384, .f32⟩ : BufTy).Contents (Elt F)),
    StableHlo.binary main_v438 main_v463 main_v464 (addf : (⟨S16384, .f32⟩ : BufTy).Contents (Elt F) → (⟨S16384, .f32⟩ : BufTy).Contents (Elt F) → (⟨S16384, .f32⟩ : BufTy).Contents (Elt F)),
    StableHlo.unary main_v13 main_v465 (broadcastInDim S1x512 ![1] bcast_S512_S1x512_1 : (⟨S512, .f32⟩ : BufTy).Contents (Elt F) → (⟨S1x512, .f32⟩ : BufTy).Contents (Elt F)),
    StableHlo.unary main_v465 main_v466 (broadcastInDim S16384x512 ![0, 1] bcast_S1x512_S16384x512_0_1 : (⟨S1x512, .f32⟩ : BufTy).Contents (Elt F) → (⟨S16384x512, .f32⟩ : BufTy).Contents (Elt F)),
    StableHlo.binary main_v466 main_v459 main_v467 (mulf : (⟨S16384x512, .f32⟩ : BufTy).Contents (Elt F) → (⟨S16384x512, .f32⟩ : BufTy).Contents (Elt F) → (⟨S16384x512, .f32⟩ : BufTy).Contents (Elt F)),
    StableHlo.unary main_arg8 main_v468 ((extractStridedSlice S1x512x1024 ![4, 0, 0] · slices_S8x512x1024_S1x512x1024_4_0_0) : (⟨S8x512x1024, .f32⟩ : BufTy).Contents (Elt F) → (⟨S1x512x1024, .f32⟩ : BufTy).Contents (Elt F)),
    StableHlo.reshape main_v468 main_v469 rfl shapeCasts_S1x512x1024_S512x1024,
    StableHlo.binary main_v467 main_v469 main_v470 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg9 main_v471 ((extractStridedSlice S1x1024 ![4, 0] · slices_S8x1024_S1x1024_4_0) : (⟨S8x1024, .f32⟩ : BufTy).Contents (Elt F) → (⟨S1x1024, .f32⟩ : BufTy).Contents (Elt F)),
    StableHlo.reshape main_v471 main_v472 rfl shapeCasts_S1x1024_S1024,
    StableHlo.unary main_v472 main_v473 (broadcastInDim S1x1024 ![1] bcast_S1024_S1x1024_1 : (⟨S1024, .f32⟩ : BufTy).Contents (Elt F) → (⟨S1x1024, .f32⟩ : BufTy).Contents (Elt F)),
    StableHlo.unary main_v473 main_v474 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v470 main_v474 main_v475 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call15_cst) (constant S_ .f32 0x00000000#32),
    StableHlo.TRef.unary (StableHlo.TRef.of (T := ⟨S_, .f32⟩) main_call15_cst) (StableHlo.TRef.of (T := ⟨S16384x1024, .f32⟩) main_call15_v0) (broadcastInDim S16384x1024 ![] bcast_S_S16384x1024),
    StableHlo.TRef.binary (StableHlo.TRef.of (T := ⟨S16384x1024, .f32⟩) main_v475) (StableHlo.TRef.of (T := ⟨S16384x1024, .f32⟩) main_call15_v0) (StableHlo.TRef.of (T := ⟨S16384x1024, .f32⟩) main_v476) maximumf,
    StableHlo.unary main_arg10 main_v477 ((extractStridedSlice S1x1024x512 ![4, 0, 0] · slices_S8x1024x512_S1x1024x512_4_0_0) : (⟨S8x1024x512, .f32⟩ : BufTy).Contents (Elt F) → (⟨S1x1024x512, .f32⟩ : BufTy).Contents (Elt F)),
    StableHlo.reshape main_v477 main_v478 rfl shapeCasts_S1x1024x512_S1024x512,
    StableHlo.binary main_v476 main_v478 main_v479 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg11 main_v480 ((extractStridedSlice S1x512 ![4, 0] · slices_S8x512_S1x512_4_0) : (⟨S8x512, .f32⟩ : BufTy).Contents (Elt F) → (⟨S1x512, .f32⟩ : BufTy).Contents (Elt F)),
    StableHlo.reshape main_v480 main_v481 rfl shapeCasts_S1x512_S512,
    StableHlo.unary main_v481 main_v482 (broadcastInDim S1x512 ![1] bcast_S512_S1x512_1 : (⟨S512, .f32⟩ : BufTy).Contents (Elt F) → (⟨S1x512, .f32⟩ : BufTy).Contents (Elt F)),
    StableHlo.unary main_v482 main_v483 (broadcastInDim S16384x512 ![0, 1] bcast_S1x512_S16384x512_0_1 : (⟨S1x512, .f32⟩ : BufTy).Contents (Elt F) → (⟨S16384x512, .f32⟩ : BufTy).Contents (Elt F)),
    StableHlo.binary main_v479 main_v483 main_v484 (addf : (⟨S16384x512, .f32⟩ : BufTy).Contents (Elt F) → (⟨S16384x512, .f32⟩ : BufTy).Contents (Elt F) → (⟨S16384x512, .f32⟩ : BufTy).Contents (Elt F)),
    StableHlo.unary main_v484 main_v485 (Host.tanh : (⟨S16384x512, .f32⟩ : BufTy).Contents (Elt F) → (⟨S16384x512, .f32⟩ : BufTy).Contents (Elt F)),
    StableHlo.nullary main_cst_31 (constant S_ .f32 0x3F800000#32),
    StableHlo.unary main_cst_31 main_v486 (broadcastInDim S512 ![] bcast_S_S512 : (⟨S_, .f32⟩ : BufTy).Contents (Elt F) → (⟨S512, .f32⟩ : BufTy).Contents (Elt F)),
    StableHlo.binary main_v486 main_v13 main_v487 (subf : (⟨S512, .f32⟩ : BufTy).Contents (Elt F) → (⟨S512, .f32⟩ : BufTy).Contents (Elt F) → (⟨S512, .f32⟩ : BufTy).Contents (Elt F)),
    StableHlo.unary main_v487 main_v488 (broadcastInDim S1x512 ![1] bcast_S512_S1x512_1 : (⟨S512, .f32⟩ : BufTy).Contents (Elt F) → (⟨S1x512, .f32⟩ : BufTy).Contents (Elt F)),
    StableHlo.unary main_v488 main_v489 (broadcastInDim S16384x512 ![0, 1] bcast_S1x512_S16384x512_0_1 : (⟨S1x512, .f32⟩ : BufTy).Contents (Elt F) → (⟨S16384x512, .f32⟩ : BufTy).Contents (Elt F)),
    StableHlo.binary main_v485 main_v489 main_v490 (mulf : (⟨S16384x512, .f32⟩ : BufTy).Contents (Elt F) → (⟨S16384x512, .f32⟩ : BufTy).Contents (Elt F) → (⟨S16384x512, .f32⟩ : BufTy).Contents (Elt F)),
    StableHlo.unary main_arg12 main_v491 ((extractStridedSlice S1x512x1024 ![4, 0, 0] · slices_S8x512x1024_S1x512x1024_4_0_0) : (⟨S8x512x1024, .f32⟩ : BufTy).Contents (Elt F) → (⟨S1x512x1024, .f32⟩ : BufTy).Contents (Elt F)),
    StableHlo.reshape main_v491 main_v492 rfl shapeCasts_S1x512x1024_S512x1024,
    StableHlo.binary main_v467 main_v492 main_v493 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg13 main_v494 ((extractStridedSlice S1x1024 ![4, 0] · slices_S8x1024_S1x1024_4_0) : (⟨S8x1024, .f32⟩ : BufTy).Contents (Elt F) → (⟨S1x1024, .f32⟩ : BufTy).Contents (Elt F)),
    StableHlo.reshape main_v494 main_v495 rfl shapeCasts_S1x1024_S1024,
    StableHlo.unary main_v495 main_v496 (broadcastInDim S1x1024 ![1] bcast_S1024_S1x1024_1 : (⟨S1024, .f32⟩ : BufTy).Contents (Elt F) → (⟨S1x1024, .f32⟩ : BufTy).Contents (Elt F)),
    StableHlo.unary main_v496 main_v497 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v493 main_v497 main_v498 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call16_cst) (constant S_ .f32 0x00000000#32),
    StableHlo.TRef.unary (StableHlo.TRef.of (T := ⟨S_, .f32⟩) main_call16_cst) (StableHlo.TRef.of (T := ⟨S16384x1024, .f32⟩) main_call16_v0) (broadcastInDim S16384x1024 ![] bcast_S_S16384x1024),
    StableHlo.TRef.binary (StableHlo.TRef.of (T := ⟨S16384x1024, .f32⟩) main_v498) (StableHlo.TRef.of (T := ⟨S16384x1024, .f32⟩) main_call16_v0) (StableHlo.TRef.of (T := ⟨S16384x1024, .f32⟩) main_v499) maximumf,
    StableHlo.unary main_arg14 main_v500 ((extractStridedSlice S1x1024x512 ![4, 0, 0] · slices_S8x1024x512_S1x1024x512_4_0_0) : (⟨S8x1024x512, .f32⟩ : BufTy).Contents (Elt F) → (⟨S1x1024x512, .f32⟩ : BufTy).Contents (Elt F)),
    StableHlo.reshape main_v500 main_v501 rfl shapeCasts_S1x1024x512_S1024x512,
    StableHlo.binary main_v499 main_v501 main_v502 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg15 main_v503 ((extractStridedSlice S1x512 ![4, 0] · slices_S8x512_S1x512_4_0) : (⟨S8x512, .f32⟩ : BufTy).Contents (Elt F) → (⟨S1x512, .f32⟩ : BufTy).Contents (Elt F)),
    StableHlo.reshape main_v503 main_v504 rfl shapeCasts_S1x512_S512,
    StableHlo.unary main_v504 main_v505 (broadcastInDim S1x512 ![1] bcast_S512_S1x512_1 : (⟨S512, .f32⟩ : BufTy).Contents (Elt F) → (⟨S1x512, .f32⟩ : BufTy).Contents (Elt F)) ]

/-- The buffers pc13's operations write, in order. -/
abbrev pc13_W : List (Ref sig .tc) :=
  [main_v448, main_v449, main_v450, main_v451, main_call14_cst, main_call14_v0, main_call14_v1, main_call14_v2, main_call14_c, main_call14_v3, main_call14_v4, main_call14_v5, main_call14_v6, main_call14_cst_0, main_call14_call0_v0, main_call14_call0_v1, main_v452, main_v453, main_v454, main_v455, main_v456, main_v457, main_v458, main_v459, main_v460, main_v461, main_cst_30, main_v462, main_v463, main_v464, main_v465, main_v466, main_v467, main_v468, main_v469, main_v470, main_v471, main_v472, main_v473, main_v474, main_v475, main_call15_cst, main_call15_v0, main_v476, main_v477, main_v478, main_v479, main_v480, main_v481, main_v482, main_v483, main_v484, main_v485, main_cst_31, main_v486, main_v487, main_v488, main_v489, main_v490, main_v491, main_v492, main_v493, main_v494, main_v495, main_v496, main_v497, main_v498, main_call16_cst, main_call16_v0, main_v499, main_v500, main_v501, main_v502, main_v503, main_v504, main_v505]

set_option maxRecDepth 8192 in
theorem pc13_sub : (pc13 : List (HloOp τ sig (Elt F))).Forall fun op => op.bufs ⊆ tcRefs τ sig :=
  ⟨unary_bufs_sub .., reshape_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., reshape_bufs_sub .., binary_bufs_sub .., binary_bufs_sub .., unary_bufs_sub .., binary_bufs_sub .., unary_bufs_sub .., reshape_bufs_sub .., nullary_bufs_sub .., binary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩
set_option maxRecDepth 8192 in
theorem pc13_fresh : (pc13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc13_writes : (pc13 : List (HloOp τ sig (Elt F))).Forall fun op => op.writes ⊆ (pc13_W.map (Proc.devRef (τ := τ) .tc)).toFinset :=
  ⟨writes_sub_of_mem (y := main_v448) (by decide), writes_sub_of_mem (y := main_v449) (by decide), writes_sub_of_mem (y := main_v450) (by decide), writes_sub_of_mem (y := main_v451) (by decide), writes_sub_of_mem (y := main_call14_cst) (by decide), writes_sub_of_mem (y := main_call14_v0) (by decide), writes_sub_of_mem (y := main_call14_v1) (by decide), writes_sub_of_mem (y := main_call14_v2) (by decide), writes_sub_of_mem (y := main_call14_c) (by decide), writes_sub_of_mem (y := main_call14_v3) (by decide), writes_sub_of_mem (y := main_call14_v4) (by decide), writes_sub_of_mem (y := main_call14_v5) (by decide), writes_sub_of_mem (y := main_call14_v6) (by decide), writes_sub_of_mem (y := main_call14_cst_0) (by decide), writes_sub_of_mem (y := main_call14_call0_v0) (by decide), writes_sub_of_mem (y := main_call14_call0_v1) (by decide), writes_sub_of_mem (y := main_v452) (by decide), writes_sub_of_mem (y := main_v453) (by decide), writes_sub_of_mem (y := main_v454) (by decide), writes_sub_of_mem (y := main_v455) (by decide), writes_sub_of_mem (y := main_v456) (by decide), writes_sub_of_mem (y := main_v457) (by decide), writes_sub_of_mem (y := main_v458) (by decide), writes_sub_of_mem (y := main_v459) (by decide), writes_sub_of_mem (y := main_v460) (by decide), writes_sub_of_mem (y := main_v461) (by decide), writes_sub_of_mem (y := main_cst_30) (by decide), writes_sub_of_mem (y := main_v462) (by decide), writes_sub_of_mem (y := main_v463) (by decide), writes_sub_of_mem (y := main_v464) (by decide), writes_sub_of_mem (y := main_v465) (by decide), writes_sub_of_mem (y := main_v466) (by decide), writes_sub_of_mem (y := main_v467) (by decide), writes_sub_of_mem (y := main_v468) (by decide), writes_sub_of_mem (y := main_v469) (by decide), writes_sub_of_mem (y := main_v470) (by decide), writes_sub_of_mem (y := main_v471) (by decide), writes_sub_of_mem (y := main_v472) (by decide), writes_sub_of_mem (y := main_v473) (by decide), writes_sub_of_mem (y := main_v474) (by decide), writes_sub_of_mem (y := main_v475) (by decide), writes_sub_of_mem (y := main_call15_cst) (by decide), writes_sub_of_mem (y := main_call15_v0) (by decide), writes_sub_of_mem (y := main_v476) (by decide), writes_sub_of_mem (y := main_v477) (by decide), writes_sub_of_mem (y := main_v478) (by decide), writes_sub_of_mem (y := main_v479) (by decide), writes_sub_of_mem (y := main_v480) (by decide), writes_sub_of_mem (y := main_v481) (by decide), writes_sub_of_mem (y := main_v482) (by decide), writes_sub_of_mem (y := main_v483) (by decide), writes_sub_of_mem (y := main_v484) (by decide), writes_sub_of_mem (y := main_v485) (by decide), writes_sub_of_mem (y := main_cst_31) (by decide), writes_sub_of_mem (y := main_v486) (by decide), writes_sub_of_mem (y := main_v487) (by decide), writes_sub_of_mem (y := main_v488) (by decide), writes_sub_of_mem (y := main_v489) (by decide), writes_sub_of_mem (y := main_v490) (by decide), writes_sub_of_mem (y := main_v491) (by decide), writes_sub_of_mem (y := main_v492) (by decide), writes_sub_of_mem (y := main_v493) (by decide), writes_sub_of_mem (y := main_v494) (by decide), writes_sub_of_mem (y := main_v495) (by decide), writes_sub_of_mem (y := main_v496) (by decide), writes_sub_of_mem (y := main_v497) (by decide), writes_sub_of_mem (y := main_v498) (by decide), writes_sub_of_mem (y := main_call16_cst) (by decide), writes_sub_of_mem (y := main_call16_v0) (by decide), writes_sub_of_mem (y := main_v499) (by decide), writes_sub_of_mem (y := main_v500) (by decide), writes_sub_of_mem (y := main_v501) (by decide), writes_sub_of_mem (y := main_v502) (by decide), writes_sub_of_mem (y := main_v503) (by decide), writes_sub_of_mem (y := main_v504) (by decide), writes_sub_of_mem (y := main_v505) (by decide)⟩

set_option maxRecDepth 16384 in
set_option maxHeartbeats 4000000 in
/-- The window is the straight line of its operations: the called functions unfold at their calls, and sequencing reassociates. -/
theorem main_part8_eq (c : Dev nD) : main_part8 (F := F) c = seq (pc13) := by
  rfl

end Cert.ReferenceIdeal.RunHand

end
-- ==== Proof.RefRun09.lean ====
/- The reference program's window main_part9 (statements 541 … 600 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 541 … 561 (from '%506 = stablehlo.broadcast_in_dim %505, dims = [0, 1]' to '%523 = stablehlo.add %464, %522'): 21 operations, a called function's standing in its call's place. -/
abbrev pc14 : List (HloOp τ sig (Elt F)) :=
  [ StableHlo.unary main_v505 main_v506 (broadcastInDim S16384x512 ![0, 1] bcast_S1x512_S16384x512_0_1 : (⟨S1x512, .f32⟩ : BufTy).Contents (Elt F) → (⟨S16384x512, .f32⟩ : BufTy).Contents (Elt F)),
    StableHlo.binary main_v502 main_v506 main_v507 (addf : (⟨S16384x512, .f32⟩ : BufTy).Contents (Elt F) → (⟨S16384x512, .f32⟩ : BufTy).Contents (Elt F) → (⟨S16384x512, .f32⟩ : BufTy).Contents (Elt F)),
    StableHlo.nullary main_cst_32 (constant S_ .f32 0x3F800000#32),
    StableHlo.unary main_cst_32 main_v508 (broadcastInDim S512 ![] bcast_S_S512 : (⟨S_, .f32⟩ : BufTy).Contents (Elt F) → (⟨S512, .f32⟩ : BufTy).Contents (Elt F)),
    StableHlo.binary main_v508 main_v13 main_v509 (subf : (⟨S512, .f32⟩ : BufTy).Contents (Elt F) → (⟨S512, .f32⟩ : BufTy).Contents (Elt F) → (⟨S512, .f32⟩ : BufTy).Contents (Elt F)),
    StableHlo.unary main_v509 main_v510 (broadcastInDim S1x512 ![1] bcast_S512_S1x512_1 : (⟨S512, .f32⟩ : BufTy).Contents (Elt F) → (⟨S1x512, .f32⟩ : BufTy).Contents (Elt F)),
    StableHlo.unary main_v510 main_v511 (broadcastInDim S16384x512 ![0, 1] bcast_S1x512_S16384x512_0_1 : (⟨S1x512, .f32⟩ : BufTy).Contents (Elt F) → (⟨S16384x512, .f32⟩ : BufTy).Contents (Elt F)),
    StableHlo.binary main_v507 main_v511 main_v512 (mulf : (⟨S16384x512, .f32⟩ : BufTy).Contents (Elt F) → (⟨S16384x512, .f32⟩ : BufTy).Contents (Elt F) → (⟨S16384x512, .f32⟩ : BufTy).Contents (Elt F)),
    StableHlo.nullary main_cst_33 (constant S_ .f32 0x3F800000#32),
    StableHlo.unary main_cst_33 main_v513 (broadcastInDim S512 ![] bcast_S_S512 : (⟨S_, .f32⟩ : BufTy).Contents (Elt F) → (⟨S512, .f32⟩ : BufTy).Contents (Elt F)),
    StableHlo.binary main_v513 main_v13 main_v514 (subf : (⟨S512, .f32⟩ : BufTy).Contents (Elt F) → (⟨S512, .f32⟩ : BufTy).Contents (Elt F) → (⟨S512, .f32⟩ : BufTy).Contents (Elt F)),
    StableHlo.unary main_v490 main_v515 (Host.exp : (⟨S16384x512, .f32⟩ : BufTy).Contents (Elt F) → (⟨S16384x512, .f32⟩ : BufTy).Contents (Elt F)),
    StableHlo.binary main_v459 main_v515 main_v516 (mulf : (⟨S16384x512, .f32⟩ : BufTy).Contents (Elt F) → (⟨S16384x512, .f32⟩ : BufTy).Contents (Elt F) → (⟨S16384x512, .f32⟩ : BufTy).Contents (Elt F)),
    StableHlo.binary main_v516 main_v512 main_v517 (addf : (⟨S16384x512, .f32⟩ : BufTy).Contents (Elt F) → (⟨S16384x512, .f32⟩ : BufTy).Contents (Elt F) → (⟨S16384x512, .f32⟩ : BufTy).Contents (Elt F)),
    StableHlo.unary main_v514 main_v518 (broadcastInDim S1x512 ![1] bcast_S512_S1x512_1 : (⟨S512, .f32⟩ : BufTy).Contents (Elt F) → (⟨S1x512, .f32⟩ : BufTy).Contents (Elt F)),
    StableHlo.unary main_v518 main_v519 (broadcastInDim S16384x512 ![0, 1] bcast_S1x512_S16384x512_0_1 : (⟨S1x512, .f32⟩ : BufTy).Contents (Elt F) → (⟨S16384x512, .f32⟩ : BufTy).Contents (Elt F)),
    StableHlo.binary main_v519 main_v517 main_v520 (mulf : (⟨S16384x512, .f32⟩ : BufTy).Contents (Elt F) → (⟨S16384x512, .f32⟩ : BufTy).Contents (Elt F) → (⟨S16384x512, .f32⟩ : BufTy).Contents (Elt F)),
    StableHlo.binary main_v467 main_v520 main_v521 (addf : (⟨S16384x512, .f32⟩ : BufTy).Contents (Elt F) → (⟨S16384x512, .f32⟩ : BufTy).Contents (Elt F) → (⟨S16384x512, .f32⟩ : BufTy).Contents (Elt F)),
    StableHlo.nullary main_cst_34 (constant S_ .f32 0x00000000#32),
    StableHlo.binary main_v490 main_cst_34 main_v522 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v464 main_v522 main_v523 (addf : (⟨S16384, .f32⟩ : BufTy).Contents (Elt F) → (⟨S16384, .f32⟩ : BufTy).Contents (Elt F) → (⟨S16384, .f32⟩ : BufTy).Contents (Elt F)) ]

/-- The buffers pc14's operations write, in order. -/
abbrev pc14_W : List (Ref sig .tc) :=
  [main_v506, main_v507, main_cst_32, main_v508, main_v509, main_v510, main_v511, main_v512, main_cst_33, main_v513, main_v514, main_v515, main_v516, main_v517, main_v518, main_v519, main_v520, main_v521, main_cst_34, main_v522, main_v523]

set_option maxRecDepth 8192 in
theorem pc14_sub : (pc14 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., binary_bufs_sub ..⟩
set_option maxRecDepth 8192 in
theorem pc14_fresh : (pc14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxRecDepth 8192 in
theorem pc14_writes : (pc14 : List (HloOp τ sig (Elt F))).Forall fun op => op.writes ⊆ (pc14_W.map (Proc.devRef (τ := τ) .tc)).toFinset :=
  ⟨writes_sub_of_mem (y := main_v506) (by decide), writes_sub_of_mem (y := main_v507) (by decide), writes_sub_of_mem (y := main_cst_32) (by decide), writes_sub_of_mem (y := main_v508) (by decide), writes_sub_of_mem (y := main_v509) (by decide), writes_sub_of_mem (y := main_v510) (by decide), writes_sub_of_mem (y := main_v511) (by decide), writes_sub_of_mem (y := main_v512) (by decide), writes_sub_of_mem (y := main_cst_33) (by decide), writes_sub_of_mem (y := main_v513) (by decide), writes_sub_of_mem (y := main_v514) (by decide), writes_sub_of_mem (y := main_v515) (by decide), writes_sub_of_mem (y := main_v516) (by decide), writes_sub_of_mem (y := main_v517) (by decide), writes_sub_of_mem (y := main_v518) (by decide), writes_sub_of_mem (y := main_v519) (by decide), writes_sub_of_mem (y := main_v520) (by decide), writes_sub_of_mem (y := main_v521) (by decide), writes_sub_of_mem (y := main_cst_34) (by decide), writes_sub_of_mem (y := main_v522) (by decide), writes_sub_of_mem (y := main_v523) (by decide)⟩

/-- @main's statements 562 … 600 (from '%cst_35 = stablehlo.constant dense<1.000000e+00>' to '%560 = stablehlo.dot_general %559, %556, contracting_dims = [1] x [0], precision = [DEFAULT, DEFAULT]'): 51 operations, a called function's standing in its call's place. -/
abbrev pc15 : List (HloOp τ sig (Elt F)) :=
  [ StableHlo.nullary main_cst_35 (constant S_ .f32 0x3F800000#32),
    StableHlo.unary main_cst_35 main_v524 (broadcastInDim S512 ![] bcast_S_S512 : (⟨S_, .f32⟩ : BufTy).Contents (Elt F) → (⟨S512, .f32⟩ : BufTy).Contents (Elt F)),
    StableHlo.binary main_v524 main_v13 main_v525 (subf : (⟨S512, .f32⟩ : BufTy).Contents (Elt F) → (⟨S512, .f32⟩ : BufTy).Contents (Elt F) → (⟨S512, .f32⟩ : BufTy).Contents (Elt F)),
    StableHlo.unary main_arg1 main_v526 ((extractStridedSlice S1x512 ![5, 0] · slices_S8x512_S1x512_5_0) : (⟨S8x512, .f32⟩ : BufTy).Contents (Elt F) → (⟨S1x512, .f32⟩ : BufTy).Contents (Elt F)),
    StableHlo.reshape main_v526 main_v527 rfl shapeCasts_S1x512_S512,
    StableHlo.unary main_v527 main_v528 (Host.exp : (⟨S512, .f32⟩ : BufTy).Contents (Elt F) → (⟨S512, .f32⟩ : BufTy).Contents (Elt F)),
    StableHlo.unary main_v528 main_v529 (broadcastInDim S1x512 ![1] bcast_S512_S1x512_1 : (⟨S512, .f32⟩ : BufTy).Contents (Elt F) → (⟨S1x512, .f32⟩ : BufTy).Contents (Elt F)),
    StableHlo.unary main_v529 main_v530 (broadcastInDim S16384x512 ![0, 1] bcast_S1x512_S16384x512_0_1 : (⟨S1x512, .f32⟩ : BufTy).Contents (Elt F) → (⟨S16384x512, .f32⟩ : BufTy).Contents (Elt F)),
    StableHlo.binary main_v530 main_v521 main_v531 (mulf : (⟨S16384x512, .f32⟩ : BufTy).Contents (Elt F) → (⟨S16384x512, .f32⟩ : BufTy).Contents (Elt F) → (⟨S16384x512, .f32⟩ : BufTy).Contents (Elt F)),
    StableHlo.unary main_arg2 main_v532 ((extractStridedSlice S1x512 ![5, 0] · slices_S8x512_S1x512_5_0) : (⟨S8x512, .f32⟩ : BufTy).Contents (Elt F) → (⟨S1x512, .f32⟩ : BufTy).Contents (Elt F)),
    StableHlo.reshape main_v532 main_v533 rfl shapeCasts_S1x512_S512,
    StableHlo.unary main_v533 main_v534 (broadcastInDim S1x512 ![1] bcast_S512_S1x512_1 : (⟨S512, .f32⟩ : BufTy).Contents (Elt F) → (⟨S1x512, .f32⟩ : BufTy).Contents (Elt F)),
    StableHlo.unary main_v534 main_v535 (broadcastInDim S16384x512 ![0, 1] bcast_S1x512_S16384x512_0_1 : (⟨S1x512, .f32⟩ : BufTy).Contents (Elt F) → (⟨S16384x512, .f32⟩ : BufTy).Contents (Elt F)),
    StableHlo.binary main_v531 main_v535 main_v536 (addf : (⟨S16384x512, .f32⟩ : BufTy).Contents (Elt F) → (⟨S16384x512, .f32⟩ : BufTy).Contents (Elt F) → (⟨S16384x512, .f32⟩ : BufTy).Contents (Elt F)),
    StableHlo.unary main_arg1 main_v537 ((extractStridedSlice S1x512 ![5, 0] · slices_S8x512_S1x512_5_0) : (⟨S8x512, .f32⟩ : BufTy).Contents (Elt F) → (⟨S1x512, .f32⟩ : BufTy).Contents (Elt F)),
    StableHlo.reshape main_v537 main_v538 rfl shapeCasts_S1x512_S512,
    StableHlo.nullary main_cst_36 (constant S_ .f32 0x00000000#32),
    StableHlo.binary main_v538 main_cst_36 main_v539 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v539 main_v540 (broadcastInDim S16384 ![] bcast_S_S16384 : (⟨S_, .f32⟩ : BufTy).Contents (Elt F) → (⟨S16384, .f32⟩ : BufTy).Contents (Elt F)),
    StableHlo.binary main_v523 main_v540 main_v541 (addf : (⟨S16384, .f32⟩ : BufTy).Contents (Elt F) → (⟨S16384, .f32⟩ : BufTy).Contents (Elt F) → (⟨S16384, .f32⟩ : BufTy).Contents (Elt F)),
    StableHlo.unary main_arg4 main_v542 ((extractStridedSlice S1x512x512 ![5, 0, 0] · slices_S8x512x512_S1x512x512_5_0_0) : (⟨S8x512x512, .f32⟩ : BufTy).Contents (Elt F) → (⟨S1x512x512, .f32⟩ : BufTy).Contents (Elt F)),
    StableHlo.reshape main_v542 main_v543 rfl shapeCasts_S1x512x512_S512x512,
    StableHlo.binary main_v543 main_v7 main_v544 (mulf : (⟨S512x512, .f32⟩ : BufTy).Contents (Elt F) → (⟨S512x512, .f32⟩ : BufTy).Contents (Elt F) → (⟨S512x512, .f32⟩ : BufTy).Contents (Elt F)),
    StableHlo.binary main_v544 main_v5 main_v545 (addf : (⟨S512x512, .f32⟩ : BufTy).Contents (Elt F) → (⟨S512x512, .f32⟩ : BufTy).Contents (Elt F) → (⟨S512x512, .f32⟩ : BufTy).Contents (Elt F)),
    StableHlo.unary main_arg5 main_v546 ((extractStridedSlice S1x512x512 ![5, 0, 0] · slices_S8x512x512_S1x512x512_5_0_0) : (⟨S8x512x512, .f32⟩ : BufTy).Contents (Elt F) → (⟨S1x512x512, .f32⟩ : BufTy).Contents (Elt F)),
    StableHlo.reshape main_v546 main_v547 rfl shapeCasts_S1x512x512_S512x512,
    StableHlo.binary main_v547 main_v8 main_v548 (mulf : (⟨S512x512, .f32⟩ : BufTy).Contents (Elt F) → (⟨S512x512, .f32⟩ : BufTy).Contents (Elt F) → (⟨S512x512, .f32⟩ : BufTy).Contents (Elt F)),
    StableHlo.unary main_arg6 main_v549 ((extractStridedSlice S1x512 ![5, 0] · slices_S8x512_S1x512_5_0) : (⟨S8x512, .f32⟩ : BufTy).Contents (Elt F) → (⟨S1x512, .f32⟩ : BufTy).Contents (Elt F)),
    StableHlo.reshape main_v549 main_v550 rfl shapeCasts_S1x512_S512,
    StableHlo.unary main_arg7 main_v551 ((extractStridedSlice S1x512 ![5, 0] · slices_S8x512_S1x512_5_0) : (⟨S8x512, .f32⟩ : BufTy).Contents (Elt F) → (⟨S1x512, .f32⟩ : BufTy).Contents (Elt F)),
    StableHlo.reshape main_v551 main_v552 rfl shapeCasts_S1x512_S512,
    StableHlo.unary main_v552 main_v553 (Host.exp : (⟨S512, .f32⟩ : BufTy).Contents (Elt F) → (⟨S512, .f32⟩ : BufTy).Contents (Elt F)),
    StableHlo.binary main_v550 main_v553 main_v554 (mulf : (⟨S512, .f32⟩ : BufTy).Contents (Elt F) → (⟨S512, .f32⟩ : BufTy).Contents (Elt F) → (⟨S512, .f32⟩ : BufTy).Contents (Elt F)),
    StableHlo.TRef.nullary (StableHlo.TRef.of (T := ⟨S_, .f32⟩) main_call17_cst) (constant S_ .f32 0x00000000#32),
    StableHlo.TRef.binary (StableHlo.TRef.of (T := ⟨S512, .f32⟩) main_v554) (StableHlo.TRef.of (T := ⟨S_, .f32⟩) main_call17_cst) (StableHlo.TRef.of (T := ⟨S512, .f32⟩) main_call17_v0) (fun x v => pad S512 ![0] ![0] ![0] x v pads_S512_S512_000 h_S_),
    StableHlo.TRef.nullary (StableHlo.TRef.of (T := ⟨S512x512, .i32⟩) main_call17_v1) (iotaInDim S512x512 32 0),
    StableHlo.TRef.nullary (StableHlo.TRef.of (T := ⟨S512x512, .i32⟩) main_call17_v2) (iotaInDim S512x512 32 1),
    StableHlo.TRef.nullary (StableHlo.TRef.of (T := ⟨S_, .i32⟩) main_call17_c) (constantI S_ 32 0#32),
    StableHlo.TRef.unary (StableHlo.TRef.of (T := ⟨S_, .i32⟩) main_call17_c) (StableHlo.TRef.of (T := ⟨S512x512, .i32⟩) main_call17_v3) (broadcastInDim S512x512 ![] bcast_S_S512x512),
    StableHlo.TRef.binary (StableHlo.TRef.of (T := ⟨S512x512, .i32⟩) main_call17_v1) (StableHlo.TRef.of (T := ⟨S512x512, .i32⟩) main_call17_v3) (StableHlo.TRef.of (T := ⟨S512x512, .i32⟩) main_call17_v4) addi,
    StableHlo.TRef.binary (StableHlo.TRef.of (T := ⟨S512x512, .i32⟩) main_call17_v4) (StableHlo.TRef.of (T := ⟨S512x512, .i32⟩) main_call17_v2) (StableHlo.TRef.of (T := ⟨S512x512, .i1⟩) main_call17_v5) (cmpi .eq),
    StableHlo.TRef.unary (StableHlo.TRef.of (T := ⟨S512, .f32⟩) main_call17_v0) (StableHlo.TRef.of (T := ⟨S512x1, .f32⟩) main_call17_v6) (broadcastInDim S512x1 ![0] bcast_S512_S512x1_0),
    StableHlo.TRef.nullary (StableHlo.TRef.of (T := ⟨S_, .f32⟩) main_call17_cst_0) (constant S_ .f32 0x00000000#32),
    StableHlo.TRef.unary (StableHlo.TRef.of (T := ⟨S512x1, .f32⟩) main_call17_v6) (StableHlo.TRef.of (T := ⟨S512x512, .f32⟩) main_call17_call0_v0) (broadcastInDim S512x512 ![0, 1] bcast_S512x1_S512x512_0_1),
    StableHlo.TRef.unary (StableHlo.TRef.of (T := ⟨S_, .f32⟩) main_call17_cst_0) (StableHlo.TRef.of (T := ⟨S512x512, .f32⟩) main_call17_call0_v1) (broadcastInDim S512x512 ![] bcast_S_S512x512),
    StableHlo.TRef.ternary (StableHlo.TRef.of (T := ⟨S512x512, .i1⟩) main_call17_v5) (StableHlo.TRef.of (T := ⟨S512x512, .f32⟩) main_call17_call0_v0) (StableHlo.TRef.of (T := ⟨S512x512, .f32⟩) main_call17_call0_v1) (StableHlo.TRef.of (T := ⟨S512x512, .f32⟩) main_v555) select,
    StableHlo.binary main_v548 main_v555 main_v556 (addf : (⟨S512x512, .f32⟩ : BufTy).Contents (Elt F) → (⟨S512x512, .f32⟩ : BufTy).Contents (Elt F) → (⟨S512x512, .f32⟩ : BufTy).Contents (Elt F)),
    StableHlo.unary main_arg3 main_v557 ((extractStridedSlice S1x512x512 ![5, 0, 0] · slices_S8x512x512_S1x512x512_5_0_0) : (⟨S8x512x512, .f32⟩ : BufTy).Contents (Elt F) → (⟨S1x512x512, .f32⟩ : BufTy).Contents (Elt F)),
    StableHlo.reshape main_v557 main_v558 rfl shapeCasts_S1x512x512_S512x512,
    StableHlo.binary main_v558 main_v545 main_v559 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.binary main_v559 main_v556 main_v560 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)) ]

/-- The buffers pc15's operations write, in order. -/
abbrev pc15_W : List (Ref sig .tc) :=
  [main_cst_35, main_v524, main_v525, main_v526, main_v527, main_v528, main_v529, main_v530, main_v531, main_v532, main_v533, main_v534, main_v535, main_v536, main_v537, main_v538, main_cst_36, main_v539, main_v540, main_v541, main_v542, main_v543, main_v544, main_v545, main_v546, main_v547, main_v548, main_v549, main_v550, main_v551, main_v552, main_v553, main_v554, main_call17_cst, main_call17_v0, main_call17_v1, main_call17_v2, main_call17_c, main_call17_v3, main_call17_v4, main_call17_v5, main_call17_v6, main_call17_cst_0, main_call17_call0_v0, main_call17_call0_v1, main_v555, main_v556, main_v557, main_v558, main_v559, main_v560]

set_option maxRecDepth 8192 in
theorem pc15_sub : (pc15 : List (HloOp τ sig (Elt F))).Forall fun op => op.bufs ⊆ tcRefs τ sig :=
  ⟨nullary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., binary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., reshape_bufs_sub .., binary_bufs_sub .., binary_bufs_sub ..⟩
set_option maxRecDepth 8192 in
theorem pc15_fresh : (pc15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc15_writes : (pc15 : List (HloOp τ sig (Elt F))).Forall fun op => op.writes ⊆ (pc15_W.map (Proc.devRef (τ := τ) .tc)).toFinset :=
  ⟨writes_sub_of_mem (y := main_cst_35) (by decide), writes_sub_of_mem (y := main_v524) (by decide), writes_sub_of_mem (y := main_v525) (by decide), writes_sub_of_mem (y := main_v526) (by decide), writes_sub_of_mem (y := main_v527) (by decide), writes_sub_of_mem (y := main_v528) (by decide), writes_sub_of_mem (y := main_v529) (by decide), writes_sub_of_mem (y := main_v530) (by decide), writes_sub_of_mem (y := main_v531) (by decide), writes_sub_of_mem (y := main_v532) (by decide), writes_sub_of_mem (y := main_v533) (by decide), writes_sub_of_mem (y := main_v534) (by decide), writes_sub_of_mem (y := main_v535) (by decide), writes_sub_of_mem (y := main_v536) (by decide), writes_sub_of_mem (y := main_v537) (by decide), writes_sub_of_mem (y := main_v538) (by decide), writes_sub_of_mem (y := main_cst_36) (by decide), writes_sub_of_mem (y := main_v539) (by decide), writes_sub_of_mem (y := main_v540) (by decide), writes_sub_of_mem (y := main_v541) (by decide), writes_sub_of_mem (y := main_v542) (by decide), writes_sub_of_mem (y := main_v543) (by decide), writes_sub_of_mem (y := main_v544) (by decide), writes_sub_of_mem (y := main_v545) (by decide), writes_sub_of_mem (y := main_v546) (by decide), writes_sub_of_mem (y := main_v547) (by decide), writes_sub_of_mem (y := main_v548) (by decide), writes_sub_of_mem (y := main_v549) (by decide), writes_sub_of_mem (y := main_v550) (by decide), writes_sub_of_mem (y := main_v551) (by decide), writes_sub_of_mem (y := main_v552) (by decide), writes_sub_of_mem (y := main_v553) (by decide), writes_sub_of_mem (y := main_v554) (by decide), writes_sub_of_mem (y := main_call17_cst) (by decide), writes_sub_of_mem (y := main_call17_v0) (by decide), writes_sub_of_mem (y := main_call17_v1) (by decide), writes_sub_of_mem (y := main_call17_v2) (by decide), writes_sub_of_mem (y := main_call17_c) (by decide), writes_sub_of_mem (y := main_call17_v3) (by decide), writes_sub_of_mem (y := main_call17_v4) (by decide), writes_sub_of_mem (y := main_call17_v5) (by decide), writes_sub_of_mem (y := main_call17_v6) (by decide), writes_sub_of_mem (y := main_call17_cst_0) (by decide), writes_sub_of_mem (y := main_call17_call0_v0) (by decide), writes_sub_of_mem (y := main_call17_call0_v1) (by decide), writes_sub_of_mem (y := main_v555) (by decide), writes_sub_of_mem (y := main_v556) (by decide), writes_sub_of_mem (y := main_v557) (by decide), writes_sub_of_mem (y := main_v558) (by decide), writes_sub_of_mem (y := main_v559) (by decide), writes_sub_of_mem (y := main_v560) (by decide)⟩

set_option maxRecDepth 16384 in
set_option maxHeartbeats 4000000 in
/-- The window is the straight line of its operations: the called functions unfold at their calls, and sequencing reassociates. -/
theorem main_part9_eq (c : Dev nD) : main_part9 (F := F) c = seq (pc14 ++ (pc15)) := by
  rfl

end Cert.ReferenceIdeal.RunHand

end
-- ==== Proof.RefRun10.lean ====
/- The reference program's window main_part10 (statements 601 … 660 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 601 … 660 (from '%561 = stablehlo.transpose %560, dims = [1, 0]' to '%616 = stablehlo.broadcast_in_dim %cst_40, dims = []'): 64 operations, a called function's standing in its call's place. -/
abbrev pc16 : List (HloOp τ sig (Elt F)) :=
  [ StableHlo.unary main_v560 main_v561 ((transpose S512x512 [1, 0] · transposes_S512x512_S512x512_1_0) : (⟨S512x512, .f32⟩ : BufTy).Contents (Elt F) → (⟨S512x512, .f32⟩ : BufTy).Contents (Elt F)),
    StableHlo.binary main_v536 main_v561 main_v562 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg7 main_v563 ((extractStridedSlice S1x512 ![5, 0] · slices_S8x512_S1x512_5_0) : (⟨S8x512, .f32⟩ : BufTy).Contents (Elt F) → (⟨S1x512, .f32⟩ : BufTy).Contents (Elt F)),
    StableHlo.reshape main_v563 main_v564 rfl shapeCasts_S1x512_S512,
    StableHlo.nullary main_cst_37 (constant S_ .f32 0x00000000#32),
    StableHlo.binary main_v564 main_cst_37 main_v565 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v565 main_v566 (broadcastInDim S16384 ![] bcast_S_S16384 : (⟨S_, .f32⟩ : BufTy).Contents (Elt F) → (⟨S16384, .f32⟩ : BufTy).Contents (Elt F)),
    StableHlo.binary main_v541 main_v566 main_v567 (addf : (⟨S16384, .f32⟩ : BufTy).Contents (Elt F) → (⟨S16384, .f32⟩ : BufTy).Contents (Elt F) → (⟨S16384, .f32⟩ : BufTy).Contents (Elt F)),
    StableHlo.unary main_v525 main_v568 (broadcastInDim S1x512 ![1] bcast_S512_S1x512_1 : (⟨S512, .f32⟩ : BufTy).Contents (Elt F) → (⟨S1x512, .f32⟩ : BufTy).Contents (Elt F)),
    StableHlo.unary main_v568 main_v569 (broadcastInDim S16384x512 ![0, 1] bcast_S1x512_S16384x512_0_1 : (⟨S1x512, .f32⟩ : BufTy).Contents (Elt F) → (⟨S16384x512, .f32⟩ : BufTy).Contents (Elt F)),
    StableHlo.binary main_v569 main_v562 main_v570 (mulf : (⟨S16384x512, .f32⟩ : BufTy).Contents (Elt F) → (⟨S16384x512, .f32⟩ : BufTy).Contents (Elt F) → (⟨S16384x512, .f32⟩ : BufTy).Contents (Elt F)),
    StableHlo.unary main_arg8 main_v571 ((extractStridedSlice S1x512x1024 ![5, 0, 0] · slices_S8x512x1024_S1x512x1024_5_0_0) : (⟨S8x512x1024, .f32⟩ : BufTy).Contents (Elt F) → (⟨S1x512x1024, .f32⟩ : BufTy).Contents (Elt F)),
    StableHlo.reshape main_v571 main_v572 rfl shapeCasts_S1x512x1024_S512x1024,
    StableHlo.binary main_v570 main_v572 main_v573 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg9 main_v574 ((extractStridedSlice S1x1024 ![5, 0] · slices_S8x1024_S1x1024_5_0) : (⟨S8x1024, .f32⟩ : BufTy).Contents (Elt F) → (⟨S1x1024, .f32⟩ : BufTy).Contents (Elt F)),
    StableHlo.reshape main_v574 main_v575 rfl shapeCasts_S1x1024_S1024,
    StableHlo.unary main_v575 main_v576 (broadcastInDim S1x1024 ![1] bcast_S1024_S1x1024_1 : (⟨S1024, .f32⟩ : BufTy).Contents (Elt F) → (⟨S1x1024, .f32⟩ : BufTy).Contents (Elt F)),
    StableHlo.unary main_v576 main_v577 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v573 main_v577 main_v578 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call18_cst) (constant S_ .f32 0x00000000#32),
    StableHlo.TRef.unary (StableHlo.TRef.of (T := ⟨S_, .f32⟩) main_call18_cst) (StableHlo.TRef.of (T := ⟨S16384x1024, .f32⟩) main_call18_v0) (broadcastInDim S16384x1024 ![] bcast_S_S16384x1024),
    StableHlo.TRef.binary (StableHlo.TRef.of (T := ⟨S16384x1024, .f32⟩) main_v578) (StableHlo.TRef.of (T := ⟨S16384x1024, .f32⟩) main_call18_v0) (StableHlo.TRef.of (T := ⟨S16384x1024, .f32⟩) main_v579) maximumf,
    StableHlo.unary main_arg10 main_v580 ((extractStridedSlice S1x1024x512 ![5, 0, 0] · slices_S8x1024x512_S1x1024x512_5_0_0) : (⟨S8x1024x512, .f32⟩ : BufTy).Contents (Elt F) → (⟨S1x1024x512, .f32⟩ : BufTy).Contents (Elt F)),
    StableHlo.reshape main_v580 main_v581 rfl shapeCasts_S1x1024x512_S1024x512,
    StableHlo.binary main_v579 main_v581 main_v582 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg11 main_v583 ((extractStridedSlice S1x512 ![5, 0] · slices_S8x512_S1x512_5_0) : (⟨S8x512, .f32⟩ : BufTy).Contents (Elt F) → (⟨S1x512, .f32⟩ : BufTy).Contents (Elt F)),
    StableHlo.reshape main_v583 main_v584 rfl shapeCasts_S1x512_S512,
    StableHlo.unary main_v584 main_v585 (broadcastInDim S1x512 ![1] bcast_S512_S1x512_1 : (⟨S512, .f32⟩ : BufTy).Contents (Elt F) → (⟨S1x512, .f32⟩ : BufTy).Contents (Elt F)),
    StableHlo.unary main_v585 main_v586 (broadcastInDim S16384x512 ![0, 1] bcast_S1x512_S16384x512_0_1 : (⟨S1x512, .f32⟩ : BufTy).Contents (Elt F) → (⟨S16384x512, .f32⟩ : BufTy).Contents (Elt F)),
    StableHlo.binary main_v582 main_v586 main_v587 (addf : (⟨S16384x512, .f32⟩ : BufTy).Contents (Elt F) → (⟨S16384x512, .f32⟩ : BufTy).Contents (Elt F) → (⟨S16384x512, .f32⟩ : BufTy).Contents (Elt F)),
    StableHlo.unary main_v587 main_v588 (Host.tanh : (⟨S16384x512, .f32⟩ : BufTy).Contents (Elt F) → (⟨S16384x512, .f32⟩ : BufTy).Contents (Elt F)),
    StableHlo.nullary main_cst_38 (constant S_ .f32 0x3F800000#32),
    StableHlo.unary main_cst_38 main_v589 (broadcastInDim S512 ![] bcast_S_S512 : (⟨S_, .f32⟩ : BufTy).Contents (Elt F) → (⟨S512, .f32⟩ : BufTy).Contents (Elt F)),
    StableHlo.binary main_v589 main_v525 main_v590 (subf : (⟨S512, .f32⟩ : BufTy).Contents (Elt F) → (⟨S512, .f32⟩ : BufTy).Contents (Elt F) → (⟨S512, .f32⟩ : BufTy).Contents (Elt F)),
    StableHlo.unary main_v590 main_v591 (broadcastInDim S1x512 ![1] bcast_S512_S1x512_1 : (⟨S512, .f32⟩ : BufTy).Contents (Elt F) → (⟨S1x512, .f32⟩ : BufTy).Contents (Elt F)),
    StableHlo.unary main_v591 main_v592 (broadcastInDim S16384x512 ![0, 1] bcast_S1x512_S16384x512_0_1 : (⟨S1x512, .f32⟩ : BufTy).Contents (Elt F) → (⟨S16384x512, .f32⟩ : BufTy).Contents (Elt F)),
    StableHlo.binary main_v588 main_v592 main_v593 (mulf : (⟨S16384x512, .f32⟩ : BufTy).Contents (Elt F) → (⟨S16384x512, .f32⟩ : BufTy).Contents (Elt F) → (⟨S16384x512, .f32⟩ : BufTy).Contents (Elt F)),
    StableHlo.unary main_arg12 main_v594 ((extractStridedSlice S1x512x1024 ![5, 0, 0] · slices_S8x512x1024_S1x512x1024_5_0_0) : (⟨S8x512x1024, .f32⟩ : BufTy).Contents (Elt F) → (⟨S1x512x1024, .f32⟩ : BufTy).Contents (Elt F)),
    StableHlo.reshape main_v594 main_v595 rfl shapeCasts_S1x512x1024_S512x1024,
    StableHlo.binary main_v570 main_v595 main_v596 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg13 main_v597 ((extractStridedSlice S1x1024 ![5, 0] · slices_S8x1024_S1x1024_5_0) : (⟨S8x1024, .f32⟩ : BufTy).Contents (Elt F) → (⟨S1x1024, .f32⟩ : BufTy).Contents (Elt F)),
    StableHlo.reshape main_v597 main_v598 rfl shapeCasts_S1x1024_S1024,
    StableHlo.unary main_v598 main_v599 (broadcastInDim S1x1024 ![1] bcast_S1024_S1x1024_1 : (⟨S1024, .f32⟩ : BufTy).Contents (Elt F) → (⟨S1x1024, .f32⟩ : BufTy).Contents (Elt F)),
    StableHlo.unary main_v599 main_v600 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v596 main_v600 main_v601 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call19_cst) (constant S_ .f32 0x00000000#32),
    StableHlo.TRef.unary (StableHlo.TRef.of (T := ⟨S_, .f32⟩) main_call19_cst) (StableHlo.TRef.of (T := ⟨S16384x1024, .f32⟩) main_call19_v0) (broadcastInDim S16384x1024 ![] bcast_S_S16384x1024),
    StableHlo.TRef.binary (StableHlo.TRef.of (T := ⟨S16384x1024, .f32⟩) main_v601) (StableHlo.TRef.of (T := ⟨S16384x1024, .f32⟩) main_call19_v0) (StableHlo.TRef.of (T := ⟨S16384x1024, .f32⟩) main_v602) maximumf,
    StableHlo.unary main_arg14 main_v603 ((extractStridedSlice S1x1024x512 ![5, 0, 0] · slices_S8x1024x512_S1x1024x512_5_0_0) : (⟨S8x1024x512, .f32⟩ : BufTy).Contents (Elt F) → (⟨S1x1024x512, .f32⟩ : BufTy).Contents (Elt F)),
    StableHlo.reshape main_v603 main_v604 rfl shapeCasts_S1x1024x512_S1024x512,
    StableHlo.binary main_v602 main_v604 main_v605 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg15 main_v606 ((extractStridedSlice S1x512 ![5, 0] · slices_S8x512_S1x512_5_0) : (⟨S8x512, .f32⟩ : BufTy).Contents (Elt F) → (⟨S1x512, .f32⟩ : BufTy).Contents (Elt F)),
    StableHlo.reshape main_v606 main_v607 rfl shapeCasts_S1x512_S512,
    StableHlo.unary main_v607 main_v608 (broadcastInDim S1x512 ![1] bcast_S512_S1x512_1 : (⟨S512, .f32⟩ : BufTy).Contents (Elt F) → (⟨S1x512, .f32⟩ : BufTy).Contents (Elt F)),
    StableHlo.unary main_v608 main_v609 (broadcastInDim S16384x512 ![0, 1] bcast_S1x512_S16384x512_0_1 : (⟨S1x512, .f32⟩ : BufTy).Contents (Elt F) → (⟨S16384x512, .f32⟩ : BufTy).Contents (Elt F)),
    StableHlo.binary main_v605 main_v609 main_v610 (addf : (⟨S16384x512, .f32⟩ : BufTy).Contents (Elt F) → (⟨S16384x512, .f32⟩ : BufTy).Contents (Elt F) → (⟨S16384x512, .f32⟩ : BufTy).Contents (Elt F)),
    StableHlo.nullary main_cst_39 (constant S_ .f32 0x3F800000#32),
    StableHlo.unary main_cst_39 main_v611 (broadcastInDim S512 ![] bcast_S_S512 : (⟨S_, .f32⟩ : BufTy).Contents (Elt F) → (⟨S512, .f32⟩ : BufTy).Contents (Elt F)),
    StableHlo.binary main_v611 main_v525 main_v612 (subf : (⟨S512, .f32⟩ : BufTy).Contents (Elt F) → (⟨S512, .f32⟩ : BufTy).Contents (Elt F) → (⟨S512, .f32⟩ : BufTy).Contents (Elt F)),
    StableHlo.unary main_v612 main_v613 (broadcastInDim S1x512 ![1] bcast_S512_S1x512_1 : (⟨S512, .f32⟩ : BufTy).Contents (Elt F) → (⟨S1x512, .f32⟩ : BufTy).Contents (Elt F)),
    StableHlo.unary main_v613 main_v614 (broadcastInDim S16384x512 ![0, 1] bcast_S1x512_S16384x512_0_1 : (⟨S1x512, .f32⟩ : BufTy).Contents (Elt F) → (⟨S16384x512, .f32⟩ : BufTy).Contents (Elt F)),
    StableHlo.binary main_v610 main_v614 main_v615 (mulf : (⟨S16384x512, .f32⟩ : BufTy).Contents (Elt F) → (⟨S16384x512, .f32⟩ : BufTy).Contents (Elt F) → (⟨S16384x512, .f32⟩ : BufTy).Contents (Elt F)),
    StableHlo.nullary main_cst_40 (constant S_ .f32 0x3F800000#32),
    StableHlo.unary main_cst_40 main_v616 (broadcastInDim S512 ![] bcast_S_S512 : (⟨S_, .f32⟩ : BufTy).Contents (Elt F) → (⟨S512, .f32⟩ : BufTy).Contents (Elt F)) ]

/-- The buffers pc16's operations write, in order. -/
abbrev pc16_W : List (Ref sig .tc) :=
  [main_v561, main_v562, main_v563, main_v564, main_cst_37, main_v565, main_v566, main_v567, main_v568, main_v569, main_v570, main_v571, main_v572, main_v573, main_v574, main_v575, main_v576, main_v577, main_v578, main_call18_cst, main_call18_v0, main_v579, main_v580, main_v581, main_v582, main_v583, main_v584, main_v585, main_v586, main_v587, main_v588, main_cst_38, main_v589, main_v590, main_v591, main_v592, main_v593, main_v594, main_v595, main_v596, main_v597, main_v598, main_v599, main_v600, main_v601, main_call19_cst, main_call19_v0, main_v602, main_v603, main_v604, main_v605, main_v606, main_v607, main_v608, main_v609, main_v610, main_cst_39, main_v611, main_v612, main_v613, main_v614, main_v615, main_cst_40, main_v616]

set_option maxRecDepth 8192 in
theorem pc16_sub : (pc16 : List (HloOp τ sig (Elt F))).Forall fun op => op.bufs ⊆ tcRefs τ sig :=
  ⟨unary_bufs_sub .., binary_bufs_sub .., unary_bufs_sub .., reshape_bufs_sub .., nullary_bufs_sub .., binary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub ..⟩
set_option maxRecDepth 8192 in
theorem pc16_fresh : (pc16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc16_writes : (pc16 : List (HloOp τ sig (Elt F))).Forall fun op => op.writes ⊆ (pc16_W.map (Proc.devRef (τ := τ) .tc)).toFinset :=
  ⟨writes_sub_of_mem (y := main_v561) (by decide), writes_sub_of_mem (y := main_v562) (by decide), writes_sub_of_mem (y := main_v563) (by decide), writes_sub_of_mem (y := main_v564) (by decide), writes_sub_of_mem (y := main_cst_37) (by decide), writes_sub_of_mem (y := main_v565) (by decide), writes_sub_of_mem (y := main_v566) (by decide), writes_sub_of_mem (y := main_v567) (by decide), writes_sub_of_mem (y := main_v568) (by decide), writes_sub_of_mem (y := main_v569) (by decide), writes_sub_of_mem (y := main_v570) (by decide), writes_sub_of_mem (y := main_v571) (by decide), writes_sub_of_mem (y := main_v572) (by decide), writes_sub_of_mem (y := main_v573) (by decide), writes_sub_of_mem (y := main_v574) (by decide), writes_sub_of_mem (y := main_v575) (by decide), writes_sub_of_mem (y := main_v576) (by decide), writes_sub_of_mem (y := main_v577) (by decide), writes_sub_of_mem (y := main_v578) (by decide), writes_sub_of_mem (y := main_call18_cst) (by decide), writes_sub_of_mem (y := main_call18_v0) (by decide), writes_sub_of_mem (y := main_v579) (by decide), writes_sub_of_mem (y := main_v580) (by decide), writes_sub_of_mem (y := main_v581) (by decide), writes_sub_of_mem (y := main_v582) (by decide), writes_sub_of_mem (y := main_v583) (by decide), writes_sub_of_mem (y := main_v584) (by decide), writes_sub_of_mem (y := main_v585) (by decide), writes_sub_of_mem (y := main_v586) (by decide), writes_sub_of_mem (y := main_v587) (by decide), writes_sub_of_mem (y := main_v588) (by decide), writes_sub_of_mem (y := main_cst_38) (by decide), writes_sub_of_mem (y := main_v589) (by decide), writes_sub_of_mem (y := main_v590) (by decide), writes_sub_of_mem (y := main_v591) (by decide), writes_sub_of_mem (y := main_v592) (by decide), writes_sub_of_mem (y := main_v593) (by decide), writes_sub_of_mem (y := main_v594) (by decide), writes_sub_of_mem (y := main_v595) (by decide), writes_sub_of_mem (y := main_v596) (by decide), writes_sub_of_mem (y := main_v597) (by decide), writes_sub_of_mem (y := main_v598) (by decide), writes_sub_of_mem (y := main_v599) (by decide), writes_sub_of_mem (y := main_v600) (by decide), writes_sub_of_mem (y := main_v601) (by decide), writes_sub_of_mem (y := main_call19_cst) (by decide), writes_sub_of_mem (y := main_call19_v0) (by decide), writes_sub_of_mem (y := main_v602) (by decide), writes_sub_of_mem (y := main_v603) (by decide), writes_sub_of_mem (y := main_v604) (by decide), writes_sub_of_mem (y := main_v605) (by decide), writes_sub_of_mem (y := main_v606) (by decide), writes_sub_of_mem (y := main_v607) (by decide), writes_sub_of_mem (y := main_v608) (by decide), writes_sub_of_mem (y := main_v609) (by decide), writes_sub_of_mem (y := main_v610) (by decide), writes_sub_of_mem (y := main_cst_39) (by decide), writes_sub_of_mem (y := main_v611) (by decide), writes_sub_of_mem (y := main_v612) (by decide), writes_sub_of_mem (y := main_v613) (by decide), writes_sub_of_mem (y := main_v614) (by decide), writes_sub_of_mem (y := main_v615) (by decide), writes_sub_of_mem (y := main_cst_40) (by decide), writes_sub_of_mem (y := main_v616) (by decide)⟩

set_option maxRecDepth 16384 in
set_option maxHeartbeats 4000000 in
/-- The window is the straight line of its operations: the called functions unfold at their calls, and sequencing reassociates. -/
theorem main_part10_eq (c : Dev nD) : main_part10 (F := F) c = seq (pc16) := by
  rfl

end Cert.ReferenceIdeal.RunHand

end
-- ==== Proof.RefRun11.lean ====
/- The reference program's window main_part11 (statements 661 … 720 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 661 … 671 (from '%617 = stablehlo.subtract %616, %525' to '%626 = stablehlo.add %567, %625'): 11 operations, a called function's standing in its call's place. -/
abbrev pc17 : List (HloOp τ sig (Elt F)) :=
  [ StableHlo.binary main_v616 main_v525 main_v617 (subf : (⟨S512, .f32⟩ : BufTy).Contents (Elt F) → (⟨S512, .f32⟩ : BufTy).Contents (Elt F) → (⟨S512, .f32⟩ : BufTy).Contents (Elt F)),
    StableHlo.unary main_v593 main_v618 (Host.exp : (⟨S16384x512, .f32⟩ : BufTy).Contents (Elt F) → (⟨S16384x512, .f32⟩ : BufTy).Contents (Elt F)),
    StableHlo.binary main_v562 main_v618 main_v619 (mulf : (⟨S16384x512, .f32⟩ : BufTy).Contents (Elt F) → (⟨S16384x512, .f32⟩ : BufTy).Contents (Elt F) → (⟨S16384x512, .f32⟩ : BufTy).Contents (Elt F)),
    StableHlo.binary main_v619 main_v615 main_v620 (addf : (⟨S16384x512, .f32⟩ : BufTy).Contents (Elt F) → (⟨S16384x512, .f32⟩ : BufTy).Contents (Elt F) → (⟨S16384x512, .f32⟩ : BufTy).Contents (Elt F)),
    StableHlo.unary main_v617 main_v621 (broadcastInDim S1x512 ![1] bcast_S512_S1x512_1 : (⟨S512, .f32⟩ : BufTy).Contents (Elt F) → (⟨S1x512, .f32⟩ : BufTy).Contents (Elt F)),
    StableHlo.unary main_v621 main_v622 (broadcastInDim S16384x512 ![0, 1] bcast_S1x512_S16384x512_0_1 : (⟨S1x512, .f32⟩ : BufTy).Contents (Elt F) → (⟨S16384x512, .f32⟩ : BufTy).Contents (Elt F)),
    StableHlo.binary main_v622 main_v620 main_v623 (mulf : (⟨S16384x512, .f32⟩ : BufTy).Contents (Elt F) → (⟨S16384x512, .f32⟩ : BufTy).Contents (Elt F) → (⟨S16384x512, .f32⟩ : BufTy).Contents (Elt F)),
    StableHlo.binary main_v570 main_v623 main_v624 (addf : (⟨S16384x512, .f32⟩ : BufTy).Contents (Elt F) → (⟨S16384x512, .f32⟩ : BufTy).Contents (Elt F) → (⟨S16384x512, .f32⟩ : BufTy).Contents (Elt F)),
    StableHlo.nullary main_cst_41 (constant S_ .f32 0x00000000#32),
    StableHlo.binary main_v593 main_cst_41 main_v625 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v567 main_v625 main_v626 (addf : (⟨S16384, .f32⟩ : BufTy).Contents (Elt F) → (⟨S16384, .f32⟩ : BufTy).Contents (Elt F) → (⟨S16384, .f32⟩ : BufTy).Contents (Elt F)) ]

/-- The buffers pc17's operations write, in order. -/
abbrev pc17_W : List (Ref sig .tc) :=
  [main_v617, main_v618, main_v619, main_v620, main_v621, main_v622, main_v623, main_v624, main_cst_41, main_v625, main_v626]

set_option maxRecDepth 8192 in
theorem pc17_sub : (pc17 : List (HloOp τ sig (Elt F))).Forall fun op => op.bufs ⊆ tcRefs τ sig :=
  ⟨binary_bufs_sub .., unary_bufs_sub .., binary_bufs_sub .., binary_bufs_sub .., unary_bufs_sub .., unary_bufs_sub .., binary_bufs_sub .., binary_bufs_sub .., nullary_bufs_sub .., binary_bufs_sub .., binary_bufs_sub ..⟩
set_option maxRecDepth 8192 in
theorem pc17_fresh : (pc17 : List (HloOp τ sig (Elt F))).Forall fun op => op.fresh = ∅ :=
  ⟨rfl, rfl, rfl, rfl, rfl, rfl, rfl, rfl, rfl, rfl, rfl⟩
set_option maxRecDepth 8192 in
theorem pc17_writes : (pc17 : List (HloOp τ sig (Elt F))).Forall fun op => op.writes ⊆ (pc17_W.map (Proc.devRef (τ := τ) .tc)).toFinset :=
  ⟨writes_sub_of_mem (y := main_v617) (by decide), writes_sub_of_mem (y := main_v618) (by decide), writes_sub_of_mem (y := main_v619) (by decide), writes_sub_of_mem (y := main_v620) (by decide), writes_sub_of_mem (y := main_v621) (by decide), writes_sub_of_mem (y := main_v622) (by decide), writes_sub_of_mem (y := main_v623) (by decide), writes_sub_of_mem (y := main_v624) (by decide), writes_sub_of_mem (y := main_cst_41) (by decide), writes_sub_of_mem (y := main_v625) (by decide), writes_sub_of_mem (y := main_v626) (by decide)⟩

/-- @main's statements 672 … 720 (from '%627 = stablehlo.slice %arg1 [6:7, 0:512]' to '%673 = stablehlo.reshape %672'): 61 operations, a called function's standing in its call's place. -/
abbrev pc18 : List (HloOp τ sig (Elt F)) :=
  [ StableHlo.unary main_arg1 main_v627 ((extractStridedSlice S1x512 ![6, 0] · slices_S8x512_S1x512_6_0) : (⟨S8x512, .f32⟩ : BufTy).Contents (Elt F) → (⟨S1x512, .f32⟩ : BufTy).Contents (Elt F)),
    StableHlo.reshape main_v627 main_v628 rfl shapeCasts_S1x512_S512,
    StableHlo.unary main_v628 main_v629 (Host.exp : (⟨S512, .f32⟩ : BufTy).Contents (Elt F) → (⟨S512, .f32⟩ : BufTy).Contents (Elt F)),
    StableHlo.unary main_v629 main_v630 (broadcastInDim S1x512 ![1] bcast_S512_S1x512_1 : (⟨S512, .f32⟩ : BufTy).Contents (Elt F) → (⟨S1x512, .f32⟩ : BufTy).Contents (Elt F)),
    StableHlo.unary main_v630 main_v631 (broadcastInDim S16384x512 ![0, 1] bcast_S1x512_S16384x512_0_1 : (⟨S1x512, .f32⟩ : BufTy).Contents (Elt F) → (⟨S16384x512, .f32⟩ : BufTy).Contents (Elt F)),
    StableHlo.binary main_v631 main_v624 main_v632 (mulf : (⟨S16384x512, .f32⟩ : BufTy).Contents (Elt F) → (⟨S16384x512, .f32⟩ : BufTy).Contents (Elt F) → (⟨S16384x512, .f32⟩ : BufTy).Contents (Elt F)),
    StableHlo.unary main_arg2 main_v633 ((extractStridedSlice S1x512 ![6, 0] · slices_S8x512_S1x512_6_0) : (⟨S8x512, .f32⟩ : BufTy).Contents (Elt F) → (⟨S1x512, .f32⟩ : BufTy).Contents (Elt F)),
    StableHlo.reshape main_v633 main_v634 rfl shapeCasts_S1x512_S512,
    StableHlo.unary main_v634 main_v635 (broadcastInDim S1x512 ![1] bcast_S512_S1x512_1 : (⟨S512, .f32⟩ : BufTy).Contents (Elt F) → (⟨S1x512, .f32⟩ : BufTy).Contents (Elt F)),
    StableHlo.unary main_v635 main_v636 (broadcastInDim S16384x512 ![0, 1] bcast_S1x512_S16384x512_0_1 : (⟨S1x512, .f32⟩ : BufTy).Contents (Elt F) → (⟨S16384x512, .f32⟩ : BufTy).Contents (Elt F)),
    StableHlo.binary main_v632 main_v636 main_v637 (addf : (⟨S16384x512, .f32⟩ : BufTy).Contents (Elt F) → (⟨S16384x512, .f32⟩ : BufTy).Contents (Elt F) → (⟨S16384x512, .f32⟩ : BufTy).Contents (Elt F)),
    StableHlo.unary main_arg1 main_v638 ((extractStridedSlice S1x512 ![6, 0] · slices_S8x512_S1x512_6_0) : (⟨S8x512, .f32⟩ : BufTy).Contents (Elt F) → (⟨S1x512, .f32⟩ : BufTy).Contents (Elt F)),
    StableHlo.reshape main_v638 main_v639 rfl shapeCasts_S1x512_S512,
    StableHlo.nullary main_cst_42 (constant S_ .f32 0x00000000#32),
    StableHlo.binary main_v639 main_cst_42 main_v640 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v640 main_v641 (broadcastInDim S16384 ![] bcast_S_S16384 : (⟨S_, .f32⟩ : BufTy).Contents (Elt F) → (⟨S16384, .f32⟩ : BufTy).Contents (Elt F)),
    StableHlo.binary main_v626 main_v641 main_v642 (addf : (⟨S16384, .f32⟩ : BufTy).Contents (Elt F) → (⟨S16384, .f32⟩ : BufTy).Contents (Elt F) → (⟨S16384, .f32⟩ : BufTy).Contents (Elt F)),
    StableHlo.unary main_arg4 main_v643 ((extractStridedSlice S1x512x512 ![6, 0, 0] · slices_S8x512x512_S1x512x512_6_0_0) : (⟨S8x512x512, .f32⟩ : BufTy).Contents (Elt F) → (⟨S1x512x512, .f32⟩ : BufTy).Contents (Elt F)),
    StableHlo.reshape main_v643 main_v644 rfl shapeCasts_S1x512x512_S512x512,
    StableHlo.binary main_v644 main_v7 main_v645 (mulf : (⟨S512x512, .f32⟩ : BufTy).Contents (Elt F) → (⟨S512x512, .f32⟩ : BufTy).Contents (Elt F) → (⟨S512x512, .f32⟩ : BufTy).Contents (Elt F)),
    StableHlo.binary main_v645 main_v5 main_v646 (addf : (⟨S512x512, .f32⟩ : BufTy).Contents (Elt F) → (⟨S512x512, .f32⟩ : BufTy).Contents (Elt F) → (⟨S512x512, .f32⟩ : BufTy).Contents (Elt F)),
    StableHlo.unary main_arg5 main_v647 ((extractStridedSlice S1x512x512 ![6, 0, 0] · slices_S8x512x512_S1x512x512_6_0_0) : (⟨S8x512x512, .f32⟩ : BufTy).Contents (Elt F) → (⟨S1x512x512, .f32⟩ : BufTy).Contents (Elt F)),
    StableHlo.reshape main_v647 main_v648 rfl shapeCasts_S1x512x512_S512x512,
    StableHlo.binary main_v648 main_v8 main_v649 (mulf : (⟨S512x512, .f32⟩ : BufTy).Contents (Elt F) → (⟨S512x512, .f32⟩ : BufTy).Contents (Elt F) → (⟨S512x512, .f32⟩ : BufTy).Contents (Elt F)),
    StableHlo.unary main_arg6 main_v650 ((extractStridedSlice S1x512 ![6, 0] · slices_S8x512_S1x512_6_0) : (⟨S8x512, .f32⟩ : BufTy).Contents (Elt F) → (⟨S1x512, .f32⟩ : BufTy).Contents (Elt F)),
    StableHlo.reshape main_v650 main_v651 rfl shapeCasts_S1x512_S512,
    StableHlo.unary main_arg7 main_v652 ((extractStridedSlice S1x512 ![6, 0] · slices_S8x512_S1x512_6_0) : (⟨S8x512, .f32⟩ : BufTy).Contents (Elt F) → (⟨S1x512, .f32⟩ : BufTy).Contents (Elt F)),
    StableHlo.reshape main_v652 main_v653 rfl shapeCasts_S1x512_S512,
    StableHlo.unary main_v653 main_v654 (Host.exp : (⟨S512, .f32⟩ : BufTy).Contents (Elt F) → (⟨S512, .f32⟩ : BufTy).Contents (Elt F)),
    StableHlo.binary main_v651 main_v654 main_v655 (mulf : (⟨S512, .f32⟩ : BufTy).Contents (Elt F) → (⟨S512, .f32⟩ : BufTy).Contents (Elt F) → (⟨S512, .f32⟩ : BufTy).Contents (Elt F)),
    StableHlo.TRef.nullary (StableHlo.TRef.of (T := ⟨S_, .f32⟩) main_call20_cst) (constant S_ .f32 0x00000000#32),
    StableHlo.TRef.binary (StableHlo.TRef.of (T := ⟨S512, .f32⟩) main_v655) (StableHlo.TRef.of (T := ⟨S_, .f32⟩) main_call20_cst) (StableHlo.TRef.of (T := ⟨S512, .f32⟩) main_call20_v0) (fun x v => pad S512 ![0] ![0] ![0] x v pads_S512_S512_000 h_S_),
    StableHlo.TRef.nullary (StableHlo.TRef.of (T := ⟨S512x512, .i32⟩) main_call20_v1) (iotaInDim S512x512 32 0),
    StableHlo.TRef.nullary (StableHlo.TRef.of (T := ⟨S512x512, .i32⟩) main_call20_v2) (iotaInDim S512x512 32 1),
    StableHlo.TRef.nullary (StableHlo.TRef.of (T := ⟨S_, .i32⟩) main_call20_c) (constantI S_ 32 0#32),
    StableHlo.TRef.unary (StableHlo.TRef.of (T := ⟨S_, .i32⟩) main_call20_c) (StableHlo.TRef.of (T := ⟨S512x512, .i32⟩) main_call20_v3) (broadcastInDim S512x512 ![] bcast_S_S512x512),
    StableHlo.TRef.binary (StableHlo.TRef.of (T := ⟨S512x512, .i32⟩) main_call20_v1) (StableHlo.TRef.of (T := ⟨S512x512, .i32⟩) main_call20_v3) (StableHlo.TRef.of (T := ⟨S512x512, .i32⟩) main_call20_v4) addi,
    StableHlo.TRef.binary (StableHlo.TRef.of (T := ⟨S512x512, .i32⟩) main_call20_v4) (StableHlo.TRef.of (T := ⟨S512x512, .i32⟩) main_call20_v2) (StableHlo.TRef.of (T := ⟨S512x512, .i1⟩) main_call20_v5) (cmpi .eq),
    StableHlo.TRef.unary (StableHlo.TRef.of (T := ⟨S512, .f32⟩) main_call20_v0) (StableHlo.TRef.of (T := ⟨S512x1, .f32⟩) main_call20_v6) (broadcastInDim S512x1 ![0] bcast_S512_S512x1_0),
    StableHlo.TRef.nullary (StableHlo.TRef.of (T := ⟨S_, .f32⟩) main_call20_cst_0) (constant S_ .f32 0x00000000#32),
    StableHlo.TRef.unary (StableHlo.TRef.of (T := ⟨S512x1, .f32⟩) main_call20_v6) (StableHlo.TRef.of (T := ⟨S512x512, .f32⟩) main_call20_call0_v0) (broadcastInDim S512x512 ![0, 1] bcast_S512x1_S512x512_0_1),
    StableHlo.TRef.unary (StableHlo.TRef.of (T := ⟨S_, .f32⟩) main_call20_cst_0) (StableHlo.TRef.of (T := ⟨S512x512, .f32⟩) main_call20_call0_v1) (broadcastInDim S512x512 ![] bcast_S_S512x512),
    StableHlo.TRef.ternary (StableHlo.TRef.of (T := ⟨S512x512, .i1⟩) main_call20_v5) (StableHlo.TRef.of (T := ⟨S512x512, .f32⟩) main_call20_call0_v0) (StableHlo.TRef.of (T := ⟨S512x512, .f32⟩) main_call20_call0_v1) (StableHlo.TRef.of (T := ⟨S512x512, .f32⟩) main_v656) select,
    StableHlo.binary main_v649 main_v656 main_v657 (addf : (⟨S512x512, .f32⟩ : BufTy).Contents (Elt F) → (⟨S512x512, .f32⟩ : BufTy).Contents (Elt F) → (⟨S512x512, .f32⟩ : BufTy).Contents (Elt F)),
    StableHlo.unary main_arg3 main_v658 ((extractStridedSlice S1x512x512 ![6, 0, 0] · slices_S8x512x512_S1x512x512_6_0_0) : (⟨S8x512x512, .f32⟩ : BufTy).Contents (Elt F) → (⟨S1x512x512, .f32⟩ : BufTy).Contents (Elt F)),
    StableHlo.reshape main_v658 main_v659 rfl shapeCasts_S1x512x512_S512x512,
    StableHlo.binary main_v659 main_v646 main_v660 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.binary main_v660 main_v657 main_v661 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_v661 main_v662 ((transpose S512x512 [1, 0] · transposes_S512x512_S512x512_1_0) : (⟨S512x512, .f32⟩ : BufTy).Contents (Elt F) → (⟨S512x512, .f32⟩ : BufTy).Contents (Elt F)),
    StableHlo.binary main_v637 main_v662 main_v663 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg7 main_v664 ((extractStridedSlice S1x512 ![6, 0] · slices_S8x512_S1x512_6_0) : (⟨S8x512, .f32⟩ : BufTy).Contents (Elt F) → (⟨S1x512, .f32⟩ : BufTy).Contents (Elt F)),
    StableHlo.reshape main_v664 main_v665 rfl shapeCasts_S1x512_S512,
    StableHlo.nullary main_cst_43 (constant S_ .f32 0x00000000#32),
    StableHlo.binary main_v665 main_cst_43 main_v666 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v666 main_v667 (broadcastInDim S16384 ![] bcast_S_S16384 : (⟨S_, .f32⟩ : BufTy).Contents (Elt F) → (⟨S16384, .f32⟩ : BufTy).Contents (Elt F)),
    StableHlo.binary main_v642 main_v667 main_v668 (addf : (⟨S16384, .f32⟩ : BufTy).Contents (Elt F) → (⟨S16384, .f32⟩ : BufTy).Contents (Elt F) → (⟨S16384, .f32⟩ : BufTy).Contents (Elt F)),
    StableHlo.unary main_v13 main_v669 (broadcastInDim S1x512 ![1] bcast_S512_S1x512_1 : (⟨S512, .f32⟩ : BufTy).Contents (Elt F) → (⟨S1x512, .f32⟩ : BufTy).Contents (Elt F)),
    StableHlo.unary main_v669 main_v670 (broadcastInDim S16384x512 ![0, 1] bcast_S1x512_S16384x512_0_1 : (⟨S1x512, .f32⟩ : BufTy).Contents (Elt F) → (⟨S16384x512, .f32⟩ : BufTy).Contents (Elt F)),
    StableHlo.binary main_v670 main_v663 main_v671 (mulf : (⟨S16384x512, .f32⟩ : BufTy).Contents (Elt F) → (⟨S16384x512, .f32⟩ : BufTy).Contents (Elt F) → (⟨S16384x512, .f32⟩ : BufTy).Contents (Elt F)),
    StableHlo.unary main_arg8 main_v672 ((extractStridedSlice S1x512x1024 ![6, 0, 0] · slices_S8x512x1024_S1x512x1024_6_0_0) : (⟨S8x512x1024, .f32⟩ : BufTy).Contents (Elt F) → (⟨S1x512x1024, .f32⟩ : BufTy).Contents (Elt F)),
    StableHlo.reshape main_v672 main_v673 rfl shapeCasts_S1x512x1024_S512x1024 ]

/-- The buffers pc18's operations write, in order. -/
abbrev pc18_W : List (Ref sig .tc) :=
  [main_v627, main_v628, main_v629, main_v630, main_v631, main_v632, main_v633, main_v634, main_v635, main_v636, main_v637, main_v638, main_v639, main_cst_42, main_v640, main_v641, main_v642, main_v643, main_v644, main_v645, main_v646, main_v647, main_v648, main_v649, main_v650, main_v651, main_v652, main_v653, main_v654, main_v655, main_call20_cst, main_call20_v0, main_call20_v1, main_call20_v2, main_call20_c, main_call20_v3, main_call20_v4, main_call20_v5, main_call20_v6, main_call20_cst_0, main_call20_call0_v0, main_call20_call0_v1, main_v656, main_v657, main_v658, main_v659, main_v660, main_v661, main_v662, main_v663, main_v664, main_v665, main_cst_43, main_v666, main_v667, main_v668, main_v669, main_v670, main_v671, main_v672, main_v673]

set_option maxRecDepth 8192 in
theorem pc18_sub : (pc18 : List (HloOp τ sig (Elt F))).Forall fun op => op.bufs ⊆ tcRefs τ sig :=
  ⟨unary_bufs_sub .., reshape_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., binary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., reshape_bufs_sub .., binary_bufs_sub .., binary_bufs_sub .., unary_bufs_sub .., binary_bufs_sub .., unary_bufs_sub .., reshape_bufs_sub .., nullary_bufs_sub .., binary_bufs_sub .., unary_bufs_sub .., binary_bufs_sub .., unary_bufs_sub .., unary_bufs_sub .., binary_bufs_sub .., unary_bufs_sub .., reshape_bufs_sub ..⟩
set_option maxRecDepth 8192 in
theorem pc18_fresh : (pc18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc18_writes : (pc18 : List (HloOp τ sig (Elt F))).Forall fun op => op.writes ⊆ (pc18_W.map (Proc.devRef (τ := τ) .tc)).toFinset :=
  ⟨writes_sub_of_mem (y := main_v627) (by decide), writes_sub_of_mem (y := main_v628) (by decide), writes_sub_of_mem (y := main_v629) (by decide), writes_sub_of_mem (y := main_v630) (by decide), writes_sub_of_mem (y := main_v631) (by decide), writes_sub_of_mem (y := main_v632) (by decide), writes_sub_of_mem (y := main_v633) (by decide), writes_sub_of_mem (y := main_v634) (by decide), writes_sub_of_mem (y := main_v635) (by decide), writes_sub_of_mem (y := main_v636) (by decide), writes_sub_of_mem (y := main_v637) (by decide), writes_sub_of_mem (y := main_v638) (by decide), writes_sub_of_mem (y := main_v639) (by decide), writes_sub_of_mem (y := main_cst_42) (by decide), writes_sub_of_mem (y := main_v640) (by decide), writes_sub_of_mem (y := main_v641) (by decide), writes_sub_of_mem (y := main_v642) (by decide), writes_sub_of_mem (y := main_v643) (by decide), writes_sub_of_mem (y := main_v644) (by decide), writes_sub_of_mem (y := main_v645) (by decide), writes_sub_of_mem (y := main_v646) (by decide), writes_sub_of_mem (y := main_v647) (by decide), writes_sub_of_mem (y := main_v648) (by decide), writes_sub_of_mem (y := main_v649) (by decide), writes_sub_of_mem (y := main_v650) (by decide), writes_sub_of_mem (y := main_v651) (by decide), writes_sub_of_mem (y := main_v652) (by decide), writes_sub_of_mem (y := main_v653) (by decide), writes_sub_of_mem (y := main_v654) (by decide), writes_sub_of_mem (y := main_v655) (by decide), writes_sub_of_mem (y := main_call20_cst) (by decide), writes_sub_of_mem (y := main_call20_v0) (by decide), writes_sub_of_mem (y := main_call20_v1) (by decide), writes_sub_of_mem (y := main_call20_v2) (by decide), writes_sub_of_mem (y := main_call20_c) (by decide), writes_sub_of_mem (y := main_call20_v3) (by decide), writes_sub_of_mem (y := main_call20_v4) (by decide), writes_sub_of_mem (y := main_call20_v5) (by decide), writes_sub_of_mem (y := main_call20_v6) (by decide), writes_sub_of_mem (y := main_call20_cst_0) (by decide), writes_sub_of_mem (y := main_call20_call0_v0) (by decide), writes_sub_of_mem (y := main_call20_call0_v1) (by decide), writes_sub_of_mem (y := main_v656) (by decide), writes_sub_of_mem (y := main_v657) (by decide), writes_sub_of_mem (y := main_v658) (by decide), writes_sub_of_mem (y := main_v659) (by decide), writes_sub_of_mem (y := main_v660) (by decide), writes_sub_of_mem (y := main_v661) (by decide), writes_sub_of_mem (y := main_v662) (by decide), writes_sub_of_mem (y := main_v663) (by decide), writes_sub_of_mem (y := main_v664) (by decide), writes_sub_of_mem (y := main_v665) (by decide), writes_sub_of_mem (y := main_cst_43) (by decide), writes_sub_of_mem (y := main_v666) (by decide), writes_sub_of_mem (y := main_v667) (by decide), writes_sub_of_mem (y := main_v668) (by decide), writes_sub_of_mem (y := main_v669) (by decide), writes_sub_of_mem (y := main_v670) (by decide), writes_sub_of_mem (y := main_v671) (by decide), writes_sub_of_mem (y := main_v672) (by decide), writes_sub_of_mem (y := main_v673) (by decide)⟩

set_option maxRecDepth 16384 in
set_option maxHeartbeats 4000000 in
/-- The window is the straight line of its operations: the called functions unfold at their calls, and sequencing reassociates. -/
theorem main_part11_eq (c : Dev nD) : main_part11 (F := F) c = seq (pc17 ++ (pc18)) := by
  rfl

end Cert.ReferenceIdeal.RunHand

end
-- ==== Proof.RefRun12.lean ====
/- The reference program's window main_part12 (statements 721 … 780 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 721 … 778 (from '%674 = stablehlo.dot_general %671, %673, contracting_dims = [1] x [0], precision = [DEFAULT, DEFAULT]' to '%727 = stablehlo.add %668, %726'): 62 operations, a called function's standing in its call's place. -/
abbrev pc19 : List (HloOp τ sig (Elt F)) :=
  [ StableHlo.binary main_v671 main_v673 main_v674 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg9 main_v675 ((extractStridedSlice S1x1024 ![6, 0] · slices_S8x1024_S1x1024_6_0) : (⟨S8x1024, .f32⟩ : BufTy).Contents (Elt F) → (⟨S1x1024, .f32⟩ : BufTy).Contents (Elt F)),
    StableHlo.reshape main_v675 main_v676 rfl shapeCasts_S1x1024_S1024,
    StableHlo.unary main_v676 main_v677 (broadcastInDim S1x1024 ![1] bcast_S1024_S1x1024_1 : (⟨S1024, .f32⟩ : BufTy).Contents (Elt F) → (⟨S1x1024, .f32⟩ : BufTy).Contents (Elt F)),
    StableHlo.unary main_v677 main_v678 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v674 main_v678 main_v679 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call21_cst) (constant S_ .f32 0x00000000#32),
    StableHlo.TRef.unary (StableHlo.TRef.of (T := ⟨S_, .f32⟩) main_call21_cst) (StableHlo.TRef.of (T := ⟨S16384x1024, .f32⟩) main_call21_v0) (broadcastInDim S16384x1024 ![] bcast_S_S16384x1024),
    StableHlo.TRef.binary (StableHlo.TRef.of (T := ⟨S16384x1024, .f32⟩) main_v679) (StableHlo.TRef.of (T := ⟨S16384x1024, .f32⟩) main_call21_v0) (StableHlo.TRef.of (T := ⟨S16384x1024, .f32⟩) main_v680) maximumf,
    StableHlo.unary main_arg10 main_v681 ((extractStridedSlice S1x1024x512 ![6, 0, 0] · slices_S8x1024x512_S1x1024x512_6_0_0) : (⟨S8x1024x512, .f32⟩ : BufTy).Contents (Elt F) → (⟨S1x1024x512, .f32⟩ : BufTy).Contents (Elt F)),
    StableHlo.reshape main_v681 main_v682 rfl shapeCasts_S1x1024x512_S1024x512,
    StableHlo.binary main_v680 main_v682 main_v683 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg11 main_v684 ((extractStridedSlice S1x512 ![6, 0] · slices_S8x512_S1x512_6_0) : (⟨S8x512, .f32⟩ : BufTy).Contents (Elt F) → (⟨S1x512, .f32⟩ : BufTy).Contents (Elt F)),
    StableHlo.reshape main_v684 main_v685 rfl shapeCasts_S1x512_S512,
    StableHlo.unary main_v685 main_v686 (broadcastInDim S1x512 ![1] bcast_S512_S1x512_1 : (⟨S512, .f32⟩ : BufTy).Contents (Elt F) → (⟨S1x512, .f32⟩ : BufTy).Contents (Elt F)),
    StableHlo.unary main_v686 main_v687 (broadcastInDim S16384x512 ![0, 1] bcast_S1x512_S16384x512_0_1 : (⟨S1x512, .f32⟩ : BufTy).Contents (Elt F) → (⟨S16384x512, .f32⟩ : BufTy).Contents (Elt F)),
    StableHlo.binary main_v683 main_v687 main_v688 (addf : (⟨S16384x512, .f32⟩ : BufTy).Contents (Elt F) → (⟨S16384x512, .f32⟩ : BufTy).Contents (Elt F) → (⟨S16384x512, .f32⟩ : BufTy).Contents (Elt F)),
    StableHlo.unary main_v688 main_v689 (Host.tanh : (⟨S16384x512, .f32⟩ : BufTy).Contents (Elt F) → (⟨S16384x512, .f32⟩ : BufTy).Contents (Elt F)),
    StableHlo.nullary main_cst_44 (constant S_ .f32 0x3F800000#32),
    StableHlo.unary main_cst_44 main_v690 (broadcastInDim S512 ![] bcast_S_S512 : (⟨S_, .f32⟩ : BufTy).Contents (Elt F) → (⟨S512, .f32⟩ : BufTy).Contents (Elt F)),
    StableHlo.binary main_v690 main_v13 main_v691 (subf : (⟨S512, .f32⟩ : BufTy).Contents (Elt F) → (⟨S512, .f32⟩ : BufTy).Contents (Elt F) → (⟨S512, .f32⟩ : BufTy).Contents (Elt F)),
    StableHlo.unary main_v691 main_v692 (broadcastInDim S1x512 ![1] bcast_S512_S1x512_1 : (⟨S512, .f32⟩ : BufTy).Contents (Elt F) → (⟨S1x512, .f32⟩ : BufTy).Contents (Elt F)),
    StableHlo.unary main_v692 main_v693 (broadcastInDim S16384x512 ![0, 1] bcast_S1x512_S16384x512_0_1 : (⟨S1x512, .f32⟩ : BufTy).Contents (Elt F) → (⟨S16384x512, .f32⟩ : BufTy).Contents (Elt F)),
    StableHlo.binary main_v689 main_v693 main_v694 (mulf : (⟨S16384x512, .f32⟩ : BufTy).Contents (Elt F) → (⟨S16384x512, .f32⟩ : BufTy).Contents (Elt F) → (⟨S16384x512, .f32⟩ : BufTy).Contents (Elt F)),
    StableHlo.unary main_arg12 main_v695 ((extractStridedSlice S1x512x1024 ![6, 0, 0] · slices_S8x512x1024_S1x512x1024_6_0_0) : (⟨S8x512x1024, .f32⟩ : BufTy).Contents (Elt F) → (⟨S1x512x1024, .f32⟩ : BufTy).Contents (Elt F)),
    StableHlo.reshape main_v695 main_v696 rfl shapeCasts_S1x512x1024_S512x1024,
    StableHlo.binary main_v671 main_v696 main_v697 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg13 main_v698 ((extractStridedSlice S1x1024 ![6, 0] · slices_S8x1024_S1x1024_6_0) : (⟨S8x1024, .f32⟩ : BufTy).Contents (Elt F) → (⟨S1x1024, .f32⟩ : BufTy).Contents (Elt F)),
    StableHlo.reshape main_v698 main_v699 rfl shapeCasts_S1x1024_S1024,
    StableHlo.unary main_v699 main_v700 (broadcastInDim S1x1024 ![1] bcast_S1024_S1x1024_1 : (⟨S1024, .f32⟩ : BufTy).Contents (Elt F) → (⟨S1x1024, .f32⟩ : BufTy).Contents (Elt F)),
    StableHlo.unary main_v700 main_v701 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v697 main_v701 main_v702 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call22_cst) (constant S_ .f32 0x00000000#32),
    StableHlo.TRef.unary (StableHlo.TRef.of (T := ⟨S_, .f32⟩) main_call22_cst) (StableHlo.TRef.of (T := ⟨S16384x1024, .f32⟩) main_call22_v0) (broadcastInDim S16384x1024 ![] bcast_S_S16384x1024),
    StableHlo.TRef.binary (StableHlo.TRef.of (T := ⟨S16384x1024, .f32⟩) main_v702) (StableHlo.TRef.of (T := ⟨S16384x1024, .f32⟩) main_call22_v0) (StableHlo.TRef.of (T := ⟨S16384x1024, .f32⟩) main_v703) maximumf,
    StableHlo.unary main_arg14 main_v704 ((extractStridedSlice S1x1024x512 ![6, 0, 0] · slices_S8x1024x512_S1x1024x512_6_0_0) : (⟨S8x1024x512, .f32⟩ : BufTy).Contents (Elt F) → (⟨S1x1024x512, .f32⟩ : BufTy).Contents (Elt F)),
    StableHlo.reshape main_v704 main_v705 rfl shapeCasts_S1x1024x512_S1024x512,
    StableHlo.binary main_v703 main_v705 main_v706 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg15 main_v707 ((extractStridedSlice S1x512 ![6, 0] · slices_S8x512_S1x512_6_0) : (⟨S8x512, .f32⟩ : BufTy).Contents (Elt F) → (⟨S1x512, .f32⟩ : BufTy).Contents (Elt F)),
    StableHlo.reshape main_v707 main_v708 rfl shapeCasts_S1x512_S512,
    StableHlo.unary main_v708 main_v709 (broadcastInDim S1x512 ![1] bcast_S512_S1x512_1 : (⟨S512, .f32⟩ : BufTy).Contents (Elt F) → (⟨S1x512, .f32⟩ : BufTy).Contents (Elt F)),
    StableHlo.unary main_v709 main_v710 (broadcastInDim S16384x512 ![0, 1] bcast_S1x512_S16384x512_0_1 : (⟨S1x512, .f32⟩ : BufTy).Contents (Elt F) → (⟨S16384x512, .f32⟩ : BufTy).Contents (Elt F)),
    StableHlo.binary main_v706 main_v710 main_v711 (addf : (⟨S16384x512, .f32⟩ : BufTy).Contents (Elt F) → (⟨S16384x512, .f32⟩ : BufTy).Contents (Elt F) → (⟨S16384x512, .f32⟩ : BufTy).Contents (Elt F)),
    StableHlo.nullary main_cst_45 (constant S_ .f32 0x3F800000#32),
    StableHlo.unary main_cst_45 main_v712 (broadcastInDim S512 ![] bcast_S_S512 : (⟨S_, .f32⟩ : BufTy).Contents (Elt F) → (⟨S512, .f32⟩ : BufTy).Contents (Elt F)),
    StableHlo.binary main_v712 main_v13 main_v713 (subf : (⟨S512, .f32⟩ : BufTy).Contents (Elt F) → (⟨S512, .f32⟩ : BufTy).Contents (Elt F) → (⟨S512, .f32⟩ : BufTy).Contents (Elt F)),
    StableHlo.unary main_v713 main_v714 (broadcastInDim S1x512 ![1] bcast_S512_S1x512_1 : (⟨S512, .f32⟩ : BufTy).Contents (Elt F) → (⟨S1x512, .f32⟩ : BufTy).Contents (Elt F)),
    StableHlo.unary main_v714 main_v715 (broadcastInDim S16384x512 ![0, 1] bcast_S1x512_S16384x512_0_1 : (⟨S1x512, .f32⟩ : BufTy).Contents (Elt F) → (⟨S16384x512, .f32⟩ : BufTy).Contents (Elt F)),
    StableHlo.binary main_v711 main_v715 main_v716 (mulf : (⟨S16384x512, .f32⟩ : BufTy).Contents (Elt F) → (⟨S16384x512, .f32⟩ : BufTy).Contents (Elt F) → (⟨S16384x512, .f32⟩ : BufTy).Contents (Elt F)),
    StableHlo.nullary main_cst_46 (constant S_ .f32 0x3F800000#32),
    StableHlo.unary main_cst_46 main_v717 (broadcastInDim S512 ![] bcast_S_S512 : (⟨S_, .f32⟩ : BufTy).Contents (Elt F) → (⟨S512, .f32⟩ : BufTy).Contents (Elt F)),
    StableHlo.binary main_v717 main_v13 main_v718 (subf : (⟨S512, .f32⟩ : BufTy).Contents (Elt F) → (⟨S512, .f32⟩ : BufTy).Contents (Elt F) → (⟨S512, .f32⟩ : BufTy).Contents (Elt F)),
    StableHlo.unary main_v694 main_v719 (Host.exp : (⟨S16384x512, .f32⟩ : BufTy).Contents (Elt F) → (⟨S16384x512, .f32⟩ : BufTy).Contents (Elt F)),
    StableHlo.binary main_v663 main_v719 main_v720 (mulf : (⟨S16384x512, .f32⟩ : BufTy).Contents (Elt F) → (⟨S16384x512, .f32⟩ : BufTy).Contents (Elt F) → (⟨S16384x512, .f32⟩ : BufTy).Contents (Elt F)),
    StableHlo.binary main_v720 main_v716 main_v721 (addf : (⟨S16384x512, .f32⟩ : BufTy).Contents (Elt F) → (⟨S16384x512, .f32⟩ : BufTy).Contents (Elt F) → (⟨S16384x512, .f32⟩ : BufTy).Contents (Elt F)),
    StableHlo.unary main_v718 main_v722 (broadcastInDim S1x512 ![1] bcast_S512_S1x512_1 : (⟨S512, .f32⟩ : BufTy).Contents (Elt F) → (⟨S1x512, .f32⟩ : BufTy).Contents (Elt F)),
    StableHlo.unary main_v722 main_v723 (broadcastInDim S16384x512 ![0, 1] bcast_S1x512_S16384x512_0_1 : (⟨S1x512, .f32⟩ : BufTy).Contents (Elt F) → (⟨S16384x512, .f32⟩ : BufTy).Contents (Elt F)),
    StableHlo.binary main_v723 main_v721 main_v724 (mulf : (⟨S16384x512, .f32⟩ : BufTy).Contents (Elt F) → (⟨S16384x512, .f32⟩ : BufTy).Contents (Elt F) → (⟨S16384x512, .f32⟩ : BufTy).Contents (Elt F)),
    StableHlo.binary main_v671 main_v724 main_v725 (addf : (⟨S16384x512, .f32⟩ : BufTy).Contents (Elt F) → (⟨S16384x512, .f32⟩ : BufTy).Contents (Elt F) → (⟨S16384x512, .f32⟩ : BufTy).Contents (Elt F)),
    StableHlo.nullary main_cst_47 (constant S_ .f32 0x00000000#32),
    StableHlo.binary main_v694 main_cst_47 main_v726 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v668 main_v726 main_v727 (addf : (⟨S16384, .f32⟩ : BufTy).Contents (Elt F) → (⟨S16384, .f32⟩ : BufTy).Contents (Elt F) → (⟨S16384, .f32⟩ : BufTy).Contents (Elt F)) ]

/-- The buffers pc19's operations write, in order. -/
abbrev pc19_W : List (Ref sig .tc) :=
  [main_v674, main_v675, main_v676, main_v677, main_v678, main_v679, main_call21_cst, main_call21_v0, main_v680, main_v681, main_v682, main_v683, main_v684, main_v685, main_v686, main_v687, main_v688, main_v689, main_cst_44, main_v690, main_v691, main_v692, main_v693, main_v694, main_v695, main_v696, main_v697, main_v698, main_v699, main_v700, main_v701, main_v702, main_call22_cst, main_call22_v0, main_v703, main_v704, main_v705, main_v706, main_v707, main_v708, main_v709, main_v710, main_v711, main_cst_45, main_v712, main_v713, main_v714, main_v715, main_v716, main_cst_46, main_v717, main_v718, main_v719, main_v720, main_v721, main_v722, main_v723, main_v724, main_v725, main_cst_47, main_v726, main_v727]

set_option maxRecDepth 8192 in
theorem pc19_sub : (pc19 : List (HloOp τ sig (Elt F))).Forall fun op => op.bufs ⊆ tcRefs τ sig :=
  ⟨binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., binary_bufs_sub ..⟩
set_option maxRecDepth 8192 in
theorem pc19_fresh : (pc19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc19_writes : (pc19 : List (HloOp τ sig (Elt F))).Forall fun op => op.writes ⊆ (pc19_W.map (Proc.devRef (τ := τ) .tc)).toFinset :=
  ⟨writes_sub_of_mem (y := main_v674) (by decide), writes_sub_of_mem (y := main_v675) (by decide), writes_sub_of_mem (y := main_v676) (by decide), writes_sub_of_mem (y := main_v677) (by decide), writes_sub_of_mem (y := main_v678) (by decide), writes_sub_of_mem (y := main_v679) (by decide), writes_sub_of_mem (y := main_call21_cst) (by decide), writes_sub_of_mem (y := main_call21_v0) (by decide), writes_sub_of_mem (y := main_v680) (by decide), writes_sub_of_mem (y := main_v681) (by decide), writes_sub_of_mem (y := main_v682) (by decide), writes_sub_of_mem (y := main_v683) (by decide), writes_sub_of_mem (y := main_v684) (by decide), writes_sub_of_mem (y := main_v685) (by decide), writes_sub_of_mem (y := main_v686) (by decide), writes_sub_of_mem (y := main_v687) (by decide), writes_sub_of_mem (y := main_v688) (by decide), writes_sub_of_mem (y := main_v689) (by decide), writes_sub_of_mem (y := main_cst_44) (by decide), writes_sub_of_mem (y := main_v690) (by decide), writes_sub_of_mem (y := main_v691) (by decide), writes_sub_of_mem (y := main_v692) (by decide), writes_sub_of_mem (y := main_v693) (by decide), writes_sub_of_mem (y := main_v694) (by decide), writes_sub_of_mem (y := main_v695) (by decide), writes_sub_of_mem (y := main_v696) (by decide), writes_sub_of_mem (y := main_v697) (by decide), writes_sub_of_mem (y := main_v698) (by decide), writes_sub_of_mem (y := main_v699) (by decide), writes_sub_of_mem (y := main_v700) (by decide), writes_sub_of_mem (y := main_v701) (by decide), writes_sub_of_mem (y := main_v702) (by decide), writes_sub_of_mem (y := main_call22_cst) (by decide), writes_sub_of_mem (y := main_call22_v0) (by decide), writes_sub_of_mem (y := main_v703) (by decide), writes_sub_of_mem (y := main_v704) (by decide), writes_sub_of_mem (y := main_v705) (by decide), writes_sub_of_mem (y := main_v706) (by decide), writes_sub_of_mem (y := main_v707) (by decide), writes_sub_of_mem (y := main_v708) (by decide), writes_sub_of_mem (y := main_v709) (by decide), writes_sub_of_mem (y := main_v710) (by decide), writes_sub_of_mem (y := main_v711) (by decide), writes_sub_of_mem (y := main_cst_45) (by decide), writes_sub_of_mem (y := main_v712) (by decide), writes_sub_of_mem (y := main_v713) (by decide), writes_sub_of_mem (y := main_v714) (by decide), writes_sub_of_mem (y := main_v715) (by decide), writes_sub_of_mem (y := main_v716) (by decide), writes_sub_of_mem (y := main_cst_46) (by decide), writes_sub_of_mem (y := main_v717) (by decide), writes_sub_of_mem (y := main_v718) (by decide), writes_sub_of_mem (y := main_v719) (by decide), writes_sub_of_mem (y := main_v720) (by decide), writes_sub_of_mem (y := main_v721) (by decide), writes_sub_of_mem (y := main_v722) (by decide), writes_sub_of_mem (y := main_v723) (by decide), writes_sub_of_mem (y := main_v724) (by decide), writes_sub_of_mem (y := main_v725) (by decide), writes_sub_of_mem (y := main_cst_47) (by decide), writes_sub_of_mem (y := main_v726) (by decide), writes_sub_of_mem (y := main_v727) (by decide)⟩

/-- @main's statements 779 … 780 (from '%cst_48 = stablehlo.constant dense<1.000000e+00>' to '%728 = stablehlo.broadcast_in_dim %cst_48, dims = []'): 2 operations, a called function's standing in its call's place. -/
abbrev pc20 : List (HloOp τ sig (Elt F)) :=
  [ StableHlo.nullary main_cst_48 (constant S_ .f32 0x3F800000#32),
    StableHlo.unary main_cst_48 main_v728 (broadcastInDim S512 ![] bcast_S_S512 : (⟨S_, .f32⟩ : BufTy).Contents (Elt F) → (⟨S512, .f32⟩ : BufTy).Contents (Elt F)) ]

/-- The buffers pc20's operations write, in order. -/
abbrev pc20_W : List (Ref sig .tc) :=
  [main_cst_48, main_v728]

set_option maxRecDepth 8192 in
theorem pc20_sub : (pc20 : List (HloOp τ sig (Elt F))).Forall fun op => op.bufs ⊆ tcRefs τ sig :=
  ⟨nullary_bufs_sub .., unary_bufs_sub ..⟩
set_option maxRecDepth 8192 in
theorem pc20_fresh : (pc20 : List (HloOp τ sig (Elt F))).Forall fun op => op.fresh = ∅ :=
  ⟨rfl, rfl⟩
set_option maxRecDepth 8192 in
theorem pc20_writes : (pc20 : List (HloOp τ sig (Elt F))).Forall fun op => op.writes ⊆ (pc20_W.map (Proc.devRef (τ := τ) .tc)).toFinset :=
  ⟨writes_sub_of_mem (y := main_cst_48) (by decide), writes_sub_of_mem (y := main_v728) (by decide)⟩

set_option maxRecDepth 16384 in
set_option maxHeartbeats 4000000 in
/-- The window is the straight line of its operations: the called functions unfold at their calls, and sequencing reassociates. -/
theorem main_part12_eq (c : Dev nD) : main_part12 (F := F) c = seq (pc19 ++ (pc20)) := by
  rfl

end Cert.ReferenceIdeal.RunHand

end
-- ==== Proof.RefRun13.lean ====
/- The reference program's window main_part13 (statements 781 … 840 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 781 … 840 (from '%729 = stablehlo.subtract %728, %13' to '%786 = stablehlo.dot_general %783, %785, contracting_dims = [1] x [0], precision = [DEFAULT, DEFAULT]'): 74 operations, a called function's standing in its call's place. -/
abbrev pc21 : List (HloOp τ sig (Elt F)) :=
  [ StableHlo.binary main_v728 main_v13 main_v729 (subf : (⟨S512, .f32⟩ : BufTy).Contents (Elt F) → (⟨S512, .f32⟩ : BufTy).Contents (Elt F) → (⟨S512, .f32⟩ : BufTy).Contents (Elt F)),
    StableHlo.unary main_arg1 main_v730 ((extractStridedSlice S1x512 ![7, 0] · slices_S8x512_S1x512_7_0) : (⟨S8x512, .f32⟩ : BufTy).Contents (Elt F) → (⟨S1x512, .f32⟩ : BufTy).Contents (Elt F)),
    StableHlo.reshape main_v730 main_v731 rfl shapeCasts_S1x512_S512,
    StableHlo.unary main_v731 main_v732 (Host.exp : (⟨S512, .f32⟩ : BufTy).Contents (Elt F) → (⟨S512, .f32⟩ : BufTy).Contents (Elt F)),
    StableHlo.unary main_v732 main_v733 (broadcastInDim S1x512 ![1] bcast_S512_S1x512_1 : (⟨S512, .f32⟩ : BufTy).Contents (Elt F) → (⟨S1x512, .f32⟩ : BufTy).Contents (Elt F)),
    StableHlo.unary main_v733 main_v734 (broadcastInDim S16384x512 ![0, 1] bcast_S1x512_S16384x512_0_1 : (⟨S1x512, .f32⟩ : BufTy).Contents (Elt F) → (⟨S16384x512, .f32⟩ : BufTy).Contents (Elt F)),
    StableHlo.binary main_v734 main_v725 main_v735 (mulf : (⟨S16384x512, .f32⟩ : BufTy).Contents (Elt F) → (⟨S16384x512, .f32⟩ : BufTy).Contents (Elt F) → (⟨S16384x512, .f32⟩ : BufTy).Contents (Elt F)),
    StableHlo.unary main_arg2 main_v736 ((extractStridedSlice S1x512 ![7, 0] · slices_S8x512_S1x512_7_0) : (⟨S8x512, .f32⟩ : BufTy).Contents (Elt F) → (⟨S1x512, .f32⟩ : BufTy).Contents (Elt F)),
    StableHlo.reshape main_v736 main_v737 rfl shapeCasts_S1x512_S512,
    StableHlo.unary main_v737 main_v738 (broadcastInDim S1x512 ![1] bcast_S512_S1x512_1 : (⟨S512, .f32⟩ : BufTy).Contents (Elt F) → (⟨S1x512, .f32⟩ : BufTy).Contents (Elt F)),
    StableHlo.unary main_v738 main_v739 (broadcastInDim S16384x512 ![0, 1] bcast_S1x512_S16384x512_0_1 : (⟨S1x512, .f32⟩ : BufTy).Contents (Elt F) → (⟨S16384x512, .f32⟩ : BufTy).Contents (Elt F)),
    StableHlo.binary main_v735 main_v739 main_v740 (addf : (⟨S16384x512, .f32⟩ : BufTy).Contents (Elt F) → (⟨S16384x512, .f32⟩ : BufTy).Contents (Elt F) → (⟨S16384x512, .f32⟩ : BufTy).Contents (Elt F)),
    StableHlo.unary main_arg1 main_v741 ((extractStridedSlice S1x512 ![7, 0] · slices_S8x512_S1x512_7_0) : (⟨S8x512, .f32⟩ : BufTy).Contents (Elt F) → (⟨S1x512, .f32⟩ : BufTy).Contents (Elt F)),
    StableHlo.reshape main_v741 main_v742 rfl shapeCasts_S1x512_S512,
    StableHlo.nullary main_cst_49 (constant S_ .f32 0x00000000#32),
    StableHlo.binary main_v742 main_cst_49 main_v743 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v743 main_v744 (broadcastInDim S16384 ![] bcast_S_S16384 : (⟨S_, .f32⟩ : BufTy).Contents (Elt F) → (⟨S16384, .f32⟩ : BufTy).Contents (Elt F)),
    StableHlo.binary main_v727 main_v744 main_v745 (addf : (⟨S16384, .f32⟩ : BufTy).Contents (Elt F) → (⟨S16384, .f32⟩ : BufTy).Contents (Elt F) → (⟨S16384, .f32⟩ : BufTy).Contents (Elt F)),
    StableHlo.unary main_arg4 main_v746 ((extractStridedSlice S1x512x512 ![7, 0, 0] · slices_S8x512x512_S1x512x512_7_0_0) : (⟨S8x512x512, .f32⟩ : BufTy).Contents (Elt F) → (⟨S1x512x512, .f32⟩ : BufTy).Contents (Elt F)),
    StableHlo.reshape main_v746 main_v747 rfl shapeCasts_S1x512x512_S512x512,
    StableHlo.binary main_v747 main_v7 main_v748 (mulf : (⟨S512x512, .f32⟩ : BufTy).Contents (Elt F) → (⟨S512x512, .f32⟩ : BufTy).Contents (Elt F) → (⟨S512x512, .f32⟩ : BufTy).Contents (Elt F)),
    StableHlo.binary main_v748 main_v5 main_v749 (addf : (⟨S512x512, .f32⟩ : BufTy).Contents (Elt F) → (⟨S512x512, .f32⟩ : BufTy).Contents (Elt F) → (⟨S512x512, .f32⟩ : BufTy).Contents (Elt F)),
    StableHlo.unary main_arg5 main_v750 ((extractStridedSlice S1x512x512 ![7, 0, 0] · slices_S8x512x512_S1x512x512_7_0_0) : (⟨S8x512x512, .f32⟩ : BufTy).Contents (Elt F) → (⟨S1x512x512, .f32⟩ : BufTy).Contents (Elt F)),
    StableHlo.reshape main_v750 main_v751 rfl shapeCasts_S1x512x512_S512x512,
    StableHlo.binary main_v751 main_v8 main_v752 (mulf : (⟨S512x512, .f32⟩ : BufTy).Contents (Elt F) → (⟨S512x512, .f32⟩ : BufTy).Contents (Elt F) → (⟨S512x512, .f32⟩ : BufTy).Contents (Elt F)),
    StableHlo.unary main_arg6 main_v753 ((extractStridedSlice S1x512 ![7, 0] · slices_S8x512_S1x512_7_0) : (⟨S8x512, .f32⟩ : BufTy).Contents (Elt F) → (⟨S1x512, .f32⟩ : BufTy).Contents (Elt F)),
    StableHlo.reshape main_v753 main_v754 rfl shapeCasts_S1x512_S512,
    StableHlo.unary main_arg7 main_v755 ((extractStridedSlice S1x512 ![7, 0] · slices_S8x512_S1x512_7_0) : (⟨S8x512, .f32⟩ : BufTy).Contents (Elt F) → (⟨S1x512, .f32⟩ : BufTy).Contents (Elt F)),
    StableHlo.reshape main_v755 main_v756 rfl shapeCasts_S1x512_S512,
    StableHlo.unary main_v756 main_v757 (Host.exp : (⟨S512, .f32⟩ : BufTy).Contents (Elt F) → (⟨S512, .f32⟩ : BufTy).Contents (Elt F)),
    StableHlo.binary main_v754 main_v757 main_v758 (mulf : (⟨S512, .f32⟩ : BufTy).Contents (Elt F) → (⟨S512, .f32⟩ : BufTy).Contents (Elt F) → (⟨S512, .f32⟩ : BufTy).Contents (Elt F)),
    StableHlo.TRef.nullary (StableHlo.TRef.of (T := ⟨S_, .f32⟩) main_call23_cst) (constant S_ .f32 0x00000000#32),
    StableHlo.TRef.binary (StableHlo.TRef.of (T := ⟨S512, .f32⟩) main_v758) (StableHlo.TRef.of (T := ⟨S_, .f32⟩) main_call23_cst) (StableHlo.TRef.of (T := ⟨S512, .f32⟩) main_call23_v0) (fun x v => pad S512 ![0] ![0] ![0] x v pads_S512_S512_000 h_S_),
    StableHlo.TRef.nullary (StableHlo.TRef.of (T := ⟨S512x512, .i32⟩) main_call23_v1) (iotaInDim S512x512 32 0),
    StableHlo.TRef.nullary (StableHlo.TRef.of (T := ⟨S512x512, .i32⟩) main_call23_v2) (iotaInDim S512x512 32 1),
    StableHlo.TRef.nullary (StableHlo.TRef.of (T := ⟨S_, .i32⟩) main_call23_c) (constantI S_ 32 0#32),
    StableHlo.TRef.unary (StableHlo.TRef.of (T := ⟨S_, .i32⟩) main_call23_c) (StableHlo.TRef.of (T := ⟨S512x512, .i32⟩) main_call23_v3) (broadcastInDim S512x512 ![] bcast_S_S512x512),
    StableHlo.TRef.binary (StableHlo.TRef.of (T := ⟨S512x512, .i32⟩) main_call23_v1) (StableHlo.TRef.of (T := ⟨S512x512, .i32⟩) main_call23_v3) (StableHlo.TRef.of (T := ⟨S512x512, .i32⟩) main_call23_v4) addi,
    StableHlo.TRef.binary (StableHlo.TRef.of (T := ⟨S512x512, .i32⟩) main_call23_v4) (StableHlo.TRef.of (T := ⟨S512x512, .i32⟩) main_call23_v2) (StableHlo.TRef.of (T := ⟨S512x512, .i1⟩) main_call23_v5) (cmpi .eq),
    StableHlo.TRef.unary (StableHlo.TRef.of (T := ⟨S512, .f32⟩) main_call23_v0) (StableHlo.TRef.of (T := ⟨S512x1, .f32⟩) main_call23_v6) (broadcastInDim S512x1 ![0] bcast_S512_S512x1_0),
    StableHlo.TRef.nullary (StableHlo.TRef.of (T := ⟨S_, .f32⟩) main_call23_cst_0) (constant S_ .f32 0x00000000#32),
    StableHlo.TRef.unary (StableHlo.TRef.of (T := ⟨S512x1, .f32⟩) main_call23_v6) (StableHlo.TRef.of (T := ⟨S512x512, .f32⟩) main_call23_call0_v0) (broadcastInDim S512x512 ![0, 1] bcast_S512x1_S512x512_0_1),
    StableHlo.TRef.unary (StableHlo.TRef.of (T := ⟨S_, .f32⟩) main_call23_cst_0) (StableHlo.TRef.of (T := ⟨S512x512, .f32⟩) main_call23_call0_v1) (broadcastInDim S512x512 ![] bcast_S_S512x512),
    StableHlo.TRef.ternary (StableHlo.TRef.of (T := ⟨S512x512, .i1⟩) main_call23_v5) (StableHlo.TRef.of (T := ⟨S512x512, .f32⟩) main_call23_call0_v0) (StableHlo.TRef.of (T := ⟨S512x512, .f32⟩) main_call23_call0_v1) (StableHlo.TRef.of (T := ⟨S512x512, .f32⟩) main_v759) select,
    StableHlo.binary main_v752 main_v759 main_v760 (addf : (⟨S512x512, .f32⟩ : BufTy).Contents (Elt F) → (⟨S512x512, .f32⟩ : BufTy).Contents (Elt F) → (⟨S512x512, .f32⟩ : BufTy).Contents (Elt F)),
    StableHlo.unary main_arg3 main_v761 ((extractStridedSlice S1x512x512 ![7, 0, 0] · slices_S8x512x512_S1x512x512_7_0_0) : (⟨S8x512x512, .f32⟩ : BufTy).Contents (Elt F) → (⟨S1x512x512, .f32⟩ : BufTy).Contents (Elt F)),
    StableHlo.reshape main_v761 main_v762 rfl shapeCasts_S1x512x512_S512x512,
    StableHlo.binary main_v762 main_v749 main_v763 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.binary main_v763 main_v760 main_v764 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_v764 main_v765 ((transpose S512x512 [1, 0] · transposes_S512x512_S512x512_1_0) : (⟨S512x512, .f32⟩ : BufTy).Contents (Elt F) → (⟨S512x512, .f32⟩ : BufTy).Contents (Elt F)),
    StableHlo.binary main_v740 main_v765 main_v766 ((fun l r => Host.dotGeneral dot_S16384x512_S512x512_S16384x512_1_0_0_1_n_n none l r) : (⟨S16384x512, .f32⟩ : BufTy).Contents (Elt F) → (⟨S512x512, .f32⟩ : BufTy).Contents (Elt F) → (⟨S16384x512, .f32⟩ : BufTy).Contents (Elt F)),
    StableHlo.unary main_arg7 main_v767 ((extractStridedSlice S1x512 ![7, 0] · slices_S8x512_S1x512_7_0) : (⟨S8x512, .f32⟩ : BufTy).Contents (Elt F) → (⟨S1x512, .f32⟩ : BufTy).Contents (Elt F)),
    StableHlo.reshape main_v767 main_v768 rfl shapeCasts_S1x512_S512,
    StableHlo.nullary main_cst_50 (constant S_ .f32 0x00000000#32),
    StableHlo.binary main_v768 main_cst_50 main_v769 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.unary main_v769 main_v770 (broadcastInDim S16384 ![] bcast_S_S16384 : (⟨S_, .f32⟩ : BufTy).Contents (Elt F) → (⟨S16384, .f32⟩ : BufTy).Contents (Elt F)),
    StableHlo.binary main_v745 main_v770 main_v771 (addf : (⟨S16384, .f32⟩ : BufTy).Contents (Elt F) → (⟨S16384, .f32⟩ : BufTy).Contents (Elt F) → (⟨S16384, .f32⟩ : BufTy).Contents (Elt F)),
    StableHlo.unary main_v729 main_v772 (broadcastInDim S1x512 ![1] bcast_S512_S1x512_1 : (⟨S512, .f32⟩ : BufTy).Contents (Elt F) → (⟨S1x512, .f32⟩ : BufTy).Contents (Elt F)),
    StableHlo.unary main_v772 main_v773 (broadcastInDim S16384x512 ![0, 1] bcast_S1x512_S16384x512_0_1 : (⟨S1x512, .f32⟩ : BufTy).Contents (Elt F) → (⟨S16384x512, .f32⟩ : BufTy).Contents (Elt F)),
    StableHlo.binary main_v773 main_v766 main_v774 (mulf : (⟨S16384x512, .f32⟩ : BufTy).Contents (Elt F) → (⟨S16384x512, .f32⟩ : BufTy).Contents (Elt F) → (⟨S16384x512, .f32⟩ : BufTy).Contents (Elt F)),
    StableHlo.unary main_arg8 main_v775 ((extractStridedSlice S1x512x1024 ![7, 0, 0] · slices_S8x512x1024_S1x512x1024_7_0_0) : (⟨S8x512x1024, .f32⟩ : BufTy).Contents (Elt F) → (⟨S1x512x1024, .f32⟩ : BufTy).Contents (Elt F)),
    StableHlo.reshape main_v775 main_v776 rfl shapeCasts_S1x512x1024_S512x1024,
    StableHlo.binary main_v774 main_v776 main_v777 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg9 main_v778 ((extractStridedSlice S1x1024 ![7, 0] · slices_S8x1024_S1x1024_7_0) : (⟨S8x1024, .f32⟩ : BufTy).Contents (Elt F) → (⟨S1x1024, .f32⟩ : BufTy).Contents (Elt F)),
    StableHlo.reshape main_v778 main_v779 rfl shapeCasts_S1x1024_S1024,
    StableHlo.unary main_v779 main_v780 (broadcastInDim S1x1024 ![1] bcast_S1024_S1x1024_1 : (⟨S1024, .f32⟩ : BufTy).Contents (Elt F) → (⟨S1x1024, .f32⟩ : BufTy).Contents (Elt F)),
    StableHlo.unary main_v780 main_v781 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v777 main_v781 main_v782 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call24_cst) (constant S_ .f32 0x00000000#32),
    StableHlo.TRef.unary (StableHlo.TRef.of (T := ⟨S_, .f32⟩) main_call24_cst) (StableHlo.TRef.of (T := ⟨S16384x1024, .f32⟩) main_call24_v0) (broadcastInDim S16384x1024 ![] bcast_S_S16384x1024),
    StableHlo.TRef.binary (StableHlo.TRef.of (T := ⟨S16384x1024, .f32⟩) main_v782) (StableHlo.TRef.of (T := ⟨S16384x1024, .f32⟩) main_call24_v0) (StableHlo.TRef.of (T := ⟨S16384x1024, .f32⟩) main_v783) maximumf,
    StableHlo.unary main_arg10 main_v784 ((extractStridedSlice S1x1024x512 ![7, 0, 0] · slices_S8x1024x512_S1x1024x512_7_0_0) : (⟨S8x1024x512, .f32⟩ : BufTy).Contents (Elt F) → (⟨S1x1024x512, .f32⟩ : BufTy).Contents (Elt F)),
    StableHlo.reshape main_v784 main_v785 rfl shapeCasts_S1x1024x512_S1024x512,
    StableHlo.binary main_v783 main_v785 main_v786 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)) ]

/-- The buffers pc21's operations write, in order. -/
abbrev pc21_W : List (Ref sig .tc) :=
  [main_v729, main_v730, main_v731, main_v732, main_v733, main_v734, main_v735, main_v736, main_v737, main_v738, main_v739, main_v740, main_v741, main_v742, main_cst_49, main_v743, main_v744, main_v745, main_v746, main_v747, main_v748, main_v749, main_v750, main_v751, main_v752, main_v753, main_v754, main_v755, main_v756, main_v757, main_v758, main_call23_cst, main_call23_v0, main_call23_v1, main_call23_v2, main_call23_c, main_call23_v3, main_call23_v4, main_call23_v5, main_call23_v6, main_call23_cst_0, main_call23_call0_v0, main_call23_call0_v1, main_v759, main_v760, main_v761, main_v762, main_v763, main_v764, main_v765, main_v766, main_v767, main_v768, main_cst_50, main_v769, main_v770, main_v771, main_v772, main_v773, main_v774, main_v775, main_v776, main_v777, main_v778, main_v779, main_v780, main_v781, main_v782, main_call24_cst, main_call24_v0, main_v783, main_v784, main_v785, main_v786]

set_option maxRecDepth 8192 in
theorem pc21_sub : (pc21 : List (HloOp τ sig (Elt F))).Forall fun op => op.bufs ⊆ tcRefs τ sig :=
  ⟨binary_bufs_sub .., unary_bufs_sub .., reshape_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., binary_bufs_sub .., unary_bufs_sub .., binary_bufs_sub .., unary_bufs_sub .., reshape_bufs_sub .., binary_bufs_sub .., binary_bufs_sub .., unary_bufs_sub .., reshape_bufs_sub .., binary_bufs_sub .., unary_bufs_sub .., reshape_bufs_sub .., unary_bufs_sub .., reshape_bufs_sub .., unary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., unary_bufs_sub .., reshape_bufs_sub .., binary_bufs_sub .., binary_bufs_sub .., unary_bufs_sub .., binary_bufs_sub .., unary_bufs_sub .., reshape_bufs_sub .., nullary_bufs_sub .., binary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub ..⟩
set_option maxRecDepth 8192 in
theorem pc21_fresh : (pc21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc21_writes : (pc21 : List (HloOp τ sig (Elt F))).Forall fun op => op.writes ⊆ (pc21_W.map (Proc.devRef (τ := τ) .tc)).toFinset :=
  ⟨writes_sub_of_mem (y := main_v729) (by decide), writes_sub_of_mem (y := main_v730) (by decide), writes_sub_of_mem (y := main_v731) (by decide), writes_sub_of_mem (y := main_v732) (by decide), writes_sub_of_mem (y := main_v733) (by decide), writes_sub_of_mem (y := main_v734) (by decide), writes_sub_of_mem (y := main_v735) (by decide), writes_sub_of_mem (y := main_v736) (by decide), writes_sub_of_mem (y := main_v737) (by decide), writes_sub_of_mem (y := main_v738) (by decide), writes_sub_of_mem (y := main_v739) (by decide), writes_sub_of_mem (y := main_v740) (by decide), writes_sub_of_mem (y := main_v741) (by decide), writes_sub_of_mem (y := main_v742) (by decide), writes_sub_of_mem (y := main_cst_49) (by decide), writes_sub_of_mem (y := main_v743) (by decide), writes_sub_of_mem (y := main_v744) (by decide), writes_sub_of_mem (y := main_v745) (by decide), writes_sub_of_mem (y := main_v746) (by decide), writes_sub_of_mem (y := main_v747) (by decide), writes_sub_of_mem (y := main_v748) (by decide), writes_sub_of_mem (y := main_v749) (by decide), writes_sub_of_mem (y := main_v750) (by decide), writes_sub_of_mem (y := main_v751) (by decide), writes_sub_of_mem (y := main_v752) (by decide), writes_sub_of_mem (y := main_v753) (by decide), writes_sub_of_mem (y := main_v754) (by decide), writes_sub_of_mem (y := main_v755) (by decide), writes_sub_of_mem (y := main_v756) (by decide), writes_sub_of_mem (y := main_v757) (by decide), writes_sub_of_mem (y := main_v758) (by decide), writes_sub_of_mem (y := main_call23_cst) (by decide), writes_sub_of_mem (y := main_call23_v0) (by decide), writes_sub_of_mem (y := main_call23_v1) (by decide), writes_sub_of_mem (y := main_call23_v2) (by decide), writes_sub_of_mem (y := main_call23_c) (by decide), writes_sub_of_mem (y := main_call23_v3) (by decide), writes_sub_of_mem (y := main_call23_v4) (by decide), writes_sub_of_mem (y := main_call23_v5) (by decide), writes_sub_of_mem (y := main_call23_v6) (by decide), writes_sub_of_mem (y := main_call23_cst_0) (by decide), writes_sub_of_mem (y := main_call23_call0_v0) (by decide), writes_sub_of_mem (y := main_call23_call0_v1) (by decide), writes_sub_of_mem (y := main_v759) (by decide), writes_sub_of_mem (y := main_v760) (by decide), writes_sub_of_mem (y := main_v761) (by decide), writes_sub_of_mem (y := main_v762) (by decide), writes_sub_of_mem (y := main_v763) (by decide), writes_sub_of_mem (y := main_v764) (by decide), writes_sub_of_mem (y := main_v765) (by decide), writes_sub_of_mem (y := main_v766) (by decide), writes_sub_of_mem (y := main_v767) (by decide), writes_sub_of_mem (y := main_v768) (by decide), writes_sub_of_mem (y := main_cst_50) (by decide), writes_sub_of_mem (y := main_v769) (by decide), writes_sub_of_mem (y := main_v770) (by decide), writes_sub_of_mem (y := main_v771) (by decide), writes_sub_of_mem (y := main_v772) (by decide), writes_sub_of_mem (y := main_v773) (by decide), writes_sub_of_mem (y := main_v774) (by decide), writes_sub_of_mem (y := main_v775) (by decide), writes_sub_of_mem (y := main_v776) (by decide), writes_sub_of_mem (y := main_v777) (by decide), writes_sub_of_mem (y := main_v778) (by decide), writes_sub_of_mem (y := main_v779) (by decide), writes_sub_of_mem (y := main_v780) (by decide), writes_sub_of_mem (y := main_v781) (by decide), writes_sub_of_mem (y := main_v782) (by decide), writes_sub_of_mem (y := main_call24_cst) (by decide), writes_sub_of_mem (y := main_call24_v0) (by decide), writes_sub_of_mem (y := main_v783) (by decide), writes_sub_of_mem (y := main_v784) (by decide), writes_sub_of_mem (y := main_v785) (by decide), writes_sub_of_mem (y := main_v786) (by decide)⟩

set_option maxRecDepth 16384 in
set_option maxHeartbeats 4000000 in
/-- The window is the straight line of its operations: the called functions unfold at their calls, and sequencing reassociates. -/
theorem main_part13_eq (c : Dev nD) : main_part13 (F := F) c = seq (pc21) := by
  rfl

end Cert.ReferenceIdeal.RunHand

end
-- ==== Proof.RefRun14.lean ====
/- The reference program's window main_part14 (statements 841 … 889 of @main) as lists of host operations,
   cut where a layer of the flow ends; that the window is the straight line of those operations; and, per list,
   that its operations touch TensorCore buffers only, allocate nothing, and write only the listed buffers. -/
import proofs.«112469_j76776835383759_2_alg».proof.Proof.RefRunLib

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 841 … 888 (from '%787 = stablehlo.slice %arg11 [7:8, 0:512]' to '%830 = stablehlo.add %771, %829'): 50 operations, a called function's standing in its call's place. -/
abbrev pc22 : List (HloOp τ sig (Elt F)) :=
  [ StableHlo.unary main_arg11 main_v787 ((extractStridedSlice S1x512 ![7, 0] · slices_S8x512_S1x512_7_0) : (⟨S8x512, .f32⟩ : BufTy).Contents (Elt F) → (⟨S1x512, .f32⟩ : BufTy).Contents (Elt F)),
    StableHlo.reshape main_v787 main_v788 rfl shapeCasts_S1x512_S512,
    StableHlo.unary main_v788 main_v789 (broadcastInDim S1x512 ![1] bcast_S512_S1x512_1 : (⟨S512, .f32⟩ : BufTy).Contents (Elt F) → (⟨S1x512, .f32⟩ : BufTy).Contents (Elt F)),
    StableHlo.unary main_v789 main_v790 (broadcastInDim S16384x512 ![0, 1] bcast_S1x512_S16384x512_0_1 : (⟨S1x512, .f32⟩ : BufTy).Contents (Elt F) → (⟨S16384x512, .f32⟩ : BufTy).Contents (Elt F)),
    StableHlo.binary main_v786 main_v790 main_v791 (addf : (⟨S16384x512, .f32⟩ : BufTy).Contents (Elt F) → (⟨S16384x512, .f32⟩ : BufTy).Contents (Elt F) → (⟨S16384x512, .f32⟩ : BufTy).Contents (Elt F)),
    StableHlo.unary main_v791 main_v792 (Host.tanh : (⟨S16384x512, .f32⟩ : BufTy).Contents (Elt F) → (⟨S16384x512, .f32⟩ : BufTy).Contents (Elt F)),
    StableHlo.nullary main_cst_51 (constant S_ .f32 0x3F800000#32),
    StableHlo.unary main_cst_51 main_v793 (broadcastInDim S512 ![] bcast_S_S512 : (⟨S_, .f32⟩ : BufTy).Contents (Elt F) → (⟨S512, .f32⟩ : BufTy).Contents (Elt F)),
    StableHlo.binary main_v793 main_v729 main_v794 (subf : (⟨S512, .f32⟩ : BufTy).Contents (Elt F) → (⟨S512, .f32⟩ : BufTy).Contents (Elt F) → (⟨S512, .f32⟩ : BufTy).Contents (Elt F)),
    StableHlo.unary main_v794 main_v795 (broadcastInDim S1x512 ![1] bcast_S512_S1x512_1 : (⟨S512, .f32⟩ : BufTy).Contents (Elt F) → (⟨S1x512, .f32⟩ : BufTy).Contents (Elt F)),
    StableHlo.unary main_v795 main_v796 (broadcastInDim S16384x512 ![0, 1] bcast_S1x512_S16384x512_0_1 : (⟨S1x512, .f32⟩ : BufTy).Contents (Elt F) → (⟨S16384x512, .f32⟩ : BufTy).Contents (Elt F)),
    StableHlo.binary main_v792 main_v796 main_v797 (mulf : (⟨S16384x512, .f32⟩ : BufTy).Contents (Elt F) → (⟨S16384x512, .f32⟩ : BufTy).Contents (Elt F) → (⟨S16384x512, .f32⟩ : BufTy).Contents (Elt F)),
    StableHlo.unary main_arg12 main_v798 ((extractStridedSlice S1x512x1024 ![7, 0, 0] · slices_S8x512x1024_S1x512x1024_7_0_0) : (⟨S8x512x1024, .f32⟩ : BufTy).Contents (Elt F) → (⟨S1x512x1024, .f32⟩ : BufTy).Contents (Elt F)),
    StableHlo.reshape main_v798 main_v799 rfl shapeCasts_S1x512x1024_S512x1024,
    StableHlo.binary main_v774 main_v799 main_v800 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    StableHlo.unary main_arg13 main_v801 ((extractStridedSlice S1x1024 ![7, 0] · slices_S8x1024_S1x1024_7_0) : (⟨S8x1024, .f32⟩ : BufTy).Contents (Elt F) → (⟨S1x1024, .f32⟩ : BufTy).Contents (Elt F)),
    StableHlo.reshape main_v801 main_v802 rfl shapeCasts_S1x1024_S1024,
    StableHlo.unary main_v802 main_v803 (broadcastInDim S1x1024 ![1] bcast_S1024_S1x1024_1 : (⟨S1024, .f32⟩ : BufTy).Contents (Elt F) → (⟨S1x1024, .f32⟩ : BufTy).Contents (Elt F)),
    StableHlo.unary main_v803 main_v804 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v800 main_v804 main_v805 (addf : (⟨S16384x1024, .f32⟩ : BufTy).Contents (Elt F) → (⟨S16384x1024, .f32⟩ : BufTy).Contents (Elt F) → (⟨S16384x1024, .f32⟩ : BufTy).Contents (Elt F)),
    StableHlo.TRef.nullary (StableHlo.TRef.of (T := ⟨S_, .f32⟩) main_call25_cst) (constant S_ .f32 0x00000000#32),
    StableHlo.TRef.unary (StableHlo.TRef.of (T := ⟨S_, .f32⟩) main_call25_cst) (StableHlo.TRef.of (T := ⟨S16384x1024, .f32⟩) main_call25_v0) (broadcastInDim S16384x1024 ![] bcast_S_S16384x1024),
    StableHlo.TRef.binary (StableHlo.TRef.of (T := ⟨S16384x1024, .f32⟩) main_v805) (StableHlo.TRef.of (T := ⟨S16384x1024, .f32⟩) main_call25_v0) (StableHlo.TRef.of (T := ⟨S16384x1024, .f32⟩) main_v806) maximumf,
    StableHlo.unary main_arg14 main_v807 ((extractStridedSlice S1x1024x512 ![7, 0, 0] · slices_S8x1024x512_S1x1024x512_7_0_0) : (⟨S8x1024x512, .f32⟩ : BufTy).Contents (Elt F) → (⟨S1x1024x512, .f32⟩ : BufTy).Contents (Elt F)),
    StableHlo.reshape main_v807 main_v808 rfl shapeCasts_S1x1024x512_S1024x512,
    StableHlo.binary main_v806 main_v808 main_v809 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    StableHlo.unary main_arg15 main_v810 ((extractStridedSlice S1x512 ![7, 0] · slices_S8x512_S1x512_7_0) : (⟨S8x512, .f32⟩ : BufTy).Contents (Elt F) → (⟨S1x512, .f32⟩ : BufTy).Contents (Elt F)),
    StableHlo.reshape main_v810 main_v811 rfl shapeCasts_S1x512_S512,
    StableHlo.unary main_v811 main_v812 (broadcastInDim S1x512 ![1] bcast_S512_S1x512_1 : (⟨S512, .f32⟩ : BufTy).Contents (Elt F) → (⟨S1x512, .f32⟩ : BufTy).Contents (Elt F)),
    StableHlo.unary main_v812 main_v813 (broadcastInDim S16384x512 ![0, 1] bcast_S1x512_S16384x512_0_1 : (⟨S1x512, .f32⟩ : BufTy).Contents (Elt F) → (⟨S16384x512, .f32⟩ : BufTy).Contents (Elt F)),
    StableHlo.binary main_v809 main_v813 main_v814 (addf : (⟨S16384x512, .f32⟩ : BufTy).Contents (Elt F) → (⟨S16384x512, .f32⟩ : BufTy).Contents (Elt F) → (⟨S16384x512, .f32⟩ : BufTy).Contents (Elt F)),
    StableHlo.nullary main_cst_52 (constant S_ .f32 0x3F800000#32),
    StableHlo.unary main_cst_52 main_v815 (broadcastInDim S512 ![] bcast_S_S512 : (⟨S_, .f32⟩ : BufTy).Contents (Elt F) → (⟨S512, .f32⟩ : BufTy).Contents (Elt F)),
    StableHlo.binary main_v815 main_v729 main_v816 (subf : (⟨S512, .f32⟩ : BufTy).Contents (Elt F) → (⟨S512, .f32⟩ : BufTy).Contents (Elt F) → (⟨S512, .f32⟩ : BufTy).Contents (Elt F)),
    StableHlo.unary main_v816 main_v817 (broadcastInDim S1x512 ![1] bcast_S512_S1x512_1 : (⟨S512, .f32⟩ : BufTy).Contents (Elt F) → (⟨S1x512, .f32⟩ : BufTy).Contents (Elt F)),
    StableHlo.unary main_v817 main_v818 (broadcastInDim S16384x512 ![0, 1] bcast_S1x512_S16384x512_0_1 : (⟨S1x512, .f32⟩ : BufTy).Contents (Elt F) → (⟨S16384x512, .f32⟩ : BufTy).Contents (Elt F)),
    StableHlo.binary main_v814 main_v818 main_v819 (mulf : (⟨S16384x512, .f32⟩ : BufTy).Contents (Elt F) → (⟨S16384x512, .f32⟩ : BufTy).Contents (Elt F) → (⟨S16384x512, .f32⟩ : BufTy).Contents (Elt F)),
    StableHlo.nullary main_cst_53 (constant S_ .f32 0x3F800000#32),
    StableHlo.unary main_cst_53 main_v820 (broadcastInDim S512 ![] bcast_S_S512 : (⟨S_, .f32⟩ : BufTy).Contents (Elt F) → (⟨S512, .f32⟩ : BufTy).Contents (Elt F)),
    StableHlo.binary main_v820 main_v729 main_v821 (subf : (⟨S512, .f32⟩ : BufTy).Contents (Elt F) → (⟨S512, .f32⟩ : BufTy).Contents (Elt F) → (⟨S512, .f32⟩ : BufTy).Contents (Elt F)),
    StableHlo.unary main_v797 main_v822 (Host.exp : (⟨S16384x512, .f32⟩ : BufTy).Contents (Elt F) → (⟨S16384x512, .f32⟩ : BufTy).Contents (Elt F)),
    StableHlo.binary main_v766 main_v822 main_v823 (mulf : (⟨S16384x512, .f32⟩ : BufTy).Contents (Elt F) → (⟨S16384x512, .f32⟩ : BufTy).Contents (Elt F) → (⟨S16384x512, .f32⟩ : BufTy).Contents (Elt F)),
    StableHlo.binary main_v823 main_v819 main_v824 (addf : (⟨S16384x512, .f32⟩ : BufTy).Contents (Elt F) → (⟨S16384x512, .f32⟩ : BufTy).Contents (Elt F) → (⟨S16384x512, .f32⟩ : BufTy).Contents (Elt F)),
    StableHlo.unary main_v821 main_v825 (broadcastInDim S1x512 ![1] bcast_S512_S1x512_1 : (⟨S512, .f32⟩ : BufTy).Contents (Elt F) → (⟨S1x512, .f32⟩ : BufTy).Contents (Elt F)),
    StableHlo.unary main_v825 main_v826 (broadcastInDim S16384x512 ![0, 1] bcast_S1x512_S16384x512_0_1 : (⟨S1x512, .f32⟩ : BufTy).Contents (Elt F) → (⟨S16384x512, .f32⟩ : BufTy).Contents (Elt F)),
    StableHlo.binary main_v826 main_v824 main_v827 (mulf : (⟨S16384x512, .f32⟩ : BufTy).Contents (Elt F) → (⟨S16384x512, .f32⟩ : BufTy).Contents (Elt F) → (⟨S16384x512, .f32⟩ : BufTy).Contents (Elt F)),
    StableHlo.binary main_v774 main_v827 main_v828 (addf : (⟨S16384x512, .f32⟩ : BufTy).Contents (Elt F) → (⟨S16384x512, .f32⟩ : BufTy).Contents (Elt F) → (⟨S16384x512, .f32⟩ : BufTy).Contents (Elt F)),
    StableHlo.nullary main_cst_54 (constant S_ .f32 0x00000000#32),
    StableHlo.binary main_v797 main_cst_54 main_v829 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    StableHlo.binary main_v771 main_v829 main_v830 (addf : (⟨S16384, .f32⟩ : BufTy).Contents (Elt F) → (⟨S16384, .f32⟩ : BufTy).Contents (Elt F) → (⟨S16384, .f32⟩ : BufTy).Contents (Elt F)) ]

/-- The buffers pc22's operations write, in order. -/
abbrev pc22_W : List (Ref sig .tc) :=
  [main_v787, main_v788, main_v789, main_v790, main_v791, main_v792, main_cst_51, main_v793, main_v794, main_v795, main_v796, main_v797, main_v798, main_v799, main_v800, main_v801, main_v802, main_v803, main_v804, main_v805, main_call25_cst, main_call25_v0, main_v806, main_v807, main_v808, main_v809, main_v810, main_v811, main_v812, main_v813, main_v814, main_cst_52, main_v815, main_v816, main_v817, main_v818, main_v819, main_cst_53, main_v820, main_v821, main_v822, main_v823, main_v824, main_v825, main_v826, main_v827, main_v828, main_cst_54, main_v829, main_v830]

set_option maxRecDepth 8192 in
theorem pc22_sub : (pc22 : List (HloOp τ sig (Elt F))).Forall fun op => op.bufs ⊆ tcRefs τ sig :=
  ⟨unary_bufs_sub .., reshape_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub .., binary_bufs_sub .., nullary_bufs_sub .., binary_bufs_sub .., binary_bufs_sub ..⟩
set_option maxRecDepth 8192 in
theorem pc22_fresh : (pc22 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem pc22_writes : (pc22 : List (HloOp τ sig (Elt F))).Forall fun op => op.writes ⊆ (pc22_W.map (Proc.devRef (τ := τ) .tc)).toFinset :=
  ⟨writes_sub_of_mem (y := main_v787) (by decide), writes_sub_of_mem (y := main_v788) (by decide), writes_sub_of_mem (y := main_v789) (by decide), writes_sub_of_mem (y := main_v790) (by decide), writes_sub_of_mem (y := main_v791) (by decide), writes_sub_of_mem (y := main_v792) (by decide), writes_sub_of_mem (y := main_cst_51) (by decide), writes_sub_of_mem (y := main_v793) (by decide), writes_sub_of_mem (y := main_v794) (by decide), writes_sub_of_mem (y := main_v795) (by decide), writes_sub_of_mem (y := main_v796) (by decide), writes_sub_of_mem (y := main_v797) (by decide), writes_sub_of_mem (y := main_v798) (by decide), writes_sub_of_mem (y := main_v799) (by decide), writes_sub_of_mem (y := main_v800) (by decide), writes_sub_of_mem (y := main_v801) (by decide), writes_sub_of_mem (y := main_v802) (by decide), writes_sub_of_mem (y := main_v803) (by decide), writes_sub_of_mem (y := main_v804) (by decide), writes_sub_of_mem (y := main_v805) (by decide), writes_sub_of_mem (y := main_call25_cst) (by decide), writes_sub_of_mem (y := main_call25_v0) (by decide), writes_sub_of_mem (y := main_v806) (by decide), writes_sub_of_mem (y := main_v807) (by decide), writes_sub_of_mem (y := main_v808) (by decide), writes_sub_of_mem (y := main_v809) (by decide), writes_sub_of_mem (y := main_v810) (by decide), writes_sub_of_mem (y := main_v811) (by decide), writes_sub_of_mem (y := main_v812) (by decide), writes_sub_of_mem (y := main_v813) (by decide), writes_sub_of_mem (y := main_v814) (by decide), writes_sub_of_mem (y := main_cst_52) (by decide), writes_sub_of_mem (y := main_v815) (by decide), writes_sub_of_mem (y := main_v816) (by decide), writes_sub_of_mem (y := main_v817) (by decide), writes_sub_of_mem (y := main_v818) (by decide), writes_sub_of_mem (y := main_v819) (by decide), writes_sub_of_mem (y := main_cst_53) (by decide), writes_sub_of_mem (y := main_v820) (by decide), writes_sub_of_mem (y := main_v821) (by decide), writes_sub_of_mem (y := main_v822) (by decide), writes_sub_of_mem (y := main_v823) (by decide), writes_sub_of_mem (y := main_v824) (by decide), writes_sub_of_mem (y := main_v825) (by decide), writes_sub_of_mem (y := main_v826) (by decide), writes_sub_of_mem (y := main_v827) (by decide), writes_sub_of_mem (y := main_v828) (by decide), writes_sub_of_mem (y := main_cst_54) (by decide), writes_sub_of_mem (y := main_v829) (by decide), writes_sub_of_mem (y := main_v830) (by decide)⟩

set_option maxRecDepth 16384 in
set_option maxHeartbeats 4000000 in
/-- The window is the straight line of its operations: the called functions unfold at their calls, and sequencing reassociates. -/
theorem main_part14_eq (c : Dev nD) : main_part14 (F := F) c = seq (pc22) := by
  rfl

end Cert.ReferenceIdeal.RunHand

end
-- ==== Proof.RefRun.lean ====
/- The reference program's @main as ONE straight line of host operations, cut at the layers of the flow:
   the shared constants first (opsPre), then one list per layer (opsLay0 … opsLay7); @main is the line of their
   concatenation; every weakly fair execution of it terminates with each buffer at the fold of the operations over
   the launch contents; the contents layer by layer (val0 … val9), and a buffer a layer does not write keeps its
   contents through it. -/
import proofs.«112469_j76776835383759_2_alg».proof.Proof.RefRun00
import proofs.«112469_j76776835383759_2_alg».proof.Proof.RefRun01
import proofs.«112469_j76776835383759_2_alg».proof.Proof.RefRun02
import proofs.«112469_j76776835383759_2_alg».proof.Proof.RefRun03
import proofs.«112469_j76776835383759_2_alg».proof.Proof.RefRun04
import proofs.«112469_j76776835383759_2_alg».proof.Proof.RefRun05
import proofs.«112469_j76776835383759_2_alg».proof.Proof.RefRun06
import proofs.«112469_j76776835383759_2_alg».proof.Proof.RefRun07
import proofs.«112469_j76776835383759_2_alg».proof.Proof.RefRun08
import proofs.«112469_j76776835383759_2_alg».proof.Proof.RefRun09
import proofs.«112469_j76776835383759_2_alg».proof.Proof.RefRun10
import proofs.«112469_j76776835383759_2_alg».proof.Proof.RefRun11
import proofs.«112469_j76776835383759_2_alg».proof.Proof.RefRun12
import proofs.«112469_j76776835383759_2_alg».proof.Proof.RefRun13
import proofs.«112469_j76776835383759_2_alg».proof.Proof.RefRun14

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's statements 1 … 20: the shared constants (identity, lower-triangular mask and its transpose, the base mask, the zero log-determinant). -/
abbrev opsPre : List (HloOp τ sig (Elt F)) := pc00
/-- The buffers opsPre writes. -/
abbrev opsPre_W : List (Ref sig .tc) := pc00_W
theorem opsPre_sub : (opsPre : List (HloOp τ sig (Elt F))).Forall fun op => op.bufs ⊆ tcRefs τ sig := pc00_sub
theorem opsPre_fresh : (opsPre : List (HloOp τ sig (Elt F))).Forall fun op => op.fresh = ∅ := pc00_fresh
theorem opsPre_writes : (opsPre : List (HloOp τ sig (Elt F))).Forall fun op => op.writes ⊆ (opsPre_W.map (Proc.devRef (τ := τ) .tc)).toFinset :=
  pc00_writes

/-- @main's statements 21 … 127: layer 0 of the flow. -/
abbrev opsLay0 : List (HloOp τ sig (Elt F)) := pc01 ++ (pc02 ++ pc03)
/-- The buffers opsLay0 writes. -/
abbrev opsLay0_W : List (Ref sig .tc) := pc01_W ++ (pc02_W ++ pc03_W)
theorem opsLay0_sub : (opsLay0 : List (HloOp τ sig (Elt F))).Forall fun op => op.bufs ⊆ tcRefs τ sig := forall_append pc01_sub (forall_append pc02_sub pc03_sub)
theorem opsLay0_fresh : (opsLay0 : List (HloOp τ sig (Elt F))).Forall fun op => op.fresh = ∅ := forall_append pc01_fresh (forall_append pc02_fresh pc03_fresh)
theorem opsLay0_writes : (opsLay0 : List (HloOp τ sig (Elt F))).Forall fun op => op.writes ⊆ (opsLay0_W.map (Proc.devRef (τ := τ) .tc)).toFinset :=
  writes_append pc01_writes (writes_append pc02_writes pc03_writes)

/-- @main's statements 128 … 237: layer 1 of the flow. -/
abbrev opsLay1 : List (HloOp τ sig (Elt F)) := pc04 ++ pc05
/-- The buffers opsLay1 writes. -/
abbrev opsLay1_W : List (Ref sig .tc) := pc04_W ++ pc05_W
theorem opsLay1_sub : (opsLay1 : List (HloOp τ sig (Elt F))).Forall fun op => op.bufs ⊆ tcRefs τ sig := forall_append pc04_sub pc05_sub
theorem opsLay1_fresh : (opsLay1 : List (HloOp τ sig (Elt F))).Forall fun op => op.fresh = ∅ := forall_append pc04_fresh pc05_fresh
theorem opsLay1_writes : (opsLay1 : List (HloOp τ sig (Elt F))).Forall fun op => op.writes ⊆ (opsLay1_W.map (Proc.devRef (τ := τ) .tc)).toFinset :=
  writes_append pc04_writes pc05_writes

/-- @main's statements 238 … 344: layer 2 of the flow. -/
abbrev opsLay2 : List (HloOp τ sig (Elt F)) := pc06 ++ (pc07 ++ pc08)
/-- The buffers opsLay2 writes. -/
abbrev opsLay2_W : List (Ref sig .tc) := pc06_W ++ (pc07_W ++ pc08_W)
theorem opsLay2_sub : (opsLay2 : List (HloOp τ sig (Elt F))).Forall fun op => op.bufs ⊆ tcRefs τ sig := forall_append pc06_sub (forall_append pc07_sub pc08_sub)
theorem opsLay2_fresh : (opsLay2 : List (HloOp τ sig (Elt F))).Forall fun op => op.fresh = ∅ := forall_append pc06_fresh (forall_append pc07_fresh pc08_fresh)
theorem opsLay2_writes : (opsLay2 : List (HloOp τ sig (Elt F))).Forall fun op => op.writes ⊆ (opsLay2_W.map (Proc.devRef (τ := τ) .tc)).toFinset :=
  writes_append pc06_writes (writes_append pc07_writes pc08_writes)

/-- @main's statements 345 … 454: layer 3 of the flow. -/
abbrev opsLay3 : List (HloOp τ sig (Elt F)) := pc09 ++ (pc10 ++ pc11)
/-- The buffers opsLay3 writes. -/
abbrev opsLay3_W : List (Ref sig .tc) := pc09_W ++ (pc10_W ++ pc11_W)
theorem opsLay3_sub : (opsLay3 : List (HloOp τ sig (Elt F))).Forall fun op => op.bufs ⊆ tcRefs τ sig := forall_append pc09_sub (forall_append pc10_sub pc11_sub)
theorem opsLay3_fresh : (opsLay3 : List (HloOp τ sig (Elt F))).Forall fun op => op.fresh = ∅ := forall_append pc09_fresh (forall_append pc10_fresh pc11_fresh)
theorem opsLay3_writes : (opsLay3 : List (HloOp τ sig (Elt F))).Forall fun op => op.writes ⊆ (opsLay3_W.map (Proc.devRef (τ := τ) .tc)).toFinset :=
  writes_append pc09_writes (writes_append pc10_writes pc11_writes)

/-- @main's statements 455 … 561: layer 4 of the flow. -/
abbrev opsLay4 : List (HloOp τ sig (Elt F)) := pc12 ++ (pc13 ++ pc14)
/-- The buffers opsLay4 writes. -/
abbrev opsLay4_W : List (Ref sig .tc) := pc12_W ++ (pc13_W ++ pc14_W)
theorem opsLay4_sub : (opsLay4 : List (HloOp τ sig (Elt F))).Forall fun op => op.bufs ⊆ tcRefs τ sig := forall_append pc12_sub (forall_append pc13_sub pc14_sub)
theorem opsLay4_fresh : (opsLay4 : List (HloOp τ sig (Elt F))).Forall fun op => op.fresh = ∅ := forall_append pc12_fresh (forall_append pc13_fresh pc14_fresh)
theorem opsLay4_writes : (opsLay4 : List (HloOp τ sig (Elt F))).Forall fun op => op.writes ⊆ (opsLay4_W.map (Proc.devRef (τ := τ) .tc)).toFinset :=
  writes_append pc12_writes (writes_append pc13_writes pc14_writes)

/-- @main's statements 562 … 671: layer 5 of the flow. -/
abbrev opsLay5 : List (HloOp τ sig (Elt F)) := pc15 ++ (pc16 ++ pc17)
/-- The buffers opsLay5 writes. -/
abbrev opsLay5_W : List (Ref sig .tc) := pc15_W ++ (pc16_W ++ pc17_W)
theorem opsLay5_sub : (opsLay5 : List (HloOp τ sig (Elt F))).Forall fun op => op.bufs ⊆ tcRefs τ sig := forall_append pc15_sub (forall_append pc16_sub pc17_sub)
theorem opsLay5_fresh : (opsLay5 : List (HloOp τ sig (Elt F))).Forall fun op => op.fresh = ∅ := forall_append pc15_fresh (forall_append pc16_fresh pc17_fresh)
theorem opsLay5_writes : (opsLay5 : List (HloOp τ sig (Elt F))).Forall fun op => op.writes ⊆ (opsLay5_W.map (Proc.devRef (τ := τ) .tc)).toFinset :=
  writes_append pc15_writes (writes_append pc16_writes pc17_writes)

/-- @main's statements 672 … 778: layer 6 of the flow. -/
abbrev opsLay6 : List (HloOp τ sig (Elt F)) := pc18 ++ pc19
/-- The buffers opsLay6 writes. -/
abbrev opsLay6_W : List (Ref sig .tc) := pc18_W ++ pc19_W
theorem opsLay6_sub : (opsLay6 : List (HloOp τ sig (Elt F))).Forall fun op => op.bufs ⊆ tcRefs τ sig := forall_append pc18_sub pc19_sub
theorem opsLay6_fresh : (opsLay6 : List (HloOp τ sig (Elt F))).Forall fun op => op.fresh = ∅ := forall_append pc18_fresh pc19_fresh
theorem opsLay6_writes : (opsLay6 : List (HloOp τ sig (Elt F))).Forall fun op => op.writes ⊆ (opsLay6_W.map (Proc.devRef (τ := τ) .tc)).toFinset :=
  writes_append pc18_writes pc19_writes

/-- @main's statements 779 … 888: layer 7 of the flow. -/
abbrev opsLay7 : List (HloOp τ sig (Elt F)) := pc20 ++ (pc21 ++ pc22)
/-- The buffers opsLay7 writes. -/
abbrev opsLay7_W : List (Ref sig .tc) := pc20_W ++ (pc21_W ++ pc22_W)
theorem opsLay7_sub : (opsLay7 : List (HloOp τ sig (Elt F))).Forall fun op => op.bufs ⊆ tcRefs τ sig := forall_append pc20_sub (forall_append pc21_sub pc22_sub)
theorem opsLay7_fresh : (opsLay7 : List (HloOp τ sig (Elt F))).Forall fun op => op.fresh = ∅ := forall_append pc20_fresh (forall_append pc21_fresh pc22_fresh)
theorem opsLay7_writes : (opsLay7 : List (HloOp τ sig (Elt F))).Forall fun op => op.writes ⊆ (opsLay7_W.map (Proc.devRef (τ := τ) .tc)).toFinset :=
  writes_append pc20_writes (writes_append pc21_writes pc22_writes)

/-- @main's operations, in order (a called function's standing in its call's place): the shared constants, then the eight layers. -/
abbrev ops : List (HloOp τ sig (Elt F)) := opsPre ++ (opsLay0 ++ (opsLay1 ++ (opsLay2 ++ (opsLay3 ++ (opsLay4 ++ (opsLay5 ++ (opsLay6 ++ opsLay7)))))))
/-- The buffers @main's operations write. -/
abbrev ops_W : List (Ref sig .tc) := opsPre_W ++ (opsLay0_W ++ (opsLay1_W ++ (opsLay2_W ++ (opsLay3_W ++ (opsLay4_W ++ (opsLay5_W ++ (opsLay6_W ++ opsLay7_W)))))))
theorem ops_sub : (ops : List (HloOp τ sig (Elt F))).Forall fun op => op.bufs ⊆ tcRefs τ sig := forall_append opsPre_sub (forall_append opsLay0_sub (forall_append opsLay1_sub (forall_append opsLay2_sub (forall_append opsLay3_sub (forall_append opsLay4_sub (forall_append opsLay5_sub (forall_append opsLay6_sub opsLay7_sub)))))))
theorem ops_fresh : (ops : List (HloOp τ sig (Elt F))).Forall fun op => op.fresh = ∅ := forall_append opsPre_fresh (forall_append opsLay0_fresh (forall_append opsLay1_fresh (forall_append opsLay2_fresh (forall_append opsLay3_fresh (forall_append opsLay4_fresh (forall_append opsLay5_fresh (forall_append opsLay6_fresh opsLay7_fresh)))))))
theorem ops_writes : (ops : List (HloOp τ sig (Elt F))).Forall fun op => op.writes ⊆ (ops_W.map (Proc.devRef (τ := τ) .tc)).toFinset :=
  writes_append opsPre_writes (writes_append opsLay0_writes (writes_append opsLay1_writes (writes_append opsLay2_writes (writes_append opsLay3_writes (writes_append opsLay4_writes (writes_append opsLay5_writes (writes_append opsLay6_writes opsLay7_writes)))))))

/-- The same list grouped by the printed windows: concatenation is associative. -/
theorem ops_eq_windows : (ops : List (HloOp τ sig (Elt F))) = (pc00 ++ pc01) ++ (pc02 ++ ((pc03 ++ pc04) ++ ((pc05 ++ pc06) ++ (pc07 ++ ((pc08 ++ pc09) ++ (pc10 ++ ((pc11 ++ pc12) ++ (pc13 ++ ((pc14 ++ pc15) ++ (pc16 ++ ((pc17 ++ pc18) ++ ((pc19 ++ pc20) ++ (pc21 ++ pc22))))))))))))) := by
  simp only [ops, opsPre, opsLay0, opsLay1, opsLay2, opsLay3, opsLay4, opsLay5, opsLay6, opsLay7, List.append_assoc]

/-- @main is the straight line of its operations: window by window, the windows' lines joined. -/
theorem main_eq (c : Dev nD) : main (F := F) c = seq ops := by
  rw [ops_eq_windows]
  simp only [main, main_part0_eq c, main_part1_eq c, main_part2_eq c, main_part3_eq c, main_part4_eq c, main_part5_eq c, main_part6_eq c, main_part7_eq c, main_part8_eq c, main_part9_eq c, main_part10_eq c, main_part11_eq c, main_part12_eq c, main_part13_eq c, main_part14_eq c, seq_append]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the fold of @main's operations over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The contents layer by layer -/

/-- The device's buffer contents before @main's first operation. -/
def val0 (V0 : Valuation τ sig (Elt F)) : Valuation τ sig (Elt F) := V0
/-- … after the shared constants. -/
def val1 (V0 : Valuation τ sig (Elt F)) : Valuation τ sig (Elt F) := after opsPre (val0 V0)
/-- … after layer 0. -/
def val2 (V0 : Valuation τ sig (Elt F)) : Valuation τ sig (Elt F) := after opsLay0 (val1 V0)
/-- … after layer 1. -/
def val3 (V0 : Valuation τ sig (Elt F)) : Valuation τ sig (Elt F) := after opsLay1 (val2 V0)
/-- … after layer 2. -/
def val4 (V0 : Valuation τ sig (Elt F)) : Valuation τ sig (Elt F) := after opsLay2 (val3 V0)
/-- … after layer 3. -/
def val5 (V0 : Valuation τ sig (Elt F)) : Valuation τ sig (Elt F) := after opsLay3 (val4 V0)
/-- … after layer 4. -/
def val6 (V0 : Valuation τ sig (Elt F)) : Valuation τ sig (Elt F) := after opsLay4 (val5 V0)
/-- … after layer 5. -/
def val7 (V0 : Valuation τ sig (Elt F)) : Valuation τ sig (Elt F) := after opsLay5 (val6 V0)
/-- … after layer 6. -/
def val8 (V0 : Valuation τ sig (Elt F)) : Valuation τ sig (Elt F) := after opsLay6 (val7 V0)
/-- … after layer 7: the end of @main. -/
def val9 (V0 : Valuation τ sig (Elt F)) : Valuation τ sig (Elt F) := after opsLay7 (val8 V0)

/-- The fold of all of @main's operations is the layers' folds in turn. -/
theorem after_ops (V0 : Valuation τ sig (Elt F)) : after ops V0 = val9 V0 :=
  (after_append opsPre _ V0).trans <| (after_append opsLay0 _ _).trans <| (after_append opsLay1 _ _).trans <|
  (after_append opsLay2 _ _).trans <| (after_append opsLay3 _ _).trans <| (after_append opsLay4 _ _).trans <|
  (after_append opsLay5 _ _).trans <| (after_append opsLay6 opsLay7 _)

/-- A buffer the shared constants do not write keeps its contents through them; likewise each layer. -/
theorem val1_keep (V0 : Valuation τ sig (Elt F)) (r : Ref sig .tc) (h : r ∉ opsPre_W) :
    val1 V0 (Proc.devRef .tc r) = val0 V0 (Proc.devRef .tc r) := after_of_writes_sub opsPre _ opsPre_writes h
theorem val2_keep (V0 : Valuation τ sig (Elt F)) (r : Ref sig .tc) (h : r ∉ opsLay0_W) :
    val2 V0 (Proc.devRef .tc r) = val1 V0 (Proc.devRef .tc r) := after_of_writes_sub opsLay0 _ opsLay0_writes h
theorem val3_keep (V0 : Valuation τ sig (Elt F)) (r : Ref sig .tc) (h : r ∉ opsLay1_W) :
    val3 V0 (Proc.devRef .tc r) = val2 V0 (Proc.devRef .tc r) := after_of_writes_sub opsLay1 _ opsLay1_writes h
theorem val4_keep (V0 : Valuation τ sig (Elt F)) (r : Ref sig .tc) (h : r ∉ opsLay2_W) :
    val4 V0 (Proc.devRef .tc r) = val3 V0 (Proc.devRef .tc r) := after_of_writes_sub opsLay2 _ opsLay2_writes h
theorem val5_keep (V0 : Valuation τ sig (Elt F)) (r : Ref sig .tc) (h : r ∉ opsLay3_W) :
    val5 V0 (Proc.devRef .tc r) = val4 V0 (Proc.devRef .tc r) := after_of_writes_sub opsLay3 _ opsLay3_writes h
theorem val6_keep (V0 : Valuation τ sig (Elt F)) (r : Ref sig .tc) (h : r ∉ opsLay4_W) :
    val6 V0 (Proc.devRef .tc r) = val5 V0 (Proc.devRef .tc r) := after_of_writes_sub opsLay4 _ opsLay4_writes h
theorem val7_keep (V0 : Valuation τ sig (Elt F)) (r : Ref sig .tc) (h : r ∉ opsLay5_W) :
    val7 V0 (Proc.devRef .tc r) = val6 V0 (Proc.devRef .tc r) := after_of_writes_sub opsLay5 _ opsLay5_writes h
theorem val8_keep (V0 : Valuation τ sig (Elt F)) (r : Ref sig .tc) (h : r ∉ opsLay6_W) :
    val8 V0 (Proc.devRef .tc r) = val7 V0 (Proc.devRef .tc r) := after_of_writes_sub opsLay6 _ opsLay6_writes h
theorem val9_keep (V0 : Valuation τ sig (Elt F)) (r : Ref sig .tc) (h : r ∉ opsLay7_W) :
    val9 V0 (Proc.devRef .tc r) = val8 V0 (Proc.devRef .tc r) := after_of_writes_sub opsLay7 _ opsLay7_writes h

/-- A buffer no operation of @main writes (an argument) keeps its launch contents to the end. -/
theorem ops_keep (V0 : Valuation τ sig (Elt F)) (r : Ref sig .tc) (h : r ∉ ops_W) :
    after ops V0 (Proc.devRef .tc r) = V0 (Proc.devRef .tc r) := after_of_writes_sub ops V0 ops_writes h

end Cert.ReferenceIdeal.RunHand

end
-- ==== Proof.RefRunArgs.lean ====
/- The reference program's run in the form a frame claim reads: the two results at the fold of @main's operations
   over the launch contents, and each of the sixteen arguments unchanged (no operation of @main writes it). -/
import proofs.«112469_j76776835383759_2_alg».proof.Proof.RefRun

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- The run with the two results at the fold and the sixteen arguments unchanged. -/
theorem run_results_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v828) = after ops (launchContents m c) (Proc.devRef .tc main_v828)
      ∧ r.2.mem ((c.tc : Thread nD τ).loc main_v830) = after ops (launchContents m c) (Proc.devRef .tc main_v830)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨h c main_v828, h c main_v830,
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide)),
      (h c main_arg6).trans (ops_keep (launchContents m c) main_arg6 (by decide)),
      (h c main_arg7).trans (ops_keep (launchContents m c) main_arg7 (by decide)),
      (h c main_arg8).trans (ops_keep (launchContents m c) main_arg8 (by decide)),
      (h c main_arg9).trans (ops_keep (launchContents m c) main_arg9 (by decide)),
      (h c main_arg10).trans (ops_keep (launchContents m c) main_arg10 (by decide)),
      (h c main_arg11).trans (ops_keep (launchContents m c) main_arg11 (by decide)),
      (h c main_arg12).trans (ops_keep (launchContents m c) main_arg12 (by decide)),
      (h c main_arg13).trans (ops_keep (launchContents m c) main_arg13 (by decide)),
      (h c main_arg14).trans (ops_keep (launchContents m c) main_arg14 (by decide)),
      (h c main_arg15).trans (ops_keep (launchContents m c) main_arg15 (by decide))⟩)
    (run m ρ)

end Cert.ReferenceIdeal.RunHand

end
-- ==== Proof.Frames.lean ====
/-
  The three frame claims and the idealization claim.

  Each kernel program terminates without a fault and leaves its sixteen argument arrays as it found them: the
  frame run of its one pipelined region between the host operations around it.  The reference is a straight line
  of host operations, none of which writes an argument.  The ideal pass rewrote nothing, so the idealization claim
  is trivial.
-/
import proofs.«112469_j76776835383759_2_alg».proof.Defs
import proofs.«112469_j76776835383759_2_alg».proof.Proof.KFrame
import proofs.«112469_j76776835383759_2_alg».proof.Proof.KFrame_B
import proofs.«112469_j76776835383759_2_alg».proof.Proof.RefRunArgs
import proofs.«112469_j76776835383759_2_alg».proof.Proof.Gen.Pre_finite_inputs

noncomputable section

namespace Cert.Proof.Frames

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RunHand.run_results_args (F := Ideal) m ρ)

theorem preserves : Cert.preserves_Kernel_KernelIdeal := trivial

end Cert.Proof.Frames

end
-- ==== Proof.KValuePieces.lean ====
/- What the body leaves in the two outputs' buffers, as values. In each control case the last store into each output's
   buffer covers it whole, so the buffer ends at that store's payload; every load of the body reads a whole buffer, so
   the payload's operands are the buffers' contents themselves: the input blocks, and for the row block and the
   log-determinant column either what the resetting stores just put there (the input row block; zeros) or what the point
   before left. Stated at any float instance. -/
import proofs.«112469_j76776835383759_2_alg».proof.Proof.KFrame
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that resets, the first output's buffer ends at the new row block computed from the input row block itself. -/
theorem out_A_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = k0_pay1 (k0_pay7 x0 x1 x2 x4 x3) (k0_pay11 (k0_pay5 x4) (k0_pay6 x0 x1 x2 x3) (k0_pay8 x0 x1 x2 x4 x3) (k0_pay9 x0 x1 x2 x4 x3 x5 x6) x7 x8 x9 x10 x11 x12) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  sl_unfold_words
  rw [View.canon_cons_unit_zero (S := S512x512) hz2]
  simp only [View.readCov_unit_zero (S := S512x512) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x512) hz2, View.ld_unit_zero (S := S512x1) hz2, View.ld_unit_zero (S := S1x1x512) hz3, View.ld_unit_zero (S := S1x512x512) hz3, View.ld_unit_zero (S := S1x512x1024) hz3, View.ld_unit_zero (S := S1x1x1024) hz3, View.ld_unit_zero (S := S1x1024x512) hz3]

/-- At a point that resets, the second output's buffer ends at the new log-determinant column computed from the zero column. -/
theorem out_A_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 = k0_pay2 (k0_pay10 (k0_pay5 x4) (k0_pay9 x0 x1 x2 x4 x3 x5 x6) x7 x8) (k0_pay3 (F := F)) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12)]
  unfold kernelRun0_A
  dsimp only
  sl_unfold_words
  rw [View.canon_cons_unit_zero (S := S512x1) hz2]
  simp only [View.readCov_unit_zero (S := S512x512) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x512) hz2, View.ld_unit_zero (S := S512x1) hz2, View.ld_unit_zero (S := S1x1x512) hz3, View.ld_unit_zero (S := S1x512x512) hz3, View.ld_unit_zero (S := S1x512x1024) hz3, View.ld_unit_zero (S := S1x1x1024) hz3, View.ld_unit_zero (S := S1x1024x512) hz3]

/-- At any other point, the first output's buffer ends at the new row block computed from what the buffer held. -/
theorem out_B_13 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14 = k0_pay1 (k0_pay7 xo13 x1 x2 x4 x3) (k0_pay11 (k0_pay5 x4) (k0_pay6 xo13 x1 x2 x3) (k0_pay8 xo13 x1 x2 x4 x3) (k0_pay9 xo13 x1 x2 x4 x3 x5 x6) x7 x8 x9 x10 x11 x12) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14)]
  unfold kernelRun0_B
  dsimp only
  sl_unfold_words
  rw [View.canon_cons_unit_zero (S := S512x512) hz2]
  simp only [View.readCov_unit_zero (S := S512x512) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x1) hz2, View.ld_unit_zero (S := S1x1x512) hz3, View.ld_unit_zero (S := S1x512x512) hz3, View.ld_unit_zero (S := S1x512x1024) hz3, View.ld_unit_zero (S := S1x1x1024) hz3, View.ld_unit_zero (S := S1x1024x512) hz3]

/-- At any other point, the second output's buffer ends at the new log-determinant column computed from what the two buffers held. -/
theorem out_B_14 (c : Dev nD) (i : grid0.Coords) (arg2 : Memref sig .tc .vmem S512x512 .f32) (harg2 : arg2.IsWhole) (arg3 : Memref sig .tc .vmem S1x1x512 .f32) (harg3 : arg3.IsWhole) (arg4 : Memref sig .tc .vmem S1x1x512 .f32) (harg4 : arg4.IsWhole) (arg5 : Memref sig .tc .vmem S1x512x512 .bf16) (harg5 : arg5.IsWhole) (arg6 : Memref sig .tc .vmem S1x1x512 .f32) (harg6 : arg6.IsWhole) (arg7 : Memref sig .tc .vmem S1x512x1024 .bf16) (harg7 : arg7.IsWhole) (arg8 : Memref sig .tc .vmem S1x1x1024 .f32) (harg8 : arg8.IsWhole) (arg9 : Memref sig .tc .vmem S1x1024x512 .bf16) (harg9 : arg9.IsWhole) (arg10 : Memref sig .tc .vmem S1x1x512 .f32) (harg10 : arg10.IsWhole) (arg11 : Memref sig .tc .vmem S1x512x1024 .bf16) (harg11 : arg11.IsWhole) (arg12 : Memref sig .tc .vmem S1x1x1024 .f32) (harg12 : arg12.IsWhole) (arg13 : Memref sig .tc .vmem S1x1024x512 .bf16) (harg13 : arg13.IsWhole) (arg14 : Memref sig .tc .vmem S1x1x512 .f32) (harg14 : arg14.IsWhole) (arg15 : Memref sig .tc .vmem S512x512 .f32) (harg15 : arg15.IsWhole) (arg16 : Memref sig .tc .vmem S512x1 .f32) (harg16 : arg16.IsWhole) (hc0 : ¬cond0_0 i)
    (x0 : Vec F S512x512 .f32) (x1 : Vec F S1x1x512 .f32) (x2 : Vec F S1x1x512 .f32) (x3 : Vec F S1x512x512 .bf16) (x4 : Vec F S1x1x512 .f32) (x5 : Vec F S1x512x1024 .bf16) (x6 : Vec F S1x1x1024 .f32) (x7 : Vec F S1x1024x512 .bf16) (x8 : Vec F S1x1x512 .f32) (x9 : Vec F S1x512x1024 .bf16) (x10 : Vec F S1x1x1024 .f32) (x11 : Vec F S1x1024x512 .bf16) (x12 : Vec F S1x1x512 .f32) (xo13 : Vec F S512x512 .f32) (xo14 : Vec F S512x1 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14 = k0_pay2 (k0_pay10 (k0_pay5 x4) (k0_pay9 xo13 x1 x2 x4 x3 x5 x6) x7 x8) xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 xo13 xo14)]
  unfold kernelRun0_B
  dsimp only
  sl_unfold_words
  rw [View.canon_cons_unit_zero (S := S512x1) hz2]
  simp only [View.readCov_unit_zero (S := S512x512) _ hz2, View.readCov_unit_zero (S := S512x1) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x1) hz2, View.ld_unit_zero (S := S1x1x512) hz3, View.ld_unit_zero (S := S1x512x512) hz3, View.ld_unit_zero (S := S1x512x1024) hz3, View.ld_unit_zero (S := S1x1x1024) hz3, View.ld_unit_zero (S := S1x1024x512) hz3]

end Cert.KernelIdeal.Val

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LayerSpec.lean ====
/-
  One layer of the flow, row by row, on the extended reals.

  A layer acts on each row z : Fin 512 → EReal of the batch independently.  With the layer's parameters —
  log-scale ls, bias b, the 512 × 512 weight W (W k q multiplies the k-th activation into output column q),
  the 0/1 mask, and the two coupling networks (W1, b1, W2, b2) for the scale and (V1, c1, V2, c2) for the shift —
    a k    = exp (ls k) · z k + b k                      (activation normalisation)
    lin q  = ∑ k, a k · W k q                            (the invertible linear map)
    z0 q   = mask q · lin q                              (the part that passes through)
    hid h  = max ((∑ k, z0 k · W1 k h) + b1 h) 0         (hidden layer, rectified)
    s q    = tanh ((∑ h, hid h · W2 h q) + b2 q) · (1 − mask q)
    t q    = ((∑ h, hid' h · V2 h q) + c2 q) · (1 − mask q)      (hid' the same with V1, c1)
    out q  = z0 q + (1 − mask q) · (lin q · exp (s q) + t q)
  and the layer adds ∑ q, s q to the row's log-determinant.
  The constants 0 and 1 are kept as the float words the programs spell them with; only 0 is ever evaluated.
-/
import Idealize.ShloMosaic.PureOps.Ideal
import Idealize.ShloMosaic.PureOps.Ideal.Laws

noncomputable section

open scoped BigOperators

namespace Cert.Glow

open Idealize.ShloMosaic

/-- The word of 1.0 and the word of 0.0, read at the extended reals. -/
def one : EReal := Ideal.ofBits .f32 0x3F800000#32
def zero : EReal := Ideal.ofBits .f32 0x00000000#32

theorem zero_eq : zero = 0 := Ideal.ofBits_zero_f32

/-- Activation normalisation of one row. -/
def act (ls b z : Fin 512 → EReal) (k : Fin 512) : EReal := Ideal.exp (ls k) * z k + b k

/-- The linear map applied to the normalised row. -/
def lin (ls b : Fin 512 → EReal) (W : Fin 512 → Fin 512 → EReal) (z : Fin 512 → EReal) (q : Fin 512) : EReal :=
  ∑ k : Fin 512, act ls b z k * W k q

/-- The masked part. -/
def keep (mask : Fin 512 → EReal) (l : Fin 512 → EReal) (q : Fin 512) : EReal := mask q * l q

/-- A rectified hidden layer of a coupling network. -/
def hid (W1 : Fin 512 → Fin 1024 → EReal) (b1 : Fin 1024 → EReal) (z0 : Fin 512 → EReal) (h : Fin 1024) : EReal :=
  max ((∑ k : Fin 512, z0 k * W1 k h) + b1 h) zero

/-- A coupling network's output before its nonlinearity. -/
def net (W1 : Fin 512 → Fin 1024 → EReal) (b1 : Fin 1024 → EReal) (W2 : Fin 1024 → Fin 512 → EReal) (b2 : Fin 512 → EReal)
    (z0 : Fin 512 → EReal) (q : Fin 512) : EReal :=
  (∑ h : Fin 1024, hid W1 b1 z0 h * W2 h q) + b2 q

/-- The log-scale of the coupling. -/
def sOf (mask : Fin 512 → EReal) (W1 : Fin 512 → Fin 1024 → EReal) (b1 : Fin 1024 → EReal) (W2 : Fin 1024 → Fin 512 → EReal)
    (b2 : Fin 512 → EReal) (z0 : Fin 512 → EReal) (q : Fin 512) : EReal :=
  Ideal.tanh (net W1 b1 W2 b2 z0 q) * (one - mask q)

/-- The shift of the coupling. -/
def tOf (mask : Fin 512 → EReal) (V1 : Fin 512 → Fin 1024 → EReal) (c1 : Fin 1024 → EReal) (V2 : Fin 1024 → Fin 512 → EReal)
    (c2 : Fin 512 → EReal) (z0 : Fin 512 → EReal) (q : Fin 512) : EReal :=
  net V1 c1 V2 c2 z0 q * (one - mask q)

/-- The parameters of one layer. -/
structure Params where
  ls : Fin 512 → EReal
  b : Fin 512 → EReal
  W : Fin 512 → Fin 512 → EReal
  mask : Fin 512 → EReal
  W1 : Fin 512 → Fin 1024 → EReal
  b1 : Fin 1024 → EReal
  W2 : Fin 1024 → Fin 512 → EReal
  b2 : Fin 512 → EReal
  V1 : Fin 512 → Fin 1024 → EReal
  c1 : Fin 1024 → EReal
  V2 : Fin 1024 → Fin 512 → EReal
  c2 : Fin 512 → EReal

/-- The row's log-scale under the layer. -/
def sRow (P : Params) (z : Fin 512 → EReal) (q : Fin 512) : EReal :=
  sOf P.mask P.W1 P.b1 P.W2 P.b2 (keep P.mask (lin P.ls P.b P.W z)) q

/-- The row after the layer. -/
def zNew (P : Params) (z : Fin 512 → EReal) (q : Fin 512) : EReal :=
  keep P.mask (lin P.ls P.b P.W z) q
    + (one - P.mask q) * (lin P.ls P.b P.W z q * Ideal.exp (sRow P z q)
        + tOf P.mask P.V1 P.c1 P.V2 P.c2 (keep P.mask (lin P.ls P.b P.W z)) q)

/-- What the layer adds to the row's log-determinant. -/
def rowS (P : Params) (z : Fin 512 → EReal) : EReal := ∑ q : Fin 512, sRow P z q

end Cert.Glow

end
-- ==== Proof.KPayload.lean ====
/-
  The body's arithmetic read at an index, on the extended reals.

  One grid point applies one layer of the flow to a block of 512 rows.  The body's stored values are pure functions
  of the blocks it loads: the row block, the layer's log-scale, bias and mask (each a [1, 1, 512] block), the
  512 × 512 weight (a [1, 512, 512] block) and the two coupling networks' weights and biases.  Read at row p and
  column q, every pointwise operation acts on the entries at (p, q); a [1, 1, n] block viewed as a row and repeated
  down the rows reads its entry at the column; a [1, a, b] block viewed as a matrix reads its entry at (0, ·, ·); a
  product into the zero accumulator is the sum over the contracted coordinate; the lane sum is the sum over the
  row's columns; and a change of float format is the identity.  Put together, the new row block at (p, q) is the
  layer's new row of row p at q, the new log-determinant column at p is the old one plus the row's sum of
  log-scales, and the initial log-determinant column is zero.
-/
import proofs.«112469_j76776835383759_2_alg».proof.Proof.Gen.KernelIdeal.Skeleton
import proofs.«112469_j76776835383759_2_alg».proof.Proof.LibMatmul
import proofs.«112469_j76776835383759_2_alg».proof.Proof.LayerSpec
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The layout operations and the products of the body, at an index -/

section Layout
variable {α : Type}

/-- A [1, 1, n] block viewed as one row and repeated down m rows reads, at (p, k), the block at (0, 0, k). -/
theorem row_apply {m n : ℕ} (v : (⟨3, ![1, 1, n]⟩ : Shape).Idx → α)
    (h1 : (⟨3, ![1, 1, n]⟩ : Shape).ShapeCasts ⟨2, ![1, n]⟩) (h2 : (⟨2, ![1, n]⟩ : Shape).Broadcasts ⟨2, ![m, n]⟩)
    (p : Fin m) (k : Fin n) :
    broadcastTo ⟨2, ![m, n]⟩ (shapeCast ⟨2, ![1, n]⟩ v h1) h2 (ix2 p k) = v (ix3 (0 : Fin 1) (0 : Fin 1) k) :=
  (broadcastTo_1b_ab_apply _ h2 p k).trans (shapeCast_1ab_ab_apply v h1 0 k)

/-- A vector of length a viewed as a column [a, 1] reads, at (i, 0), the vector at i. -/
theorem col_apply {a : ℕ} (x : (⟨1, ![a]⟩ : Shape).Idx → α) (h : (⟨1, ![a]⟩ : Shape).ShapeCasts ⟨2, ![a, 1]⟩)
    (i : Fin a) : shapeCast ⟨2, ![a, 1]⟩ x h (ix2 i (0 : Fin 1)) = x (ix1 i) :=
  shapeCast_apply x h _ _ (by
    rw [Shape.rowMajor_val_two, Shape.rowMajor_val_one]
    show i.val = i.val * 1 + 0
    rw [Nat.mul_one, Nat.add_zero])

end Layout

/-- The sum along the lanes of a 512 × 512 block, read at row p: the sum of the row's entries. -/
theorem rowsum_apply (src : FVec Ideal S512x512 .f32) (h : S512x512.Reduces [1] S512) (hφ : FKind.Formats .f32)
    (hacc : (0x00000000#32 : BitVec 32) = 0x00000000#32) (p : Fin 512) :
    multiReduction .add [1] S512 src 0x00000000#32 h hφ hacc (ix1 p) = ∑ q : Fin 512, src (ix2 p q) := by
  refine (Ideal.multiReduction_add_single src 0x00000000#32 h hφ hacc (ix1 p)).trans ?_
  refine Finset.sum_congr rfl fun q _ => congrArg src ?_
  funext a
  refine Fin.ext ?_
  match a with
  | ⟨0, _⟩ => rfl
  | ⟨1, _⟩ => rfl

/-- The three products of the body, each into the zero accumulator, read at an index. -/
theorem mm1_apply {φ₁ φ₂ : FTy} (L : FVec Ideal S512x512 φ₁) (R : FVec Ideal S512x512 φ₂) (p q : Fin 512) :
    matmul dot_S512x512_S512x512_S512x512_1_0_0_1_n_n none L R (constant S512x512 .f32 0x00000000#32) (ix2 p q)
      = ∑ k : Fin 512, L (ix2 p k) * R (ix2 k q) :=
  Cert.Bridge.LibMatmul.matmul_zero_apply (M := 512) (K := 512) (N := 512) none L R p q

theorem mm2_apply {φ₁ φ₂ : FTy} (L : FVec Ideal S512x512 φ₁) (R : FVec Ideal S512x1024 φ₂) (p : Fin 512) (h : Fin 1024) :
    matmul dot_S512x512_S512x1024_S512x1024_1_0_0_1_n_n none L R (constant S512x1024 .f32 0x00000000#32) (ix2 p h)
      = ∑ k : Fin 512, L (ix2 p k) * R (ix2 k h) :=
  Cert.Bridge.LibMatmul.matmul_zero_apply (M := 512) (K := 512) (N := 1024) none L R p h

theorem mm3_apply {φ₁ φ₂ : FTy} (L : FVec Ideal S512x1024 φ₁) (R : FVec Ideal S1024x512 φ₂) (p q : Fin 512) :
    matmul dot_S512x1024_S1024x512_S512x512_1_0_0_1_n_n none L R (constant S512x512 .f32 0x00000000#32) (ix2 p q)
      = ∑ h : Fin 1024, L (ix2 p h) * R (ix2 h q) :=
  Cert.Bridge.LibMatmul.matmul_zero_apply (M := 512) (K := 1024) (N := 512) none L R p q

/-! ## Each payload over its own operands -/

/-- The mask's row. -/
theorem pay4_apply (v9 : Vec Ideal S1x1x512 .f32) (q : Fin 512) :
    k0_pay4 (F := Ideal) v9 (ix2 (0 : Fin 1) q) = v9 (ix3 (0 : Fin 1) (0 : Fin 1) q) := by
  unfold k0_pay4
  exact shapeCast_1ab_ab_apply v9 _ 0 q

/-- One minus the mask. -/
theorem pay5_apply (v9 : Vec Ideal S1x1x512 .f32) (q : Fin 512) :
    k0_pay5 (F := Ideal) v9 (ix2 (0 : Fin 1) q) = Cert.Glow.one - v9 (ix3 (0 : Fin 1) (0 : Fin 1) q) := by
  unfold k0_pay5
  exact congrArg (Cert.Glow.one - ·) (pay4_apply v9 q)

/-- The affine map followed by the matrix. -/
theorem pay6_apply (v3 : Vec Ideal S512x512 .f32) (v5 v7 : Vec Ideal S1x1x512 .f32) (v19 : Vec Ideal S1x512x512 .bf16)
    (p q : Fin 512) :
    k0_pay6 (F := Ideal) v3 v5 v7 v19 (ix2 p q)
      = ∑ k : Fin 512, (Ideal.exp (v5 (ix3 (0 : Fin 1) (0 : Fin 1) k)) * v3 (ix2 p k) + v7 (ix3 (0 : Fin 1) (0 : Fin 1) k))
          * v19 (ix3 (0 : Fin 1) k q) := by
  unfold k0_pay6
  refine (mm1_apply _ _ p q).trans ?_
  refine Finset.sum_congr rfl fun k _ => ?_
  show (Ideal.exp (broadcastTo S512x512 (shapeCast S1x512 v5 shapeCasts_S1x1x512_S1x512) broadcasts_S1x512_S512x512 (ix2 p k))
          * shapeCast S512x512 v3 shapeCasts_S512x512_S512x512 (ix2 p k)
        + broadcastTo S512x512 (shapeCast S1x512 v7 shapeCasts_S1x1x512_S1x512) broadcasts_S1x512_S512x512 (ix2 p k))
      * shapeCast S512x512 v19 shapeCasts_S1x512x512_S512x512 (ix2 k q) = _
  rw [row_apply, row_apply, shapeCast_self, shapeCast_1ab_ab_apply]

/-- The log-scale over its operands: the mask's complement v12 and the first hidden layer before its rectifier v31. -/
theorem pay10_apply (v12 : FVec Ideal S1x512 .f32) (v31 : FVec Ideal S512x1024 .f32) (v35 : Vec Ideal S1x1024x512 .bf16)
    (v38 : Vec Ideal S1x1x512 .f32) (p q : Fin 512) :
    k0_pay10 (F := Ideal) v12 v31 v35 v38 (ix2 p q)
      = Ideal.tanh ((∑ h : Fin 1024, max (v31 (ix2 p h)) Cert.Glow.zero * v35 (ix3 (0 : Fin 1) h q))
            + v38 (ix3 (0 : Fin 1) (0 : Fin 1) q)) * v12 (ix2 (0 : Fin 1) q) := by
  unfold k0_pay10
  show Ideal.tanh (matmul dot_S512x1024_S1024x512_S512x512_1_0_0_1_n_n none
            (truncf .bf16 (maximumf v31 (broadcast S512x1024 (Scalar.ofBits .f32 0x00000000#32))) bitsLt_bf16_f32)
            (shapeCast S1024x512 v35 shapeCasts_S1x1024x512_S1024x512) (constant S512x512 .f32 0x00000000#32) (ix2 p q)
          + broadcastTo S512x512 (shapeCast S1x512 v38 shapeCasts_S1x1x512_S1x512) broadcasts_S1x512_S512x512 (ix2 p q))
      * broadcastTo S512x512 v12 broadcasts_S1x512_S512x512 (ix2 p q) = _
  rw [mm3_apply, row_apply, broadcastTo_1b_ab_apply]
  refine congrArg (fun x => Ideal.tanh (x + _) * _) (Finset.sum_congr rfl fun h _ => ?_)
  show max (v31 (ix2 p h)) Cert.Glow.zero * shapeCast S1024x512 v35 shapeCasts_S1x1024x512_S1024x512 (ix2 h q) = _
  rw [shapeCast_1ab_ab_apply]

/-- The rescaled and shifted part over its operands: v21 the row after the matrix, v24 its masked part. -/
theorem pay11_apply (v12 : FVec Ideal S1x512 .f32) (v21 : FVec Ideal S512x512 .f32) (v24 : FVec Ideal S512x512 .bf16)
    (v31 : FVec Ideal S512x1024 .f32) (v35 : Vec Ideal S1x1024x512 .bf16) (v38 : Vec Ideal S1x1x512 .f32)
    (v45 : Vec Ideal S1x512x1024 .bf16) (v48 : Vec Ideal S1x1x1024 .f32) (v55 : Vec Ideal S1x1024x512 .bf16)
    (v58 : Vec Ideal S1x1x512 .f32) (p q : Fin 512) :
    k0_pay11 (F := Ideal) v12 v21 v24 v31 v35 v38 v45 v48 v55 v58 (ix2 p q)
      = v12 (ix2 (0 : Fin 1) q)
          * (v21 (ix2 p q) * Ideal.exp (k0_pay10 (F := Ideal) v12 v31 v35 v38 (ix2 p q))
              + ((∑ h : Fin 1024, max ((∑ k : Fin 512, v24 (ix2 p k) * v45 (ix3 (0 : Fin 1) k h))
                      + v48 (ix3 (0 : Fin 1) (0 : Fin 1) h)) Cert.Glow.zero * v55 (ix3 (0 : Fin 1) h q))
                  + v58 (ix3 (0 : Fin 1) (0 : Fin 1) q)) * v12 (ix2 (0 : Fin 1) q)) := by
  unfold k0_pay11
  show broadcastTo S512x512 v12 broadcasts_S1x512_S512x512 (ix2 p q)
      * (v21 (ix2 p q) * Ideal.exp (k0_pay10 (F := Ideal) v12 v31 v35 v38 (ix2 p q))
          + (matmul dot_S512x1024_S1024x512_S512x512_1_0_0_1_n_n none
                (truncf .bf16 (maximumf
                    (addf (matmul dot_S512x512_S512x1024_S512x1024_1_0_0_1_n_n none v24
                              (shapeCast S512x1024 v45 shapeCasts_S1x512x1024_S512x1024) (constant S512x1024 .f32 0x00000000#32))
                          (broadcastTo S512x1024 (shapeCast S1x1024 v48 shapeCasts_S1x1x1024_S1x1024) broadcasts_S1x1024_S512x1024))
                    (broadcast S512x1024 (Scalar.ofBits .f32 0x00000000#32))) bitsLt_bf16_f32)
                (shapeCast S1024x512 v55 shapeCasts_S1x1024x512_S1024x512) (constant S512x512 .f32 0x00000000#32) (ix2 p q)
              + broadcastTo S512x512 (shapeCast S1x512 v58 shapeCasts_S1x1x512_S1x512) broadcasts_S1x512_S512x512 (ix2 p q))
            * broadcastTo S512x512 v12 broadcasts_S1x512_S512x512 (ix2 p q)) = _
  rw [mm3_apply, row_apply, broadcastTo_1b_ab_apply]
  refine congrArg (fun x => _ * (_ + (x + _) * _)) (Finset.sum_congr rfl fun h _ => ?_)
  show max (matmul dot_S512x512_S512x1024_S512x1024_1_0_0_1_n_n none v24
              (shapeCast S512x1024 v45 shapeCasts_S1x512x1024_S512x1024) (constant S512x1024 .f32 0x00000000#32) (ix2 p h)
            + broadcastTo S512x1024 (shapeCast S1x1024 v48 shapeCasts_S1x1x1024_S1x1024) broadcasts_S1x1024_S512x1024 (ix2 p h))
          Cert.Glow.zero
        * shapeCast S1024x512 v55 shapeCasts_S1x1024x512_S1024x512 (ix2 h q) = _
  rw [mm2_apply, row_apply, shapeCast_1ab_ab_apply]
  refine congrArg (fun x => max (x + _) _ * _) (Finset.sum_congr rfl fun k _ => ?_)
  rw [shapeCast_1ab_ab_apply]

/-! ## The layer's parameters read off the loaded blocks, and the payloads as the layer's functions -/

/-- The layer's parameters, read off the blocks the body loads. -/
def paramsOf (v5 v7 v9 : Vec Ideal S1x1x512 .f32) (v19 : Vec Ideal S1x512x512 .bf16) (v25 : Vec Ideal S1x512x1024 .bf16)
    (v28 : Vec Ideal S1x1x1024 .f32) (v35 : Vec Ideal S1x1024x512 .bf16) (v38 : Vec Ideal S1x1x512 .f32)
    (v45 : Vec Ideal S1x512x1024 .bf16) (v48 : Vec Ideal S1x1x1024 .f32) (v55 : Vec Ideal S1x1024x512 .bf16)
    (v58 : Vec Ideal S1x1x512 .f32) : Cert.Glow.Params where
  ls k := v5 (ix3 (0 : Fin 1) (0 : Fin 1) k)
  b k := v7 (ix3 (0 : Fin 1) (0 : Fin 1) k)
  W k q := v19 (ix3 (0 : Fin 1) k q)
  mask q := v9 (ix3 (0 : Fin 1) (0 : Fin 1) q)
  W1 k h := v25 (ix3 (0 : Fin 1) k h)
  b1 h := v28 (ix3 (0 : Fin 1) (0 : Fin 1) h)
  W2 h q := v35 (ix3 (0 : Fin 1) h q)
  b2 q := v38 (ix3 (0 : Fin 1) (0 : Fin 1) q)
  V1 k h := v45 (ix3 (0 : Fin 1) k h)
  c1 h := v48 (ix3 (0 : Fin 1) (0 : Fin 1) h)
  V2 h q := v55 (ix3 (0 : Fin 1) h q)
  c2 q := v58 (ix3 (0 : Fin 1) (0 : Fin 1) q)

section Layer
variable (v3 : Vec Ideal S512x512 .f32) (v5 v7 v9 : Vec Ideal S1x1x512 .f32) (v19 : Vec Ideal S1x512x512 .bf16)
  (v25 : Vec Ideal S1x512x1024 .bf16) (v28 : Vec Ideal S1x1x1024 .f32) (v35 : Vec Ideal S1x1024x512 .bf16)
  (v38 : Vec Ideal S1x1x512 .f32) (v45 : Vec Ideal S1x512x1024 .bf16) (v48 : Vec Ideal S1x1x1024 .f32)
  (v55 : Vec Ideal S1x1024x512 .bf16) (v58 : Vec Ideal S1x1x512 .f32) (v71 : Vec Ideal S512x1 .f32) (p : Fin 512)

local notation "PP" => paramsOf v5 v7 v9 v19 v25 v28 v35 v38 v45 v48 v55 v58
local notation "zz" => (fun k : Fin 512 => v3 (ix2 p k))

/-- The row after the matrix. -/
theorem pay6_eq (q : Fin 512) :
    k0_pay6 (F := Ideal) v3 v5 v7 v19 (ix2 p q) = Cert.Glow.lin (PP).ls (PP).b (PP).W zz q :=
  pay6_apply v3 v5 v7 v19 p q

/-- Its masked part. -/
theorem pay7_eq (q : Fin 512) :
    k0_pay7 (F := Ideal) v3 v5 v7 v9 v19 (ix2 p q)
      = Cert.Glow.keep (PP).mask (Cert.Glow.lin (PP).ls (PP).b (PP).W zz) q := by
  unfold k0_pay7
  show broadcastTo S512x512 (k0_pay4 (F := Ideal) v9) broadcasts_S1x512_S512x512 (ix2 p q)
      * k0_pay6 (F := Ideal) v3 v5 v7 v19 (ix2 p q) = _
  rw [broadcastTo_1b_ab_apply, pay4_apply, pay6_eq v3 v5 v7 v9 v19 v25 v28 v35 v38 v45 v48 v55 v58 p q]
  rfl

/-- The first coupling network's hidden layer before its rectifier. -/
theorem pay9_eq (h : Fin 1024) :
    k0_pay9 (F := Ideal) v3 v5 v7 v9 v19 v25 v28 (ix2 p h)
      = (∑ k : Fin 512, Cert.Glow.keep (PP).mask (Cert.Glow.lin (PP).ls (PP).b (PP).W zz) k * (PP).W1 k h) + (PP).b1 h := by
  unfold k0_pay9
  show matmul dot_S512x512_S512x1024_S512x1024_1_0_0_1_n_n none (k0_pay8 (F := Ideal) v3 v5 v7 v9 v19)
        (shapeCast S512x1024 v25 shapeCasts_S1x512x1024_S512x1024) (constant S512x1024 .f32 0x00000000#32) (ix2 p h)
      + broadcastTo S512x1024 (shapeCast S1x1024 v28 shapeCasts_S1x1x1024_S1x1024) broadcasts_S1x1024_S512x1024 (ix2 p h) = _
  rw [mm2_apply, row_apply]
  refine congrArg (· + _) (Finset.sum_congr rfl fun k _ => ?_)
  show k0_pay7 (F := Ideal) v3 v5 v7 v9 v19 (ix2 p k) * shapeCast S512x1024 v25 shapeCasts_S1x512x1024_S512x1024 (ix2 k h) = _
  rw [pay7_eq v3 v5 v7 v9 v19 v25 v28 v35 v38 v45 v48 v55 v58 p k, shapeCast_1ab_ab_apply]
  rfl

/-- The log-scale. -/
theorem pay10_eq (q : Fin 512) :
    k0_pay10 (F := Ideal) (k0_pay5 v9) (k0_pay9 v3 v5 v7 v9 v19 v25 v28) v35 v38 (ix2 p q) = Cert.Glow.sRow PP zz q := by
  rw [pay10_apply, pay5_apply]
  refine congrArg (fun x => Ideal.tanh (x + _) * _) (Finset.sum_congr rfl fun h _ => ?_)
  rw [pay9_eq v3 v5 v7 v9 v19 v25 v28 v35 v38 v45 v48 v55 v58 p h]
  rfl

/-- The rescaled and shifted part. -/
theorem pay11_eq (q : Fin 512) :
    k0_pay11 (F := Ideal) (k0_pay5 v9) (k0_pay6 v3 v5 v7 v19) (k0_pay8 v3 v5 v7 v9 v19) (k0_pay9 v3 v5 v7 v9 v19 v25 v28)
        v35 v38 v45 v48 v55 v58 (ix2 p q)
      = (Cert.Glow.one - (PP).mask q)
          * (Cert.Glow.lin (PP).ls (PP).b (PP).W zz q * Ideal.exp (Cert.Glow.sRow PP zz q)
              + Cert.Glow.tOf (PP).mask (PP).V1 (PP).c1 (PP).V2 (PP).c2
                  (Cert.Glow.keep (PP).mask (Cert.Glow.lin (PP).ls (PP).b (PP).W zz)) q) := by
  rw [pay11_apply, pay10_eq v3 v5 v7 v9 v19 v25 v28 v35 v38 v45 v48 v55 v58 p q, pay5_apply,
    pay6_eq v3 v5 v7 v9 v19 v25 v28 v35 v38 v45 v48 v55 v58 p q]
  refine congrArg (fun x => _ * (_ + (x + _) * _)) (Finset.sum_congr rfl fun h _ => ?_)
  refine congrArg (fun x => max (x + _) _ * _) (Finset.sum_congr rfl fun k _ => ?_)
  show k0_pay7 (F := Ideal) v3 v5 v7 v9 v19 (ix2 p k) * v45 (ix3 (0 : Fin 1) k h) = _
  rw [pay7_eq v3 v5 v7 v9 v19 v25 v28 v35 v38 v45 v48 v55 v58 p k]
  rfl

/-- THE NEW ROW BLOCK at (p, q) is the layer's new row of row p, at q. -/
theorem pay1_apply (q : Fin 512) :
    k0_pay1 (F := Ideal) (k0_pay7 v3 v5 v7 v9 v19)
        (k0_pay11 (k0_pay5 v9) (k0_pay6 v3 v5 v7 v19) (k0_pay8 v3 v5 v7 v9 v19) (k0_pay9 v3 v5 v7 v9 v19 v25 v28)
          v35 v38 v45 v48 v55 v58) (ix2 p q)
      = Cert.Glow.zNew PP zz q := by
  unfold k0_pay1
  show k0_pay7 (F := Ideal) v3 v5 v7 v9 v19 (ix2 p q)
      + k0_pay11 (F := Ideal) (k0_pay5 v9) (k0_pay6 v3 v5 v7 v19) (k0_pay8 v3 v5 v7 v9 v19) (k0_pay9 v3 v5 v7 v9 v19 v25 v28)
          v35 v38 v45 v48 v55 v58 (ix2 p q) = _
  rw [pay7_eq v3 v5 v7 v9 v19 v25 v28 v35 v38 v45 v48 v55 v58 p q,
    pay11_eq v3 v5 v7 v9 v19 v25 v28 v35 v38 v45 v48 v55 v58 p q]
  rfl

/-- THE NEW LOG-DETERMINANT COLUMN at p is the old one plus the sum of row p's log-scales. -/
theorem pay2_apply :
    k0_pay2 (F := Ideal) (k0_pay10 (k0_pay5 v9) (k0_pay9 v3 v5 v7 v9 v19 v25 v28) v35 v38) v71 (ix2 p (0 : Fin 1))
      = v71 (ix2 p (0 : Fin 1)) + Cert.Glow.rowS PP zz := by
  unfold k0_pay2
  show shapeCast S512x1 v71 shapeCasts_S512x1_S512x1 (ix2 p (0 : Fin 1))
      + shapeCast S512x1 (multiReduction .add [1] S512
            (k0_pay10 (F := Ideal) (k0_pay5 v9) (k0_pay9 v3 v5 v7 v9 v19 v25 v28) v35 v38) 0x00000000#32
            reduces_S512x512_S512 (.inl rfl) rfl) shapeCasts_S512_S512x1 (ix2 p (0 : Fin 1)) = _
  rw [shapeCast_self, col_apply]
  refine congrArg (_ + ·) ((rowsum_apply _ _ _ _ p).trans ?_)
  exact Finset.sum_congr rfl fun q _ => pay10_eq v3 v5 v7 v9 v19 v25 v28 v35 v38 v45 v48 v55 v58 p q

end Layer

/-- THE INITIAL LOG-DETERMINANT COLUMN is zero. -/
theorem pay3_apply (p : Fin 512) : k0_pay3 (F := Ideal) (ix2 p (0 : Fin 1)) = Cert.Glow.zero := rfl

end Cert.KernelIdeal.Pay

end
-- ==== Proof.ParamSpec.lean ====
/-
  The layer's parameters in terms of the arguments.

  The invertible linear map of a layer is given in factored form: W = (P · (L ∘ T + E)) · (U ∘ T' + diag d), with T the
  strictly-lower-triangular 0/1 mask, T' its transpose, E the identity and d = sign · exp logs; the layer multiplies a row
  by the transpose of W, so the weight taking activation k to output column q is W q k.  Whether an entry is on the diagonal
  is an integer comparison of the two coordinates, kept here as a one-bit word per entry, as the programs compute it.
  The coupling mask alternates between layers: the base mask on even layers, one minus it on odd ones.
-/
import proofs.«112469_j76776835383759_2_alg».proof.Proof.LayerSpec

noncomputable section

open scoped BigOperators

namespace Cert.Glow

open Idealize.ShloMosaic

/-- The weight taking activation `k` to output column `q`: entry (q, k) of (P · (L ∘ T + E)) · (U ∘ T' + diag d). -/
def wOf (P L U : Fin 512 → Fin 512 → EReal) (d : Fin 512 → EReal) (E T T' : Fin 512 → Fin 512 → EReal)
    (onDiag : Fin 512 → Fin 512 → BitVec 1) (k q : Fin 512) : EReal :=
  ∑ j : Fin 512, (∑ i : Fin 512, P q i * (L i j * T i j + E i j)) * (U j k * T' j k + Scalar.select (onDiag j k) (d j) zero)

/-- The diagonal of the upper factor: sign · exp logs. -/
def dOf (sg lg : Fin 512 → EReal) (j : Fin 512) : EReal := sg j * Ideal.exp (lg j)

/-- The coupling mask of layer `l`: the base mask on even layers, one minus it on odd ones. -/
def maskOf (base : Fin 512 → EReal) (l : Nat) (q : Fin 512) : EReal := if l % 2 = 0 then base q else one - base q

end Cert.Glow

end
-- ==== Proof.FlowSpec.lean ====
/-
  The whole flow, row by row: eight layers, each with its own parameters cut out of the stacked arguments, applied
  one after the other to a row of the batch; the row's log-determinant collects each layer's sum of log-scales.
-/
import proofs.«112469_j76776835383759_2_alg».proof.Proof.ParamSpec

noncomputable section

open scoped BigOperators

namespace Cert.Glow

open Idealize.ShloMosaic

/-- The sixteen arguments as functions of plain indices (the batch first, then the stacked per-layer parameters). -/
structure Args where
  y : Fin 16384 → Fin 512 → EReal
  a1 : Fin 8 → Fin 512 → EReal
  a2 : Fin 8 → Fin 512 → EReal
  a3 : Fin 8 → Fin 512 → Fin 512 → EReal
  a4 : Fin 8 → Fin 512 → Fin 512 → EReal
  a5 : Fin 8 → Fin 512 → Fin 512 → EReal
  a6 : Fin 8 → Fin 512 → EReal
  a7 : Fin 8 → Fin 512 → EReal
  a8 : Fin 8 → Fin 512 → Fin 1024 → EReal
  a9 : Fin 8 → Fin 1024 → EReal
  a10 : Fin 8 → Fin 1024 → Fin 512 → EReal
  a11 : Fin 8 → Fin 512 → EReal
  a12 : Fin 8 → Fin 512 → Fin 1024 → EReal
  a13 : Fin 8 → Fin 1024 → EReal
  a14 : Fin 8 → Fin 1024 → Fin 512 → EReal
  a15 : Fin 8 → Fin 512 → EReal

/-- The constant arrays both programs build before the first layer: the identity E, the strictly lower triangular mask T,
    its transpose T', the on-diagonal test and the base coupling mask. -/
structure Consts where
  E : Fin 512 → Fin 512 → EReal
  T : Fin 512 → Fin 512 → EReal
  T' : Fin 512 → Fin 512 → EReal
  onDiag : Fin 512 → Fin 512 → BitVec 1
  base : Fin 512 → EReal

/-- Layer `l`'s parameters. -/
def layerParams (A : Args) (C : Consts) (l : Fin 8) : Params where
  ls := A.a1 l
  b := A.a2 l
  W := wOf (A.a3 l) (A.a4 l) (A.a5 l) (dOf (A.a6 l) (A.a7 l)) C.E C.T C.T' C.onDiag
  mask := maskOf C.base l.val
  W1 := A.a8 l
  b1 := A.a9 l
  W2 := A.a10 l
  b2 := A.a11 l
  V1 := A.a12 l
  c1 := A.a13 l
  V2 := A.a14 l
  c2 := A.a15 l

/-- The layers' parameters by number (numbers past the last layer wrap round; they are never used). -/
def paramsAt (A : Args) (C : Consts) (n : Nat) : Params := layerParams A C ⟨n % 8, Nat.mod_lt _ (by decide)⟩

theorem paramsAt_of_lt (A : Args) (C : Consts) (l : Fin 8) : paramsAt A C l.val = layerParams A C l := by
  unfold paramsAt
  exact congrArg (layerParams A C) (Fin.ext (Nat.mod_eq_of_lt l.isLt))

/-- A row after the first `n` layers. -/
def zAt (A : Args) (C : Consts) (y : Fin 512 → EReal) : Nat → Fin 512 → EReal
  | 0 => y
  | n + 1 => zNew (paramsAt A C n) (zAt A C y n)

/-- The sum of the first `n` layers' log-scales along a row, starting from the zero word. -/
def sAt (A : Args) (C : Consts) (y : Fin 512 → EReal) : Nat → EReal
  | 0 => zero
  | n + 1 => sAt A C y n + rowS (paramsAt A C n) (zAt A C y n)

/-- The reference's running log-determinant of a row: each layer adds the sum of its log-scale parameters, the sum of
    the logarithms of its linear map's diagonal, and the row's sum of coupling log-scales, each sum started from the zero word. -/
def rAt (A : Args) (C : Consts) (y : Fin 512 → EReal) : Nat → EReal
  | 0 => zero
  | n + 1 => rAt A C y n + (zero + ∑ k : Fin 512, (paramsAt A C n).ls k)
      + (zero + ∑ k : Fin 512, A.a7 ⟨n % 8, Nat.mod_lt _ (by decide)⟩ k)
      + (zero + rowS (paramsAt A C n) (zAt A C y n))

/-- The kernel's log-determinant of a row: the eight coupling sums, plus once the sum of every layer's log-scale
    parameters and the sum of every layer's diagonal logarithms. -/
def kLdj (A : Args) (C : Consts) (y : Fin 512 → EReal) : EReal :=
  sAt A C y 8 + ((zero + ∑ l : Fin 8, ∑ k : Fin 512, A.a1 l k) + (zero + ∑ l : Fin 8, ∑ k : Fin 512, A.a7 l k))

end Cert.Glow

end
-- ==== Proof.KValueBlocks.lean ====
/- The input windows' blocks as rows of their arrays. Grid point t is (t / 8, t mod 8): the first coordinate selects a
   block of 512 rows of the batch, the second a layer. Window 0's block at t is rows 512·(t / 8) … of the batch array; each
   of the twelve parameter windows' block at t is row (t mod 8) of its array along the leading (layer) axis. With the
   thirteen arrays' contents at the region's entry named by a family of arguments and constants (the hypothesis
   EntryFacts), the twelve parameter blocks at t are the parameters of layer t mod 8. -/
import proofs.«112469_j76776835383759_2_alg».proof.Proof.KFrame
import proofs.«112469_j76776835383759_2_alg».proof.Proof.KPayload
import proofs.«112469_j76776835383759_2_alg».proof.Proof.FlowSpec
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ)

/-! ## The block indices, decided over the grid -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 3) = t.val % 8 ∧ win0_1.index t (1 : Fin 3) = 0 ∧ win0_1.index t (2 : Fin 3) = 0 :=
  (by decide +kernel : ∀ t : Fin grid0.N, win0_1.index t (0 : Fin 3) = t.val % 8 ∧ win0_1.index t (1 : Fin 3) = 0 ∧ win0_1.index t (2 : Fin 3) = 0)
theorem idx2 : ∀ t : Fin cfg0.N, win0_2.index t (0 : Fin 3) = t.val % 8 ∧ win0_2.index t (1 : Fin 3) = 0 ∧ win0_2.index t (2 : Fin 3) = 0 :=
  (by decide +kernel : ∀ t : Fin grid0.N, win0_2.index t (0 : Fin 3) = t.val % 8 ∧ win0_2.index t (1 : Fin 3) = 0 ∧ win0_2.index t (2 : Fin 3) = 0)
theorem idx3 : ∀ t : Fin cfg0.N, win0_3.index t (0 : Fin 3) = t.val % 8 ∧ win0_3.index t (1 : Fin 3) = 0 ∧ win0_3.index t (2 : Fin 3) = 0 :=
  (by decide +kernel : ∀ t : Fin grid0.N, win0_3.index t (0 : Fin 3) = t.val % 8 ∧ win0_3.index t (1 : Fin 3) = 0 ∧ win0_3.index t (2 : Fin 3) = 0)
theorem idx4 : ∀ t : Fin cfg0.N, win0_4.index t (0 : Fin 3) = t.val % 8 ∧ win0_4.index t (1 : Fin 3) = 0 ∧ win0_4.index t (2 : Fin 3) = 0 :=
  (by decide +kernel : ∀ t : Fin grid0.N, win0_4.index t (0 : Fin 3) = t.val % 8 ∧ win0_4.index t (1 : Fin 3) = 0 ∧ win0_4.index t (2 : Fin 3) = 0)
theorem idx5 : ∀ t : Fin cfg0.N, win0_5.index t (0 : Fin 3) = t.val % 8 ∧ win0_5.index t (1 : Fin 3) = 0 ∧ win0_5.index t (2 : Fin 3) = 0 :=
  (by decide +kernel : ∀ t : Fin grid0.N, win0_5.index t (0 : Fin 3) = t.val % 8 ∧ win0_5.index t (1 : Fin 3) = 0 ∧ win0_5.index t (2 : Fin 3) = 0)
theorem idx6 : ∀ t : Fin cfg0.N, win0_6.index t (0 : Fin 3) = t.val % 8 ∧ win0_6.index t (1 : Fin 3) = 0 ∧ win0_6.index t (2 : Fin 3) = 0 :=
  (by decide +kernel : ∀ t : Fin grid0.N, win0_6.index t (0 : Fin 3) = t.val % 8 ∧ win0_6.index t (1 : Fin 3) = 0 ∧ win0_6.index t (2 : Fin 3) = 0)
theorem idx7 : ∀ t : Fin cfg0.N, win0_7.index t (0 : Fin 3) = t.val % 8 ∧ win0_7.index t (1 : Fin 3) = 0 ∧ win0_7.index t (2 : Fin 3) = 0 :=
  (by decide +kernel : ∀ t : Fin grid0.N, win0_7.index t (0 : Fin 3) = t.val % 8 ∧ win0_7.index t (1 : Fin 3) = 0 ∧ win0_7.index t (2 : Fin 3) = 0)
theorem idx8 : ∀ t : Fin cfg0.N, win0_8.index t (0 : Fin 3) = t.val % 8 ∧ win0_8.index t (1 : Fin 3) = 0 ∧ win0_8.index t (2 : Fin 3) = 0 :=
  (by decide +kernel : ∀ t : Fin grid0.N, win0_8.index t (0 : Fin 3) = t.val % 8 ∧ win0_8.index t (1 : Fin 3) = 0 ∧ win0_8.index t (2 : Fin 3) = 0)
theorem idx9 : ∀ t : Fin cfg0.N, win0_9.index t (0 : Fin 3) = t.val % 8 ∧ win0_9.index t (1 : Fin 3) = 0 ∧ win0_9.index t (2 : Fin 3) = 0 :=
  (by decide +kernel : ∀ t : Fin grid0.N, win0_9.index t (0 : Fin 3) = t.val % 8 ∧ win0_9.index t (1 : Fin 3) = 0 ∧ win0_9.index t (2 : Fin 3) = 0)
theorem idx10 : ∀ t : Fin cfg0.N, win0_10.index t (0 : Fin 3) = t.val % 8 ∧ win0_10.index t (1 : Fin 3) = 0 ∧ win0_10.index t (2 : Fin 3) = 0 :=
  (by decide +kernel : ∀ t : Fin grid0.N, win0_10.index t (0 : Fin 3) = t.val % 8 ∧ win0_10.index t (1 : Fin 3) = 0 ∧ win0_10.index t (2 : Fin 3) = 0)
theorem idx11 : ∀ t : Fin cfg0.N, win0_11.index t (0 : Fin 3) = t.val % 8 ∧ win0_11.index t (1 : Fin 3) = 0 ∧ win0_11.index t (2 : Fin 3) = 0 :=
  (by decide +kernel : ∀ t : Fin grid0.N, win0_11.index t (0 : Fin 3) = t.val % 8 ∧ win0_11.index t (1 : Fin 3) = 0 ∧ win0_11.index t (2 : Fin 3) = 0)
theorem idx12 : ∀ t : Fin cfg0.N, win0_12.index t (0 : Fin 3) = t.val % 8 ∧ win0_12.index t (1 : Fin 3) = 0 ∧ win0_12.index t (2 : Fin 3) = 0 :=
  (by decide +kernel : ∀ t : Fin grid0.N, win0_12.index t (0 : Fin 3) = t.val % 8 ∧ win0_12.index t (1 : Fin 3) = 0 ∧ win0_12.index t (2 : Fin 3) = 0)

/-! ## Each block read at an index is its array read at the row the point selects -/

/-- The layer a grid point works on. -/
def layerOf (t : Fin cfg0.N) : Fin 8 := ⟨t.val % 8, Nat.mod_lt _ (by decide)⟩

/-- The batch row that row `p` of the block at position `n` is. -/
def rowOf (n : ℕ) (hn : n < cfg0.N) (p : Fin 512) : Fin 16384 :=
  ⟨512 * (n / 8) + p.val, by have hN : cfg0.N = 256 := N_0; have := p.isLt; omega⟩

theorem blk0 (c : Dev nD) (t : Fin cfg0.N) (p k : Fin 512) :
    (iblk m c 0 t : Vec Ideal S512x512 .f32) (ix2 p k) = V m c main_arg0 (ix2 (rowOf t.val t.isLt p) k) := by
  unfold iblk
  rw [View.read_apply]
  show V m c main_arg0 _ = V m c main_arg0 _
  refine congrArg (V m c main_arg0) ?_
  funext d
  refine Fin.ext ?_
  match d with
  | ⟨0, _⟩ => show win0_0.index t 0 * 512 + 1 * p.val = 512 * (t.val / 8) + p.val; rw [(idx0 t).1]; omega
  | ⟨1, _⟩ => show win0_0.index t 1 * 512 + 1 * k.val = k.val; rw [(idx0 t).2]; omega

theorem blk1 (c : Dev nD) (t : Fin cfg0.N) (a : Fin 1) (b : Fin 512) :
    (iblk m c 1 t : Vec Ideal S1x1x512 .f32) (ix3 (0 : Fin 1) a b) = V m c main_v55 (ix3 (layerOf t) a b) := by
  unfold iblk
  rw [View.read_apply]
  show V m c main_v55 _ = V m c main_v55 _
  refine congrArg (V m c main_v55) ?_
  funext d
  refine Fin.ext ?_
  match d with
  | ⟨0, _⟩ => show win0_1.index t 0 * 1 + 1 * 0 = t.val % 8; rw [(idx1 t).1]; omega
  | ⟨1, _⟩ => show win0_1.index t 1 * 1 + 1 * a.val = a.val; rw [(idx1 t).2.1]; omega
  | ⟨2, _⟩ => show win0_1.index t 2 * 512 + 1 * b.val = b.val; rw [(idx1 t).2.2]; omega

theorem blk2 (c : Dev nD) (t : Fin cfg0.N) (a : Fin 1) (b : Fin 512) :
    (iblk m c 2 t : Vec Ideal S1x1x512 .f32) (ix3 (0 : Fin 1) a b) = V m c main_v56 (ix3 (layerOf t) a b) := by
  unfold iblk
  rw [View.read_apply]
  show V m c main_v56 _ = V m c main_v56 _
  refine congrArg (V m c main_v56) ?_
  funext d
  refine Fin.ext ?_
  match d with
  | ⟨0, _⟩ => show win0_2.index t 0 * 1 + 1 * 0 = t.val % 8; rw [(idx2 t).1]; omega
  | ⟨1, _⟩ => show win0_2.index t 1 * 1 + 1 * a.val = a.val; rw [(idx2 t).2.1]; omega
  | ⟨2, _⟩ => show win0_2.index t 2 * 512 + 1 * b.val = b.val; rw [(idx2 t).2.2]; omega

theorem blk3 (c : Dev nD) (t : Fin cfg0.N) (a : Fin 512) (b : Fin 512) :
    (iblk m c 3 t : Vec Ideal S1x512x512 .bf16) (ix3 (0 : Fin 1) a b) = V m c main_v30 (ix3 (layerOf t) a b) := by
  unfold iblk
  rw [View.read_apply]
  show V m c main_v30 _ = V m c main_v30 _
  refine congrArg (V m c main_v30) ?_
  funext d
  refine Fin.ext ?_
  match d with
  | ⟨0, _⟩ => show win0_3.index t 0 * 1 + 1 * 0 = t.val % 8; rw [(idx3 t).1]; omega
  | ⟨1, _⟩ => show win0_3.index t 1 * 512 + 1 * a.val = a.val; rw [(idx3 t).2.1]; omega
  | ⟨2, _⟩ => show win0_3.index t 2 * 512 + 1 * b.val = b.val; rw [(idx3 t).2.2]; omega

theorem blk4 (c : Dev nD) (t : Fin cfg0.N) (a : Fin 1) (b : Fin 512) :
    (iblk m c 4 t : Vec Ideal S1x1x512 .f32) (ix3 (0 : Fin 1) a b) = V m c main_v57 (ix3 (layerOf t) a b) := by
  unfold iblk
  rw [View.read_apply]
  show V m c main_v57 _ = V m c main_v57 _
  refine congrArg (V m c main_v57) ?_
  funext d
  refine Fin.ext ?_
  match d with
  | ⟨0, _⟩ => show win0_4.index t 0 * 1 + 1 * 0 = t.val % 8; rw [(idx4 t).1]; omega
  | ⟨1, _⟩ => show win0_4.index t 1 * 1 + 1 * a.val = a.val; rw [(idx4 t).2.1]; omega
  | ⟨2, _⟩ => show win0_4.index t 2 * 512 + 1 * b.val = b.val; rw [(idx4 t).2.2]; omega

theorem blk5 (c : Dev nD) (t : Fin cfg0.N) (a : Fin 512) (b : Fin 1024) :
    (iblk m c 5 t : Vec Ideal S1x512x1024 .bf16) (ix3 (0 : Fin 1) a b) = V m c main_v48 (ix3 (layerOf t) a b) := by
  unfold iblk
  rw [View.read_apply]
  show V m c main_v48 _ = V m c main_v48 _
  refine congrArg (V m c main_v48) ?_
  funext d
  refine Fin.ext ?_
  match d with
  | ⟨0, _⟩ => show win0_5.index t 0 * 1 + 1 * 0 = t.val % 8; rw [(idx5 t).1]; omega
  | ⟨1, _⟩ => show win0_5.index t 1 * 512 + 1 * a.val = a.val; rw [(idx5 t).2.1]; omega
  | ⟨2, _⟩ => show win0_5.index t 2 * 1024 + 1 * b.val = b.val; rw [(idx5 t).2.2]; omega

theorem blk6 (c : Dev nD) (t : Fin cfg0.N) (a : Fin 1) (b : Fin 1024) :
    (iblk m c 6 t : Vec Ideal S1x1x1024 .f32) (ix3 (0 : Fin 1) a b) = V m c main_v58 (ix3 (layerOf t) a b) := by
  unfold iblk
  rw [View.read_apply]
  show V m c main_v58 _ = V m c main_v58 _
  refine congrArg (V m c main_v58) ?_
  funext d
  refine Fin.ext ?_
  match d with
  | ⟨0, _⟩ => show win0_6.index t 0 * 1 + 1 * 0 = t.val % 8; rw [(idx6 t).1]; omega
  | ⟨1, _⟩ => show win0_6.index t 1 * 1 + 1 * a.val = a.val; rw [(idx6 t).2.1]; omega
  | ⟨2, _⟩ => show win0_6.index t 2 * 1024 + 1 * b.val = b.val; rw [(idx6 t).2.2]; omega

theorem blk7 (c : Dev nD) (t : Fin cfg0.N) (a : Fin 1024) (b : Fin 512) :
    (iblk m c 7 t : Vec Ideal S1x1024x512 .bf16) (ix3 (0 : Fin 1) a b) = V m c main_v49 (ix3 (layerOf t) a b) := by
  unfold iblk
  rw [View.read_apply]
  show V m c main_v49 _ = V m c main_v49 _
  refine congrArg (V m c main_v49) ?_
  funext d
  refine Fin.ext ?_
  match d with
  | ⟨0, _⟩ => show win0_7.index t 0 * 1 + 1 * 0 = t.val % 8; rw [(idx7 t).1]; omega
  | ⟨1, _⟩ => show win0_7.index t 1 * 1024 + 1 * a.val = a.val; rw [(idx7 t).2.1]; omega
  | ⟨2, _⟩ => show win0_7.index t 2 * 512 + 1 * b.val = b.val; rw [(idx7 t).2.2]; omega

theorem blk8 (c : Dev nD) (t : Fin cfg0.N) (a : Fin 1) (b : Fin 512) :
    (iblk m c 8 t : Vec Ideal S1x1x512 .f32) (ix3 (0 : Fin 1) a b) = V m c main_v59 (ix3 (layerOf t) a b) := by
  unfold iblk
  rw [View.read_apply]
  show V m c main_v59 _ = V m c main_v59 _
  refine congrArg (V m c main_v59) ?_
  funext d
  refine Fin.ext ?_
  match d with
  | ⟨0, _⟩ => show win0_8.index t 0 * 1 + 1 * 0 = t.val % 8; rw [(idx8 t).1]; omega
  | ⟨1, _⟩ => show win0_8.index t 1 * 1 + 1 * a.val = a.val; rw [(idx8 t).2.1]; omega
  | ⟨2, _⟩ => show win0_8.index t 2 * 512 + 1 * b.val = b.val; rw [(idx8 t).2.2]; omega

theorem blk9 (c : Dev nD) (t : Fin cfg0.N) (a : Fin 512) (b : Fin 1024) :
    (iblk m c 9 t : Vec Ideal S1x512x1024 .bf16) (ix3 (0 : Fin 1) a b) = V m c main_v50 (ix3 (layerOf t) a b) := by
  unfold iblk
  rw [View.read_apply]
  show V m c main_v50 _ = V m c main_v50 _
  refine congrArg (V m c main_v50) ?_
  funext d
  refine Fin.ext ?_
  match d with
  | ⟨0, _⟩ => show win0_9.index t 0 * 1 + 1 * 0 = t.val % 8; rw [(idx9 t).1]; omega
  | ⟨1, _⟩ => show win0_9.index t 1 * 512 + 1 * a.val = a.val; rw [(idx9 t).2.1]; omega
  | ⟨2, _⟩ => show win0_9.index t 2 * 1024 + 1 * b.val = b.val; rw [(idx9 t).2.2]; omega

theorem blk10 (c : Dev nD) (t : Fin cfg0.N) (a : Fin 1) (b : Fin 1024) :
    (iblk m c 10 t : Vec Ideal S1x1x1024 .f32) (ix3 (0 : Fin 1) a b) = V m c main_v60 (ix3 (layerOf t) a b) := by
  unfold iblk
  rw [View.read_apply]
  show V m c main_v60 _ = V m c main_v60 _
  refine congrArg (V m c main_v60) ?_
  funext d
  refine Fin.ext ?_
  match d with
  | ⟨0, _⟩ => show win0_10.index t 0 * 1 + 1 * 0 = t.val % 8; rw [(idx10 t).1]; omega
  | ⟨1, _⟩ => show win0_10.index t 1 * 1 + 1 * a.val = a.val; rw [(idx10 t).2.1]; omega
  | ⟨2, _⟩ => show win0_10.index t 2 * 1024 + 1 * b.val = b.val; rw [(idx10 t).2.2]; omega

theorem blk11 (c : Dev nD) (t : Fin cfg0.N) (a : Fin 1024) (b : Fin 512) :
    (iblk m c 11 t : Vec Ideal S1x1024x512 .bf16) (ix3 (0 : Fin 1) a b) = V m c main_v51 (ix3 (layerOf t) a b) := by
  unfold iblk
  rw [View.read_apply]
  show V m c main_v51 _ = V m c main_v51 _
  refine congrArg (V m c main_v51) ?_
  funext d
  refine Fin.ext ?_
  match d with
  | ⟨0, _⟩ => show win0_11.index t 0 * 1 + 1 * 0 = t.val % 8; rw [(idx11 t).1]; omega
  | ⟨1, _⟩ => show win0_11.index t 1 * 1024 + 1 * a.val = a.val; rw [(idx11 t).2.1]; omega
  | ⟨2, _⟩ => show win0_11.index t 2 * 512 + 1 * b.val = b.val; rw [(idx11 t).2.2]; omega

theorem blk12 (c : Dev nD) (t : Fin cfg0.N) (a : Fin 1) (b : Fin 512) :
    (iblk m c 12 t : Vec Ideal S1x1x512 .f32) (ix3 (0 : Fin 1) a b) = V m c main_v61 (ix3 (layerOf t) a b) := by
  unfold iblk
  rw [View.read_apply]
  show V m c main_v61 _ = V m c main_v61 _
  refine congrArg (V m c main_v61) ?_
  funext d
  refine Fin.ext ?_
  match d with
  | ⟨0, _⟩ => show win0_12.index t 0 * 1 + 1 * 0 = t.val % 8; rw [(idx12 t).1]; omega
  | ⟨1, _⟩ => show win0_12.index t 1 * 1 + 1 * a.val = a.val; rw [(idx12 t).2.1]; omega
  | ⟨2, _⟩ => show win0_12.index t 2 * 512 + 1 * b.val = b.val; rw [(idx12 t).2.2]; omega

/-! ## The arrays at the region's entry, named -/

/-- What the thirteen input arrays hold when the region is entered, in terms of a family of arguments `A` and constants `C`:
    the batch; per layer the log-scale, the bias, the assembled weight, the coupling mask, and the two coupling networks'
    weights and biases. -/
structure EntryFacts (c : Dev nD) (A : Cert.Glow.Args) (C : Cert.Glow.Consts) : Prop where
  hy  : ∀ (r : Fin 16384) (k : Fin 512), V m c main_arg0 (ix2 r k) = A.y r k
  h1  : ∀ (l : Fin 8) (k : Fin 512), V m c main_v55 (ix3 l (0 : Fin 1) k) = A.a1 l k
  h2  : ∀ (l : Fin 8) (k : Fin 512), V m c main_v56 (ix3 l (0 : Fin 1) k) = A.a2 l k
  h3  : ∀ (l : Fin 8) (k q : Fin 512), V m c main_v30 (ix3 l k q)
          = Cert.Glow.wOf (A.a3 l) (A.a4 l) (A.a5 l) (Cert.Glow.dOf (A.a6 l) (A.a7 l)) C.E C.T C.T' C.onDiag k q
  h4  : ∀ (l : Fin 8) (q : Fin 512), V m c main_v57 (ix3 l (0 : Fin 1) q) = Cert.Glow.maskOf C.base l.val q
  h5  : ∀ (l : Fin 8) (k : Fin 512) (h : Fin 1024), V m c main_v48 (ix3 l k h) = A.a8 l k h
  h6  : ∀ (l : Fin 8) (h : Fin 1024), V m c main_v58 (ix3 l (0 : Fin 1) h) = A.a9 l h
  h7  : ∀ (l : Fin 8) (h : Fin 1024) (q : Fin 512), V m c main_v49 (ix3 l h q) = A.a10 l h q
  h8  : ∀ (l : Fin 8) (q : Fin 512), V m c main_v59 (ix3 l (0 : Fin 1) q) = A.a11 l q
  h9  : ∀ (l : Fin 8) (k : Fin 512) (h : Fin 1024), V m c main_v50 (ix3 l k h) = A.a12 l k h
  h10 : ∀ (l : Fin 8) (h : Fin 1024), V m c main_v60 (ix3 l (0 : Fin 1) h) = A.a13 l h
  h11 : ∀ (l : Fin 8) (h : Fin 1024) (q : Fin 512), V m c main_v51 (ix3 l h q) = A.a14 l h q
  h12 : ∀ (l : Fin 8) (q : Fin 512), V m c main_v61 (ix3 l (0 : Fin 1) q) = A.a15 l q

/-- Twelve blocks that read, entry by entry, as layer `l`'s parameters are layer `l`'s parameters. -/
theorem paramsOf_eq (A : Cert.Glow.Args) (C : Cert.Glow.Consts) (l : Fin 8)
    (v5 v7 v9 : Vec Ideal S1x1x512 .f32) (v19 : Vec Ideal S1x512x512 .bf16) (v25 : Vec Ideal S1x512x1024 .bf16)
    (v28 : Vec Ideal S1x1x1024 .f32) (v35 : Vec Ideal S1x1024x512 .bf16) (v38 : Vec Ideal S1x1x512 .f32)
    (v45 : Vec Ideal S1x512x1024 .bf16) (v48 : Vec Ideal S1x1x1024 .f32) (v55 : Vec Ideal S1x1024x512 .bf16)
    (v58 : Vec Ideal S1x1x512 .f32)
    (e5 : ∀ k : Fin 512, v5 (ix3 (0 : Fin 1) (0 : Fin 1) k) = A.a1 l k)
    (e7 : ∀ k : Fin 512, v7 (ix3 (0 : Fin 1) (0 : Fin 1) k) = A.a2 l k)
    (e9 : ∀ q : Fin 512, v9 (ix3 (0 : Fin 1) (0 : Fin 1) q) = Cert.Glow.maskOf C.base l.val q)
    (e19 : ∀ k q : Fin 512, v19 (ix3 (0 : Fin 1) k q)
      = Cert.Glow.wOf (A.a3 l) (A.a4 l) (A.a5 l) (Cert.Glow.dOf (A.a6 l) (A.a7 l)) C.E C.T C.T' C.onDiag k q)
    (e25 : ∀ (k : Fin 512) (h : Fin 1024), v25 (ix3 (0 : Fin 1) k h) = A.a8 l k h)
    (e28 : ∀ h : Fin 1024, v28 (ix3 (0 : Fin 1) (0 : Fin 1) h) = A.a9 l h)
    (e35 : ∀ (h : Fin 1024) (q : Fin 512), v35 (ix3 (0 : Fin 1) h q) = A.a10 l h q)
    (e38 : ∀ q : Fin 512, v38 (ix3 (0 : Fin 1) (0 : Fin 1) q) = A.a11 l q)
    (e45 : ∀ (k : Fin 512) (h : Fin 1024), v45 (ix3 (0 : Fin 1) k h) = A.a12 l k h)
    (e48 : ∀ h : Fin 1024, v48 (ix3 (0 : Fin 1) (0 : Fin 1) h) = A.a13 l h)
    (e55 : ∀ (h : Fin 1024) (q : Fin 512), v55 (ix3 (0 : Fin 1) h q) = A.a14 l h q)
    (e58 : ∀ q : Fin 512, v58 (ix3 (0 : Fin 1) (0 : Fin 1) q) = A.a15 l q) :
    Cert.KernelIdeal.Pay.paramsOf v5 v7 v9 v19 v25 v28 v35 v38 v45 v48 v55 v58 = Cert.Glow.layerParams A C l := by
  unfold Cert.KernelIdeal.Pay.paramsOf Cert.Glow.layerParams
  simp only [e5, e7, e9, e19, e25, e28, e35, e38, e45, e48, e55, e58]

/-- The twelve parameter blocks at point `t` are the parameters of the layer the point works on. -/
theorem params_at (c : Dev nD) (A : Cert.Glow.Args) (C : Cert.Glow.Consts) (H : EntryFacts m c A C) (t : Fin cfg0.N) :
    Cert.KernelIdeal.Pay.paramsOf (iblk m c 1 t) (iblk m c 2 t) (iblk m c 4 t) (iblk m c 3 t) (iblk m c 5 t) (iblk m c 6 t)
        (iblk m c 7 t) (iblk m c 8 t) (iblk m c 9 t) (iblk m c 10 t) (iblk m c 11 t) (iblk m c 12 t)
      = Cert.Glow.layerParams A C (layerOf t) :=
  paramsOf_eq A C (layerOf t) (iblk m c 1 t) (iblk m c 2 t) (iblk m c 4 t) (iblk m c 3 t) (iblk m c 5 t) (iblk m c 6 t)
    (iblk m c 7 t) (iblk m c 8 t) (iblk m c 9 t) (iblk m c 10 t) (iblk m c 11 t) (iblk m c 12 t)
    (fun k => (blk1 m c t 0 k).trans (H.h1 (layerOf t) k))
    (fun k => (blk2 m c t 0 k).trans (H.h2 (layerOf t) k))
    (fun q => (blk4 m c t 0 q).trans (H.h4 (layerOf t) q))
    (fun k q => (blk3 m c t k q).trans (H.h3 (layerOf t) k q))
    (fun k h => (blk5 m c t k h).trans (H.h5 (layerOf t) k h))
    (fun h => (blk6 m c t 0 h).trans (H.h6 (layerOf t) h))
    (fun h q => (blk7 m c t h q).trans (H.h7 (layerOf t) h q))
    (fun q => (blk8 m c t 0 q).trans (H.h8 (layerOf t) q))
    (fun k h => (blk9 m c t k h).trans (H.h9 (layerOf t) k h))
    (fun h => (blk10 m c t 0 h).trans (H.h10 (layerOf t) h))
    (fun h q => (blk11 m c t h q).trans (H.h11 (layerOf t) h q))
    (fun q => (blk12 m c t 0 q).trans (H.h12 (layerOf t) q))

end Cert.KernelIdeal.Val

end
-- ==== Proof.KValueStep.lean ====
/- The two output buffers after each grid point, as values on the extended reals. Row p of the first buffer after point t is
   batch row 512·(t / 8) + p after the first (t mod 8) + 1 layers of the flow, and entry p of the second is that row's
   running sum of coupling log-scales: at a point with t mod 8 = 0 the body starts from the batch row and from zero and
   applies layer 0; at any other point it applies layer t mod 8 to what the point before left. By induction on the point. -/
import proofs.«112469_j76776835383759_2_alg».proof.Proof.KValuePieces
import proofs.«112469_j76776835383759_2_alg».proof.Proof.KValueBlocks

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

open Cert.Glow (zAt sAt zNew rowS layerParams paramsAt paramsAt_of_lt)

variable (m : (ℓ : Loc nD τ sig) → Buf (Elt Ideal) ℓ)

/-- One layer on one row, over any blocks: if the twelve parameter blocks are layer `l`'s parameters, row `p` of the row block
    is a batch row after `l` layers and entry `p` of the column is its running sum, then the stored row block's row `p` is the
    batch row after `l + 1` layers and the stored column's entry `p` the running sum after `l + 1`. -/
theorem step_val (A : Cert.Glow.Args) (C : Cert.Glow.Consts) (l : Fin 8) (y : Fin 512 → EReal)
    (z : Vec Ideal S512x512 .f32) (s : Vec Ideal S512x1 .f32) (x1 x2 : Vec Ideal S1x1x512 .f32) (x3 : Vec Ideal S1x512x512 .bf16) (x4 : Vec Ideal S1x1x512 .f32) (x5 : Vec Ideal S1x512x1024 .bf16) (x6 : Vec Ideal S1x1x1024 .f32) (x7 : Vec Ideal S1x1024x512 .bf16) (x8 : Vec Ideal S1x1x512 .f32) (x9 : Vec Ideal S1x512x1024 .bf16) (x10 : Vec Ideal S1x1x1024 .f32) (x11 : Vec Ideal S1x1024x512 .bf16) (x12 : Vec Ideal S1x1x512 .f32)
    (hP : Cert.KernelIdeal.Pay.paramsOf x1 x2 x4 x3 x5 x6 x7 x8 x9 x10 x11 x12 = layerParams A C l) (p : Fin 512)
    (hz : ∀ k : Fin 512, z (ix2 p k) = zAt A C y l.val k) (hs : s (ix2 p (0 : Fin 1)) = sAt A C y l.val) :
    (∀ q : Fin 512, (k0_pay1 (k0_pay7 z x1 x2 x4 x3) (k0_pay11 (k0_pay5 x4) (k0_pay6 z x1 x2 x3) (k0_pay8 z x1 x2 x4 x3) (k0_pay9 z x1 x2 x4 x3 x5 x6) x7 x8 x9 x10 x11 x12)) (ix2 p q) = zAt A C y (l.val + 1) q)
      ∧ (k0_pay2 (k0_pay10 (k0_pay5 x4) (k0_pay9 z x1 x2 x4 x3 x5 x6) x7 x8) s) (ix2 p (0 : Fin 1)) = sAt A C y (l.val + 1) := by
  have hz' : (fun k : Fin 512 => z (ix2 p k)) = zAt A C y l.val := funext hz
  refine ⟨fun q => ?_, ?_⟩
  · refine (Cert.KernelIdeal.Pay.pay1_apply z x1 x2 x4 x3 x5 x6 x7 x8 x9 x10 x11 x12 p q).trans ?_
    rw [hP, hz']
    show zNew (layerParams A C l) _ q = zNew (paramsAt A C l.val) _ q
    rw [paramsAt_of_lt]
  · refine (Cert.KernelIdeal.Pay.pay2_apply z x1 x2 x4 x3 x5 x6 x7 x8 x9 x10 x11 x12 s p).trans ?_
    rw [hP, hz', hs]
    show _ + rowS (layerParams A C l) _ = sAt A C y l.val + rowS (paramsAt A C l.val) _
    rw [paramsAt_of_lt]

/-- A point that resets: layer 0 applied to the batch rows of the point's block, the running sum started from zero. -/
theorem val_A (c : Dev nD) (A : Cert.Glow.Args) (C : Cert.Glow.Consts) (H : EntryFacts m c A C) (t : Fin cfg0.N)
    (h0 : t.val % 8 = 0) (p : Fin 512) :
    (∀ q : Fin 512, (outsAt0 m c t.val t.isLt).1 (ix2 p q) = Cert.Glow.zAt A C (A.y (rowOf t.val t.isLt p)) (t.val % 8 + 1) q)
      ∧ (outsAt0 m c t.val t.isLt).2 (ix2 p (0 : Fin 1)) = Cert.Glow.sAt A C (A.y (rowOf t.val t.isLt p)) (t.val % 8 + 1) := by
  rw [outsAt0_A m c t h0]
  dsimp only
  have e13 := out_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  have e14 := out_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [e13, e14]
  exact step_val A C (layerOf t) (A.y (rowOf t.val t.isLt p)) (iblk m c 0 t) (k0_pay3 (F := Ideal)) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (params_at m c A C H t) p
    (fun k => (blk0 m c t p k).trans ((H.hy _ k).trans (by
      show _ = zAt A C _ (t.val % 8) k
      rw [h0]; rfl)))
    (by
      show _ = sAt A C _ (t.val % 8)
      rw [h0]; rfl)

/-- Any other point: the point's layer applied to what the point before left. -/
theorem val_B (c : Dev nD) (A : Cert.Glow.Args) (C : Cert.Glow.Consts) (H : EntryFacts m c A C) (t : Fin cfg0.N)
    (h0 : ¬t.val % 8 = 0) (p : Fin 512)
    (ih : (∀ q : Fin 512, (outsAt0 m c (t.val - 1) (Nat.lt_of_le_of_lt (Nat.sub_le _ _) t.isLt)).1 (ix2 p q) = Cert.Glow.zAt A C (A.y (rowOf (t.val - 1) (Nat.lt_of_le_of_lt (Nat.sub_le _ _) t.isLt) p)) ((t.val - 1) % 8 + 1) q)
      ∧ (outsAt0 m c (t.val - 1) (Nat.lt_of_le_of_lt (Nat.sub_le _ _) t.isLt)).2 (ix2 p (0 : Fin 1)) = Cert.Glow.sAt A C (A.y (rowOf (t.val - 1) (Nat.lt_of_le_of_lt (Nat.sub_le _ _) t.isLt) p)) ((t.val - 1) % 8 + 1)) :
    (∀ q : Fin 512, (outsAt0 m c t.val t.isLt).1 (ix2 p q) = Cert.Glow.zAt A C (A.y (rowOf t.val t.isLt p)) (t.val % 8 + 1) q)
      ∧ (outsAt0 m c t.val t.isLt).2 (ix2 p (0 : Fin 1)) = Cert.Glow.sAt A C (A.y (rowOf t.val t.isLt p)) (t.val % 8 + 1) := by
  rw [outsAt0_B m c t h0]
  dsimp only
  have e13 := out_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2
  have e14 := out_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).1 (outsAt0 m c (t.val - 1) (Nat.lt_of_le_of_lt (Nat.sub_le _ _) t.isLt)).2
  rw [e13, e14]
  have hN : t.val < 256 := lt_of_lt_of_eq t.isLt (show cfg0.N = 256 from N_0)
  have e1 : (layerOf t).val = (t.val - 1) % 8 + 1 := by show t.val % 8 = _; omega
  have er : rowOf t.val t.isLt p = rowOf (t.val - 1) (Nat.lt_of_le_of_lt (Nat.sub_le _ _) t.isLt) p :=
    Fin.ext (by show 512 * (t.val / 8) + p.val = 512 * ((t.val - 1) / 8) + p.val; omega)
  exact step_val A C (layerOf t) (A.y (rowOf t.val t.isLt p)) (outsAt0 m c (t.val - 1) (Nat.lt_of_le_of_lt (Nat.sub_le _ _) t.isLt)).1 (outsAt0 m c (t.val - 1) (Nat.lt_of_le_of_lt (Nat.sub_le _ _) t.isLt)).2 (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (params_at m c A C H t) p
    (fun k => (ih.1 k).trans (by rw [er, e1]))
    (ih.2.trans (by rw [er, e1]))

/-- THE INVARIANT: after the body at position `n`, row `p` of the first output's buffer is batch row 512·(n / 8) + p after
    (n mod 8) + 1 layers, and entry `p` of the second is that row's running sum of coupling log-scales. -/
theorem outsAt_val (c : Dev nD) (A : Cert.Glow.Args) (C : Cert.Glow.Consts) (H : EntryFacts m c A C) :
    ∀ (n : ℕ) (hn : n < cfg0.N) (p : Fin 512),
      (∀ q : Fin 512, (outsAt0 m c n hn).1 (ix2 p q) = Cert.Glow.zAt A C (A.y (rowOf n hn p)) (n % 8 + 1) q)
      ∧ (outsAt0 m c n hn).2 (ix2 p (0 : Fin 1)) = Cert.Glow.sAt A C (A.y (rowOf n hn p)) (n % 8 + 1)
  | 0, hn, p => val_A m c A C H ⟨0, hn⟩ rfl p
  | n + 1, hn, p => by
    by_cases h0 : (n + 1) % 8 = 0
    · exact val_A m c A C H ⟨n + 1, hn⟩ h0 p
    · exact val_B m c A C H ⟨n + 1, hn⟩ h0 p (outsAt_val c A C H n (Nat.lt_of_succ_lt hn) p)

end Cert.KernelIdeal.Val

end
-- ==== Proof.KValueFinal.lean ====
/- The two result arrays after the region. Each output window's block is written back after the last of the eight points
   that share it, when its buffer holds the batch rows of the block after all eight layers (resp. their eight-layer running
   sums); the thirty-two written-back blocks are the thirty-two consecutive groups of 512 rows, so they cover the arrays:
   the first result array is every batch row after the whole flow, the second every row's sum of coupling log-scales. -/
import proofs.«112469_j76776835383759_2_alg».proof.Proof.KValueStep

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

open Cert.Glow (zAt sAt)

variable (m : (ℓ : Loc nD τ sig) → Buf (Elt Ideal) ℓ)

/-- Every batch row after the eight layers. -/
def zFinal (A : Cert.Glow.Args) (C : Cert.Glow.Consts) : S16384x512.Idx → EReal := fun j => zAt A C (A.y (j 0)) 8 (j 1)
/-- Every batch row's sum of coupling log-scales over the eight layers, as a column. -/
def sFinal (A : Cert.Glow.Args) (C : Cert.Glow.Consts) : S16384x1.Idx → EReal := fun j => sAt A C (A.y (j 0)) 8

/-- The output windows' block indices, decided over the grid: the block of rows the point's first coordinate selects. -/
theorem idx13 : ∀ t : Fin cfg0.N, win0_13.index t (0 : Fin 2) = t.val / 8 ∧ win0_13.index t (1 : Fin 2) = 0 :=
  (by decide +kernel : ∀ t : Fin grid0.N, win0_13.index t (0 : Fin 2) = t.val / 8 ∧ win0_13.index t (1 : Fin 2) = 0)
theorem idx14 : ∀ t : Fin cfg0.N, win0_14.index t (0 : Fin 2) = t.val / 8 ∧ win0_14.index t (1 : Fin 2) = 0 :=
  (by decide +kernel : ∀ t : Fin grid0.N, win0_14.index t (0 : Fin 2) = t.val / 8 ∧ win0_14.index t (1 : Fin 2) = 0)

/-- What a point that writes back (t mod 8 = 7) writes into the first result array is its block of `zFinal`. -/
theorem flushed13_eq (c : Dev nD) (A : Cert.Glow.Args) (C : Cert.Glow.Consts) (H : EntryFacts m c A C) (t : Fin cfg0.N)
    (hf : (cfg0.win 13).flush t = true) :
    (dats m 0 c).flushed 13 t = ((cfg0.win 13).blk t).view.read (Elt Ideal) (zFinal A C) := by
  have h7 : t.val % 8 = 7 := (flush0_13 t).mp hf
  show (cfg0.win 13).cut (grid0.coords t) ((dats m 0 c).after 13 t) = _
  rw [after0_13]
  funext j
  have hj0 : (j 0).val < 512 := (j 0).isLt
  have hj1 : (j 1).val < 512 := (j 1).isLt
  have e : (cfg0.win 13).xinj (grid0.coords t) j = ix2 (⟨(j 0).val, hj0⟩ : Fin 512) (⟨(j 1).val, hj1⟩ : Fin 512) := by
    funext a
    match a with
    | ⟨0, _⟩ => rfl
    | ⟨1, _⟩ => rfl
  rw [View.read_apply]
  show (outsAt0 m c t.val t.isLt).1 ((cfg0.win 13).xinj (grid0.coords t) j) = zFinal A C (((cfg0.win 13).blk t).view.emb j)
  refine (congrArg (outsAt0 m c t.val t.isLt).1 e).trans (((outsAt_val m c A C H t.val t.isLt ⟨(j 0).val, hj0⟩).1 ⟨(j 1).val, hj1⟩).trans ?_)
  have r0 : (((cfg0.win 13).blk t).view.emb j) 0 = rowOf t.val t.isLt ⟨(j 0).val, hj0⟩ :=
    Fin.ext (by show win0_13.index t 0 * 512 + 1 * (j 0).val = 512 * (t.val / 8) + (j 0).val; rw [(idx13 t).1]; omega)
  have r1 : (((cfg0.win 13).blk t).view.emb j) 1 = (⟨(j 1).val, hj1⟩ : Fin 512) :=
    Fin.ext (by show win0_13.index t 1 * 512 + 1 * (j 1).val = (j 1).val; rw [(idx13 t).2]; omega)
  unfold zFinal
  rw [r0, r1, h7]

/-- The same for the second result array and `sFinal`. -/
theorem flushed14_eq (c : Dev nD) (A : Cert.Glow.Args) (C : Cert.Glow.Consts) (H : EntryFacts m c A C) (t : Fin cfg0.N)
    (hf : (cfg0.win 14).flush t = true) :
    (dats m 0 c).flushed 14 t = ((cfg0.win 14).blk t).view.read (Elt Ideal) (sFinal A C) := by
  have h7 : t.val % 8 = 7 := (flush0_14 t).mp hf
  show (cfg0.win 14).cut (grid0.coords t) ((dats m 0 c).after 14 t) = _
  rw [after0_14]
  funext j
  have hj0 : (j 0).val < 512 := (j 0).isLt
  have hj1 : (j 1).val < 1 := (j 1).isLt
  have e : (cfg0.win 14).xinj (grid0.coords t) j = ix2 (⟨(j 0).val, hj0⟩ : Fin 512) (0 : Fin 1) := by
    funext a
    match a with
    | ⟨0, _⟩ => rfl
    | ⟨1, _⟩ => exact Fin.ext (by show (j 1).val = 0; omega)
  rw [View.read_apply]
  show (outsAt0 m c t.val t.isLt).2 ((cfg0.win 14).xinj (grid0.coords t) j) = sFinal A C (((cfg0.win 14).blk t).view.emb j)
  refine (congrArg (outsAt0 m c t.val t.isLt).2 e).trans ((outsAt_val m c A C H t.val t.isLt ⟨(j 0).val, hj0⟩).2.trans ?_)
  have r0 : (((cfg0.win 14).blk t).view.emb j) 0 = rowOf t.val t.isLt ⟨(j 0).val, hj0⟩ :=
    Fin.ext (by show win0_14.index t 0 * 512 + 1 * (j 0).val = 512 * (t.val / 8) + (j 0).val; rw [(idx14 t).1]; omega)
  unfold sFinal
  rw [r0, h7]

/-- An index of the first result array is in point `t`'s block iff each coordinate is in the block's range on its axis. -/
theorem mem_blk13 (t : Fin cfg0.N) (i : S16384x512.Idx) :
    i ∈ ((cfg0.win 13).blk t).view.set ↔ ∀ a : Fin 2, win0_13.index t a * S512x512.size a ≤ (i a).val ∧ (i a).val < win0_13.index t a * S512x512.size a + S512x512.size a := by
  show i ∈ ((View.whole main_v62_0).slice (win0_13.rect t)).set ↔ _
  rw [View.set_slice_whole, Rect.mem_set_unit]
  exact Iff.rfl
theorem mem_blk14 (t : Fin cfg0.N) (i : S16384x1.Idx) :
    i ∈ ((cfg0.win 14).blk t).view.set ↔ ∀ a : Fin 2, win0_14.index t a * S512x1.size a ≤ (i a).val ∧ (i a).val < win0_14.index t a * S512x1.size a + S512x1.size a := by
  show i ∈ ((View.whole main_v62_1).slice (win0_14.rect t)).set ↔ _
  rw [View.set_slice_whole, Rect.mem_set_unit]
  exact Iff.rfl

/-- The point that writes back the block holding row `r`: the last of the eight points of that block of rows. -/
def lastOf (r : ℕ) (hr : r < 16384) : Fin cfg0.N := ⟨8 * (r / 512) + 7, by have hN : cfg0.N = 256 := N_0; omega⟩

/-- THE FIRST RESULT ARRAY after the region: every batch row after the eight layers. -/
theorem final13 (c : Dev nD) (A : Cert.Glow.Args) (C : Cert.Glow.Consts) (H : EntryFacts m c A C) :
    (dats m 0 c).arrAt 13 cfg0.N = zFinal A C :=
  (dats m 0 c).arrAt_eq_of_cover 13 (zFinal A C) (fun t hf => flushed13_eq m c A C H t hf) fun i => by
    have hi0 : (i 0).val < 16384 := (i 0).isLt
    have hi1 : (i 1).val < 512 := (i 1).isLt
    refine ⟨lastOf (i 0).val hi0, (flush0_13 _).mpr (by show (8 * ((i 0).val / 512) + 7) % 8 = 7; omega), ?_⟩
    rw [mem_blk13]
    have e0 : win0_13.index (lastOf (i 0).val hi0) 0 = (i 0).val / 512 := by
      rw [(idx13 _).1]; show (8 * ((i 0).val / 512) + 7) / 8 = _; omega
    intro a
    match a with
    | ⟨0, _⟩ => show win0_13.index (lastOf (i 0).val hi0) 0 * 512 ≤ (i 0).val ∧ (i 0).val < win0_13.index (lastOf (i 0).val hi0) 0 * 512 + 512
                rw [e0]; omega
    | ⟨1, _⟩ => show win0_13.index (lastOf (i 0).val hi0) 1 * 512 ≤ (i 1).val ∧ (i 1).val < win0_13.index (lastOf (i 0).val hi0) 1 * 512 + 512
                rw [(idx13 _).2]; omega

/-- THE SECOND RESULT ARRAY after the region: every batch row's sum of coupling log-scales. -/
theorem final14 (c : Dev nD) (A : Cert.Glow.Args) (C : Cert.Glow.Consts) (H : EntryFacts m c A C) :
    (dats m 0 c).arrAt 14 cfg0.N = sFinal A C :=
  (dats m 0 c).arrAt_eq_of_cover 14 (sFinal A C) (fun t hf => flushed14_eq m c A C H t hf) fun i => by
    have hi0 : (i 0).val < 16384 := (i 0).isLt
    have hi1 : (i 1).val < 1 := (i 1).isLt
    refine ⟨lastOf (i 0).val hi0, (flush0_14 _).mpr (by show (8 * ((i 0).val / 512) + 7) % 8 = 7; omega), ?_⟩
    rw [mem_blk14]
    have e0 : win0_14.index (lastOf (i 0).val hi0) 0 = (i 0).val / 512 := by
      rw [(idx14 _).1]; show (8 * ((i 0).val / 512) + 7) / 8 = _; omega
    intro a
    match a with
    | ⟨0, _⟩ => show win0_14.index (lastOf (i 0).val hi0) 0 * 512 ≤ (i 0).val ∧ (i 0).val < win0_14.index (lastOf (i 0).val hi0) 0 * 512 + 512
                rw [e0]; omega
    | ⟨1, _⟩ => show win0_14.index (lastOf (i 0).val hi0) 1 * 1 ≤ (i 1).val ∧ (i 1).val < win0_14.index (lastOf (i 0).val hi0) 1 * 1 + 1
                rw [(idx14 _).2]; omega

/-- Read at a row: the second result array at (r, 0) is row r's sum. -/
theorem final14_apply (c : Dev nD) (A : Cert.Glow.Args) (C : Cert.Glow.Consts) (H : EntryFacts m c A C) (r : Fin 16384) :
    (dats m 0 c).arrAt 14 cfg0.N (ix2 r (0 : Fin 1)) = sAt A C (A.y r) 8 := by
  rw [final14 m c A C H]; rfl

end Cert.KernelIdeal.Val

end
-- ==== Proof.KValueRun.lean ====
/- The program's two results. After the region three host lines flatten the second result array to a vector and add to every
   entry one scalar the host computed before the region; the first result array is returned as it is. So the program ends
   with its first result at every batch row after the eight layers, its second at every row's sum of coupling log-scales
   plus that scalar, and its sixteen argument arrays unchanged. -/
import proofs.«112469_j76776835383759_2_alg».proof.Proof.KValueFinal
import Idealize.ShloMosaic.Lib.StableHlo.Run
import Idealize.ShloMosaic.Lib.IdealHost

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

open Cert.Glow (zAt sAt)
open Idealize.ShloMosaic.StableHlo

variable (m : (ℓ : Loc nD τ sig) → Buf (Elt Ideal) ℓ) (ρ : Dev nD → PrngReg)

/-- The second result: every batch row's sum of coupling log-scales plus the scalar the host lines before the region left
    in `main_v54`. -/
def ldjFinal (c : Dev nD) (A : Cert.Glow.Args) (C : Cert.Glow.Consts) : S16384.Idx → EReal :=
  fun j => sAt A C (A.y (j 0)) 8 + V m c main_v54 ix0

/-- What the three host lines after the region leave in the second result's buffer. -/
theorem tail_v65 (c : Dev nD) (A : Cert.Glow.Args) (C : Cert.Glow.Consts) (H : EntryFacts m c A C) :
    Pipeline.afterTail₀ cfgs (dats m) 0 (V0 m) [hostOps1] c main_v65 = ldjFinal m c A C := by
  unfold Pipeline.afterTail₀
  show StableHlo.after hostOps1 _ (Proc.devRef .tc main_v65) = _
  after_results
  have e1 : Pipeline.withArrays (cfgs 0).spec c (V0 m c) (fun w => (dats m 0 c).arrAt w (cfgs 0).N) (Proc.devRef .tc main_v62_1)
      = sFinal A C := (Pipeline.withArrays_arr spec0 launch0.win.arr_inj c _ _ 14).trans (final14 m c A C H)
  have e2 : Pipeline.withArrays (cfgs 0).spec c (V0 m c) (fun w => (dats m 0 c).arrAt w (cfgs 0).N) (Proc.devRef .tc main_v54)
      = V m c main_v54 :=
    Pipeline.withArrays_of_ne _ c (V0 m c) _ main_v54 (by exact (by decide : ∀ w, Pipeline.arrRef spec0 w ≠ main_v54))
  rw [e1, e2]
  funext j
  obtain ⟨r, rfl⟩ : ∃ r : Fin 16384, j = ix1 r := ⟨j 0, eq_ix1 j⟩
  show shapeCast S16384 (sFinal A C) shapeCasts_S16384x1_S16384 (ix1 r)
      + broadcastInDim S16384 ![] bcast_S_S16384 (V m c main_v54) (ix1 r) = _
  rw [shapeCast_apply (sFinal A C) shapeCasts_S16384x1_S16384 (ix1 r) (ix2 r (0 : Fin 1)) (by
      rw [Shape.rowMajor_val_two, Shape.rowMajor_val_one]
      show r.val * 1 + 0 = r.val
      omega), broadcastInDim_scalar_apply]
  rfl

/-- THE RUN, READ. At the compiled mesh, from any memory with zero counters whose region-entry arrays are named by `A`, `C`:
    every weakly fair execution terminates with the first result at `zFinal`, the second at `ldjFinal`, and the sixteen
    argument arrays unchanged. -/
theorem run_values (A : Dev nD → Cert.Glow.Args) (C : Dev nD → Cert.Glow.Consts) (H : ∀ c, EntryFacts m c (A c) (C c)) :
    θ_run defs (onTc (τ := τ) (main (F := Ideal))) ⟨m, fun _ => 0, ρ⟩ (fun r => ∀ c : Dev nD,
      r.2.mem ((c.tc : Thread nD τ).loc main_v62_0) = zFinal (A c) (C c)
      ∧ r.2.mem ((c.tc : Thread nD τ).loc main_v65) = ldjFinal m c (A c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 13).trans (final13 m c (A c) (C c) (H c)),
    ((h c).2 main_v65 (Pipeline.mem_restRefs_of main_v65 (by decide) (by decide))).trans (tail_v65 m c (A c) (C c) (H c)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c)⟩) (run_main m ρ)

end Cert.KernelIdeal.Val

end
-- ==== Proof.KHostBasic.lean ====
/-
  What the region finds in the arrays its windows read, for the arrays the host lines before it compute by a change of
  shape, a change of float format or a total sum — read at an index, on the extended reals.

  Seven of the kernel's windows read a [8, 1, n] view of a [8, n] array (a layer's row of parameters is block l of the
  view): the view at (l, 0, k) is the array at (l, k).  Four read the coupling networks' weights after a change of float
  format, which is the identity on the extended reals.  And the constant the kernel's result adds to every
  log-determinant is the sum of two total sums, each started from the zero word.
-/
import proofs.«112469_j76776835383759_2_alg».proof.Proof.KFrameShared
import proofs.«112469_j76776835383759_2_alg».proof.Proof.LayerSpec
import Idealize.ShloMosaic.Lib.ValueLayout
import Idealize.ShloMosaic.Lib.IdealHost
import Idealize.ShloMosaic.Lib.StableHlo.Run
import Idealize.ShloMosaic.PureOps.Ideal.Laws

set_option maxRecDepth 16384
-- one theorem at a time: each reading of a buffer off the host lines is a pass over all of them, and run side by side the passes' memory adds up
set_option Elab.async false

noncomputable section

open scoped BigOperators

namespace Cert.KernelIdeal.HostVal

open Idealize.ShloMosaic Idealize.ShloMosaic.ValueIdx Idealize.ShloMosaic.StableHlo Idealize.ShloMosaic.TcCoe
open Cert.KernelIdeal Cert.KernelIdeal.Gen Cert.KernelIdeal.Hand

section Layout
variable {α : Type}

/-- An [a, b] array viewed as [a, 1, b] reads, at (i, u, j), the array at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Layout

/-- Reads a buffer at the region's entry off the host lines before it: what is left is the lines' operations applied to
    the launch memory. -/
local macro "host_read" : tactic =>
  `(tactic| (dsimp only [V, V0]
             simp only [hostOps0, hostOps0_1, hostOps0_2, hostOps0_3, hostOps0_4, hostOps0_5, hostOps0_6, List.flatten_cons,
               List.flatten_nil, List.append_nil, List.cons_append, List.nil_append]
             after_results_simp))

variable (m : (ℓ : Loc nD τ sig) → Buf (Elt Ideal) ℓ) (c : Dev nD)

/-! ## The seven views [8, n] → [8, 1, n] (the mask's is read with the mask) -/

theorem v55_fn : (V m c main_v55 : S8x1x512.Idx → EReal)
    = shapeCast S8x1x512 (m ((c : Thread nD τ).loc main_arg1) : S8x512.Idx → EReal) shapeCasts_S8x512_S8x1x512 := by
  host_read <;> rfl
theorem v56_fn : (V m c main_v56 : S8x1x512.Idx → EReal)
    = shapeCast S8x1x512 (m ((c : Thread nD τ).loc main_arg2) : S8x512.Idx → EReal) shapeCasts_S8x512_S8x1x512 := by
  host_read <;> rfl
theorem v58_fn : (V m c main_v58 : S8x1x1024.Idx → EReal)
    = shapeCast S8x1x1024 (m ((c : Thread nD τ).loc main_arg9) : S8x1024.Idx → EReal) shapeCasts_S8x1024_S8x1x1024 := by
  host_read <;> rfl
theorem v59_fn : (V m c main_v59 : S8x1x512.Idx → EReal)
    = shapeCast S8x1x512 (m ((c : Thread nD τ).loc main_arg11) : S8x512.Idx → EReal) shapeCasts_S8x512_S8x1x512 := by
  host_read <;> rfl
theorem v60_fn : (V m c main_v60 : S8x1x1024.Idx → EReal)
    = shapeCast S8x1x1024 (m ((c : Thread nD τ).loc main_arg13) : S8x1024.Idx → EReal) shapeCasts_S8x1024_S8x1x1024 := by
  host_read <;> rfl
theorem v61_fn : (V m c main_v61 : S8x1x512.Idx → EReal)
    = shapeCast S8x1x512 (m ((c : Thread nD τ).loc main_arg15) : S8x512.Idx → EReal) shapeCasts_S8x512_S8x1x512 := by
  host_read <;> rfl

/-- The view of argument 1 at (l, 0, k). -/
theorem v55_apply (l : Fin 8) (k : Fin 512) :
    V m c main_v55 (ix3 l (0 : Fin 1) k) = m ((c : Thread nD τ).loc main_arg1) (ix2 l k) :=
  (congrFun (v55_fn m c) _).trans (shapeCast_ab_a1b_apply _ _ l 0 k)
/-- The view of argument 2 at (l, 0, k). -/
theorem v56_apply (l : Fin 8) (k : Fin 512) :
    V m c main_v56 (ix3 l (0 : Fin 1) k) = m ((c : Thread nD τ).loc main_arg2) (ix2 l k) :=
  (congrFun (v56_fn m c) _).trans (shapeCast_ab_a1b_apply _ _ l 0 k)
/-- The view of argument 9 at (l, 0, h). -/
theorem v58_apply (l : Fin 8) (h : Fin 1024) :
    V m c main_v58 (ix3 l (0 : Fin 1) h) = m ((c : Thread nD τ).loc main_arg9) (ix2 l h) :=
  (congrFun (v58_fn m c) _).trans (shapeCast_ab_a1b_apply _ _ l 0 h)
/-- The view of argument 11 at (l, 0, k). -/
theorem v59_apply (l : Fin 8) (k : Fin 512) :
    V m c main_v59 (ix3 l (0 : Fin 1) k) = m ((c : Thread nD τ).loc main_arg11) (ix2 l k) :=
  (congrFun (v59_fn m c) _).trans (shapeCast_ab_a1b_apply _ _ l 0 k)
/-- The view of argument 13 at (l, 0, h). -/
theorem v60_apply (l : Fin 8) (h : Fin 1024) :
    V m c main_v60 (ix3 l (0 : Fin 1) h) = m ((c : Thread nD τ).loc main_arg13) (ix2 l h) :=
  (congrFun (v60_fn m c) _).trans (shapeCast_ab_a1b_apply _ _ l 0 h)
/-- The view of argument 15 at (l, 0, k). -/
theorem v61_apply (l : Fin 8) (k : Fin 512) :
    V m c main_v61 (ix3 l (0 : Fin 1) k) = m ((c : Thread nD τ).loc main_arg15) (ix2 l k) :=
  (congrFun (v61_fn m c) _).trans (shapeCast_ab_a1b_apply _ _ l 0 k)

/-! ## The four changes of float format: the identity on the extended reals -/

theorem v48_fn : (V m c main_v48 : S8x512x1024.Idx → EReal) = (m ((c : Thread nD τ).loc main_arg8) : S8x512x1024.Idx → EReal) := by
  host_read <;> rfl
theorem v49_fn : (V m c main_v49 : S8x1024x512.Idx → EReal) = (m ((c : Thread nD τ).loc main_arg10) : S8x1024x512.Idx → EReal) := by
  host_read <;> rfl
theorem v50_fn : (V m c main_v50 : S8x512x1024.Idx → EReal) = (m ((c : Thread nD τ).loc main_arg12) : S8x512x1024.Idx → EReal) := by
  host_read <;> rfl
theorem v51_fn : (V m c main_v51 : S8x1024x512.Idx → EReal) = (m ((c : Thread nD τ).loc main_arg14) : S8x1024x512.Idx → EReal) := by
  host_read <;> rfl

theorem v48_apply (l : Fin 8) (k : Fin 512) (h : Fin 1024) :
    V m c main_v48 (ix3 l k h) = m ((c : Thread nD τ).loc main_arg8) (ix3 l k h) := congrFun (v48_fn m c) _
theorem v49_apply (l : Fin 8) (h : Fin 1024) (q : Fin 512) :
    V m c main_v49 (ix3 l h q) = m ((c : Thread nD τ).loc main_arg10) (ix3 l h q) := congrFun (v49_fn m c) _
theorem v50_apply (l : Fin 8) (k : Fin 512) (h : Fin 1024) :
    V m c main_v50 (ix3 l k h) = m ((c : Thread nD τ).loc main_arg12) (ix3 l k h) := congrFun (v50_fn m c) _
theorem v51_apply (l : Fin 8) (h : Fin 1024) (q : Fin 512) :
    V m c main_v51 (ix3 l h q) = m ((c : Thread nD τ).loc main_arg14) (ix3 l h q) := congrFun (v51_fn m c) _

/-! ## The constant added to every log-determinant -/

theorem v54_fn : (V m c main_v54 : S_.Idx → EReal)
    = addf (Host.reduceAdd (m ((c : Thread nD τ).loc main_arg1) : FVec Ideal S8x512 .f32) (constant (F := Ideal) S_ .f32 0x00000000#32)
              reducesTo_S8x512_S_d0_1 h_S_)
        (Host.reduceAdd (m ((c : Thread nD τ).loc main_arg7) : FVec Ideal S8x512 .f32) (constant (F := Ideal) S_ .f32 0x00000000#32)
              reducesTo_S8x512_S_d0_1 h_S_) := by
  host_read <;> rfl

/-- The two total sums, each from the zero word. -/
theorem v54_apply :
    V m c main_v54 ix0
      = (Cert.Glow.zero + (∑ i : S8x512.Idx, m ((c : Thread nD τ).loc main_arg1) i : EReal))
        + (Cert.Glow.zero + (∑ i : S8x512.Idx, m ((c : Thread nD τ).loc main_arg7) i : EReal)) := by
  refine (congrFun (v54_fn m c) ix0).trans ?_
  show Host.reduceAdd _ _ reducesTo_S8x512_S_d0_1 h_S_ ix0 + Host.reduceAdd _ _ reducesTo_S8x512_S_d0_1 h_S_ ix0 = _
  rw [hostReduceAdd_apply, hostReduceAdd_apply, Ideal.hostReduceAdd_total _ (fun b => b.elim0),
    Ideal.hostReduceAdd_total _ (fun b => b.elim0)]
  rfl

end Cert.KernelIdeal.HostVal

end
-- ==== Proof.KHostMask.lean ====
/-
  The coupling masks, as the region finds them.

  The host lines before the region compute, from no input at all, the base mask — over the 512 columns, 1 where the
  column's number leaves remainder 0 on division by 2 (the remainder taken with the sign of the divisor, as the host
  language's `%` does), else 0 — and stack eight rows of it, the base mask on the even rows and one minus it on the
  odd ones; layer l's window reads row l.  The base mask is kept as the closed term the lines compute and is never
  evaluated here.
-/
import proofs.«112469_j76776835383759_2_alg».proof.Proof.KHostBasic
import proofs.«112469_j76776835383759_2_alg».proof.Proof.ParamSpec

set_option maxRecDepth 16384
-- one theorem at a time: each reading of a buffer off the host lines is a pass over all of them, and run side by side the passes' memory adds up
set_option Elab.async false

noncomputable section

open scoped BigOperators

namespace Cert.KernelIdeal.HostVal

section Nary
open Idealize.ShloMosaic Idealize.ShloMosaic.StableHlo

variable {T : Topo} {sg : RefSig} {Val : EltTy → Type}

/-- An operation of eight operands given as a literal family, read at its own result: its function at the operands'
    contents, each AT ITS OWN REFERENCE, so that the operands' contents can be read in turn. -/
theorem nary8_result' {x0 x1 x2 x3 x4 x5 x6 x7 y : Ref sg .tc}
    (f : ((k : Fin 8) → ((![x0, x1, x2, x3, x4, x5, x6, x7] : Fin 8 → Ref sg .tc) k).ty.Contents Val) → y.ty.Contents Val) (hxs hy)
    (F : Valuation T sg Val) :
    (nary (τ := T) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl

end Nary

open Idealize.ShloMosaic Idealize.ShloMosaic.ValueIdx Idealize.ShloMosaic.StableHlo Idealize.ShloMosaic.TcCoe
open Cert.KernelIdeal Cert.KernelIdeal.Gen Cert.KernelIdeal.Hand

/-! ## The base mask, closed -/

/-- The divisor 2 as the remainder's routine prepares it: a zero divisor would be replaced by one. -/
def divK : IVec S_ 32 :=
  select (cmpi .eq (id (constantI S_ 32 2#32)) (constantI S_ 32 0#32)) (constantI S_ 32 1#32) (id (constantI S_ 32 2#32))

/-- The truncated remainder of each column's number by the divisor. -/
def remK : IVec S512 32 := Host.remsi (iotaInDim S512 32 0) (broadcastInDim S512 ![] bcast_S_S512 divK)

/-- The remainder with the divisor's sign: where the truncated remainder is not zero and its sign differs from the
    divisor's, the divisor is added. -/
def parityK : IVec S512 32 :=
  select
    (andi
      (cmpi .ne (cmpi .slt remK (broadcastInDim S512 ![] bcast_S_S512 (constantI S_ 32 0#32)))
        (broadcastInDim S512 ![] bcast_S_S512 (cmpi .slt divK (constantI S_ 32 0#32))))
      (cmpi .ne remK (broadcastInDim S512 ![] bcast_S_S512 (constantI S_ 32 0#32))))
    (addi remK (broadcastInDim S512 ![] bcast_S_S512 divK))
    remK

/-- The base mask: 1 where that remainder is zero, else 0. -/
def baseK : FVec Ideal S512 .f32 :=
  uitofp .f32 (cmpi .eq parityK (broadcastInDim S512 ![] bcast_S_S512 (constantI S_ 32 0#32)))

/-- One minus the base mask. -/
def coBaseK : FVec Ideal S512 .f32 :=
  subf (broadcastInDim S512 ![] bcast_S_S512 (constant (F := Ideal) S_ .f32 0x3F800000#32)) baseK

/-- Reads a buffer at the region's entry off the host lines before it. -/
local macro "host_read8" : tactic =>
  `(tactic| (dsimp only [V, V0]
             simp only [hostOps0, hostOps0_1, hostOps0_2, hostOps0_3, hostOps0_4, hostOps0_5, hostOps0_6, List.flatten_cons,
               List.flatten_nil, List.append_nil, List.cons_append, List.nil_append]
             simp (disch := decide) only [after_cons, after_nil,
               nullary_result', unary_result', binary_result', ternary_result', quaternary_result', reshape_result', nary8_result',
               nullary_result_ne', unary_result_ne', binary_result_ne', ternary_result_ne', quaternary_result_ne', reshape_result_ne',
               nary_result_ne']))

variable (m : (ℓ : Loc nD τ sig) → Buf (Elt Ideal) ℓ) (c : Dev nD)

/-- The region finds the base mask in its buffer. -/
theorem v13_fn : (V m c main_v13 : S512.Idx → EReal) = baseK := by
  host_read8 <;> rfl

local notation "B13" => (V m c main_v13 : S512.Idx → EReal)
local notation "C13" => subf (broadcastInDim S512 ![] bcast_S_S512 (constant (F := Ideal) S_ FTy.f32 0x3F800000#32)) B13

/-- The stack of eight rows, viewed [8, 1, 512], over the base mask's buffer. -/
theorem v57_of_v13 : (V m c main_v57 : S8x1x512.Idx → EReal)
    = shapeCast S8x1x512
        (concatenate S8x512 0
          [⟨S1x512, broadcastInDim S1x512 ![1] bcast_S512_S1x512_1 B13⟩,
           ⟨S1x512, broadcastInDim S1x512 ![1] bcast_S512_S1x512_1 C13⟩,
           ⟨S1x512, broadcastInDim S1x512 ![1] bcast_S512_S1x512_1 B13⟩,
           ⟨S1x512, broadcastInDim S1x512 ![1] bcast_S512_S1x512_1 C13⟩,
           ⟨S1x512, broadcastInDim S1x512 ![1] bcast_S512_S1x512_1 B13⟩,
           ⟨S1x512, broadcastInDim S1x512 ![1] bcast_S512_S1x512_1 C13⟩,
           ⟨S1x512, broadcastInDim S1x512 ![1] bcast_S512_S1x512_1 B13⟩,
           ⟨S1x512, broadcastInDim S1x512 ![1] bcast_S512_S1x512_1 C13⟩]
          concatenates_S1x512_S1x512_S1x512_S1x512_S1x512_S1x512_S1x512_S1x512_S8x512_d0)
        shapeCasts_S8x512_S8x1x512 := by
  host_read8 <;> rfl

/-- The eight rows: the base mask on the even ones, one minus it on the odd ones. -/
def rowsK (k : Fin 8) : FVec Ideal S1x512 .f32 :=
  if k.val % 2 = 0 then broadcastInDim S1x512 ![1] bcast_S512_S1x512_1 baseK
  else broadcastInDim S1x512 ![1] bcast_S512_S1x512_1 coBaseK

/-- The stack of eight rows, viewed [8, 1, 512]. -/
theorem v57_fn : (V m c main_v57 : S8x1x512.Idx → EReal)
    = shapeCast S8x1x512
        (concatenate S8x512 0
          [⟨S1x512, rowsK 0⟩, ⟨S1x512, rowsK 1⟩, ⟨S1x512, rowsK 2⟩, ⟨S1x512, rowsK 3⟩,
           ⟨S1x512, rowsK 4⟩, ⟨S1x512, rowsK 5⟩, ⟨S1x512, rowsK 6⟩, ⟨S1x512, rowsK 7⟩]
          concatenates_S1x512_S1x512_S1x512_S1x512_S1x512_S1x512_S1x512_S1x512_S8x512_d0)
        shapeCasts_S8x512_S8x1x512 := by
  rw [v57_of_v13, v13_fn]
  rfl

/-- A stack of eight rows read at (l, q) is row l at (0, q). -/
theorem stack_apply (R : Fin 8 → FVec Ideal S1x512 .f32)
    (h : Shape.Concatenates
      ([(⟨S1x512, R 0⟩ : (s : Shape) × (s.Idx → EReal)), ⟨S1x512, R 1⟩, ⟨S1x512, R 2⟩, ⟨S1x512, R 3⟩, ⟨S1x512, R 4⟩,
        ⟨S1x512, R 5⟩, ⟨S1x512, R 6⟩, ⟨S1x512, R 7⟩].map (·.1)) S8x512 0)
    (l : Fin 8) (q : Fin 512) :
    concatenate S8x512 0 [⟨S1x512, R 0⟩, ⟨S1x512, R 1⟩, ⟨S1x512, R 2⟩, ⟨S1x512, R 3⟩, ⟨S1x512, R 4⟩, ⟨S1x512, R 5⟩,
        ⟨S1x512, R 6⟩, ⟨S1x512, R 7⟩] h (ix2 l q) = R l (ix2 (0 : Fin 1) q) :=
  concatenate_ofFn_unit_apply (t := S8x512) (s₁ := S1x512) (N := 8) (0 : Fin 2) R h rfl rfl (ix2 l q) l rfl (ix2 (0 : Fin 1) q)
    (fun b hb => by
      match b with
      | ⟨0, _⟩ => exact absurd rfl hb
      | ⟨1, _⟩ => rfl)

/-- A vector of length 512 laid as one row reads, at (0, q), the vector at q. -/
theorem row_bcast_apply (x : FVec Ideal S512 .f32) (q : Fin 512) :
    broadcastInDim S1x512 ![1] bcast_S512_S1x512_1 x (ix2 (0 : Fin 1) q) = x (ix1 q) :=
  broadcastInDim_apply ![1] bcast_S512_S1x512_1 x (ix2 (0 : Fin 1) q) (ix1 q) (fun a => by
    match a with
    | ⟨0, _⟩ => rfl)

/-- THE MASK layer l's window reads, at column q: the base mask on even layers, one minus it on odd ones. -/
theorem v57_apply (l : Fin 8) (q : Fin 512) :
    V m c main_v57 (ix3 l (0 : Fin 1) q) = Cert.Glow.maskOf (fun q => baseK (ix1 q)) l.val q := by
  refine (congrFun (v57_fn m c) _).trans ?_
  refine (shapeCast_ab_a1b_apply _ _ l 0 q).trans ?_
  refine (stack_apply rowsK _ l q).trans ?_
  unfold rowsK Cert.Glow.maskOf
  split
  · exact row_bcast_apply baseK q
  · exact row_bcast_apply coBaseK q

end Cert.KernelIdeal.HostVal

end
-- ==== Proof.KHostWeight.lean ====
/-
  The layer's 512 × 512 weight, as the region finds it.

  The host lines before the region build each layer's weight from its factors: with T the strictly-lower-triangular
  0/1 matrix, T' its transpose and E the identity (three closed arrays computed from coordinates alone), the lower
  factor is L ∘ T + E, the upper factor is U ∘ T' with sign · exp logs put on the diagonal (a select on "row = column",
  kept as the one-bit array the lines compute), and the weight is the transpose of (P · lower) · upper, after a change
  of float format that is the identity on the extended reals.  The two products are batched over the layers: entry
  (l, p, q) of a product is the sum over k of the left factor at (l, p, k) times the right at (l, k, q).
-/
import proofs.«112469_j76776835383759_2_alg».proof.Proof.KHostBasic
import proofs.«112469_j76776835383759_2_alg».proof.Proof.ParamSpec
import Idealize.ShloMosaic.Lib.KernelVsHost

set_option maxRecDepth 16384
-- one theorem at a time: each reading of a buffer off the host lines is a pass over all of them, and run side by side the passes' memory adds up
set_option Elab.async false

noncomputable section

open scoped BigOperators

namespace Cert.KernelIdeal.HostVal

open Idealize.ShloMosaic Idealize.ShloMosaic.ValueIdx Idealize.ShloMosaic.StableHlo Idealize.ShloMosaic.TcCoe
open Cert.KernelIdeal Cert.KernelIdeal.Gen Cert.KernelIdeal.Hand

/-! ## The batched product read at an index -/

/-- The dimension numbers of the two batched products: batch axis 0, the left operand's last axis contracted with the
    right operand's middle one. -/
abbrev D8 : DotDims S8x512x512 S8x512x512 S8x512x512 := dot_S8x512x512_S8x512x512_S8x512x512_2_1_1_2_0_0

theorem D8_rank : D8.contr.rank = 1 := rfl
theorem D8_size : D8.contr.size ⟨0, by rw [D8_rank]; exact Nat.one_pos⟩ = 512 := rfl

/-- The left operand's index at output (l, p, q) and contraction coordinate k is (l, p, k). -/
theorem D8_lhsIdx (l : Fin 8) (p q k : Fin 512) :
    D8.lhsIdx (ix3 l p q) ((contrEquiv1 D8 512 D8_rank D8_size).symm k) = ix3 l p k := by
  funext a
  refine Fin.ext ?_
  match a with
  | ⟨0, _⟩ => rfl
  | ⟨1, _⟩ => rfl
  | ⟨2, _⟩ =>
    refine (D8.lhsIdx_val_of_single (cl := 2) rfl (ix3 l p q) _).trans ?_
    exact contrEquiv1_symm_val D8 512 D8_rank D8_size k

/-- The right operand's index at output (l, p, q) and contraction coordinate k is (l, k, q). -/
theorem D8_rhsIdx (l : Fin 8) (p q k : Fin 512) :
    D8.rhsIdx (ix3 l p q) ((contrEquiv1 D8 512 D8_rank D8_size).symm k) = ix3 l k q := by
  funext a
  refine Fin.ext ?_
  match a with
  | ⟨0, _⟩ => rfl
  | ⟨1, _⟩ =>
    refine (D8.rhsIdx_val_of_single (cr := 1) rfl (ix3 l p q) _).trans ?_
    exact contrEquiv1_symm_val D8 512 D8_rank D8_size k
  | ⟨2, _⟩ => rfl

/-- The host's batched product, on the extended reals, at (l, p, q). -/
theorem bdot_apply {φ₁ φ₂ : FTy} (L : FVec Ideal S8x512x512 φ₁) (R : FVec Ideal S8x512x512 φ₂) (l : Fin 8) (p q : Fin 512) :
    Host.dotGeneral D8 none L R (ix3 l p q) = ∑ k : Fin 512, L (ix3 l p k) * R (ix3 l k q) := by
  refine (Ideal.dotGeneral_apply D8 none .single L R (ix3 l p q)).trans ?_
  rw [← Equiv.sum_comp (contrEquiv1 D8 512 D8_rank D8_size).symm]
  refine Finset.sum_congr rfl fun k _ => ?_
  rw [D8_lhsIdx, D8_rhsIdx]

/-! ## The broadcasts of the lines, at an index -/

section Bcast
variable {α : Type}

/-- A 512 × 512 array repeated over the eight layers (through a [1, 512, 512] view) reads, at (l, i, j), the array at (i, j). -/
theorem bc_mat_apply (X : S512x512.Idx → α) (l : Fin 8) (i j : Fin 512) :
    broadcastInDim S8x512x512 ![0, 1, 2] bcast_S1x512x512_S8x512x512_0_1_2
        (broadcastInDim S1x512x512 ![1, 2] bcast_S512x512_S1x512x512_1_2 X) (ix3 l i j) = X (ix2 i j) := by
  refine (broadcastInDim_apply ![0, 1, 2] bcast_S1x512x512_S8x512x512_0_1_2 _ (ix3 l i j) (ix3 (0 : Fin 1) i j) (fun a => by
    match a with
    | ⟨0, _⟩ => rfl
    | ⟨1, _⟩ => rfl
    | ⟨2, _⟩ => rfl)).trans ?_
  exact broadcastInDim_apply ![1, 2] bcast_S512x512_S1x512x512_1_2 X (ix3 (0 : Fin 1) i j) (ix2 i j) (fun a => by
    match a with
    | ⟨0, _⟩ => rfl
    | ⟨1, _⟩ => rfl)

/-- A 512 × 512 array repeated over the eight layers directly reads, at (l, i, j), the array at (i, j). -/
theorem bc_mat'_apply (X : S512x512.Idx → α) (l : Fin 8) (i j : Fin 512) :
    broadcastInDim S8x512x512 ![1, 2] bcast_S512x512_S8x512x512_1_2 X (ix3 l i j) = X (ix2 i j) :=
  broadcastInDim_apply ![1, 2] bcast_S512x512_S8x512x512_1_2 X (ix3 l i j) (ix2 i j) (fun a => by
    match a with
    | ⟨0, _⟩ => rfl
    | ⟨1, _⟩ => rfl)

/-- An [8, 512] array repeated along a new last axis (through an [8, 512, 1] view) reads, at (l, j, k), the array at (l, j). -/
theorem bc_col_apply (Y : S8x512.Idx → α) (l : Fin 8) (j k : Fin 512) :
    broadcastInDim S8x512x512 ![0, 1, 2] bcast_S8x512x1_S8x512x512_0_1_2
        (broadcastInDim S8x512x1 ![0, 1] bcast_S8x512_S8x512x1_0_1 Y) (ix3 l j k) = Y (ix2 l j) := by
  refine (broadcastInDim_apply ![0, 1, 2] bcast_S8x512x1_S8x512x512_0_1_2 _ (ix3 l j k) (ix3 l j (0 : Fin 1)) (fun a => by
    match a with
    | ⟨0, _⟩ => rfl
    | ⟨1, _⟩ => rfl
    | ⟨2, _⟩ => rfl)).trans ?_
  exact broadcastInDim_apply ![0, 1] bcast_S8x512_S8x512x1_0_1 Y (ix3 l j (0 : Fin 1)) (ix2 l j) (fun a => by
    match a with
    | ⟨0, _⟩ => rfl
    | ⟨1, _⟩ => rfl)

/-- A padding by nothing reads the operand. -/
theorem pad0_apply (Y : S8x512.Idx → α) (v : S_.Idx → α) (l : Fin 8) (j : Fin 512) :
    pad S8x512 ![0, 0] ![0, 0] ![0, 0] Y v pads_S8x512_S8x512_000_000 h_S_ (ix2 l j) = Y (ix2 l j) :=
  Idealize.ShloMosaic.pad_apply_of_inside ![0, 0] ![0, 0] ![0, 0] Y v pads_S8x512_S8x512_000_000 h_S_ (ix2 l j) (ix2 l j) (fun a => by
    match a with
    | ⟨0, _⟩ => show l.val = 0 + l.val * (0 + 1); omega
    | ⟨1, _⟩ => show j.val = 0 + j.val * (0 + 1); omega)

end Bcast

/-! ## The weight as a function of the arrays -/

/-- The lines' arithmetic from the three closed 512 × 512 arrays, the one-bit diagonal array and the five argument
    arrays to the weight array. -/
def wArr (E T T' : FVec Ideal S512x512 .f32) (O : IVec S512x512 1) (A3 A4 A5 : FVec Ideal S8x512x512 .f32)
    (A6 A7 : FVec Ideal S8x512 .f32) : FVec Ideal S8x512x512 .bf16 :=
  truncf .bf16
    (transpose S8x512x512 [0, 2, 1]
      (Host.dotGeneral D8 none
        (Host.dotGeneral D8 none A3
          (addf
            (mulf A4 (broadcastInDim S8x512x512 ![0, 1, 2] bcast_S1x512x512_S8x512x512_0_1_2
              (broadcastInDim S1x512x512 ![1, 2] bcast_S512x512_S1x512x512_1_2 T)))
            (broadcastInDim S8x512x512 ![0, 1, 2] bcast_S1x512x512_S8x512x512_0_1_2
              (broadcastInDim S1x512x512 ![1, 2] bcast_S512x512_S1x512x512_1_2 E))))
        (addf
          (mulf A5 (broadcastInDim S8x512x512 ![0, 1, 2] bcast_S1x512x512_S8x512x512_0_1_2
            (broadcastInDim S1x512x512 ![1, 2] bcast_S512x512_S1x512x512_1_2 T')))
          (select (broadcastInDim S8x512x512 ![1, 2] bcast_S512x512_S8x512x512_1_2 O)
            (broadcastInDim S8x512x512 ![0, 1, 2] bcast_S8x512x1_S8x512x512_0_1_2
              (broadcastInDim S8x512x1 ![0, 1] bcast_S8x512_S8x512x1_0_1
                (pad S8x512 ![0, 0] ![0, 0] ![0, 0] (mulf A6 (Host.exp (F := Ideal) A7)) (constant (F := Ideal) S_ .f32 0x00000000#32)
                  pads_S8x512_S8x512_000_000 h_S_)))
            (broadcastInDim S8x512x512 ![1, 2] bcast_S512x512_S8x512x512_1_2
              (broadcastInDim S512x512 ![] bcast_S_S512x512 (constant (F := Ideal) S_ .f32 0x00000000#32))))))
      transposes_S8x512x512_S8x512x512_0_2_1)
    bitsLt_bf16_f32

/-- The weight array at (l, k, q): entry (q, k) of (P · (L ∘ T + E)) · (U ∘ T' + diag (sign · exp logs)) of layer l. -/
theorem wArr_apply (E T T' : FVec Ideal S512x512 .f32) (O : IVec S512x512 1) (A3 A4 A5 : FVec Ideal S8x512x512 .f32)
    (A6 A7 : FVec Ideal S8x512 .f32) (l : Fin 8) (k q : Fin 512) :
    wArr E T T' O A3 A4 A5 A6 A7 (ix3 l k q)
      = Cert.Glow.wOf (fun q i => A3 (ix3 l q i)) (fun i j => A4 (ix3 l i j)) (fun j k => A5 (ix3 l j k))
          (Cert.Glow.dOf (fun j => A6 (ix2 l j)) (fun j => A7 (ix2 l j)))
          (fun i j => E (ix2 i j)) (fun i j => T (ix2 i j)) (fun j k => T' (ix2 j k)) (fun j k => O (ix2 j k)) k q := by
  unfold wArr
  refine (truncf_apply _ bitsLt_bf16_f32 (ix3 l k q)).trans ?_
  refine (transpose_ix3_021_apply _ transposes_S8x512x512_S8x512x512_0_2_1 l k q).trans ?_
  refine (bdot_apply _ _ l q k).trans ?_
  unfold Cert.Glow.wOf
  refine Finset.sum_congr rfl fun j _ => ?_
  refine congrArg₂ (· * ·) ?_ ?_
  · refine (bdot_apply _ _ l q j).trans ?_
    refine Finset.sum_congr rfl fun i _ => ?_
    refine congrArg (A3 (ix3 l q i) * ·) ?_
    exact congrArg₂ (fun x y => A4 (ix3 l i j) * x + y) (bc_mat_apply T l i j) (bc_mat_apply E l i j)
  · refine congrArg₂ (fun x y => A5 (ix3 l j k) * x + y) (bc_mat_apply T' l j k) ?_
    refine (select_apply _ _ _ (ix3 l j k)).trans ?_
    refine congr (congrArg₂ Scalar.select (bc_mat'_apply O l j k) ?_) ?_
    · exact (bc_col_apply _ l j k).trans (pad0_apply _ _ l j)
    · rfl

/-! ## The closed arrays -/

/-- "Row = column", as a one-bit array. -/
def onDiagK : IVec S512x512 1 :=
  cmpi .eq (addi (iotaInDim S512x512 32 0) (broadcastInDim S512x512 ![] bcast_S_S512x512 (constantI S_ 32 0#32)))
    (iotaInDim S512x512 32 1)

/-- The identity matrix. -/
def eyeK : FVec Ideal S512x512 .f32 := uitofp .f32 onDiagK

/-- "Row − 1 ≥ column" (the −1 as the word 0xFFFFFFFF, added with wrap-around, compared signed), as a one-bit array. -/
def lowerK : IVec S512x512 1 :=
  cmpi .sge (addi (iotaInDim S512x512 32 0) (broadcastInDim S512x512 ![] bcast_S_S512x512 (constantI S_ 32 4294967295#32)))
    (iotaInDim S512x512 32 1)

/-- The strictly-lower-triangular 0/1 matrix: 1 where row − 1 ≥ column, else 0. -/
def trilK : FVec Ideal S512x512 .f32 :=
  select lowerK (broadcastInDim S512x512 ![] bcast_S_S512x512 (constant (F := Ideal) S_ .f32 0x3F800000#32))
    (broadcastInDim S512x512 ![] bcast_S_S512x512 (constant (F := Ideal) S_ .f32 0x00000000#32))

/-- Its transpose. -/
def trilTK : FVec Ideal S512x512 .f32 := transpose S512x512 [1, 0] trilK transposes_S512x512_S512x512_1_0

variable (m : (ℓ : Loc nD τ sig) → Buf (Elt Ideal) ℓ) (c : Dev nD)

/-! ## The host lines in three stretches

Reading one buffer off all 115 host lines at once walks every later line for every buffer the value depends on; the
weight depends on some fifty. So the lines are cut in three: the first five stretches (through the products' operands),
the routine that builds the diagonal, and the last stretch; a buffer is read off one cut at a time. -/

/-- The buffers after the first five stretches of host lines. -/
def U4 : Valuation τ sig (Elt Ideal) :=
  StableHlo.after (List.flatten [hostOps0, hostOps0_1, hostOps0_2, hostOps0_3, hostOps0_4]) (fun b => m (c, b))

/-- The buffers after the routine that builds the diagonal. -/
def U5 : Valuation τ sig (Elt Ideal) := StableHlo.after hostOps0_5 (U4 m c)

/-- The region's entry is the last stretch run from there. -/
theorem V0_eq : V0 m c = StableHlo.after hostOps0_6 (U5 m c) := by
  unfold U5 U4
  dsimp only [V0]
  simp only [List.flatten_cons, List.flatten_nil, List.append_nil, StableHlo.after_append]

local macro "read6" : tactic =>
  `(tactic| (dsimp only [V]
             rw [V0_eq]
             simp only [hostOps0_6]
             after_results_simp))
local macro "read5" : tactic =>
  `(tactic| (unfold U5
             simp only [hostOps0_5]
             after_results_simp))
local macro "read4" : tactic =>
  `(tactic| (unfold U4
             simp only [hostOps0, hostOps0_1, hostOps0_2, hostOps0_3, hostOps0_4, List.flatten_cons, List.flatten_nil,
               List.append_nil, List.cons_append, List.nil_append]
             after_results_simp))

section Reads
-- the operations stay folded while two spellings of one array are compared: only the transports between a buffer's
-- type and its contents' type are opened
attribute [local irreducible] addi cmpi iotaInDim broadcastInDim constantI constant select uitofp transpose addf mulf truncf pad

/-- The last stretch: the two products, the transpose, the change of format. -/
theorem v30_s6 : (V m c main_v30 : S8x512x512.Idx → EReal)
    = (truncf .bf16
        (transpose S8x512x512 [0, 2, 1]
          (Host.dotGeneral (φ₁ := .f32) (φ₂ := .f32) D8 none
            (Host.dotGeneral (φ₁ := .f32) (φ₂ := .f32) D8 none (U5 m c (Proc.devRef .tc main_arg3) : FVec Ideal S8x512x512 .f32)
              (U5 m c (Proc.devRef .tc main_v19) : FVec Ideal S8x512x512 .f32))
            (addf (φ := .f32) (U5 m c (Proc.devRef .tc main_v24) : FVec Ideal S8x512x512 .f32) (U5 m c (Proc.devRef .tc main_v25) : FVec Ideal S8x512x512 .f32)))
          transposes_S8x512x512_S8x512x512_0_2_1)
        bitsLt_bf16_f32 : FVec Ideal S8x512x512 .bf16) := by
  read6 <;> rfl

/-- The routine that builds the diagonal: sign · exp logs where "row = column", zero elsewhere. -/
theorem u5_v25 : (U5 m c (Proc.devRef .tc main_v25) : S8x512x512.Idx → EReal)
    = select (broadcastInDim S8x512x512 ![1, 2] bcast_S512x512_S8x512x512_1_2 onDiagK)
        (broadcastInDim S8x512x512 ![0, 1, 2] bcast_S8x512x1_S8x512x512_0_1_2
          (broadcastInDim S8x512x1 ![0, 1] bcast_S8x512_S8x512x1_0_1
            (pad S8x512 ![0, 0] ![0, 0] ![0, 0] (U4 m c (Proc.devRef .tc main_v21) : FVec Ideal S8x512 .f32) (constant (F := Ideal) S_ .f32 0x00000000#32)
              pads_S8x512_S8x512_000_000 h_S_)))
        (broadcastInDim S8x512x512 ![1, 2] bcast_S512x512_S8x512x512_1_2
          (broadcastInDim S512x512 ![] bcast_S_S512x512 (constant (F := Ideal) S_ .f32 0x00000000#32))) := by
  read5 <;> rfl
/-- It leaves the other operands as they were. -/
theorem u5_arg3 : U5 m c (Proc.devRef .tc main_arg3) = U4 m c (Proc.devRef .tc main_arg3) := by
  read5 <;> rfl
theorem u5_v19 : U5 m c (Proc.devRef .tc main_v19) = U4 m c (Proc.devRef .tc main_v19) := by
  read5 <;> rfl
theorem u5_v24 : U5 m c (Proc.devRef .tc main_v24) = U4 m c (Proc.devRef .tc main_v24) := by
  read5 <;> rfl

/-- The first stretches: the lower factor, … -/
theorem u4_v19 : (U4 m c (Proc.devRef .tc main_v19) : S8x512x512.Idx → EReal)
    = (addf
        (mulf (m ((c : Thread nD τ).loc main_arg4) : FVec Ideal S8x512x512 .f32)
          (broadcastInDim S8x512x512 ![0, 1, 2] bcast_S1x512x512_S8x512x512_0_1_2
            (broadcastInDim S1x512x512 ![1, 2] bcast_S512x512_S1x512x512_1_2 (U4 m c (Proc.devRef .tc main_v7) : FVec Ideal S512x512 .f32))))
        (broadcastInDim S8x512x512 ![0, 1, 2] bcast_S1x512x512_S8x512x512_0_1_2
          (broadcastInDim S1x512x512 ![1, 2] bcast_S512x512_S1x512x512_1_2 (U4 m c (Proc.devRef .tc main_v5) : FVec Ideal S512x512 .f32))) : FVec Ideal S8x512x512 .f32) := by
  read4 <;> rfl
/-- … the upper factor off its diagonal, … -/
theorem u4_v24 : (U4 m c (Proc.devRef .tc main_v24) : S8x512x512.Idx → EReal)
    = (mulf (m ((c : Thread nD τ).loc main_arg5) : FVec Ideal S8x512x512 .f32)
        (broadcastInDim S8x512x512 ![0, 1, 2] bcast_S1x512x512_S8x512x512_0_1_2
          (broadcastInDim S1x512x512 ![1, 2] bcast_S512x512_S1x512x512_1_2 (U4 m c (Proc.devRef .tc main_v8) : FVec Ideal S512x512 .f32))) : FVec Ideal S8x512x512 .f32) := by
  read4 <;> rfl
/-- … the diagonal's entries, … -/
theorem u4_v21 : (U4 m c (Proc.devRef .tc main_v21) : S8x512.Idx → EReal)
    = (mulf (m ((c : Thread nD τ).loc main_arg6) : FVec Ideal S8x512 .f32)
        (Host.exp (F := Ideal) (m ((c : Thread nD τ).loc main_arg7) : FVec Ideal S8x512 .f32)) : FVec Ideal S8x512 .f32) := by
  read4 <;> rfl
/-- … and the permutation factor, an argument array as launched. -/
theorem u4_arg3 : (U4 m c (Proc.devRef .tc main_arg3) : S8x512x512.Idx → EReal) = m ((c : Thread nD τ).loc main_arg3) := by
  read4 <;> rfl

/-- The three closed arrays, as the first stretches leave them. -/
theorem u4_v5 : (U4 m c (Proc.devRef .tc main_v5) : S512x512.Idx → EReal) = eyeK := by
  read4 <;> rfl
theorem u4_lower : (U4 m c (Proc.devRef .tc main_call0_v4) : S512x512.Idx → BitVec 1) = lowerK := by
  read4 <;> rfl
theorem u4_v7_of : (U4 m c (Proc.devRef .tc main_v7) : S512x512.Idx → EReal)
    = select (U4 m c (Proc.devRef .tc main_call0_v4) : IVec S512x512 1)
        (broadcastInDim S512x512 ![] bcast_S_S512x512 (constant (F := Ideal) S_ .f32 0x3F800000#32))
        (broadcastInDim S512x512 ![] bcast_S_S512x512 (constant (F := Ideal) S_ .f32 0x00000000#32)) := by
  read4 <;> rfl
theorem u4_v7 : (U4 m c (Proc.devRef .tc main_v7) : S512x512.Idx → EReal) = trilK := by
  rw [u4_v7_of, u4_lower]; rfl
theorem u4_v8_of : (U4 m c (Proc.devRef .tc main_v8) : S512x512.Idx → EReal)
    = transpose S512x512 [1, 0] (U4 m c (Proc.devRef .tc main_v7) : FVec Ideal S512x512 .f32) transposes_S512x512_S512x512_1_0 := by
  read4 <;> rfl
theorem u4_v8 : (U4 m c (Proc.devRef .tc main_v8) : S512x512.Idx → EReal) = trilTK := by
  rw [u4_v8_of, u4_v7]; rfl

end Reads

/-- The weight array. -/
theorem v30_fn : (V m c main_v30 : S8x512x512.Idx → EReal)
    = wArr eyeK trilK trilTK onDiagK
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [v30_s6, u5_v25, u5_arg3, u5_v19, u5_v24, u4_v19, u4_v24, u4_v21, u4_arg3, u4_v5, u4_v7, u4_v8]
  rfl

/-- THE WEIGHT layer l's window reads, at (k, q). -/
theorem v30_apply (l : Fin 8) (k q : Fin 512) :
    V m c main_v30 (ix3 l k q)
      = Cert.Glow.wOf (fun q i => m ((c : Thread nD τ).loc main_arg3) (ix3 l q i))
          (fun i j => m ((c : Thread nD τ).loc main_arg4) (ix3 l i j))
          (fun j k => m ((c : Thread nD τ).loc main_arg5) (ix3 l j k))
          (Cert.Glow.dOf (fun j => m ((c : Thread nD τ).loc main_arg6) (ix2 l j)) (fun j => m ((c : Thread nD τ).loc main_arg7) (ix2 l j)))
          (fun i j => eyeK (ix2 i j)) (fun i j => trilK (ix2 i j)) (fun j k => trilTK (ix2 j k)) (fun j k => onDiagK (ix2 j k)) k q :=
  (congrFun (v30_fn m c) _).trans (wArr_apply eyeK trilK trilTK onDiagK _ _ _ _ _ l k q)

end Cert.KernelIdeal.HostVal

end
-- ==== Proof.KFinalRun.lean ====
/- The kernel program's run over its launched arguments alone. The arrays the region reads are what the host lines before it
   computed from the sixteen arguments and from constants they build themselves; naming the arguments as functions of plain
   indices and those constants likewise, the run's two results are the flow of every batch row and every row's
   log-determinant. -/
import proofs.«112469_j76776835383759_2_alg».proof.Proof.KValueRun
import proofs.«112469_j76776835383759_2_alg».proof.Proof.KHostMask
import proofs.«112469_j76776835383759_2_alg».proof.Proof.KHostWeight

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ) (ρ : Dev nD → PrngReg)

/-- The sixteen arguments as launched, read as functions of plain indices. -/
def AK (c : Dev nD) : Cert.Glow.Args where
  y := fun r k => m ((c : Thread nD τ).loc main_arg0) (ix2 r k)
  a1 := fun l k => m ((c : Thread nD τ).loc main_arg1) (ix2 l k)
  a2 := fun l k => m ((c : Thread nD τ).loc main_arg2) (ix2 l k)
  a3 := fun l i j => m ((c : Thread nD τ).loc main_arg3) (ix3 l i j)
  a4 := fun l i j => m ((c : Thread nD τ).loc main_arg4) (ix3 l i j)
  a5 := fun l i j => m ((c : Thread nD τ).loc main_arg5) (ix3 l i j)
  a6 := fun l k => m ((c : Thread nD τ).loc main_arg6) (ix2 l k)
  a7 := fun l k => m ((c : Thread nD τ).loc main_arg7) (ix2 l k)
  a8 := fun l k h => m ((c : Thread nD τ).loc main_arg8) (ix3 l k h)
  a9 := fun l h => m ((c : Thread nD τ).loc main_arg9) (ix2 l h)
  a10 := fun l h q => m ((c : Thread nD τ).loc main_arg10) (ix3 l h q)
  a11 := fun l q => m ((c : Thread nD τ).loc main_arg11) (ix2 l q)
  a12 := fun l k h => m ((c : Thread nD τ).loc main_arg12) (ix3 l k h)
  a13 := fun l h => m ((c : Thread nD τ).loc main_arg13) (ix2 l h)
  a14 := fun l h q => m ((c : Thread nD τ).loc main_arg14) (ix3 l h q)
  a15 := fun l q => m ((c : Thread nD τ).loc main_arg15) (ix2 l q)

/-- The constant arrays the host lines build before the first layer, read as functions of plain indices. -/
def CK : Cert.Glow.Consts where
  E := fun i j => HostVal.eyeK (ix2 i j)
  T := fun i j => HostVal.trilK (ix2 i j)
  T' := fun j k => HostVal.trilTK (ix2 j k)
  onDiag := fun j k => HostVal.onDiagK (ix2 j k)
  base := fun q => HostVal.baseK (ix1 q)

/-- What the thirteen input arrays hold when the region is entered, over the launched arguments and the host's constants:
    the batch array is an argument no host line writes; six parameter arrays are views of arguments with a unit axis
    added; four are arguments changed in float format only; the mask array alternates the base mask and its complement;
    the weight array is the assembled product of the factored linear map. -/
theorem entryFacts (c : Dev nD) : EntryFacts m c (AK m c) CK := by
  -- the two records are opened first, so that each field is stated over the launched arrays and the host's constants
  -- themselves and is then literally the host line's reading
  constructor <;> dsimp only [AK, CK]
  · exact fun r k => congrFun (V_main_arg0 m c) (ix2 r k)
  · exact fun l k => HostVal.v55_apply m c l k
  · exact fun l k => HostVal.v56_apply m c l k
  · exact fun l k q => HostVal.v30_apply m c l k q
  · exact fun l q => HostVal.v57_apply m c l q
  · exact fun l k h => HostVal.v48_apply m c l k h
  · exact fun l h => HostVal.v58_apply m c l h
  · exact fun l h q => HostVal.v49_apply m c l h q
  · exact fun l q => HostVal.v59_apply m c l q
  · exact fun l k h => HostVal.v50_apply m c l k h
  · exact fun l h => HostVal.v60_apply m c l h
  · exact fun l h q => HostVal.v51_apply m c l h q
  · exact fun l q => HostVal.v61_apply m c l q

/-- The scalar the host adds to every row's sum is the total of the layers' log-scale parameters plus the total of the
    logarithms of the linear maps' diagonals, each started from the zero word: the second result is the flow's
    log-determinant of every row. -/
theorem ldjFinal_eq (c : Dev nD) :
    ldjFinal m c (AK m c) CK = fun j => Cert.Glow.kLdj (AK m c) CK ((AK m c).y (j 0)) := by
  funext j
  unfold ldjFinal Cert.Glow.kLdj
  rw [HostVal.v54_apply m c, sum_idx2, sum_idx2]
  rfl

/-- THE KERNEL PROGRAM'S RUN, over its launched arguments alone: it ends with its first result at every batch row after the
    eight layers, its second at every row's log-determinant, and its sixteen arguments unchanged. -/
theorem run_final :
    θ_run defs (onTc (τ := τ) (main (F := Ideal))) ⟨m, fun _ => 0, ρ⟩ (fun r => ∀ c : Dev nD,
      r.2.mem ((c.tc : Thread nD τ).loc main_v62_0) = zFinal (AK m c) CK
      ∧ r.2.mem ((c.tc : Thread nD τ).loc main_v65) = (fun j => Cert.Glow.kLdj (AK m c) CK ((AK m c).y (j 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1, (h c).2.1.trans (ldjFinal_eq m c), (h c).2.2⟩)
    (run_values m ρ (AK m) (fun _ => CK) (entryFacts m))

end Cert.KernelIdeal.Val

end
-- ==== Proof.RefReadC.lean ====
/- The reference program's shared constants as closed terms (they do not depend on the memory) — the identity
   matrix, the strictly-lower mask of ones and its transpose, the alternating base mask — read off the first
   operations of @main; and that neither they nor the sixteen arguments are written by any layer, so each keeps its
   contents (the constant's value, the argument's launch contents) after every layer. -/
import proofs.«112469_j76776835383759_2_alg».proof.Proof.RefRun
import Idealize.ShloMosaic.PureOps.Ideal

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

/-- The identity matrix as the program builds it: one where the row index equals the column index. -/
def eyeR : FVec Ideal S512x512 .f32 :=
  uitofp .f32 (cmpi .eq (addi (iotaInDim S512x512 32 0) (broadcastInDim S512x512 ![] bcast_S_S512x512 (constantI S_ 32 0#32))) (iotaInDim S512x512 32 1))

/-- The mask of the entries strictly below the diagonal (row index minus one at least the column index): ones there, zero elsewhere. -/
def trilR : FVec Ideal S512x512 .f32 :=
  select (cmpi .sge (addi (iotaInDim S512x512 32 0) (broadcastInDim S512x512 ![] bcast_S_S512x512 (constantI S_ 32 4294967295#32))) (iotaInDim S512x512 32 1))
    (broadcastInDim S512x512 ![] bcast_S_S512x512 (constant (F := Ideal) S_ .f32 0x3F800000#32))
    (broadcastInDim S512x512 ![] bcast_S_S512x512 (constant (F := Ideal) S_ .f32 0x00000000#32))

/-- Its transpose: the mask of the entries strictly above the diagonal. -/
def trilTR : FVec Ideal S512x512 .f32 := transpose S512x512 [1, 0] trilR transposes_S512x512_S512x512_1_0

/-- The modulus of the floored remainder: two (converted to its own type, the identity), guarded against zero as the program guards it. -/
def divR : IVec S_ 32 :=
  select (cmpi .eq (id (constantI S_ 32 2#32)) (constantI S_ 32 0#32)) (constantI S_ 32 1#32) (id (constantI S_ 32 2#32))

/-- The truncated remainder of the index by the modulus. -/
def remR : IVec S512 32 := Host.remsi (iotaInDim S512 32 0) (broadcastInDim S512 ![] bcast_S_S512 divR)

/-- The floored remainder: the truncated one, moved by the modulus where it is nonzero and of the other sign. -/
def parityR : IVec S512 32 :=
  select
    (andi
      (cmpi .ne (cmpi .slt remR (broadcastInDim S512 ![] bcast_S_S512 (constantI S_ 32 0#32)))
        (broadcastInDim S512 ![] bcast_S_S512 (cmpi .slt divR (constantI S_ 32 0#32))))
      (cmpi .ne remR (broadcastInDim S512 ![] bcast_S_S512 (constantI S_ 32 0#32))))
    (addi remR (broadcastInDim S512 ![] bcast_S_S512 divR)) remR

/-- The base coupling mask: one at the even indices, zero at the odd ones. -/
def baseR : FVec Ideal S512 .f32 :=
  uitofp .f32 (cmpi .eq parityR (broadcastInDim S512 ![] bcast_S_S512 (constantI S_ 32 0#32)))

/-! ## The shared constants after @main's first operations -/

/-- Contents moved to a typed reference's own buffer type and back are the contents. -/
theorem ofBuf_toBuf {sig : RefSig} {Val : EltTy → Type} {T : BufTy} (x : TRef sig T) (v : T.Contents Val) :
    x.ofBuf (x.toBuf v) = v := by
  obtain ⟨r, h, _, _⟩ := x
  subst h
  rfl

/-- At these two literal buffers, whose type is the tensor value's by computation, the moves are the identity. -/
theorem toBuf_main_v7 (v : (⟨S512x512, .f32⟩ : BufTy).Contents (Elt Ideal)) :
    (StableHlo.TRef.of (T := ⟨S512x512, .f32⟩) main_v7).toBuf v = v := rfl
theorem ofBuf_main_v6 (v : (⟨S512x512, .f32⟩ : BufTy).Contents (Elt Ideal)) :
    (StableHlo.TRef.of (T := ⟨S512x512, .f32⟩) main_v6).ofBuf v = v := rfl

set_option maxRecDepth 65536 in
set_option maxHeartbeats 2000000 in
theorem val1_main_v5 (W : Valuation τ sig (Elt Ideal)) : val1 W (Proc.devRef .tc main_v5) = eyeR := by
  unfold val1 val0
  simp only [opsPre, pc00]
  after_results_simp
  rfl
set_option maxRecDepth 65536 in
set_option maxHeartbeats 2000000 in
theorem val1_main_v7 (W : Valuation τ sig (Elt Ideal)) : val1 W (Proc.devRef .tc main_v7) = trilR := by
  unfold val1 val0
  simp only [opsPre, pc00]
  after_results_simp
  -- the moves between the called function's typed references and their buffers, removed one by one
  simp only [ofBuf_toBuf, toBuf_main_v7, ofBuf_main_v6]
  rfl
set_option maxRecDepth 65536 in
set_option maxHeartbeats 2000000 in
theorem val1_main_v8 (W : Valuation τ sig (Elt Ideal)) : val1 W (Proc.devRef .tc main_v8) = trilTR := by
  unfold val1 val0
  simp only [opsPre, pc00]
  after_results_simp
  -- the moves between the called function's typed references and their buffers, removed one by one
  simp only [ofBuf_toBuf, toBuf_main_v7, ofBuf_main_v6]
  rfl
set_option maxRecDepth 65536 in
set_option maxHeartbeats 2000000 in
theorem val1_main_v13 (W : Valuation τ sig (Elt Ideal)) : val1 W (Proc.devRef .tc main_v13) = baseR := by
  unfold val1 val0
  simp only [opsPre, pc00]
  after_results_simp
  rfl

set_option maxRecDepth 65536 in
set_option maxHeartbeats 2000000 in
/-- The zero log-determinant the layers start from. -/
theorem ldj0 (W : Valuation τ sig (Elt Ideal)) :
    val1 W (Proc.devRef .tc main_v14) = broadcastInDim S16384 ![] bcast_S_S16384 (constant (F := Ideal) S_ .f32 0x00000000#32) := by
  unfold val1 val0
  simp only [opsPre, pc00]
  after_results_simp

/-! ## No layer writes a shared constant or an argument -/

theorem val2_main_v5 (W : Valuation τ sig (Elt Ideal)) : val2 W (Proc.devRef .tc main_v5) = eyeR :=
  (val2_keep W main_v5 (by decide)).trans (val1_main_v5 W)
theorem val3_main_v5 (W : Valuation τ sig (Elt Ideal)) : val3 W (Proc.devRef .tc main_v5) = eyeR :=
  (val3_keep W main_v5 (by decide)).trans (val2_main_v5 W)
theorem val4_main_v5 (W : Valuation τ sig (Elt Ideal)) : val4 W (Proc.devRef .tc main_v5) = eyeR :=
  (val4_keep W main_v5 (by decide)).trans (val3_main_v5 W)
theorem val5_main_v5 (W : Valuation τ sig (Elt Ideal)) : val5 W (Proc.devRef .tc main_v5) = eyeR :=
  (val5_keep W main_v5 (by decide)).trans (val4_main_v5 W)
theorem val6_main_v5 (W : Valuation τ sig (Elt Ideal)) : val6 W (Proc.devRef .tc main_v5) = eyeR :=
  (val6_keep W main_v5 (by decide)).trans (val5_main_v5 W)
theorem val7_main_v5 (W : Valuation τ sig (Elt Ideal)) : val7 W (Proc.devRef .tc main_v5) = eyeR :=
  (val7_keep W main_v5 (by decide)).trans (val6_main_v5 W)
theorem val8_main_v5 (W : Valuation τ sig (Elt Ideal)) : val8 W (Proc.devRef .tc main_v5) = eyeR :=
  (val8_keep W main_v5 (by decide)).trans (val7_main_v5 W)
theorem val9_main_v5 (W : Valuation τ sig (Elt Ideal)) : val9 W (Proc.devRef .tc main_v5) = eyeR :=
  (val9_keep W main_v5 (by decide)).trans (val8_main_v5 W)
theorem val2_main_v7 (W : Valuation τ sig (Elt Ideal)) : val2 W (Proc.devRef .tc main_v7) = trilR :=
  (val2_keep W main_v7 (by decide)).trans (val1_main_v7 W)
theorem val3_main_v7 (W : Valuation τ sig (Elt Ideal)) : val3 W (Proc.devRef .tc main_v7) = trilR :=
  (val3_keep W main_v7 (by decide)).trans (val2_main_v7 W)
theorem val4_main_v7 (W : Valuation τ sig (Elt Ideal)) : val4 W (Proc.devRef .tc main_v7) = trilR :=
  (val4_keep W main_v7 (by decide)).trans (val3_main_v7 W)
theorem val5_main_v7 (W : Valuation τ sig (Elt Ideal)) : val5 W (Proc.devRef .tc main_v7) = trilR :=
  (val5_keep W main_v7 (by decide)).trans (val4_main_v7 W)
theorem val6_main_v7 (W : Valuation τ sig (Elt Ideal)) : val6 W (Proc.devRef .tc main_v7) = trilR :=
  (val6_keep W main_v7 (by decide)).trans (val5_main_v7 W)
theorem val7_main_v7 (W : Valuation τ sig (Elt Ideal)) : val7 W (Proc.devRef .tc main_v7) = trilR :=
  (val7_keep W main_v7 (by decide)).trans (val6_main_v7 W)
theorem val8_main_v7 (W : Valuation τ sig (Elt Ideal)) : val8 W (Proc.devRef .tc main_v7) = trilR :=
  (val8_keep W main_v7 (by decide)).trans (val7_main_v7 W)
theorem val9_main_v7 (W : Valuation τ sig (Elt Ideal)) : val9 W (Proc.devRef .tc main_v7) = trilR :=
  (val9_keep W main_v7 (by decide)).trans (val8_main_v7 W)
theorem val2_main_v8 (W : Valuation τ sig (Elt Ideal)) : val2 W (Proc.devRef .tc main_v8) = trilTR :=
  (val2_keep W main_v8 (by decide)).trans (val1_main_v8 W)
theorem val3_main_v8 (W : Valuation τ sig (Elt Ideal)) : val3 W (Proc.devRef .tc main_v8) = trilTR :=
  (val3_keep W main_v8 (by decide)).trans (val2_main_v8 W)
theorem val4_main_v8 (W : Valuation τ sig (Elt Ideal)) : val4 W (Proc.devRef .tc main_v8) = trilTR :=
  (val4_keep W main_v8 (by decide)).trans (val3_main_v8 W)
theorem val5_main_v8 (W : Valuation τ sig (Elt Ideal)) : val5 W (Proc.devRef .tc main_v8) = trilTR :=
  (val5_keep W main_v8 (by decide)).trans (val4_main_v8 W)
theorem val6_main_v8 (W : Valuation τ sig (Elt Ideal)) : val6 W (Proc.devRef .tc main_v8) = trilTR :=
  (val6_keep W main_v8 (by decide)).trans (val5_main_v8 W)
theorem val7_main_v8 (W : Valuation τ sig (Elt Ideal)) : val7 W (Proc.devRef .tc main_v8) = trilTR :=
  (val7_keep W main_v8 (by decide)).trans (val6_main_v8 W)
theorem val8_main_v8 (W : Valuation τ sig (Elt Ideal)) : val8 W (Proc.devRef .tc main_v8) = trilTR :=
  (val8_keep W main_v8 (by decide)).trans (val7_main_v8 W)
theorem val9_main_v8 (W : Valuation τ sig (Elt Ideal)) : val9 W (Proc.devRef .tc main_v8) = trilTR :=
  (val9_keep W main_v8 (by decide)).trans (val8_main_v8 W)
theorem val2_main_v13 (W : Valuation τ sig (Elt Ideal)) : val2 W (Proc.devRef .tc main_v13) = baseR :=
  (val2_keep W main_v13 (by decide)).trans (val1_main_v13 W)
theorem val3_main_v13 (W : Valuation τ sig (Elt Ideal)) : val3 W (Proc.devRef .tc main_v13) = baseR :=
  (val3_keep W main_v13 (by decide)).trans (val2_main_v13 W)
theorem val4_main_v13 (W : Valuation τ sig (Elt Ideal)) : val4 W (Proc.devRef .tc main_v13) = baseR :=
  (val4_keep W main_v13 (by decide)).trans (val3_main_v13 W)
theorem val5_main_v13 (W : Valuation τ sig (Elt Ideal)) : val5 W (Proc.devRef .tc main_v13) = baseR :=
  (val5_keep W main_v13 (by decide)).trans (val4_main_v13 W)
theorem val6_main_v13 (W : Valuation τ sig (Elt Ideal)) : val6 W (Proc.devRef .tc main_v13) = baseR :=
  (val6_keep W main_v13 (by decide)).trans (val5_main_v13 W)
theorem val7_main_v13 (W : Valuation τ sig (Elt Ideal)) : val7 W (Proc.devRef .tc main_v13) = baseR :=
  (val7_keep W main_v13 (by decide)).trans (val6_main_v13 W)
theorem val8_main_v13 (W : Valuation τ sig (Elt Ideal)) : val8 W (Proc.devRef .tc main_v13) = baseR :=
  (val8_keep W main_v13 (by decide)).trans (val7_main_v13 W)
theorem val9_main_v13 (W : Valuation τ sig (Elt Ideal)) : val9 W (Proc.devRef .tc main_v13) = baseR :=
  (val9_keep W main_v13 (by decide)).trans (val8_main_v13 W)
theorem val0_main_arg0 (W : Valuation τ sig (Elt Ideal)) : val0 W (Proc.devRef .tc main_arg0) = W (Proc.devRef .tc main_arg0) := rfl
theorem val1_main_arg0 (W : Valuation τ sig (Elt Ideal)) : val1 W (Proc.devRef .tc main_arg0) = W (Proc.devRef .tc main_arg0) :=
  (val1_keep W main_arg0 (by decide)).trans (val0_main_arg0 W)
theorem val2_main_arg0 (W : Valuation τ sig (Elt Ideal)) : val2 W (Proc.devRef .tc main_arg0) = W (Proc.devRef .tc main_arg0) :=
  (val2_keep W main_arg0 (by decide)).trans (val1_main_arg0 W)
theorem val3_main_arg0 (W : Valuation τ sig (Elt Ideal)) : val3 W (Proc.devRef .tc main_arg0) = W (Proc.devRef .tc main_arg0) :=
  (val3_keep W main_arg0 (by decide)).trans (val2_main_arg0 W)
theorem val4_main_arg0 (W : Valuation τ sig (Elt Ideal)) : val4 W (Proc.devRef .tc main_arg0) = W (Proc.devRef .tc main_arg0) :=
  (val4_keep W main_arg0 (by decide)).trans (val3_main_arg0 W)
theorem val5_main_arg0 (W : Valuation τ sig (Elt Ideal)) : val5 W (Proc.devRef .tc main_arg0) = W (Proc.devRef .tc main_arg0) :=
  (val5_keep W main_arg0 (by decide)).trans (val4_main_arg0 W)
theorem val6_main_arg0 (W : Valuation τ sig (Elt Ideal)) : val6 W (Proc.devRef .tc main_arg0) = W (Proc.devRef .tc main_arg0) :=
  (val6_keep W main_arg0 (by decide)).trans (val5_main_arg0 W)
theorem val7_main_arg0 (W : Valuation τ sig (Elt Ideal)) : val7 W (Proc.devRef .tc main_arg0) = W (Proc.devRef .tc main_arg0) :=
  (val7_keep W main_arg0 (by decide)).trans (val6_main_arg0 W)
theorem val8_main_arg0 (W : Valuation τ sig (Elt Ideal)) : val8 W (Proc.devRef .tc main_arg0) = W (Proc.devRef .tc main_arg0) :=
  (val8_keep W main_arg0 (by decide)).trans (val7_main_arg0 W)
theorem val9_main_arg0 (W : Valuation τ sig (Elt Ideal)) : val9 W (Proc.devRef .tc main_arg0) = W (Proc.devRef .tc main_arg0) :=
  (val9_keep W main_arg0 (by decide)).trans (val8_main_arg0 W)
theorem val0_main_arg1 (W : Valuation τ sig (Elt Ideal)) : val0 W (Proc.devRef .tc main_arg1) = W (Proc.devRef .tc main_arg1) := rfl
theorem val1_main_arg1 (W : Valuation τ sig (Elt Ideal)) : val1 W (Proc.devRef .tc main_arg1) = W (Proc.devRef .tc main_arg1) :=
  (val1_keep W main_arg1 (by decide)).trans (val0_main_arg1 W)
theorem val2_main_arg1 (W : Valuation τ sig (Elt Ideal)) : val2 W (Proc.devRef .tc main_arg1) = W (Proc.devRef .tc main_arg1) :=
  (val2_keep W main_arg1 (by decide)).trans (val1_main_arg1 W)
theorem val3_main_arg1 (W : Valuation τ sig (Elt Ideal)) : val3 W (Proc.devRef .tc main_arg1) = W (Proc.devRef .tc main_arg1) :=
  (val3_keep W main_arg1 (by decide)).trans (val2_main_arg1 W)
theorem val4_main_arg1 (W : Valuation τ sig (Elt Ideal)) : val4 W (Proc.devRef .tc main_arg1) = W (Proc.devRef .tc main_arg1) :=
  (val4_keep W main_arg1 (by decide)).trans (val3_main_arg1 W)
theorem val5_main_arg1 (W : Valuation τ sig (Elt Ideal)) : val5 W (Proc.devRef .tc main_arg1) = W (Proc.devRef .tc main_arg1) :=
  (val5_keep W main_arg1 (by decide)).trans (val4_main_arg1 W)
theorem val6_main_arg1 (W : Valuation τ sig (Elt Ideal)) : val6 W (Proc.devRef .tc main_arg1) = W (Proc.devRef .tc main_arg1) :=
  (val6_keep W main_arg1 (by decide)).trans (val5_main_arg1 W)
theorem val7_main_arg1 (W : Valuation τ sig (Elt Ideal)) : val7 W (Proc.devRef .tc main_arg1) = W (Proc.devRef .tc main_arg1) :=
  (val7_keep W main_arg1 (by decide)).trans (val6_main_arg1 W)
theorem val8_main_arg1 (W : Valuation τ sig (Elt Ideal)) : val8 W (Proc.devRef .tc main_arg1) = W (Proc.devRef .tc main_arg1) :=
  (val8_keep W main_arg1 (by decide)).trans (val7_main_arg1 W)
theorem val9_main_arg1 (W : Valuation τ sig (Elt Ideal)) : val9 W (Proc.devRef .tc main_arg1) = W (Proc.devRef .tc main_arg1) :=
  (val9_keep W main_arg1 (by decide)).trans (val8_main_arg1 W)
theorem val0_main_arg2 (W : Valuation τ sig (Elt Ideal)) : val0 W (Proc.devRef .tc main_arg2) = W (Proc.devRef .tc main_arg2) := rfl
theorem val1_main_arg2 (W : Valuation τ sig (Elt Ideal)) : val1 W (Proc.devRef .tc main_arg2) = W (Proc.devRef .tc main_arg2) :=
  (val1_keep W main_arg2 (by decide)).trans (val0_main_arg2 W)
theorem val2_main_arg2 (W : Valuation τ sig (Elt Ideal)) : val2 W (Proc.devRef .tc main_arg2) = W (Proc.devRef .tc main_arg2) :=
  (val2_keep W main_arg2 (by decide)).trans (val1_main_arg2 W)
theorem val3_main_arg2 (W : Valuation τ sig (Elt Ideal)) : val3 W (Proc.devRef .tc main_arg2) = W (Proc.devRef .tc main_arg2) :=
  (val3_keep W main_arg2 (by decide)).trans (val2_main_arg2 W)
theorem val4_main_arg2 (W : Valuation τ sig (Elt Ideal)) : val4 W (Proc.devRef .tc main_arg2) = W (Proc.devRef .tc main_arg2) :=
  (val4_keep W main_arg2 (by decide)).trans (val3_main_arg2 W)
theorem val5_main_arg2 (W : Valuation τ sig (Elt Ideal)) : val5 W (Proc.devRef .tc main_arg2) = W (Proc.devRef .tc main_arg2) :=
  (val5_keep W main_arg2 (by decide)).trans (val4_main_arg2 W)
theorem val6_main_arg2 (W : Valuation τ sig (Elt Ideal)) : val6 W (Proc.devRef .tc main_arg2) = W (Proc.devRef .tc main_arg2) :=
  (val6_keep W main_arg2 (by decide)).trans (val5_main_arg2 W)
theorem val7_main_arg2 (W : Valuation τ sig (Elt Ideal)) : val7 W (Proc.devRef .tc main_arg2) = W (Proc.devRef .tc main_arg2) :=
  (val7_keep W main_arg2 (by decide)).trans (val6_main_arg2 W)
theorem val8_main_arg2 (W : Valuation τ sig (Elt Ideal)) : val8 W (Proc.devRef .tc main_arg2) = W (Proc.devRef .tc main_arg2) :=
  (val8_keep W main_arg2 (by decide)).trans (val7_main_arg2 W)
theorem val9_main_arg2 (W : Valuation τ sig (Elt Ideal)) : val9 W (Proc.devRef .tc main_arg2) = W (Proc.devRef .tc main_arg2) :=
  (val9_keep W main_arg2 (by decide)).trans (val8_main_arg2 W)
theorem val0_main_arg3 (W : Valuation τ sig (Elt Ideal)) : val0 W (Proc.devRef .tc main_arg3) = W (Proc.devRef .tc main_arg3) := rfl
theorem val1_main_arg3 (W : Valuation τ sig (Elt Ideal)) : val1 W (Proc.devRef .tc main_arg3) = W (Proc.devRef .tc main_arg3) :=
  (val1_keep W main_arg3 (by decide)).trans (val0_main_arg3 W)
theorem val2_main_arg3 (W : Valuation τ sig (Elt Ideal)) : val2 W (Proc.devRef .tc main_arg3) = W (Proc.devRef .tc main_arg3) :=
  (val2_keep W main_arg3 (by decide)).trans (val1_main_arg3 W)
theorem val3_main_arg3 (W : Valuation τ sig (Elt Ideal)) : val3 W (Proc.devRef .tc main_arg3) = W (Proc.devRef .tc main_arg3) :=
  (val3_keep W main_arg3 (by decide)).trans (val2_main_arg3 W)
theorem val4_main_arg3 (W : Valuation τ sig (Elt Ideal)) : val4 W (Proc.devRef .tc main_arg3) = W (Proc.devRef .tc main_arg3) :=
  (val4_keep W main_arg3 (by decide)).trans (val3_main_arg3 W)
theorem val5_main_arg3 (W : Valuation τ sig (Elt Ideal)) : val5 W (Proc.devRef .tc main_arg3) = W (Proc.devRef .tc main_arg3) :=
  (val5_keep W main_arg3 (by decide)).trans (val4_main_arg3 W)
theorem val6_main_arg3 (W : Valuation τ sig (Elt Ideal)) : val6 W (Proc.devRef .tc main_arg3) = W (Proc.devRef .tc main_arg3) :=
  (val6_keep W main_arg3 (by decide)).trans (val5_main_arg3 W)
theorem val7_main_arg3 (W : Valuation τ sig (Elt Ideal)) : val7 W (Proc.devRef .tc main_arg3) = W (Proc.devRef .tc main_arg3) :=
  (val7_keep W main_arg3 (by decide)).trans (val6_main_arg3 W)
theorem val8_main_arg3 (W : Valuation τ sig (Elt Ideal)) : val8 W (Proc.devRef .tc main_arg3) = W (Proc.devRef .tc main_arg3) :=
  (val8_keep W main_arg3 (by decide)).trans (val7_main_arg3 W)
theorem val9_main_arg3 (W : Valuation τ sig (Elt Ideal)) : val9 W (Proc.devRef .tc main_arg3) = W (Proc.devRef .tc main_arg3) :=
  (val9_keep W main_arg3 (by decide)).trans (val8_main_arg3 W)
theorem val0_main_arg4 (W : Valuation τ sig (Elt Ideal)) : val0 W (Proc.devRef .tc main_arg4) = W (Proc.devRef .tc main_arg4) := rfl
theorem val1_main_arg4 (W : Valuation τ sig (Elt Ideal)) : val1 W (Proc.devRef .tc main_arg4) = W (Proc.devRef .tc main_arg4) :=
  (val1_keep W main_arg4 (by decide)).trans (val0_main_arg4 W)
theorem val2_main_arg4 (W : Valuation τ sig (Elt Ideal)) : val2 W (Proc.devRef .tc main_arg4) = W (Proc.devRef .tc main_arg4) :=
  (val2_keep W main_arg4 (by decide)).trans (val1_main_arg4 W)
theorem val3_main_arg4 (W : Valuation τ sig (Elt Ideal)) : val3 W (Proc.devRef .tc main_arg4) = W (Proc.devRef .tc main_arg4) :=
  (val3_keep W main_arg4 (by decide)).trans (val2_main_arg4 W)
theorem val4_main_arg4 (W : Valuation τ sig (Elt Ideal)) : val4 W (Proc.devRef .tc main_arg4) = W (Proc.devRef .tc main_arg4) :=
  (val4_keep W main_arg4 (by decide)).trans (val3_main_arg4 W)
theorem val5_main_arg4 (W : Valuation τ sig (Elt Ideal)) : val5 W (Proc.devRef .tc main_arg4) = W (Proc.devRef .tc main_arg4) :=
  (val5_keep W main_arg4 (by decide)).trans (val4_main_arg4 W)
theorem val6_main_arg4 (W : Valuation τ sig (Elt Ideal)) : val6 W (Proc.devRef .tc main_arg4) = W (Proc.devRef .tc main_arg4) :=
  (val6_keep W main_arg4 (by decide)).trans (val5_main_arg4 W)
theorem val7_main_arg4 (W : Valuation τ sig (Elt Ideal)) : val7 W (Proc.devRef .tc main_arg4) = W (Proc.devRef .tc main_arg4) :=
  (val7_keep W main_arg4 (by decide)).trans (val6_main_arg4 W)
theorem val8_main_arg4 (W : Valuation τ sig (Elt Ideal)) : val8 W (Proc.devRef .tc main_arg4) = W (Proc.devRef .tc main_arg4) :=
  (val8_keep W main_arg4 (by decide)).trans (val7_main_arg4 W)
theorem val9_main_arg4 (W : Valuation τ sig (Elt Ideal)) : val9 W (Proc.devRef .tc main_arg4) = W (Proc.devRef .tc main_arg4) :=
  (val9_keep W main_arg4 (by decide)).trans (val8_main_arg4 W)
theorem val0_main_arg5 (W : Valuation τ sig (Elt Ideal)) : val0 W (Proc.devRef .tc main_arg5) = W (Proc.devRef .tc main_arg5) := rfl
theorem val1_main_arg5 (W : Valuation τ sig (Elt Ideal)) : val1 W (Proc.devRef .tc main_arg5) = W (Proc.devRef .tc main_arg5) :=
  (val1_keep W main_arg5 (by decide)).trans (val0_main_arg5 W)
theorem val2_main_arg5 (W : Valuation τ sig (Elt Ideal)) : val2 W (Proc.devRef .tc main_arg5) = W (Proc.devRef .tc main_arg5) :=
  (val2_keep W main_arg5 (by decide)).trans (val1_main_arg5 W)
theorem val3_main_arg5 (W : Valuation τ sig (Elt Ideal)) : val3 W (Proc.devRef .tc main_arg5) = W (Proc.devRef .tc main_arg5) :=
  (val3_keep W main_arg5 (by decide)).trans (val2_main_arg5 W)
theorem val4_main_arg5 (W : Valuation τ sig (Elt Ideal)) : val4 W (Proc.devRef .tc main_arg5) = W (Proc.devRef .tc main_arg5) :=
  (val4_keep W main_arg5 (by decide)).trans (val3_main_arg5 W)
theorem val5_main_arg5 (W : Valuation τ sig (Elt Ideal)) : val5 W (Proc.devRef .tc main_arg5) = W (Proc.devRef .tc main_arg5) :=
  (val5_keep W main_arg5 (by decide)).trans (val4_main_arg5 W)
theorem val6_main_arg5 (W : Valuation τ sig (Elt Ideal)) : val6 W (Proc.devRef .tc main_arg5) = W (Proc.devRef .tc main_arg5) :=
  (val6_keep W main_arg5 (by decide)).trans (val5_main_arg5 W)
theorem val7_main_arg5 (W : Valuation τ sig (Elt Ideal)) : val7 W (Proc.devRef .tc main_arg5) = W (Proc.devRef .tc main_arg5) :=
  (val7_keep W main_arg5 (by decide)).trans (val6_main_arg5 W)
theorem val8_main_arg5 (W : Valuation τ sig (Elt Ideal)) : val8 W (Proc.devRef .tc main_arg5) = W (Proc.devRef .tc main_arg5) :=
  (val8_keep W main_arg5 (by decide)).trans (val7_main_arg5 W)
theorem val9_main_arg5 (W : Valuation τ sig (Elt Ideal)) : val9 W (Proc.devRef .tc main_arg5) = W (Proc.devRef .tc main_arg5) :=
  (val9_keep W main_arg5 (by decide)).trans (val8_main_arg5 W)
theorem val0_main_arg6 (W : Valuation τ sig (Elt Ideal)) : val0 W (Proc.devRef .tc main_arg6) = W (Proc.devRef .tc main_arg6) := rfl
theorem val1_main_arg6 (W : Valuation τ sig (Elt Ideal)) : val1 W (Proc.devRef .tc main_arg6) = W (Proc.devRef .tc main_arg6) :=
  (val1_keep W main_arg6 (by decide)).trans (val0_main_arg6 W)
theorem val2_main_arg6 (W : Valuation τ sig (Elt Ideal)) : val2 W (Proc.devRef .tc main_arg6) = W (Proc.devRef .tc main_arg6) :=
  (val2_keep W main_arg6 (by decide)).trans (val1_main_arg6 W)
theorem val3_main_arg6 (W : Valuation τ sig (Elt Ideal)) : val3 W (Proc.devRef .tc main_arg6) = W (Proc.devRef .tc main_arg6) :=
  (val3_keep W main_arg6 (by decide)).trans (val2_main_arg6 W)
theorem val4_main_arg6 (W : Valuation τ sig (Elt Ideal)) : val4 W (Proc.devRef .tc main_arg6) = W (Proc.devRef .tc main_arg6) :=
  (val4_keep W main_arg6 (by decide)).trans (val3_main_arg6 W)
theorem val5_main_arg6 (W : Valuation τ sig (Elt Ideal)) : val5 W (Proc.devRef .tc main_arg6) = W (Proc.devRef .tc main_arg6) :=
  (val5_keep W main_arg6 (by decide)).trans (val4_main_arg6 W)
theorem val6_main_arg6 (W : Valuation τ sig (Elt Ideal)) : val6 W (Proc.devRef .tc main_arg6) = W (Proc.devRef .tc main_arg6) :=
  (val6_keep W main_arg6 (by decide)).trans (val5_main_arg6 W)
theorem val7_main_arg6 (W : Valuation τ sig (Elt Ideal)) : val7 W (Proc.devRef .tc main_arg6) = W (Proc.devRef .tc main_arg6) :=
  (val7_keep W main_arg6 (by decide)).trans (val6_main_arg6 W)
theorem val8_main_arg6 (W : Valuation τ sig (Elt Ideal)) : val8 W (Proc.devRef .tc main_arg6) = W (Proc.devRef .tc main_arg6) :=
  (val8_keep W main_arg6 (by decide)).trans (val7_main_arg6 W)
theorem val9_main_arg6 (W : Valuation τ sig (Elt Ideal)) : val9 W (Proc.devRef .tc main_arg6) = W (Proc.devRef .tc main_arg6) :=
  (val9_keep W main_arg6 (by decide)).trans (val8_main_arg6 W)
theorem val0_main_arg7 (W : Valuation τ sig (Elt Ideal)) : val0 W (Proc.devRef .tc main_arg7) = W (Proc.devRef .tc main_arg7) := rfl
theorem val1_main_arg7 (W : Valuation τ sig (Elt Ideal)) : val1 W (Proc.devRef .tc main_arg7) = W (Proc.devRef .tc main_arg7) :=
  (val1_keep W main_arg7 (by decide)).trans (val0_main_arg7 W)
theorem val2_main_arg7 (W : Valuation τ sig (Elt Ideal)) : val2 W (Proc.devRef .tc main_arg7) = W (Proc.devRef .tc main_arg7) :=
  (val2_keep W main_arg7 (by decide)).trans (val1_main_arg7 W)
theorem val3_main_arg7 (W : Valuation τ sig (Elt Ideal)) : val3 W (Proc.devRef .tc main_arg7) = W (Proc.devRef .tc main_arg7) :=
  (val3_keep W main_arg7 (by decide)).trans (val2_main_arg7 W)
theorem val4_main_arg7 (W : Valuation τ sig (Elt Ideal)) : val4 W (Proc.devRef .tc main_arg7) = W (Proc.devRef .tc main_arg7) :=
  (val4_keep W main_arg7 (by decide)).trans (val3_main_arg7 W)
theorem val5_main_arg7 (W : Valuation τ sig (Elt Ideal)) : val5 W (Proc.devRef .tc main_arg7) = W (Proc.devRef .tc main_arg7) :=
  (val5_keep W main_arg7 (by decide)).trans (val4_main_arg7 W)
theorem val6_main_arg7 (W : Valuation τ sig (Elt Ideal)) : val6 W (Proc.devRef .tc main_arg7) = W (Proc.devRef .tc main_arg7) :=
  (val6_keep W main_arg7 (by decide)).trans (val5_main_arg7 W)
theorem val7_main_arg7 (W : Valuation τ sig (Elt Ideal)) : val7 W (Proc.devRef .tc main_arg7) = W (Proc.devRef .tc main_arg7) :=
  (val7_keep W main_arg7 (by decide)).trans (val6_main_arg7 W)
theorem val8_main_arg7 (W : Valuation τ sig (Elt Ideal)) : val8 W (Proc.devRef .tc main_arg7) = W (Proc.devRef .tc main_arg7) :=
  (val8_keep W main_arg7 (by decide)).trans (val7_main_arg7 W)
theorem val9_main_arg7 (W : Valuation τ sig (Elt Ideal)) : val9 W (Proc.devRef .tc main_arg7) = W (Proc.devRef .tc main_arg7) :=
  (val9_keep W main_arg7 (by decide)).trans (val8_main_arg7 W)
theorem val0_main_arg8 (W : Valuation τ sig (Elt Ideal)) : val0 W (Proc.devRef .tc main_arg8) = W (Proc.devRef .tc main_arg8) := rfl
theorem val1_main_arg8 (W : Valuation τ sig (Elt Ideal)) : val1 W (Proc.devRef .tc main_arg8) = W (Proc.devRef .tc main_arg8) :=
  (val1_keep W main_arg8 (by decide)).trans (val0_main_arg8 W)
theorem val2_main_arg8 (W : Valuation τ sig (Elt Ideal)) : val2 W (Proc.devRef .tc main_arg8) = W (Proc.devRef .tc main_arg8) :=
  (val2_keep W main_arg8 (by decide)).trans (val1_main_arg8 W)
theorem val3_main_arg8 (W : Valuation τ sig (Elt Ideal)) : val3 W (Proc.devRef .tc main_arg8) = W (Proc.devRef .tc main_arg8) :=
  (val3_keep W main_arg8 (by decide)).trans (val2_main_arg8 W)
theorem val4_main_arg8 (W : Valuation τ sig (Elt Ideal)) : val4 W (Proc.devRef .tc main_arg8) = W (Proc.devRef .tc main_arg8) :=
  (val4_keep W main_arg8 (by decide)).trans (val3_main_arg8 W)
theorem val5_main_arg8 (W : Valuation τ sig (Elt Ideal)) : val5 W (Proc.devRef .tc main_arg8) = W (Proc.devRef .tc main_arg8) :=
  (val5_keep W main_arg8 (by decide)).trans (val4_main_arg8 W)
theorem val6_main_arg8 (W : Valuation τ sig (Elt Ideal)) : val6 W (Proc.devRef .tc main_arg8) = W (Proc.devRef .tc main_arg8) :=
  (val6_keep W main_arg8 (by decide)).trans (val5_main_arg8 W)
theorem val7_main_arg8 (W : Valuation τ sig (Elt Ideal)) : val7 W (Proc.devRef .tc main_arg8) = W (Proc.devRef .tc main_arg8) :=
  (val7_keep W main_arg8 (by decide)).trans (val6_main_arg8 W)
theorem val8_main_arg8 (W : Valuation τ sig (Elt Ideal)) : val8 W (Proc.devRef .tc main_arg8) = W (Proc.devRef .tc main_arg8) :=
  (val8_keep W main_arg8 (by decide)).trans (val7_main_arg8 W)
theorem val9_main_arg8 (W : Valuation τ sig (Elt Ideal)) : val9 W (Proc.devRef .tc main_arg8) = W (Proc.devRef .tc main_arg8) :=
  (val9_keep W main_arg8 (by decide)).trans (val8_main_arg8 W)
theorem val0_main_arg9 (W : Valuation τ sig (Elt Ideal)) : val0 W (Proc.devRef .tc main_arg9) = W (Proc.devRef .tc main_arg9) := rfl
theorem val1_main_arg9 (W : Valuation τ sig (Elt Ideal)) : val1 W (Proc.devRef .tc main_arg9) = W (Proc.devRef .tc main_arg9) :=
  (val1_keep W main_arg9 (by decide)).trans (val0_main_arg9 W)
theorem val2_main_arg9 (W : Valuation τ sig (Elt Ideal)) : val2 W (Proc.devRef .tc main_arg9) = W (Proc.devRef .tc main_arg9) :=
  (val2_keep W main_arg9 (by decide)).trans (val1_main_arg9 W)
theorem val3_main_arg9 (W : Valuation τ sig (Elt Ideal)) : val3 W (Proc.devRef .tc main_arg9) = W (Proc.devRef .tc main_arg9) :=
  (val3_keep W main_arg9 (by decide)).trans (val2_main_arg9 W)
theorem val4_main_arg9 (W : Valuation τ sig (Elt Ideal)) : val4 W (Proc.devRef .tc main_arg9) = W (Proc.devRef .tc main_arg9) :=
  (val4_keep W main_arg9 (by decide)).trans (val3_main_arg9 W)
theorem val5_main_arg9 (W : Valuation τ sig (Elt Ideal)) : val5 W (Proc.devRef .tc main_arg9) = W (Proc.devRef .tc main_arg9) :=
  (val5_keep W main_arg9 (by decide)).trans (val4_main_arg9 W)
theorem val6_main_arg9 (W : Valuation τ sig (Elt Ideal)) : val6 W (Proc.devRef .tc main_arg9) = W (Proc.devRef .tc main_arg9) :=
  (val6_keep W main_arg9 (by decide)).trans (val5_main_arg9 W)
theorem val7_main_arg9 (W : Valuation τ sig (Elt Ideal)) : val7 W (Proc.devRef .tc main_arg9) = W (Proc.devRef .tc main_arg9) :=
  (val7_keep W main_arg9 (by decide)).trans (val6_main_arg9 W)
theorem val8_main_arg9 (W : Valuation τ sig (Elt Ideal)) : val8 W (Proc.devRef .tc main_arg9) = W (Proc.devRef .tc main_arg9) :=
  (val8_keep W main_arg9 (by decide)).trans (val7_main_arg9 W)
theorem val9_main_arg9 (W : Valuation τ sig (Elt Ideal)) : val9 W (Proc.devRef .tc main_arg9) = W (Proc.devRef .tc main_arg9) :=
  (val9_keep W main_arg9 (by decide)).trans (val8_main_arg9 W)
theorem val0_main_arg10 (W : Valuation τ sig (Elt Ideal)) : val0 W (Proc.devRef .tc main_arg10) = W (Proc.devRef .tc main_arg10) := rfl
theorem val1_main_arg10 (W : Valuation τ sig (Elt Ideal)) : val1 W (Proc.devRef .tc main_arg10) = W (Proc.devRef .tc main_arg10) :=
  (val1_keep W main_arg10 (by decide)).trans (val0_main_arg10 W)
theorem val2_main_arg10 (W : Valuation τ sig (Elt Ideal)) : val2 W (Proc.devRef .tc main_arg10) = W (Proc.devRef .tc main_arg10) :=
  (val2_keep W main_arg10 (by decide)).trans (val1_main_arg10 W)
theorem val3_main_arg10 (W : Valuation τ sig (Elt Ideal)) : val3 W (Proc.devRef .tc main_arg10) = W (Proc.devRef .tc main_arg10) :=
  (val3_keep W main_arg10 (by decide)).trans (val2_main_arg10 W)
theorem val4_main_arg10 (W : Valuation τ sig (Elt Ideal)) : val4 W (Proc.devRef .tc main_arg10) = W (Proc.devRef .tc main_arg10) :=
  (val4_keep W main_arg10 (by decide)).trans (val3_main_arg10 W)
theorem val5_main_arg10 (W : Valuation τ sig (Elt Ideal)) : val5 W (Proc.devRef .tc main_arg10) = W (Proc.devRef .tc main_arg10) :=
  (val5_keep W main_arg10 (by decide)).trans (val4_main_arg10 W)
theorem val6_main_arg10 (W : Valuation τ sig (Elt Ideal)) : val6 W (Proc.devRef .tc main_arg10) = W (Proc.devRef .tc main_arg10) :=
  (val6_keep W main_arg10 (by decide)).trans (val5_main_arg10 W)
theorem val7_main_arg10 (W : Valuation τ sig (Elt Ideal)) : val7 W (Proc.devRef .tc main_arg10) = W (Proc.devRef .tc main_arg10) :=
  (val7_keep W main_arg10 (by decide)).trans (val6_main_arg10 W)
theorem val8_main_arg10 (W : Valuation τ sig (Elt Ideal)) : val8 W (Proc.devRef .tc main_arg10) = W (Proc.devRef .tc main_arg10) :=
  (val8_keep W main_arg10 (by decide)).trans (val7_main_arg10 W)
theorem val9_main_arg10 (W : Valuation τ sig (Elt Ideal)) : val9 W (Proc.devRef .tc main_arg10) = W (Proc.devRef .tc main_arg10) :=
  (val9_keep W main_arg10 (by decide)).trans (val8_main_arg10 W)
theorem val0_main_arg11 (W : Valuation τ sig (Elt Ideal)) : val0 W (Proc.devRef .tc main_arg11) = W (Proc.devRef .tc main_arg11) := rfl
theorem val1_main_arg11 (W : Valuation τ sig (Elt Ideal)) : val1 W (Proc.devRef .tc main_arg11) = W (Proc.devRef .tc main_arg11) :=
  (val1_keep W main_arg11 (by decide)).trans (val0_main_arg11 W)
theorem val2_main_arg11 (W : Valuation τ sig (Elt Ideal)) : val2 W (Proc.devRef .tc main_arg11) = W (Proc.devRef .tc main_arg11) :=
  (val2_keep W main_arg11 (by decide)).trans (val1_main_arg11 W)
theorem val3_main_arg11 (W : Valuation τ sig (Elt Ideal)) : val3 W (Proc.devRef .tc main_arg11) = W (Proc.devRef .tc main_arg11) :=
  (val3_keep W main_arg11 (by decide)).trans (val2_main_arg11 W)
theorem val4_main_arg11 (W : Valuation τ sig (Elt Ideal)) : val4 W (Proc.devRef .tc main_arg11) = W (Proc.devRef .tc main_arg11) :=
  (val4_keep W main_arg11 (by decide)).trans (val3_main_arg11 W)
theorem val5_main_arg11 (W : Valuation τ sig (Elt Ideal)) : val5 W (Proc.devRef .tc main_arg11) = W (Proc.devRef .tc main_arg11) :=
  (val5_keep W main_arg11 (by decide)).trans (val4_main_arg11 W)
theorem val6_main_arg11 (W : Valuation τ sig (Elt Ideal)) : val6 W (Proc.devRef .tc main_arg11) = W (Proc.devRef .tc main_arg11) :=
  (val6_keep W main_arg11 (by decide)).trans (val5_main_arg11 W)
theorem val7_main_arg11 (W : Valuation τ sig (Elt Ideal)) : val7 W (Proc.devRef .tc main_arg11) = W (Proc.devRef .tc main_arg11) :=
  (val7_keep W main_arg11 (by decide)).trans (val6_main_arg11 W)
theorem val8_main_arg11 (W : Valuation τ sig (Elt Ideal)) : val8 W (Proc.devRef .tc main_arg11) = W (Proc.devRef .tc main_arg11) :=
  (val8_keep W main_arg11 (by decide)).trans (val7_main_arg11 W)
theorem val9_main_arg11 (W : Valuation τ sig (Elt Ideal)) : val9 W (Proc.devRef .tc main_arg11) = W (Proc.devRef .tc main_arg11) :=
  (val9_keep W main_arg11 (by decide)).trans (val8_main_arg11 W)
theorem val0_main_arg12 (W : Valuation τ sig (Elt Ideal)) : val0 W (Proc.devRef .tc main_arg12) = W (Proc.devRef .tc main_arg12) := rfl
theorem val1_main_arg12 (W : Valuation τ sig (Elt Ideal)) : val1 W (Proc.devRef .tc main_arg12) = W (Proc.devRef .tc main_arg12) :=
  (val1_keep W main_arg12 (by decide)).trans (val0_main_arg12 W)
theorem val2_main_arg12 (W : Valuation τ sig (Elt Ideal)) : val2 W (Proc.devRef .tc main_arg12) = W (Proc.devRef .tc main_arg12) :=
  (val2_keep W main_arg12 (by decide)).trans (val1_main_arg12 W)
theorem val3_main_arg12 (W : Valuation τ sig (Elt Ideal)) : val3 W (Proc.devRef .tc main_arg12) = W (Proc.devRef .tc main_arg12) :=
  (val3_keep W main_arg12 (by decide)).trans (val2_main_arg12 W)
theorem val4_main_arg12 (W : Valuation τ sig (Elt Ideal)) : val4 W (Proc.devRef .tc main_arg12) = W (Proc.devRef .tc main_arg12) :=
  (val4_keep W main_arg12 (by decide)).trans (val3_main_arg12 W)
theorem val5_main_arg12 (W : Valuation τ sig (Elt Ideal)) : val5 W (Proc.devRef .tc main_arg12) = W (Proc.devRef .tc main_arg12) :=
  (val5_keep W main_arg12 (by decide)).trans (val4_main_arg12 W)
theorem val6_main_arg12 (W : Valuation τ sig (Elt Ideal)) : val6 W (Proc.devRef .tc main_arg12) = W (Proc.devRef .tc main_arg12) :=
  (val6_keep W main_arg12 (by decide)).trans (val5_main_arg12 W)
theorem val7_main_arg12 (W : Valuation τ sig (Elt Ideal)) : val7 W (Proc.devRef .tc main_arg12) = W (Proc.devRef .tc main_arg12) :=
  (val7_keep W main_arg12 (by decide)).trans (val6_main_arg12 W)
theorem val8_main_arg12 (W : Valuation τ sig (Elt Ideal)) : val8 W (Proc.devRef .tc main_arg12) = W (Proc.devRef .tc main_arg12) :=
  (val8_keep W main_arg12 (by decide)).trans (val7_main_arg12 W)
theorem val9_main_arg12 (W : Valuation τ sig (Elt Ideal)) : val9 W (Proc.devRef .tc main_arg12) = W (Proc.devRef .tc main_arg12) :=
  (val9_keep W main_arg12 (by decide)).trans (val8_main_arg12 W)
theorem val0_main_arg13 (W : Valuation τ sig (Elt Ideal)) : val0 W (Proc.devRef .tc main_arg13) = W (Proc.devRef .tc main_arg13) := rfl
theorem val1_main_arg13 (W : Valuation τ sig (Elt Ideal)) : val1 W (Proc.devRef .tc main_arg13) = W (Proc.devRef .tc main_arg13) :=
  (val1_keep W main_arg13 (by decide)).trans (val0_main_arg13 W)
theorem val2_main_arg13 (W : Valuation τ sig (Elt Ideal)) : val2 W (Proc.devRef .tc main_arg13) = W (Proc.devRef .tc main_arg13) :=
  (val2_keep W main_arg13 (by decide)).trans (val1_main_arg13 W)
theorem val3_main_arg13 (W : Valuation τ sig (Elt Ideal)) : val3 W (Proc.devRef .tc main_arg13) = W (Proc.devRef .tc main_arg13) :=
  (val3_keep W main_arg13 (by decide)).trans (val2_main_arg13 W)
theorem val4_main_arg13 (W : Valuation τ sig (Elt Ideal)) : val4 W (Proc.devRef .tc main_arg13) = W (Proc.devRef .tc main_arg13) :=
  (val4_keep W main_arg13 (by decide)).trans (val3_main_arg13 W)
theorem val5_main_arg13 (W : Valuation τ sig (Elt Ideal)) : val5 W (Proc.devRef .tc main_arg13) = W (Proc.devRef .tc main_arg13) :=
  (val5_keep W main_arg13 (by decide)).trans (val4_main_arg13 W)
theorem val6_main_arg13 (W : Valuation τ sig (Elt Ideal)) : val6 W (Proc.devRef .tc main_arg13) = W (Proc.devRef .tc main_arg13) :=
  (val6_keep W main_arg13 (by decide)).trans (val5_main_arg13 W)
theorem val7_main_arg13 (W : Valuation τ sig (Elt Ideal)) : val7 W (Proc.devRef .tc main_arg13) = W (Proc.devRef .tc main_arg13) :=
  (val7_keep W main_arg13 (by decide)).trans (val6_main_arg13 W)
theorem val8_main_arg13 (W : Valuation τ sig (Elt Ideal)) : val8 W (Proc.devRef .tc main_arg13) = W (Proc.devRef .tc main_arg13) :=
  (val8_keep W main_arg13 (by decide)).trans (val7_main_arg13 W)
theorem val9_main_arg13 (W : Valuation τ sig (Elt Ideal)) : val9 W (Proc.devRef .tc main_arg13) = W (Proc.devRef .tc main_arg13) :=
  (val9_keep W main_arg13 (by decide)).trans (val8_main_arg13 W)
theorem val0_main_arg14 (W : Valuation τ sig (Elt Ideal)) : val0 W (Proc.devRef .tc main_arg14) = W (Proc.devRef .tc main_arg14) := rfl
theorem val1_main_arg14 (W : Valuation τ sig (Elt Ideal)) : val1 W (Proc.devRef .tc main_arg14) = W (Proc.devRef .tc main_arg14) :=
  (val1_keep W main_arg14 (by decide)).trans (val0_main_arg14 W)
theorem val2_main_arg14 (W : Valuation τ sig (Elt Ideal)) : val2 W (Proc.devRef .tc main_arg14) = W (Proc.devRef .tc main_arg14) :=
  (val2_keep W main_arg14 (by decide)).trans (val1_main_arg14 W)
theorem val3_main_arg14 (W : Valuation τ sig (Elt Ideal)) : val3 W (Proc.devRef .tc main_arg14) = W (Proc.devRef .tc main_arg14) :=
  (val3_keep W main_arg14 (by decide)).trans (val2_main_arg14 W)
theorem val4_main_arg14 (W : Valuation τ sig (Elt Ideal)) : val4 W (Proc.devRef .tc main_arg14) = W (Proc.devRef .tc main_arg14) :=
  (val4_keep W main_arg14 (by decide)).trans (val3_main_arg14 W)
theorem val5_main_arg14 (W : Valuation τ sig (Elt Ideal)) : val5 W (Proc.devRef .tc main_arg14) = W (Proc.devRef .tc main_arg14) :=
  (val5_keep W main_arg14 (by decide)).trans (val4_main_arg14 W)
theorem val6_main_arg14 (W : Valuation τ sig (Elt Ideal)) : val6 W (Proc.devRef .tc main_arg14) = W (Proc.devRef .tc main_arg14) :=
  (val6_keep W main_arg14 (by decide)).trans (val5_main_arg14 W)
theorem val7_main_arg14 (W : Valuation τ sig (Elt Ideal)) : val7 W (Proc.devRef .tc main_arg14) = W (Proc.devRef .tc main_arg14) :=
  (val7_keep W main_arg14 (by decide)).trans (val6_main_arg14 W)
theorem val8_main_arg14 (W : Valuation τ sig (Elt Ideal)) : val8 W (Proc.devRef .tc main_arg14) = W (Proc.devRef .tc main_arg14) :=
  (val8_keep W main_arg14 (by decide)).trans (val7_main_arg14 W)
theorem val9_main_arg14 (W : Valuation τ sig (Elt Ideal)) : val9 W (Proc.devRef .tc main_arg14) = W (Proc.devRef .tc main_arg14) :=
  (val9_keep W main_arg14 (by decide)).trans (val8_main_arg14 W)
theorem val0_main_arg15 (W : Valuation τ sig (Elt Ideal)) : val0 W (Proc.devRef .tc main_arg15) = W (Proc.devRef .tc main_arg15) := rfl
theorem val1_main_arg15 (W : Valuation τ sig (Elt Ideal)) : val1 W (Proc.devRef .tc main_arg15) = W (Proc.devRef .tc main_arg15) :=
  (val1_keep W main_arg15 (by decide)).trans (val0_main_arg15 W)
theorem val2_main_arg15 (W : Valuation τ sig (Elt Ideal)) : val2 W (Proc.devRef .tc main_arg15) = W (Proc.devRef .tc main_arg15) :=
  (val2_keep W main_arg15 (by decide)).trans (val1_main_arg15 W)
theorem val3_main_arg15 (W : Valuation τ sig (Elt Ideal)) : val3 W (Proc.devRef .tc main_arg15) = W (Proc.devRef .tc main_arg15) :=
  (val3_keep W main_arg15 (by decide)).trans (val2_main_arg15 W)
theorem val4_main_arg15 (W : Valuation τ sig (Elt Ideal)) : val4 W (Proc.devRef .tc main_arg15) = W (Proc.devRef .tc main_arg15) :=
  (val4_keep W main_arg15 (by decide)).trans (val3_main_arg15 W)
theorem val5_main_arg15 (W : Valuation τ sig (Elt Ideal)) : val5 W (Proc.devRef .tc main_arg15) = W (Proc.devRef .tc main_arg15) :=
  (val5_keep W main_arg15 (by decide)).trans (val4_main_arg15 W)
theorem val6_main_arg15 (W : Valuation τ sig (Elt Ideal)) : val6 W (Proc.devRef .tc main_arg15) = W (Proc.devRef .tc main_arg15) :=
  (val6_keep W main_arg15 (by decide)).trans (val5_main_arg15 W)
theorem val7_main_arg15 (W : Valuation τ sig (Elt Ideal)) : val7 W (Proc.devRef .tc main_arg15) = W (Proc.devRef .tc main_arg15) :=
  (val7_keep W main_arg15 (by decide)).trans (val6_main_arg15 W)
theorem val8_main_arg15 (W : Valuation τ sig (Elt Ideal)) : val8 W (Proc.devRef .tc main_arg15) = W (Proc.devRef .tc main_arg15) :=
  (val8_keep W main_arg15 (by decide)).trans (val7_main_arg15 W)
theorem val9_main_arg15 (W : Valuation τ sig (Elt Ideal)) : val9 W (Proc.devRef .tc main_arg15) = W (Proc.devRef .tc main_arg15) :=
  (val9_keep W main_arg15 (by decide)).trans (val8_main_arg15 W)

end Cert.ReferenceIdeal.Read

end
-- ==== Proof.RefLayer.lean ====
import proofs.«112469_j76776835383759_2_alg».proof.ReferenceIdeal
import proofs.«112469_j76776835383759_2_alg».proof.Proof.LayerSpec
import proofs.«112469_j76776835383759_2_alg».proof.Proof.ParamSpec
import proofs.«112469_j76776835383759_2_alg».proof.Proof.LibMatmul
import Idealize.ShloMosaic.PureOps.Ideal.Laws
import Idealize.ShloMosaic.Lib.ValueIdx
import Idealize.ShloMosaic.Lib.IdealHost
import Idealize.ShloMosaic.Lib.Pipeline.Value
import Idealize.ShloMosaic.Lib.KernelVsHost

noncomputable section

open scoped BigOperators

namespace Cert.ReferenceIdeal.Lay

open Idealize.ShloMosaic Idealize.ShloMosaic.ValueIdx Cert.ReferenceIdeal Cert.ReferenceIdeal.Facts₀

variable [Cert.ReferenceIdeal.Facts]

/-! ## One layer of the reference as a function of whole arrays

The operations of one layer, composed in the program's own order, with the layer's row `o` of every stacked
parameter array cut out by the program's slices; the shared constants (identity `E`, strictly lower mask `T`, its
transpose `T'`) and the layer's coupling mask come in as arrays. -/

section
variable (o : Nat)
  (h2 : S8x512.Slices ![o, 0] S1x512) (h3 : S8x512x512.Slices ![o, 0, 0] S1x512x512)
  (h3w : S8x512x1024.Slices ![o, 0, 0] S1x512x1024) (h2w : S8x1024.Slices ![o, 0] S1x1024)
  (h3v : S8x1024x512.Slices ![o, 0, 0] S1x1024x512)

/-- Row `o` of a stacked [8, 512] parameter as a vector. -/
def row512 (a : FVec Ideal S8x512 .f32) : FVec Ideal S512 .f32 :=
  shapeCast S512 (extractStridedSlice S1x512 ![o, 0] a h2) shapeCasts_S1x512_S512

/-- Row `o` of a stacked [8, 1024] parameter as a vector. -/
def row1024 (a : FVec Ideal S8x1024 .f32) : FVec Ideal S1024 .f32 :=
  shapeCast S1024 (extractStridedSlice S1x1024 ![o, 0] a h2w) shapeCasts_S1x1024_S1024

/-- Matrix `o` of a stacked [8, 512, 512] parameter. -/
def mat512 (a : FVec Ideal S8x512x512 .f32) : FVec Ideal S512x512 .f32 :=
  shapeCast S512x512 (extractStridedSlice S1x512x512 ![o, 0, 0] a h3) shapeCasts_S1x512x512_S512x512

/-- Matrix `o` of a stacked [8, 512, 1024] parameter. -/
def matW (a : FVec Ideal S8x512x1024 .f32) : FVec Ideal S512x1024 .f32 :=
  shapeCast S512x1024 (extractStridedSlice S1x512x1024 ![o, 0, 0] a h3w) shapeCasts_S1x512x1024_S512x1024

/-- Matrix `o` of a stacked [8, 1024, 512] parameter. -/
def matV (a : FVec Ideal S8x1024x512 .f32) : FVec Ideal S1024x512 .f32 :=
  shapeCast S1024x512 (extractStridedSlice S1x1024x512 ![o, 0, 0] a h3v) shapeCasts_S1x1024x512_S1024x512
end

/-- A vector of 512 entries laid along the columns of every row of the batch. -/
def cols512 (v : FVec Ideal S512 .f32) : FVec Ideal S16384x512 .f32 :=
  broadcastInDim S16384x512 ![0, 1] bcast_S1x512_S16384x512_0_1 (broadcastInDim S1x512 ![1] bcast_S512_S1x512_1 v)

/-- A vector of 1024 entries laid along the columns of every row of the batch. -/
def cols1024 (v : FVec Ideal S1024 .f32) : FVec Ideal S16384x1024 .f32 :=
  broadcastInDim S16384x1024 ![0, 1] bcast_S1x1024_S16384x1024_0_1 (broadcastInDim S1x1024 ![1] bcast_S1024_S1x1024_1 v)

/-- The matrix with `d` on its diagonal and the zero word elsewhere, as the program builds it. -/
def diagM (d : FVec Ideal S512 .f32) : FVec Ideal S512x512 .f32 :=
  select (cmpi .eq (addi (iotaInDim S512x512 32 0) (broadcastInDim S512x512 ![] bcast_S_S512x512 (constantI S_ 32 0#32))) (iotaInDim S512x512 32 1))
    (broadcastInDim S512x512 ![0, 1] bcast_S512x1_S512x512_0_1
      (broadcastInDim S512x1 ![0] bcast_S512_S512x1_0
        (pad S512 ![0] ![0] ![0] d (constant (F := Ideal) S_ .f32 0x00000000#32) pads_S512_S512_000 h_S_)))
    (broadcastInDim S512x512 ![] bcast_S_S512x512 (constant (F := Ideal) S_ .f32 0x00000000#32))

/-- The layer's weight, transposed: the transpose of (P · (L ∘ T + E)) · (U ∘ T' + diag (sign · exp logs)). -/
def wT (Pm Lm Um : FVec Ideal S512x512 .f32) (sg lg : FVec Ideal S512 .f32) (E T T' : FVec Ideal S512x512 .f32) :
    FVec Ideal S512x512 .f32 :=
  transpose S512x512 [1, 0]
    (Host.dotGeneral (F := Ideal) dot_S512x512_S512x512_S512x512_1_0_0_1_n_n none
      (Host.dotGeneral (F := Ideal) dot_S512x512_S512x512_S512x512_1_0_0_1_n_n none Pm (addf (mulf Lm T) E))
      (addf (mulf Um T') (diagM (mulf sg (Host.exp (F := Ideal) lg)))))
    transposes_S512x512_S512x512_1_0

/-- The batch after activation normalisation and the linear map. -/
def linB (ls b : FVec Ideal S512 .f32) (wt : FVec Ideal S512x512 .f32) (z : FVec Ideal S16384x512 .f32) :
    FVec Ideal S16384x512 .f32 :=
  Host.dotGeneral (F := Ideal) dot_S16384x512_S512x512_S16384x512_1_0_0_1_n_n none
    (addf (mulf (cols512 (Host.exp (F := Ideal) ls)) z) (cols512 b)) wt

/-- The part that passes through. -/
def keepB (mask : FVec Ideal S512 .f32) (l : FVec Ideal S16384x512 .f32) : FVec Ideal S16384x512 .f32 :=
  mulf (cols512 mask) l

/-- One minus the mask. -/
def inv (mask : FVec Ideal S512 .f32) : FVec Ideal S512 .f32 :=
  subf (broadcastInDim S512 ![] bcast_S_S512 (constant (F := Ideal) S_ .f32 0x3F800000#32)) mask

/-- A coupling network before its nonlinearity. -/
def netB (W1 : FVec Ideal S512x1024 .f32) (b1 : FVec Ideal S1024 .f32) (W2 : FVec Ideal S1024x512 .f32) (b2 : FVec Ideal S512 .f32)
    (z0 : FVec Ideal S16384x512 .f32) : FVec Ideal S16384x512 .f32 :=
  addf
    (Host.dotGeneral (F := Ideal) dot_S16384x1024_S1024x512_S16384x512_1_0_0_1_n_n none
      (maximumf
        (addf (Host.dotGeneral (F := Ideal) dot_S16384x512_S512x1024_S16384x1024_1_0_0_1_n_n none z0 W1) (cols1024 b1))
        (broadcastInDim S16384x1024 ![] bcast_S_S16384x1024 (constant (F := Ideal) S_ .f32 0x00000000#32)))
      W2)
    (cols512 b2)

/-- The coupling's log-scale over the batch. -/
def sB (mask : FVec Ideal S512 .f32) (W1 : FVec Ideal S512x1024 .f32) (b1 : FVec Ideal S1024 .f32) (W2 : FVec Ideal S1024x512 .f32)
    (b2 : FVec Ideal S512 .f32) (z0 : FVec Ideal S16384x512 .f32) : FVec Ideal S16384x512 .f32 :=
  mulf (Host.tanh (F := Ideal) (netB W1 b1 W2 b2 z0)) (cols512 (inv mask))

/-- The coupling's shift over the batch. -/
def tB (mask : FVec Ideal S512 .f32) (V1 : FVec Ideal S512x1024 .f32) (c1 : FVec Ideal S1024 .f32) (V2 : FVec Ideal S1024x512 .f32)
    (c2 : FVec Ideal S512 .f32) (z0 : FVec Ideal S16384x512 .f32) : FVec Ideal S16384x512 .f32 :=
  mulf (netB V1 c1 V2 c2 z0) (cols512 (inv mask))

/-- The batch after the layer. -/
def zB (ls b : FVec Ideal S512 .f32) (wt : FVec Ideal S512x512 .f32) (mask : FVec Ideal S512 .f32)
    (W1 : FVec Ideal S512x1024 .f32) (b1 : FVec Ideal S1024 .f32) (W2 : FVec Ideal S1024x512 .f32) (b2 : FVec Ideal S512 .f32)
    (V1 : FVec Ideal S512x1024 .f32) (c1 : FVec Ideal S1024 .f32) (V2 : FVec Ideal S1024x512 .f32) (c2 : FVec Ideal S512 .f32)
    (z : FVec Ideal S16384x512 .f32) : FVec Ideal S16384x512 .f32 :=
  addf (keepB mask (linB ls b wt z))
    (mulf (cols512 (inv mask))
      (addf (mulf (linB ls b wt z) (Host.exp (F := Ideal) (sB mask W1 b1 W2 b2 (keepB mask (linB ls b wt z)))))
        (tB mask V1 c1 V2 c2 (keepB mask (linB ls b wt z)))))

/-- A vector's sum, spread over the batch. -/
def sumB (v : FVec Ideal S512 .f32) : FVec Ideal S16384 .f32 :=
  broadcastInDim S16384 ![] bcast_S_S16384
    (Host.reduceAdd (F := Ideal) v (constant (F := Ideal) S_ .f32 0x00000000#32) reducesTo_S512_S_d0 h_S_)

/-- The log-determinant after the layer. -/
def ldjB (ls lg : FVec Ideal S512 .f32) (s : FVec Ideal S16384x512 .f32) (ldj : FVec Ideal S16384 .f32) : FVec Ideal S16384 .f32 :=
  addf (addf (addf ldj (sumB ls)) (sumB lg))
    (Host.reduceAdd (F := Ideal) s (constant (F := Ideal) S_ .f32 0x00000000#32) reducesTo_S16384x512_S16384_d1 h_S_)

/-! ## The pieces read at an index -/

section Rows
variable (o : Nat) (ho : o < 8)
  (h2 : S8x512.Slices ![o, 0] S1x512) (h3 : S8x512x512.Slices ![o, 0, 0] S1x512x512)
  (h3w : S8x512x1024.Slices ![o, 0, 0] S1x512x1024) (h2w : S8x1024.Slices ![o, 0] S1x1024)
  (h3v : S8x1024x512.Slices ![o, 0, 0] S1x1024x512)

theorem row512_apply (a : FVec Ideal S8x512 .f32) (k : Fin 512) :
    row512 o h2 a (ix1 k) = a (ix2 (⟨o, ho⟩ : Fin 8) k) := by
  unfold row512
  refine (shapeCast_apply _ shapeCasts_S1x512_S512 (ix1 k) (ix2 (0 : Fin 1) k) ?_).trans ?_
  · rw [Shape.rowMajor_val_two, Shape.rowMajor_val_one]; show 0 * 512 + k.val = k.val; omega
  · exact extractStridedSlice_apply ![o, 0] a h2 (ix2 (0 : Fin 1) k) (ix2 (⟨o, ho⟩ : Fin 8) k) (fun a => match a with
      | ⟨0, _⟩ => by show o = o + 0; omega
      | ⟨1, _⟩ => by show k.val = 0 + k.val; omega)

theorem row1024_apply (a : FVec Ideal S8x1024 .f32) (k : Fin 1024) :
    row1024 o h2w a (ix1 k) = a (ix2 (⟨o, ho⟩ : Fin 8) k) := by
  unfold row1024
  refine (shapeCast_apply _ shapeCasts_S1x1024_S1024 (ix1 k) (ix2 (0 : Fin 1) k) ?_).trans ?_
  · rw [Shape.rowMajor_val_two, Shape.rowMajor_val_one]; show 0 * 1024 + k.val = k.val; omega
  · exact extractStridedSlice_apply ![o, 0] a h2w (ix2 (0 : Fin 1) k) (ix2 (⟨o, ho⟩ : Fin 8) k) (fun a => match a with
      | ⟨0, _⟩ => by show o = o + 0; omega
      | ⟨1, _⟩ => by show k.val = 0 + k.val; omega)

theorem mat512_apply (a : FVec Ideal S8x512x512 .f32) (i j : Fin 512) :
    mat512 o h3 a (ix2 i j) = a (ix3 (⟨o, ho⟩ : Fin 8) i j) := by
  unfold mat512
  refine (shapeCast_apply _ shapeCasts_S1x512x512_S512x512 (ix2 i j) (ix3 (0 : Fin 1) i j) ?_).trans ?_
  · rw [Shape.rowMajor_val_three, Shape.rowMajor_val_two]; show (0 * 512 + i.val) * 512 + j.val = i.val * 512 + j.val; omega
  · exact extractStridedSlice_apply ![o, 0, 0] a h3 (ix3 (0 : Fin 1) i j) (ix3 (⟨o, ho⟩ : Fin 8) i j) (fun a => match a with
      | ⟨0, _⟩ => by show o = o + 0; omega
      | ⟨1, _⟩ => by show i.val = 0 + i.val; omega
      | ⟨2, _⟩ => by show j.val = 0 + j.val; omega)

theorem matW_apply (a : FVec Ideal S8x512x1024 .f32) (i : Fin 512) (j : Fin 1024) :
    matW o h3w a (ix2 i j) = a (ix3 (⟨o, ho⟩ : Fin 8) i j) := by
  unfold matW
  refine (shapeCast_apply _ shapeCasts_S1x512x1024_S512x1024 (ix2 i j) (ix3 (0 : Fin 1) i j) ?_).trans ?_
  · rw [Shape.rowMajor_val_three, Shape.rowMajor_val_two]; show (0 * 512 + i.val) * 1024 + j.val = i.val * 1024 + j.val; omega
  · exact extractStridedSlice_apply ![o, 0, 0] a h3w (ix3 (0 : Fin 1) i j) (ix3 (⟨o, ho⟩ : Fin 8) i j) (fun a => match a with
      | ⟨0, _⟩ => by show o = o + 0; omega
      | ⟨1, _⟩ => by show i.val = 0 + i.val; omega
      | ⟨2, _⟩ => by show j.val = 0 + j.val; omega)

theorem matV_apply (a : FVec Ideal S8x1024x512 .f32) (i : Fin 1024) (j : Fin 512) :
    matV o h3v a (ix2 i j) = a (ix3 (⟨o, ho⟩ : Fin 8) i j) := by
  unfold matV
  refine (shapeCast_apply _ shapeCasts_S1x1024x512_S1024x512 (ix2 i j) (ix3 (0 : Fin 1) i j) ?_).trans ?_
  · rw [Shape.rowMajor_val_three, Shape.rowMajor_val_two]; show (0 * 1024 + i.val) * 512 + j.val = i.val * 512 + j.val; omega
  · exact extractStridedSlice_apply ![o, 0, 0] a h3v (ix3 (0 : Fin 1) i j) (ix3 (⟨o, ho⟩ : Fin 8) i j) (fun a => match a with
      | ⟨0, _⟩ => by show o = o + 0; omega
      | ⟨1, _⟩ => by show i.val = 0 + i.val; omega
      | ⟨2, _⟩ => by show j.val = 0 + j.val; omega)
end Rows

theorem cols512_apply (v : FVec Ideal S512 .f32) (r : Fin 16384) (q : Fin 512) : cols512 v (ix2 r q) = v (ix1 q) := by
  unfold cols512
  refine (broadcastInDim_apply _ bcast_S1x512_S16384x512_0_1 _ (ix2 r q) (ix2 (0 : Fin 1) q) (fun a => match a with
      | ⟨0, _⟩ => by show (0 : Nat) = if (1 : Nat) = 1 then 0 else r.val; rw [if_pos rfl]
      | ⟨1, _⟩ => by show q.val = if (512 : Nat) = 1 then 0 else q.val; rw [if_neg (by decide)])).trans ?_
  exact broadcastInDim_apply _ bcast_S512_S1x512_1 v (ix2 (0 : Fin 1) q) (ix1 q) (fun a => match a with
      | ⟨0, _⟩ => by show q.val = if (512 : Nat) = 1 then 0 else q.val; rw [if_neg (by decide)])

theorem cols1024_apply (v : FVec Ideal S1024 .f32) (r : Fin 16384) (q : Fin 1024) : cols1024 v (ix2 r q) = v (ix1 q) := by
  unfold cols1024
  refine (broadcastInDim_apply _ bcast_S1x1024_S16384x1024_0_1 _ (ix2 r q) (ix2 (0 : Fin 1) q) (fun a => match a with
      | ⟨0, _⟩ => by show (0 : Nat) = if (1 : Nat) = 1 then 0 else r.val; rw [if_pos rfl]
      | ⟨1, _⟩ => by show q.val = if (1024 : Nat) = 1 then 0 else q.val; rw [if_neg (by decide)])).trans ?_
  exact broadcastInDim_apply _ bcast_S1024_S1x1024_1 v (ix2 (0 : Fin 1) q) (ix1 q) (fun a => match a with
      | ⟨0, _⟩ => by show q.val = if (1024 : Nat) = 1 then 0 else q.val; rw [if_neg (by decide)])

theorem inv_apply (mask : FVec Ideal S512 .f32) (q : Fin 512) : inv mask (ix1 q) = Cert.Glow.one - mask (ix1 q) := by
  unfold inv
  rw [subf_apply, broadcastInDim_scalar_apply, constant_apply]
  rfl

/-! ## The products and the coupling networks at an index -/

theorem dotA_apply (l : FVec Ideal S16384x512 .f32) (w : FVec Ideal S512x512 .f32) (r : Fin 16384) (q : Fin 512) :
    Host.dotGeneral (F := Ideal) dot_S16384x512_S512x512_S16384x512_1_0_0_1_n_n none l w (ix2 r q)
      = ∑ k : Fin 512, l (ix2 r k) * w (ix2 k q) :=
  Cert.Bridge.LibMatmul.dotGeneral_apply (M := 16384) (K := 512) (N := 512) none .single l w r q

theorem dotB_apply (l : FVec Ideal S16384x512 .f32) (w : FVec Ideal S512x1024 .f32) (r : Fin 16384) (h : Fin 1024) :
    Host.dotGeneral (F := Ideal) dot_S16384x512_S512x1024_S16384x1024_1_0_0_1_n_n none l w (ix2 r h)
      = ∑ k : Fin 512, l (ix2 r k) * w (ix2 k h) :=
  Cert.Bridge.LibMatmul.dotGeneral_apply (M := 16384) (K := 512) (N := 1024) none .single l w r h

theorem dotC_apply (l : FVec Ideal S16384x1024 .f32) (w : FVec Ideal S1024x512 .f32) (r : Fin 16384) (q : Fin 512) :
    Host.dotGeneral (F := Ideal) dot_S16384x1024_S1024x512_S16384x512_1_0_0_1_n_n none l w (ix2 r q)
      = ∑ h : Fin 1024, l (ix2 r h) * w (ix2 h q) :=
  Cert.Bridge.LibMatmul.dotGeneral_apply (M := 16384) (K := 1024) (N := 512) none .single l w r q

theorem dotD_apply (l w : FVec Ideal S512x512 .f32) (i j : Fin 512) :
    Host.dotGeneral (F := Ideal) dot_S512x512_S512x512_S512x512_1_0_0_1_n_n none l w (ix2 i j)
      = ∑ k : Fin 512, l (ix2 i k) * w (ix2 k j) :=
  Cert.Bridge.LibMatmul.dotGeneral_apply (M := 512) (K := 512) (N := 512) none .single l w i j

/-- The layer's parameters, as the specification takes them, read off the arrays. -/
def paramsB (ls b : FVec Ideal S512 .f32) (wt : FVec Ideal S512x512 .f32) (mask : FVec Ideal S512 .f32)
    (W1 : FVec Ideal S512x1024 .f32) (b1 : FVec Ideal S1024 .f32) (W2 : FVec Ideal S1024x512 .f32) (b2 : FVec Ideal S512 .f32)
    (V1 : FVec Ideal S512x1024 .f32) (c1 : FVec Ideal S1024 .f32) (V2 : FVec Ideal S1024x512 .f32) (c2 : FVec Ideal S512 .f32) :
    Cert.Glow.Params where
  ls k := ls (ix1 k)
  b k := b (ix1 k)
  W k q := wt (ix2 k q)
  mask q := mask (ix1 q)
  W1 k h := W1 (ix2 k h)
  b1 h := b1 (ix1 h)
  W2 h q := W2 (ix2 h q)
  b2 q := b2 (ix1 q)
  V1 k h := V1 (ix2 k h)
  c1 h := c1 (ix1 h)
  V2 h q := V2 (ix2 h q)
  c2 q := c2 (ix1 q)

theorem linB_apply (ls b : FVec Ideal S512 .f32) (wt : FVec Ideal S512x512 .f32) (z : FVec Ideal S16384x512 .f32)
    (r : Fin 16384) (q : Fin 512) :
    linB ls b wt z (ix2 r q)
      = Cert.Glow.lin (fun k => ls (ix1 k)) (fun k => b (ix1 k)) (fun k q => wt (ix2 k q)) (fun k => z (ix2 r k)) q := by
  unfold linB Cert.Glow.lin Cert.Glow.act
  rw [dotA_apply]
  refine Finset.sum_congr rfl fun k _ => ?_
  rw [addf_apply, mulf_apply, cols512_apply, cols512_apply]
  rfl

theorem keepB_apply (mask : FVec Ideal S512 .f32) (l : FVec Ideal S16384x512 .f32) (r : Fin 16384) (q : Fin 512) :
    keepB mask l (ix2 r q) = Cert.Glow.keep (fun q => mask (ix1 q)) (fun q => l (ix2 r q)) q := by
  unfold keepB Cert.Glow.keep
  rw [mulf_apply, cols512_apply]

theorem netB_apply (W1 : FVec Ideal S512x1024 .f32) (b1 : FVec Ideal S1024 .f32) (W2 : FVec Ideal S1024x512 .f32) (b2 : FVec Ideal S512 .f32)
    (z0 : FVec Ideal S16384x512 .f32) (r : Fin 16384) (q : Fin 512) :
    netB W1 b1 W2 b2 z0 (ix2 r q)
      = Cert.Glow.net (fun k h => W1 (ix2 k h)) (fun h => b1 (ix1 h)) (fun h q => W2 (ix2 h q)) (fun q => b2 (ix1 q))
          (fun k => z0 (ix2 r k)) q := by
  unfold netB Cert.Glow.net Cert.Glow.hid
  rw [addf_apply, cols512_apply, dotC_apply]
  refine congrArg (· + b2 (ix1 q)) (Finset.sum_congr rfl fun h _ => ?_)
  rw [maximumf_apply, addf_apply, dotB_apply, cols1024_apply, broadcastInDim_scalar_apply, constant_apply]
  rfl

theorem tanhH_apply {s : Shape} (x : FVec Ideal s .f32) (i : s.Idx) : Host.tanh (F := Ideal) x i = Ideal.tanh (x i) := rfl
theorem expH_apply {s : Shape} (x : FVec Ideal s .f32) (i : s.Idx) : Host.exp (F := Ideal) x i = Ideal.exp (x i) := rfl

theorem sB_apply (mask : FVec Ideal S512 .f32) (W1 : FVec Ideal S512x1024 .f32) (b1 : FVec Ideal S1024 .f32) (W2 : FVec Ideal S1024x512 .f32)
    (b2 : FVec Ideal S512 .f32) (z0 : FVec Ideal S16384x512 .f32) (r : Fin 16384) (q : Fin 512) :
    sB mask W1 b1 W2 b2 z0 (ix2 r q)
      = Cert.Glow.sOf (fun q => mask (ix1 q)) (fun k h => W1 (ix2 k h)) (fun h => b1 (ix1 h)) (fun h q => W2 (ix2 h q)) (fun q => b2 (ix1 q))
          (fun k => z0 (ix2 r k)) q := by
  unfold sB Cert.Glow.sOf
  rw [mulf_apply, cols512_apply, inv_apply, tanhH_apply, netB_apply]

theorem tB_apply (mask : FVec Ideal S512 .f32) (V1 : FVec Ideal S512x1024 .f32) (c1 : FVec Ideal S1024 .f32) (V2 : FVec Ideal S1024x512 .f32)
    (c2 : FVec Ideal S512 .f32) (z0 : FVec Ideal S16384x512 .f32) (r : Fin 16384) (q : Fin 512) :
    tB mask V1 c1 V2 c2 z0 (ix2 r q)
      = Cert.Glow.tOf (fun q => mask (ix1 q)) (fun k h => V1 (ix2 k h)) (fun h => c1 (ix1 h)) (fun h q => V2 (ix2 h q)) (fun q => c2 (ix1 q))
          (fun k => z0 (ix2 r k)) q := by
  unfold tB Cert.Glow.tOf
  rw [mulf_apply, cols512_apply, inv_apply, netB_apply]

section Layer
variable (ls b : FVec Ideal S512 .f32) (wt : FVec Ideal S512x512 .f32) (mask : FVec Ideal S512 .f32)
    (W1 : FVec Ideal S512x1024 .f32) (b1 : FVec Ideal S1024 .f32) (W2 : FVec Ideal S1024x512 .f32) (b2 : FVec Ideal S512 .f32)
    (V1 : FVec Ideal S512x1024 .f32) (c1 : FVec Ideal S1024 .f32) (V2 : FVec Ideal S1024x512 .f32) (c2 : FVec Ideal S512 .f32)
    (z : FVec Ideal S16384x512 .f32)

/-- The part that passes through, at one entry. -/
theorem keep_lin_apply (r : Fin 16384) (k : Fin 512) :
    keepB mask (linB ls b wt z) (ix2 r k)
      = Cert.Glow.keep (paramsB ls b wt mask W1 b1 W2 b2 V1 c1 V2 c2).mask
          (Cert.Glow.lin (paramsB ls b wt mask W1 b1 W2 b2 V1 c1 V2 c2).ls (paramsB ls b wt mask W1 b1 W2 b2 V1 c1 V2 c2).b
            (paramsB ls b wt mask W1 b1 W2 b2 V1 c1 V2 c2).W (fun k => z (ix2 r k))) k := by
  rw [keepB_apply]
  unfold Cert.Glow.keep
  show mask (ix1 k) * linB ls b wt z (ix2 r k) = _
  rw [linB_apply]
  rfl

/-- The part that passes through, as a row of the specification. -/
theorem keep_lin_row (r : Fin 16384) :
    (fun k => keepB mask (linB ls b wt z) (ix2 r k))
      = Cert.Glow.keep (paramsB ls b wt mask W1 b1 W2 b2 V1 c1 V2 c2).mask
          (Cert.Glow.lin (paramsB ls b wt mask W1 b1 W2 b2 V1 c1 V2 c2).ls (paramsB ls b wt mask W1 b1 W2 b2 V1 c1 V2 c2).b
            (paramsB ls b wt mask W1 b1 W2 b2 V1 c1 V2 c2).W (fun k => z (ix2 r k))) :=
  funext fun k => keep_lin_apply ls b wt mask W1 b1 W2 b2 V1 c1 V2 c2 z r k

/-- The coupling's log-scale over the batch is the specification's, row by row. -/
theorem sB_row (r : Fin 16384) (q : Fin 512) :
    sB mask W1 b1 W2 b2 (keepB mask (linB ls b wt z)) (ix2 r q)
      = Cert.Glow.sRow (paramsB ls b wt mask W1 b1 W2 b2 V1 c1 V2 c2) (fun k => z (ix2 r k)) q := by
  rw [sB_apply, keep_lin_row ls b wt mask W1 b1 W2 b2 V1 c1 V2 c2 z r]
  rfl

/-- The batch after the layer is the specification's row after the layer, row by row. -/
theorem zB_apply (r : Fin 16384) (q : Fin 512) :
    zB ls b wt mask W1 b1 W2 b2 V1 c1 V2 c2 z (ix2 r q)
      = Cert.Glow.zNew (paramsB ls b wt mask W1 b1 W2 b2 V1 c1 V2 c2) (fun k => z (ix2 r k)) q := by
  unfold zB Cert.Glow.zNew
  rw [addf_apply, mulf_apply, addf_apply, mulf_apply, expH_apply, cols512_apply, inv_apply, tB_apply,
    sB_row ls b wt mask W1 b1 W2 b2 V1 c1 V2 c2 z r q, keep_lin_row ls b wt mask W1 b1 W2 b2 V1 c1 V2 c2 z r,
    keep_lin_apply ls b wt mask W1 b1 W2 b2 V1 c1 V2 c2 z r q, linB_apply]
  rfl

end Layer

/-! ## The log-determinant and the weight at an index -/

/-- A sum over the indices of a vector is the sum over its one coordinate. -/
theorem sum_idx1 {M : Type*} [AddCommMonoid M] {n : Nat} (f : (⟨1, ![n]⟩ : Shape).Idx → M) :
    ∑ i, f i = ∑ k : Fin n, f (ix1 k) := by
  refine (Fintype.sum_equiv ⟨fun i => i 0, fun k => ix1 k, fun i => (eq_ix1 i).symm, fun _ => rfl⟩ _ _ fun i => ?_)
  exact congrArg f (eq_ix1 i)

theorem sumB_apply (v : FVec Ideal S512 .f32) (r : Fin 16384) :
    sumB v (ix1 r) = Cert.Glow.zero + ∑ k : Fin 512, v (ix1 k) := by
  unfold sumB
  rw [broadcastInDim_scalar_apply, hostReduceAdd_apply]
  refine (Ideal.hostReduceAdd_total reducesTo_S512_S_d0 (fun b => b.elim0) v _ ix0).trans ?_
  refine congrArg₂ (· + ·) rfl ?_
  exact sum_idx1 v

theorem rowsum_apply (s : FVec Ideal S16384x512 .f32) (r : Fin 16384) :
    Host.reduceAdd (F := Ideal) s (constant (F := Ideal) S_ .f32 0x00000000#32) reducesTo_S16384x512_S16384_d1 h_S_ (ix1 r)
      = Cert.Glow.zero + ∑ q : Fin 512, s (ix2 r q) := by
  rw [hostReduceAdd_apply]
  have h : S16384x512.Reduces [1] S16384 := by decide
  refine (Ideal.hostReduceAdd_single reducesTo_S16384x512_S16384_d1 h s _ (ix1 r)).trans ?_
  refine congrArg₂ (· + ·) rfl (Finset.sum_congr rfl fun q _ => congrArg s ?_)
  funext a
  match a with
  | ⟨0, _⟩ => rfl
  | ⟨1, _⟩ => rfl

theorem ldjB_apply (ls lg : FVec Ideal S512 .f32) (s : FVec Ideal S16384x512 .f32) (ldj : FVec Ideal S16384 .f32) (r : Fin 16384) :
    ldjB ls lg s ldj (ix1 r)
      = ldj (ix1 r) + (Cert.Glow.zero + ∑ k : Fin 512, ls (ix1 k)) + (Cert.Glow.zero + ∑ k : Fin 512, lg (ix1 k))
          + (Cert.Glow.zero + ∑ q : Fin 512, s (ix2 r q)) := by
  unfold ldjB
  rw [addf_apply, addf_apply, addf_apply, sumB_apply, sumB_apply, rowsum_apply]

/-- Whether an entry of a 512 × 512 matrix is on the diagonal, as the program computes it: row index equal to column index, as words. -/
def onDiagB : IVec S512x512 1 :=
  cmpi .eq (addi (iotaInDim S512x512 32 0) (broadcastInDim S512x512 ![] bcast_S_S512x512 (constantI S_ 32 0#32))) (iotaInDim S512x512 32 1)

theorem diagM_apply (d : FVec Ideal S512 .f32) (j k : Fin 512) :
    diagM d (ix2 j k) = Scalar.select (onDiagB (ix2 j k)) (d (ix1 j)) Cert.Glow.zero := by
  unfold diagM
  rw [select_apply]
  refine congrArg₂ (Scalar.select (onDiagB (ix2 j k))) ?_ ?_
  · refine (broadcastInDim_apply _ bcast_S512x1_S512x512_0_1 _ (ix2 j k) (ix2 j (0 : Fin 1)) (fun a => match a with
        | ⟨0, _⟩ => by show j.val = if (512 : Nat) = 1 then 0 else j.val; rw [if_neg (by decide)]
        | ⟨1, _⟩ => by show (0 : Nat) = if (1 : Nat) = 1 then 0 else k.val; rw [if_pos rfl])).trans ?_
    refine (broadcastInDim_apply _ bcast_S512_S512x1_0 _ (ix2 j (0 : Fin 1)) (ix1 j) (fun a => match a with
        | ⟨0, _⟩ => by show j.val = if (512 : Nat) = 1 then 0 else j.val; rw [if_neg (by decide)])).trans ?_
    exact pad_apply_of_inside ![0] ![0] ![0] d _ pads_S512_S512_000 h_S_ (ix1 j) (ix1 j) (fun a => match a with
        | ⟨0, _⟩ => by show j.val = 0 + j.val * (0 + 1); omega)
  · rw [broadcastInDim_scalar_apply, constant_apply]; rfl

theorem wT_apply (Pm Lm Um : FVec Ideal S512x512 .f32) (sg lg : FVec Ideal S512 .f32) (E T T' : FVec Ideal S512x512 .f32) (k q : Fin 512) :
    wT Pm Lm Um sg lg E T T' (ix2 k q)
      = Cert.Glow.wOf (fun q i => Pm (ix2 q i)) (fun i j => Lm (ix2 i j)) (fun j k => Um (ix2 j k))
          (Cert.Glow.dOf (fun j => sg (ix1 j)) (fun j => lg (ix1 j)))
          (fun i j => E (ix2 i j)) (fun i j => T (ix2 i j)) (fun j k => T' (ix2 j k)) (fun j k => onDiagB (ix2 j k)) k q := by
  unfold wT Cert.Glow.wOf
  refine (transpose_apply [1, 0] _ transposes_S512x512_S512x512_1_0 (ix2 k q) (ix2 q k) (fun b => match b with
      | ⟨0, _⟩ => rfl
      | ⟨1, _⟩ => rfl)).trans ?_
  rw [dotD_apply]
  refine Finset.sum_congr rfl fun j _ => ?_
  rw [dotD_apply, addf_apply, mulf_apply, diagM_apply]
  refine congrArg₂ (· * ·) (Finset.sum_congr rfl fun i _ => ?_) rfl
  rw [addf_apply, mulf_apply]

end Cert.ReferenceIdeal.Lay

end
-- ==== Proof.RefRead0.lean ====
/- Layer 0 of the reference program read as ONE function of whole arrays: the fold of the layer's operations
   (@main's statements 21…127) over any buffer contents gives, at the layer's new batch and at its new
   log-determinant, the layer function of the stacked parameters' row 0, the shared constants, the coupling mask and
   the batch and log-determinant it started from. Both sides are the same operations composed in the same order. -/
import proofs.«112469_j76776835383759_2_alg».proof.Proof.RefRun
import proofs.«112469_j76776835383759_2_alg».proof.Proof.RefLayer

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

set_option maxRecDepth 65536 in
set_option maxHeartbeats 4000000 in
/-- The layer's new batch. -/
theorem lay_0_z (W : Valuation τ sig (Elt Ideal)) :
    after opsLay0 W (Proc.devRef .tc main_v113)
      = Lay.zB (Lay.row512 0 slices_S8x512_S1x512_0_0 (W (Proc.devRef .tc main_arg1))) (Lay.row512 0 slices_S8x512_S1x512_0_0 (W (Proc.devRef .tc main_arg2)))
          (Lay.wT (Lay.mat512 0 slices_S8x512x512_S1x512x512_0_0_0 (W (Proc.devRef .tc main_arg3))) (Lay.mat512 0 slices_S8x512x512_S1x512x512_0_0_0 (W (Proc.devRef .tc main_arg4))) (Lay.mat512 0 slices_S8x512x512_S1x512x512_0_0_0 (W (Proc.devRef .tc main_arg5))) (Lay.row512 0 slices_S8x512_S1x512_0_0 (W (Proc.devRef .tc main_arg6))) (Lay.row512 0 slices_S8x512_S1x512_0_0 (W (Proc.devRef .tc main_arg7))) (W (Proc.devRef .tc main_v5)) (W (Proc.devRef .tc main_v7)) (W (Proc.devRef .tc main_v8)))
          (W (Proc.devRef .tc main_v13))
          (Lay.matW 0 slices_S8x512x1024_S1x512x1024_0_0_0 (W (Proc.devRef .tc main_arg8))) (Lay.row1024 0 slices_S8x1024_S1x1024_0_0 (W (Proc.devRef .tc main_arg9))) (Lay.matV 0 slices_S8x1024x512_S1x1024x512_0_0_0 (W (Proc.devRef .tc main_arg10))) (Lay.row512 0 slices_S8x512_S1x512_0_0 (W (Proc.devRef .tc main_arg11)))
          (Lay.matW 0 slices_S8x512x1024_S1x512x1024_0_0_0 (W (Proc.devRef .tc main_arg12))) (Lay.row1024 0 slices_S8x1024_S1x1024_0_0 (W (Proc.devRef .tc main_arg13))) (Lay.matV 0 slices_S8x1024x512_S1x1024x512_0_0_0 (W (Proc.devRef .tc main_arg14))) (Lay.row512 0 slices_S8x512_S1x512_0_0 (W (Proc.devRef .tc main_arg15)))
          (W (Proc.devRef .tc main_arg0)) := by
  simp only [opsLay0, pc01, pc02, pc03, after_append]
  after_results_simp
  first | rfl | fail "rfl failed"

set_option maxRecDepth 65536 in
set_option maxHeartbeats 4000000 in
/-- The layer's new log-determinant. -/
theorem lay_0_ldj (W : Valuation τ sig (Elt Ideal)) :
    after opsLay0 W (Proc.devRef .tc main_v115)
      = Lay.ldjB (Lay.row512 0 slices_S8x512_S1x512_0_0 (W (Proc.devRef .tc main_arg1))) (Lay.row512 0 slices_S8x512_S1x512_0_0 (W (Proc.devRef .tc main_arg7)))
          (Lay.sB (W (Proc.devRef .tc main_v13)) (Lay.matW 0 slices_S8x512x1024_S1x512x1024_0_0_0 (W (Proc.devRef .tc main_arg8))) (Lay.row1024 0 slices_S8x1024_S1x1024_0_0 (W (Proc.devRef .tc main_arg9))) (Lay.matV 0 slices_S8x1024x512_S1x1024x512_0_0_0 (W (Proc.devRef .tc main_arg10))) (Lay.row512 0 slices_S8x512_S1x512_0_0 (W (Proc.devRef .tc main_arg11)))
            (Lay.keepB (W (Proc.devRef .tc main_v13)) (Lay.linB (Lay.row512 0 slices_S8x512_S1x512_0_0 (W (Proc.devRef .tc main_arg1))) (Lay.row512 0 slices_S8x512_S1x512_0_0 (W (Proc.devRef .tc main_arg2)))
              (Lay.wT (Lay.mat512 0 slices_S8x512x512_S1x512x512_0_0_0 (W (Proc.devRef .tc main_arg3))) (Lay.mat512 0 slices_S8x512x512_S1x512x512_0_0_0 (W (Proc.devRef .tc main_arg4))) (Lay.mat512 0 slices_S8x512x512_S1x512x512_0_0_0 (W (Proc.devRef .tc main_arg5))) (Lay.row512 0 slices_S8x512_S1x512_0_0 (W (Proc.devRef .tc main_arg6))) (Lay.row512 0 slices_S8x512_S1x512_0_0 (W (Proc.devRef .tc main_arg7))) (W (Proc.devRef .tc main_v5)) (W (Proc.devRef .tc main_v7)) (W (Proc.devRef .tc main_v8)))
              (W (Proc.devRef .tc main_arg0)))))
          (W (Proc.devRef .tc main_v14)) := by
  simp only [opsLay0, pc01, pc02, pc03, after_append]
  after_results_simp
  first | rfl | fail "rfl failed"

end Cert.ReferenceIdeal.Read

end
-- ==== Proof.RefRead1.lean ====
/- Layer 1 of the reference program read as ONE function of whole arrays: the fold of the layer's operations
   (@main's statements 128…237) over any buffer contents gives, at the layer's new batch and at its new
   log-determinant, the layer function of the stacked parameters' row 1, the shared constants, the coupling mask and
   the batch and log-determinant it started from. Both sides are the same operations composed in the same order. -/
import proofs.«112469_j76776835383759_2_alg».proof.Proof.RefRun
import proofs.«112469_j76776835383759_2_alg».proof.Proof.RefLayer

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

set_option maxRecDepth 65536 in
set_option maxHeartbeats 4000000 in
/-- The layer's new batch. -/
theorem lay_1_z (W : Valuation τ sig (Elt Ideal)) :
    after opsLay1 W (Proc.devRef .tc main_v216)
      = Lay.zB (Lay.row512 1 slices_S8x512_S1x512_1_0 (W (Proc.devRef .tc main_arg1))) (Lay.row512 1 slices_S8x512_S1x512_1_0 (W (Proc.devRef .tc main_arg2)))
          (Lay.wT (Lay.mat512 1 slices_S8x512x512_S1x512x512_1_0_0 (W (Proc.devRef .tc main_arg3))) (Lay.mat512 1 slices_S8x512x512_S1x512x512_1_0_0 (W (Proc.devRef .tc main_arg4))) (Lay.mat512 1 slices_S8x512x512_S1x512x512_1_0_0 (W (Proc.devRef .tc main_arg5))) (Lay.row512 1 slices_S8x512_S1x512_1_0 (W (Proc.devRef .tc main_arg6))) (Lay.row512 1 slices_S8x512_S1x512_1_0 (W (Proc.devRef .tc main_arg7))) (W (Proc.devRef .tc main_v5)) (W (Proc.devRef .tc main_v7)) (W (Proc.devRef .tc main_v8)))
          (Lay.inv (W (Proc.devRef .tc main_v13)))
          (Lay.matW 1 slices_S8x512x1024_S1x512x1024_1_0_0 (W (Proc.devRef .tc main_arg8))) (Lay.row1024 1 slices_S8x1024_S1x1024_1_0 (W (Proc.devRef .tc main_arg9))) (Lay.matV 1 slices_S8x1024x512_S1x1024x512_1_0_0 (W (Proc.devRef .tc main_arg10))) (Lay.row512 1 slices_S8x512_S1x512_1_0 (W (Proc.devRef .tc main_arg11)))
          (Lay.matW 1 slices_S8x512x1024_S1x512x1024_1_0_0 (W (Proc.devRef .tc main_arg12))) (Lay.row1024 1 slices_S8x1024_S1x1024_1_0 (W (Proc.devRef .tc main_arg13))) (Lay.matV 1 slices_S8x1024x512_S1x1024x512_1_0_0 (W (Proc.devRef .tc main_arg14))) (Lay.row512 1 slices_S8x512_S1x512_1_0 (W (Proc.devRef .tc main_arg15)))
          (W (Proc.devRef .tc main_v113)) := by
  simp only [opsLay1, pc04, pc05, after_append]
  after_results_simp
  first | rfl | fail "rfl failed"

set_option maxRecDepth 65536 in
set_option maxHeartbeats 4000000 in
/-- The layer's new log-determinant. -/
theorem lay_1_ldj (W : Valuation τ sig (Elt Ideal)) :
    after opsLay1 W (Proc.devRef .tc main_v218)
      = Lay.ldjB (Lay.row512 1 slices_S8x512_S1x512_1_0 (W (Proc.devRef .tc main_arg1))) (Lay.row512 1 slices_S8x512_S1x512_1_0 (W (Proc.devRef .tc main_arg7)))
          (Lay.sB (Lay.inv (W (Proc.devRef .tc main_v13))) (Lay.matW 1 slices_S8x512x1024_S1x512x1024_1_0_0 (W (Proc.devRef .tc main_arg8))) (Lay.row1024 1 slices_S8x1024_S1x1024_1_0 (W (Proc.devRef .tc main_arg9))) (Lay.matV 1 slices_S8x1024x512_S1x1024x512_1_0_0 (W (Proc.devRef .tc main_arg10))) (Lay.row512 1 slices_S8x512_S1x512_1_0 (W (Proc.devRef .tc main_arg11)))
            (Lay.keepB (Lay.inv (W (Proc.devRef .tc main_v13))) (Lay.linB (Lay.row512 1 slices_S8x512_S1x512_1_0 (W (Proc.devRef .tc main_arg1))) (Lay.row512 1 slices_S8x512_S1x512_1_0 (W (Proc.devRef .tc main_arg2)))
              (Lay.wT (Lay.mat512 1 slices_S8x512x512_S1x512x512_1_0_0 (W (Proc.devRef .tc main_arg3))) (Lay.mat512 1 slices_S8x512x512_S1x512x512_1_0_0 (W (Proc.devRef .tc main_arg4))) (Lay.mat512 1 slices_S8x512x512_S1x512x512_1_0_0 (W (Proc.devRef .tc main_arg5))) (Lay.row512 1 slices_S8x512_S1x512_1_0 (W (Proc.devRef .tc main_arg6))) (Lay.row512 1 slices_S8x512_S1x512_1_0 (W (Proc.devRef .tc main_arg7))) (W (Proc.devRef .tc main_v5)) (W (Proc.devRef .tc main_v7)) (W (Proc.devRef .tc main_v8)))
              (W (Proc.devRef .tc main_v113)))))
          (W (Proc.devRef .tc main_v115)) := by
  simp only [opsLay1, pc04, pc05, after_append]
  after_results_simp
  first | rfl | fail "rfl failed"

end Cert.ReferenceIdeal.Read

end
-- ==== Proof.RefRead2.lean ====
/- Layer 2 of the reference program read as ONE function of whole arrays: the fold of the layer's operations
   (@main's statements 238…344) over any buffer contents gives, at the layer's new batch and at its new
   log-determinant, the layer function of the stacked parameters' row 2, the shared constants, the coupling mask and
   the batch and log-determinant it started from. Both sides are the same operations composed in the same order. -/
import proofs.«112469_j76776835383759_2_alg».proof.Proof.RefRun
import proofs.«112469_j76776835383759_2_alg».proof.Proof.RefLayer

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

set_option maxRecDepth 65536 in
set_option maxHeartbeats 4000000 in
/-- The layer's new batch. -/
theorem lay_2_z (W : Valuation τ sig (Elt Ideal)) :
    after opsLay2 W (Proc.devRef .tc main_v317)
      = Lay.zB (Lay.row512 2 slices_S8x512_S1x512_2_0 (W (Proc.devRef .tc main_arg1))) (Lay.row512 2 slices_S8x512_S1x512_2_0 (W (Proc.devRef .tc main_arg2)))
          (Lay.wT (Lay.mat512 2 slices_S8x512x512_S1x512x512_2_0_0 (W (Proc.devRef .tc main_arg3))) (Lay.mat512 2 slices_S8x512x512_S1x512x512_2_0_0 (W (Proc.devRef .tc main_arg4))) (Lay.mat512 2 slices_S8x512x512_S1x512x512_2_0_0 (W (Proc.devRef .tc main_arg5))) (Lay.row512 2 slices_S8x512_S1x512_2_0 (W (Proc.devRef .tc main_arg6))) (Lay.row512 2 slices_S8x512_S1x512_2_0 (W (Proc.devRef .tc main_arg7))) (W (Proc.devRef .tc main_v5)) (W (Proc.devRef .tc main_v7)) (W (Proc.devRef .tc main_v8)))
          (W (Proc.devRef .tc main_v13))
          (Lay.matW 2 slices_S8x512x1024_S1x512x1024_2_0_0 (W (Proc.devRef .tc main_arg8))) (Lay.row1024 2 slices_S8x1024_S1x1024_2_0 (W (Proc.devRef .tc main_arg9))) (Lay.matV 2 slices_S8x1024x512_S1x1024x512_2_0_0 (W (Proc.devRef .tc main_arg10))) (Lay.row512 2 slices_S8x512_S1x512_2_0 (W (Proc.devRef .tc main_arg11)))
          (Lay.matW 2 slices_S8x512x1024_S1x512x1024_2_0_0 (W (Proc.devRef .tc main_arg12))) (Lay.row1024 2 slices_S8x1024_S1x1024_2_0 (W (Proc.devRef .tc main_arg13))) (Lay.matV 2 slices_S8x1024x512_S1x1024x512_2_0_0 (W (Proc.devRef .tc main_arg14))) (Lay.row512 2 slices_S8x512_S1x512_2_0 (W (Proc.devRef .tc main_arg15)))
          (W (Proc.devRef .tc main_v216)) := by
  simp only [opsLay2, pc06, pc07, pc08, after_append]
  after_results_simp
  first | rfl | fail "rfl failed"

set_option maxRecDepth 65536 in
set_option maxHeartbeats 4000000 in
/-- The layer's new log-determinant. -/
theorem lay_2_ldj (W : Valuation τ sig (Elt Ideal)) :
    after opsLay2 W (Proc.devRef .tc main_v319)
      = Lay.ldjB (Lay.row512 2 slices_S8x512_S1x512_2_0 (W (Proc.devRef .tc main_arg1))) (Lay.row512 2 slices_S8x512_S1x512_2_0 (W (Proc.devRef .tc main_arg7)))
          (Lay.sB (W (Proc.devRef .tc main_v13)) (Lay.matW 2 slices_S8x512x1024_S1x512x1024_2_0_0 (W (Proc.devRef .tc main_arg8))) (Lay.row1024 2 slices_S8x1024_S1x1024_2_0 (W (Proc.devRef .tc main_arg9))) (Lay.matV 2 slices_S8x1024x512_S1x1024x512_2_0_0 (W (Proc.devRef .tc main_arg10))) (Lay.row512 2 slices_S8x512_S1x512_2_0 (W (Proc.devRef .tc main_arg11)))
            (Lay.keepB (W (Proc.devRef .tc main_v13)) (Lay.linB (Lay.row512 2 slices_S8x512_S1x512_2_0 (W (Proc.devRef .tc main_arg1))) (Lay.row512 2 slices_S8x512_S1x512_2_0 (W (Proc.devRef .tc main_arg2)))
              (Lay.wT (Lay.mat512 2 slices_S8x512x512_S1x512x512_2_0_0 (W (Proc.devRef .tc main_arg3))) (Lay.mat512 2 slices_S8x512x512_S1x512x512_2_0_0 (W (Proc.devRef .tc main_arg4))) (Lay.mat512 2 slices_S8x512x512_S1x512x512_2_0_0 (W (Proc.devRef .tc main_arg5))) (Lay.row512 2 slices_S8x512_S1x512_2_0 (W (Proc.devRef .tc main_arg6))) (Lay.row512 2 slices_S8x512_S1x512_2_0 (W (Proc.devRef .tc main_arg7))) (W (Proc.devRef .tc main_v5)) (W (Proc.devRef .tc main_v7)) (W (Proc.devRef .tc main_v8)))
              (W (Proc.devRef .tc main_v216)))))
          (W (Proc.devRef .tc main_v218)) := by
  simp only [opsLay2, pc06, pc07, pc08, after_append]
  after_results_simp
  first | rfl | fail "rfl failed"

end Cert.ReferenceIdeal.Read

end
-- ==== Proof.RefRead3.lean ====
/- Layer 3 of the reference program read as ONE function of whole arrays: the fold of the layer's operations
   (@main's statements 345…454) over any buffer contents gives, at the layer's new batch and at its new
   log-determinant, the layer function of the stacked parameters' row 3, the shared constants, the coupling mask and
   the batch and log-determinant it started from. Both sides are the same operations composed in the same order. -/
import proofs.«112469_j76776835383759_2_alg».proof.Proof.RefRun
import proofs.«112469_j76776835383759_2_alg».proof.Proof.RefLayer

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

set_option maxRecDepth 65536 in
set_option maxHeartbeats 4000000 in
/-- The layer's new batch. -/
theorem lay_3_z (W : Valuation τ sig (Elt Ideal)) :
    after opsLay3 W (Proc.devRef .tc main_v420)
      = Lay.zB (Lay.row512 3 slices_S8x512_S1x512_3_0 (W (Proc.devRef .tc main_arg1))) (Lay.row512 3 slices_S8x512_S1x512_3_0 (W (Proc.devRef .tc main_arg2)))
          (Lay.wT (Lay.mat512 3 slices_S8x512x512_S1x512x512_3_0_0 (W (Proc.devRef .tc main_arg3))) (Lay.mat512 3 slices_S8x512x512_S1x512x512_3_0_0 (W (Proc.devRef .tc main_arg4))) (Lay.mat512 3 slices_S8x512x512_S1x512x512_3_0_0 (W (Proc.devRef .tc main_arg5))) (Lay.row512 3 slices_S8x512_S1x512_3_0 (W (Proc.devRef .tc main_arg6))) (Lay.row512 3 slices_S8x512_S1x512_3_0 (W (Proc.devRef .tc main_arg7))) (W (Proc.devRef .tc main_v5)) (W (Proc.devRef .tc main_v7)) (W (Proc.devRef .tc main_v8)))
          (Lay.inv (W (Proc.devRef .tc main_v13)))
          (Lay.matW 3 slices_S8x512x1024_S1x512x1024_3_0_0 (W (Proc.devRef .tc main_arg8))) (Lay.row1024 3 slices_S8x1024_S1x1024_3_0 (W (Proc.devRef .tc main_arg9))) (Lay.matV 3 slices_S8x1024x512_S1x1024x512_3_0_0 (W (Proc.devRef .tc main_arg10))) (Lay.row512 3 slices_S8x512_S1x512_3_0 (W (Proc.devRef .tc main_arg11)))
          (Lay.matW 3 slices_S8x512x1024_S1x512x1024_3_0_0 (W (Proc.devRef .tc main_arg12))) (Lay.row1024 3 slices_S8x1024_S1x1024_3_0 (W (Proc.devRef .tc main_arg13))) (Lay.matV 3 slices_S8x1024x512_S1x1024x512_3_0_0 (W (Proc.devRef .tc main_arg14))) (Lay.row512 3 slices_S8x512_S1x512_3_0 (W (Proc.devRef .tc main_arg15)))
          (W (Proc.devRef .tc main_v317)) := by
  simp only [opsLay3, pc09, pc10, pc11, after_append]
  after_results_simp
  first | rfl | fail "rfl failed"

set_option maxRecDepth 65536 in
set_option maxHeartbeats 4000000 in
/-- The layer's new log-determinant. -/
theorem lay_3_ldj (W : Valuation τ sig (Elt Ideal)) :
    after opsLay3 W (Proc.devRef .tc main_v422)
      = Lay.ldjB (Lay.row512 3 slices_S8x512_S1x512_3_0 (W (Proc.devRef .tc main_arg1))) (Lay.row512 3 slices_S8x512_S1x512_3_0 (W (Proc.devRef .tc main_arg7)))
          (Lay.sB (Lay.inv (W (Proc.devRef .tc main_v13))) (Lay.matW 3 slices_S8x512x1024_S1x512x1024_3_0_0 (W (Proc.devRef .tc main_arg8))) (Lay.row1024 3 slices_S8x1024_S1x1024_3_0 (W (Proc.devRef .tc main_arg9))) (Lay.matV 3 slices_S8x1024x512_S1x1024x512_3_0_0 (W (Proc.devRef .tc main_arg10))) (Lay.row512 3 slices_S8x512_S1x512_3_0 (W (Proc.devRef .tc main_arg11)))
            (Lay.keepB (Lay.inv (W (Proc.devRef .tc main_v13))) (Lay.linB (Lay.row512 3 slices_S8x512_S1x512_3_0 (W (Proc.devRef .tc main_arg1))) (Lay.row512 3 slices_S8x512_S1x512_3_0 (W (Proc.devRef .tc main_arg2)))
              (Lay.wT (Lay.mat512 3 slices_S8x512x512_S1x512x512_3_0_0 (W (Proc.devRef .tc main_arg3))) (Lay.mat512 3 slices_S8x512x512_S1x512x512_3_0_0 (W (Proc.devRef .tc main_arg4))) (Lay.mat512 3 slices_S8x512x512_S1x512x512_3_0_0 (W (Proc.devRef .tc main_arg5))) (Lay.row512 3 slices_S8x512_S1x512_3_0 (W (Proc.devRef .tc main_arg6))) (Lay.row512 3 slices_S8x512_S1x512_3_0 (W (Proc.devRef .tc main_arg7))) (W (Proc.devRef .tc main_v5)) (W (Proc.devRef .tc main_v7)) (W (Proc.devRef .tc main_v8)))
              (W (Proc.devRef .tc main_v317)))))
          (W (Proc.devRef .tc main_v319)) := by
  simp only [opsLay3, pc09, pc10, pc11, after_append]
  after_results_simp
  first | rfl | fail "rfl failed"

end Cert.ReferenceIdeal.Read

end
-- ==== Proof.RefRead4.lean ====
/- Layer 4 of the reference program read as ONE function of whole arrays: the fold of the layer's operations
   (@main's statements 455…561) over any buffer contents gives, at the layer's new batch and at its new
   log-determinant, the layer function of the stacked parameters' row 4, the shared constants, the coupling mask and
   the batch and log-determinant it started from. Both sides are the same operations composed in the same order. -/
import proofs.«112469_j76776835383759_2_alg».proof.Proof.RefRun
import proofs.«112469_j76776835383759_2_alg».proof.Proof.RefLayer

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

set_option maxRecDepth 65536 in
set_option maxHeartbeats 4000000 in
/-- The layer's new batch. -/
theorem lay_4_z (W : Valuation τ sig (Elt Ideal)) :
    after opsLay4 W (Proc.devRef .tc main_v521)
      = Lay.zB (Lay.row512 4 slices_S8x512_S1x512_4_0 (W (Proc.devRef .tc main_arg1))) (Lay.row512 4 slices_S8x512_S1x512_4_0 (W (Proc.devRef .tc main_arg2)))
          (Lay.wT (Lay.mat512 4 slices_S8x512x512_S1x512x512_4_0_0 (W (Proc.devRef .tc main_arg3))) (Lay.mat512 4 slices_S8x512x512_S1x512x512_4_0_0 (W (Proc.devRef .tc main_arg4))) (Lay.mat512 4 slices_S8x512x512_S1x512x512_4_0_0 (W (Proc.devRef .tc main_arg5))) (Lay.row512 4 slices_S8x512_S1x512_4_0 (W (Proc.devRef .tc main_arg6))) (Lay.row512 4 slices_S8x512_S1x512_4_0 (W (Proc.devRef .tc main_arg7))) (W (Proc.devRef .tc main_v5)) (W (Proc.devRef .tc main_v7)) (W (Proc.devRef .tc main_v8)))
          (W (Proc.devRef .tc main_v13))
          (Lay.matW 4 slices_S8x512x1024_S1x512x1024_4_0_0 (W (Proc.devRef .tc main_arg8))) (Lay.row1024 4 slices_S8x1024_S1x1024_4_0 (W (Proc.devRef .tc main_arg9))) (Lay.matV 4 slices_S8x1024x512_S1x1024x512_4_0_0 (W (Proc.devRef .tc main_arg10))) (Lay.row512 4 slices_S8x512_S1x512_4_0 (W (Proc.devRef .tc main_arg11)))
          (Lay.matW 4 slices_S8x512x1024_S1x512x1024_4_0_0 (W (Proc.devRef .tc main_arg12))) (Lay.row1024 4 slices_S8x1024_S1x1024_4_0 (W (Proc.devRef .tc main_arg13))) (Lay.matV 4 slices_S8x1024x512_S1x1024x512_4_0_0 (W (Proc.devRef .tc main_arg14))) (Lay.row512 4 slices_S8x512_S1x512_4_0 (W (Proc.devRef .tc main_arg15)))
          (W (Proc.devRef .tc main_v420)) := by
  simp only [opsLay4, pc12, pc13, pc14, after_append]
  after_results_simp
  first | rfl | fail "rfl failed"

set_option maxRecDepth 65536 in
set_option maxHeartbeats 4000000 in
/-- The layer's new log-determinant. -/
theorem lay_4_ldj (W : Valuation τ sig (Elt Ideal)) :
    after opsLay4 W (Proc.devRef .tc main_v523)
      = Lay.ldjB (Lay.row512 4 slices_S8x512_S1x512_4_0 (W (Proc.devRef .tc main_arg1))) (Lay.row512 4 slices_S8x512_S1x512_4_0 (W (Proc.devRef .tc main_arg7)))
          (Lay.sB (W (Proc.devRef .tc main_v13)) (Lay.matW 4 slices_S8x512x1024_S1x512x1024_4_0_0 (W (Proc.devRef .tc main_arg8))) (Lay.row1024 4 slices_S8x1024_S1x1024_4_0 (W (Proc.devRef .tc main_arg9))) (Lay.matV 4 slices_S8x1024x512_S1x1024x512_4_0_0 (W (Proc.devRef .tc main_arg10))) (Lay.row512 4 slices_S8x512_S1x512_4_0 (W (Proc.devRef .tc main_arg11)))
            (Lay.keepB (W (Proc.devRef .tc main_v13)) (Lay.linB (Lay.row512 4 slices_S8x512_S1x512_4_0 (W (Proc.devRef .tc main_arg1))) (Lay.row512 4 slices_S8x512_S1x512_4_0 (W (Proc.devRef .tc main_arg2)))
              (Lay.wT (Lay.mat512 4 slices_S8x512x512_S1x512x512_4_0_0 (W (Proc.devRef .tc main_arg3))) (Lay.mat512 4 slices_S8x512x512_S1x512x512_4_0_0 (W (Proc.devRef .tc main_arg4))) (Lay.mat512 4 slices_S8x512x512_S1x512x512_4_0_0 (W (Proc.devRef .tc main_arg5))) (Lay.row512 4 slices_S8x512_S1x512_4_0 (W (Proc.devRef .tc main_arg6))) (Lay.row512 4 slices_S8x512_S1x512_4_0 (W (Proc.devRef .tc main_arg7))) (W (Proc.devRef .tc main_v5)) (W (Proc.devRef .tc main_v7)) (W (Proc.devRef .tc main_v8)))
              (W (Proc.devRef .tc main_v420)))))
          (W (Proc.devRef .tc main_v422)) := by
  simp only [opsLay4, pc12, pc13, pc14, after_append]
  after_results_simp
  first | rfl | fail "rfl failed"

end Cert.ReferenceIdeal.Read

end
-- ==== Proof.RefRead5.lean ====
/- Layer 5 of the reference program read as ONE function of whole arrays: the fold of the layer's operations
   (@main's statements 562…671) over any buffer contents gives, at the layer's new batch and at its new
   log-determinant, the layer function of the stacked parameters' row 5, the shared constants, the coupling mask and
   the batch and log-determinant it started from. Both sides are the same operations composed in the same order. -/
import proofs.«112469_j76776835383759_2_alg».proof.Proof.RefRun
import proofs.«112469_j76776835383759_2_alg».proof.Proof.RefLayer

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

set_option maxRecDepth 65536 in
set_option maxHeartbeats 4000000 in
/-- The layer's new batch. -/
theorem lay_5_z (W : Valuation τ sig (Elt Ideal)) :
    after opsLay5 W (Proc.devRef .tc main_v624)
      = Lay.zB (Lay.row512 5 slices_S8x512_S1x512_5_0 (W (Proc.devRef .tc main_arg1))) (Lay.row512 5 slices_S8x512_S1x512_5_0 (W (Proc.devRef .tc main_arg2)))
          (Lay.wT (Lay.mat512 5 slices_S8x512x512_S1x512x512_5_0_0 (W (Proc.devRef .tc main_arg3))) (Lay.mat512 5 slices_S8x512x512_S1x512x512_5_0_0 (W (Proc.devRef .tc main_arg4))) (Lay.mat512 5 slices_S8x512x512_S1x512x512_5_0_0 (W (Proc.devRef .tc main_arg5))) (Lay.row512 5 slices_S8x512_S1x512_5_0 (W (Proc.devRef .tc main_arg6))) (Lay.row512 5 slices_S8x512_S1x512_5_0 (W (Proc.devRef .tc main_arg7))) (W (Proc.devRef .tc main_v5)) (W (Proc.devRef .tc main_v7)) (W (Proc.devRef .tc main_v8)))
          (Lay.inv (W (Proc.devRef .tc main_v13)))
          (Lay.matW 5 slices_S8x512x1024_S1x512x1024_5_0_0 (W (Proc.devRef .tc main_arg8))) (Lay.row1024 5 slices_S8x1024_S1x1024_5_0 (W (Proc.devRef .tc main_arg9))) (Lay.matV 5 slices_S8x1024x512_S1x1024x512_5_0_0 (W (Proc.devRef .tc main_arg10))) (Lay.row512 5 slices_S8x512_S1x512_5_0 (W (Proc.devRef .tc main_arg11)))
          (Lay.matW 5 slices_S8x512x1024_S1x512x1024_5_0_0 (W (Proc.devRef .tc main_arg12))) (Lay.row1024 5 slices_S8x1024_S1x1024_5_0 (W (Proc.devRef .tc main_arg13))) (Lay.matV 5 slices_S8x1024x512_S1x1024x512_5_0_0 (W (Proc.devRef .tc main_arg14))) (Lay.row512 5 slices_S8x512_S1x512_5_0 (W (Proc.devRef .tc main_arg15)))
          (W (Proc.devRef .tc main_v521)) := by
  simp only [opsLay5, pc15, pc16, pc17, after_append]
  after_results_simp
  first | rfl | fail "rfl failed"

set_option maxRecDepth 65536 in
set_option maxHeartbeats 4000000 in
/-- The layer's new log-determinant. -/
theorem lay_5_ldj (W : Valuation τ sig (Elt Ideal)) :
    after opsLay5 W (Proc.devRef .tc main_v626)
      = Lay.ldjB (Lay.row512 5 slices_S8x512_S1x512_5_0 (W (Proc.devRef .tc main_arg1))) (Lay.row512 5 slices_S8x512_S1x512_5_0 (W (Proc.devRef .tc main_arg7)))
          (Lay.sB (Lay.inv (W (Proc.devRef .tc main_v13))) (Lay.matW 5 slices_S8x512x1024_S1x512x1024_5_0_0 (W (Proc.devRef .tc main_arg8))) (Lay.row1024 5 slices_S8x1024_S1x1024_5_0 (W (Proc.devRef .tc main_arg9))) (Lay.matV 5 slices_S8x1024x512_S1x1024x512_5_0_0 (W (Proc.devRef .tc main_arg10))) (Lay.row512 5 slices_S8x512_S1x512_5_0 (W (Proc.devRef .tc main_arg11)))
            (Lay.keepB (Lay.inv (W (Proc.devRef .tc main_v13))) (Lay.linB (Lay.row512 5 slices_S8x512_S1x512_5_0 (W (Proc.devRef .tc main_arg1))) (Lay.row512 5 slices_S8x512_S1x512_5_0 (W (Proc.devRef .tc main_arg2)))
              (Lay.wT (Lay.mat512 5 slices_S8x512x512_S1x512x512_5_0_0 (W (Proc.devRef .tc main_arg3))) (Lay.mat512 5 slices_S8x512x512_S1x512x512_5_0_0 (W (Proc.devRef .tc main_arg4))) (Lay.mat512 5 slices_S8x512x512_S1x512x512_5_0_0 (W (Proc.devRef .tc main_arg5))) (Lay.row512 5 slices_S8x512_S1x512_5_0 (W (Proc.devRef .tc main_arg6))) (Lay.row512 5 slices_S8x512_S1x512_5_0 (W (Proc.devRef .tc main_arg7))) (W (Proc.devRef .tc main_v5)) (W (Proc.devRef .tc main_v7)) (W (Proc.devRef .tc main_v8)))
              (W (Proc.devRef .tc main_v521)))))
          (W (Proc.devRef .tc main_v523)) := by
  simp only [opsLay5, pc15, pc16, pc17, after_append]
  after_results_simp
  first | rfl | fail "rfl failed"

end Cert.ReferenceIdeal.Read

end
-- ==== Proof.RefRead6.lean ====
/- Layer 6 of the reference program read as ONE function of whole arrays: the fold of the layer's operations
   (@main's statements 672…778) over any buffer contents gives, at the layer's new batch and at its new
   log-determinant, the layer function of the stacked parameters' row 6, the shared constants, the coupling mask and
   the batch and log-determinant it started from. Both sides are the same operations composed in the same order. -/
import proofs.«112469_j76776835383759_2_alg».proof.Proof.RefRun
import proofs.«112469_j76776835383759_2_alg».proof.Proof.RefLayer

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

set_option maxRecDepth 65536 in
set_option maxHeartbeats 4000000 in
/-- The layer's new batch. -/
theorem lay_6_z (W : Valuation τ sig (Elt Ideal)) :
    after opsLay6 W (Proc.devRef .tc main_v725)
      = Lay.zB (Lay.row512 6 slices_S8x512_S1x512_6_0 (W (Proc.devRef .tc main_arg1))) (Lay.row512 6 slices_S8x512_S1x512_6_0 (W (Proc.devRef .tc main_arg2)))
          (Lay.wT (Lay.mat512 6 slices_S8x512x512_S1x512x512_6_0_0 (W (Proc.devRef .tc main_arg3))) (Lay.mat512 6 slices_S8x512x512_S1x512x512_6_0_0 (W (Proc.devRef .tc main_arg4))) (Lay.mat512 6 slices_S8x512x512_S1x512x512_6_0_0 (W (Proc.devRef .tc main_arg5))) (Lay.row512 6 slices_S8x512_S1x512_6_0 (W (Proc.devRef .tc main_arg6))) (Lay.row512 6 slices_S8x512_S1x512_6_0 (W (Proc.devRef .tc main_arg7))) (W (Proc.devRef .tc main_v5)) (W (Proc.devRef .tc main_v7)) (W (Proc.devRef .tc main_v8)))
          (W (Proc.devRef .tc main_v13))
          (Lay.matW 6 slices_S8x512x1024_S1x512x1024_6_0_0 (W (Proc.devRef .tc main_arg8))) (Lay.row1024 6 slices_S8x1024_S1x1024_6_0 (W (Proc.devRef .tc main_arg9))) (Lay.matV 6 slices_S8x1024x512_S1x1024x512_6_0_0 (W (Proc.devRef .tc main_arg10))) (Lay.row512 6 slices_S8x512_S1x512_6_0 (W (Proc.devRef .tc main_arg11)))
          (Lay.matW 6 slices_S8x512x1024_S1x512x1024_6_0_0 (W (Proc.devRef .tc main_arg12))) (Lay.row1024 6 slices_S8x1024_S1x1024_6_0 (W (Proc.devRef .tc main_arg13))) (Lay.matV 6 slices_S8x1024x512_S1x1024x512_6_0_0 (W (Proc.devRef .tc main_arg14))) (Lay.row512 6 slices_S8x512_S1x512_6_0 (W (Proc.devRef .tc main_arg15)))
          (W (Proc.devRef .tc main_v624)) := by
  simp only [opsLay6, pc18, pc19, after_append]
  after_results_simp
  first | rfl | fail "rfl failed"

set_option maxRecDepth 65536 in
set_option maxHeartbeats 4000000 in
/-- The layer's new log-determinant. -/
theorem lay_6_ldj (W : Valuation τ sig (Elt Ideal)) :
    after opsLay6 W (Proc.devRef .tc main_v727)
      = Lay.ldjB (Lay.row512 6 slices_S8x512_S1x512_6_0 (W (Proc.devRef .tc main_arg1))) (Lay.row512 6 slices_S8x512_S1x512_6_0 (W (Proc.devRef .tc main_arg7)))
          (Lay.sB (W (Proc.devRef .tc main_v13)) (Lay.matW 6 slices_S8x512x1024_S1x512x1024_6_0_0 (W (Proc.devRef .tc main_arg8))) (Lay.row1024 6 slices_S8x1024_S1x1024_6_0 (W (Proc.devRef .tc main_arg9))) (Lay.matV 6 slices_S8x1024x512_S1x1024x512_6_0_0 (W (Proc.devRef .tc main_arg10))) (Lay.row512 6 slices_S8x512_S1x512_6_0 (W (Proc.devRef .tc main_arg11)))
            (Lay.keepB (W (Proc.devRef .tc main_v13)) (Lay.linB (Lay.row512 6 slices_S8x512_S1x512_6_0 (W (Proc.devRef .tc main_arg1))) (Lay.row512 6 slices_S8x512_S1x512_6_0 (W (Proc.devRef .tc main_arg2)))
              (Lay.wT (Lay.mat512 6 slices_S8x512x512_S1x512x512_6_0_0 (W (Proc.devRef .tc main_arg3))) (Lay.mat512 6 slices_S8x512x512_S1x512x512_6_0_0 (W (Proc.devRef .tc main_arg4))) (Lay.mat512 6 slices_S8x512x512_S1x512x512_6_0_0 (W (Proc.devRef .tc main_arg5))) (Lay.row512 6 slices_S8x512_S1x512_6_0 (W (Proc.devRef .tc main_arg6))) (Lay.row512 6 slices_S8x512_S1x512_6_0 (W (Proc.devRef .tc main_arg7))) (W (Proc.devRef .tc main_v5)) (W (Proc.devRef .tc main_v7)) (W (Proc.devRef .tc main_v8)))
              (W (Proc.devRef .tc main_v624)))))
          (W (Proc.devRef .tc main_v626)) := by
  simp only [opsLay6, pc18, pc19, after_append]
  after_results_simp
  first | rfl | fail "rfl failed"

end Cert.ReferenceIdeal.Read

end
-- ==== Proof.RefRead7.lean ====
/- Layer 7 of the reference program read as ONE function of whole arrays: the fold of the layer's operations
   (@main's statements 779…888) over any buffer contents gives, at the layer's new batch and at its new
   log-determinant, the layer function of the stacked parameters' row 7, the shared constants, the coupling mask and
   the batch and log-determinant it started from. Both sides are the same operations composed in the same order. -/
import proofs.«112469_j76776835383759_2_alg».proof.Proof.RefRun
import proofs.«112469_j76776835383759_2_alg».proof.Proof.RefLayer

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

set_option maxRecDepth 65536 in
set_option maxHeartbeats 4000000 in
/-- The layer's new batch. -/
theorem lay_7_z (W : Valuation τ sig (Elt Ideal)) :
    after opsLay7 W (Proc.devRef .tc main_v828)
      = Lay.zB (Lay.row512 7 slices_S8x512_S1x512_7_0 (W (Proc.devRef .tc main_arg1))) (Lay.row512 7 slices_S8x512_S1x512_7_0 (W (Proc.devRef .tc main_arg2)))
          (Lay.wT (Lay.mat512 7 slices_S8x512x512_S1x512x512_7_0_0 (W (Proc.devRef .tc main_arg3))) (Lay.mat512 7 slices_S8x512x512_S1x512x512_7_0_0 (W (Proc.devRef .tc main_arg4))) (Lay.mat512 7 slices_S8x512x512_S1x512x512_7_0_0 (W (Proc.devRef .tc main_arg5))) (Lay.row512 7 slices_S8x512_S1x512_7_0 (W (Proc.devRef .tc main_arg6))) (Lay.row512 7 slices_S8x512_S1x512_7_0 (W (Proc.devRef .tc main_arg7))) (W (Proc.devRef .tc main_v5)) (W (Proc.devRef .tc main_v7)) (W (Proc.devRef .tc main_v8)))
          (Lay.inv (W (Proc.devRef .tc main_v13)))
          (Lay.matW 7 slices_S8x512x1024_S1x512x1024_7_0_0 (W (Proc.devRef .tc main_arg8))) (Lay.row1024 7 slices_S8x1024_S1x1024_7_0 (W (Proc.devRef .tc main_arg9))) (Lay.matV 7 slices_S8x1024x512_S1x1024x512_7_0_0 (W (Proc.devRef .tc main_arg10))) (Lay.row512 7 slices_S8x512_S1x512_7_0 (W (Proc.devRef .tc main_arg11)))
          (Lay.matW 7 slices_S8x512x1024_S1x512x1024_7_0_0 (W (Proc.devRef .tc main_arg12))) (Lay.row1024 7 slices_S8x1024_S1x1024_7_0 (W (Proc.devRef .tc main_arg13))) (Lay.matV 7 slices_S8x1024x512_S1x1024x512_7_0_0 (W (Proc.devRef .tc main_arg14))) (Lay.row512 7 slices_S8x512_S1x512_7_0 (W (Proc.devRef .tc main_arg15)))
          (W (Proc.devRef .tc main_v725)) := by
  simp only [opsLay7, pc20, pc21, pc22, after_append]
  after_results_simp
  first | rfl | fail "rfl failed"

set_option maxRecDepth 65536 in
set_option maxHeartbeats 4000000 in
/-- The layer's new log-determinant. -/
theorem lay_7_ldj (W : Valuation τ sig (Elt Ideal)) :
    after opsLay7 W (Proc.devRef .tc main_v830)
      = Lay.ldjB (Lay.row512 7 slices_S8x512_S1x512_7_0 (W (Proc.devRef .tc main_arg1))) (Lay.row512 7 slices_S8x512_S1x512_7_0 (W (Proc.devRef .tc main_arg7)))
          (Lay.sB (Lay.inv (W (Proc.devRef .tc main_v13))) (Lay.matW 7 slices_S8x512x1024_S1x512x1024_7_0_0 (W (Proc.devRef .tc main_arg8))) (Lay.row1024 7 slices_S8x1024_S1x1024_7_0 (W (Proc.devRef .tc main_arg9))) (Lay.matV 7 slices_S8x1024x512_S1x1024x512_7_0_0 (W (Proc.devRef .tc main_arg10))) (Lay.row512 7 slices_S8x512_S1x512_7_0 (W (Proc.devRef .tc main_arg11)))
            (Lay.keepB (Lay.inv (W (Proc.devRef .tc main_v13))) (Lay.linB (Lay.row512 7 slices_S8x512_S1x512_7_0 (W (Proc.devRef .tc main_arg1))) (Lay.row512 7 slices_S8x512_S1x512_7_0 (W (Proc.devRef .tc main_arg2)))
              (Lay.wT (Lay.mat512 7 slices_S8x512x512_S1x512x512_7_0_0 (W (Proc.devRef .tc main_arg3))) (Lay.mat512 7 slices_S8x512x512_S1x512x512_7_0_0 (W (Proc.devRef .tc main_arg4))) (Lay.mat512 7 slices_S8x512x512_S1x512x512_7_0_0 (W (Proc.devRef .tc main_arg5))) (Lay.row512 7 slices_S8x512_S1x512_7_0 (W (Proc.devRef .tc main_arg6))) (Lay.row512 7 slices_S8x512_S1x512_7_0 (W (Proc.devRef .tc main_arg7))) (W (Proc.devRef .tc main_v5)) (W (Proc.devRef .tc main_v7)) (W (Proc.devRef .tc main_v8)))
              (W (Proc.devRef .tc main_v725)))))
          (W (Proc.devRef .tc main_v727)) := by
  simp only [opsLay7, pc20, pc21, pc22, after_append]
  after_results_simp
  first | rfl | fail "rfl failed"

end Cert.ReferenceIdeal.Read

end
-- ==== Proof.RefRead.lean ====
/- The reference program read LAYER BY LAYER: after the shared constants and l + 1 layers, the batch and the
   log-determinant are the layer function of the stacked parameters' row l (read off the launch contents: no
   operation writes an argument), the shared constants (closed terms) and the batch and log-determinant after
   l layers. -/
import proofs.«112469_j76776835383759_2_alg».proof.Proof.RefReadC
import proofs.«112469_j76776835383759_2_alg».proof.Proof.RefRead0
import proofs.«112469_j76776835383759_2_alg».proof.Proof.RefRead1
import proofs.«112469_j76776835383759_2_alg».proof.Proof.RefRead2
import proofs.«112469_j76776835383759_2_alg».proof.Proof.RefRead3
import proofs.«112469_j76776835383759_2_alg».proof.Proof.RefRead4
import proofs.«112469_j76776835383759_2_alg».proof.Proof.RefRead5
import proofs.«112469_j76776835383759_2_alg».proof.Proof.RefRead6
import proofs.«112469_j76776835383759_2_alg».proof.Proof.RefRead7

noncomputable section

namespace Cert.ReferenceIdeal.Read

open Cert.ReferenceIdeal Cert.ReferenceIdeal.Gen Cert.ReferenceIdeal.RunHand Idealize.ShloMosaic Idealize.ShloMosaic.TcCoe Idealize.SL.Sem Idealize.ShloMosaic.StableHlo

/-- Layer 0: the batch after it, from the batch before it, the stacked parameters' row 0 and the shared constants. -/
theorem step_0_z (W0 : Valuation τ sig (Elt Ideal)) :
    val2 W0 (Proc.devRef .tc main_v113)
      = Lay.zB (Lay.row512 0 slices_S8x512_S1x512_0_0 (W0 (Proc.devRef .tc main_arg1))) (Lay.row512 0 slices_S8x512_S1x512_0_0 (W0 (Proc.devRef .tc main_arg2)))
          (Lay.wT (Lay.mat512 0 slices_S8x512x512_S1x512x512_0_0_0 (W0 (Proc.devRef .tc main_arg3))) (Lay.mat512 0 slices_S8x512x512_S1x512x512_0_0_0 (W0 (Proc.devRef .tc main_arg4))) (Lay.mat512 0 slices_S8x512x512_S1x512x512_0_0_0 (W0 (Proc.devRef .tc main_arg5))) (Lay.row512 0 slices_S8x512_S1x512_0_0 (W0 (Proc.devRef .tc main_arg6))) (Lay.row512 0 slices_S8x512_S1x512_0_0 (W0 (Proc.devRef .tc main_arg7))) eyeR trilR trilTR)
          baseR
          (Lay.matW 0 slices_S8x512x1024_S1x512x1024_0_0_0 (W0 (Proc.devRef .tc main_arg8))) (Lay.row1024 0 slices_S8x1024_S1x1024_0_0 (W0 (Proc.devRef .tc main_arg9))) (Lay.matV 0 slices_S8x1024x512_S1x1024x512_0_0_0 (W0 (Proc.devRef .tc main_arg10))) (Lay.row512 0 slices_S8x512_S1x512_0_0 (W0 (Proc.devRef .tc main_arg11)))
          (Lay.matW 0 slices_S8x512x1024_S1x512x1024_0_0_0 (W0 (Proc.devRef .tc main_arg12))) (Lay.row1024 0 slices_S8x1024_S1x1024_0_0 (W0 (Proc.devRef .tc main_arg13))) (Lay.matV 0 slices_S8x1024x512_S1x1024x512_0_0_0 (W0 (Proc.devRef .tc main_arg14))) (Lay.row512 0 slices_S8x512_S1x512_0_0 (W0 (Proc.devRef .tc main_arg15)))
          (W0 (Proc.devRef .tc main_arg0)) := by
  rw [show val2 W0 = after opsLay0 (val1 W0) from rfl, lay_0_z,
    val1_main_arg0, val1_main_arg1, val1_main_arg2, val1_main_arg3, val1_main_arg4, val1_main_arg5, val1_main_arg6, val1_main_arg7, val1_main_arg8, val1_main_arg9, val1_main_arg10, val1_main_arg11, val1_main_arg12, val1_main_arg13, val1_main_arg14, val1_main_arg15, val1_main_v5, val1_main_v7, val1_main_v8, val1_main_v13]

/-- Layer 0: the log-determinant after it, from the one before it and the layer's log-scale over the batch. -/
theorem step_0_ldj (W0 : Valuation τ sig (Elt Ideal)) :
    val2 W0 (Proc.devRef .tc main_v115)
      = Lay.ldjB (Lay.row512 0 slices_S8x512_S1x512_0_0 (W0 (Proc.devRef .tc main_arg1))) (Lay.row512 0 slices_S8x512_S1x512_0_0 (W0 (Proc.devRef .tc main_arg7)))
          (Lay.sB baseR (Lay.matW 0 slices_S8x512x1024_S1x512x1024_0_0_0 (W0 (Proc.devRef .tc main_arg8))) (Lay.row1024 0 slices_S8x1024_S1x1024_0_0 (W0 (Proc.devRef .tc main_arg9))) (Lay.matV 0 slices_S8x1024x512_S1x1024x512_0_0_0 (W0 (Proc.devRef .tc main_arg10))) (Lay.row512 0 slices_S8x512_S1x512_0_0 (W0 (Proc.devRef .tc main_arg11)))
            (Lay.keepB baseR (Lay.linB (Lay.row512 0 slices_S8x512_S1x512_0_0 (W0 (Proc.devRef .tc main_arg1))) (Lay.row512 0 slices_S8x512_S1x512_0_0 (W0 (Proc.devRef .tc main_arg2)))
              (Lay.wT (Lay.mat512 0 slices_S8x512x512_S1x512x512_0_0_0 (W0 (Proc.devRef .tc main_arg3))) (Lay.mat512 0 slices_S8x512x512_S1x512x512_0_0_0 (W0 (Proc.devRef .tc main_arg4))) (Lay.mat512 0 slices_S8x512x512_S1x512x512_0_0_0 (W0 (Proc.devRef .tc main_arg5))) (Lay.row512 0 slices_S8x512_S1x512_0_0 (W0 (Proc.devRef .tc main_arg6))) (Lay.row512 0 slices_S8x512_S1x512_0_0 (W0 (Proc.devRef .tc main_arg7))) eyeR trilR trilTR)
              (W0 (Proc.devRef .tc main_arg0)))))
          (val1 W0 (Proc.devRef .tc main_v14)) := by
  rw [show val2 W0 = after opsLay0 (val1 W0) from rfl, lay_0_ldj,
    val1_main_arg0, val1_main_arg1, val1_main_arg2, val1_main_arg3, val1_main_arg4, val1_main_arg5, val1_main_arg6, val1_main_arg7, val1_main_arg8, val1_main_arg9, val1_main_arg10, val1_main_arg11, val1_main_v5, val1_main_v7, val1_main_v8, val1_main_v13]

/-- Layer 1: the batch after it, from the batch before it, the stacked parameters' row 1 and the shared constants. -/
theorem step_1_z (W0 : Valuation τ sig (Elt Ideal)) :
    val3 W0 (Proc.devRef .tc main_v216)
      = Lay.zB (Lay.row512 1 slices_S8x512_S1x512_1_0 (W0 (Proc.devRef .tc main_arg1))) (Lay.row512 1 slices_S8x512_S1x512_1_0 (W0 (Proc.devRef .tc main_arg2)))
          (Lay.wT (Lay.mat512 1 slices_S8x512x512_S1x512x512_1_0_0 (W0 (Proc.devRef .tc main_arg3))) (Lay.mat512 1 slices_S8x512x512_S1x512x512_1_0_0 (W0 (Proc.devRef .tc main_arg4))) (Lay.mat512 1 slices_S8x512x512_S1x512x512_1_0_0 (W0 (Proc.devRef .tc main_arg5))) (Lay.row512 1 slices_S8x512_S1x512_1_0 (W0 (Proc.devRef .tc main_arg6))) (Lay.row512 1 slices_S8x512_S1x512_1_0 (W0 (Proc.devRef .tc main_arg7))) eyeR trilR trilTR)
          (Lay.inv baseR)
          (Lay.matW 1 slices_S8x512x1024_S1x512x1024_1_0_0 (W0 (Proc.devRef .tc main_arg8))) (Lay.row1024 1 slices_S8x1024_S1x1024_1_0 (W0 (Proc.devRef .tc main_arg9))) (Lay.matV 1 slices_S8x1024x512_S1x1024x512_1_0_0 (W0 (Proc.devRef .tc main_arg10))) (Lay.row512 1 slices_S8x512_S1x512_1_0 (W0 (Proc.devRef .tc main_arg11)))
          (Lay.matW 1 slices_S8x512x1024_S1x512x1024_1_0_0 (W0 (Proc.devRef .tc main_arg12))) (Lay.row1024 1 slices_S8x1024_S1x1024_1_0 (W0 (Proc.devRef .tc main_arg13))) (Lay.matV 1 slices_S8x1024x512_S1x1024x512_1_0_0 (W0 (Proc.devRef .tc main_arg14))) (Lay.row512 1 slices_S8x512_S1x512_1_0 (W0 (Proc.devRef .tc main_arg15)))
          (val2 W0 (Proc.devRef .tc main_v113)) := by
  rw [show val3 W0 = after opsLay1 (val2 W0) from rfl, lay_1_z,
    val2_main_arg1, val2_main_arg2, val2_main_arg3, val2_main_arg4, val2_main_arg5, val2_main_arg6, val2_main_arg7, val2_main_arg8, val2_main_arg9, val2_main_arg10, val2_main_arg11, val2_main_arg12, val2_main_arg13, val2_main_arg14, val2_main_arg15, val2_main_v5, val2_main_v7, val2_main_v8, val2_main_v13]

/-- Layer 1: the log-determinant after it, from the one before it and the layer's log-scale over the batch. -/
theorem step_1_ldj (W0 : Valuation τ sig (Elt Ideal)) :
    val3 W0 (Proc.devRef .tc main_v218)
      = Lay.ldjB (Lay.row512 1 slices_S8x512_S1x512_1_0 (W0 (Proc.devRef .tc main_arg1))) (Lay.row512 1 slices_S8x512_S1x512_1_0 (W0 (Proc.devRef .tc main_arg7)))
          (Lay.sB (Lay.inv baseR) (Lay.matW 1 slices_S8x512x1024_S1x512x1024_1_0_0 (W0 (Proc.devRef .tc main_arg8))) (Lay.row1024 1 slices_S8x1024_S1x1024_1_0 (W0 (Proc.devRef .tc main_arg9))) (Lay.matV 1 slices_S8x1024x512_S1x1024x512_1_0_0 (W0 (Proc.devRef .tc main_arg10))) (Lay.row512 1 slices_S8x512_S1x512_1_0 (W0 (Proc.devRef .tc main_arg11)))
            (Lay.keepB (Lay.inv baseR) (Lay.linB (Lay.row512 1 slices_S8x512_S1x512_1_0 (W0 (Proc.devRef .tc main_arg1))) (Lay.row512 1 slices_S8x512_S1x512_1_0 (W0 (Proc.devRef .tc main_arg2)))
              (Lay.wT (Lay.mat512 1 slices_S8x512x512_S1x512x512_1_0_0 (W0 (Proc.devRef .tc main_arg3))) (Lay.mat512 1 slices_S8x512x512_S1x512x512_1_0_0 (W0 (Proc.devRef .tc main_arg4))) (Lay.mat512 1 slices_S8x512x512_S1x512x512_1_0_0 (W0 (Proc.devRef .tc main_arg5))) (Lay.row512 1 slices_S8x512_S1x512_1_0 (W0 (Proc.devRef .tc main_arg6))) (Lay.row512 1 slices_S8x512_S1x512_1_0 (W0 (Proc.devRef .tc main_arg7))) eyeR trilR trilTR)
              (val2 W0 (Proc.devRef .tc main_v113)))))
          (val2 W0 (Proc.devRef .tc main_v115)) := by
  rw [show val3 W0 = after opsLay1 (val2 W0) from rfl, lay_1_ldj,
    val2_main_arg1, val2_main_arg2, val2_main_arg3, val2_main_arg4, val2_main_arg5, val2_main_arg6, val2_main_arg7, val2_main_arg8, val2_main_arg9, val2_main_arg10, val2_main_arg11, val2_main_v5, val2_main_v7, val2_main_v8, val2_main_v13]

/-- Layer 2: the batch after it, from the batch before it, the stacked parameters' row 2 and the shared constants. -/
theorem step_2_z (W0 : Valuation τ sig (Elt Ideal)) :
    val4 W0 (Proc.devRef .tc main_v317)
      = Lay.zB (Lay.row512 2 slices_S8x512_S1x512_2_0 (W0 (Proc.devRef .tc main_arg1))) (Lay.row512 2 slices_S8x512_S1x512_2_0 (W0 (Proc.devRef .tc main_arg2)))
          (Lay.wT (Lay.mat512 2 slices_S8x512x512_S1x512x512_2_0_0 (W0 (Proc.devRef .tc main_arg3))) (Lay.mat512 2 slices_S8x512x512_S1x512x512_2_0_0 (W0 (Proc.devRef .tc main_arg4))) (Lay.mat512 2 slices_S8x512x512_S1x512x512_2_0_0 (W0 (Proc.devRef .tc main_arg5))) (Lay.row512 2 slices_S8x512_S1x512_2_0 (W0 (Proc.devRef .tc main_arg6))) (Lay.row512 2 slices_S8x512_S1x512_2_0 (W0 (Proc.devRef .tc main_arg7))) eyeR trilR trilTR)
          baseR
          (Lay.matW 2 slices_S8x512x1024_S1x512x1024_2_0_0 (W0 (Proc.devRef .tc main_arg8))) (Lay.row1024 2 slices_S8x1024_S1x1024_2_0 (W0 (Proc.devRef .tc main_arg9))) (Lay.matV 2 slices_S8x1024x512_S1x1024x512_2_0_0 (W0 (Proc.devRef .tc main_arg10))) (Lay.row512 2 slices_S8x512_S1x512_2_0 (W0 (Proc.devRef .tc main_arg11)))
          (Lay.matW 2 slices_S8x512x1024_S1x512x1024_2_0_0 (W0 (Proc.devRef .tc main_arg12))) (Lay.row1024 2 slices_S8x1024_S1x1024_2_0 (W0 (Proc.devRef .tc main_arg13))) (Lay.matV 2 slices_S8x1024x512_S1x1024x512_2_0_0 (W0 (Proc.devRef .tc main_arg14))) (Lay.row512 2 slices_S8x512_S1x512_2_0 (W0 (Proc.devRef .tc main_arg15)))
          (val3 W0 (Proc.devRef .tc main_v216)) := by
  rw [show val4 W0 = after opsLay2 (val3 W0) from rfl, lay_2_z,
    val3_main_arg1, val3_main_arg2, val3_main_arg3, val3_main_arg4, val3_main_arg5, val3_main_arg6, val3_main_arg7, val3_main_arg8, val3_main_arg9, val3_main_arg10, val3_main_arg11, val3_main_arg12, val3_main_arg13, val3_main_arg14, val3_main_arg15, val3_main_v5, val3_main_v7, val3_main_v8, val3_main_v13]

/-- Layer 2: the log-determinant after it, from the one before it and the layer's log-scale over the batch. -/
theorem step_2_ldj (W0 : Valuation τ sig (Elt Ideal)) :
    val4 W0 (Proc.devRef .tc main_v319)
      = Lay.ldjB (Lay.row512 2 slices_S8x512_S1x512_2_0 (W0 (Proc.devRef .tc main_arg1))) (Lay.row512 2 slices_S8x512_S1x512_2_0 (W0 (Proc.devRef .tc main_arg7)))
          (Lay.sB baseR (Lay.matW 2 slices_S8x512x1024_S1x512x1024_2_0_0 (W0 (Proc.devRef .tc main_arg8))) (Lay.row1024 2 slices_S8x1024_S1x1024_2_0 (W0 (Proc.devRef .tc main_arg9))) (Lay.matV 2 slices_S8x1024x512_S1x1024x512_2_0_0 (W0 (Proc.devRef .tc main_arg10))) (Lay.row512 2 slices_S8x512_S1x512_2_0 (W0 (Proc.devRef .tc main_arg11)))
            (Lay.keepB baseR (Lay.linB (Lay.row512 2 slices_S8x512_S1x512_2_0 (W0 (Proc.devRef .tc main_arg1))) (Lay.row512 2 slices_S8x512_S1x512_2_0 (W0 (Proc.devRef .tc main_arg2)))
              (Lay.wT (Lay.mat512 2 slices_S8x512x512_S1x512x512_2_0_0 (W0 (Proc.devRef .tc main_arg3))) (Lay.mat512 2 slices_S8x512x512_S1x512x512_2_0_0 (W0 (Proc.devRef .tc main_arg4))) (Lay.mat512 2 slices_S8x512x512_S1x512x512_2_0_0 (W0 (Proc.devRef .tc main_arg5))) (Lay.row512 2 slices_S8x512_S1x512_2_0 (W0 (Proc.devRef .tc main_arg6))) (Lay.row512 2 slices_S8x512_S1x512_2_0 (W0 (Proc.devRef .tc main_arg7))) eyeR trilR trilTR)
              (val3 W0 (Proc.devRef .tc main_v216)))))
          (val3 W0 (Proc.devRef .tc main_v218)) := by
  rw [show val4 W0 = after opsLay2 (val3 W0) from rfl, lay_2_ldj,
    val3_main_arg1, val3_main_arg2, val3_main_arg3, val3_main_arg4, val3_main_arg5, val3_main_arg6, val3_main_arg7, val3_main_arg8, val3_main_arg9, val3_main_arg10, val3_main_arg11, val3_main_v5, val3_main_v7, val3_main_v8, val3_main_v13]

/-- Layer 3: the batch after it, from the batch before it, the stacked parameters' row 3 and the shared constants. -/
theorem step_3_z (W0 : Valuation τ sig (Elt Ideal)) :
    val5 W0 (Proc.devRef .tc main_v420)
      = Lay.zB (Lay.row512 3 slices_S8x512_S1x512_3_0 (W0 (Proc.devRef .tc main_arg1))) (Lay.row512 3 slices_S8x512_S1x512_3_0 (W0 (Proc.devRef .tc main_arg2)))
          (Lay.wT (Lay.mat512 3 slices_S8x512x512_S1x512x512_3_0_0 (W0 (Proc.devRef .tc main_arg3))) (Lay.mat512 3 slices_S8x512x512_S1x512x512_3_0_0 (W0 (Proc.devRef .tc main_arg4))) (Lay.mat512 3 slices_S8x512x512_S1x512x512_3_0_0 (W0 (Proc.devRef .tc main_arg5))) (Lay.row512 3 slices_S8x512_S1x512_3_0 (W0 (Proc.devRef .tc main_arg6))) (Lay.row512 3 slices_S8x512_S1x512_3_0 (W0 (Proc.devRef .tc main_arg7))) eyeR trilR trilTR)
          (Lay.inv baseR)
          (Lay.matW 3 slices_S8x512x1024_S1x512x1024_3_0_0 (W0 (Proc.devRef .tc main_arg8))) (Lay.row1024 3 slices_S8x1024_S1x1024_3_0 (W0 (Proc.devRef .tc main_arg9))) (Lay.matV 3 slices_S8x1024x512_S1x1024x512_3_0_0 (W0 (Proc.devRef .tc main_arg10))) (Lay.row512 3 slices_S8x512_S1x512_3_0 (W0 (Proc.devRef .tc main_arg11)))
          (Lay.matW 3 slices_S8x512x1024_S1x512x1024_3_0_0 (W0 (Proc.devRef .tc main_arg12))) (Lay.row1024 3 slices_S8x1024_S1x1024_3_0 (W0 (Proc.devRef .tc main_arg13))) (Lay.matV 3 slices_S8x1024x512_S1x1024x512_3_0_0 (W0 (Proc.devRef .tc main_arg14))) (Lay.row512 3 slices_S8x512_S1x512_3_0 (W0 (Proc.devRef .tc main_arg15)))
          (val4 W0 (Proc.devRef .tc main_v317)) := by
  rw [show val5 W0 = after opsLay3 (val4 W0) from rfl, lay_3_z,
    val4_main_arg1, val4_main_arg2, val4_main_arg3, val4_main_arg4, val4_main_arg5, val4_main_arg6, val4_main_arg7, val4_main_arg8, val4_main_arg9, val4_main_arg10, val4_main_arg11, val4_main_arg12, val4_main_arg13, val4_main_arg14, val4_main_arg15, val4_main_v5, val4_main_v7, val4_main_v8, val4_main_v13]

/-- Layer 3: the log-determinant after it, from the one before it and the layer's log-scale over the batch. -/
theorem step_3_ldj (W0 : Valuation τ sig (Elt Ideal)) :
    val5 W0 (Proc.devRef .tc main_v422)
      = Lay.ldjB (Lay.row512 3 slices_S8x512_S1x512_3_0 (W0 (Proc.devRef .tc main_arg1))) (Lay.row512 3 slices_S8x512_S1x512_3_0 (W0 (Proc.devRef .tc main_arg7)))
          (Lay.sB (Lay.inv baseR) (Lay.matW 3 slices_S8x512x1024_S1x512x1024_3_0_0 (W0 (Proc.devRef .tc main_arg8))) (Lay.row1024 3 slices_S8x1024_S1x1024_3_0 (W0 (Proc.devRef .tc main_arg9))) (Lay.matV 3 slices_S8x1024x512_S1x1024x512_3_0_0 (W0 (Proc.devRef .tc main_arg10))) (Lay.row512 3 slices_S8x512_S1x512_3_0 (W0 (Proc.devRef .tc main_arg11)))
            (Lay.keepB (Lay.inv baseR) (Lay.linB (Lay.row512 3 slices_S8x512_S1x512_3_0 (W0 (Proc.devRef .tc main_arg1))) (Lay.row512 3 slices_S8x512_S1x512_3_0 (W0 (Proc.devRef .tc main_arg2)))
              (Lay.wT (Lay.mat512 3 slices_S8x512x512_S1x512x512_3_0_0 (W0 (Proc.devRef .tc main_arg3))) (Lay.mat512 3 slices_S8x512x512_S1x512x512_3_0_0 (W0 (Proc.devRef .tc main_arg4))) (Lay.mat512 3 slices_S8x512x512_S1x512x512_3_0_0 (W0 (Proc.devRef .tc main_arg5))) (Lay.row512 3 slices_S8x512_S1x512_3_0 (W0 (Proc.devRef .tc main_arg6))) (Lay.row512 3 slices_S8x512_S1x512_3_0 (W0 (Proc.devRef .tc main_arg7))) eyeR trilR trilTR)
              (val4 W0 (Proc.devRef .tc main_v317)))))
          (val4 W0 (Proc.devRef .tc main_v319)) := by
  rw [show val5 W0 = after opsLay3 (val4 W0) from rfl, lay_3_ldj,
    val4_main_arg1, val4_main_arg2, val4_main_arg3, val4_main_arg4, val4_main_arg5, val4_main_arg6, val4_main_arg7, val4_main_arg8, val4_main_arg9, val4_main_arg10, val4_main_arg11, val4_main_v5, val4_main_v7, val4_main_v8, val4_main_v13]

/-- Layer 4: the batch after it, from the batch before it, the stacked parameters' row 4 and the shared constants. -/
theorem step_4_z (W0 : Valuation τ sig (Elt Ideal)) :
    val6 W0 (Proc.devRef .tc main_v521)
      = Lay.zB (Lay.row512 4 slices_S8x512_S1x512_4_0 (W0 (Proc.devRef .tc main_arg1))) (Lay.row512 4 slices_S8x512_S1x512_4_0 (W0 (Proc.devRef .tc main_arg2)))
          (Lay.wT (Lay.mat512 4 slices_S8x512x512_S1x512x512_4_0_0 (W0 (Proc.devRef .tc main_arg3))) (Lay.mat512 4 slices_S8x512x512_S1x512x512_4_0_0 (W0 (Proc.devRef .tc main_arg4))) (Lay.mat512 4 slices_S8x512x512_S1x512x512_4_0_0 (W0 (Proc.devRef .tc main_arg5))) (Lay.row512 4 slices_S8x512_S1x512_4_0 (W0 (Proc.devRef .tc main_arg6))) (Lay.row512 4 slices_S8x512_S1x512_4_0 (W0 (Proc.devRef .tc main_arg7))) eyeR trilR trilTR)
          baseR
          (Lay.matW 4 slices_S8x512x1024_S1x512x1024_4_0_0 (W0 (Proc.devRef .tc main_arg8))) (Lay.row1024 4 slices_S8x1024_S1x1024_4_0 (W0 (Proc.devRef .tc main_arg9))) (Lay.matV 4 slices_S8x1024x512_S1x1024x512_4_0_0 (W0 (Proc.devRef .tc main_arg10))) (Lay.row512 4 slices_S8x512_S1x512_4_0 (W0 (Proc.devRef .tc main_arg11)))
          (Lay.matW 4 slices_S8x512x1024_S1x512x1024_4_0_0 (W0 (Proc.devRef .tc main_arg12))) (Lay.row1024 4 slices_S8x1024_S1x1024_4_0 (W0 (Proc.devRef .tc main_arg13))) (Lay.matV 4 slices_S8x1024x512_S1x1024x512_4_0_0 (W0 (Proc.devRef .tc main_arg14))) (Lay.row512 4 slices_S8x512_S1x512_4_0 (W0 (Proc.devRef .tc main_arg15)))
          (val5 W0 (Proc.devRef .tc main_v420)) := by
  rw [show val6 W0 = after opsLay4 (val5 W0) from rfl, lay_4_z,
    val5_main_arg1, val5_main_arg2, val5_main_arg3, val5_main_arg4, val5_main_arg5, val5_main_arg6, val5_main_arg7, val5_main_arg8, val5_main_arg9, val5_main_arg10, val5_main_arg11, val5_main_arg12, val5_main_arg13, val5_main_arg14, val5_main_arg15, val5_main_v5, val5_main_v7, val5_main_v8, val5_main_v13]

/-- Layer 4: the log-determinant after it, from the one before it and the layer's log-scale over the batch. -/
theorem step_4_ldj (W0 : Valuation τ sig (Elt Ideal)) :
    val6 W0 (Proc.devRef .tc main_v523)
      = Lay.ldjB (Lay.row512 4 slices_S8x512_S1x512_4_0 (W0 (Proc.devRef .tc main_arg1))) (Lay.row512 4 slices_S8x512_S1x512_4_0 (W0 (Proc.devRef .tc main_arg7)))
          (Lay.sB baseR (Lay.matW 4 slices_S8x512x1024_S1x512x1024_4_0_0 (W0 (Proc.devRef .tc main_arg8))) (Lay.row1024 4 slices_S8x1024_S1x1024_4_0 (W0 (Proc.devRef .tc main_arg9))) (Lay.matV 4 slices_S8x1024x512_S1x1024x512_4_0_0 (W0 (Proc.devRef .tc main_arg10))) (Lay.row512 4 slices_S8x512_S1x512_4_0 (W0 (Proc.devRef .tc main_arg11)))
            (Lay.keepB baseR (Lay.linB (Lay.row512 4 slices_S8x512_S1x512_4_0 (W0 (Proc.devRef .tc main_arg1))) (Lay.row512 4 slices_S8x512_S1x512_4_0 (W0 (Proc.devRef .tc main_arg2)))
              (Lay.wT (Lay.mat512 4 slices_S8x512x512_S1x512x512_4_0_0 (W0 (Proc.devRef .tc main_arg3))) (Lay.mat512 4 slices_S8x512x512_S1x512x512_4_0_0 (W0 (Proc.devRef .tc main_arg4))) (Lay.mat512 4 slices_S8x512x512_S1x512x512_4_0_0 (W0 (Proc.devRef .tc main_arg5))) (Lay.row512 4 slices_S8x512_S1x512_4_0 (W0 (Proc.devRef .tc main_arg6))) (Lay.row512 4 slices_S8x512_S1x512_4_0 (W0 (Proc.devRef .tc main_arg7))) eyeR trilR trilTR)
              (val5 W0 (Proc.devRef .tc main_v420)))))
          (val5 W0 (Proc.devRef .tc main_v422)) := by
  rw [show val6 W0 = after opsLay4 (val5 W0) from rfl, lay_4_ldj,
    val5_main_arg1, val5_main_arg2, val5_main_arg3, val5_main_arg4, val5_main_arg5, val5_main_arg6, val5_main_arg7, val5_main_arg8, val5_main_arg9, val5_main_arg10, val5_main_arg11, val5_main_v5, val5_main_v7, val5_main_v8, val5_main_v13]

/-- Layer 5: the batch after it, from the batch before it, the stacked parameters' row 5 and the shared constants. -/
theorem step_5_z (W0 : Valuation τ sig (Elt Ideal)) :
    val7 W0 (Proc.devRef .tc main_v624)
      = Lay.zB (Lay.row512 5 slices_S8x512_S1x512_5_0 (W0 (Proc.devRef .tc main_arg1))) (Lay.row512 5 slices_S8x512_S1x512_5_0 (W0 (Proc.devRef .tc main_arg2)))
          (Lay.wT (Lay.mat512 5 slices_S8x512x512_S1x512x512_5_0_0 (W0 (Proc.devRef .tc main_arg3))) (Lay.mat512 5 slices_S8x512x512_S1x512x512_5_0_0 (W0 (Proc.devRef .tc main_arg4))) (Lay.mat512 5 slices_S8x512x512_S1x512x512_5_0_0 (W0 (Proc.devRef .tc main_arg5))) (Lay.row512 5 slices_S8x512_S1x512_5_0 (W0 (Proc.devRef .tc main_arg6))) (Lay.row512 5 slices_S8x512_S1x512_5_0 (W0 (Proc.devRef .tc main_arg7))) eyeR trilR trilTR)
          (Lay.inv baseR)
          (Lay.matW 5 slices_S8x512x1024_S1x512x1024_5_0_0 (W0 (Proc.devRef .tc main_arg8))) (Lay.row1024 5 slices_S8x1024_S1x1024_5_0 (W0 (Proc.devRef .tc main_arg9))) (Lay.matV 5 slices_S8x1024x512_S1x1024x512_5_0_0 (W0 (Proc.devRef .tc main_arg10))) (Lay.row512 5 slices_S8x512_S1x512_5_0 (W0 (Proc.devRef .tc main_arg11)))
          (Lay.matW 5 slices_S8x512x1024_S1x512x1024_5_0_0 (W0 (Proc.devRef .tc main_arg12))) (Lay.row1024 5 slices_S8x1024_S1x1024_5_0 (W0 (Proc.devRef .tc main_arg13))) (Lay.matV 5 slices_S8x1024x512_S1x1024x512_5_0_0 (W0 (Proc.devRef .tc main_arg14))) (Lay.row512 5 slices_S8x512_S1x512_5_0 (W0 (Proc.devRef .tc main_arg15)))
          (val6 W0 (Proc.devRef .tc main_v521)) := by
  rw [show val7 W0 = after opsLay5 (val6 W0) from rfl, lay_5_z,
    val6_main_arg1, val6_main_arg2, val6_main_arg3, val6_main_arg4, val6_main_arg5, val6_main_arg6, val6_main_arg7, val6_main_arg8, val6_main_arg9, val6_main_arg10, val6_main_arg11, val6_main_arg12, val6_main_arg13, val6_main_arg14, val6_main_arg15, val6_main_v5, val6_main_v7, val6_main_v8, val6_main_v13]

/-- Layer 5: the log-determinant after it, from the one before it and the layer's log-scale over the batch. -/
theorem step_5_ldj (W0 : Valuation τ sig (Elt Ideal)) :
    val7 W0 (Proc.devRef .tc main_v626)
      = Lay.ldjB (Lay.row512 5 slices_S8x512_S1x512_5_0 (W0 (Proc.devRef .tc main_arg1))) (Lay.row512 5 slices_S8x512_S1x512_5_0 (W0 (Proc.devRef .tc main_arg7)))
          (Lay.sB (Lay.inv baseR) (Lay.matW 5 slices_S8x512x1024_S1x512x1024_5_0_0 (W0 (Proc.devRef .tc main_arg8))) (Lay.row1024 5 slices_S8x1024_S1x1024_5_0 (W0 (Proc.devRef .tc main_arg9))) (Lay.matV 5 slices_S8x1024x512_S1x1024x512_5_0_0 (W0 (Proc.devRef .tc main_arg10))) (Lay.row512 5 slices_S8x512_S1x512_5_0 (W0 (Proc.devRef .tc main_arg11)))
            (Lay.keepB (Lay.inv baseR) (Lay.linB (Lay.row512 5 slices_S8x512_S1x512_5_0 (W0 (Proc.devRef .tc main_arg1))) (Lay.row512 5 slices_S8x512_S1x512_5_0 (W0 (Proc.devRef .tc main_arg2)))
              (Lay.wT (Lay.mat512 5 slices_S8x512x512_S1x512x512_5_0_0 (W0 (Proc.devRef .tc main_arg3))) (Lay.mat512 5 slices_S8x512x512_S1x512x512_5_0_0 (W0 (Proc.devRef .tc main_arg4))) (Lay.mat512 5 slices_S8x512x512_S1x512x512_5_0_0 (W0 (Proc.devRef .tc main_arg5))) (Lay.row512 5 slices_S8x512_S1x512_5_0 (W0 (Proc.devRef .tc main_arg6))) (Lay.row512 5 slices_S8x512_S1x512_5_0 (W0 (Proc.devRef .tc main_arg7))) eyeR trilR trilTR)
              (val6 W0 (Proc.devRef .tc main_v521)))))
          (val6 W0 (Proc.devRef .tc main_v523)) := by
  rw [show val7 W0 = after opsLay5 (val6 W0) from rfl, lay_5_ldj,
    val6_main_arg1, val6_main_arg2, val6_main_arg3, val6_main_arg4, val6_main_arg5, val6_main_arg6, val6_main_arg7, val6_main_arg8, val6_main_arg9, val6_main_arg10, val6_main_arg11, val6_main_v5, val6_main_v7, val6_main_v8, val6_main_v13]

/-- Layer 6: the batch after it, from the batch before it, the stacked parameters' row 6 and the shared constants. -/
theorem step_6_z (W0 : Valuation τ sig (Elt Ideal)) :
    val8 W0 (Proc.devRef .tc main_v725)
      = Lay.zB (Lay.row512 6 slices_S8x512_S1x512_6_0 (W0 (Proc.devRef .tc main_arg1))) (Lay.row512 6 slices_S8x512_S1x512_6_0 (W0 (Proc.devRef .tc main_arg2)))
          (Lay.wT (Lay.mat512 6 slices_S8x512x512_S1x512x512_6_0_0 (W0 (Proc.devRef .tc main_arg3))) (Lay.mat512 6 slices_S8x512x512_S1x512x512_6_0_0 (W0 (Proc.devRef .tc main_arg4))) (Lay.mat512 6 slices_S8x512x512_S1x512x512_6_0_0 (W0 (Proc.devRef .tc main_arg5))) (Lay.row512 6 slices_S8x512_S1x512_6_0 (W0 (Proc.devRef .tc main_arg6))) (Lay.row512 6 slices_S8x512_S1x512_6_0 (W0 (Proc.devRef .tc main_arg7))) eyeR trilR trilTR)
          baseR
          (Lay.matW 6 slices_S8x512x1024_S1x512x1024_6_0_0 (W0 (Proc.devRef .tc main_arg8))) (Lay.row1024 6 slices_S8x1024_S1x1024_6_0 (W0 (Proc.devRef .tc main_arg9))) (Lay.matV 6 slices_S8x1024x512_S1x1024x512_6_0_0 (W0 (Proc.devRef .tc main_arg10))) (Lay.row512 6 slices_S8x512_S1x512_6_0 (W0 (Proc.devRef .tc main_arg11)))
          (Lay.matW 6 slices_S8x512x1024_S1x512x1024_6_0_0 (W0 (Proc.devRef .tc main_arg12))) (Lay.row1024 6 slices_S8x1024_S1x1024_6_0 (W0 (Proc.devRef .tc main_arg13))) (Lay.matV 6 slices_S8x1024x512_S1x1024x512_6_0_0 (W0 (Proc.devRef .tc main_arg14))) (Lay.row512 6 slices_S8x512_S1x512_6_0 (W0 (Proc.devRef .tc main_arg15)))
          (val7 W0 (Proc.devRef .tc main_v624)) := by
  rw [show val8 W0 = after opsLay6 (val7 W0) from rfl, lay_6_z,
    val7_main_arg1, val7_main_arg2, val7_main_arg3, val7_main_arg4, val7_main_arg5, val7_main_arg6, val7_main_arg7, val7_main_arg8, val7_main_arg9, val7_main_arg10, val7_main_arg11, val7_main_arg12, val7_main_arg13, val7_main_arg14, val7_main_arg15, val7_main_v5, val7_main_v7, val7_main_v8, val7_main_v13]

/-- Layer 6: the log-determinant after it, from the one before it and the layer's log-scale over the batch. -/
theorem step_6_ldj (W0 : Valuation τ sig (Elt Ideal)) :
    val8 W0 (Proc.devRef .tc main_v727)
      = Lay.ldjB (Lay.row512 6 slices_S8x512_S1x512_6_0 (W0 (Proc.devRef .tc main_arg1))) (Lay.row512 6 slices_S8x512_S1x512_6_0 (W0 (Proc.devRef .tc main_arg7)))
          (Lay.sB baseR (Lay.matW 6 slices_S8x512x1024_S1x512x1024_6_0_0 (W0 (Proc.devRef .tc main_arg8))) (Lay.row1024 6 slices_S8x1024_S1x1024_6_0 (W0 (Proc.devRef .tc main_arg9))) (Lay.matV 6 slices_S8x1024x512_S1x1024x512_6_0_0 (W0 (Proc.devRef .tc main_arg10))) (Lay.row512 6 slices_S8x512_S1x512_6_0 (W0 (Proc.devRef .tc main_arg11)))
            (Lay.keepB baseR (Lay.linB (Lay.row512 6 slices_S8x512_S1x512_6_0 (W0 (Proc.devRef .tc main_arg1))) (Lay.row512 6 slices_S8x512_S1x512_6_0 (W0 (Proc.devRef .tc main_arg2)))
              (Lay.wT (Lay.mat512 6 slices_S8x512x512_S1x512x512_6_0_0 (W0 (Proc.devRef .tc main_arg3))) (Lay.mat512 6 slices_S8x512x512_S1x512x512_6_0_0 (W0 (Proc.devRef .tc main_arg4))) (Lay.mat512 6 slices_S8x512x512_S1x512x512_6_0_0 (W0 (Proc.devRef .tc main_arg5))) (Lay.row512 6 slices_S8x512_S1x512_6_0 (W0 (Proc.devRef .tc main_arg6))) (Lay.row512 6 slices_S8x512_S1x512_6_0 (W0 (Proc.devRef .tc main_arg7))) eyeR trilR trilTR)
              (val7 W0 (Proc.devRef .tc main_v624)))))
          (val7 W0 (Proc.devRef .tc main_v626)) := by
  rw [show val8 W0 = after opsLay6 (val7 W0) from rfl, lay_6_ldj,
    val7_main_arg1, val7_main_arg2, val7_main_arg3, val7_main_arg4, val7_main_arg5, val7_main_arg6, val7_main_arg7, val7_main_arg8, val7_main_arg9, val7_main_arg10, val7_main_arg11, val7_main_v5, val7_main_v7, val7_main_v8, val7_main_v13]

/-- Layer 7: the batch after it, from the batch before it, the stacked parameters' row 7 and the shared constants. -/
theorem step_7_z (W0 : Valuation τ sig (Elt Ideal)) :
    val9 W0 (Proc.devRef .tc main_v828)
      = Lay.zB (Lay.row512 7 slices_S8x512_S1x512_7_0 (W0 (Proc.devRef .tc main_arg1))) (Lay.row512 7 slices_S8x512_S1x512_7_0 (W0 (Proc.devRef .tc main_arg2)))
          (Lay.wT (Lay.mat512 7 slices_S8x512x512_S1x512x512_7_0_0 (W0 (Proc.devRef .tc main_arg3))) (Lay.mat512 7 slices_S8x512x512_S1x512x512_7_0_0 (W0 (Proc.devRef .tc main_arg4))) (Lay.mat512 7 slices_S8x512x512_S1x512x512_7_0_0 (W0 (Proc.devRef .tc main_arg5))) (Lay.row512 7 slices_S8x512_S1x512_7_0 (W0 (Proc.devRef .tc main_arg6))) (Lay.row512 7 slices_S8x512_S1x512_7_0 (W0 (Proc.devRef .tc main_arg7))) eyeR trilR trilTR)
          (Lay.inv baseR)
          (Lay.matW 7 slices_S8x512x1024_S1x512x1024_7_0_0 (W0 (Proc.devRef .tc main_arg8))) (Lay.row1024 7 slices_S8x1024_S1x1024_7_0 (W0 (Proc.devRef .tc main_arg9))) (Lay.matV 7 slices_S8x1024x512_S1x1024x512_7_0_0 (W0 (Proc.devRef .tc main_arg10))) (Lay.row512 7 slices_S8x512_S1x512_7_0 (W0 (Proc.devRef .tc main_arg11)))
          (Lay.matW 7 slices_S8x512x1024_S1x512x1024_7_0_0 (W0 (Proc.devRef .tc main_arg12))) (Lay.row1024 7 slices_S8x1024_S1x1024_7_0 (W0 (Proc.devRef .tc main_arg13))) (Lay.matV 7 slices_S8x1024x512_S1x1024x512_7_0_0 (W0 (Proc.devRef .tc main_arg14))) (Lay.row512 7 slices_S8x512_S1x512_7_0 (W0 (Proc.devRef .tc main_arg15)))
          (val8 W0 (Proc.devRef .tc main_v725)) := by
  rw [show val9 W0 = after opsLay7 (val8 W0) from rfl, lay_7_z,
    val8_main_arg1, val8_main_arg2, val8_main_arg3, val8_main_arg4, val8_main_arg5, val8_main_arg6, val8_main_arg7, val8_main_arg8, val8_main_arg9, val8_main_arg10, val8_main_arg11, val8_main_arg12, val8_main_arg13, val8_main_arg14, val8_main_arg15, val8_main_v5, val8_main_v7, val8_main_v8, val8_main_v13]

/-- Layer 7: the log-determinant after it, from the one before it and the layer's log-scale over the batch. -/
theorem step_7_ldj (W0 : Valuation τ sig (Elt Ideal)) :
    val9 W0 (Proc.devRef .tc main_v830)
      = Lay.ldjB (Lay.row512 7 slices_S8x512_S1x512_7_0 (W0 (Proc.devRef .tc main_arg1))) (Lay.row512 7 slices_S8x512_S1x512_7_0 (W0 (Proc.devRef .tc main_arg7)))
          (Lay.sB (Lay.inv baseR) (Lay.matW 7 slices_S8x512x1024_S1x512x1024_7_0_0 (W0 (Proc.devRef .tc main_arg8))) (Lay.row1024 7 slices_S8x1024_S1x1024_7_0 (W0 (Proc.devRef .tc main_arg9))) (Lay.matV 7 slices_S8x1024x512_S1x1024x512_7_0_0 (W0 (Proc.devRef .tc main_arg10))) (Lay.row512 7 slices_S8x512_S1x512_7_0 (W0 (Proc.devRef .tc main_arg11)))
            (Lay.keepB (Lay.inv baseR) (Lay.linB (Lay.row512 7 slices_S8x512_S1x512_7_0 (W0 (Proc.devRef .tc main_arg1))) (Lay.row512 7 slices_S8x512_S1x512_7_0 (W0 (Proc.devRef .tc main_arg2)))
              (Lay.wT (Lay.mat512 7 slices_S8x512x512_S1x512x512_7_0_0 (W0 (Proc.devRef .tc main_arg3))) (Lay.mat512 7 slices_S8x512x512_S1x512x512_7_0_0 (W0 (Proc.devRef .tc main_arg4))) (Lay.mat512 7 slices_S8x512x512_S1x512x512_7_0_0 (W0 (Proc.devRef .tc main_arg5))) (Lay.row512 7 slices_S8x512_S1x512_7_0 (W0 (Proc.devRef .tc main_arg6))) (Lay.row512 7 slices_S8x512_S1x512_7_0 (W0 (Proc.devRef .tc main_arg7))) eyeR trilR trilTR)
              (val8 W0 (Proc.devRef .tc main_v725)))))
          (val8 W0 (Proc.devRef .tc main_v727)) := by
  rw [show val9 W0 = after opsLay7 (val8 W0) from rfl, lay_7_ldj,
    val8_main_arg1, val8_main_arg2, val8_main_arg3, val8_main_arg4, val8_main_arg5, val8_main_arg6, val8_main_arg7, val8_main_arg8, val8_main_arg9, val8_main_arg10, val8_main_arg11, val8_main_v5, val8_main_v7, val8_main_v8, val8_main_v13]

end Cert.ReferenceIdeal.Read

end
-- ==== Proof.RefLayer2.lean ====
/-
  One layer of the reference, read at an index, is the specification's layer with the parameters cut out of the
  stacked arguments: row l of each stacked vector, matrix l of each stacked matrix, the factored weight, and the
  alternating mask.
-/
import proofs.«112469_j76776835383759_2_alg».proof.Proof.RefLayer
import proofs.«112469_j76776835383759_2_alg».proof.Proof.FlowSpec

noncomputable section

open scoped BigOperators

namespace Cert.ReferenceIdeal.Lay

open Idealize.ShloMosaic Idealize.ShloMosaic.ValueIdx Cert.ReferenceIdeal Cert.ReferenceIdeal.Facts₀

variable [Cert.ReferenceIdeal.Facts]

section
variable (y : FVec Ideal S16384x512 .f32) (a1 a2 : FVec Ideal S8x512 .f32) (a3 a4 a5 : FVec Ideal S8x512x512 .f32)
  (a6 a7 : FVec Ideal S8x512 .f32) (a8 : FVec Ideal S8x512x1024 .f32) (a9 : FVec Ideal S8x1024 .f32)
  (a10 : FVec Ideal S8x1024x512 .f32) (a11 : FVec Ideal S8x512 .f32) (a12 : FVec Ideal S8x512x1024 .f32)
  (a13 : FVec Ideal S8x1024 .f32) (a14 : FVec Ideal S8x1024x512 .f32) (a15 : FVec Ideal S8x512 .f32)
  (E T T' : FVec Ideal S512x512 .f32) (base : FVec Ideal S512 .f32)

/-- The argument arrays as functions of plain indices. -/
def argsB : Cert.Glow.Args where
  y r k := y (ix2 r k)
  a1 l k := a1 (ix2 l k)
  a2 l k := a2 (ix2 l k)
  a3 l i j := a3 (ix3 l i j)
  a4 l i j := a4 (ix3 l i j)
  a5 l i j := a5 (ix3 l i j)
  a6 l k := a6 (ix2 l k)
  a7 l k := a7 (ix2 l k)
  a8 l k h := a8 (ix3 l k h)
  a9 l h := a9 (ix2 l h)
  a10 l h q := a10 (ix3 l h q)
  a11 l q := a11 (ix2 l q)
  a12 l k h := a12 (ix3 l k h)
  a13 l h := a13 (ix2 l h)
  a14 l h q := a14 (ix3 l h q)
  a15 l q := a15 (ix2 l q)

/-- The constant arrays as functions of plain indices. -/
def constsB : Cert.Glow.Consts where
  E i j := E (ix2 i j)
  T i j := T (ix2 i j)
  T' i j := T' (ix2 i j)
  onDiag j k := onDiagB (ix2 j k)
  base q := base (ix1 q)

variable (l : Fin 8)
  (h2 : S8x512.Slices ![l.val, 0] S1x512) (h3 : S8x512x512.Slices ![l.val, 0, 0] S1x512x512)
  (h3w : S8x512x1024.Slices ![l.val, 0, 0] S1x512x1024) (h2w : S8x1024.Slices ![l.val, 0] S1x1024)
  (h3v : S8x1024x512.Slices ![l.val, 0, 0] S1x1024x512)
  (mask : FVec Ideal S512 .f32)

/-- The layer's parameters read off the arrays are the specification's layer parameters. -/
theorem paramsB_eq (hmask : ∀ q : Fin 512, mask (ix1 q) = Cert.Glow.maskOf (fun q => base (ix1 q)) l.val q) :
    paramsB (row512 l.val h2 a1) (row512 l.val h2 a2)
        (wT (mat512 l.val h3 a3) (mat512 l.val h3 a4) (mat512 l.val h3 a5) (row512 l.val h2 a6) (row512 l.val h2 a7) E T T') mask
        (matW l.val h3w a8) (row1024 l.val h2w a9) (matV l.val h3v a10) (row512 l.val h2 a11)
        (matW l.val h3w a12) (row1024 l.val h2w a13) (matV l.val h3v a14) (row512 l.val h2 a15)
      = Cert.Glow.layerParams (argsB y a1 a2 a3 a4 a5 a6 a7 a8 a9 a10 a11 a12 a13 a14 a15) (constsB E T T' base) l := by
  unfold paramsB Cert.Glow.layerParams argsB constsB
  have e1 : ∀ (a : FVec Ideal S8x512 .f32) (k : Fin 512), row512 l.val h2 a (ix1 k) = a (ix2 l k) :=
    fun a k => row512_apply l.val l.isLt h2 a k
  have e2 : ∀ (a : FVec Ideal S8x1024 .f32) (k : Fin 1024), row1024 l.val h2w a (ix1 k) = a (ix2 l k) :=
    fun a k => row1024_apply l.val l.isLt h2w a k
  have e3 : ∀ (a : FVec Ideal S8x512x512 .f32) (i j : Fin 512), mat512 l.val h3 a (ix2 i j) = a (ix3 l i j) :=
    fun a i j => mat512_apply l.val l.isLt h3 a i j
  have e4 : ∀ (a : FVec Ideal S8x512x1024 .f32) (i : Fin 512) (j : Fin 1024), matW l.val h3w a (ix2 i j) = a (ix3 l i j) :=
    fun a i j => matW_apply l.val l.isLt h3w a i j
  have e5 : ∀ (a : FVec Ideal S8x1024x512 .f32) (i : Fin 1024) (j : Fin 512), matV l.val h3v a (ix2 i j) = a (ix3 l i j) :=
    fun a i j => matV_apply l.val l.isLt h3v a i j
  simp only [e1, e2, e3, e4, e5, hmask, wT_apply]

/-- The batch after layer `l` of the reference, entry by entry, is the specification's row after the layer. -/
theorem zB_layer (hmask : ∀ q : Fin 512, mask (ix1 q) = Cert.Glow.maskOf (fun q => base (ix1 q)) l.val q)
    (z : FVec Ideal S16384x512 .f32) (r : Fin 16384) (q : Fin 512) :
    zB (row512 l.val h2 a1) (row512 l.val h2 a2)
        (wT (mat512 l.val h3 a3) (mat512 l.val h3 a4) (mat512 l.val h3 a5) (row512 l.val h2 a6) (row512 l.val h2 a7) E T T') mask
        (matW l.val h3w a8) (row1024 l.val h2w a9) (matV l.val h3v a10) (row512 l.val h2 a11)
        (matW l.val h3w a12) (row1024 l.val h2w a13) (matV l.val h3v a14) (row512 l.val h2 a15) z (ix2 r q)
      = Cert.Glow.zNew (Cert.Glow.layerParams (argsB y a1 a2 a3 a4 a5 a6 a7 a8 a9 a10 a11 a12 a13 a14 a15) (constsB E T T' base) l)
          (fun k => z (ix2 r k)) q := by
  rw [zB_apply, paramsB_eq y a1 a2 a3 a4 a5 a6 a7 a8 a9 a10 a11 a12 a13 a14 a15 E T T' base l h2 h3 h3w h2w h3v mask hmask]

/-- The log-determinant after layer `l` of the reference, entry by entry. -/
theorem ldjB_layer (hmask : ∀ q : Fin 512, mask (ix1 q) = Cert.Glow.maskOf (fun q => base (ix1 q)) l.val q)
    (z : FVec Ideal S16384x512 .f32) (ldj : FVec Ideal S16384 .f32) (r : Fin 16384) :
    ldjB (row512 l.val h2 a1) (row512 l.val h2 a7)
        (sB mask (matW l.val h3w a8) (row1024 l.val h2w a9) (matV l.val h3v a10) (row512 l.val h2 a11)
          (keepB mask (linB (row512 l.val h2 a1) (row512 l.val h2 a2)
            (wT (mat512 l.val h3 a3) (mat512 l.val h3 a4) (mat512 l.val h3 a5) (row512 l.val h2 a6) (row512 l.val h2 a7) E T T') z)))
        ldj (ix1 r)
      = ldj (ix1 r)
          + (Cert.Glow.zero + ∑ k : Fin 512, (Cert.Glow.layerParams (argsB y a1 a2 a3 a4 a5 a6 a7 a8 a9 a10 a11 a12 a13 a14 a15) (constsB E T T' base) l).ls k)
          + (Cert.Glow.zero + ∑ k : Fin 512, a7 (ix2 l k))
          + (Cert.Glow.zero + Cert.Glow.rowS (Cert.Glow.layerParams (argsB y a1 a2 a3 a4 a5 a6 a7 a8 a9 a10 a11 a12 a13 a14 a15) (constsB E T T' base) l)
              (fun k => z (ix2 r k))) := by
  rw [ldjB_apply]
  have hs : ∀ q : Fin 512,
      sB mask (matW l.val h3w a8) (row1024 l.val h2w a9) (matV l.val h3v a10) (row512 l.val h2 a11)
          (keepB mask (linB (row512 l.val h2 a1) (row512 l.val h2 a2)
            (wT (mat512 l.val h3 a3) (mat512 l.val h3 a4) (mat512 l.val h3 a5) (row512 l.val h2 a6) (row512 l.val h2 a7) E T T') z)) (ix2 r q)
        = Cert.Glow.sRow (Cert.Glow.layerParams (argsB y a1 a2 a3 a4 a5 a6 a7 a8 a9 a10 a11 a12 a13 a14 a15) (constsB E T T' base) l)
            (fun k => z (ix2 r k)) q := fun q => by
    rw [sB_row (row512 l.val h2 a1) (row512 l.val h2 a2)
      (wT (mat512 l.val h3 a3) (mat512 l.val h3 a4) (mat512 l.val h3 a5) (row512 l.val h2 a6) (row512 l.val h2 a7) E T T') mask
      (matW l.val h3w a8) (row1024 l.val h2w a9) (matV l.val h3v a10) (row512 l.val h2 a11)
      (matW l.val h3w a12) (row1024 l.val h2w a13) (matV l.val h3v a14) (row512 l.val h2 a15) z r q,
      paramsB_eq y a1 a2 a3 a4 a5 a6 a7 a8 a9 a10 a11 a12 a13 a14 a15 E T T' base l h2 h3 h3w h2w h3v mask hmask]
  simp only [hs, row512_apply l.val l.isLt h2]
  rfl

end

end Cert.ReferenceIdeal.Lay

end
-- ==== Proof.FlowChain.lean ====
/-
  Eight steps make the flow: a family of batches Z 0, …, Z 8 (and of running log-determinants) that advances by one
  layer of the specification at each step is the specification's iterate, row by row.
-/
import proofs.«112469_j76776835383759_2_alg».proof.Proof.FlowSpec

noncomputable section

open scoped BigOperators

namespace Cert.Glow

open Idealize.ShloMosaic

variable (A : Args) (C : Consts)

theorem zAt_of_steps (Z : Nat → Fin 16384 → Fin 512 → EReal) (h0 : ∀ r k, Z 0 r k = A.y r k)
    (hs : ∀ (l : Fin 8) (r : Fin 16384) (q : Fin 512), Z (l.val + 1) r q = zNew (layerParams A C l) (Z l.val r) q) :
    ∀ n, n ≤ 8 → ∀ r q, Z n r q = zAt A C (A.y r) n q := by
  intro n
  induction n with
  | zero => intro _ r q; exact h0 r q
  | succ n ih =>
    intro hn r q
    have hl : n < 8 := hn
    have hz : Z n r = zAt A C (A.y r) n := funext fun k => ih (Nat.le_of_lt hl) r k
    rw [hs ⟨n, hl⟩ r q]
    show zNew (layerParams A C ⟨n, hl⟩) (Z n r) q = zNew (paramsAt A C n) (zAt A C (A.y r) n) q
    rw [hz, ← paramsAt_of_lt A C ⟨n, hl⟩]

theorem sAt_of_steps (Z : Nat → Fin 16384 → Fin 512 → EReal) (S : Nat → Fin 16384 → EReal)
    (hZ : ∀ n, n ≤ 8 → ∀ r q, Z n r q = zAt A C (A.y r) n q) (h0 : ∀ r, S 0 r = zero)
    (hs : ∀ (l : Fin 8) (r : Fin 16384), S (l.val + 1) r = S l.val r + rowS (layerParams A C l) (Z l.val r)) :
    ∀ n, n ≤ 8 → ∀ r, S n r = sAt A C (A.y r) n := by
  intro n
  induction n with
  | zero => intro _ r; exact h0 r
  | succ n ih =>
    intro hn r
    have hl : n < 8 := hn
    have hz : Z n r = zAt A C (A.y r) n := funext fun k => hZ n (Nat.le_of_lt hl) r k
    rw [hs ⟨n, hl⟩ r]
    show S n r + rowS (layerParams A C ⟨n, hl⟩) (Z n r) = sAt A C (A.y r) n + rowS (paramsAt A C n) (zAt A C (A.y r) n)
    rw [hz, ih (Nat.le_of_lt hl) r, ← paramsAt_of_lt A C ⟨n, hl⟩]

theorem rAt_of_steps (Z : Nat → Fin 16384 → Fin 512 → EReal) (R : Nat → Fin 16384 → EReal)
    (hZ : ∀ n, n ≤ 8 → ∀ r q, Z n r q = zAt A C (A.y r) n q) (h0 : ∀ r, R 0 r = zero)
    (hs : ∀ (l : Fin 8) (r : Fin 16384), R (l.val + 1) r
      = R l.val r + (zero + ∑ k : Fin 512, (layerParams A C l).ls k) + (zero + ∑ k : Fin 512, A.a7 l k)
          + (zero + rowS (layerParams A C l) (Z l.val r))) :
    ∀ n, n ≤ 8 → ∀ r, R n r = rAt A C (A.y r) n := by
  intro n
  induction n with
  | zero => intro _ r; exact h0 r
  | succ n ih =>
    intro hn r
    have hl : n < 8 := hn
    have hz : Z n r = zAt A C (A.y r) n := funext fun k => hZ n (Nat.le_of_lt hl) r k
    have hf : (⟨n % 8, Nat.mod_lt _ (by decide)⟩ : Fin 8) = ⟨n, hl⟩ := Fin.ext (Nat.mod_eq_of_lt hl)
    rw [hs ⟨n, hl⟩ r]
    show _ = rAt A C (A.y r) n + (zero + ∑ k : Fin 512, (paramsAt A C n).ls k)
      + (zero + ∑ k : Fin 512, A.a7 ⟨n % 8, Nat.mod_lt _ (by decide)⟩ k) + (zero + rowS (paramsAt A C n) (zAt A C (A.y r) n))
    rw [hz, ih (Nat.le_of_lt hl) r, hf, ← paramsAt_of_lt A C ⟨n, hl⟩]

end Cert.Glow

end
-- ==== Proof.FlowAlg.lean ====
/-
  The two ways of collecting the log-determinant agree.

  The reference adds, layer by layer, the sum of the layer's log-scale parameters, the sum of the logarithms of its
  linear map's diagonal and the row's sum of coupling log-scales; the kernel adds the coupling sums layer by layer and
  the two parameter sums once at the end, over all layers at once.  On the extended reals addition is commutative and
  associative (no finiteness is needed), so the two totals are one.
-/
import proofs.«112469_j76776835383759_2_alg».proof.Proof.FlowSpec

noncomputable section

open scoped BigOperators

namespace Cert.Glow

open Idealize.ShloMosaic

/-- Layer `n`'s (numbers wrap past the last) sum of log-scale parameters and sum of diagonal logarithms. -/
def parSum (A : Args) (n : Nat) : EReal :=
  (∑ k : Fin 512, A.a1 ⟨n % 8, Nat.mod_lt _ (by decide)⟩ k) + ∑ k : Fin 512, A.a7 ⟨n % 8, Nat.mod_lt _ (by decide)⟩ k

theorem rAt_eq (A : Args) (C : Consts) (y : Fin 512 → EReal) (n : Nat) :
    rAt A C y n = sAt A C y n + ∑ l ∈ Finset.range n, parSum A l := by
  induction n with
  | zero => simp [rAt, sAt]
  | succ n ih =>
    rw [Finset.sum_range_succ]
    unfold rAt sAt
    rw [ih, zero_eq, zero_add, zero_add, zero_add]
    unfold parSum
    show _ + (∑ k : Fin 512, (paramsAt A C n).ls k) + _ + _ = _
    have hls : (∑ k : Fin 512, (paramsAt A C n).ls k) = ∑ k : Fin 512, A.a1 ⟨n % 8, Nat.mod_lt _ (by decide)⟩ k := rfl
    rw [hls]
    abel

theorem sum_range_eight (f : Nat → EReal) : ∑ l ∈ Finset.range 8, f l = ∑ l : Fin 8, f l.val :=
  (Fin.sum_univ_eq_sum_range f 8).symm

/-- The reference's log-determinant of a row after the eight layers is the kernel's. -/
theorem rAt_eight (A : Args) (C : Consts) (y : Fin 512 → EReal) : rAt A C y 8 = kLdj A C y := by
  rw [rAt_eq, sum_range_eight]
  unfold kLdj parSum
  rw [zero_eq, zero_add, zero_add, Finset.sum_add_distrib]
  refine congrArg (sAt A C y 8 + ·) (congrArg₂ (· + ·) ?_ ?_) <;>
    exact Finset.sum_congr rfl fun l _ => Finset.sum_congr rfl fun k _ => by
      congr 1; exact Fin.ext (Nat.mod_eq_of_lt l.isLt)

end Cert.Glow

end
-- ==== Proof.RefFlow.lean ====
/-
  The reference's two results, entry by entry: its eight layers are the specification's eight layers, so its first
  result is the specification's iterate of each row and its second the running log-determinant, which equals the
  kernel's way of collecting it.
-/
import proofs.«112469_j76776835383759_2_alg».proof.Proof.RefRead
import proofs.«112469_j76776835383759_2_alg».proof.Proof.RefLayer2
import proofs.«112469_j76776835383759_2_alg».proof.Proof.FlowChain
import proofs.«112469_j76776835383759_2_alg».proof.Proof.FlowAlg

set_option maxRecDepth 65536

noncomputable section

open scoped BigOperators

namespace Cert.ReferenceIdeal.Flow

open Cert.ReferenceIdeal Cert.ReferenceIdeal.Gen Cert.ReferenceIdeal.RunHand Cert.ReferenceIdeal.Read
open Idealize.ShloMosaic Idealize.ShloMosaic.ValueIdx Idealize.ShloMosaic.StableHlo

variable (W0 : Valuation τ sig (Elt Ideal))

/-- The arguments, as the specification takes them, read off the launch contents. -/
def Aof : Cert.Glow.Args := Lay.argsB (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15))

/-- The constant arrays, as the specification takes them. -/
def Cof : Cert.Glow.Consts := Lay.constsB eyeR trilR trilTR baseR

/-- The batch after each layer, entry by entry. -/
def Zs : Nat → Fin 16384 → Fin 512 → EReal
  | 0 => fun r k => (W0 (Proc.devRef .tc main_arg0) : FVec Ideal S16384x512 .f32) (ix2 r k)
  | 1 => fun r k => (val2 W0 (Proc.devRef .tc main_v113) : FVec Ideal S16384x512 .f32) (ix2 r k)
  | 2 => fun r k => (val3 W0 (Proc.devRef .tc main_v216) : FVec Ideal S16384x512 .f32) (ix2 r k)
  | 3 => fun r k => (val4 W0 (Proc.devRef .tc main_v317) : FVec Ideal S16384x512 .f32) (ix2 r k)
  | 4 => fun r k => (val5 W0 (Proc.devRef .tc main_v420) : FVec Ideal S16384x512 .f32) (ix2 r k)
  | 5 => fun r k => (val6 W0 (Proc.devRef .tc main_v521) : FVec Ideal S16384x512 .f32) (ix2 r k)
  | 6 => fun r k => (val7 W0 (Proc.devRef .tc main_v624) : FVec Ideal S16384x512 .f32) (ix2 r k)
  | 7 => fun r k => (val8 W0 (Proc.devRef .tc main_v725) : FVec Ideal S16384x512 .f32) (ix2 r k)
  | _ => fun r k => (val9 W0 (Proc.devRef .tc main_v828) : FVec Ideal S16384x512 .f32) (ix2 r k)

/-- The running log-determinant after each layer, entry by entry. -/
def Rs : Nat → Fin 16384 → EReal
  | 0 => fun r => (val1 W0 (Proc.devRef .tc main_v14) : FVec Ideal S16384 .f32) (ix1 r)
  | 1 => fun r => (val2 W0 (Proc.devRef .tc main_v115) : FVec Ideal S16384 .f32) (ix1 r)
  | 2 => fun r => (val3 W0 (Proc.devRef .tc main_v218) : FVec Ideal S16384 .f32) (ix1 r)
  | 3 => fun r => (val4 W0 (Proc.devRef .tc main_v319) : FVec Ideal S16384 .f32) (ix1 r)
  | 4 => fun r => (val5 W0 (Proc.devRef .tc main_v422) : FVec Ideal S16384 .f32) (ix1 r)
  | 5 => fun r => (val6 W0 (Proc.devRef .tc main_v523) : FVec Ideal S16384 .f32) (ix1 r)
  | 6 => fun r => (val7 W0 (Proc.devRef .tc main_v626) : FVec Ideal S16384 .f32) (ix1 r)
  | 7 => fun r => (val8 W0 (Proc.devRef .tc main_v727) : FVec Ideal S16384 .f32) (ix1 r)
  | _ => fun r => (val9 W0 (Proc.devRef .tc main_v830) : FVec Ideal S16384 .f32) (ix1 r)

theorem Zs_step (l : Fin 8) (r : Fin 16384) (q : Fin 512) :
    Zs W0 (l.val + 1) r q = Cert.Glow.zNew (Cert.Glow.layerParams (Aof W0) Cof l) (Zs W0 l.val r) q :=
  match l with
  | ⟨0, hl⟩ => by
    show (val2 W0 (Proc.devRef .tc main_v113) : FVec Ideal S16384x512 .f32) (ix2 r q) = _
    rw [step_0_z W0]
    exact Lay.zB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨0, hl⟩ slices_S8x512_S1x512_0_0 slices_S8x512x512_S1x512x512_0_0_0 slices_S8x512x1024_S1x512x1024_0_0_0 slices_S8x1024_S1x1024_0_0 slices_S8x1024x512_S1x1024x512_0_0_0 baseR
      (fun q => (if_pos (show (0 : Nat) % 2 = 0 from rfl)).symm) _ r q
  | ⟨1, hl⟩ => by
    show (val3 W0 (Proc.devRef .tc main_v216) : FVec Ideal S16384x512 .f32) (ix2 r q) = _
    rw [step_1_z W0]
    exact Lay.zB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨1, hl⟩ slices_S8x512_S1x512_1_0 slices_S8x512x512_S1x512x512_1_0_0 slices_S8x512x1024_S1x512x1024_1_0_0 slices_S8x1024_S1x1024_1_0 slices_S8x1024x512_S1x1024x512_1_0_0 (Lay.inv baseR)
      (fun q => (Lay.inv_apply baseR q).trans (if_neg (show ¬ ((1 : Nat) % 2 = 0) by decide)).symm) _ r q
  | ⟨2, hl⟩ => by
    show (val4 W0 (Proc.devRef .tc main_v317) : FVec Ideal S16384x512 .f32) (ix2 r q) = _
    rw [step_2_z W0]
    exact Lay.zB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨2, hl⟩ slices_S8x512_S1x512_2_0 slices_S8x512x512_S1x512x512_2_0_0 slices_S8x512x1024_S1x512x1024_2_0_0 slices_S8x1024_S1x1024_2_0 slices_S8x1024x512_S1x1024x512_2_0_0 baseR
      (fun q => (if_pos (show (2 : Nat) % 2 = 0 from rfl)).symm) _ r q
  | ⟨3, hl⟩ => by
    show (val5 W0 (Proc.devRef .tc main_v420) : FVec Ideal S16384x512 .f32) (ix2 r q) = _
    rw [step_3_z W0]
    exact Lay.zB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨3, hl⟩ slices_S8x512_S1x512_3_0 slices_S8x512x512_S1x512x512_3_0_0 slices_S8x512x1024_S1x512x1024_3_0_0 slices_S8x1024_S1x1024_3_0 slices_S8x1024x512_S1x1024x512_3_0_0 (Lay.inv baseR)
      (fun q => (Lay.inv_apply baseR q).trans (if_neg (show ¬ ((3 : Nat) % 2 = 0) by decide)).symm) _ r q
  | ⟨4, hl⟩ => by
    show (val6 W0 (Proc.devRef .tc main_v521) : FVec Ideal S16384x512 .f32) (ix2 r q) = _
    rw [step_4_z W0]
    exact Lay.zB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨4, hl⟩ slices_S8x512_S1x512_4_0 slices_S8x512x512_S1x512x512_4_0_0 slices_S8x512x1024_S1x512x1024_4_0_0 slices_S8x1024_S1x1024_4_0 slices_S8x1024x512_S1x1024x512_4_0_0 baseR
      (fun q => (if_pos (show (4 : Nat) % 2 = 0 from rfl)).symm) _ r q
  | ⟨5, hl⟩ => by
    show (val7 W0 (Proc.devRef .tc main_v624) : FVec Ideal S16384x512 .f32) (ix2 r q) = _
    rw [step_5_z W0]
    exact Lay.zB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨5, hl⟩ slices_S8x512_S1x512_5_0 slices_S8x512x512_S1x512x512_5_0_0 slices_S8x512x1024_S1x512x1024_5_0_0 slices_S8x1024_S1x1024_5_0 slices_S8x1024x512_S1x1024x512_5_0_0 (Lay.inv baseR)
      (fun q => (Lay.inv_apply baseR q).trans (if_neg (show ¬ ((5 : Nat) % 2 = 0) by decide)).symm) _ r q
  | ⟨6, hl⟩ => by
    show (val8 W0 (Proc.devRef .tc main_v725) : FVec Ideal S16384x512 .f32) (ix2 r q) = _
    rw [step_6_z W0]
    exact Lay.zB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨6, hl⟩ slices_S8x512_S1x512_6_0 slices_S8x512x512_S1x512x512_6_0_0 slices_S8x512x1024_S1x512x1024_6_0_0 slices_S8x1024_S1x1024_6_0 slices_S8x1024x512_S1x1024x512_6_0_0 baseR
      (fun q => (if_pos (show (6 : Nat) % 2 = 0 from rfl)).symm) _ r q
  | ⟨7, hl⟩ => by
    show (val9 W0 (Proc.devRef .tc main_v828) : FVec Ideal S16384x512 .f32) (ix2 r q) = _
    rw [step_7_z W0]
    exact Lay.zB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨7, hl⟩ slices_S8x512_S1x512_7_0 slices_S8x512x512_S1x512x512_7_0_0 slices_S8x512x1024_S1x512x1024_7_0_0 slices_S8x1024_S1x1024_7_0 slices_S8x1024x512_S1x1024x512_7_0_0 (Lay.inv baseR)
      (fun q => (Lay.inv_apply baseR q).trans (if_neg (show ¬ ((7 : Nat) % 2 = 0) by decide)).symm) _ r q

theorem Zs_eq (n : Nat) (hn : n ≤ 8) (r : Fin 16384) (q : Fin 512) :
    Zs W0 n r q = Cert.Glow.zAt (Aof W0) Cof ((Aof W0).y r) n q :=
  Cert.Glow.zAt_of_steps (Aof W0) Cof (Zs W0) (fun _ _ => rfl) (Zs_step W0) n hn r q

theorem Rs_step (l : Fin 8) (r : Fin 16384) :
    Rs W0 (l.val + 1) r = Rs W0 l.val r + (Cert.Glow.zero + ∑ k : Fin 512, (Cert.Glow.layerParams (Aof W0) Cof l).ls k)
      + (Cert.Glow.zero + ∑ k : Fin 512, (Aof W0).a7 l k)
      + (Cert.Glow.zero + Cert.Glow.rowS (Cert.Glow.layerParams (Aof W0) Cof l) (Zs W0 l.val r)) :=
  match l with
  | ⟨0, hl⟩ => by
    show (val2 W0 (Proc.devRef .tc main_v115) : FVec Ideal S16384 .f32) (ix1 r) = _
    rw [step_0_ldj W0]
    exact Lay.ldjB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨0, hl⟩ slices_S8x512_S1x512_0_0 slices_S8x512x512_S1x512x512_0_0_0 slices_S8x512x1024_S1x512x1024_0_0_0 slices_S8x1024_S1x1024_0_0 slices_S8x1024x512_S1x1024x512_0_0_0 baseR
      (fun q => (if_pos (show (0 : Nat) % 2 = 0 from rfl)).symm) _ _ r
  | ⟨1, hl⟩ => by
    show (val3 W0 (Proc.devRef .tc main_v218) : FVec Ideal S16384 .f32) (ix1 r) = _
    rw [step_1_ldj W0]
    exact Lay.ldjB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨1, hl⟩ slices_S8x512_S1x512_1_0 slices_S8x512x512_S1x512x512_1_0_0 slices_S8x512x1024_S1x512x1024_1_0_0 slices_S8x1024_S1x1024_1_0 slices_S8x1024x512_S1x1024x512_1_0_0 (Lay.inv baseR)
      (fun q => (Lay.inv_apply baseR q).trans (if_neg (show ¬ ((1 : Nat) % 2 = 0) by decide)).symm) _ _ r
  | ⟨2, hl⟩ => by
    show (val4 W0 (Proc.devRef .tc main_v319) : FVec Ideal S16384 .f32) (ix1 r) = _
    rw [step_2_ldj W0]
    exact Lay.ldjB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨2, hl⟩ slices_S8x512_S1x512_2_0 slices_S8x512x512_S1x512x512_2_0_0 slices_S8x512x1024_S1x512x1024_2_0_0 slices_S8x1024_S1x1024_2_0 slices_S8x1024x512_S1x1024x512_2_0_0 baseR
      (fun q => (if_pos (show (2 : Nat) % 2 = 0 from rfl)).symm) _ _ r
  | ⟨3, hl⟩ => by
    show (val5 W0 (Proc.devRef .tc main_v422) : FVec Ideal S16384 .f32) (ix1 r) = _
    rw [step_3_ldj W0]
    exact Lay.ldjB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨3, hl⟩ slices_S8x512_S1x512_3_0 slices_S8x512x512_S1x512x512_3_0_0 slices_S8x512x1024_S1x512x1024_3_0_0 slices_S8x1024_S1x1024_3_0 slices_S8x1024x512_S1x1024x512_3_0_0 (Lay.inv baseR)
      (fun q => (Lay.inv_apply baseR q).trans (if_neg (show ¬ ((3 : Nat) % 2 = 0) by decide)).symm) _ _ r
  | ⟨4, hl⟩ => by
    show (val6 W0 (Proc.devRef .tc main_v523) : FVec Ideal S16384 .f32) (ix1 r) = _
    rw [step_4_ldj W0]
    exact Lay.ldjB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨4, hl⟩ slices_S8x512_S1x512_4_0 slices_S8x512x512_S1x512x512_4_0_0 slices_S8x512x1024_S1x512x1024_4_0_0 slices_S8x1024_S1x1024_4_0 slices_S8x1024x512_S1x1024x512_4_0_0 baseR
      (fun q => (if_pos (show (4 : Nat) % 2 = 0 from rfl)).symm) _ _ r
  | ⟨5, hl⟩ => by
    show (val7 W0 (Proc.devRef .tc main_v626) : FVec Ideal S16384 .f32) (ix1 r) = _
    rw [step_5_ldj W0]
    exact Lay.ldjB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨5, hl⟩ slices_S8x512_S1x512_5_0 slices_S8x512x512_S1x512x512_5_0_0 slices_S8x512x1024_S1x512x1024_5_0_0 slices_S8x1024_S1x1024_5_0 slices_S8x1024x512_S1x1024x512_5_0_0 (Lay.inv baseR)
      (fun q => (Lay.inv_apply baseR q).trans (if_neg (show ¬ ((5 : Nat) % 2 = 0) by decide)).symm) _ _ r
  | ⟨6, hl⟩ => by
    show (val8 W0 (Proc.devRef .tc main_v727) : FVec Ideal S16384 .f32) (ix1 r) = _
    rw [step_6_ldj W0]
    exact Lay.ldjB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨6, hl⟩ slices_S8x512_S1x512_6_0 slices_S8x512x512_S1x512x512_6_0_0 slices_S8x512x1024_S1x512x1024_6_0_0 slices_S8x1024_S1x1024_6_0 slices_S8x1024x512_S1x1024x512_6_0_0 baseR
      (fun q => (if_pos (show (6 : Nat) % 2 = 0 from rfl)).symm) _ _ r
  | ⟨7, hl⟩ => by
    show (val9 W0 (Proc.devRef .tc main_v830) : FVec Ideal S16384 .f32) (ix1 r) = _
    rw [step_7_ldj W0]
    exact Lay.ldjB_layer (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) eyeR trilR trilTR baseR ⟨7, hl⟩ slices_S8x512_S1x512_7_0 slices_S8x512x512_S1x512x512_7_0_0 slices_S8x512x1024_S1x512x1024_7_0_0 slices_S8x1024_S1x1024_7_0 slices_S8x1024x512_S1x1024x512_7_0_0 (Lay.inv baseR)
      (fun q => (Lay.inv_apply baseR q).trans (if_neg (show ¬ ((7 : Nat) % 2 = 0) by decide)).symm) _ _ r

theorem Rs_zero (r : Fin 16384) : Rs W0 0 r = Cert.Glow.zero := by
  show (val1 W0 (Proc.devRef .tc main_v14) : FVec Ideal S16384 .f32) (ix1 r) = _
  rw [ldj0 W0, broadcastInDim_scalar_apply, constant_apply]
  rfl

theorem Rs_eq (r : Fin 16384) : Rs W0 8 r = Cert.Glow.kLdj (Aof W0) Cof ((Aof W0).y r) :=
  (Cert.Glow.rAt_of_steps (Aof W0) Cof (Zs W0) (Rs W0) (Zs_eq W0) (Rs_zero W0) (Rs_step W0) 8 (Nat.le_refl 8) r).trans
    (Cert.Glow.rAt_eight (Aof W0) Cof ((Aof W0).y r))

/-- The reference's first result. -/
theorem result_z : (after ops W0 (Proc.devRef .tc main_v828) : FVec Ideal S16384x512 .f32)
    = fun j => Cert.Glow.zAt (Aof W0) Cof ((Aof W0).y (j 0)) 8 (j 1) := by
  funext j
  rw [after_ops W0]
  exact (congrArg (val9 W0 (Proc.devRef .tc main_v828) : FVec Ideal S16384x512 .f32) (eq_ix2 j)).trans
    (Zs_eq W0 8 (Nat.le_refl 8) (j 0) (j 1))

/-- The reference's second result. -/
theorem result_ldj : (after ops W0 (Proc.devRef .tc main_v830) : FVec Ideal S16384 .f32)
    = fun j => Cert.Glow.kLdj (Aof W0) Cof ((Aof W0).y (j 0)) := by
  funext j
  rw [after_ops W0]
  exact (congrArg (val9 W0 (Proc.devRef .tc main_v830) : FVec Ideal S16384 .f32) (eq_ix1 j)).trans (Rs_eq W0 (j 0))

end Cert.ReferenceIdeal.Flow

end
-- ==== Proof.Algebraic.lean ====
/-
  The two idealized programs end with equal results.

  Run from memories that agree on the sixteen arguments, both programs end: the kernel with its first result the
  specification's eight-layer iterate of each row of the batch and its second result the row's eight coupling sums
  plus, once, the sums of all the layers' log-scale parameters and diagonal logarithms; the reference with its first
  result the same iterate and its second the same total collected layer by layer.  The constant arrays both programs
  build (identity, triangular masks, the on-diagonal test, the base coupling mask) are the same closed terms.
-/
import proofs.«112469_j76776835383759_2_alg».proof.Defs
import proofs.«112469_j76776835383759_2_alg».proof.Proof.KFinalRun
import proofs.«112469_j76776835383759_2_alg».proof.Proof.RefFlow
import proofs.«112469_j76776835383759_2_alg».proof.Proof.RefRunArgs
import proofs.«112469_j76776835383759_2_alg».proof.Proof.Gen.Pre_finite_inputs

set_option maxRecDepth 65536

noncomputable section

namespace Cert.Proof.Alg

open Idealize.ShloMosaic Idealize.ShloMosaic.ValueIdx Idealize.SL.Sem Idealize.ShloMosaic.StableHlo

section Consts
-- the two programs spell each constant array with the same operations: compared operation by operation, never entry by entry
attribute [local irreducible] addi cmpi iotaInDim broadcastInDim constantI constant select uitofp transpose Host.remsi andi

/-- The constant arrays the kernel's host lines build are the ones the reference builds. -/
theorem consts_eq : Cert.KernelIdeal.Val.CK = Cert.ReferenceIdeal.Flow.Cof := by
  unfold Cert.KernelIdeal.Val.CK Cert.ReferenceIdeal.Flow.Cof Cert.ReferenceIdeal.Lay.constsB
  have hE : Cert.KernelIdeal.HostVal.eyeK = Cert.ReferenceIdeal.Read.eyeR := rfl
  have hT : Cert.KernelIdeal.HostVal.trilK = Cert.ReferenceIdeal.Read.trilR := rfl
  have hT' : Cert.KernelIdeal.HostVal.trilTK = Cert.ReferenceIdeal.Read.trilTR := rfl
  have hD : Cert.KernelIdeal.HostVal.onDiagK = Cert.ReferenceIdeal.Lay.onDiagB := rfl
  have hB : Cert.KernelIdeal.HostVal.baseK = Cert.ReferenceIdeal.Read.baseR := rfl
  rw [hE, hT, hT', hD, hB]

end Consts

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.zFinal (Cert.KernelIdeal.Val.AK m c) Cert.KernelIdeal.Val.CK,
    fun c => (fun j => Cert.Glow.kLdj (Cert.KernelIdeal.Val.AK m c) Cert.KernelIdeal.Val.CK ((Cert.KernelIdeal.Val.AK m c).y (j 0))),
    Cert.KernelIdeal.Val.run_final m ρ, ?_⟩
  refine (θ_run Cert.ReferenceIdeal.defs _ _).mono (fun r h c => ?_)
    (Cert.ReferenceIdeal.RunHand.run_results_args (F := Ideal) m' ρ')
  obtain ⟨hz, hl, hargs⟩ := h c
  have hA : Cert.ReferenceIdeal.Flow.Aof (launchContents m' c) = Cert.KernelIdeal.Val.AK m c := by
    obtain ⟨e0, e1, e2, e3, e4, e5, e6, e7, e8, e9, e10, e11, e12, e13, e14, e15⟩ := hagree c
    have f0 : launchContents m' c (Proc.devRef .tc Cert.ReferenceIdeal.main_arg0)
        = m ((c.tc : Thread Cert.KernelIdeal.nD Cert.KernelIdeal.τ).loc Cert.KernelIdeal.main_arg0) := e0
    have f1 : launchContents m' c (Proc.devRef .tc Cert.ReferenceIdeal.main_arg1)
        = m ((c.tc : Thread Cert.KernelIdeal.nD Cert.KernelIdeal.τ).loc Cert.KernelIdeal.main_arg1) := e1
    have f2 : launchContents m' c (Proc.devRef .tc Cert.ReferenceIdeal.main_arg2)
        = m ((c.tc : Thread Cert.KernelIdeal.nD Cert.KernelIdeal.τ).loc Cert.KernelIdeal.main_arg2) := e2
    have f3 : launchContents m' c (Proc.devRef .tc Cert.ReferenceIdeal.main_arg3)
        = m ((c.tc : Thread Cert.KernelIdeal.nD Cert.KernelIdeal.τ).loc Cert.KernelIdeal.main_arg3) := e3
    have f4 : launchContents m' c (Proc.devRef .tc Cert.ReferenceIdeal.main_arg4)
        = m ((c.tc : Thread Cert.KernelIdeal.nD Cert.KernelIdeal.τ).loc Cert.KernelIdeal.main_arg4) := e4
    have f5 : launchContents m' c (Proc.devRef .tc Cert.ReferenceIdeal.main_arg5)
        = m ((c.tc : Thread Cert.KernelIdeal.nD Cert.KernelIdeal.τ).loc Cert.KernelIdeal.main_arg5) := e5
    have f6 : launchContents m' c (Proc.devRef .tc Cert.ReferenceIdeal.main_arg6)
        = m ((c.tc : Thread Cert.KernelIdeal.nD Cert.KernelIdeal.τ).loc Cert.KernelIdeal.main_arg6) := e6
    have f7 : launchContents m' c (Proc.devRef .tc Cert.ReferenceIdeal.main_arg7)
        = m ((c.tc : Thread Cert.KernelIdeal.nD Cert.KernelIdeal.τ).loc Cert.KernelIdeal.main_arg7) := e7
    have f8 : launchContents m' c (Proc.devRef .tc Cert.ReferenceIdeal.main_arg8)
        = m ((c.tc : Thread Cert.KernelIdeal.nD Cert.KernelIdeal.τ).loc Cert.KernelIdeal.main_arg8) := e8
    have f9 : launchContents m' c (Proc.devRef .tc Cert.ReferenceIdeal.main_arg9)
        = m ((c.tc : Thread Cert.KernelIdeal.nD Cert.KernelIdeal.τ).loc Cert.KernelIdeal.main_arg9) := e9
    have f10 : launchContents m' c (Proc.devRef .tc Cert.ReferenceIdeal.main_arg10)
        = m ((c.tc : Thread Cert.KernelIdeal.nD Cert.KernelIdeal.τ).loc Cert.KernelIdeal.main_arg10) := e10
    have f11 : launchContents m' c (Proc.devRef .tc Cert.ReferenceIdeal.main_arg11)
        = m ((c.tc : Thread Cert.KernelIdeal.nD Cert.KernelIdeal.τ).loc Cert.KernelIdeal.main_arg11) := e11
    have f12 : launchContents m' c (Proc.devRef .tc Cert.ReferenceIdeal.main_arg12)
        = m ((c.tc : Thread Cert.KernelIdeal.nD Cert.KernelIdeal.τ).loc Cert.KernelIdeal.main_arg12) := e12
    have f13 : launchContents m' c (Proc.devRef .tc Cert.ReferenceIdeal.main_arg13)
        = m ((c.tc : Thread Cert.KernelIdeal.nD Cert.KernelIdeal.τ).loc Cert.KernelIdeal.main_arg13) := e13
    have f14 : launchContents m' c (Proc.devRef .tc Cert.ReferenceIdeal.main_arg14)
        = m ((c.tc : Thread Cert.KernelIdeal.nD Cert.KernelIdeal.τ).loc Cert.KernelIdeal.main_arg14) := e14
    have f15 : launchContents m' c (Proc.devRef .tc Cert.ReferenceIdeal.main_arg15)
        = m ((c.tc : Thread Cert.KernelIdeal.nD Cert.KernelIdeal.τ).loc Cert.KernelIdeal.main_arg15) := e15
    unfold Cert.ReferenceIdeal.Flow.Aof Cert.ReferenceIdeal.Lay.argsB Cert.KernelIdeal.Val.AK
    rw [f0, f1, f2, f3, f4, f5, f6, f7, f8, f9, f10, f11, f12, f13, f14, f15]
  refine ⟨hz.trans ?_, hl.trans ?_, hargs⟩
  · rw [Cert.ReferenceIdeal.Flow.result_z, hA, ← consts_eq]
    rfl
  · rw [Cert.ReferenceIdeal.Flow.result_ldj, hA, ← consts_eq]
    rfl

end Cert.Proof.Alg

end
-- ==== Proof.lean ====
/-
  The certificate's five claims.

  The kernel applies eight layers of a normalising flow to a batch, one 512-row block and one layer per grid point:
  each layer normalises the activations (a scale exp(ls) and a bias), multiplies by the transpose of a weight given
  in factored form (a permutation times a unit-lower-triangular times an upper-triangular matrix), and applies a
  masked affine coupling whose scale and shift come from two small rectified networks; the log-determinant collects
  the coupling's log-scales.  The reference computes the same flow on the whole batch, layer after layer, on the host.
  At the extended reals every operation of the two programs is the same exact function of the same arguments, and
  the two ways of collecting the log-determinant differ only in the order of a sum, so the results are equal entry
  by entry with no condition on the inputs beyond the claim's own.
-/
import proofs.«112469_j76776835383759_2_alg».proof.Defs
import proofs.«112469_j76776835383759_2_alg».proof.Proof.Frames
import proofs.«112469_j76776835383759_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Alg.algebraic⟩

end Cert.Proof

end
